-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x128 : Shape := ⟨2, ![1, 128]⟩
abbrev S1x64 : Shape := ⟨2, ![1, 64]⟩
abbrev S5000x128 : Shape := ⟨2, ![5000, 128]⟩
abbrev S5000x1 : Shape := ⟨2, ![5000, 1]⟩
abbrev S1700000x128 : Shape := ⟨2, ![1700000, 128]⟩
abbrev S100000x64 : Shape := ⟨2, ![100000, 64]⟩
abbrev S5000x64 : Shape := ⟨2, ![5000, 64]⟩
abbrev S5000 : Shape := ⟨1, ![5000]⟩

abbrev nBuf : Space → Nat
  | .hbm => 95
  | .vmem => 50
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x64, .f32⟩
  | .hbm, ⟨44, _⟩ => ⟨S100000x128, .bf16⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .bf16⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S_, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S100000x128, .bf16⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .bf16⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S1x128, .f32⟩
  | .hbm, ⟨86, _⟩ => ⟨S_, .f32⟩
  | .hbm, ⟨87, _⟩ => ⟨S1x128, .f32⟩
  | .hbm, ⟨88, _⟩ => ⟨S1x128, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S128x128, .f32⟩
  | .local _ .vmem, ⟨26, _⟩ => ⟨S5000x128, .bf16⟩
  | .local _ .vmem, ⟨27, _⟩ => ⟨S5000x128, .bf16⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x1, .f32⟩
  | .local _ .vmem, ⟨40, _⟩ => ⟨S5000x1, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S128x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37_0 : Ref sig .tc := ⟨.hbm, 59, rfl⟩
abbrev main_v37_1 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56_0 : Ref sig .tc := ⟨.hbm, 84, rfl⟩
abbrev main_v56_1 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg8_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_scratch0 : Ref sig .tc := ⟨.vmem, 35, rfl⟩
abbrev cc3_scratch1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg8_0 : Ref sig .tc := ⟨.vmem, 47, rfl⟩
abbrev cc4_stg9_0 : Ref sig .tc := ⟨.vmem, 48, rfl⟩
abbrev cc4_stg9_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem7_0 : DmaSem sig := 42
abbrev cc4_sem8_0 : DmaSem sig := 43
abbrev cc4_sem9_0 : DmaSem sig := 44
abbrev cc4_sem9_1 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v28 : BitVec 1 := Scalar.cmpi .eq arg0 c19_i32
  let v29 : BitVec 32 := Scalar.extui v28
  let c0_i32_15 : BitVec 32 := 0#32
  let v30 : BitVec 1 := Scalar.cmpi .ne v29 c0_i32_15
  v30

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v28 : BitVec 1 := Scalar.cmpi .eq arg0 c19_i32
  let v29 : BitVec 32 := Scalar.extui v28
  let c0_i32_15 : BitVec 32 := 0#32
  let v30 : BitVec 1 := Scalar.cmpi .ne v29 c0_i32_15
  v30

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  bcast_S_S1x128 : S_.BroadcastsInDim S1x128 (![] : Fin 0 → Fin S1x128.rank)
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .bf16 = 32 ∨ (Rect.block (s := S100000x128) S5000x128.size (cc2_transform_8 i) (hinb2_8 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x64.size a ≤ S128x64.size a
  hwx4_7 : ∀ i : grid4.Coords, EltTy.bits .f32 = 32 ∨ (Rect.block (s := S128x64) S128x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x64.size a ≤ S100000x64.size a
  hwx4_9 : ∀ i : grid4.Coords, EltTy.bits .f32 = 32 ∨ (Rect.block (s := S100000x64) S5000x64.size (cc4_transform_9 i) (hinb4_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37_0) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37_1) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg6) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v44) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56_0) S1x128.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56_1) S1x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun i => !(k3_cond2 i == 1#1) | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v55) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v21) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v62) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v22) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v23) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg10) S128x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v24) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v63) S5000x64.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩
abbrev S100000x1 : Shape := ⟨2, ![100000, 1]⟩

abbrev nBuf : Space → Nat
  | .hbm => 251
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S100000x128, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S128, .f32⟩
  | 77 => ⟨S_, .f32⟩
  | 78 => ⟨S128, .f32⟩
  | 79 => ⟨S128, .f32⟩
  | 80 => ⟨S_, .i32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S100000x128, .f32⟩
  | 88 => ⟨S100000x128, .f32⟩
  | 89 => ⟨S100000x128, .f32⟩
  | 90 => ⟨S_, .f32⟩
  | 91 => ⟨S_, .f32⟩
  | 92 => ⟨S_, .f32⟩
  | 93 => ⟨S_, .f32⟩
  | 94 => ⟨S128, .f32⟩
  | 95 => ⟨S128, .f32⟩
  | 96 => ⟨S128, .f32⟩
  | 97 => ⟨S_, .f32⟩
  | 98 => ⟨S_, .i1⟩
  | 99 => ⟨S_, .f32⟩
  | 100 => ⟨S_, .f32⟩
  | 101 => ⟨S128, .f32⟩
  | 102 => ⟨S128, .f32⟩
  | 103 => ⟨S1x128, .f32⟩
  | 104 => ⟨S100000x128, .f32⟩
  | 105 => ⟨S100000x128, .f32⟩
  | 106 => ⟨S_, .f32⟩
  | 107 => ⟨S128, .f32⟩
  | 108 => ⟨S128, .f32⟩
  | 109 => ⟨S128, .f32⟩
  | 110 => ⟨S1x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S100000, .i32⟩
  | 124 => ⟨S1x1600000, .i32⟩
  | 125 => ⟨S1600000, .i32⟩
  | 126 => ⟨S1700000, .i32⟩
  | 127 => ⟨S1x1600000, .i32⟩
  | _ => ⟨S100000x128, .f32⟩

abbrev hbmTy0_1 (i : Nat) : BufTy := match i % 128 with
  | 0 => ⟨S1600000, .i32⟩
  | 1 => ⟨S1700000, .i32⟩
  | 2 => ⟨S_, .f32⟩
  | 3 => ⟨S1700000, .f32⟩
  | 4 => ⟨S_, .f32⟩
  | 5 => ⟨S100000, .f32⟩
  | 6 => ⟨S1700000x1, .i32⟩
  | 7 => ⟨S100000, .f32⟩
  | 8 => ⟨S_, .f32⟩
  | 9 => ⟨S100000, .f32⟩
  | 10 => ⟨S100000, .i1⟩
  | 11 => ⟨S_, .f32⟩
  | 12 => ⟨S100000, .f32⟩
  | 13 => ⟨S100000, .f32⟩
  | 14 => ⟨S100000, .f32⟩
  | 15 => ⟨S_, .f32⟩
  | 16 => ⟨S_, .f32⟩
  | 17 => ⟨S100000, .f32⟩
  | 18 => ⟨S100000, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000x128, .f32⟩
  | 47 => ⟨S1700000x1, .f32⟩
  | 48 => ⟨S1700000x128, .f32⟩
  | 49 => ⟨S1700000x128, .f32⟩
  | 50 => ⟨S_, .f32⟩
  | 51 => ⟨S100000x128, .f32⟩
  | 52 => ⟨S1700000x1, .i32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S128, .f32⟩
  | 59 => ⟨S_, .f32⟩
  | 60 => ⟨S128, .f32⟩
  | 61 => ⟨S128, .f32⟩
  | 62 => ⟨S_, .i32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S100000x128, .f32⟩
  | 70 => ⟨S100000x128, .f32⟩
  | 71 => ⟨S100000x128, .f32⟩
  | 72 => ⟨S_, .f32⟩
  | 73 => ⟨S_, .f32⟩
  | 74 => ⟨S_, .f32⟩
  | 75 => ⟨S_, .f32⟩
  | 76 => ⟨S128, .f32⟩
  | 77 => ⟨S128, .f32⟩
  | 78 => ⟨S128, .f32⟩
  | 79 => ⟨S_, .f32⟩
  | 80 => ⟨S_, .i1⟩
  | 81 => ⟨S_, .f32⟩
  | 82 => ⟨S_, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S_, .f32⟩
  | 89 => ⟨S128, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S100000, .f32⟩
  | 110 => ⟨S_, .f32⟩
  | 111 => ⟨S100000, .f32⟩
  | 112 => ⟨S100000, .f32⟩
  | 113 => ⟨S100000x1, .f32⟩
  | 114 => ⟨S100000x64, .f32⟩
  | 115 => ⟨S100000x64, .f32⟩
  | 116 => ⟨S100000x64, .f32⟩
  | 117 => ⟨S_, .f32⟩
  | 118 => ⟨S100000, .f32⟩
  | 119 => ⟨S100000x1, .f32⟩
  | 120 => ⟨S100000x1, .f32⟩
  | 121 => ⟨S100000x64, .f32⟩
  | 122 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_cst_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_cst_1 : Ref sig .tc := ⟨.hbm, 91, rfl⟩
abbrev main_call1_v8 : Ref sig .tc := ⟨.hbm, 92, rfl⟩
abbrev main_call1_cst_2 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_cst_3 : Ref sig .tc := ⟨.hbm, 97, rfl⟩
abbrev main_call1_v12 : Ref sig .tc := ⟨.hbm, 98, rfl⟩
abbrev main_call1_cst_4 : Ref sig .tc := ⟨.hbm, 99, rfl⟩
abbrev main_call1_call0_v0 : Ref sig .tc := ⟨.hbm, 100, rfl⟩
abbrev main_call1_call0_v1 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_13 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_call2_cst : Ref sig .tc := ⟨.hbm, 119, rfl⟩
abbrev main_call2_v0 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_14 : Ref sig .tc := ⟨.hbm, 130, rfl⟩
abbrev main_v77 : Ref sig .tc := ⟨.hbm, 131, rfl⟩
abbrev main_cst_15 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_16 : Ref sig .tc := ⟨.hbm, 136, rfl⟩
abbrev main_v81 : Ref sig .tc := ⟨.hbm, 137, rfl⟩
abbrev main_v82 : Ref sig .tc := ⟨.hbm, 138, rfl⟩
abbrev main_cst_17 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_cst_18 : Ref sig .tc := ⟨.hbm, 143, rfl⟩
abbrev main_call3_v0 : Ref sig .tc := ⟨.hbm, 144, rfl⟩
abbrev main_call3_v1 : Ref sig .tc := ⟨.hbm, 145, rfl⟩
abbrev main_v86 : Ref sig .tc := ⟨.hbm, 146, rfl⟩
abbrev main_c_19 : Ref sig .tc := ⟨.hbm, 147, rfl⟩
abbrev main_v87 : Ref sig .tc := ⟨.hbm, 148, rfl⟩
abbrev main_v88 : Ref sig .tc := ⟨.hbm, 149, rfl⟩
abbrev main_c_20 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_c_21 : Ref sig .tc := ⟨.hbm, 156, rfl⟩
abbrev main_v94 : Ref sig .tc := ⟨.hbm, 157, rfl⟩
abbrev main_v95 : Ref sig .tc := ⟨.hbm, 158, rfl⟩
abbrev main_c_22 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_c_23 : Ref sig .tc := ⟨.hbm, 166, rfl⟩
abbrev main_v102 : Ref sig .tc := ⟨.hbm, 167, rfl⟩
abbrev main_v103 : Ref sig .tc := ⟨.hbm, 168, rfl⟩
abbrev main_c_24 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_25 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_cst_26 : Ref sig .tc := ⟨.hbm, 185, rfl⟩
abbrev main_v118 : Ref sig .tc := ⟨.hbm, 186, rfl⟩
abbrev main_cst_27 : Ref sig .tc := ⟨.hbm, 187, rfl⟩
abbrev main_v119 : Ref sig .tc := ⟨.hbm, 188, rfl⟩
abbrev main_v120 : Ref sig .tc := ⟨.hbm, 189, rfl⟩
abbrev main_c_28 : Ref sig .tc := ⟨.hbm, 190, rfl⟩
abbrev main_call4_cst : Ref sig .tc := ⟨.hbm, 191, rfl⟩
abbrev main_call4_v0 : Ref sig .tc := ⟨.hbm, 192, rfl⟩
abbrev main_call4_v1 : Ref sig .tc := ⟨.hbm, 193, rfl⟩
abbrev main_call4_cst_0 : Ref sig .tc := ⟨.hbm, 194, rfl⟩
abbrev main_call4_v2 : Ref sig .tc := ⟨.hbm, 195, rfl⟩
abbrev main_call4_v3 : Ref sig .tc := ⟨.hbm, 196, rfl⟩
abbrev main_call4_v4 : Ref sig .tc := ⟨.hbm, 197, rfl⟩
abbrev main_call4_v5 : Ref sig .tc := ⟨.hbm, 198, rfl⟩
abbrev main_call4_v6 : Ref sig .tc := ⟨.hbm, 199, rfl⟩
abbrev main_call4_v7 : Ref sig .tc := ⟨.hbm, 200, rfl⟩
abbrev main_call4_cst_1 : Ref sig .tc := ⟨.hbm, 201, rfl⟩
abbrev main_call4_v8 : Ref sig .tc := ⟨.hbm, 202, rfl⟩
abbrev main_call4_cst_2 : Ref sig .tc := ⟨.hbm, 203, rfl⟩
abbrev main_call4_v9 : Ref sig .tc := ⟨.hbm, 204, rfl⟩
abbrev main_call4_v10 : Ref sig .tc := ⟨.hbm, 205, rfl⟩
abbrev main_call4_v11 : Ref sig .tc := ⟨.hbm, 206, rfl⟩
abbrev main_call4_cst_3 : Ref sig .tc := ⟨.hbm, 207, rfl⟩
abbrev main_call4_v12 : Ref sig .tc := ⟨.hbm, 208, rfl⟩
abbrev main_call4_cst_4 : Ref sig .tc := ⟨.hbm, 209, rfl⟩
abbrev main_call4_call0_v0 : Ref sig .tc := ⟨.hbm, 210, rfl⟩
abbrev main_call4_call0_v1 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_29 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_call5_cst : Ref sig .tc := ⟨.hbm, 229, rfl⟩
abbrev main_call5_v0 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_call6_cst : Ref sig .tc := ⟨.hbm, 236, rfl⟩
abbrev main_call6_v0 : Ref sig .tc := ⟨.hbm, 237, rfl⟩
abbrev main_call6_cst_0 : Ref sig .tc := ⟨.hbm, 238, rfl⟩
abbrev main_call6_v1 : Ref sig .tc := ⟨.hbm, 239, rfl⟩
abbrev main_call6_v2 : Ref sig .tc := ⟨.hbm, 240, rfl⟩
abbrev main_call6_v3 : Ref sig .tc := ⟨.hbm, 241, rfl⟩
abbrev main_call6_v4 : Ref sig .tc := ⟨.hbm, 242, rfl⟩
abbrev main_call6_v5 : Ref sig .tc := ⟨.hbm, 243, rfl⟩
abbrev main_call6_v6 : Ref sig .tc := ⟨.hbm, 244, rfl⟩
abbrev main_call6_cst_1 : Ref sig .tc := ⟨.hbm, 245, rfl⟩
abbrev main_call6_v7 : Ref sig .tc := ⟨.hbm, 246, rfl⟩
abbrev main_call6_v8 : Ref sig .tc := ⟨.hbm, 247, rfl⟩
abbrev main_call6_v9 : Ref sig .tc := ⟨.hbm, 248, rfl⟩
abbrev main_call6_v10 : Ref sig .tc := ⟨.hbm, 249, rfl⟩
abbrev main_v142 : Ref sig .tc := ⟨.hbm, 250, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RefOps.lean ====
/- TABLE written by a script (scratch/gen_refops.js; invocation, from the unit directory: bun scratch/gen_refops.js $KIT/certs/proofs/156713_j13589276524898_2_alg): the reference program's three
   windows of @main as lists of host operations, each outlined function's lines put at its call site over that call's
   buffers; beside each list the buffers its lines write and, line by line, that every buffer named is a TensorCore one.
   Nothing is argued here: the lists are the printed program's own lines in order. -/
import proofs.«156713_j13589276524898_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- Window 0 of @main: 62 operations. -/
abbrev ops0 : List (HloOp τ sig (Elt F)) :=
  [ StableHlo.binary main_arg0 main_arg2 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_v1 (iotaInDim S100000 32 0),
    StableHlo.unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_v3 main_v1 main_v4 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v5 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v5 main_v6 rfl shapeCasts_S1x1600000_S1600000,
    StableHlo.binary main_v6 main_v1 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v8 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v14 (broadcastInDim S100000 ![] bcast_S_S100000 : (⟨S_, .f32⟩ : BufTy).Contents (Elt F) → (⟨S100000, .f32⟩ : BufTy).Contents (Elt F)),
    StableHlo.binary main_v11 main_v14 main_v15 (maximumf : (⟨S100000, .f32⟩ : BufTy).Contents (Elt F) → (⟨S100000, .f32⟩ : BufTy).Contents (Elt F) → (⟨S100000, .f32⟩ : BufTy).Contents (Elt F)),
    StableHlo.unary main_v15 main_v16 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S100000 ![] bcast_S_S100000),
    StableHlo.TRef.ternary (.of main_v13 : StableHlo.TRef sig ⟨S100000, .i1⟩) (.of main_v16 : StableHlo.TRef sig ⟨S100000, .f32⟩) main_call0.v1 main_call0.v2 select,
    StableHlo.nullary main_c (constantI S_ 32 0#32),
    StableHlo.unary main_c main_v18 (broadcastInDim S1700000 ![] bcast_S_S1700000 : (⟨S_, .i32⟩ : BufTy).Contents (Elt F) → (⟨S1700000, .i32⟩ : BufTy).Contents (Elt F)),
    StableHlo.binary main_v4 main_v18 main_v19 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v20 (broadcastInDim S1700000 ![] bcast_S_S1700000 : (⟨S_, .i32⟩ : BufTy).Contents (Elt F) → (⟨S1700000, .i32⟩ : BufTy).Contents (Elt F)),
    StableHlo.binary main_v4 main_v20 main_v21 (addi : (⟨S1700000, .i32⟩ : BufTy).Contents (Elt F) → (⟨S1700000, .i32⟩ : BufTy).Contents (Elt F) → (⟨S1700000, .i32⟩ : BufTy).Contents (Elt F)),
    StableHlo.ternary main_v19 main_v21 main_v4 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v22 main_v23 (broadcastInDim S1700000x1 ![0] bcast_S1700000_S1700000x1_0 : (⟨S1700000, .i32⟩ : BufTy).Contents (Elt F) → (⟨S1700000x1, .i32⟩ : BufTy).Contents (Elt F)),
    StableHlo.binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v7 main_v25 main_v26 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v27 (broadcastInDim S1700000 ![] bcast_S_S1700000 : (⟨S_, .i32⟩ : BufTy).Contents (Elt F) → (⟨S1700000, .i32⟩ : BufTy).Contents (Elt F)),
    StableHlo.binary main_v7 main_v27 main_v28 (addi : (⟨S1700000, .i32⟩ : BufTy).Contents (Elt F) → (⟨S1700000, .i32⟩ : BufTy).Contents (Elt F) → (⟨S1700000, .i32⟩ : BufTy).Contents (Elt F)),
    StableHlo.ternary main_v26 main_v28 main_v7 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v29 main_v30 (broadcastInDim S1700000x1 ![0] bcast_S1700000_S1700000x1_0 : (⟨S1700000, .i32⟩ : BufTy).Contents (Elt F) → (⟨S1700000x1, .i32⟩ : BufTy).Contents (Elt F)),
    StableHlo.binary main_v17 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v24 main_v31 main_v32 (mulf : (⟨S1700000, .f32⟩ : BufTy).Contents (Elt F) → (⟨S1700000, .f32⟩ : BufTy).Contents (Elt F) → (⟨S1700000, .f32⟩ : BufTy).Contents (Elt F)),
    StableHlo.nullary main_c_7 (constantI S_ 32 0#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v4 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v35 (broadcastInDim S1700000 ![] bcast_S_S1700000 : (⟨S_, .i32⟩ : BufTy).Contents (Elt F) → (⟨S1700000, .i32⟩ : BufTy).Contents (Elt F)),
    StableHlo.binary main_v4 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v4 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v0 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v32 main_v40 (broadcastInDim S1700000x1 ![0] bcast_S1700000_S1700000x1_0 : (⟨S1700000, .f32⟩ : BufTy).Contents (Elt F) → (⟨S1700000x1, .f32⟩ : BufTy).Contents (Elt F)),
    StableHlo.unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    StableHlo.nullary main_cst_9 (constant S_ .f32 0x00000000#32),
    StableHlo.unary main_cst_9 main_v43 (broadcastInDim S100000x128 ![] bcast_S_S100000x128 : (⟨S_, .f32⟩ : BufTy).Contents (Elt F) → (⟨S100000x128, .f32⟩ : BufTy).Contents (Elt F)),
    StableHlo.unary main_v7 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)) ]

/-- The buffers window 0's lines write, in order. -/
abbrev written0 : List (Ref sig .tc) := [main_v0, main_v1, main_v2, main_v3, main_v4, main_v5, main_v6, main_v7, main_cst, main_v8, main_cst_0, main_v9, main_v10, main_v11, main_cst_1, main_v12, main_v13, main_cst_2, main_v14, main_v15, main_v16, main_cst_3, main_call0_v0, main_call0_v1, main_v17, main_c, main_v18, main_v19, main_c_4, main_v20, main_v21, main_v22, main_v23, main_v24, main_c_5, main_v25, main_v26, main_c_6, main_v27, main_v28, main_v29, main_v30, main_v31, main_v32, main_c_7, main_v33, main_v34, main_c_8, main_v35, main_v36, main_v37, main_v38, main_v39, main_v40, main_v41, main_v42, main_cst_9, main_v43, main_v44, main_v45, main_v46, main_v47]

theorem ops0_sub : (ops0 : List (HloOp τ sig (Elt F))).Forall fun op => op.bufs ⊆ tcRefs τ sig :=
  ⟨binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub ..⟩

/-- Window 1 of @main: 85 operations. -/
abbrev ops1 : List (HloOp τ sig (Elt F)) :=
  [ StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.binary main_v48 main_cst_10 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call1.cst (constant S_ .f32 0x00000000#32),
    StableHlo.TRef.binary (.of main_v48 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v48 : StableHlo.TRef sig ⟨S100000x128, .f32⟩) main_call1.v4 main_call1.v5 subf,
    StableHlo.TRef.binary main_call1.v5 main_call1.v5 main_call1.v6 mulf,
    StableHlo.TRef.unary (.of main_c_12 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v54 main_v55 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v56 (broadcastInDim S128 ![] bcast_S_S128 : (⟨S_, .f32⟩ : BufTy).Contents (Elt F) → (⟨S128, .f32⟩ : BufTy).Contents (Elt F)),
    StableHlo.binary main_v52 main_v56 main_v57 (addf : (⟨S128, .f32⟩ : BufTy).Contents (Elt F) → (⟨S128, .f32⟩ : BufTy).Contents (Elt F) → (⟨S128, .f32⟩ : BufTy).Contents (Elt F)),
    StableHlo.unary main_v57 main_v58 (Host.rsqrt : (⟨S128, .f32⟩ : BufTy).Contents (Elt F) → (⟨S128, .f32⟩ : BufTy).Contents (Elt F)),
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v60 main_v61 (mulf : (⟨S100000x128, .f32⟩ : BufTy).Contents (Elt F) → (⟨S100000x128, .f32⟩ : BufTy).Contents (Elt F) → (⟨S100000x128, .f32⟩ : BufTy).Contents (Elt F)),
    StableHlo.unary main_arg4 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v63 main_v64 (mulf : (⟨S100000x128, .f32⟩ : BufTy).Contents (Elt F) → (⟨S100000x128, .f32⟩ : BufTy).Contents (Elt F) → (⟨S100000x128, .f32⟩ : BufTy).Contents (Elt F)),
    StableHlo.unary main_arg5 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v67 : StableHlo.TRef sig ⟨S100000x128, .f32⟩) main_call2.v0 main_call2.v1 maximumf,
    StableHlo.binary main_v68 main_arg6 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_v70 (iotaInDim S100000 32 0),
    StableHlo.unary main_arg1 main_v71 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v71 main_v72 rfl shapeCasts_S1x1600000_S1600000,
    StableHlo.binary main_v72 main_v70 main_v73 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v74 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v74 main_v75 rfl shapeCasts_S1x1600000_S1600000,
    StableHlo.binary main_v75 main_v70 main_v76 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_14 (constant S_ .f32 0x3F800000#32),
    StableHlo.unary main_cst_14 main_v77 (broadcastInDim S1700000 ![] bcast_S_S1700000 : (⟨S_, .f32⟩ : BufTy).Contents (Elt F) → (⟨S1700000, .f32⟩ : BufTy).Contents (Elt F)),
    StableHlo.nullary main_cst_15 (constant S_ .f32 0x00000000#32),
    StableHlo.unary main_cst_15 main_v78 (broadcastInDim S100000 ![] bcast_S_S100000 : (⟨S_, .f32⟩ : BufTy).Contents (Elt F) → (⟨S100000, .f32⟩ : BufTy).Contents (Elt F)),
    StableHlo.unary main_v76 main_v79 (broadcastInDim S1700000x1 ![0] bcast_S1700000_S1700000x1_0 : (⟨S1700000, .i32⟩ : BufTy).Contents (Elt F) → (⟨S1700000x1, .i32⟩ : BufTy).Contents (Elt F)),
    StableHlo.ternary main_v78 main_v79 main_v77 main_v80 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_16 (constant S_ .f32 0x00000000#32),
    StableHlo.unary main_cst_16 main_v81 (broadcastInDim S100000 ![] bcast_S_S100000 : (⟨S_, .f32⟩ : BufTy).Contents (Elt F) → (⟨S100000, .f32⟩ : BufTy).Contents (Elt F)),
    StableHlo.binary main_v80 main_v81 main_v82 (cmpf .ogt : (⟨S100000, .f32⟩ : BufTy).Contents (Elt F) → (⟨S100000, .f32⟩ : BufTy).Contents (Elt F) → (⟨S100000, .i1⟩ : BufTy).Contents (Elt F)),
    StableHlo.nullary main_cst_17 (constant S_ .f32 0x3F800000#32),
    StableHlo.unary main_cst_17 main_v83 (broadcastInDim S100000 ![] bcast_S_S100000 : (⟨S_, .f32⟩ : BufTy).Contents (Elt F) → (⟨S100000, .f32⟩ : BufTy).Contents (Elt F)),
    StableHlo.binary main_v80 main_v83 main_v84 (maximumf : (⟨S100000, .f32⟩ : BufTy).Contents (Elt F) → (⟨S100000, .f32⟩ : BufTy).Contents (Elt F) → (⟨S100000, .f32⟩ : BufTy).Contents (Elt F)),
    StableHlo.unary main_v84 main_v85 (Host.rsqrt : (⟨S100000, .f32⟩ : BufTy).Contents (Elt F) → (⟨S100000, .f32⟩ : BufTy).Contents (Elt F)),
    StableHlo.nullary main_cst_18 (constant S_ .f32 0x00000000#32),
    StableHlo.TRef.unary (.of main_cst_18 : StableHlo.TRef sig ⟨S_, .f32⟩) main_call3.v0 id,
    StableHlo.TRef.unary main_call3.v0 main_call3.v1 (broadcastInDim S100000 ![] bcast_S_S100000),
    StableHlo.TRef.ternary (.of main_v82 : StableHlo.TRef sig ⟨S100000, .i1⟩) (.of main_v85 : StableHlo.TRef sig ⟨S100000, .f32⟩) main_call3.v1 main_call3.v2 select,
    StableHlo.nullary main_c_19 (constantI S_ 32 0#32),
    StableHlo.unary main_c_19 main_v87 (broadcastInDim S1700000 ![] bcast_S_S1700000 : (⟨S_, .i32⟩ : BufTy).Contents (Elt F) → (⟨S1700000, .i32⟩ : BufTy).Contents (Elt F)),
    StableHlo.binary main_v73 main_v87 main_v88 (cmpi .slt : (⟨S1700000, .i32⟩ : BufTy).Contents (Elt F) → (⟨S1700000, .i32⟩ : BufTy).Contents (Elt F) → (⟨S1700000, .i1⟩ : BufTy).Contents (Elt F)),
    StableHlo.nullary main_c_20 (constantI S_ 32 100000#32),
    StableHlo.unary main_c_20 main_v89 (broadcastInDim S1700000 ![] bcast_S_S1700000 : (⟨S_, .i32⟩ : BufTy).Contents (Elt F) → (⟨S1700000, .i32⟩ : BufTy).Contents (Elt F)),
    StableHlo.binary main_v73 main_v89 main_v90 (addi : (⟨S1700000, .i32⟩ : BufTy).Contents (Elt F) → (⟨S1700000, .i32⟩ : BufTy).Contents (Elt F) → (⟨S1700000, .i32⟩ : BufTy).Contents (Elt F)),
    StableHlo.ternary main_v88 main_v90 main_v73 main_v91 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v91 main_v92 (broadcastInDim S1700000x1 ![0] bcast_S1700000_S1700000x1_0 : (⟨S1700000, .i32⟩ : BufTy).Contents (Elt F) → (⟨S1700000x1, .i32⟩ : BufTy).Contents (Elt F)),
    StableHlo.binary main_v86 main_v92 main_v93 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_21 (constantI S_ 32 0#32),
    StableHlo.unary main_c_21 main_v94 (broadcastInDim S1700000 ![] bcast_S_S1700000 : (⟨S_, .i32⟩ : BufTy).Contents (Elt F) → (⟨S1700000, .i32⟩ : BufTy).Contents (Elt F)),
    StableHlo.binary main_v76 main_v94 main_v95 (cmpi .slt : (⟨S1700000, .i32⟩ : BufTy).Contents (Elt F) → (⟨S1700000, .i32⟩ : BufTy).Contents (Elt F) → (⟨S1700000, .i1⟩ : BufTy).Contents (Elt F)) ]

/-- The buffers window 1's lines write, in order. -/
abbrev written1 : List (Ref sig .tc) := [main_v48, main_cst_10, main_v49, main_cst_11, main_v50, main_v51, main_c_12, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v52, main_v53, main_v54, main_v55, main_cst_13, main_v56, main_v57, main_v58, main_v59, main_v60, main_v61, main_v62, main_v63, main_v64, main_v65, main_v66, main_v67, main_call2_cst, main_call2_v0, main_v68, main_v69, main_v70, main_v71, main_v72, main_v73, main_v74, main_v75, main_v76, main_cst_14, main_v77, main_cst_15, main_v78, main_v79, main_v80, main_cst_16, main_v81, main_v82, main_cst_17, main_v83, main_v84, main_v85, main_cst_18, main_call3_v0, main_call3_v1, main_v86, main_c_19, main_v87, main_v88, main_c_20, main_v89, main_v90, main_v91, main_v92, main_v93, main_c_21, main_v94, main_v95]

theorem ops1_sub : (ops1 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub ..⟩

/-- Window 2 of @main: 92 operations. -/
abbrev ops2 : List (HloOp τ sig (Elt F)) :=
  [ StableHlo.nullary main_c_22 (constantI S_ 32 100000#32),
    StableHlo.unary main_c_22 main_v96 (broadcastInDim S1700000 ![] bcast_S_S1700000 : (⟨S_, .i32⟩ : BufTy).Contents (Elt F) → (⟨S1700000, .i32⟩ : BufTy).Contents (Elt F)),
    StableHlo.binary main_v76 main_v96 main_v97 (addi : (⟨S1700000, .i32⟩ : BufTy).Contents (Elt F) → (⟨S1700000, .i32⟩ : BufTy).Contents (Elt F) → (⟨S1700000, .i32⟩ : BufTy).Contents (Elt F)),
    StableHlo.ternary main_v95 main_v97 main_v76 main_v98 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v98 main_v99 (broadcastInDim S1700000x1 ![0] bcast_S1700000_S1700000x1_0 : (⟨S1700000, .i32⟩ : BufTy).Contents (Elt F) → (⟨S1700000x1, .i32⟩ : BufTy).Contents (Elt F)),
    StableHlo.binary main_v86 main_v99 main_v100 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v93 main_v100 main_v101 (mulf : (⟨S1700000, .f32⟩ : BufTy).Contents (Elt F) → (⟨S1700000, .f32⟩ : BufTy).Contents (Elt F) → (⟨S1700000, .f32⟩ : BufTy).Contents (Elt F)),
    StableHlo.nullary main_c_23 (constantI S_ 32 0#32),
    StableHlo.unary main_c_23 main_v102 (broadcastInDim S1700000 ![] bcast_S_S1700000 : (⟨S_, .i32⟩ : BufTy).Contents (Elt F) → (⟨S1700000, .i32⟩ : BufTy).Contents (Elt F)),
    StableHlo.binary main_v73 main_v102 main_v103 (cmpi .slt : (⟨S1700000, .i32⟩ : BufTy).Contents (Elt F) → (⟨S1700000, .i32⟩ : BufTy).Contents (Elt F) → (⟨S1700000, .i1⟩ : BufTy).Contents (Elt F)),
    StableHlo.nullary main_c_24 (constantI S_ 32 100000#32),
    StableHlo.unary main_c_24 main_v104 (broadcastInDim S1700000 ![] bcast_S_S1700000 : (⟨S_, .i32⟩ : BufTy).Contents (Elt F) → (⟨S1700000, .i32⟩ : BufTy).Contents (Elt F)),
    StableHlo.binary main_v73 main_v104 main_v105 (addi : (⟨S1700000, .i32⟩ : BufTy).Contents (Elt F) → (⟨S1700000, .i32⟩ : BufTy).Contents (Elt F) → (⟨S1700000, .i32⟩ : BufTy).Contents (Elt F)),
    StableHlo.ternary main_v103 main_v105 main_v73 main_v106 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v106 main_v107 (broadcastInDim S1700000x1 ![0] bcast_S1700000_S1700000x1_0 : (⟨S1700000, .i32⟩ : BufTy).Contents (Elt F) → (⟨S1700000x1, .i32⟩ : BufTy).Contents (Elt F)),
    StableHlo.binary main_v69 main_v107 main_v108 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v101 main_v109 (broadcastInDim S1700000x1 ![0] bcast_S1700000_S1700000x1_0 : (⟨S1700000, .f32⟩ : BufTy).Contents (Elt F) → (⟨S1700000x1, .f32⟩ : BufTy).Contents (Elt F)),
    StableHlo.unary main_v109 main_v110 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v108 main_v110 main_v111 (mulf : (⟨S1700000x128, .f32⟩ : BufTy).Contents (Elt F) → (⟨S1700000x128, .f32⟩ : BufTy).Contents (Elt F) → (⟨S1700000x128, .f32⟩ : BufTy).Contents (Elt F)),
    StableHlo.nullary main_cst_25 (constant S_ .f32 0x00000000#32),
    StableHlo.unary main_cst_25 main_v112 (broadcastInDim S100000x128 ![] bcast_S_S100000x128 : (⟨S_, .f32⟩ : BufTy).Contents (Elt F) → (⟨S100000x128, .f32⟩ : BufTy).Contents (Elt F)),
    StableHlo.unary main_v76 main_v113 (broadcastInDim S1700000x1 ![0] bcast_S1700000_S1700000x1_0 : (⟨S1700000, .i32⟩ : BufTy).Contents (Elt F) → (⟨S1700000x1, .i32⟩ : BufTy).Contents (Elt F)),
    StableHlo.ternary main_v112 main_v113 main_v111 main_v114 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg7 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v116 main_v117 (addf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x00000000#32),
    StableHlo.binary main_v117 main_cst_26 main_v118 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_27 (constant S_ .f32 0x47C35000#32),
    StableHlo.unary main_cst_27 main_v119 (broadcastInDim S128 ![] bcast_S_S128 : (⟨S_, .f32⟩ : BufTy).Contents (Elt F) → (⟨S128, .f32⟩ : BufTy).Contents (Elt F)),
    StableHlo.binary main_v118 main_v119 main_v120 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary main_call4.cst (constant S_ .f32 0x00000000#32),
    StableHlo.TRef.binary (.of main_v117 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v117 : StableHlo.TRef sig ⟨S100000x128, .f32⟩) main_call4.v4 main_call4.v5 subf,
    StableHlo.TRef.binary main_call4.v5 main_call4.v5 main_call4.v6 mulf,
    StableHlo.TRef.unary (.of main_c_28 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v120 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S100000x128 ![0, 1] bcast_S1x128_S100000x128_0_1 : (⟨S1x128, .f32⟩ : BufTy).Contents (Elt F) → (⟨S100000x128, .f32⟩ : BufTy).Contents (Elt F)),
    StableHlo.binary main_v117 main_v123 main_v124 (subf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v125 (broadcastInDim S128 ![] bcast_S_S128 : (⟨S_, .f32⟩ : BufTy).Contents (Elt F) → (⟨S128, .f32⟩ : BufTy).Contents (Elt F)),
    StableHlo.binary main_v121 main_v125 main_v126 (addf : (⟨S128, .f32⟩ : BufTy).Contents (Elt F) → (⟨S128, .f32⟩ : BufTy).Contents (Elt F) → (⟨S128, .f32⟩ : BufTy).Contents (Elt F)),
    StableHlo.unary main_v126 main_v127 (Host.rsqrt : (⟨S128, .f32⟩ : BufTy).Contents (Elt F) → (⟨S128, .f32⟩ : BufTy).Contents (Elt F)),
    StableHlo.unary main_v127 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v129 main_v130 (mulf : (⟨S100000x128, .f32⟩ : BufTy).Contents (Elt F) → (⟨S100000x128, .f32⟩ : BufTy).Contents (Elt F) → (⟨S100000x128, .f32⟩ : BufTy).Contents (Elt F)),
    StableHlo.unary main_arg8 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S100000x128 ![0, 1] bcast_S1x128_S100000x128_0_1 : (⟨S1x128, .f32⟩ : BufTy).Contents (Elt F) → (⟨S100000x128, .f32⟩ : BufTy).Contents (Elt F)),
    StableHlo.binary main_v130 main_v132 main_v133 (mulf : (⟨S100000x128, .f32⟩ : BufTy).Contents (Elt F) → (⟨S100000x128, .f32⟩ : BufTy).Contents (Elt F) → (⟨S100000x128, .f32⟩ : BufTy).Contents (Elt F)),
    StableHlo.unary main_arg9 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S100000x128 ![0, 1] bcast_S1x128_S100000x128_0_1 : (⟨S1x128, .f32⟩ : BufTy).Contents (Elt F) → (⟨S100000x128, .f32⟩ : BufTy).Contents (Elt F)),
    StableHlo.binary main_v133 main_v135 main_v136 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v136 : StableHlo.TRef sig ⟨S100000x128, .f32⟩) main_call5.v0 main_call5.v1 maximumf,
    StableHlo.binary main_v137 main_arg10 main_v138 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg11 main_v139 (broadcastInDim S1x64 ![1] bcast_S64_S1x64_1 : (⟨S64, .f32⟩ : BufTy).Contents (Elt F) → (⟨S1x64, .f32⟩ : BufTy).Contents (Elt F)),
    StableHlo.unary main_v139 main_v140 (broadcastInDim S100000x64 ![0, 1] bcast_S1x64_S100000x64_0_1 : (⟨S1x64, .f32⟩ : BufTy).Contents (Elt F) → (⟨S100000x64, .f32⟩ : BufTy).Contents (Elt F)),
    StableHlo.binary main_v138 main_v140 main_v141 (addf : (⟨S100000x64, .f32⟩ : BufTy).Contents (Elt F) → (⟨S100000x64, .f32⟩ : BufTy).Contents (Elt F) → (⟨S100000x64, .f32⟩ : BufTy).Contents (Elt F)),
    StableHlo.TRef.nullary main_call6.cst (constant S_ .f32 0xFF800000#32),
    StableHlo.TRef.binary (.of main_v141 : StableHlo.TRef sig ⟨S100000x64, .f32⟩) main_call6.cst main_call6.v0 (fun x v => Host.reduce FloatOps.maximumf x v reducesTo_S100000x64_S100000_d1 h_S_),
    StableHlo.TRef.nullary main_call6.cst_0 (constant S_ .f32 0xFF800000#32),
    StableHlo.TRef.unary main_call6.cst_0 main_call6.v1 (broadcastInDim S100000 ![] bcast_S_S100000),
    StableHlo.TRef.binary main_call6.v1 main_call6.v0 main_call6.v2 maximumf,
    StableHlo.TRef.unary main_call6.v2 main_call6.v3 (broadcastInDim S100000x1 ![0] bcast_S100000_S100000x1_0),
    StableHlo.TRef.unary main_call6.v3 main_call6.v4 (broadcastInDim S100000x64 ![0, 1] bcast_S100000x1_S100000x64_0_1),
    StableHlo.TRef.binary (.of main_v141 : StableHlo.TRef sig ⟨S100000x64, .f32⟩) main_call6.v4 main_call6.v5 subf,
    StableHlo.TRef.unary main_call6.v5 main_call6.v6 Host.exp,
    StableHlo.TRef.nullary main_call6.cst_1 (constant S_ .f32 0x00000000#32),
    StableHlo.TRef.binary main_call6.v6 main_call6.cst_1 main_call6.v7 (fun x v => Host.reduceAdd x v reducesTo_S100000x64_S100000_d1 h_S_),
    StableHlo.TRef.unary main_call6.v7 main_call6.v8 (broadcastInDim S100000x1 ![0] bcast_S100000_S100000x1_0),
    StableHlo.TRef.unary main_call6.v8 main_call6.v9 Host.log,
    StableHlo.TRef.unary main_call6.v9 main_call6.v10 (broadcastInDim S100000x64 ![0, 1] bcast_S100000x1_S100000x64_0_1),
    StableHlo.TRef.binary main_call6.v5 main_call6.v10 main_call6.v11 subf ]

/-- The buffers window 2's lines write, in order. -/
abbrev written2 : List (Ref sig .tc) := [main_c_22, main_v96, main_v97, main_v98, main_v99, main_v100, main_v101, main_c_23, main_v102, main_v103, main_c_24, main_v104, main_v105, main_v106, main_v107, main_v108, main_v109, main_v110, main_v111, main_cst_25, main_v112, main_v113, main_v114, main_v115, main_v116, main_v117, main_cst_26, main_v118, main_cst_27, main_v119, main_v120, main_c_28, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v121, main_v122, main_v123, main_v124, main_cst_29, main_v125, main_v126, main_v127, main_v128, main_v129, main_v130, main_v131, main_v132, main_v133, main_v134, main_v135, main_v136, main_call5_cst, main_call5_v0, main_v137, main_v138, main_v139, main_v140, main_v141, main_call6_cst, main_call6_v0, main_call6_cst_0, main_call6_v1, main_call6_v2, main_call6_v3, main_call6_v4, main_call6_v5, main_call6_v6, main_call6_cst_1, main_call6_v7, main_call6_v8, main_call6_v9, main_call6_v10, main_v142]

theorem ops2_sub : (ops2 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

end Cert.ReferenceIdeal.RefOps

end
-- ==== Proof.RefRun.lean ====
/-
  The reference program's run, read back.

  @main of the reference is a straight line of host operations: its three printed windows are the three
  operation lists of RefOps (each outlined function's lines standing at its call site), so @main is the
  run of their concatenation, and every weakly fair execution terminates with each buffer at the fold of the
  operations' results over the launch contents. No line writes an argument array (each line writes a buffer
  of its own, and no argument is among them), so the arguments end as launched: the reference's frame.
-/
import proofs.«156713_j13589276524898_2_alg».proof.Proof.RefOps

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-! ## Lists run one after the other -/

/-- The fold over a concatenation is the fold over the second list from where the first one ends. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A property of every line of two lists holds of every line of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- @main's operations: the three windows in order. -/
abbrev ops : List (HloOp τ sig (Elt F)) := ops0 ++ (ops1 ++ ops2)

/-! ## Each window is its list -/

theorem part0_eq (c : Dev nD) : main_part0 (F := F) c = seq ops0 := by
  simp only [main_part0, fn_where.body, seq, bind_assoc, pure_bind, bind_pure_unit]

theorem part1_eq (c : Dev nD) : main_part1 (F := F) c = seq ops1 := by
  simp only [main_part1, fn_where.body, fn_where_0.body, fn_var.body, fn_relu.body, seq, bind_assoc, pure_bind, bind_pure_unit]

theorem part2_eq (c : Dev nD) : main_part2 (F := F) c = seq ops2 := by
  simp only [main_part2, fn_where_0.body, fn_var.body, fn_relu.body, fn_log_softmax.body, seq, bind_assoc, pure_bind, bind_pure_unit]

/-- @main is the run of all its operations in order. -/
theorem main_eq (c : Dev nD) : main (F := F) c = seq (ops (F := F)) := by
  rw [seq_append, seq_append, ← part0_eq c, ← part1_eq c, ← part2_eq c]
  rfl

/-! ## What the lines touch -/

theorem ops_sub : (ops : List (HloOp τ sig (Elt F))).Forall fun op => op.bufs ⊆ tcRefs τ sig :=
  forall_append ops0_sub (forall_append ops1_sub ops2_sub)

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor

theorem ops_fresh : ∀ op ∈ (ops : List (HloOp τ sig (Elt F))), op.fresh = ∅ :=
  List.forall_iff_forall_mem.mp (forall_append ops0_fresh (forall_append ops1_fresh ops2_fresh))

/-- Every line of window 0 writes a buffer of `written0`, -/
theorem ops0_writes : (ops0 : List (HloOp τ sig (Elt F))).Forall fun op => op.writes ⊆ (written0.map (Proc.devRef (τ := τ) .tc)).toFinset := by
  simp only [List.Forall]
  repeat' apply And.intro
  all_goals (simp only [nullary_writes, unary_writes, binary_writes, ternary_writes, quaternary_writes, reshape_writes, Finset.singleton_subset_iff, List.mem_toFinset]; exact List.mem_map_of_mem (by decide))
/-- of window 1 one of `written1`, -/
theorem ops1_writes : (ops1 : List (HloOp τ sig (Elt F))).Forall fun op => op.writes ⊆ (written1.map (Proc.devRef (τ := τ) .tc)).toFinset := by
  simp only [List.Forall]
  repeat' apply And.intro
  all_goals (simp only [nullary_writes, unary_writes, binary_writes, ternary_writes, quaternary_writes, reshape_writes, Finset.singleton_subset_iff, List.mem_toFinset]; exact List.mem_map_of_mem (by decide))
/-- of window 2 one of `written2`. -/
theorem ops2_writes : (ops2 : List (HloOp τ sig (Elt F))).Forall fun op => op.writes ⊆ (written2.map (Proc.devRef (τ := τ) .tc)).toFinset := by
  simp only [List.Forall]
  repeat' apply And.intro
  all_goals (simp only [nullary_writes, unary_writes, binary_writes, ternary_writes, quaternary_writes, reshape_writes, Finset.singleton_subset_iff, List.mem_toFinset]; exact List.mem_map_of_mem (by decide))

/-- A buffer no window writes holds, after all of @main, what it held before. -/
theorem kept (V : Valuation τ sig (Elt F)) {r : Ref sig .tc} (h0 : r ∉ written0) (h1 : r ∉ written1) (h2 : r ∉ written2) :
    after (ops (F := F)) V (Proc.devRef .tc r) = V (Proc.devRef .tc r) := by
  rw [after_append, after_append]
  exact (after_of_writes_sub ops2 _ ops2_writes h2).trans
    ((after_of_writes_sub ops1 _ ops1_writes h1).trans (after_of_writes_sub ops0 _ ops0_writes h0))

/-! ## The run -/

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of
    @main terminates, and every final state has each buffer at the fold of the operations' results over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (Proc.devRef .tc b) :=
  run_seq scopedRefs_eq scopedSems_eq defs main (fun _ => ops) main_eq (fun _ => ops_sub) m ρ (fun _ => ops_fresh)

/-- The reference's frame at any float values: it runs to the end, and its argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c main_arg0).trans (kept _ (by decide) (by decide) (by decide)),
     (h c main_arg1).trans (kept _ (by decide) (by decide) (by decide)),
     (h c main_arg2).trans (kept _ (by decide) (by decide) (by decide)),
     (h c main_arg3).trans (kept _ (by decide) (by decide) (by decide)),
     (h c main_arg4).trans (kept _ (by decide) (by decide) (by decide)),
     (h c main_arg5).trans (kept _ (by decide) (by decide) (by decide)),
     (h c main_arg6).trans (kept _ (by decide) (by decide) (by decide)),
     (h c main_arg7).trans (kept _ (by decide) (by decide) (by decide)),
     (h c main_arg8).trans (kept _ (by decide) (by decide) (by decide)),
     (h c main_arg9).trans (kept _ (by decide) (by decide) (by decide)),
     (h c main_arg10).trans (kept _ (by decide) (by decide) (by decide)),
     (h c main_arg11).trans (kept _ (by decide) (by decide) (by decide))⟩)
    (run m ρ)

end Cert.ReferenceIdeal.RefRun

end
-- ==== Proof.K.Dense0.lean ====
import proofs.«156713_j13589276524898_2_alg».proof.Proof.Gen.Kernel.Launch
import proofs.«156713_j13589276524898_2_alg».proof.Proof.Gen.Kernel.Skeleton
import proofs.«156713_j13589276524898_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first dense layer's pipeline (region 0): a row block times the weight matrix, scaled row by row

At every grid point the body reads a 5000x128 block of rows (window 0), the whole 128x128 weight matrix
(window 1, the same block at every point) and the block's 5000x1 column of row scales (window 2); it rounds
both factors to bf16, multiplies them accumulating in f32 from zero, scales row `r` of the product by the
`r`-th scale, rounds to bf16 and writes the result over the whole 5000x128 output block (window 3).
Everything below is stated at a parameter `V`: the contents of the core's buffers when the pipeline starts. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the part of the window's array, as `V` has it, that the
    window's index map selects at `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's buffer holds the row block of the point, at every point: for any proof data over `V`'s
    arrays whose body leaves that buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight matrix's buffer holds the weight matrix at every point, though it is copied in only at the
    first: its block index never moves, so an unfetched point still finds the block of the point before. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The scale column's buffer holds the scale column of the point, at every point. -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The rectangles the body reads and writes: each is its whole buffer -/

abbrev rRows0 : Rect S5000x128 := Rect.unit (s := S5000x128) ![0, 0] S5000x128.size inb_S5000x128_S5000x128_0_0
abbrev rWeight0 : Rect S128x128 := Rect.unit (s := S128x128) ![0, 0] S128x128.size inb_S128x128_S128x128_0_0
abbrev rScale0 : Rect S5000x1 := Rect.unit (s := S5000x1) ![0, 0] S5000x1.size inb_S5000x1_S5000x1_0_0

/-! ## What the body leaves in the output block -/

/-- The output block after the body, from the three input blocks: one write over the whole block, of
    `bf16 ((bf16 x0 · bf16 x1) * x2)` — the payload the body's store carries. -/
def res0 (x0 : Vec F S5000x128 .f32) (x1 : Vec F S128x128 .f32) (x2 : Vec F S5000x1 .f32) : Vec F S5000x128 .bf16 :=
  View.canon [⟨rRows0, k0_pay1 (View.ld x0 rRows0) (View.ld x1 rWeight0) (View.ld x2 rScale0)⟩]

/-- The one write covers the output block. -/
theorem cover0 (p0 : Vec F S5000x128 .bf16) (y : S5000x128.Idx) :
    ∃ pc ∈ ([⟨rRows0, p0⟩] : List (View.Piece (Elt F) S5000x128 .bf16)), y ∈ pc.1.set :=
  View.cover_of_tiled [⟨rRows0, p0⟩] S5000x128.size (by rfl) y

/-! ## The body's triple -/

set_option maxHeartbeats 1000000 in
/-- The body, called on whole buffers of which the three inputs' read `x0`, `x1`, `x2` and the output's reads
    anything, runs to a state where the inputs' buffers are as they were and the output's reads `res0 x0 x1 x2`. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (res0 x0 x1 x2)) -∗ K ⟨⟩))
      ⊢ wp frame (wpE (defs₀ (F := F)) Variants.none c none) E (cc0__matmul_scale_kernel i arg1 harg1 arg2 harg2 arg3 harg3 arg4 harg4) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0 _)

/-! ## The proof data -/

/-- The pipeline's proof data on core `c`: the arrays are `V`'s; after the body at point `t` each input's
    buffer still holds its block and the output's holds `res0` of the three input blocks; the invariant is the
    untouched rest of the core's scoped memory and its generator register; full shares; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => res0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) :
    (dat0 V c).after 3 t = res0 (blk0 V c 0 t) (blk0 V c 1 t) (blk0 V c 2 t) := by dsimp only [dat0]

/-- What the body finds in each input's buffer at point `t`: that input's block at `t`. -/
theorem before0_0 (c : Dev nD) (t : Fin cfg0.N) (d) : (dat0 V c).before 0 t d = blk0 V c 0 t :=
  before0_0_of V (dat0 V c) (dat0_A V c 0) (dat0_after_0 V c) t d
theorem before0_1 (c : Dev nD) (t : Fin cfg0.N) (d) : (dat0 V c).before 1 t d = blk0 V c 1 t :=
  before0_1_of V (dat0 V c) (dat0_A V c 1) (dat0_after_1 V c) t d
theorem before0_2 (c : Dev nD) (t : Fin cfg0.N) (d) : (dat0 V c).before 2 t d = blk0 V c 2 t :=
  before0_2_of V (dat0 V c) (dat0_A V c 2) (dat0_after_2 V c) t d

/-! ## The body obligation -/

/-- What the body is called with at point `t`: the invariant, the debts, and each window's current buffer at
    what the proof data says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same, each buffer at what the proof data says it holds after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies at those
    blocks; the invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    dat0_after_0, dat0_after_1, dat0_after_2, dat0_after_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's proof data, at every point. -/
theorem obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Dense2.lean ====
import proofs.«156713_j13589276524898_2_alg».proof.Proof.Gen.Kernel.Launch
import proofs.«156713_j13589276524898_2_alg».proof.Proof.Gen.Kernel.Skeleton
import proofs.«156713_j13589276524898_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second dense layer's pipeline (region 2): normalize, rectify, multiply by the weights, scale

At every grid point the body reads a 5000x128 block of aggregated rows (window 0), the block's 5000x1 column
of row scales (window 1), and six blocks that are the same at every point: five 1x128 rows — a bias (window 2),
the batch mean (window 3), the batch variance (window 4), the normalization's gain (window 5) and its offset
(window 6) — and the 128x128 weight matrix (window 7). With `h = x0 * x1 + bias` (row scale and bias broadcast),
it forms `max (((h - mean) * rsqrt (var + ε)) * gain + offset) 0`, rounds that and the weights to bf16,
multiplies them accumulating in f32 from zero, scales row `r` of the product by the `r`-th scale, rounds to
bf16 and writes the result over the whole 5000x128 output block (window 8).
Everything below is stated at a parameter `V`: the contents of the core's buffers when the pipeline starts. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the part of the window's array, as `V` has it, that the
    window's index map selects at `t`. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input's buffer holds that input's block of the point, at every point, for any proof data over `V`'s
arrays whose body leaves the buffer as it found it. Where the window's block index never moves the block is
copied in at the first point only, and a later point still finds the block of the point before, which is its own. -/

/-- The aggregated rows' buffer holds the row block of the point. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The scale column's buffer holds the scale column of the point. -/
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The bias row's buffer holds the bias row (one block, copied in once). -/
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The mean row's buffer holds the mean row (one block, copied in once). -/
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- The variance row's buffer holds the variance row (one block, copied in once). -/
theorem before2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-- The gain row's buffer holds the gain row (one block, copied in once). -/
theorem before2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)

/-- The offset row's buffer holds the offset row (one block, copied in once). -/
theorem before2_6_of {c : Dev nD} (dat : Dat τ (Elt F) Unit ℕ (UR sig nD τ) ℕ cfg2 c) (hA : dat.A 6 = V c (Pipeline.arrRef spec2 6))
    (hafter : ∀ t, dat.after 6 t = blk2 V c 6 t) (t : Fin cfg2.N) (d) : dat.before 6 t d = blk2 V c 6 t :=
  (dat.before_in_eq_fetched 6 rfl (fun _ => rfl) (fun _ _ _ => rfl) (fun t => by rw [hafter]; unfold Dat.blockOf blk2; rw [hA]; try rfl) t d).trans
    (by unfold Dat.fetched Dat.blockOf blk2; rw [hA]; try rfl)

/-- The weight matrix's buffer holds the weight matrix (one block, copied in once). -/
theorem before2_7_of {c : Dev nD} (dat : Dat τ (Elt F) Unit ℕ (UR sig nD τ) ℕ cfg2 c) (hA : dat.A 7 = V c (Pipeline.arrRef spec2 7))
    (hafter : ∀ t, dat.after 7 t = blk2 V c 7 t) (t : Fin cfg2.N) (d) : dat.before 7 t d = blk2 V c 7 t :=
  (dat.before_in_eq_fetched 7 rfl (fun _ => rfl) (fun _ _ _ => rfl) (fun t => by rw [hafter]; unfold Dat.blockOf blk2; rw [hA]; try rfl) t d).trans
    (by unfold Dat.fetched Dat.blockOf blk2; rw [hA]; try rfl)

/-! ## The rectangles the body reads and writes: each is its whole buffer -/

abbrev rRows2 : Rect S5000x128 := Rect.unit (s := S5000x128) ![0, 0] S5000x128.size inb_S5000x128_S5000x128_0_0
abbrev rScale2 : Rect S5000x1 := Rect.unit (s := S5000x1) ![0, 0] S5000x1.size inb_S5000x1_S5000x1_0_0
abbrev rRow2 : Rect S1x128 := Rect.unit (s := S1x128) ![0, 0] S1x128.size inb_S1x128_S1x128_0_0
abbrev rWeight2 : Rect S128x128 := Rect.unit (s := S128x128) ![0, 0] S128x128.size inb_S128x128_S128x128_0_0

/-! ## What the body leaves in the output block -/

/-- The output block after the body, from the eight input blocks: one write over the whole block, of
    `bf16 (product * scale)`, where `product` is the f32 matrix product of the normalized, rectified rows and the
    weights (both rounded to bf16; it reads the variance row before the mean row) and `scale` the scale column
    broadcast along the rows. -/
def res2 (x0 : Vec F S5000x128 .f32) (x1 : Vec F S5000x1 .f32) (x2 : Vec F S1x128 .f32) (x3 : Vec F S1x128 .f32) (x4 : Vec F S1x128 .f32) (x5 : Vec F S1x128 .f32) (x6 : Vec F S1x128 .f32) (x7 : Vec F S128x128 .f32) : Vec F S5000x128 .bf16 :=
  View.canon [⟨rRows2, k2_pay1 (k2_pay2 (View.ld x0 rRows2) (View.ld x1 rScale2) (View.ld x2 rRow2) (View.ld x4 rRow2) (View.ld x3 rRow2) (View.ld x5 rRow2) (View.ld x6 rRow2) (View.ld x7 rWeight2)) (k2_pay3 (View.ld x1 rScale2))⟩]

/-- The one write covers the output block. -/
theorem cover2 (p0 : Vec F S5000x128 .bf16) (y : S5000x128.Idx) :
    ∃ pc ∈ ([⟨rRows2, p0⟩] : List (View.Piece (Elt F) S5000x128 .bf16)), y ∈ pc.1.set :=
  View.cover_of_tiled [⟨rRows2, p0⟩] S5000x128.size (by rfl) y

/-! ## The body's triple -/

set_option maxHeartbeats 1000000 in
/-- The body, called on whole buffers of which the inputs' read `x0`, …, `x7` and the output's reads anything,
    runs to a state where the inputs' buffers are as they were and the output's reads `res2` of the inputs. -/
theorem sound_kernel2 (c : Dev nD) (E : Set ℕ) (i : grid2.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S128x128 .f32) (harg8 : arg8.IsWhole)
    (arg9 : Memref sig .tc .vmem S5000x128 .bf16) (harg9 : arg9.IsWhole)
    (x0 : Vec F S5000x128 .f32) (x1 : Vec F S5000x1 .f32) (x2 : Vec F S1x128 .f32) (x3 : Vec F S1x128 .f32) (x4 : Vec F S1x128 .f32) (x5 : Vec F S1x128 .f32) (x6 : Vec F S1x128 .f32) (x7 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (res2 x0 x1 x2 x3 x4 x5 x6 x7)) -∗ K ⟨⟩))
      ⊢ wp frame (wpE (defs₀ (F := F)) Variants.none c none) E (cc2__bn_relu_matmul_scale_kernel i arg1 harg1 arg2 harg2 arg3 harg3 arg4 harg4 arg5 harg5 arg6 harg6 arg7 harg7 arg8 harg8 arg9 harg9) K := by
  simp only [cc2__bn_relu_matmul_scale_kernel_eq_skeleton]; unfold cc2__bn_relu_matmul_scale_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dOut, %fOut, -, HOut⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HOut
  ipureintro
  try dsimp only
  exact View.read_writes_eq_canon _ _ _ (cover2 _)

/-! ## The proof data -/

/-- The pipeline's proof data on core `c`: the arrays are `V`'s; after the body at point `t` each input's
    buffer still holds its block and the output's holds `res2` of the input blocks; the invariant is the
    untouched rest of the core's scoped memory and its generator register; full shares; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => res2 (blk2 V c 0 t) (blk2 V c 1 t) (blk2 V c 2 t) (blk2 V c 3 t) (blk2 V c 4 t) (blk2 V c 5 t) (blk2 V c 6 t) (blk2 V c 7 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) : (dat2 V c).after 3 t = blk2 V c 3 t := by dsimp only [dat2]
theorem dat2_after_4 (c : Dev nD) (t : Fin cfg2.N) : (dat2 V c).after 4 t = blk2 V c 4 t := by dsimp only [dat2]
theorem dat2_after_5 (c : Dev nD) (t : Fin cfg2.N) : (dat2 V c).after 5 t = blk2 V c 5 t := by dsimp only [dat2]
theorem dat2_after_6 (c : Dev nD) (t : Fin cfg2.N) : (dat2 V c).after 6 t = blk2 V c 6 t := by dsimp only [dat2]
theorem dat2_after_7 (c : Dev nD) (t : Fin cfg2.N) : (dat2 V c).after 7 t = blk2 V c 7 t := by dsimp only [dat2]
theorem dat2_after_8 (c : Dev nD) (t : Fin cfg2.N) :
    (dat2 V c).after 8 t = res2 (blk2 V c 0 t) (blk2 V c 1 t) (blk2 V c 2 t) (blk2 V c 3 t) (blk2 V c 4 t) (blk2 V c 5 t) (blk2 V c 6 t) (blk2 V c 7 t) := by dsimp only [dat2]

/-- What the body finds in each input's buffer at point `t`: that input's block at `t`. -/
theorem before2_0 (c : Dev nD) (t : Fin cfg2.N) (d) : (dat2 V c).before 0 t d = blk2 V c 0 t :=
  before2_0_of V (dat2 V c) (dat2_A V c 0) (dat2_after_0 V c) t d
theorem before2_1 (c : Dev nD) (t : Fin cfg2.N) (d) : (dat2 V c).before 1 t d = blk2 V c 1 t :=
  before2_1_of V (dat2 V c) (dat2_A V c 1) (dat2_after_1 V c) t d
theorem before2_2 (c : Dev nD) (t : Fin cfg2.N) (d) : (dat2 V c).before 2 t d = blk2 V c 2 t :=
  before2_2_of V (dat2 V c) (dat2_A V c 2) (dat2_after_2 V c) t d
theorem before2_3 (c : Dev nD) (t : Fin cfg2.N) (d) : (dat2 V c).before 3 t d = blk2 V c 3 t :=
  before2_3_of V (dat2 V c) (dat2_A V c 3) (dat2_after_3 V c) t d
theorem before2_4 (c : Dev nD) (t : Fin cfg2.N) (d) : (dat2 V c).before 4 t d = blk2 V c 4 t :=
  before2_4_of V (dat2 V c) (dat2_A V c 4) (dat2_after_4 V c) t d
theorem before2_5 (c : Dev nD) (t : Fin cfg2.N) (d) : (dat2 V c).before 5 t d = blk2 V c 5 t :=
  before2_5_of V (dat2 V c) (dat2_A V c 5) (dat2_after_5 V c) t d
theorem before2_6 (c : Dev nD) (t : Fin cfg2.N) (d) : (dat2 V c).before 6 t d = blk2 V c 6 t :=
  before2_6_of V (dat2 V c) (dat2_A V c 6) (dat2_after_6 V c) t d
theorem before2_7 (c : Dev nD) (t : Fin cfg2.N) (d) : (dat2 V c).before 7 t d = blk2 V c 7 t :=
  before2_7_of V (dat2 V c) (dat2_A V c 7) (dat2_after_7 V c) t d

/-! ## The body obligation -/

/-- What the body is called with at point `t`: the invariant, the debts, and each window's current buffer at
    what the proof data says it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- What it returns: the same, each buffer at what the proof data says it holds after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the body's triple applies at those
    blocks; the invariant and the debts are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    dat2_after_0, dat2_after_1, dat2_after_2, dat2_after_3, dat2_after_4, dat2_after_5, dat2_after_6, dat2_after_7, dat2_after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline's proof data, at every point. -/
theorem obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Dense4.lean ====
import proofs.«156713_j13589276524898_2_alg».proof.Proof.Gen.Kernel.Launch
import proofs.«156713_j13589276524898_2_alg».proof.Proof.Gen.Kernel.Skeleton
import proofs.«156713_j13589276524898_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The classifier's pipeline (region 4): normalize, rectify, multiply by the weights, add the bias, log-softmax

At every grid point the body reads a 5000x128 block of aggregated rows (window 0), the block's 5000x1 column
of row scales (window 1), and seven blocks that are the same at every point: five 1x128 rows — a bias
(window 2), the batch mean (window 3), the batch variance (window 4), the normalization's gain (window 5) and
its offset (window 6) —, the 128x64 classifier weights (window 7) and their 1x64 bias (window 8). With
`h = x0 * x1 + bias` (row scale and bias broadcast), it forms
`max (((h - mean) * rsqrt (var + ε)) * gain + offset) 0`, rounds that and the weights to bf16, multiplies them
accumulating in f32 from zero, and adds the classifier bias to every row, giving `z`; then, row by row, with
`m` the row's maximum and `s = z - m`, it writes `s - log (Σ exp s)` over the whole 5000x64 output block
(window 9).
Everything below is stated at a parameter `V`: the contents of the core's buffers when the pipeline starts. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the part of the window's array, as `V` has it, that the
    window's index map selects at `t`. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input's buffer holds that input's block of the point, at every point, for any proof data over `V`'s
arrays whose body leaves the buffer as it found it. Where the window's block index never moves the block is
copied in at the first point only, and a later point still finds the block of the point before, which is its own. -/

/-- The aggregated rows' buffer holds the row block of the point. -/
theorem before4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- The scale column's buffer holds the scale column of the point. -/
theorem before4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- The bias row's buffer holds the bias row (one block, copied in once). -/
theorem before4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- The mean row's buffer holds the mean row (one block, copied in once). -/
theorem before4_3_of {c : Dev nD} (dat : Dat τ (Elt F) Unit ℕ (UR sig nD τ) ℕ cfg4 c) (hA : dat.A 3 = V c (Pipeline.arrRef spec4 3))
    (hafter : ∀ t, dat.after 3 t = blk4 V c 3 t) (t : Fin cfg4.N) (d) : dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)

/-- The variance row's buffer holds the variance row (one block, copied in once). -/
theorem before4_4_of {c : Dev nD} (dat : Dat τ (Elt F) Unit ℕ (UR sig nD τ) ℕ cfg4 c) (hA : dat.A 4 = V c (Pipeline.arrRef spec4 4))
    (hafter : ∀ t, dat.after 4 t = blk4 V c 4 t) (t : Fin cfg4.N) (d) : dat.before 4 t d = blk4 V c 4 t :=
  (dat.before_in_eq_fetched 4 rfl (fun _ => rfl) (fun _ _ _ => rfl) (fun t => by rw [hafter]; unfold Dat.blockOf blk4; rw [hA]; try rfl) t d).trans
    (by unfold Dat.fetched Dat.blockOf blk4; rw [hA]; try rfl)

/-- The gain row's buffer holds the gain row (one block, copied in once). -/
theorem before4_5_of {c : Dev nD} (dat : Dat τ (Elt F) Unit ℕ (UR sig nD τ) ℕ cfg4 c) (hA : dat.A 5 = V c (Pipeline.arrRef spec4 5))
    (hafter : ∀ t, dat.after 5 t = blk4 V c 5 t) (t : Fin cfg4.N) (d) : dat.before 5 t d = blk4 V c 5 t :=
  (dat.before_in_eq_fetched 5 rfl (fun _ => rfl) (fun _ _ _ => rfl) (fun t => by rw [hafter]; unfold Dat.blockOf blk4; rw [hA]; try rfl) t d).trans
    (by unfold Dat.fetched Dat.blockOf blk4; rw [hA]; try rfl)

/-- The offset row's buffer holds the offset row (one block, copied in once). -/
theorem before4_6_of {c : Dev nD} (dat : Dat τ (Elt F) Unit ℕ (UR sig nD τ) ℕ cfg4 c) (hA : dat.A 6 = V c (Pipeline.arrRef spec4 6))
    (hafter : ∀ t, dat.after 6 t = blk4 V c 6 t) (t : Fin cfg4.N) (d) : dat.before 6 t d = blk4 V c 6 t :=
  (dat.before_in_eq_fetched 6 rfl (fun _ => rfl) (fun _ _ _ => rfl) (fun t => by rw [hafter]; unfold Dat.blockOf blk4; rw [hA]; try rfl) t d).trans
    (by unfold Dat.fetched Dat.blockOf blk4; rw [hA]; try rfl)

/-- The classifier weights' buffer holds the classifier weights (one block, copied in once). -/
theorem before4_7_of {c : Dev nD} (dat : Dat τ (Elt F) Unit ℕ (UR sig nD τ) ℕ cfg4 c) (hA : dat.A 7 = V c (Pipeline.arrRef spec4 7))
    (hafter : ∀ t, dat.after 7 t = blk4 V c 7 t) (t : Fin cfg4.N) (d) : dat.before 7 t d = blk4 V c 7 t :=
  (dat.before_in_eq_fetched 7 rfl (fun _ => rfl) (fun _ _ _ => rfl) (fun t => by rw [hafter]; unfold Dat.blockOf blk4; rw [hA]; try rfl) t d).trans
    (by unfold Dat.fetched Dat.blockOf blk4; rw [hA]; try rfl)

/-- The classifier bias's buffer holds the classifier bias (one block, copied in once). -/
theorem before4_8_of {c : Dev nD} (dat : Dat τ (Elt F) Unit ℕ (UR sig nD τ) ℕ cfg4 c) (hA : dat.A 8 = V c (Pipeline.arrRef spec4 8))
    (hafter : ∀ t, dat.after 8 t = blk4 V c 8 t) (t : Fin cfg4.N) (d) : dat.before 8 t d = blk4 V c 8 t :=
  (dat.before_in_eq_fetched 8 rfl (fun _ => rfl) (fun _ _ _ => rfl) (fun t => by rw [hafter]; unfold Dat.blockOf blk4; rw [hA]; try rfl) t d).trans
    (by unfold Dat.fetched Dat.blockOf blk4; rw [hA]; try rfl)

/-! ## The rectangles the body reads and writes: each is its whole buffer -/

abbrev rRows4 : Rect S5000x128 := Rect.unit (s := S5000x128) ![0, 0] S5000x128.size inb_S5000x128_S5000x128_0_0
abbrev rScale4 : Rect S5000x1 := Rect.unit (s := S5000x1) ![0, 0] S5000x1.size inb_S5000x1_S5000x1_0_0
abbrev rRow4 : Rect S1x128 := Rect.unit (s := S1x128) ![0, 0] S1x128.size inb_S1x128_S1x128_0_0
abbrev rWeight4 : Rect S128x64 := Rect.unit (s := S128x64) ![0, 0] S128x64.size inb_S128x64_S128x64_0_0
abbrev rBias4 : Rect S1x64 := Rect.unit (s := S1x64) ![0, 0] S1x64.size inb_S1x64_S1x64_0_0
abbrev rOut4 : Rect S5000x64 := Rect.unit (s := S5000x64) ![0, 0] S5000x64.size inb_S5000x64_S5000x64_0_0

/-! ## What the body leaves in the output block -/

/-- The output block after the body, from the nine input blocks: one write over the whole block, of the
    row-wise log-softmax of `product + bias`, where `product` is the f32 matrix product of the normalized,
    rectified rows and the classifier weights (both rounded to bf16; it reads the variance row before the mean
    row) and `bias` the classifier bias broadcast down the rows. -/
def res4 (x0 : Vec F S5000x128 .f32) (x1 : Vec F S5000x1 .f32) (x2 : Vec F S1x128 .f32) (x3 : Vec F S1x128 .f32) (x4 : Vec F S1x128 .f32) (x5 : Vec F S1x128 .f32) (x6 : Vec F S1x128 .f32) (x7 : Vec F S128x64 .f32) (x8 : Vec F S1x64 .f32) : Vec F S5000x64 .f32 :=
  View.canon [⟨rOut4, k4_pay1 (k4_pay2 (View.ld x0 rRows4) (View.ld x1 rScale4) (View.ld x2 rRow4) (View.ld x4 rRow4) (View.ld x3 rRow4) (View.ld x5 rRow4) (View.ld x6 rRow4) (View.ld x7 rWeight4)) (k4_pay3 (View.ld x8 rBias4))⟩]

/-- The one write covers the output block. -/
theorem cover4 (p0 : Vec F S5000x64 .f32) (y : S5000x64.Idx) :
    ∃ pc ∈ ([⟨rOut4, p0⟩] : List (View.Piece (Elt F) S5000x64 .f32)), y ∈ pc.1.set :=
  View.cover_of_tiled [⟨rOut4, p0⟩] S5000x64.size (by rfl) y

/-! ## The body's triple -/

set_option maxHeartbeats 1000000 in
/-- The body, called on whole buffers of which the inputs' read `x0`, …, `x8` and the output's reads anything,
    runs to a state where the inputs' buffers are as they were and the output's reads `res4` of the inputs. -/
theorem sound_kernel4 (c : Dev nD) (E : Set ℕ) (i : grid4.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S128x64 .f32) (harg8 : arg8.IsWhole)
    (arg9 : Memref sig .tc .vmem S1x64 .f32) (harg9 : arg9.IsWhole) (arg10 : Memref sig .tc .vmem S5000x64 .f32) (harg10 : arg10.IsWhole)
    (x0 : Vec F S5000x128 .f32) (x1 : Vec F S5000x1 .f32) (x2 : Vec F S1x128 .f32) (x3 : Vec F S1x128 .f32) (x4 : Vec F S1x128 .f32) (x5 : Vec F S1x128 .f32) (x6 : Vec F S1x128 .f32) (x7 : Vec F S128x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (res4 x0 x1 x2 x3 x4 x5 x6 x7 x8)) -∗ K ⟨⟩))
      ⊢ wp frame (wpE (defs₀ (F := F)) Variants.none c none) E (cc4__bn_relu_classifier_kernel i arg1 harg1 arg2 harg2 arg3 harg3 arg4 harg4 arg5 harg5 arg6 harg6 arg7 harg7 arg8 harg8 arg9 harg9 arg10 harg10) K := by
  simp only [cc4__bn_relu_classifier_kernel_eq_skeleton]; unfold cc4__bn_relu_classifier_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dOut, %fOut, -, HOut⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact HOut
  ipureintro
  try dsimp only
  exact View.read_writes_eq_canon _ _ _ (cover4 _)

/-! ## The proof data -/

/-- The pipeline's proof data on core `c`: the arrays are `V`'s; after the body at point `t` each input's
    buffer still holds its block and the output's holds `res4` of the input blocks; the invariant is the
    untouched rest of the core's scoped memory and its generator register; full shares; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => blk4 V c 5 t
    | ⟨6, _⟩ => blk4 V c 6 t
    | ⟨7, _⟩ => blk4 V c 7 t
    | ⟨8, _⟩ => blk4 V c 8 t
    | ⟨9, _⟩ => res4 (blk4 V c 0 t) (blk4 V c 1 t) (blk4 V c 2 t) (blk4 V c 3 t) (blk4 V c 4 t) (blk4 V c 5 t) (blk4 V c 6 t) (blk4 V c 7 t) (blk4 V c 8 t)
  Φ _ := Pipeline.ΦA spec4 c
  q _ := fullShare
  owed _ := 0

theorem dat4_A (c : Dev nD) (w : Fin cfg4.W) : (dat4 V c).A w = V c (Pipeline.arrRef spec4 w) := by
  dsimp only [dat4]

theorem dat4_after_0 (c : Dev nD) (t : Fin cfg4.N) : (dat4 V c).after 0 t = blk4 V c 0 t := by dsimp only [dat4]
theorem dat4_after_1 (c : Dev nD) (t : Fin cfg4.N) : (dat4 V c).after 1 t = blk4 V c 1 t := by dsimp only [dat4]
theorem dat4_after_2 (c : Dev nD) (t : Fin cfg4.N) : (dat4 V c).after 2 t = blk4 V c 2 t := by dsimp only [dat4]
theorem dat4_after_3 (c : Dev nD) (t : Fin cfg4.N) : (dat4 V c).after 3 t = blk4 V c 3 t := by dsimp only [dat4]
theorem dat4_after_4 (c : Dev nD) (t : Fin cfg4.N) : (dat4 V c).after 4 t = blk4 V c 4 t := by dsimp only [dat4]
theorem dat4_after_5 (c : Dev nD) (t : Fin cfg4.N) : (dat4 V c).after 5 t = blk4 V c 5 t := by dsimp only [dat4]
theorem dat4_after_6 (c : Dev nD) (t : Fin cfg4.N) : (dat4 V c).after 6 t = blk4 V c 6 t := by dsimp only [dat4]
theorem dat4_after_7 (c : Dev nD) (t : Fin cfg4.N) : (dat4 V c).after 7 t = blk4 V c 7 t := by dsimp only [dat4]
theorem dat4_after_8 (c : Dev nD) (t : Fin cfg4.N) : (dat4 V c).after 8 t = blk4 V c 8 t := by dsimp only [dat4]
theorem dat4_after_9 (c : Dev nD) (t : Fin cfg4.N) :
    (dat4 V c).after 9 t = res4 (blk4 V c 0 t) (blk4 V c 1 t) (blk4 V c 2 t) (blk4 V c 3 t) (blk4 V c 4 t) (blk4 V c 5 t) (blk4 V c 6 t) (blk4 V c 7 t) (blk4 V c 8 t) := by dsimp only [dat4]

/-- What the body finds in each input's buffer at point `t`: that input's block at `t`. -/
theorem before4_0 (c : Dev nD) (t : Fin cfg4.N) (d) : (dat4 V c).before 0 t d = blk4 V c 0 t :=
  before4_0_of V (dat4 V c) (dat4_A V c 0) (dat4_after_0 V c) t d
theorem before4_1 (c : Dev nD) (t : Fin cfg4.N) (d) : (dat4 V c).before 1 t d = blk4 V c 1 t :=
  before4_1_of V (dat4 V c) (dat4_A V c 1) (dat4_after_1 V c) t d
theorem before4_2 (c : Dev nD) (t : Fin cfg4.N) (d) : (dat4 V c).before 2 t d = blk4 V c 2 t :=
  before4_2_of V (dat4 V c) (dat4_A V c 2) (dat4_after_2 V c) t d
theorem before4_3 (c : Dev nD) (t : Fin cfg4.N) (d) : (dat4 V c).before 3 t d = blk4 V c 3 t :=
  before4_3_of V (dat4 V c) (dat4_A V c 3) (dat4_after_3 V c) t d
theorem before4_4 (c : Dev nD) (t : Fin cfg4.N) (d) : (dat4 V c).before 4 t d = blk4 V c 4 t :=
  before4_4_of V (dat4 V c) (dat4_A V c 4) (dat4_after_4 V c) t d
theorem before4_5 (c : Dev nD) (t : Fin cfg4.N) (d) : (dat4 V c).before 5 t d = blk4 V c 5 t :=
  before4_5_of V (dat4 V c) (dat4_A V c 5) (dat4_after_5 V c) t d
theorem before4_6 (c : Dev nD) (t : Fin cfg4.N) (d) : (dat4 V c).before 6 t d = blk4 V c 6 t :=
  before4_6_of V (dat4 V c) (dat4_A V c 6) (dat4_after_6 V c) t d
theorem before4_7 (c : Dev nD) (t : Fin cfg4.N) (d) : (dat4 V c).before 7 t d = blk4 V c 7 t :=
  before4_7_of V (dat4 V c) (dat4_A V c 7) (dat4_after_7 V c) t d
theorem before4_8 (c : Dev nD) (t : Fin cfg4.N) (d) : (dat4 V c).before 8 t d = blk4 V c 8 t :=
  before4_8_of V (dat4 V c) (dat4_A V c 8) (dat4_after_8 V c) t d

/-! ## The body obligation -/

/-- What the body is called with at point `t`: the invariant, the debts, and each window's current buffer at
    what the proof data says it holds before the body. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- What it returns: the same, each buffer at what the proof data says it holds after the body. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- The body at any point: the inputs' buffers hold their blocks, so the body's triple applies at those
    blocks; the invariant and the debts are not touched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    dat4_after_0, dat4_after_1, dat4_after_2, dat4_after_3, dat4_after_4, dat4_after_5, dat4_after_6, dat4_after_7, dat4_after_8, dat4_after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ (blk4 V c 0 t) (blk4 V c 1 t) (blk4 V c 2 t) (blk4 V c 3 t) (blk4 V c 4 t) (blk4 V c 5 t) (blk4 V c 6 t) (blk4 V c 7 t) (blk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the pipeline's proof data, at every point. -/
theorem obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.StatsBase1.lean ====
/-
  The column-statistics kernel of region 1: what its three control cases share.

  The kernel walks the `[100000, 128]` array of aggregated features in 20 blocks of 5000 rows. At every point it forms
  `y = block · dinv + b` (each row scaled by its node's degree factor, the bias added) and adds the column sums of `y`
  and of `y · y` to two `[1, 128]` accumulators that live in scratch memory between points. The first point zeroes the
  accumulators before adding; the last point copies them to the two `[1, 128]` outputs after adding. So the grid splits
  into three cases — first point, middle points, last point — told apart by two conditions on the grid coordinate,
  which are decided here once over the twenty points.
-/
import proofs.«156713_j13589276524898_2_alg».proof.Proof.Gen.Kernel.Launch
import proofs.«156713_j13589276524898_2_alg».proof.Proof.Gen.Kernel.Skeleton
import proofs.«156713_j13589276524898_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block at every point, fetched there or not (unfetched, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's staging buffer holds its block at every point, fetched there or not (unfetched, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

end

/-! ## The two conditions -/

/-- "This is the first point": the body's first branch condition, from the grid coordinate. -/
abbrev first1 (i : grid1.Coords) : Prop := (Scalar.cmpi .ne (Scalar.extui (Scalar.cmpi .eq (BitVec.ofNat 32 (i 0).val) 0#32)) 0#32) = 1#1
theorem first1_iff : ∀ t : Fin cfg1.N, first1 (grid1.coords t) ↔ t.val % 20 = 0 :=
  (by decide +kernel : ∀ t : Fin grid1.N, first1 (grid1.coords t) ↔ t.val % 20 = 0)

/-- "This is the last point": the body's second branch condition. -/
abbrev last1 (i : grid1.Coords) : Prop := k1_cond2 i = 1#1
theorem last1_iff : ∀ t : Fin cfg1.N, last1 (grid1.coords t) ↔ t.val % 20 = 19 :=
  (by decide +kernel : ∀ t : Fin grid1.N, last1 (grid1.coords t) ↔ t.val % 20 = 19)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last point the two outputs are idle (the body stores nothing into them) and are not written back. -/
theorem idle1_3 : ∀ t : Fin cfg1.N, ¬last1 (grid1.coords t) → cfg1.idle 3 (grid1.coords t) = true := by decide +kernel
theorem idle1_4 : ∀ t : Fin cfg1.N, ¬last1 (grid1.coords t) → cfg1.idle 4 (grid1.coords t) = true := by decide +kernel
theorem noFlush1_3 : ∀ t : Fin cfg1.N, ¬last1 (grid1.coords t) → (cfg1.win 3).flush t = false := by decide +kernel
theorem noFlush1_4 : ∀ t : Fin cfg1.N, ¬last1 (grid1.coords t) → (cfg1.win 4).flush t = false := by decide +kernel
/-- At the last point they are live. -/
theorem liveLast1_3 : ∀ t : Fin cfg1.N, last1 (grid1.coords t) → cfg1.idle 3 (grid1.coords t) = false := by decide +kernel
theorem liveLast1_4 : ∀ t : Fin cfg1.N, last1 (grid1.coords t) → cfg1.idle 4 (grid1.coords t) = false := by decide +kernel

/-! ## The memrefs the body is called with -/

/-- One staging buffer of each output window, through which its contents are stated. -/
abbrev outView1_3 : View sig .tc .vmem S1x128 .f32 := (Memref.whole cc1_stg3_0 : Memref sig .tc .vmem S1x128 .f32).view
abbrev outView1_4 : View sig .tc .vmem S1x128 .f32 := (Memref.whole cc1_stg4_0 : Memref sig .tc .vmem S1x128 .f32).view
abbrev stage1_0 (t : Fin cfg1.N) : Memref sig .tc .vmem S5000x128 .f32 := win1_0.stage (cfg1.slots t 0)
abbrev stageWhole1_0 (t : Fin cfg1.N) : (stage1_0 t).IsWhole := hstage1_0 ((cfg1.slots t 0).cast nbuf1_0)
abbrev stage1_1 (t : Fin cfg1.N) : Memref sig .tc .vmem S5000x1 .f32 := win1_1.stage (cfg1.slots t 1)
abbrev stageWhole1_1 (t : Fin cfg1.N) : (stage1_1 t).IsWhole := hstage1_1 ((cfg1.slots t 1).cast nbuf1_1)
abbrev stage1_2 (t : Fin cfg1.N) : Memref sig .tc .vmem S1x128 .f32 := win1_2.stage (cfg1.slots t 2)
abbrev stageWhole1_2 (t : Fin cfg1.N) : (stage1_2 t).IsWhole := hstage1_2 ((cfg1.slots t 2).cast nbuf1_2)
abbrev stage1_3 (t : Fin cfg1.N) : Memref sig .tc .vmem S1x128 .f32 := win1_3.stage (cfg1.slots t 3)
abbrev stageWhole1_3 (t : Fin cfg1.N) : (stage1_3 t).IsWhole := hstage1_3 ((cfg1.slots t 3).cast nbuf1_3)
abbrev stage1_4 (t : Fin cfg1.N) : Memref sig .tc .vmem S1x128 .f32 := win1_4.stage (cfg1.slots t 4)
abbrev stageWhole1_4 (t : Fin cfg1.N) : (stage1_4 t).IsWhole := hstage1_4 ((cfg1.slots t 4).cast nbuf1_4)
/-- The two accumulators: whole scoped buffers of the kernel's own. -/
abbrev acc1_0 : Memref sig .tc .vmem S1x128 .f32 := Memref.whole cc1_scratch0
abbrev acc1_1 : Memref sig .tc .vmem S1x128 .f32 := Memref.whole cc1_scratch1
abbrev accView1_0 : View sig .tc .vmem S1x128 .f32 := acc1_0.view
abbrev accView1_1 : View sig .tc .vmem S1x128 .f32 := acc1_1.view

/-- The region's resting invariant with the two accumulators taken out of the scoped buffers no window stages:
    each owned whole at some contents, the remaining scoped buffers unopened, the generator register at some state. -/
theorem restingInv1_eq (c : Dev nD) :
    (Pipeline.ΦA spec1 c : sProp 𝕄)
      = iprop(iprop(iprop((∃ d, owns (c : Thread nD τ) acc1_0 fullShare d) ∗ (∃ d, owns (c : Thread nD τ) acc1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [acc1_0, acc1_1, owns_whole]; try rfl

end Cert.Kernel.Hand

end
-- ==== Proof.K.StatsRunFirst1.lean ====
/-
  The column-statistics kernel of region 1 at the FIRST grid point: both accumulators are stored whole with zeros
  and then with zero plus this block's column sums; the outputs are not touched. What the accumulators end
  with is found by running the body symbolically; the pieces written are the witness.
-/
import proofs.«156713_j13589276524898_2_alg».proof.Proof.K.StatsBase1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point, on whole memrefs: the three inputs at their contents, the two outputs at contents handed
    back untouched, the accumulators at anything; it ends with each accumulator holding its pieces. -/
noncomputable def statsRun1_first (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first1 i) (hl : ¬last1 i)
    (x0 : Vec F S5000x128 .f32) (x1 : Vec F S5000x1 .f32) (x2 : Vec F S1x128 .f32) :
    Σ' (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7) K } := by
  refine ⟨?_, ?_, fun xi3 xi4 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.K.StatsRunMid1.lean ====
/-
  The column-statistics kernel of region 1 at a MIDDLE grid point: each accumulator, holding what the point before
  left, is stored whole with that plus this block's column sums; the outputs are not touched.
-/
import proofs.«156713_j13589276524898_2_alg».proof.Proof.K.StatsRunFirst1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point, on whole memrefs: inputs at their contents, outputs handed back untouched, the
    accumulators at the contents carried in; it ends with each accumulator holding its pieces. -/
noncomputable def statsRun1_mid (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : ¬last1 i)
    (x0 : Vec F S5000x128 .f32) (x1 : Vec F S5000x1 .f32) (x2 : Vec F S1x128 .f32) (xs0 xs1 : Vec F S1x128 .f32) :
    Σ' (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7) K } := by
  refine ⟨?_, ?_, fun xi3 xi4 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs0; obtain rfl := harg7.eq_unread hfs1
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.K.StatsRunLast1.lean ====
/-
  The column-statistics kernel of region 1 at the LAST grid point: each accumulator is stored whole with what the
  point before left plus this block's column sums, and then copied whole into its output.
-/
import proofs.«156713_j13589276524898_2_alg».proof.Proof.K.StatsRunMid1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point, on whole memrefs: inputs at their contents, outputs at anything, the accumulators at
    the contents carried in; it ends with each output and each accumulator holding its pieces. -/
noncomputable def statsRun1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) :
    Σ' (L3 : List (View.Piece (Elt F) S1x128 .f32)) (L4 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.Kernel.Hand

end
-- ==== Proof.K.Stats1.lean ====
/-
  The column-statistics region 1: what the accumulators and the outputs hold after each grid point, the region's
  invariant, its proof data and the body obligation.

  After point 0 each accumulator holds what the first-point run leaves (zero plus block 0's column sums); after
  point n + 1 what the middle- or last-point run leaves from the contents after point n. The outputs are written at
  the last point only (a copy of the accumulators); at every other point their windows are idle and their buffers
  are handed back as found. Between points the invariant keeps the two accumulators at these named contents beside
  the scoped buffers the region does not use and the generator register.
-/
import proofs.«156713_j13589276524898_2_alg».proof.Proof.K.StatsRunLast1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The first point's pieces for accumulator 0 cover it (one whole-buffer store after another). -/
theorem acc0Cover1_first (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first1 i) (hl : ¬last1 i)
    (x0 : Vec F S5000x128 .f32) (x1 : Vec F S5000x1 .f32) (x2 : Vec F S1x128 .f32)  (y : S1x128.Idx) :
    ∃ pc ∈ (statsRun1_first c i arg1 harg1 arg2 harg2 arg3 harg3 arg4 harg4 arg5 harg5 arg6 harg6 arg7 harg7 hf hl x0 x1 x2 ).1, y ∈ pc.1.set :=
  View.cover_of_tiledL (statsRun1_first c i arg1 harg1 arg2 harg2 arg3 harg3 arg4 harg4 arg5 harg5 arg6 harg6 arg7 harg7 hf hl x0 x1 x2 ).1 S1x128.size (by sl_kernel_rfl) y

def acc0After1_first (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first1 i) (hl : ¬last1 i)
    (x0 : Vec F S5000x128 .f32) (x1 : Vec F S5000x1 .f32) (x2 : Vec F S1x128 .f32)  : Vec F S1x128 .f32 :=
  accView1_0.read (Elt F) (accView1_0.writes (Elt F) accView1_0.junk (statsRun1_first c i arg1 harg1 arg2 harg2 arg3 harg3 arg4 harg4 arg5 harg5 arg6 harg6 arg7 harg7 hf hl x0 x1 x2 ).1)

/-- The first point's pieces for accumulator 1 cover it. -/
theorem acc1Cover1_first (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first1 i) (hl : ¬last1 i)
    (x0 : Vec F S5000x128 .f32) (x1 : Vec F S5000x1 .f32) (x2 : Vec F S1x128 .f32)  (y : S1x128.Idx) :
    ∃ pc ∈ (statsRun1_first c i arg1 harg1 arg2 harg2 arg3 harg3 arg4 harg4 arg5 harg5 arg6 harg6 arg7 harg7 hf hl x0 x1 x2 ).2.1, y ∈ pc.1.set :=
  View.cover_of_tiledL (statsRun1_first c i arg1 harg1 arg2 harg2 arg3 harg3 arg4 harg4 arg5 harg5 arg6 harg6 arg7 harg7 hf hl x0 x1 x2 ).2.1 S1x128.size (by sl_kernel_rfl) y

def acc1After1_first (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first1 i) (hl : ¬last1 i)
    (x0 : Vec F S5000x128 .f32) (x1 : Vec F S5000x1 .f32) (x2 : Vec F S1x128 .f32)  : Vec F S1x128 .f32 :=
  accView1_1.read (Elt F) (accView1_1.writes (Elt F) accView1_1.junk (statsRun1_first c i arg1 harg1 arg2 harg2 arg3 harg3 arg4 harg4 arg5 harg5 arg6 harg6 arg7 harg7 hf hl x0 x1 x2 ).2.1)

/-- A middle point's pieces for accumulator 0 cover it. -/
theorem acc0Cover1_mid (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : ¬last1 i)
    (x0 : Vec F S5000x128 .f32) (x1 : Vec F S5000x1 .f32) (x2 : Vec F S1x128 .f32) (xs0 xs1 : Vec F S1x128 .f32) (y : S1x128.Idx) :
    ∃ pc ∈ (statsRun1_mid c i arg1 harg1 arg2 harg2 arg3 harg3 arg4 harg4 arg5 harg5 arg6 harg6 arg7 harg7 hf hl x0 x1 x2 xs0 xs1).1, y ∈ pc.1.set :=
  View.cover_of_tiledL (statsRun1_mid c i arg1 harg1 arg2 harg2 arg3 harg3 arg4 harg4 arg5 harg5 arg6 harg6 arg7 harg7 hf hl x0 x1 x2 xs0 xs1).1 S1x128.size (by sl_kernel_rfl) y

def acc0After1_mid (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : ¬last1 i)
    (x0 : Vec F S5000x128 .f32) (x1 : Vec F S5000x1 .f32) (x2 : Vec F S1x128 .f32) (xs0 xs1 : Vec F S1x128 .f32) : Vec F S1x128 .f32 :=
  accView1_0.read (Elt F) (accView1_0.writes (Elt F) accView1_0.junk (statsRun1_mid c i arg1 harg1 arg2 harg2 arg3 harg3 arg4 harg4 arg5 harg5 arg6 harg6 arg7 harg7 hf hl x0 x1 x2 xs0 xs1).1)

/-- A middle point's pieces for accumulator 1 cover it. -/
theorem acc1Cover1_mid (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : ¬last1 i)
    (x0 : Vec F S5000x128 .f32) (x1 : Vec F S5000x1 .f32) (x2 : Vec F S1x128 .f32) (xs0 xs1 : Vec F S1x128 .f32) (y : S1x128.Idx) :
    ∃ pc ∈ (statsRun1_mid c i arg1 harg1 arg2 harg2 arg3 harg3 arg4 harg4 arg5 harg5 arg6 harg6 arg7 harg7 hf hl x0 x1 x2 xs0 xs1).2.1, y ∈ pc.1.set :=
  View.cover_of_tiledL (statsRun1_mid c i arg1 harg1 arg2 harg2 arg3 harg3 arg4 harg4 arg5 harg5 arg6 harg6 arg7 harg7 hf hl x0 x1 x2 xs0 xs1).2.1 S1x128.size (by sl_kernel_rfl) y

def acc1After1_mid (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : ¬last1 i)
    (x0 : Vec F S5000x128 .f32) (x1 : Vec F S5000x1 .f32) (x2 : Vec F S1x128 .f32) (xs0 xs1 : Vec F S1x128 .f32) : Vec F S1x128 .f32 :=
  accView1_1.read (Elt F) (accView1_1.writes (Elt F) accView1_1.junk (statsRun1_mid c i arg1 harg1 arg2 harg2 arg3 harg3 arg4 harg4 arg5 harg5 arg6 harg6 arg7 harg7 hf hl x0 x1 x2 xs0 xs1).2.1)

/-- The last point's pieces for output 3 (the column sums) cover it. -/
theorem out3Cover1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) (y : S1x128.Idx) :
    ∃ pc ∈ (statsRun1_last c i arg1 harg1 arg2 harg2 arg3 harg3 arg4 harg4 arg5 harg5 arg6 harg6 arg7 harg7 hf hl x0 x1 x2 xs0 xs1).1, y ∈ pc.1.set :=
  View.cover_of_tiledL (statsRun1_last c i arg1 harg1 arg2 harg2 arg3 harg3 arg4 harg4 arg5 harg5 arg6 harg6 arg7 harg7 hf hl x0 x1 x2 xs0 xs1).1 S1x128.size (by sl_kernel_rfl) y

def out3After1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) : Vec F S1x128 .f32 :=
  outView1_3.read (Elt F) (outView1_3.writes (Elt F) outView1_3.junk (statsRun1_last c i arg1 harg1 arg2 harg2 arg3 harg3 arg4 harg4 arg5 harg5 arg6 harg6 arg7 harg7 hf hl x0 x1 x2 xs0 xs1).1)

/-- The last point's pieces for output 4 (the column sums of squares) cover it. -/
theorem out4Cover1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) (y : S1x128.Idx) :
    ∃ pc ∈ (statsRun1_last c i arg1 harg1 arg2 harg2 arg3 harg3 arg4 harg4 arg5 harg5 arg6 harg6 arg7 harg7 hf hl x0 x1 x2 xs0 xs1).2.1, y ∈ pc.1.set :=
  View.cover_of_tiledL (statsRun1_last c i arg1 harg1 arg2 harg2 arg3 harg3 arg4 harg4 arg5 harg5 arg6 harg6 arg7 harg7 hf hl x0 x1 x2 xs0 xs1).2.1 S1x128.size (by sl_kernel_rfl) y

def out4After1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) : Vec F S1x128 .f32 :=
  outView1_4.read (Elt F) (outView1_4.writes (Elt F) outView1_4.junk (statsRun1_last c i arg1 harg1 arg2 harg2 arg3 harg3 arg4 harg4 arg5 harg5 arg6 harg6 arg7 harg7 hf hl x0 x1 x2 xs0 xs1).2.1)

/-- The last point's pieces for accumulator 0 cover it. -/
theorem acc0Cover1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) (y : S1x128.Idx) :
    ∃ pc ∈ (statsRun1_last c i arg1 harg1 arg2 harg2 arg3 harg3 arg4 harg4 arg5 harg5 arg6 harg6 arg7 harg7 hf hl x0 x1 x2 xs0 xs1).2.2.1, y ∈ pc.1.set :=
  View.cover_of_tiledL (statsRun1_last c i arg1 harg1 arg2 harg2 arg3 harg3 arg4 harg4 arg5 harg5 arg6 harg6 arg7 harg7 hf hl x0 x1 x2 xs0 xs1).2.2.1 S1x128.size (by sl_kernel_rfl) y

def acc0After1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) : Vec F S1x128 .f32 :=
  accView1_0.read (Elt F) (accView1_0.writes (Elt F) accView1_0.junk (statsRun1_last c i arg1 harg1 arg2 harg2 arg3 harg3 arg4 harg4 arg5 harg5 arg6 harg6 arg7 harg7 hf hl x0 x1 x2 xs0 xs1).2.2.1)

/-- The last point's pieces for accumulator 1 cover it. -/
theorem acc1Cover1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) (y : S1x128.Idx) :
    ∃ pc ∈ (statsRun1_last c i arg1 harg1 arg2 harg2 arg3 harg3 arg4 harg4 arg5 harg5 arg6 harg6 arg7 harg7 hf hl x0 x1 x2 xs0 xs1).2.2.2.1, y ∈ pc.1.set :=
  View.cover_of_tiledL (statsRun1_last c i arg1 harg1 arg2 harg2 arg3 harg3 arg4 harg4 arg5 harg5 arg6 harg6 arg7 harg7 hf hl x0 x1 x2 xs0 xs1).2.2.2.1 S1x128.size (by sl_kernel_rfl) y

def acc1After1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) : Vec F S1x128 .f32 :=
  accView1_1.read (Elt F) (accView1_1.writes (Elt F) accView1_1.junk (statsRun1_last c i arg1 harg1 arg2 harg2 arg3 harg3 arg4 harg4 arg5 harg5 arg6 harg6 arg7 harg7 hf hl x0 x1 x2 xs0 xs1).2.2.2.1)

/-- What an idle output's buffer is said to hold where nothing consults it. -/
def idleOut1_3 : Vec F S1x128 .f32 := outView1_3.read (Elt F) outView1_3.junk
def idleOut1_4 : Vec F S1x128 .f32 := outView1_4.read (Elt F) outView1_4.junk

section
variable (V : (c : Dev nD) → (b : Ref sig .tc) → Buf (Elt F) ((c : Thread nD τ).loc b))

/-! ## Point by point -/

theorem notLast1_zero (hn : 0 < cfg1.N) : ¬last1 (grid1.coords ⟨0, hn⟩) := fun h => by
  have := (last1_iff ⟨0, hn⟩).mp h; (try dsimp only at this); omega

theorem notFirst1_succ (n : ℕ) (hn : n + 1 < cfg1.N) : ¬first1 (grid1.coords ⟨n + 1, hn⟩) := fun h => by
  have h0 := (first1_iff ⟨n + 1, hn⟩).mp h
  have hN : n + 1 < 20 := lt_of_lt_of_eq hn (show cfg1.N = 20 from N_1)
  (try dsimp only at h0); omega

/-- THE ACCUMULATION: (output 3, output 4, accumulator 0, accumulator 1) after the body at point `n`. -/
def statsAt1 (c : Dev nD) : (n : ℕ) → n < cfg1.N → Vec F S1x128 .f32 × Vec F S1x128 .f32 × Vec F S1x128 .f32 × Vec F S1x128 .f32
  | 0, hn => (idleOut1_3, idleOut1_4,
      acc0After1_first c (grid1.coords ⟨0, hn⟩) (stage1_0 ⟨0, hn⟩) (stageWhole1_0 ⟨0, hn⟩) (stage1_1 ⟨0, hn⟩) (stageWhole1_1 ⟨0, hn⟩) (stage1_2 ⟨0, hn⟩) (stageWhole1_2 ⟨0, hn⟩) (stage1_3 ⟨0, hn⟩) (stageWhole1_3 ⟨0, hn⟩) (stage1_4 ⟨0, hn⟩) (stageWhole1_4 ⟨0, hn⟩) acc1_0 (Memref.isWhole_whole _) acc1_1 (Memref.isWhole_whole _) ((first1_iff ⟨0, hn⟩).mpr (Nat.zero_mod _)) (notLast1_zero hn) (blk1 V c 0 ⟨0, hn⟩) (blk1 V c 1 ⟨0, hn⟩) (blk1 V c 2 ⟨0, hn⟩),
      acc1After1_first c (grid1.coords ⟨0, hn⟩) (stage1_0 ⟨0, hn⟩) (stageWhole1_0 ⟨0, hn⟩) (stage1_1 ⟨0, hn⟩) (stageWhole1_1 ⟨0, hn⟩) (stage1_2 ⟨0, hn⟩) (stageWhole1_2 ⟨0, hn⟩) (stage1_3 ⟨0, hn⟩) (stageWhole1_3 ⟨0, hn⟩) (stage1_4 ⟨0, hn⟩) (stageWhole1_4 ⟨0, hn⟩) acc1_0 (Memref.isWhole_whole _) acc1_1 (Memref.isWhole_whole _) ((first1_iff ⟨0, hn⟩).mpr (Nat.zero_mod _)) (notLast1_zero hn) (blk1 V c 0 ⟨0, hn⟩) (blk1 V c 1 ⟨0, hn⟩) (blk1 V c 2 ⟨0, hn⟩))
  | n + 1, hn =>
    if h19 : (n + 1) % 20 = 19 then
      (out3After1_last c (grid1.coords ⟨n + 1, hn⟩) (stage1_0 ⟨n + 1, hn⟩) (stageWhole1_0 ⟨n + 1, hn⟩) (stage1_1 ⟨n + 1, hn⟩) (stageWhole1_1 ⟨n + 1, hn⟩) (stage1_2 ⟨n + 1, hn⟩) (stageWhole1_2 ⟨n + 1, hn⟩) (stage1_3 ⟨n + 1, hn⟩) (stageWhole1_3 ⟨n + 1, hn⟩) (stage1_4 ⟨n + 1, hn⟩) (stageWhole1_4 ⟨n + 1, hn⟩) acc1_0 (Memref.isWhole_whole _) acc1_1 (Memref.isWhole_whole _) (notFirst1_succ n hn) ((last1_iff ⟨n + 1, hn⟩).mpr h19) (blk1 V c 0 ⟨n + 1, hn⟩) (blk1 V c 1 ⟨n + 1, hn⟩) (blk1 V c 2 ⟨n + 1, hn⟩) (statsAt1 c n (Nat.lt_of_succ_lt hn)).2.2.1 (statsAt1 c n (Nat.lt_of_succ_lt hn)).2.2.2,
       out4After1_last c (grid1.coords ⟨n + 1, hn⟩) (stage1_0 ⟨n + 1, hn⟩) (stageWhole1_0 ⟨n + 1, hn⟩) (stage1_1 ⟨n + 1, hn⟩) (stageWhole1_1 ⟨n + 1, hn⟩) (stage1_2 ⟨n + 1, hn⟩) (stageWhole1_2 ⟨n + 1, hn⟩) (stage1_3 ⟨n + 1, hn⟩) (stageWhole1_3 ⟨n + 1, hn⟩) (stage1_4 ⟨n + 1, hn⟩) (stageWhole1_4 ⟨n + 1, hn⟩) acc1_0 (Memref.isWhole_whole _) acc1_1 (Memref.isWhole_whole _) (notFirst1_succ n hn) ((last1_iff ⟨n + 1, hn⟩).mpr h19) (blk1 V c 0 ⟨n + 1, hn⟩) (blk1 V c 1 ⟨n + 1, hn⟩) (blk1 V c 2 ⟨n + 1, hn⟩) (statsAt1 c n (Nat.lt_of_succ_lt hn)).2.2.1 (statsAt1 c n (Nat.lt_of_succ_lt hn)).2.2.2,
       acc0After1_last c (grid1.coords ⟨n + 1, hn⟩) (stage1_0 ⟨n + 1, hn⟩) (stageWhole1_0 ⟨n + 1, hn⟩) (stage1_1 ⟨n + 1, hn⟩) (stageWhole1_1 ⟨n + 1, hn⟩) (stage1_2 ⟨n + 1, hn⟩) (stageWhole1_2 ⟨n + 1, hn⟩) (stage1_3 ⟨n + 1, hn⟩) (stageWhole1_3 ⟨n + 1, hn⟩) (stage1_4 ⟨n + 1, hn⟩) (stageWhole1_4 ⟨n + 1, hn⟩) acc1_0 (Memref.isWhole_whole _) acc1_1 (Memref.isWhole_whole _) (notFirst1_succ n hn) ((last1_iff ⟨n + 1, hn⟩).mpr h19) (blk1 V c 0 ⟨n + 1, hn⟩) (blk1 V c 1 ⟨n + 1, hn⟩) (blk1 V c 2 ⟨n + 1, hn⟩) (statsAt1 c n (Nat.lt_of_succ_lt hn)).2.2.1 (statsAt1 c n (Nat.lt_of_succ_lt hn)).2.2.2,
       acc1After1_last c (grid1.coords ⟨n + 1, hn⟩) (stage1_0 ⟨n + 1, hn⟩) (stageWhole1_0 ⟨n + 1, hn⟩) (stage1_1 ⟨n + 1, hn⟩) (stageWhole1_1 ⟨n + 1, hn⟩) (stage1_2 ⟨n + 1, hn⟩) (stageWhole1_2 ⟨n + 1, hn⟩) (stage1_3 ⟨n + 1, hn⟩) (stageWhole1_3 ⟨n + 1, hn⟩) (stage1_4 ⟨n + 1, hn⟩) (stageWhole1_4 ⟨n + 1, hn⟩) acc1_0 (Memref.isWhole_whole _) acc1_1 (Memref.isWhole_whole _) (notFirst1_succ n hn) ((last1_iff ⟨n + 1, hn⟩).mpr h19) (blk1 V c 0 ⟨n + 1, hn⟩) (blk1 V c 1 ⟨n + 1, hn⟩) (blk1 V c 2 ⟨n + 1, hn⟩) (statsAt1 c n (Nat.lt_of_succ_lt hn)).2.2.1 (statsAt1 c n (Nat.lt_of_succ_lt hn)).2.2.2)
    else
      (idleOut1_3, idleOut1_4,
       acc0After1_mid c (grid1.coords ⟨n + 1, hn⟩) (stage1_0 ⟨n + 1, hn⟩) (stageWhole1_0 ⟨n + 1, hn⟩) (stage1_1 ⟨n + 1, hn⟩) (stageWhole1_1 ⟨n + 1, hn⟩) (stage1_2 ⟨n + 1, hn⟩) (stageWhole1_2 ⟨n + 1, hn⟩) (stage1_3 ⟨n + 1, hn⟩) (stageWhole1_3 ⟨n + 1, hn⟩) (stage1_4 ⟨n + 1, hn⟩) (stageWhole1_4 ⟨n + 1, hn⟩) acc1_0 (Memref.isWhole_whole _) acc1_1 (Memref.isWhole_whole _) (notFirst1_succ n hn) (fun h => h19 ((last1_iff ⟨n + 1, hn⟩).mp h)) (blk1 V c 0 ⟨n + 1, hn⟩) (blk1 V c 1 ⟨n + 1, hn⟩) (blk1 V c 2 ⟨n + 1, hn⟩) (statsAt1 c n (Nat.lt_of_succ_lt hn)).2.2.1 (statsAt1 c n (Nat.lt_of_succ_lt hn)).2.2.2,
       acc1After1_mid c (grid1.coords ⟨n + 1, hn⟩) (stage1_0 ⟨n + 1, hn⟩) (stageWhole1_0 ⟨n + 1, hn⟩) (stage1_1 ⟨n + 1, hn⟩) (stageWhole1_1 ⟨n + 1, hn⟩) (stage1_2 ⟨n + 1, hn⟩) (stageWhole1_2 ⟨n + 1, hn⟩) (stage1_3 ⟨n + 1, hn⟩) (stageWhole1_3 ⟨n + 1, hn⟩) (stage1_4 ⟨n + 1, hn⟩) (stageWhole1_4 ⟨n + 1, hn⟩) acc1_0 (Memref.isWhole_whole _) acc1_1 (Memref.isWhole_whole _) (notFirst1_succ n hn) (fun h => h19 ((last1_iff ⟨n + 1, hn⟩).mp h)) (blk1 V c 0 ⟨n + 1, hn⟩) (blk1 V c 1 ⟨n + 1, hn⟩) (blk1 V c 2 ⟨n + 1, hn⟩) (statsAt1 c n (Nat.lt_of_succ_lt hn)).2.2.1 (statsAt1 c n (Nat.lt_of_succ_lt hn)).2.2.2)

/-- At the first point: the first-point run's contents. -/
theorem statsAt1_first (c : Dev nD) (t : Fin cfg1.N) (h0 : t.val = 0) (hf : first1 (grid1.coords t)) (hl : ¬last1 (grid1.coords t)) :
    statsAt1 V c t.val t.isLt = (idleOut1_3, idleOut1_4,
      acc0After1_first c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t),
      acc1After1_first c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t)) := by
  obtain ⟨n, hn⟩ := t
  cases n with
  | zero => rfl
  | succ n => exact absurd h0 (Nat.succ_ne_zero n)

/-- At a middle point: the middle-point run's contents over what the point before left. -/
theorem statsAt1_mid (c : Dev nD) (t : Fin cfg1.N) (h0 : t.val ≠ 0) (h19 : ¬t.val % 20 = 19) (hf : ¬first1 (grid1.coords t)) (hl : ¬last1 (grid1.coords t)) :
    statsAt1 V c t.val t.isLt = (idleOut1_3, idleOut1_4,
      acc0After1_mid c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t) (statsAt1 V c (t.val - 1) (Nat.lt_of_le_of_lt (Nat.sub_le _ _) t.isLt)).2.2.1 (statsAt1 V c (t.val - 1) (Nat.lt_of_le_of_lt (Nat.sub_le _ _) t.isLt)).2.2.2,
      acc1After1_mid c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t) (statsAt1 V c (t.val - 1) (Nat.lt_of_le_of_lt (Nat.sub_le _ _) t.isLt)).2.2.1 (statsAt1 V c (t.val - 1) (Nat.lt_of_le_of_lt (Nat.sub_le _ _) t.isLt)).2.2.2) := by
  obtain ⟨n, hn⟩ := t
  cases n with
  | zero => exact absurd rfl h0
  | succ n => exact (dif_neg h19).trans rfl

/-- At the last point: the last-point run's contents over what the point before left. -/
theorem statsAt1_last (c : Dev nD) (t : Fin cfg1.N) (h0 : t.val ≠ 0) (h19 : t.val % 20 = 19) (hf : ¬first1 (grid1.coords t)) (hl : last1 (grid1.coords t)) :
    statsAt1 V c t.val t.isLt = (
      out3After1_last c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t) (statsAt1 V c (t.val - 1) (Nat.lt_of_le_of_lt (Nat.sub_le _ _) t.isLt)).2.2.1 (statsAt1 V c (t.val - 1) (Nat.lt_of_le_of_lt (Nat.sub_le _ _) t.isLt)).2.2.2,
      out4After1_last c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t) (statsAt1 V c (t.val - 1) (Nat.lt_of_le_of_lt (Nat.sub_le _ _) t.isLt)).2.2.1 (statsAt1 V c (t.val - 1) (Nat.lt_of_le_of_lt (Nat.sub_le _ _) t.isLt)).2.2.2,
      acc0After1_last c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t) (statsAt1 V c (t.val - 1) (Nat.lt_of_le_of_lt (Nat.sub_le _ _) t.isLt)).2.2.1 (statsAt1 V c (t.val - 1) (Nat.lt_of_le_of_lt (Nat.sub_le _ _) t.isLt)).2.2.2,
      acc1After1_last c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t) (statsAt1 V c (t.val - 1) (Nat.lt_of_le_of_lt (Nat.sub_le _ _) t.isLt)).2.2.1 (statsAt1 V c (t.val - 1) (Nat.lt_of_le_of_lt (Nat.sub_le _ _) t.isLt)).2.2.2) := by
  obtain ⟨n, hn⟩ := t
  cases n with
  | zero => exact absurd rfl h0
  | succ n => exact (dif_pos h19).trans rfl

/-! ## The invariant between points -/

/-- Before point `n`: at the start the region's resting invariant (the accumulators at anything); afterwards the two
    accumulators at what point `n - 1` left, the other scoped buffers unopened, the generator register at some state. -/
def carriedInv1 (c : Dev nD) : (n : ℕ) → n ≤ cfg1.N → sProp 𝕄
  | 0, _ => Pipeline.ΦA spec1 c
  | n + 1, hn => iprop(iprop(iprop(owns (c : Thread nD τ) acc1_0 fullShare (statsAt1 V c n hn).2.2.1 ∗ owns (c : Thread nD τ) acc1_1 fullShare (statsAt1 V c n hn).2.2.2)
      ∗ Pipeline.scopedRestBut (Ix := Unit) (Name := ℕ) (U := UR sig nD τ) (Lvl := ℕ) (Val := Elt F) spec1 c [cc1_scratch0, cc1_scratch1]) ∗ (∃ r, prngReg c r))

theorem carriedInv1_zero (c : Dev nD) (n : ℕ) (h : n ≤ cfg1.N) (hz : n = 0) : carriedInv1 V c n h = Pipeline.ΦA spec1 c := by
  subst hz; rfl

theorem carriedInv1_succ (c : Dev nD) (n : ℕ) (hn : n < cfg1.N) :
    carriedInv1 V c (n + 1) hn = iprop(iprop(iprop(owns (c : Thread nD τ) acc1_0 fullShare (statsAt1 V c n hn).2.2.1 ∗ owns (c : Thread nD τ) acc1_1 fullShare (statsAt1 V c n hn).2.2.2)
      ∗ Pipeline.scopedRestBut (Ix := Unit) (Name := ℕ) (U := UR sig nD τ) (Lvl := ℕ) (Val := Elt F) spec1 c [cc1_scratch0, cc1_scratch1]) ∗ (∃ r, prngReg c r)) := rfl

theorem carriedInv1_pos (c : Dev nD) (n : ℕ) (h : n ≤ cfg1.N) (hz : n ≠ 0) :
    carriedInv1 V c n h = iprop(iprop(iprop(owns (c : Thread nD τ) acc1_0 fullShare (statsAt1 V c (n - 1) (by omega)).2.2.1 ∗ owns (c : Thread nD τ) acc1_1 fullShare (statsAt1 V c (n - 1) (by omega)).2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

/-- The arrays as the region finds them; after the body at point `t` each input's buffer at its block and the outputs'
    at the accumulation's components; the invariant the carried one; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (statsAt1 V c t.val t.isLt).1
    | ⟨4, _⟩ => (statsAt1 V c t.val t.isLt).2.1
  Φ t := carriedInv1 V c t.val (Nat.le_of_lt_succ t.isLt)
  q _ := fullShare
  owed _ := 0

theorem dat1_A (c : Dev nD) (w : Fin cfg1.W) : (dat1 V c).A w = V c (Pipeline.arrRef spec1 w) := by
  dsimp only [dat1]

theorem dat1_inv_castSucc (c : Dev nD) (t : Fin cfg1.N) :
    (dat1 V c).Φ t.castSucc = carriedInv1 V c t.val (Nat.le_of_lt t.isLt) := by
  dsimp only [dat1]; simp only [Fin.coe_castSucc]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = (statsAt1 V c t.val t.isLt).1 := by dsimp only [dat1]
theorem dat1_after_4 (c : Dev nD) (t : Fin cfg1.N) : (dat1 V c).after 4 t = (statsAt1 V c t.val t.isLt).2.1 := by dsimp only [dat1]

theorem before1_0 (c : Dev nD) (t : Fin cfg1.N) (d) : (dat1 V c).before 0 t d = blk1 V c 0 t :=
  before1_0_of V (dat1 V c) (dat1_A V c 0) (dat1_after_0 V c) t d
theorem before1_1 (c : Dev nD) (t : Fin cfg1.N) (d) : (dat1 V c).before 1 t d = blk1 V c 1 t :=
  before1_1_of V (dat1 V c) (dat1_A V c 1) (dat1_after_1 V c) t d
theorem before1_2 (c : Dev nD) (t : Fin cfg1.N) (d) : (dat1 V c).before 2 t d = blk1 V c 2 t :=
  before1_2_of V (dat1 V c) (dat1_A V c 2) (dat1_after_2 V c) t d

end

section
variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (stage1_0 t) fullShare ((dat1 V c).before 0 t d))
    ∗ (∃ d, owns (c : Thread nD τ) (stage1_1 t) fullShare ((dat1 V c).before 1 t d))
    ∗ (∃ d, owns (c : Thread nD τ) (stage1_2 t) fullShare ((dat1 V c).before 2 t d))
    ∗ (∃ d, owns (c : Thread nD τ) (stage1_3 t) fullShare ((dat1 V c).before 3 t d))
    ∗ (∃ d, owns (c : Thread nD τ) (stage1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

theorem leaves1_0 (c : Dev nD) (t : Fin cfg1.N) : (dat1 V c).leavesExact 0 t = owns (c : Thread nD τ) (stage1_0 t) fullShare (blk1 V c 0 t) := by
  unfold Dat.leavesExact; rw [live1_0 t, dat1_after_0]
theorem leaves1_1 (c : Dev nD) (t : Fin cfg1.N) : (dat1 V c).leavesExact 1 t = owns (c : Thread nD τ) (stage1_1 t) fullShare (blk1 V c 1 t) := by
  unfold Dat.leavesExact; rw [live1_1 t, dat1_after_1]
theorem leaves1_2 (c : Dev nD) (t : Fin cfg1.N) : (dat1 V c).leavesExact 2 t = owns (c : Thread nD τ) (stage1_2 t) fullShare (blk1 V c 2 t) := by
  unfold Dat.leavesExact; rw [live1_2 t, dat1_after_2]

set_option maxHeartbeats 8000000 in
/-- The body at any point. The inputs' memrefs hold their blocks; the two conditions' closed forms say which case the
    point is in; the invariant hands the run the accumulators (at anything at the first point, at what the point
    before left otherwise) and takes them back at this point's contents; away from the last point the outputs'
    buffers pass through untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = carriedInv1 V c (t.val + 1) t.isLt from rfl, carriedInv1_succ]
  rw [leaves1_0, leaves1_1, leaves1_2]
  have hN : t.val < 20 := lt_of_lt_of_eq t.isLt (show cfg1.N = 20 from N_1)
  by_cases h0 : t.val % 20 = 0
  · -- the first point
    have hz : t.val = 0 := by omega
    have hf : first1 (grid1.coords t) := (first1_iff t).mpr h0
    have hl : ¬last1 (grid1.coords t) := fun h => by have := (last1_iff t).mp h; omega
    rw [Dat.leavesExact_idle (dat1 V c) 3 t (idle1_3 t hl) (noFlush1_3 t hl),
      Dat.leavesExact_idle (dat1 V c) 4 t (idle1_4 t hl) (noFlush1_4 t hl)]
    rw [statsAt1_first V c t hz hf hl]
    unfold acc0After1_first acc1After1_first; (try dsimp only)
    rw [dat1_inv_castSucc V c t, carriedInv1_zero V c _ _ hz, restingInv1_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((statsRun1_first c (grid1.coords t) _ _ _ _ _ _ _ _ _ _ _ _ _ _ hf hl (blk1 V c 0 t) (blk1 V c 1 t) (blk1 V c 2 t)).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (acc0Cover1_first c _ _ _ _ _ _ _ _ _ _ _ _ _ _ _ _ _ _ _ _)
          · unfold owns; iexists _; isplitr
            swap; · iexact HS1
            ipureintro; exact View.read_writes_of_cover _ _ _ _ _ (acc1Cover1_first c _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := fun e => h0 (by rw [e])
    have hf : ¬first1 (grid1.coords t) := fun h => h0 ((first1_iff t).mp h)
    by_cases h19 : t.val % 20 = 19
    · -- the last point
      have hl : last1 (grid1.coords t) := (last1_iff t).mpr h19
      rw [show (dat1 V c).leavesExact 3 t = owns (c : Thread nD τ) (stage1_3 t) fullShare ((dat1 V c).after 3 t) from by
        unfold Dat.leavesExact; rw [liveLast1_3 t hl], dat1_after_3]
      rw [show (dat1 V c).leavesExact 4 t = owns (c : Thread nD τ) (stage1_4 t) fullShare ((dat1 V c).after 4 t) from by
        unfold Dat.leavesExact; rw [liveLast1_4 t hl], dat1_after_4]
      rw [statsAt1_last V c t hz h19 hf hl]
      unfold out3After1_last out4After1_last acc0After1_last acc1After1_last; (try dsimp only)
      rw [dat1_inv_castSucc V c t, carriedInv1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((statsRun1_last c (grid1.coords t) _ _ _ _ _ _ _ _ _ _ _ _ _ _ hf hl (blk1 V c 0 t) (blk1 V c 1 t) (blk1 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (acc0Cover1_last c _ _ _ _ _ _ _ _ _ _ _ _ _ _ _ _ _ _ _ _ _ _)
            · unfold owns; iexists _; isplitr
              swap; · iexact HS1
              ipureintro; exact View.read_writes_of_cover _ _ _ _ _ (acc1Cover1_last c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (out3Cover1_last c _ _ _ _ _ _ _ _ _ _ _ _ _ _ _ _ _ _ _ _ _ _)
      unfold owns; iexists _; isplitr
      swap; · iexact H4
      ipureintro; exact View.read_writes_of_cover _ _ _ _ _ (out4Cover1_last c _ _ _ _ _ _ _ _ _ _ _ _ _ _ _ _ _ _ _ _ _ _)
    · -- a middle point
      have hl : ¬last1 (grid1.coords t) := fun h => h19 ((last1_iff t).mp h)
      rw [Dat.leavesExact_idle (dat1 V c) 3 t (idle1_3 t hl) (noFlush1_3 t hl),
        Dat.leavesExact_idle (dat1 V c) 4 t (idle1_4 t hl) (noFlush1_4 t hl)]
      rw [statsAt1_mid V c t hz h19 hf hl]
      unfold acc0After1_mid acc1After1_mid; (try dsimp only)
      rw [dat1_inv_castSucc V c t, carriedInv1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((statsRun1_mid c (grid1.coords t) _ _ _ _ _ _ _ _ _ _ _ _ _ _ hf hl (blk1 V c 0 t) (blk1 V c 1 t) (blk1 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (acc0Cover1_mid c _ _ _ _ _ _ _ _ _ _ _ _ _ _ _ _ _ _ _ _ _ _)
            · unfold owns; iexists _; isplitr
              swap; · iexact HS1
              ipureintro; exact View.read_writes_of_cover _ _ _ _ _ (acc1Cover1_mid c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem inv1_in (c : Dev nD) : Pipeline.ΦA spec1 c ⊢ (dat1 V c).Φ 0 := by
  rw [show (dat1 V c).Φ 0 = carriedInv1 V c 0 (Nat.zero_le _) from rfl, carriedInv1_zero V c 0 _ rfl]
  try exact Idealize.SL.BI.Entails.refl _

/-- After the last point the invariant gives the resting one back: the accumulators' named contents are forgotten. -/
theorem inv1_out (c : Dev nD) : (dat1 V c).Φ (Fin.last cfg1.N) ⊢ Pipeline.ΦA spec1 c := by
  have hne : (Fin.last cfg1.N).val ≠ 0 := by rw [Fin.val_last]; have : cfg1.N = 20 := N_1; omega
  rw [show (dat1 V c).Φ (Fin.last cfg1.N) = carriedInv1 V c (Fin.last cfg1.N).val (Nat.le_of_lt_succ (Fin.last cfg1.N).isLt) from rfl,
    carriedInv1_pos V c _ _ hne, restingInv1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.Kernel.Hand

end
-- ==== Proof.K.StatsBase3.lean ====
/-
  The column-statistics kernel of region 3: what its three control cases share.

  The kernel walks the `[100000, 128]` array of aggregated features in 20 blocks of 5000 rows. At every point it forms
  `y = block · dinv + b` (each row scaled by its node's degree factor, the bias added) and adds the column sums of `y`
  and of `y · y` to two `[1, 128]` accumulators that live in scratch memory between points. The first point zeroes the
  accumulators before adding; the last point copies them to the two `[1, 128]` outputs after adding. So the grid splits
  into three cases — first point, middle points, last point — told apart by two conditions on the grid coordinate,
  which are decided here once over the twenty points.
-/
import proofs.«156713_j13589276524898_2_alg».proof.Proof.Gen.Kernel.Launch
import proofs.«156713_j13589276524898_2_alg».proof.Proof.Gen.Kernel.Skeleton
import proofs.«156713_j13589276524898_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not (unfetched, the block index has not moved). -/
theorem before3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Input window 1's staging buffer holds its block at every point, fetched there or not (unfetched, the block index has not moved). -/
theorem before3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- Input window 2's staging buffer holds its block at every point, fetched there or not (unfetched, the block index has not moved). -/
theorem before3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

end

/-! ## The two conditions -/

/-- "This is the first point": the body's first branch condition, from the grid coordinate. -/
abbrev first3 (i : grid3.Coords) : Prop := (Scalar.cmpi .ne (Scalar.extui (Scalar.cmpi .eq (BitVec.ofNat 32 (i 0).val) 0#32)) 0#32) = 1#1
theorem first3_iff : ∀ t : Fin cfg3.N, first3 (grid3.coords t) ↔ t.val % 20 = 0 :=
  (by decide +kernel : ∀ t : Fin grid3.N, first3 (grid3.coords t) ↔ t.val % 20 = 0)

/-- "This is the last point": the body's second branch condition. -/
abbrev last3 (i : grid3.Coords) : Prop := k3_cond2 i = 1#1
theorem last3_iff : ∀ t : Fin cfg3.N, last3 (grid3.coords t) ↔ t.val % 20 = 19 :=
  (by decide +kernel : ∀ t : Fin grid3.N, last3 (grid3.coords t) ↔ t.val % 20 = 19)

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Away from the last point the two outputs are idle (the body stores nothing into them) and are not written back. -/
theorem idle3_3 : ∀ t : Fin cfg3.N, ¬last3 (grid3.coords t) → cfg3.idle 3 (grid3.coords t) = true := by decide +kernel
theorem idle3_4 : ∀ t : Fin cfg3.N, ¬last3 (grid3.coords t) → cfg3.idle 4 (grid3.coords t) = true := by decide +kernel
theorem noFlush3_3 : ∀ t : Fin cfg3.N, ¬last3 (grid3.coords t) → (cfg3.win 3).flush t = false := by decide +kernel
theorem noFlush3_4 : ∀ t : Fin cfg3.N, ¬last3 (grid3.coords t) → (cfg3.win 4).flush t = false := by decide +kernel
/-- At the last point they are live. -/
theorem liveLast3_3 : ∀ t : Fin cfg3.N, last3 (grid3.coords t) → cfg3.idle 3 (grid3.coords t) = false := by decide +kernel
theorem liveLast3_4 : ∀ t : Fin cfg3.N, last3 (grid3.coords t) → cfg3.idle 4 (grid3.coords t) = false := by decide +kernel

/-! ## The memrefs the body is called with -/

/-- One staging buffer of each output window, through which its contents are stated. -/
abbrev outView3_3 : View sig .tc .vmem S1x128 .f32 := (Memref.whole cc3_stg3_0 : Memref sig .tc .vmem S1x128 .f32).view
abbrev outView3_4 : View sig .tc .vmem S1x128 .f32 := (Memref.whole cc3_stg4_0 : Memref sig .tc .vmem S1x128 .f32).view
abbrev stage3_0 (t : Fin cfg3.N) : Memref sig .tc .vmem S5000x128 .f32 := win3_0.stage (cfg3.slots t 0)
abbrev stageWhole3_0 (t : Fin cfg3.N) : (stage3_0 t).IsWhole := hstage3_0 ((cfg3.slots t 0).cast nbuf3_0)
abbrev stage3_1 (t : Fin cfg3.N) : Memref sig .tc .vmem S5000x1 .f32 := win3_1.stage (cfg3.slots t 1)
abbrev stageWhole3_1 (t : Fin cfg3.N) : (stage3_1 t).IsWhole := hstage3_1 ((cfg3.slots t 1).cast nbuf3_1)
abbrev stage3_2 (t : Fin cfg3.N) : Memref sig .tc .vmem S1x128 .f32 := win3_2.stage (cfg3.slots t 2)
abbrev stageWhole3_2 (t : Fin cfg3.N) : (stage3_2 t).IsWhole := hstage3_2 ((cfg3.slots t 2).cast nbuf3_2)
abbrev stage3_3 (t : Fin cfg3.N) : Memref sig .tc .vmem S1x128 .f32 := win3_3.stage (cfg3.slots t 3)
abbrev stageWhole3_3 (t : Fin cfg3.N) : (stage3_3 t).IsWhole := hstage3_3 ((cfg3.slots t 3).cast nbuf3_3)
abbrev stage3_4 (t : Fin cfg3.N) : Memref sig .tc .vmem S1x128 .f32 := win3_4.stage (cfg3.slots t 4)
abbrev stageWhole3_4 (t : Fin cfg3.N) : (stage3_4 t).IsWhole := hstage3_4 ((cfg3.slots t 4).cast nbuf3_4)
/-- The two accumulators: whole scoped buffers of the kernel's own. -/
abbrev acc3_0 : Memref sig .tc .vmem S1x128 .f32 := Memref.whole cc3_scratch0
abbrev acc3_1 : Memref sig .tc .vmem S1x128 .f32 := Memref.whole cc3_scratch1
abbrev accView3_0 : View sig .tc .vmem S1x128 .f32 := acc3_0.view
abbrev accView3_1 : View sig .tc .vmem S1x128 .f32 := acc3_1.view

/-- The region's resting invariant with the two accumulators taken out of the scoped buffers no window stages:
    each owned whole at some contents, the remaining scoped buffers unopened, the generator register at some state. -/
theorem restingInv3_eq (c : Dev nD) :
    (Pipeline.ΦA spec3 c : sProp 𝕄)
      = iprop(iprop(iprop((∃ d, owns (c : Thread nD τ) acc3_0 fullShare d) ∗ (∃ d, owns (c : Thread nD τ) acc3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [acc3_0, acc3_1, owns_whole]; try rfl

end Cert.Kernel.Hand

end
-- ==== Proof.K.StatsRunFirst3.lean ====
/-
  The column-statistics kernel of region 3 at the FIRST grid point: both accumulators are stored whole with zeros
  and then with zero plus this block's column sums; the outputs are not touched. What the accumulators end
  with is found by running the body symbolically; the pieces written are the witness.
-/
import proofs.«156713_j13589276524898_2_alg».proof.Proof.K.StatsBase3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point, on whole memrefs: the three inputs at their contents, the two outputs at contents handed
    back untouched, the accumulators at anything; it ends with each accumulator holding its pieces. -/
noncomputable def statsRun3_first (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first3 i) (hl : ¬last3 i)
    (x0 : Vec F S5000x128 .f32) (x1 : Vec F S5000x1 .f32) (x2 : Vec F S1x128 .f32) :
    Σ' (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__stats_kernel i arg1 harg1 arg2 harg2 arg3 harg3 arg4 harg4 arg5 harg5 arg6 harg6 arg7 harg7) K } := by
  refine ⟨?_, ?_, fun xi3 xi4 E K => ?run⟩
  case run =>
    simp only [cc3__stats_kernel_eq_skeleton]; unfold cc3__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.K.StatsRunMid3.lean ====
/-
  The column-statistics kernel of region 3 at a MIDDLE grid point: each accumulator, holding what the point before
  left, is stored whole with that plus this block's column sums; the outputs are not touched.
-/
import proofs.«156713_j13589276524898_2_alg».proof.Proof.K.StatsRunFirst3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point, on whole memrefs: inputs at their contents, outputs handed back untouched, the
    accumulators at the contents carried in; it ends with each accumulator holding its pieces. -/
noncomputable def statsRun3_mid (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : ¬last3 i)
    (x0 : Vec F S5000x128 .f32) (x1 : Vec F S5000x1 .f32) (x2 : Vec F S1x128 .f32) (xs0 xs1 : Vec F S1x128 .f32) :
    Σ' (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__stats_kernel i arg1 harg1 arg2 harg2 arg3 harg3 arg4 harg4 arg5 harg5 arg6 harg6 arg7 harg7) K } := by
  refine ⟨?_, ?_, fun xi3 xi4 E K => ?run⟩
  case run =>
    simp only [cc3__stats_kernel_eq_skeleton]; unfold cc3__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs0; obtain rfl := harg7.eq_unread hfs1
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Hand

end
-- ==== Proof.K.StatsRunLast3.lean ====
/-
  The column-statistics kernel of region 3 at the LAST grid point: each accumulator is stored whole with what the
  point before left plus this block's column sums, and then copied whole into its output.
-/
import proofs.«156713_j13589276524898_2_alg».proof.Proof.K.StatsRunMid3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point, on whole memrefs: inputs at their contents, outputs at anything, the accumulators at
    the contents carried in; it ends with each output and each accumulator holding its pieces. -/
noncomputable def statsRun3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) :
    Σ' (L3 : List (View.Piece (Elt F) S1x128 .f32)) (L4 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__stats_kernel i arg1 harg1 arg2 harg2 arg3 harg3 arg4 harg4 arg5 harg5 arg6 harg6 arg7 harg7) K } := by
  refine ⟨?_, ?_, ?_, ?_, fun E K => ?run⟩
  case run =>
    simp only [cc3__stats_kernel_eq_skeleton]; unfold cc3__stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.Kernel.Hand

end
-- ==== Proof.K.Stats3.lean ====
/-
  The column-statistics region 3: what the accumulators and the outputs hold after each grid point, the region's
  invariant, its proof data and the body obligation.

  After point 0 each accumulator holds what the first-point run leaves (zero plus block 0's column sums); after
  point n + 1 what the middle- or last-point run leaves from the contents after point n. The outputs are written at
  the last point only (a copy of the accumulators); at every other point their windows are idle and their buffers
  are handed back as found. Between points the invariant keeps the two accumulators at these named contents beside
  the scoped buffers the region does not use and the generator register.
-/
import proofs.«156713_j13589276524898_2_alg».proof.Proof.K.StatsRunLast3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The first point's pieces for accumulator 0 cover it (one whole-buffer store after another). -/
theorem acc0Cover3_first (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first3 i) (hl : ¬last3 i)
    (x0 : Vec F S5000x128 .f32) (x1 : Vec F S5000x1 .f32) (x2 : Vec F S1x128 .f32)  (y : S1x128.Idx) :
    ∃ pc ∈ (statsRun3_first c i arg1 harg1 arg2 harg2 arg3 harg3 arg4 harg4 arg5 harg5 arg6 harg6 arg7 harg7 hf hl x0 x1 x2 ).1, y ∈ pc.1.set :=
  View.cover_of_tiledL (statsRun3_first c i arg1 harg1 arg2 harg2 arg3 harg3 arg4 harg4 arg5 harg5 arg6 harg6 arg7 harg7 hf hl x0 x1 x2 ).1 S1x128.size (by sl_kernel_rfl) y

def acc0After3_first (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first3 i) (hl : ¬last3 i)
    (x0 : Vec F S5000x128 .f32) (x1 : Vec F S5000x1 .f32) (x2 : Vec F S1x128 .f32)  : Vec F S1x128 .f32 :=
  accView3_0.read (Elt F) (accView3_0.writes (Elt F) accView3_0.junk (statsRun3_first c i arg1 harg1 arg2 harg2 arg3 harg3 arg4 harg4 arg5 harg5 arg6 harg6 arg7 harg7 hf hl x0 x1 x2 ).1)

/-- The first point's pieces for accumulator 1 cover it. -/
theorem acc1Cover3_first (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first3 i) (hl : ¬last3 i)
    (x0 : Vec F S5000x128 .f32) (x1 : Vec F S5000x1 .f32) (x2 : Vec F S1x128 .f32)  (y : S1x128.Idx) :
    ∃ pc ∈ (statsRun3_first c i arg1 harg1 arg2 harg2 arg3 harg3 arg4 harg4 arg5 harg5 arg6 harg6 arg7 harg7 hf hl x0 x1 x2 ).2.1, y ∈ pc.1.set :=
  View.cover_of_tiledL (statsRun3_first c i arg1 harg1 arg2 harg2 arg3 harg3 arg4 harg4 arg5 harg5 arg6 harg6 arg7 harg7 hf hl x0 x1 x2 ).2.1 S1x128.size (by sl_kernel_rfl) y

def acc1After3_first (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first3 i) (hl : ¬last3 i)
    (x0 : Vec F S5000x128 .f32) (x1 : Vec F S5000x1 .f32) (x2 : Vec F S1x128 .f32)  : Vec F S1x128 .f32 :=
  accView3_1.read (Elt F) (accView3_1.writes (Elt F) accView3_1.junk (statsRun3_first c i arg1 harg1 arg2 harg2 arg3 harg3 arg4 harg4 arg5 harg5 arg6 harg6 arg7 harg7 hf hl x0 x1 x2 ).2.1)

/-- A middle point's pieces for accumulator 0 cover it. -/
theorem acc0Cover3_mid (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : ¬last3 i)
    (x0 : Vec F S5000x128 .f32) (x1 : Vec F S5000x1 .f32) (x2 : Vec F S1x128 .f32) (xs0 xs1 : Vec F S1x128 .f32) (y : S1x128.Idx) :
    ∃ pc ∈ (statsRun3_mid c i arg1 harg1 arg2 harg2 arg3 harg3 arg4 harg4 arg5 harg5 arg6 harg6 arg7 harg7 hf hl x0 x1 x2 xs0 xs1).1, y ∈ pc.1.set :=
  View.cover_of_tiledL (statsRun3_mid c i arg1 harg1 arg2 harg2 arg3 harg3 arg4 harg4 arg5 harg5 arg6 harg6 arg7 harg7 hf hl x0 x1 x2 xs0 xs1).1 S1x128.size (by sl_kernel_rfl) y

def acc0After3_mid (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : ¬last3 i)
    (x0 : Vec F S5000x128 .f32) (x1 : Vec F S5000x1 .f32) (x2 : Vec F S1x128 .f32) (xs0 xs1 : Vec F S1x128 .f32) : Vec F S1x128 .f32 :=
  accView3_0.read (Elt F) (accView3_0.writes (Elt F) accView3_0.junk (statsRun3_mid c i arg1 harg1 arg2 harg2 arg3 harg3 arg4 harg4 arg5 harg5 arg6 harg6 arg7 harg7 hf hl x0 x1 x2 xs0 xs1).1)

/-- A middle point's pieces for accumulator 1 cover it. -/
theorem acc1Cover3_mid (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : ¬last3 i)
    (x0 : Vec F S5000x128 .f32) (x1 : Vec F S5000x1 .f32) (x2 : Vec F S1x128 .f32) (xs0 xs1 : Vec F S1x128 .f32) (y : S1x128.Idx) :
    ∃ pc ∈ (statsRun3_mid c i arg1 harg1 arg2 harg2 arg3 harg3 arg4 harg4 arg5 harg5 arg6 harg6 arg7 harg7 hf hl x0 x1 x2 xs0 xs1).2.1, y ∈ pc.1.set :=
  View.cover_of_tiledL (statsRun3_mid c i arg1 harg1 arg2 harg2 arg3 harg3 arg4 harg4 arg5 harg5 arg6 harg6 arg7 harg7 hf hl x0 x1 x2 xs0 xs1).2.1 S1x128.size (by sl_kernel_rfl) y

def acc1After3_mid (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : ¬last3 i)
    (x0 : Vec F S5000x128 .f32) (x1 : Vec F S5000x1 .f32) (x2 : Vec F S1x128 .f32) (xs0 xs1 : Vec F S1x128 .f32) : Vec F S1x128 .f32 :=
  accView3_1.read (Elt F) (accView3_1.writes (Elt F) accView3_1.junk (statsRun3_mid c i arg1 harg1 arg2 harg2 arg3 harg3 arg4 harg4 arg5 harg5 arg6 harg6 arg7 harg7 hf hl x0 x1 x2 xs0 xs1).2.1)

/-- The last point's pieces for output 3 (the column sums) cover it. -/
theorem out3Cover3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) (y : S1x128.Idx) :
    ∃ pc ∈ (statsRun3_last c i arg1 harg1 arg2 harg2 arg3 harg3 arg4 harg4 arg5 harg5 arg6 harg6 arg7 harg7 hf hl x0 x1 x2 xs0 xs1).1, y ∈ pc.1.set :=
  View.cover_of_tiledL (statsRun3_last c i arg1 harg1 arg2 harg2 arg3 harg3 arg4 harg4 arg5 harg5 arg6 harg6 arg7 harg7 hf hl x0 x1 x2 xs0 xs1).1 S1x128.size (by sl_kernel_rfl) y

def out3After3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) : Vec F S1x128 .f32 :=
  outView3_3.read (Elt F) (outView3_3.writes (Elt F) outView3_3.junk (statsRun3_last c i arg1 harg1 arg2 harg2 arg3 harg3 arg4 harg4 arg5 harg5 arg6 harg6 arg7 harg7 hf hl x0 x1 x2 xs0 xs1).1)

/-- The last point's pieces for output 4 (the column sums of squares) cover it. -/
theorem out4Cover3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) (y : S1x128.Idx) :
    ∃ pc ∈ (statsRun3_last c i arg1 harg1 arg2 harg2 arg3 harg3 arg4 harg4 arg5 harg5 arg6 harg6 arg7 harg7 hf hl x0 x1 x2 xs0 xs1).2.1, y ∈ pc.1.set :=
  View.cover_of_tiledL (statsRun3_last c i arg1 harg1 arg2 harg2 arg3 harg3 arg4 harg4 arg5 harg5 arg6 harg6 arg7 harg7 hf hl x0 x1 x2 xs0 xs1).2.1 S1x128.size (by sl_kernel_rfl) y

def out4After3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) : Vec F S1x128 .f32 :=
  outView3_4.read (Elt F) (outView3_4.writes (Elt F) outView3_4.junk (statsRun3_last c i arg1 harg1 arg2 harg2 arg3 harg3 arg4 harg4 arg5 harg5 arg6 harg6 arg7 harg7 hf hl x0 x1 x2 xs0 xs1).2.1)

/-- The last point's pieces for accumulator 0 cover it. -/
theorem acc0Cover3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) (y : S1x128.Idx) :
    ∃ pc ∈ (statsRun3_last c i arg1 harg1 arg2 harg2 arg3 harg3 arg4 harg4 arg5 harg5 arg6 harg6 arg7 harg7 hf hl x0 x1 x2 xs0 xs1).2.2.1, y ∈ pc.1.set :=
  View.cover_of_tiledL (statsRun3_last c i arg1 harg1 arg2 harg2 arg3 harg3 arg4 harg4 arg5 harg5 arg6 harg6 arg7 harg7 hf hl x0 x1 x2 xs0 xs1).2.2.1 S1x128.size (by sl_kernel_rfl) y

def acc0After3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) : Vec F S1x128 .f32 :=
  accView3_0.read (Elt F) (accView3_0.writes (Elt F) accView3_0.junk (statsRun3_last c i arg1 harg1 arg2 harg2 arg3 harg3 arg4 harg4 arg5 harg5 arg6 harg6 arg7 harg7 hf hl x0 x1 x2 xs0 xs1).2.2.1)

/-- The last point's pieces for accumulator 1 cover it. -/
theorem acc1Cover3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) (y : S1x128.Idx) :
    ∃ pc ∈ (statsRun3_last c i arg1 harg1 arg2 harg2 arg3 harg3 arg4 harg4 arg5 harg5 arg6 harg6 arg7 harg7 hf hl x0 x1 x2 xs0 xs1).2.2.2.1, y ∈ pc.1.set :=
  View.cover_of_tiledL (statsRun3_last c i arg1 harg1 arg2 harg2 arg3 harg3 arg4 harg4 arg5 harg5 arg6 harg6 arg7 harg7 hf hl x0 x1 x2 xs0 xs1).2.2.2.1 S1x128.size (by sl_kernel_rfl) y

def acc1After3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) : Vec F S1x128 .f32 :=
  accView3_1.read (Elt F) (accView3_1.writes (Elt F) accView3_1.junk (statsRun3_last c i arg1 harg1 arg2 harg2 arg3 harg3 arg4 harg4 arg5 harg5 arg6 harg6 arg7 harg7 hf hl x0 x1 x2 xs0 xs1).2.2.2.1)

/-- What an idle output's buffer is said to hold where nothing consults it. -/
def idleOut3_3 : Vec F S1x128 .f32 := outView3_3.read (Elt F) outView3_3.junk
def idleOut3_4 : Vec F S1x128 .f32 := outView3_4.read (Elt F) outView3_4.junk

section
variable (V : (c : Dev nD) → (b : Ref sig .tc) → Buf (Elt F) ((c : Thread nD τ).loc b))

/-! ## Point by point -/

theorem notLast3_zero (hn : 0 < cfg3.N) : ¬last3 (grid3.coords ⟨0, hn⟩) := fun h => by
  have := (last3_iff ⟨0, hn⟩).mp h; (try dsimp only at this); omega

theorem notFirst3_succ (n : ℕ) (hn : n + 1 < cfg3.N) : ¬first3 (grid3.coords ⟨n + 1, hn⟩) := fun h => by
  have h0 := (first3_iff ⟨n + 1, hn⟩).mp h
  have hN : n + 1 < 20 := lt_of_lt_of_eq hn (show cfg3.N = 20 from N_3)
  (try dsimp only at h0); omega

/-- THE ACCUMULATION: (output 3, output 4, accumulator 0, accumulator 1) after the body at point `n`. -/
def statsAt3 (c : Dev nD) : (n : ℕ) → n < cfg3.N → Vec F S1x128 .f32 × Vec F S1x128 .f32 × Vec F S1x128 .f32 × Vec F S1x128 .f32
  | 0, hn => (idleOut3_3, idleOut3_4,
      acc0After3_first c (grid3.coords ⟨0, hn⟩) (stage3_0 ⟨0, hn⟩) (stageWhole3_0 ⟨0, hn⟩) (stage3_1 ⟨0, hn⟩) (stageWhole3_1 ⟨0, hn⟩) (stage3_2 ⟨0, hn⟩) (stageWhole3_2 ⟨0, hn⟩) (stage3_3 ⟨0, hn⟩) (stageWhole3_3 ⟨0, hn⟩) (stage3_4 ⟨0, hn⟩) (stageWhole3_4 ⟨0, hn⟩) acc3_0 (Memref.isWhole_whole _) acc3_1 (Memref.isWhole_whole _) ((first3_iff ⟨0, hn⟩).mpr (Nat.zero_mod _)) (notLast3_zero hn) (blk3 V c 0 ⟨0, hn⟩) (blk3 V c 1 ⟨0, hn⟩) (blk3 V c 2 ⟨0, hn⟩),
      acc1After3_first c (grid3.coords ⟨0, hn⟩) (stage3_0 ⟨0, hn⟩) (stageWhole3_0 ⟨0, hn⟩) (stage3_1 ⟨0, hn⟩) (stageWhole3_1 ⟨0, hn⟩) (stage3_2 ⟨0, hn⟩) (stageWhole3_2 ⟨0, hn⟩) (stage3_3 ⟨0, hn⟩) (stageWhole3_3 ⟨0, hn⟩) (stage3_4 ⟨0, hn⟩) (stageWhole3_4 ⟨0, hn⟩) acc3_0 (Memref.isWhole_whole _) acc3_1 (Memref.isWhole_whole _) ((first3_iff ⟨0, hn⟩).mpr (Nat.zero_mod _)) (notLast3_zero hn) (blk3 V c 0 ⟨0, hn⟩) (blk3 V c 1 ⟨0, hn⟩) (blk3 V c 2 ⟨0, hn⟩))
  | n + 1, hn =>
    if h19 : (n + 1) % 20 = 19 then
      (out3After3_last c (grid3.coords ⟨n + 1, hn⟩) (stage3_0 ⟨n + 1, hn⟩) (stageWhole3_0 ⟨n + 1, hn⟩) (stage3_1 ⟨n + 1, hn⟩) (stageWhole3_1 ⟨n + 1, hn⟩) (stage3_2 ⟨n + 1, hn⟩) (stageWhole3_2 ⟨n + 1, hn⟩) (stage3_3 ⟨n + 1, hn⟩) (stageWhole3_3 ⟨n + 1, hn⟩) (stage3_4 ⟨n + 1, hn⟩) (stageWhole3_4 ⟨n + 1, hn⟩) acc3_0 (Memref.isWhole_whole _) acc3_1 (Memref.isWhole_whole _) (notFirst3_succ n hn) ((last3_iff ⟨n + 1, hn⟩).mpr h19) (blk3 V c 0 ⟨n + 1, hn⟩) (blk3 V c 1 ⟨n + 1, hn⟩) (blk3 V c 2 ⟨n + 1, hn⟩) (statsAt3 c n (Nat.lt_of_succ_lt hn)).2.2.1 (statsAt3 c n (Nat.lt_of_succ_lt hn)).2.2.2,
       out4After3_last c (grid3.coords ⟨n + 1, hn⟩) (stage3_0 ⟨n + 1, hn⟩) (stageWhole3_0 ⟨n + 1, hn⟩) (stage3_1 ⟨n + 1, hn⟩) (stageWhole3_1 ⟨n + 1, hn⟩) (stage3_2 ⟨n + 1, hn⟩) (stageWhole3_2 ⟨n + 1, hn⟩) (stage3_3 ⟨n + 1, hn⟩) (stageWhole3_3 ⟨n + 1, hn⟩) (stage3_4 ⟨n + 1, hn⟩) (stageWhole3_4 ⟨n + 1, hn⟩) acc3_0 (Memref.isWhole_whole _) acc3_1 (Memref.isWhole_whole _) (notFirst3_succ n hn) ((last3_iff ⟨n + 1, hn⟩).mpr h19) (blk3 V c 0 ⟨n + 1, hn⟩) (blk3 V c 1 ⟨n + 1, hn⟩) (blk3 V c 2 ⟨n + 1, hn⟩) (statsAt3 c n (Nat.lt_of_succ_lt hn)).2.2.1 (statsAt3 c n (Nat.lt_of_succ_lt hn)).2.2.2,
       acc0After3_last c (grid3.coords ⟨n + 1, hn⟩) (stage3_0 ⟨n + 1, hn⟩) (stageWhole3_0 ⟨n + 1, hn⟩) (stage3_1 ⟨n + 1, hn⟩) (stageWhole3_1 ⟨n + 1, hn⟩) (stage3_2 ⟨n + 1, hn⟩) (stageWhole3_2 ⟨n + 1, hn⟩) (stage3_3 ⟨n + 1, hn⟩) (stageWhole3_3 ⟨n + 1, hn⟩) (stage3_4 ⟨n + 1, hn⟩) (stageWhole3_4 ⟨n + 1, hn⟩) acc3_0 (Memref.isWhole_whole _) acc3_1 (Memref.isWhole_whole _) (notFirst3_succ n hn) ((last3_iff ⟨n + 1, hn⟩).mpr h19) (blk3 V c 0 ⟨n + 1, hn⟩) (blk3 V c 1 ⟨n + 1, hn⟩) (blk3 V c 2 ⟨n + 1, hn⟩) (statsAt3 c n (Nat.lt_of_succ_lt hn)).2.2.1 (statsAt3 c n (Nat.lt_of_succ_lt hn)).2.2.2,
       acc1After3_last c (grid3.coords ⟨n + 1, hn⟩) (stage3_0 ⟨n + 1, hn⟩) (stageWhole3_0 ⟨n + 1, hn⟩) (stage3_1 ⟨n + 1, hn⟩) (stageWhole3_1 ⟨n + 1, hn⟩) (stage3_2 ⟨n + 1, hn⟩) (stageWhole3_2 ⟨n + 1, hn⟩) (stage3_3 ⟨n + 1, hn⟩) (stageWhole3_3 ⟨n + 1, hn⟩) (stage3_4 ⟨n + 1, hn⟩) (stageWhole3_4 ⟨n + 1, hn⟩) acc3_0 (Memref.isWhole_whole _) acc3_1 (Memref.isWhole_whole _) (notFirst3_succ n hn) ((last3_iff ⟨n + 1, hn⟩).mpr h19) (blk3 V c 0 ⟨n + 1, hn⟩) (blk3 V c 1 ⟨n + 1, hn⟩) (blk3 V c 2 ⟨n + 1, hn⟩) (statsAt3 c n (Nat.lt_of_succ_lt hn)).2.2.1 (statsAt3 c n (Nat.lt_of_succ_lt hn)).2.2.2)
    else
      (idleOut3_3, idleOut3_4,
       acc0After3_mid c (grid3.coords ⟨n + 1, hn⟩) (stage3_0 ⟨n + 1, hn⟩) (stageWhole3_0 ⟨n + 1, hn⟩) (stage3_1 ⟨n + 1, hn⟩) (stageWhole3_1 ⟨n + 1, hn⟩) (stage3_2 ⟨n + 1, hn⟩) (stageWhole3_2 ⟨n + 1, hn⟩) (stage3_3 ⟨n + 1, hn⟩) (stageWhole3_3 ⟨n + 1, hn⟩) (stage3_4 ⟨n + 1, hn⟩) (stageWhole3_4 ⟨n + 1, hn⟩) acc3_0 (Memref.isWhole_whole _) acc3_1 (Memref.isWhole_whole _) (notFirst3_succ n hn) (fun h => h19 ((last3_iff ⟨n + 1, hn⟩).mp h)) (blk3 V c 0 ⟨n + 1, hn⟩) (blk3 V c 1 ⟨n + 1, hn⟩) (blk3 V c 2 ⟨n + 1, hn⟩) (statsAt3 c n (Nat.lt_of_succ_lt hn)).2.2.1 (statsAt3 c n (Nat.lt_of_succ_lt hn)).2.2.2,
       acc1After3_mid c (grid3.coords ⟨n + 1, hn⟩) (stage3_0 ⟨n + 1, hn⟩) (stageWhole3_0 ⟨n + 1, hn⟩) (stage3_1 ⟨n + 1, hn⟩) (stageWhole3_1 ⟨n + 1, hn⟩) (stage3_2 ⟨n + 1, hn⟩) (stageWhole3_2 ⟨n + 1, hn⟩) (stage3_3 ⟨n + 1, hn⟩) (stageWhole3_3 ⟨n + 1, hn⟩) (stage3_4 ⟨n + 1, hn⟩) (stageWhole3_4 ⟨n + 1, hn⟩) acc3_0 (Memref.isWhole_whole _) acc3_1 (Memref.isWhole_whole _) (notFirst3_succ n hn) (fun h => h19 ((last3_iff ⟨n + 1, hn⟩).mp h)) (blk3 V c 0 ⟨n + 1, hn⟩) (blk3 V c 1 ⟨n + 1, hn⟩) (blk3 V c 2 ⟨n + 1, hn⟩) (statsAt3 c n (Nat.lt_of_succ_lt hn)).2.2.1 (statsAt3 c n (Nat.lt_of_succ_lt hn)).2.2.2)

/-- At the first point: the first-point run's contents. -/
theorem statsAt3_first (c : Dev nD) (t : Fin cfg3.N) (h0 : t.val = 0) (hf : first3 (grid3.coords t)) (hl : ¬last3 (grid3.coords t)) :
    statsAt3 V c t.val t.isLt = (idleOut3_3, idleOut3_4,
      acc0After3_first c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t),
      acc1After3_first c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t)) := by
  obtain ⟨n, hn⟩ := t
  cases n with
  | zero => rfl
  | succ n => exact absurd h0 (Nat.succ_ne_zero n)

/-- At a middle point: the middle-point run's contents over what the point before left. -/
theorem statsAt3_mid (c : Dev nD) (t : Fin cfg3.N) (h0 : t.val ≠ 0) (h19 : ¬t.val % 20 = 19) (hf : ¬first3 (grid3.coords t)) (hl : ¬last3 (grid3.coords t)) :
    statsAt3 V c t.val t.isLt = (idleOut3_3, idleOut3_4,
      acc0After3_mid c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t) (statsAt3 V c (t.val - 1) (Nat.lt_of_le_of_lt (Nat.sub_le _ _) t.isLt)).2.2.1 (statsAt3 V c (t.val - 1) (Nat.lt_of_le_of_lt (Nat.sub_le _ _) t.isLt)).2.2.2,
      acc1After3_mid c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t) (statsAt3 V c (t.val - 1) (Nat.lt_of_le_of_lt (Nat.sub_le _ _) t.isLt)).2.2.1 (statsAt3 V c (t.val - 1) (Nat.lt_of_le_of_lt (Nat.sub_le _ _) t.isLt)).2.2.2) := by
  obtain ⟨n, hn⟩ := t
  cases n with
  | zero => exact absurd rfl h0
  | succ n => exact (dif_neg h19).trans rfl

/-- At the last point: the last-point run's contents over what the point before left. -/
theorem statsAt3_last (c : Dev nD) (t : Fin cfg3.N) (h0 : t.val ≠ 0) (h19 : t.val % 20 = 19) (hf : ¬first3 (grid3.coords t)) (hl : last3 (grid3.coords t)) :
    statsAt3 V c t.val t.isLt = (
      out3After3_last c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t) (statsAt3 V c (t.val - 1) (Nat.lt_of_le_of_lt (Nat.sub_le _ _) t.isLt)).2.2.1 (statsAt3 V c (t.val - 1) (Nat.lt_of_le_of_lt (Nat.sub_le _ _) t.isLt)).2.2.2,
      out4After3_last c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t) (statsAt3 V c (t.val - 1) (Nat.lt_of_le_of_lt (Nat.sub_le _ _) t.isLt)).2.2.1 (statsAt3 V c (t.val - 1) (Nat.lt_of_le_of_lt (Nat.sub_le _ _) t.isLt)).2.2.2,
      acc0After3_last c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t) (statsAt3 V c (t.val - 1) (Nat.lt_of_le_of_lt (Nat.sub_le _ _) t.isLt)).2.2.1 (statsAt3 V c (t.val - 1) (Nat.lt_of_le_of_lt (Nat.sub_le _ _) t.isLt)).2.2.2,
      acc1After3_last c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t) (statsAt3 V c (t.val - 1) (Nat.lt_of_le_of_lt (Nat.sub_le _ _) t.isLt)).2.2.1 (statsAt3 V c (t.val - 1) (Nat.lt_of_le_of_lt (Nat.sub_le _ _) t.isLt)).2.2.2) := by
  obtain ⟨n, hn⟩ := t
  cases n with
  | zero => exact absurd rfl h0
  | succ n => exact (dif_pos h19).trans rfl

/-! ## The invariant between points -/

/-- Before point `n`: at the start the region's resting invariant (the accumulators at anything); afterwards the two
    accumulators at what point `n - 1` left, the other scoped buffers unopened, the generator register at some state. -/
def carriedInv3 (c : Dev nD) : (n : ℕ) → n ≤ cfg3.N → sProp 𝕄
  | 0, _ => Pipeline.ΦA spec3 c
  | n + 1, hn => iprop(iprop(iprop(owns (c : Thread nD τ) acc3_0 fullShare (statsAt3 V c n hn).2.2.1 ∗ owns (c : Thread nD τ) acc3_1 fullShare (statsAt3 V c n hn).2.2.2)
      ∗ Pipeline.scopedRestBut (Ix := Unit) (Name := ℕ) (U := UR sig nD τ) (Lvl := ℕ) (Val := Elt F) spec3 c [cc3_scratch0, cc3_scratch1]) ∗ (∃ r, prngReg c r))

theorem carriedInv3_zero (c : Dev nD) (n : ℕ) (h : n ≤ cfg3.N) (hz : n = 0) : carriedInv3 V c n h = Pipeline.ΦA spec3 c := by
  subst hz; rfl

theorem carriedInv3_succ (c : Dev nD) (n : ℕ) (hn : n < cfg3.N) :
    carriedInv3 V c (n + 1) hn = iprop(iprop(iprop(owns (c : Thread nD τ) acc3_0 fullShare (statsAt3 V c n hn).2.2.1 ∗ owns (c : Thread nD τ) acc3_1 fullShare (statsAt3 V c n hn).2.2.2)
      ∗ Pipeline.scopedRestBut (Ix := Unit) (Name := ℕ) (U := UR sig nD τ) (Lvl := ℕ) (Val := Elt F) spec3 c [cc3_scratch0, cc3_scratch1]) ∗ (∃ r, prngReg c r)) := rfl

theorem carriedInv3_pos (c : Dev nD) (n : ℕ) (h : n ≤ cfg3.N) (hz : n ≠ 0) :
    carriedInv3 V c n h = iprop(iprop(iprop(owns (c : Thread nD τ) acc3_0 fullShare (statsAt3 V c (n - 1) (by omega)).2.2.1 ∗ owns (c : Thread nD τ) acc3_1 fullShare (statsAt3 V c (n - 1) (by omega)).2.2.2)
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The proof data -/

/-- The arrays as the region finds them; after the body at point `t` each input's buffer at its block and the outputs'
    at the accumulation's components; the invariant the carried one; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => (statsAt3 V c t.val t.isLt).1
    | ⟨4, _⟩ => (statsAt3 V c t.val t.isLt).2.1
  Φ t := carriedInv3 V c t.val (Nat.le_of_lt_succ t.isLt)
  q _ := fullShare
  owed _ := 0

theorem dat3_A (c : Dev nD) (w : Fin cfg3.W) : (dat3 V c).A w = V c (Pipeline.arrRef spec3 w) := by
  dsimp only [dat3]

theorem dat3_inv_castSucc (c : Dev nD) (t : Fin cfg3.N) :
    (dat3 V c).Φ t.castSucc = carriedInv3 V c t.val (Nat.le_of_lt t.isLt) := by
  dsimp only [dat3]; simp only [Fin.coe_castSucc]

theorem dat3_after_0 (c : Dev nD) (t : Fin cfg3.N) : (dat3 V c).after 0 t = blk3 V c 0 t := by dsimp only [dat3]
theorem dat3_after_1 (c : Dev nD) (t : Fin cfg3.N) : (dat3 V c).after 1 t = blk3 V c 1 t := by dsimp only [dat3]
theorem dat3_after_2 (c : Dev nD) (t : Fin cfg3.N) : (dat3 V c).after 2 t = blk3 V c 2 t := by dsimp only [dat3]
theorem dat3_after_3 (c : Dev nD) (t : Fin cfg3.N) : (dat3 V c).after 3 t = (statsAt3 V c t.val t.isLt).1 := by dsimp only [dat3]
theorem dat3_after_4 (c : Dev nD) (t : Fin cfg3.N) : (dat3 V c).after 4 t = (statsAt3 V c t.val t.isLt).2.1 := by dsimp only [dat3]

theorem before3_0 (c : Dev nD) (t : Fin cfg3.N) (d) : (dat3 V c).before 0 t d = blk3 V c 0 t :=
  before3_0_of V (dat3 V c) (dat3_A V c 0) (dat3_after_0 V c) t d
theorem before3_1 (c : Dev nD) (t : Fin cfg3.N) (d) : (dat3 V c).before 1 t d = blk3 V c 1 t :=
  before3_1_of V (dat3 V c) (dat3_A V c 1) (dat3_after_1 V c) t d
theorem before3_2 (c : Dev nD) (t : Fin cfg3.N) (d) : (dat3 V c).before 2 t d = blk3 V c 2 t :=
  before3_2_of V (dat3 V c) (dat3_A V c 2) (dat3_after_2 V c) t d

end

section
variable (V : (c : Dev nD) → (b : Ref sig .tc) → Buf (Elt F) ((c : Thread nD τ).loc b))

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (stage3_0 t) fullShare ((dat3 V c).before 0 t d))
    ∗ (∃ d, owns (c : Thread nD τ) (stage3_1 t) fullShare ((dat3 V c).before 1 t d))
    ∗ (∃ d, owns (c : Thread nD τ) (stage3_2 t) fullShare ((dat3 V c).before 2 t d))
    ∗ (∃ d, owns (c : Thread nD τ) (stage3_3 t) fullShare ((dat3 V c).before 3 t d))
    ∗ (∃ d, owns (c : Thread nD τ) (stage3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t)

theorem leaves3_0 (c : Dev nD) (t : Fin cfg3.N) : (dat3 V c).leavesExact 0 t = owns (c : Thread nD τ) (stage3_0 t) fullShare (blk3 V c 0 t) := by
  unfold Dat.leavesExact; rw [live3_0 t, dat3_after_0]
theorem leaves3_1 (c : Dev nD) (t : Fin cfg3.N) : (dat3 V c).leavesExact 1 t = owns (c : Thread nD τ) (stage3_1 t) fullShare (blk3 V c 1 t) := by
  unfold Dat.leavesExact; rw [live3_1 t, dat3_after_1]
theorem leaves3_2 (c : Dev nD) (t : Fin cfg3.N) : (dat3 V c).leavesExact 2 t = owns (c : Thread nD τ) (stage3_2 t) fullShare (blk3 V c 2 t) := by
  unfold Dat.leavesExact; rw [live3_2 t, dat3_after_2]

set_option maxHeartbeats 8000000 in
/-- The body at any point. The inputs' memrefs hold their blocks; the two conditions' closed forms say which case the
    point is in; the invariant hands the run the accumulators (at anything at the first point, at what the point
    before left otherwise) and takes them back at this point's contents; away from the last point the outputs'
    buffers pass through untouched; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = carriedInv3 V c (t.val + 1) t.isLt from rfl, carriedInv3_succ]
  rw [leaves3_0, leaves3_1, leaves3_2]
  have hN : t.val < 20 := lt_of_lt_of_eq t.isLt (show cfg3.N = 20 from N_3)
  by_cases h0 : t.val % 20 = 0
  · -- the first point
    have hz : t.val = 0 := by omega
    have hf : first3 (grid3.coords t) := (first3_iff t).mpr h0
    have hl : ¬last3 (grid3.coords t) := fun h => by have := (last3_iff t).mp h; omega
    rw [Dat.leavesExact_idle (dat3 V c) 3 t (idle3_3 t hl) (noFlush3_3 t hl),
      Dat.leavesExact_idle (dat3 V c) 4 t (idle3_4 t hl) (noFlush3_4 t hl)]
    rw [statsAt3_first V c t hz hf hl]
    unfold acc0After3_first acc1After3_first; (try dsimp only)
    rw [dat3_inv_castSucc V c t, carriedInv3_zero V c _ _ hz, restingInv3_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((statsRun3_first c (grid3.coords t) _ _ _ _ _ _ _ _ _ _ _ _ _ _ hf hl (blk3 V c 0 t) (blk3 V c 1 t) (blk3 V c 2 t)).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (acc0Cover3_first c _ _ _ _ _ _ _ _ _ _ _ _ _ _ _ _ _ _ _ _)
          · unfold owns; iexists _; isplitr
            swap; · iexact HS1
            ipureintro; exact View.read_writes_of_cover _ _ _ _ _ (acc1Cover3_first c _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := fun e => h0 (by rw [e])
    have hf : ¬first3 (grid3.coords t) := fun h => h0 ((first3_iff t).mp h)
    by_cases h19 : t.val % 20 = 19
    · -- the last point
      have hl : last3 (grid3.coords t) := (last3_iff t).mpr h19
      rw [show (dat3 V c).leavesExact 3 t = owns (c : Thread nD τ) (stage3_3 t) fullShare ((dat3 V c).after 3 t) from by
        unfold Dat.leavesExact; rw [liveLast3_3 t hl], dat3_after_3]
      rw [show (dat3 V c).leavesExact 4 t = owns (c : Thread nD τ) (stage3_4 t) fullShare ((dat3 V c).after 4 t) from by
        unfold Dat.leavesExact; rw [liveLast3_4 t hl], dat3_after_4]
      rw [statsAt3_last V c t hz h19 hf hl]
      unfold out3After3_last out4After3_last acc0After3_last acc1After3_last; (try dsimp only)
      rw [dat3_inv_castSucc V c t, carriedInv3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((statsRun3_last c (grid3.coords t) _ _ _ _ _ _ _ _ _ _ _ _ _ _ hf hl (blk3 V c 0 t) (blk3 V c 1 t) (blk3 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (acc0Cover3_last c _ _ _ _ _ _ _ _ _ _ _ _ _ _ _ _ _ _ _ _ _ _)
            · unfold owns; iexists _; isplitr
              swap; · iexact HS1
              ipureintro; exact View.read_writes_of_cover _ _ _ _ _ (acc1Cover3_last c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (out3Cover3_last c _ _ _ _ _ _ _ _ _ _ _ _ _ _ _ _ _ _ _ _ _ _)
      unfold owns; iexists _; isplitr
      swap; · iexact H4
      ipureintro; exact View.read_writes_of_cover _ _ _ _ _ (out4Cover3_last c _ _ _ _ _ _ _ _ _ _ _ _ _ _ _ _ _ _ _ _ _ _)
    · -- a middle point
      have hl : ¬last3 (grid3.coords t) := fun h => h19 ((last3_iff t).mp h)
      rw [Dat.leavesExact_idle (dat3 V c) 3 t (idle3_3 t hl) (noFlush3_3 t hl),
        Dat.leavesExact_idle (dat3 V c) 4 t (idle3_4 t hl) (noFlush3_4 t hl)]
      rw [statsAt3_mid V c t hz h19 hf hl]
      unfold acc0After3_mid acc1After3_mid; (try dsimp only)
      rw [dat3_inv_castSucc V c t, carriedInv3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((statsRun3_mid c (grid3.coords t) _ _ _ _ _ _ _ _ _ _ _ _ _ _ hf hl (blk3 V c 0 t) (blk3 V c 1 t) (blk3 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (acc0Cover3_mid c _ _ _ _ _ _ _ _ _ _ _ _ _ _ _ _ _ _ _ _ _ _)
            · unfold owns; iexists _; isplitr
              swap; · iexact HS1
              ipureintro; exact View.read_writes_of_cover _ _ _ _ _ (acc1Cover3_mid c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem inv3_in (c : Dev nD) : Pipeline.ΦA spec3 c ⊢ (dat3 V c).Φ 0 := by
  rw [show (dat3 V c).Φ 0 = carriedInv3 V c 0 (Nat.zero_le _) from rfl, carriedInv3_zero V c 0 _ rfl]
  try exact Idealize.SL.BI.Entails.refl _

/-- After the last point the invariant gives the resting one back: the accumulators' named contents are forgotten. -/
theorem inv3_out (c : Dev nD) : (dat3 V c).Φ (Fin.last cfg3.N) ⊢ Pipeline.ΦA spec3 c := by
  have hne : (Fin.last cfg3.N).val ≠ 0 := by rw [Fin.val_last]; have : cfg3.N = 20 := N_3; omega
  rw [show (dat3 V c).Φ (Fin.last cfg3.N) = carriedInv3 V c (Fin.last cfg3.N).val (Nat.le_of_lt_succ (Fin.last cfg3.N).isLt) from rfl,
    carriedInv3_pos V c _ _ hne, restingInv3_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.Kernel.Hand

end
-- ==== Proof.K.Run.lean ====
/-
  The kernel program's run: @main's twelve items — seven stretches of host operations and the five kernel regions
  between them — from the launch to the return.

  The buffers' contents at each boundary are a fold from the launch memory: a host stretch's operations applied in
  order; a region's arrays at what its pipeline leaves (an input as entered, an output its blocks' write-backs), every
  other buffer untouched. No item writes an argument array, so each ends as launched. Every weakly fair execution of
  @main terminates with every unscoped buffer at the last boundary's contents.
-/
import proofs.«156713_j13589276524898_2_alg».proof.Proof.K.Dense0
import proofs.«156713_j13589276524898_2_alg».proof.Proof.K.Dense2
import proofs.«156713_j13589276524898_2_alg».proof.Proof.K.Dense4
import proofs.«156713_j13589276524898_2_alg».proof.Proof.K.Stats1
import proofs.«156713_j13589276524898_2_alg».proof.Proof.K.Stats3
import proofs.«156713_j13589276524898_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m ((c : Dev nD), b)
/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
theorem W1_keep (c : Dev nD) (r : Ref sig .tc) (h : r ∉ hostOps0_W) : W1 m c (Proc.devRef .tc r) = W0 m c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
theorem W2_keep (c : Dev nD) (r : Ref sig .tc) (h : r ∉ hostOps0_1_W) : W2 m c (Proc.devRef .tc r) = W1 m c (Proc.devRef .tc r) :=
  StableHlo.after_of_writes_sub hostOps0_1 _ hostOps0_1_writes h
/-- After the host stretch `hostOps0_2`. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
theorem W3_keep (c : Dev nD) (r : Ref sig .tc) (h : r ∉ hostOps0_2_W) : W3 m c (Proc.devRef .tc r) = W2 m c (Proc.devRef .tc r) :=
  StableHlo.after_of_writes_sub hostOps0_2 _ hostOps0_2_writes h
/-- At region 0's exit: its arrays at what the pipeline leaves (inputs as entered, each output's write-backs folded),
    every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem exitArr0 (c : Dev nD) (w : Fin cfg0.W) : (dat0 (V3 m) c).arrAt w cfg0.N = V4 m c (Pipeline.arrRef spec0 w) :=
  (W4_arr m c w).symm
theorem exitRest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- A buffer that is not one of region 0's outputs leaves the region as it entered: an input window's array is only read. -/
theorem W4_keep (c : Dev nD) (b : Ref sig .tc) (hb : b ∉ ([main_v25] : List (Ref sig .tc))) :
    W4 m c (Proc.devRef .tc b) = W3 m c (Proc.devRef .tc b) := by
  by_cases h : ∃ w, Pipeline.arrRef spec0 w = b
  · obtain ⟨w, rfl⟩ := h
    have hw : (cfg0.win w).isOut = false :=
      (by decide : ∀ w : Fin 4, Pipeline.arrRef spec0 w ∉ ([main_v25] : List (Ref sig .tc)) → (cfg0.win w).isOut = false) w hb
    exact (W4_arr m c w).trans (((dat0 (V3 m) c).arrAt_in w hw _).trans (dat0_A (V3 m) c w))
  · exact W4_of_ne m c b (fun w e => h ⟨w, e⟩)
/-- After the host stretch `hostOps1`. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
theorem W5_keep (c : Dev nD) (r : Ref sig .tc) (h : r ∉ hostOps1_W) : W5 m c (Proc.devRef .tc r) = W4 m c (Proc.devRef .tc r) :=
  StableHlo.after_of_writes_sub hostOps1 _ hostOps1_writes h
/-- At region 1's exit: its arrays at what the pipeline leaves (inputs as entered, each output's write-backs folded),
    every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem exitArr1 (c : Dev nD) (w : Fin cfg1.W) : (dat1 (V5 m) c).arrAt w cfg1.N = V6 m c (Pipeline.arrRef spec1 w) :=
  (W6_arr m c w).symm
theorem exitRest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- A buffer that is not one of region 1's outputs leaves the region as it entered: an input window's array is only read. -/
theorem W6_keep (c : Dev nD) (b : Ref sig .tc) (hb : b ∉ ([main_v37_0, main_v37_1] : List (Ref sig .tc))) :
    W6 m c (Proc.devRef .tc b) = W5 m c (Proc.devRef .tc b) := by
  by_cases h : ∃ w, Pipeline.arrRef spec1 w = b
  · obtain ⟨w, rfl⟩ := h
    have hw : (cfg1.win w).isOut = false :=
      (by decide : ∀ w : Fin 5, Pipeline.arrRef spec1 w ∉ ([main_v37_0, main_v37_1] : List (Ref sig .tc)) → (cfg1.win w).isOut = false) w hb
    exact (W6_arr m c w).trans (((dat1 (V5 m) c).arrAt_in w hw _).trans (dat1_A (V5 m) c w))
  · exact W6_of_ne m c b (fun w e => h ⟨w, e⟩)
/-- After the host stretch `hostOps2`. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
theorem W7_keep (c : Dev nD) (r : Ref sig .tc) (h : r ∉ hostOps2_W) : W7 m c (Proc.devRef .tc r) = W6 m c (Proc.devRef .tc r) :=
  StableHlo.after_of_writes_sub hostOps2 _ hostOps2_writes h
/-- At region 2's exit: its arrays at what the pipeline leaves (inputs as entered, each output's write-backs folded),
    every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem exitArr2 (c : Dev nD) (w : Fin cfg2.W) : (dat2 (V7 m) c).arrAt w cfg2.N = V8 m c (Pipeline.arrRef spec2 w) :=
  (W8_arr m c w).symm
theorem exitRest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- A buffer that is not one of region 2's outputs leaves the region as it entered: an input window's array is only read. -/
theorem W8_keep (c : Dev nD) (b : Ref sig .tc) (hb : b ∉ ([main_v44] : List (Ref sig .tc))) :
    W8 m c (Proc.devRef .tc b) = W7 m c (Proc.devRef .tc b) := by
  by_cases h : ∃ w, Pipeline.arrRef spec2 w = b
  · obtain ⟨w, rfl⟩ := h
    have hw : (cfg2.win w).isOut = false :=
      (by decide : ∀ w : Fin 9, Pipeline.arrRef spec2 w ∉ ([main_v44] : List (Ref sig .tc)) → (cfg2.win w).isOut = false) w hb
    exact (W8_arr m c w).trans (((dat2 (V7 m) c).arrAt_in w hw _).trans (dat2_A (V7 m) c w))
  · exact W8_of_ne m c b (fun w e => h ⟨w, e⟩)
/-- After the host stretch `hostOps3`. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b
theorem W9_keep (c : Dev nD) (r : Ref sig .tc) (h : r ∉ hostOps3_W) : W9 m c (Proc.devRef .tc r) = W8 m c (Proc.devRef .tc r) :=
  StableHlo.after_of_writes_sub hostOps3 _ hostOps3_writes h
/-- At region 3's exit: its arrays at what the pipeline leaves (inputs as entered, each output's write-backs folded),
    every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
theorem exitArr3 (c : Dev nD) (w : Fin cfg3.W) : (dat3 (V9 m) c).arrAt w cfg3.N = V10 m c (Pipeline.arrRef spec3 w) :=
  (W10_arr m c w).symm
theorem exitRest3 (c : Dev nD) : ∀ b, b ∉ Finset.univ.image (Pipeline.arrRef spec3) → V10 m c b = V9 m c b :=
  fun b hb => W10_of_ne m c b fun w e => hb (Finset.mem_image.mpr ⟨w, Finset.mem_univ _, e⟩)
/-- A buffer that is not one of region 3's outputs leaves the region as it entered: an input window's array is only read. -/
theorem W10_keep (c : Dev nD) (b : Ref sig .tc) (hb : b ∉ ([main_v56_0, main_v56_1] : List (Ref sig .tc))) :
    W10 m c (Proc.devRef .tc b) = W9 m c (Proc.devRef .tc b) := by
  by_cases h : ∃ w, Pipeline.arrRef spec3 w = b
  · obtain ⟨w, rfl⟩ := h
    have hw : (cfg3.win w).isOut = false :=
      (by decide : ∀ w : Fin 5, Pipeline.arrRef spec3 w ∉ ([main_v56_0, main_v56_1] : List (Ref sig .tc)) → (cfg3.win w).isOut = false) w hb
    exact (W10_arr m c w).trans (((dat3 (V9 m) c).arrAt_in w hw _).trans (dat3_A (V9 m) c w))
  · exact W10_of_ne m c b (fun w e => h ⟨w, e⟩)
/-- After the host stretch `hostOps4`. -/
abbrev W11 : Dev nD → Valuation τ sig (Elt F) := fun c => StableHlo.after hostOps4 (W10 m c)
abbrev V11 : (c : Dev nD) → (b : Ref sig .tc) → Buf (Elt F) ((c : Thread nD τ).loc b) := fun c b => W11 m c b
theorem W11_keep (c : Dev nD) (r : Ref sig .tc) (h : r ∉ hostOps4_W) : W11 m c (Proc.devRef .tc r) = W10 m c (Proc.devRef .tc r) :=
  StableHlo.after_of_writes_sub hostOps4 _ hostOps4_writes h
/-- At region 4's exit: its arrays at what the pipeline leaves (inputs as entered, each output's write-backs folded),
    every other buffer as entered. -/
def W12 (c : Dev nD) : Valuation τ sig (Elt F) :=
  Pipeline.withArrays spec4 c (W11 m c) fun w => (dat4 (V11 m) c).arrAt w cfg4.N
theorem W12_arr (c : Dev nD) (w : Fin cfg4.W) :
    W12 m c (Proc.devRef .tc (Pipeline.arrRef spec4 w)) = (dat4 (V11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
abbrev V12 : (c : Dev nD) → (b : Ref sig .tc) → Buf (Elt F) ((c : Thread nD τ).loc b) := fun c b => W12 m c b
theorem exitArr4 (c : Dev nD) (w : Fin cfg4.W) : (dat4 (V11 m) c).arrAt w cfg4.N = V12 m c (Pipeline.arrRef spec4 w) :=
  (W12_arr m c w).symm
theorem exitRest4 (c : Dev nD) : ∀ b, b ∉ Finset.univ.image (Pipeline.arrRef spec4) → V12 m c b = V11 m c b :=
  fun b hb => W12_of_ne m c b fun w e => hb (Finset.mem_image.mpr ⟨w, Finset.mem_univ _, e⟩)
/-- A buffer that is not one of region 4's outputs leaves the region as it entered: an input window's array is only read. -/
theorem W12_keep (c : Dev nD) (b : Ref sig .tc) (hb : b ∉ ([main_v63] : List (Ref sig .tc))) :
    W12 m c (Proc.devRef .tc b) = W11 m c (Proc.devRef .tc b) := by
  by_cases h : ∃ w, Pipeline.arrRef spec4 w = b
  · obtain ⟨w, rfl⟩ := h
    have hw : (cfg4.win w).isOut = false :=
      (by decide : ∀ w : Fin 10, Pipeline.arrRef spec4 w ∉ ([main_v63] : List (Ref sig .tc)) → (cfg4.win w).isOut = false) w hb
    exact (W12_arr m c w).trans (((dat4 (V11 m) c).arrAt_in w hw _).trans (dat4_A (V11 m) c w))
  · exact W12_of_ne m c b (fun w e => h ⟨w, e⟩)

/-! ## The arguments end as launched -/

theorem W12_main_arg0 (c : Dev nD) : W12 m c (Proc.devRef .tc main_arg0) = m ((c : Thread nD τ).loc main_arg0) :=
  (W12_keep m c main_arg0 (by decide)).trans <| (W11_keep m c main_arg0 (by decide)).trans <| (W10_keep m c main_arg0 (by decide)).trans <| (W9_keep m c main_arg0 (by decide)).trans <| (W8_keep m c main_arg0 (by decide)).trans <| (W7_keep m c main_arg0 (by decide)).trans <| (W6_keep m c main_arg0 (by decide)).trans <| (W5_keep m c main_arg0 (by decide)).trans <| (W4_keep m c main_arg0 (by decide)).trans <| (W3_keep m c main_arg0 (by decide)).trans <| (W2_keep m c main_arg0 (by decide)).trans <| (W1_keep m c main_arg0 (by decide)).trans <| rfl
theorem W12_main_arg1 (c : Dev nD) : W12 m c (Proc.devRef .tc main_arg1) = m ((c : Thread nD τ).loc main_arg1) :=
  (W12_keep m c main_arg1 (by decide)).trans <| (W11_keep m c main_arg1 (by decide)).trans <| (W10_keep m c main_arg1 (by decide)).trans <| (W9_keep m c main_arg1 (by decide)).trans <| (W8_keep m c main_arg1 (by decide)).trans <| (W7_keep m c main_arg1 (by decide)).trans <| (W6_keep m c main_arg1 (by decide)).trans <| (W5_keep m c main_arg1 (by decide)).trans <| (W4_keep m c main_arg1 (by decide)).trans <| (W3_keep m c main_arg1 (by decide)).trans <| (W2_keep m c main_arg1 (by decide)).trans <| (W1_keep m c main_arg1 (by decide)).trans <| rfl
theorem W12_main_arg2 (c : Dev nD) : W12 m c (Proc.devRef .tc main_arg2) = m ((c : Thread nD τ).loc main_arg2) :=
  (W12_keep m c main_arg2 (by decide)).trans <| (W11_keep m c main_arg2 (by decide)).trans <| (W10_keep m c main_arg2 (by decide)).trans <| (W9_keep m c main_arg2 (by decide)).trans <| (W8_keep m c main_arg2 (by decide)).trans <| (W7_keep m c main_arg2 (by decide)).trans <| (W6_keep m c main_arg2 (by decide)).trans <| (W5_keep m c main_arg2 (by decide)).trans <| (W4_keep m c main_arg2 (by decide)).trans <| (W3_keep m c main_arg2 (by decide)).trans <| (W2_keep m c main_arg2 (by decide)).trans <| (W1_keep m c main_arg2 (by decide)).trans <| rfl
theorem W12_main_arg3 (c : Dev nD) : W12 m c (Proc.devRef .tc main_arg3) = m ((c : Thread nD τ).loc main_arg3) :=
  (W12_keep m c main_arg3 (by decide)).trans <| (W11_keep m c main_arg3 (by decide)).trans <| (W10_keep m c main_arg3 (by decide)).trans <| (W9_keep m c main_arg3 (by decide)).trans <| (W8_keep m c main_arg3 (by decide)).trans <| (W7_keep m c main_arg3 (by decide)).trans <| (W6_keep m c main_arg3 (by decide)).trans <| (W5_keep m c main_arg3 (by decide)).trans <| (W4_keep m c main_arg3 (by decide)).trans <| (W3_keep m c main_arg3 (by decide)).trans <| (W2_keep m c main_arg3 (by decide)).trans <| (W1_keep m c main_arg3 (by decide)).trans <| rfl
theorem W12_main_arg4 (c : Dev nD) : W12 m c (Proc.devRef .tc main_arg4) = m ((c : Thread nD τ).loc main_arg4) :=
  (W12_keep m c main_arg4 (by decide)).trans <| (W11_keep m c main_arg4 (by decide)).trans <| (W10_keep m c main_arg4 (by decide)).trans <| (W9_keep m c main_arg4 (by decide)).trans <| (W8_keep m c main_arg4 (by decide)).trans <| (W7_keep m c main_arg4 (by decide)).trans <| (W6_keep m c main_arg4 (by decide)).trans <| (W5_keep m c main_arg4 (by decide)).trans <| (W4_keep m c main_arg4 (by decide)).trans <| (W3_keep m c main_arg4 (by decide)).trans <| (W2_keep m c main_arg4 (by decide)).trans <| (W1_keep m c main_arg4 (by decide)).trans <| rfl
theorem W12_main_arg5 (c : Dev nD) : W12 m c (Proc.devRef .tc main_arg5) = m ((c : Thread nD τ).loc main_arg5) :=
  (W12_keep m c main_arg5 (by decide)).trans <| (W11_keep m c main_arg5 (by decide)).trans <| (W10_keep m c main_arg5 (by decide)).trans <| (W9_keep m c main_arg5 (by decide)).trans <| (W8_keep m c main_arg5 (by decide)).trans <| (W7_keep m c main_arg5 (by decide)).trans <| (W6_keep m c main_arg5 (by decide)).trans <| (W5_keep m c main_arg5 (by decide)).trans <| (W4_keep m c main_arg5 (by decide)).trans <| (W3_keep m c main_arg5 (by decide)).trans <| (W2_keep m c main_arg5 (by decide)).trans <| (W1_keep m c main_arg5 (by decide)).trans <| rfl
theorem W12_main_arg6 (c : Dev nD) : W12 m c (Proc.devRef .tc main_arg6) = m ((c : Thread nD τ).loc main_arg6) :=
  (W12_keep m c main_arg6 (by decide)).trans <| (W11_keep m c main_arg6 (by decide)).trans <| (W10_keep m c main_arg6 (by decide)).trans <| (W9_keep m c main_arg6 (by decide)).trans <| (W8_keep m c main_arg6 (by decide)).trans <| (W7_keep m c main_arg6 (by decide)).trans <| (W6_keep m c main_arg6 (by decide)).trans <| (W5_keep m c main_arg6 (by decide)).trans <| (W4_keep m c main_arg6 (by decide)).trans <| (W3_keep m c main_arg6 (by decide)).trans <| (W2_keep m c main_arg6 (by decide)).trans <| (W1_keep m c main_arg6 (by decide)).trans <| rfl
theorem W12_main_arg7 (c : Dev nD) : W12 m c (Proc.devRef .tc main_arg7) = m ((c : Thread nD τ).loc main_arg7) :=
  (W12_keep m c main_arg7 (by decide)).trans <| (W11_keep m c main_arg7 (by decide)).trans <| (W10_keep m c main_arg7 (by decide)).trans <| (W9_keep m c main_arg7 (by decide)).trans <| (W8_keep m c main_arg7 (by decide)).trans <| (W7_keep m c main_arg7 (by decide)).trans <| (W6_keep m c main_arg7 (by decide)).trans <| (W5_keep m c main_arg7 (by decide)).trans <| (W4_keep m c main_arg7 (by decide)).trans <| (W3_keep m c main_arg7 (by decide)).trans <| (W2_keep m c main_arg7 (by decide)).trans <| (W1_keep m c main_arg7 (by decide)).trans <| rfl
theorem W12_main_arg8 (c : Dev nD) : W12 m c (Proc.devRef .tc main_arg8) = m ((c : Thread nD τ).loc main_arg8) :=
  (W12_keep m c main_arg8 (by decide)).trans <| (W11_keep m c main_arg8 (by decide)).trans <| (W10_keep m c main_arg8 (by decide)).trans <| (W9_keep m c main_arg8 (by decide)).trans <| (W8_keep m c main_arg8 (by decide)).trans <| (W7_keep m c main_arg8 (by decide)).trans <| (W6_keep m c main_arg8 (by decide)).trans <| (W5_keep m c main_arg8 (by decide)).trans <| (W4_keep m c main_arg8 (by decide)).trans <| (W3_keep m c main_arg8 (by decide)).trans <| (W2_keep m c main_arg8 (by decide)).trans <| (W1_keep m c main_arg8 (by decide)).trans <| rfl
theorem W12_main_arg9 (c : Dev nD) : W12 m c (Proc.devRef .tc main_arg9) = m ((c : Thread nD τ).loc main_arg9) :=
  (W12_keep m c main_arg9 (by decide)).trans <| (W11_keep m c main_arg9 (by decide)).trans <| (W10_keep m c main_arg9 (by decide)).trans <| (W9_keep m c main_arg9 (by decide)).trans <| (W8_keep m c main_arg9 (by decide)).trans <| (W7_keep m c main_arg9 (by decide)).trans <| (W6_keep m c main_arg9 (by decide)).trans <| (W5_keep m c main_arg9 (by decide)).trans <| (W4_keep m c main_arg9 (by decide)).trans <| (W3_keep m c main_arg9 (by decide)).trans <| (W2_keep m c main_arg9 (by decide)).trans <| (W1_keep m c main_arg9 (by decide)).trans <| rfl
theorem W12_main_arg10 (c : Dev nD) : W12 m c (Proc.devRef .tc main_arg10) = m ((c : Thread nD τ).loc main_arg10) :=
  (W12_keep m c main_arg10 (by decide)).trans <| (W11_keep m c main_arg10 (by decide)).trans <| (W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)).trans <| rfl
theorem W12_main_arg11 (c : Dev nD) : W12 m c (Proc.devRef .tc main_arg11) = m ((c : Thread nD τ).loc main_arg11) :=
  (W12_keep m c main_arg11 (by decide)).trans <| (W11_keep m c main_arg11 (by decide)).trans <| (W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)).trans <| rfl

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
  | ⟨4, _⟩ => fun c => dat4 (V11 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m c) ∗ ∃ r, prngReg c r)

/-! ## The regions as segments -/

set_option backward.isDefEq.respectTransparency.types false in
/-- REGION 0 over the thread state: entered from every unscoped buffer at `W3`, left at `W4`. Its arrays are split
    out of the unscoped buffers and put back at the exit contents; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. Its arrays are split
    out of the unscoped buffers and put back at the exit contents; the generator register goes into the region's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h.trans (inv1_in (V5 m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (inv1_out (V5 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W7`, left at `W8`. Its arrays are split
    out of the unscoped buffers and put back at the exit contents; the generator register goes into the region's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W9`, left at `W10`. Its arrays are split
    out of the unscoped buffers and put back at the exit contents; the generator register goes into the region's
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 3).pre c (fun _ => fullShare) (adm (F := F) 3).1 ∗ Pipeline.scopedRest spec3 c) : sProp 𝕄)
        ⊢ Pipeline.ΦA spec3 c := by
      unfold Pipeline.ΦA
      iintro ⟨Hp, -, Hr⟩
      isplitl [Hr]; · iexact Hr
      iexact Hp
    exact h.trans (inv3_in (V9 m) c)
  hout c := by
    rw [Pipeline.ownSems0_none]
    have h : (Pipeline.ΦA spec3 c : sProp 𝕄) ⊢ iprop((∃ r, prngReg c r) ∗ emp ∗ Pipeline.scopedRest spec3 c) := by
      unfold Pipeline.ΦA
      iintro ⟨Hr, Hp⟩
      isplitl [Hp]; · iexact Hp
      isplitr; · iempintro
      iexact Hr
    exact (inv3_out (V9 m) c).trans h
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W11`, left at `W12`. Its arrays are split
    out of the unscoped buffers and put back at the exit contents; the generator register goes into the region's
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (obligation4 (V11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V11 m c) (V12 m c) ((pdats m 4 c).arrAt · cfg4.N) (exitArr4 m c) (exitRest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m) ]

set_option backward.isDefEq.respectTransparency.types false in
/-- THE RUN, at any float values: from any memory with zero counters every weakly fair execution of @main on the TensorCores
    terminates, nothing faulting, and every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0, StableHlo.seq hostOps0_1, StableHlo.seq hostOps0_2,
          Prog.lift (.customCall (Pipeline.entry 0) ()), StableHlo.seq hostOps1,
          Prog.lift (.customCall (Pipeline.entry 1) ()), StableHlo.seq hostOps2,
          Prog.lift (.customCall (Pipeline.entry 2) ()), StableHlo.seq hostOps3,
          Prog.lift (.customCall (Pipeline.entry 3) ()), StableHlo.seq hostOps4,
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- THE FRAME, at any float values: @main runs to the end and its argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c),
     (h c _ (mem_uc main_arg10 (by decide))).trans (W12_main_arg10 m c),
     (h c _ (mem_uc main_arg11 (by decide))).trans (W12_main_arg11 m c)⟩)
    (run_all m ρ)

end Cert.Kernel.Hand

end
-- ==== Proof.KI.Dense0.lean ====
import proofs.«156713_j13589276524898_2_alg».proof.Proof.Gen.KernelIdeal.Launch
import proofs.«156713_j13589276524898_2_alg».proof.Proof.Gen.KernelIdeal.Skeleton
import proofs.«156713_j13589276524898_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first dense layer's pipeline (region 0): a row block times the weight matrix, scaled row by row

At every grid point the body reads a 5000x128 block of rows (window 0), the whole 128x128 weight matrix
(window 1, the same block at every point) and the block's 5000x1 column of row scales (window 2); it rounds
both factors to bf16, multiplies them accumulating in f32 from zero, scales row `r` of the product by the
`r`-th scale, rounds to bf16 and writes the result over the whole 5000x128 output block (window 3).
Everything below is stated at a parameter `V`: the contents of the core's buffers when the pipeline starts. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the part of the window's array, as `V` has it, that the
    window's index map selects at `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's buffer holds the row block of the point, at every point: for any proof data over `V`'s
    arrays whose body leaves that buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight matrix's buffer holds the weight matrix at every point, though it is copied in only at the
    first: its block index never moves, so an unfetched point still finds the block of the point before. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The scale column's buffer holds the scale column of the point, at every point. -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The rectangles the body reads and writes: each is its whole buffer -/

abbrev rRows0 : Rect S5000x128 := Rect.unit (s := S5000x128) ![0, 0] S5000x128.size inb_S5000x128_S5000x128_0_0
abbrev rWeight0 : Rect S128x128 := Rect.unit (s := S128x128) ![0, 0] S128x128.size inb_S128x128_S128x128_0_0
abbrev rScale0 : Rect S5000x1 := Rect.unit (s := S5000x1) ![0, 0] S5000x1.size inb_S5000x1_S5000x1_0_0

/-! ## What the body leaves in the output block -/

/-- The output block after the body, from the three input blocks: one write over the whole block, of
    `bf16 ((bf16 x0 · bf16 x1) * x2)` — the payload the body's store carries. -/
def res0 (x0 : Vec F S5000x128 .f32) (x1 : Vec F S128x128 .f32) (x2 : Vec F S5000x1 .f32) : Vec F S5000x128 .bf16 :=
  View.canon [⟨rRows0, k0_pay1 (View.ld x0 rRows0) (View.ld x1 rWeight0) (View.ld x2 rScale0)⟩]

/-- The one write covers the output block. -/
theorem cover0 (p0 : Vec F S5000x128 .bf16) (y : S5000x128.Idx) :
    ∃ pc ∈ ([⟨rRows0, p0⟩] : List (View.Piece (Elt F) S5000x128 .bf16)), y ∈ pc.1.set :=
  View.cover_of_tiled [⟨rRows0, p0⟩] S5000x128.size (by rfl) y

/-! ## The body's triple -/

set_option maxHeartbeats 1000000 in
/-- The body, called on whole buffers of which the three inputs' read `x0`, `x1`, `x2` and the output's reads
    anything, runs to a state where the inputs' buffers are as they were and the output's reads `res0 x0 x1 x2`. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (res0 x0 x1 x2)) -∗ K ⟨⟩))
      ⊢ wp frame (wpE (defs₀ (F := F)) Variants.none c none) E (cc0__matmul_scale_kernel i arg1 harg1 arg2 harg2 arg3 harg3 arg4 harg4) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0 _)

/-! ## The proof data -/

/-- The pipeline's proof data on core `c`: the arrays are `V`'s; after the body at point `t` each input's
    buffer still holds its block and the output's holds `res0` of the three input blocks; the invariant is the
    untouched rest of the core's scoped memory and its generator register; full shares; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => res0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) :
    (dat0 V c).after 3 t = res0 (blk0 V c 0 t) (blk0 V c 1 t) (blk0 V c 2 t) := by dsimp only [dat0]

/-- What the body finds in each input's buffer at point `t`: that input's block at `t`. -/
theorem before0_0 (c : Dev nD) (t : Fin cfg0.N) (d) : (dat0 V c).before 0 t d = blk0 V c 0 t :=
  before0_0_of V (dat0 V c) (dat0_A V c 0) (dat0_after_0 V c) t d
theorem before0_1 (c : Dev nD) (t : Fin cfg0.N) (d) : (dat0 V c).before 1 t d = blk0 V c 1 t :=
  before0_1_of V (dat0 V c) (dat0_A V c 1) (dat0_after_1 V c) t d
theorem before0_2 (c : Dev nD) (t : Fin cfg0.N) (d) : (dat0 V c).before 2 t d = blk0 V c 2 t :=
  before0_2_of V (dat0 V c) (dat0_A V c 2) (dat0_after_2 V c) t d

/-! ## The body obligation -/

/-- What the body is called with at point `t`: the invariant, the debts, and each window's current buffer at
    what the proof data says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same, each buffer at what the proof data says it holds after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies at those
    blocks; the invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    dat0_after_0, dat0_after_1, dat0_after_2, dat0_after_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's proof data, at every point. -/
theorem obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Dense2.lean ====
import proofs.«156713_j13589276524898_2_alg».proof.Proof.Gen.KernelIdeal.Launch
import proofs.«156713_j13589276524898_2_alg».proof.Proof.Gen.KernelIdeal.Skeleton
import proofs.«156713_j13589276524898_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second dense layer's pipeline (region 2): normalize, rectify, multiply by the weights, scale

At every grid point the body reads a 5000x128 block of aggregated rows (window 0), the block's 5000x1 column
of row scales (window 1), and six blocks that are the same at every point: five 1x128 rows — a bias (window 2),
the batch mean (window 3), the batch variance (window 4), the normalization's gain (window 5) and its offset
(window 6) — and the 128x128 weight matrix (window 7). With `h = x0 * x1 + bias` (row scale and bias broadcast),
it forms `max (((h - mean) * rsqrt (var + ε)) * gain + offset) 0`, rounds that and the weights to bf16,
multiplies them accumulating in f32 from zero, scales row `r` of the product by the `r`-th scale, rounds to
bf16 and writes the result over the whole 5000x128 output block (window 8).
Everything below is stated at a parameter `V`: the contents of the core's buffers when the pipeline starts. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the part of the window's array, as `V` has it, that the
    window's index map selects at `t`. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input's buffer holds that input's block of the point, at every point, for any proof data over `V`'s
arrays whose body leaves the buffer as it found it. Where the window's block index never moves the block is
copied in at the first point only, and a later point still finds the block of the point before, which is its own. -/

/-- The aggregated rows' buffer holds the row block of the point. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The scale column's buffer holds the scale column of the point. -/
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The bias row's buffer holds the bias row (one block, copied in once). -/
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The mean row's buffer holds the mean row (one block, copied in once). -/
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- The variance row's buffer holds the variance row (one block, copied in once). -/
theorem before2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-- The gain row's buffer holds the gain row (one block, copied in once). -/
theorem before2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)

/-- The offset row's buffer holds the offset row (one block, copied in once). -/
theorem before2_6_of {c : Dev nD} (dat : Dat τ (Elt F) Unit ℕ (UR sig nD τ) ℕ cfg2 c) (hA : dat.A 6 = V c (Pipeline.arrRef spec2 6))
    (hafter : ∀ t, dat.after 6 t = blk2 V c 6 t) (t : Fin cfg2.N) (d) : dat.before 6 t d = blk2 V c 6 t :=
  (dat.before_in_eq_fetched 6 rfl (fun _ => rfl) (fun _ _ _ => rfl) (fun t => by rw [hafter]; unfold Dat.blockOf blk2; rw [hA]; try rfl) t d).trans
    (by unfold Dat.fetched Dat.blockOf blk2; rw [hA]; try rfl)

/-- The weight matrix's buffer holds the weight matrix (one block, copied in once). -/
theorem before2_7_of {c : Dev nD} (dat : Dat τ (Elt F) Unit ℕ (UR sig nD τ) ℕ cfg2 c) (hA : dat.A 7 = V c (Pipeline.arrRef spec2 7))
    (hafter : ∀ t, dat.after 7 t = blk2 V c 7 t) (t : Fin cfg2.N) (d) : dat.before 7 t d = blk2 V c 7 t :=
  (dat.before_in_eq_fetched 7 rfl (fun _ => rfl) (fun _ _ _ => rfl) (fun t => by rw [hafter]; unfold Dat.blockOf blk2; rw [hA]; try rfl) t d).trans
    (by unfold Dat.fetched Dat.blockOf blk2; rw [hA]; try rfl)

/-! ## The rectangles the body reads and writes: each is its whole buffer -/

abbrev rRows2 : Rect S5000x128 := Rect.unit (s := S5000x128) ![0, 0] S5000x128.size inb_S5000x128_S5000x128_0_0
abbrev rScale2 : Rect S5000x1 := Rect.unit (s := S5000x1) ![0, 0] S5000x1.size inb_S5000x1_S5000x1_0_0
abbrev rRow2 : Rect S1x128 := Rect.unit (s := S1x128) ![0, 0] S1x128.size inb_S1x128_S1x128_0_0
abbrev rWeight2 : Rect S128x128 := Rect.unit (s := S128x128) ![0, 0] S128x128.size inb_S128x128_S128x128_0_0

/-! ## What the body leaves in the output block -/

/-- The output block after the body, from the eight input blocks: one write over the whole block, of
    `bf16 (product * scale)`, where `product` is the f32 matrix product of the normalized, rectified rows and the
    weights (both rounded to bf16; it reads the variance row before the mean row) and `scale` the scale column
    broadcast along the rows. -/
def res2 (x0 : Vec F S5000x128 .f32) (x1 : Vec F S5000x1 .f32) (x2 : Vec F S1x128 .f32) (x3 : Vec F S1x128 .f32) (x4 : Vec F S1x128 .f32) (x5 : Vec F S1x128 .f32) (x6 : Vec F S1x128 .f32) (x7 : Vec F S128x128 .f32) : Vec F S5000x128 .bf16 :=
  View.canon [⟨rRows2, k2_pay1 (k2_pay2 (View.ld x0 rRows2) (View.ld x1 rScale2) (View.ld x2 rRow2) (View.ld x4 rRow2) (View.ld x3 rRow2) (View.ld x5 rRow2) (View.ld x6 rRow2) (View.ld x7 rWeight2)) (k2_pay3 (View.ld x1 rScale2))⟩]

/-- The one write covers the output block. -/
theorem cover2 (p0 : Vec F S5000x128 .bf16) (y : S5000x128.Idx) :
    ∃ pc ∈ ([⟨rRows2, p0⟩] : List (View.Piece (Elt F) S5000x128 .bf16)), y ∈ pc.1.set :=
  View.cover_of_tiled [⟨rRows2, p0⟩] S5000x128.size (by rfl) y

/-! ## The body's triple -/

set_option maxHeartbeats 1000000 in
/-- The body, called on whole buffers of which the inputs' read `x0`, …, `x7` and the output's reads anything,
    runs to a state where the inputs' buffers are as they were and the output's reads `res2` of the inputs. -/
theorem sound_kernel2 (c : Dev nD) (E : Set ℕ) (i : grid2.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S128x128 .f32) (harg8 : arg8.IsWhole)
    (arg9 : Memref sig .tc .vmem S5000x128 .bf16) (harg9 : arg9.IsWhole)
    (x0 : Vec F S5000x128 .f32) (x1 : Vec F S5000x1 .f32) (x2 : Vec F S1x128 .f32) (x3 : Vec F S1x128 .f32) (x4 : Vec F S1x128 .f32) (x5 : Vec F S1x128 .f32) (x6 : Vec F S1x128 .f32) (x7 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (res2 x0 x1 x2 x3 x4 x5 x6 x7)) -∗ K ⟨⟩))
      ⊢ wp frame (wpE (defs₀ (F := F)) Variants.none c none) E (cc2__bn_relu_matmul_scale_kernel i arg1 harg1 arg2 harg2 arg3 harg3 arg4 harg4 arg5 harg5 arg6 harg6 arg7 harg7 arg8 harg8 arg9 harg9) K := by
  simp only [cc2__bn_relu_matmul_scale_kernel_eq_skeleton]; unfold cc2__bn_relu_matmul_scale_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dOut, %fOut, -, HOut⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HOut
  ipureintro
  try dsimp only
  exact View.read_writes_eq_canon _ _ _ (cover2 _)

/-! ## The proof data -/

/-- The pipeline's proof data on core `c`: the arrays are `V`'s; after the body at point `t` each input's
    buffer still holds its block and the output's holds `res2` of the input blocks; the invariant is the
    untouched rest of the core's scoped memory and its generator register; full shares; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => res2 (blk2 V c 0 t) (blk2 V c 1 t) (blk2 V c 2 t) (blk2 V c 3 t) (blk2 V c 4 t) (blk2 V c 5 t) (blk2 V c 6 t) (blk2 V c 7 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) : (dat2 V c).after 3 t = blk2 V c 3 t := by dsimp only [dat2]
theorem dat2_after_4 (c : Dev nD) (t : Fin cfg2.N) : (dat2 V c).after 4 t = blk2 V c 4 t := by dsimp only [dat2]
theorem dat2_after_5 (c : Dev nD) (t : Fin cfg2.N) : (dat2 V c).after 5 t = blk2 V c 5 t := by dsimp only [dat2]
theorem dat2_after_6 (c : Dev nD) (t : Fin cfg2.N) : (dat2 V c).after 6 t = blk2 V c 6 t := by dsimp only [dat2]
theorem dat2_after_7 (c : Dev nD) (t : Fin cfg2.N) : (dat2 V c).after 7 t = blk2 V c 7 t := by dsimp only [dat2]
theorem dat2_after_8 (c : Dev nD) (t : Fin cfg2.N) :
    (dat2 V c).after 8 t = res2 (blk2 V c 0 t) (blk2 V c 1 t) (blk2 V c 2 t) (blk2 V c 3 t) (blk2 V c 4 t) (blk2 V c 5 t) (blk2 V c 6 t) (blk2 V c 7 t) := by dsimp only [dat2]

/-- What the body finds in each input's buffer at point `t`: that input's block at `t`. -/
theorem before2_0 (c : Dev nD) (t : Fin cfg2.N) (d) : (dat2 V c).before 0 t d = blk2 V c 0 t :=
  before2_0_of V (dat2 V c) (dat2_A V c 0) (dat2_after_0 V c) t d
theorem before2_1 (c : Dev nD) (t : Fin cfg2.N) (d) : (dat2 V c).before 1 t d = blk2 V c 1 t :=
  before2_1_of V (dat2 V c) (dat2_A V c 1) (dat2_after_1 V c) t d
theorem before2_2 (c : Dev nD) (t : Fin cfg2.N) (d) : (dat2 V c).before 2 t d = blk2 V c 2 t :=
  before2_2_of V (dat2 V c) (dat2_A V c 2) (dat2_after_2 V c) t d
theorem before2_3 (c : Dev nD) (t : Fin cfg2.N) (d) : (dat2 V c).before 3 t d = blk2 V c 3 t :=
  before2_3_of V (dat2 V c) (dat2_A V c 3) (dat2_after_3 V c) t d
theorem before2_4 (c : Dev nD) (t : Fin cfg2.N) (d) : (dat2 V c).before 4 t d = blk2 V c 4 t :=
  before2_4_of V (dat2 V c) (dat2_A V c 4) (dat2_after_4 V c) t d
theorem before2_5 (c : Dev nD) (t : Fin cfg2.N) (d) : (dat2 V c).before 5 t d = blk2 V c 5 t :=
  before2_5_of V (dat2 V c) (dat2_A V c 5) (dat2_after_5 V c) t d
theorem before2_6 (c : Dev nD) (t : Fin cfg2.N) (d) : (dat2 V c).before 6 t d = blk2 V c 6 t :=
  before2_6_of V (dat2 V c) (dat2_A V c 6) (dat2_after_6 V c) t d
theorem before2_7 (c : Dev nD) (t : Fin cfg2.N) (d) : (dat2 V c).before 7 t d = blk2 V c 7 t :=
  before2_7_of V (dat2 V c) (dat2_A V c 7) (dat2_after_7 V c) t d

/-! ## The body obligation -/

/-- What the body is called with at point `t`: the invariant, the debts, and each window's current buffer at
    what the proof data says it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- What it returns: the same, each buffer at what the proof data says it holds after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the body's triple applies at those
    blocks; the invariant and the debts are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    dat2_after_0, dat2_after_1, dat2_after_2, dat2_after_3, dat2_after_4, dat2_after_5, dat2_after_6, dat2_after_7, dat2_after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline's proof data, at every point. -/
theorem obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Dense4.lean ====
import proofs.«156713_j13589276524898_2_alg».proof.Proof.Gen.KernelIdeal.Launch
import proofs.«156713_j13589276524898_2_alg».proof.Proof.Gen.KernelIdeal.Skeleton
import proofs.«156713_j13589276524898_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The classifier's pipeline (region 4): normalize, rectify, multiply by the weights, add the bias, log-softmax

At every grid point the body reads a 5000x128 block of aggregated rows (window 0), the block's 5000x1 column
of row scales (window 1), and seven blocks that are the same at every point: five 1x128 rows — a bias
(window 2), the batch mean (window 3), the batch variance (window 4), the normalization's gain (window 5) and
its offset (window 6) —, the 128x64 classifier weights (window 7) and their 1x64 bias (window 8). With
`h = x0 * x1 + bias` (row scale and bias broadcast), it forms
`max (((h - mean) * rsqrt (var + ε)) * gain + offset) 0`, rounds that and the weights to bf16, multiplies them
accumulating in f32 from zero, and adds the classifier bias to every row, giving `z`; then, row by row, with
`m` the row's maximum and `s = z - m`, it writes `s - log (Σ exp s)` over the whole 5000x64 output block
(window 9).
Everything below is stated at a parameter `V`: the contents of the core's buffers when the pipeline starts. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the part of the window's array, as `V` has it, that the
    window's index map selects at `t`. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input's buffer holds that input's block of the point, at every point, for any proof data over `V`'s
arrays whose body leaves the buffer as it found it. Where the window's block index never moves the block is
copied in at the first point only, and a later point still finds the block of the point before, which is its own. -/

/-- The aggregated rows' buffer holds the row block of the point. -/
theorem before4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- The scale column's buffer holds the scale column of the point. -/
theorem before4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- The bias row's buffer holds the bias row (one block, copied in once). -/
theorem before4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- The mean row's buffer holds the mean row (one block, copied in once). -/
theorem before4_3_of {c : Dev nD} (dat : Dat τ (Elt F) Unit ℕ (UR sig nD τ) ℕ cfg4 c) (hA : dat.A 3 = V c (Pipeline.arrRef spec4 3))
    (hafter : ∀ t, dat.after 3 t = blk4 V c 3 t) (t : Fin cfg4.N) (d) : dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)

/-- The variance row's buffer holds the variance row (one block, copied in once). -/
theorem before4_4_of {c : Dev nD} (dat : Dat τ (Elt F) Unit ℕ (UR sig nD τ) ℕ cfg4 c) (hA : dat.A 4 = V c (Pipeline.arrRef spec4 4))
    (hafter : ∀ t, dat.after 4 t = blk4 V c 4 t) (t : Fin cfg4.N) (d) : dat.before 4 t d = blk4 V c 4 t :=
  (dat.before_in_eq_fetched 4 rfl (fun _ => rfl) (fun _ _ _ => rfl) (fun t => by rw [hafter]; unfold Dat.blockOf blk4; rw [hA]; try rfl) t d).trans
    (by unfold Dat.fetched Dat.blockOf blk4; rw [hA]; try rfl)

/-- The gain row's buffer holds the gain row (one block, copied in once). -/
theorem before4_5_of {c : Dev nD} (dat : Dat τ (Elt F) Unit ℕ (UR sig nD τ) ℕ cfg4 c) (hA : dat.A 5 = V c (Pipeline.arrRef spec4 5))
    (hafter : ∀ t, dat.after 5 t = blk4 V c 5 t) (t : Fin cfg4.N) (d) : dat.before 5 t d = blk4 V c 5 t :=
  (dat.before_in_eq_fetched 5 rfl (fun _ => rfl) (fun _ _ _ => rfl) (fun t => by rw [hafter]; unfold Dat.blockOf blk4; rw [hA]; try rfl) t d).trans
    (by unfold Dat.fetched Dat.blockOf blk4; rw [hA]; try rfl)

/-- The offset row's buffer holds the offset row (one block, copied in once). -/
theorem before4_6_of {c : Dev nD} (dat : Dat τ (Elt F) Unit ℕ (UR sig nD τ) ℕ cfg4 c) (hA : dat.A 6 = V c (Pipeline.arrRef spec4 6))
    (hafter : ∀ t, dat.after 6 t = blk4 V c 6 t) (t : Fin cfg4.N) (d) : dat.before 6 t d = blk4 V c 6 t :=
  (dat.before_in_eq_fetched 6 rfl (fun _ => rfl) (fun _ _ _ => rfl) (fun t => by rw [hafter]; unfold Dat.blockOf blk4; rw [hA]; try rfl) t d).trans
    (by unfold Dat.fetched Dat.blockOf blk4; rw [hA]; try rfl)

/-- The classifier weights' buffer holds the classifier weights (one block, copied in once). -/
theorem before4_7_of {c : Dev nD} (dat : Dat τ (Elt F) Unit ℕ (UR sig nD τ) ℕ cfg4 c) (hA : dat.A 7 = V c (Pipeline.arrRef spec4 7))
    (hafter : ∀ t, dat.after 7 t = blk4 V c 7 t) (t : Fin cfg4.N) (d) : dat.before 7 t d = blk4 V c 7 t :=
  (dat.before_in_eq_fetched 7 rfl (fun _ => rfl) (fun _ _ _ => rfl) (fun t => by rw [hafter]; unfold Dat.blockOf blk4; rw [hA]; try rfl) t d).trans
    (by unfold Dat.fetched Dat.blockOf blk4; rw [hA]; try rfl)

/-- The classifier bias's buffer holds the classifier bias (one block, copied in once). -/
theorem before4_8_of {c : Dev nD} (dat : Dat τ (Elt F) Unit ℕ (UR sig nD τ) ℕ cfg4 c) (hA : dat.A 8 = V c (Pipeline.arrRef spec4 8))
    (hafter : ∀ t, dat.after 8 t = blk4 V c 8 t) (t : Fin cfg4.N) (d) : dat.before 8 t d = blk4 V c 8 t :=
  (dat.before_in_eq_fetched 8 rfl (fun _ => rfl) (fun _ _ _ => rfl) (fun t => by rw [hafter]; unfold Dat.blockOf blk4; rw [hA]; try rfl) t d).trans
    (by unfold Dat.fetched Dat.blockOf blk4; rw [hA]; try rfl)

/-! ## The rectangles the body reads and writes: each is its whole buffer -/

abbrev rRows4 : Rect S5000x128 := Rect.unit (s := S5000x128) ![0, 0] S5000x128.size inb_S5000x128_S5000x128_0_0
abbrev rScale4 : Rect S5000x1 := Rect.unit (s := S5000x1) ![0, 0] S5000x1.size inb_S5000x1_S5000x1_0_0
abbrev rRow4 : Rect S1x128 := Rect.unit (s := S1x128) ![0, 0] S1x128.size inb_S1x128_S1x128_0_0
abbrev rWeight4 : Rect S128x64 := Rect.unit (s := S128x64) ![0, 0] S128x64.size inb_S128x64_S128x64_0_0
abbrev rBias4 : Rect S1x64 := Rect.unit (s := S1x64) ![0, 0] S1x64.size inb_S1x64_S1x64_0_0
abbrev rOut4 : Rect S5000x64 := Rect.unit (s := S5000x64) ![0, 0] S5000x64.size inb_S5000x64_S5000x64_0_0

/-! ## What the body leaves in the output block -/

/-- The output block after the body, from the nine input blocks: one write over the whole block, of the
    row-wise log-softmax of `product + bias`, where `product` is the f32 matrix product of the normalized,
    rectified rows and the classifier weights (both rounded to bf16; it reads the variance row before the mean
    row) and `bias` the classifier bias broadcast down the rows. -/
def res4 (x0 : Vec F S5000x128 .f32) (x1 : Vec F S5000x1 .f32) (x2 : Vec F S1x128 .f32) (x3 : Vec F S1x128 .f32) (x4 : Vec F S1x128 .f32) (x5 : Vec F S1x128 .f32) (x6 : Vec F S1x128 .f32) (x7 : Vec F S128x64 .f32) (x8 : Vec F S1x64 .f32) : Vec F S5000x64 .f32 :=
  View.canon [⟨rOut4, k4_pay1 (k4_pay2 (View.ld x0 rRows4) (View.ld x1 rScale4) (View.ld x2 rRow4) (View.ld x4 rRow4) (View.ld x3 rRow4) (View.ld x5 rRow4) (View.ld x6 rRow4) (View.ld x7 rWeight4)) (k4_pay3 (View.ld x8 rBias4))⟩]

/-- The one write covers the output block. -/
theorem cover4 (p0 : Vec F S5000x64 .f32) (y : S5000x64.Idx) :
    ∃ pc ∈ ([⟨rOut4, p0⟩] : List (View.Piece (Elt F) S5000x64 .f32)), y ∈ pc.1.set :=
  View.cover_of_tiled [⟨rOut4, p0⟩] S5000x64.size (by rfl) y

/-! ## The body's triple -/

set_option maxHeartbeats 1000000 in
/-- The body, called on whole buffers of which the inputs' read `x0`, …, `x8` and the output's reads anything,
    runs to a state where the inputs' buffers are as they were and the output's reads `res4` of the inputs. -/
theorem sound_kernel4 (c : Dev nD) (E : Set ℕ) (i : grid4.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S128x64 .f32) (harg8 : arg8.IsWhole)
    (arg9 : Memref sig .tc .vmem S1x64 .f32) (harg9 : arg9.IsWhole) (arg10 : Memref sig .tc .vmem S5000x64 .f32) (harg10 : arg10.IsWhole)
    (x0 : Vec F S5000x128 .f32) (x1 : Vec F S5000x1 .f32) (x2 : Vec F S1x128 .f32) (x3 : Vec F S1x128 .f32) (x4 : Vec F S1x128 .f32) (x5 : Vec F S1x128 .f32) (x6 : Vec F S1x128 .f32) (x7 : Vec F S128x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (res4 x0 x1 x2 x3 x4 x5 x6 x7 x8)) -∗ K ⟨⟩))
      ⊢ wp frame (wpE (defs₀ (F := F)) Variants.none c none) E (cc4__bn_relu_classifier_kernel i arg1 harg1 arg2 harg2 arg3 harg3 arg4 harg4 arg5 harg5 arg6 harg6 arg7 harg7 arg8 harg8 arg9 harg9 arg10 harg10) K := by
  simp only [cc4__bn_relu_classifier_kernel_eq_skeleton]; unfold cc4__bn_relu_classifier_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dOut, %fOut, -, HOut⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact HOut
  ipureintro
  try dsimp only
  exact View.read_writes_eq_canon _ _ _ (cover4 _)

/-! ## The proof data -/

/-- The pipeline's proof data on core `c`: the arrays are `V`'s; after the body at point `t` each input's
    buffer still holds its block and the output's holds `res4` of the input blocks; the invariant is the
    untouched rest of the core's scoped memory and its generator register; full shares; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => blk4 V c 5 t
    | ⟨6, _⟩ => blk4 V c 6 t
    | ⟨7, _⟩ => blk4 V c 7 t
    | ⟨8, _⟩ => blk4 V c 8 t
    | ⟨9, _⟩ => res4 (blk4 V c 0 t) (blk4 V c 1 t) (blk4 V c 2 t) (blk4 V c 3 t) (blk4 V c 4 t) (blk4 V c 5 t) (blk4 V c 6 t) (blk4 V c 7 t) (blk4 V c 8 t)
  Φ _ := Pipeline.ΦA spec4 c
  q _ := fullShare
  owed _ := 0

theorem dat4_A (c : Dev nD) (w : Fin cfg4.W) : (dat4 V c).A w = V c (Pipeline.arrRef spec4 w) := by
  dsimp only [dat4]

theorem dat4_after_0 (c : Dev nD) (t : Fin cfg4.N) : (dat4 V c).after 0 t = blk4 V c 0 t := by dsimp only [dat4]
theorem dat4_after_1 (c : Dev nD) (t : Fin cfg4.N) : (dat4 V c).after 1 t = blk4 V c 1 t := by dsimp only [dat4]
theorem dat4_after_2 (c : Dev nD) (t : Fin cfg4.N) : (dat4 V c).after 2 t = blk4 V c 2 t := by dsimp only [dat4]
theorem dat4_after_3 (c : Dev nD) (t : Fin cfg4.N) : (dat4 V c).after 3 t = blk4 V c 3 t := by dsimp only [dat4]
theorem dat4_after_4 (c : Dev nD) (t : Fin cfg4.N) : (dat4 V c).after 4 t = blk4 V c 4 t := by dsimp only [dat4]
theorem dat4_after_5 (c : Dev nD) (t : Fin cfg4.N) : (dat4 V c).after 5 t = blk4 V c 5 t := by dsimp only [dat4]
theorem dat4_after_6 (c : Dev nD) (t : Fin cfg4.N) : (dat4 V c).after 6 t = blk4 V c 6 t := by dsimp only [dat4]
theorem dat4_after_7 (c : Dev nD) (t : Fin cfg4.N) : (dat4 V c).after 7 t = blk4 V c 7 t := by dsimp only [dat4]
theorem dat4_after_8 (c : Dev nD) (t : Fin cfg4.N) : (dat4 V c).after 8 t = blk4 V c 8 t := by dsimp only [dat4]
theorem dat4_after_9 (c : Dev nD) (t : Fin cfg4.N) :
    (dat4 V c).after 9 t = res4 (blk4 V c 0 t) (blk4 V c 1 t) (blk4 V c 2 t) (blk4 V c 3 t) (blk4 V c 4 t) (blk4 V c 5 t) (blk4 V c 6 t) (blk4 V c 7 t) (blk4 V c 8 t) := by dsimp only [dat4]

/-- What the body finds in each input's buffer at point `t`: that input's block at `t`. -/
theorem before4_0 (c : Dev nD) (t : Fin cfg4.N) (d) : (dat4 V c).before 0 t d = blk4 V c 0 t :=
  before4_0_of V (dat4 V c) (dat4_A V c 0) (dat4_after_0 V c) t d
theorem before4_1 (c : Dev nD) (t : Fin cfg4.N) (d) : (dat4 V c).before 1 t d = blk4 V c 1 t :=
  before4_1_of V (dat4 V c) (dat4_A V c 1) (dat4_after_1 V c) t d
theorem before4_2 (c : Dev nD) (t : Fin cfg4.N) (d) : (dat4 V c).before 2 t d = blk4 V c 2 t :=
  before4_2_of V (dat4 V c) (dat4_A V c 2) (dat4_after_2 V c) t d
theorem before4_3 (c : Dev nD) (t : Fin cfg4.N) (d) : (dat4 V c).before 3 t d = blk4 V c 3 t :=
  before4_3_of V (dat4 V c) (dat4_A V c 3) (dat4_after_3 V c) t d
theorem before4_4 (c : Dev nD) (t : Fin cfg4.N) (d) : (dat4 V c).before 4 t d = blk4 V c 4 t :=
  before4_4_of V (dat4 V c) (dat4_A V c 4) (dat4_after_4 V c) t d
theorem before4_5 (c : Dev nD) (t : Fin cfg4.N) (d) : (dat4 V c).before 5 t d = blk4 V c 5 t :=
  before4_5_of V (dat4 V c) (dat4_A V c 5) (dat4_after_5 V c) t d
theorem before4_6 (c : Dev nD) (t : Fin cfg4.N) (d) : (dat4 V c).before 6 t d = blk4 V c 6 t :=
  before4_6_of V (dat4 V c) (dat4_A V c 6) (dat4_after_6 V c) t d
theorem before4_7 (c : Dev nD) (t : Fin cfg4.N) (d) : (dat4 V c).before 7 t d = blk4 V c 7 t :=
  before4_7_of V (dat4 V c) (dat4_A V c 7) (dat4_after_7 V c) t d
theorem before4_8 (c : Dev nD) (t : Fin cfg4.N) (d) : (dat4 V c).before 8 t d = blk4 V c 8 t :=
  before4_8_of V (dat4 V c) (dat4_A V c 8) (dat4_after_8 V c) t d

/-! ## The body obligation -/

/-- What the body is called with at point `t`: the invariant, the debts, and each window's current buffer at
    what the proof data says it holds before the body. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- What it returns: the same, each buffer at what the proof data says it holds after the body. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- The body at any point: the inputs' buffers hold their blocks, so the body's triple applies at those
    blocks; the invariant and the debts are not touched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    dat4_after_0, dat4_after_1, dat4_after_2, dat4_after_3, dat4_after_4, dat4_after_5, dat4_after_6, dat4_after_7, dat4_after_8, dat4_after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ (blk4 V c 0 t) (blk4 V c 1 t) (blk4 V c 2 t) (blk4 V c 3 t) (blk4 V c 4 t) (blk4 V c 5 t) (blk4 V c 6 t) (blk4 V c 7 t) (blk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the pipeline's proof data, at every point. -/
theorem obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.StatsBase1.lean ====
/-
  The column-statistics kernel of region 1: what its three control cases share.

  The kernel walks the `[100000, 128]` array of aggregated features in 20 blocks of 5000 rows. At every point it forms
  `y = block · dinv + b` (each row scaled by its node's degree factor, the bias added) and adds the column sums of `y`
  and of `y · y` to two `[1, 128]` accumulators that live in scratch memory between points. The first point zeroes the
  accumulators before adding; the last point copies them to the two `[1, 128]` outputs after adding. So the grid splits
  into three cases — first point, middle points, last point — told apart by two conditions on the grid coordinate,
  which are decided here once over the twenty points.
-/
import proofs.«156713_j13589276524898_2_alg».proof.Proof.Gen.KernelIdeal.Launch
import proofs.«156713_j13589276524898_2_alg».proof.Proof.Gen.KernelIdeal.Skeleton
import proofs.«156713_j13589276524898_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block at every point, fetched there or not (unfetched, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's staging buffer holds its block at every point, fetched there or not (unfetched, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

end

/-! ## The two conditions -/

/-- "This is the first point": the body's first branch condition, from the grid coordinate. -/
abbrev first1 (i : grid1.Coords) : Prop := (Scalar.cmpi .ne (Scalar.extui (Scalar.cmpi .eq (BitVec.ofNat 32 (i 0).val) 0#32)) 0#32) = 1#1
theorem first1_iff : ∀ t : Fin cfg1.N, first1 (grid1.coords t) ↔ t.val % 20 = 0 :=
  (by decide +kernel : ∀ t : Fin grid1.N, first1 (grid1.coords t) ↔ t.val % 20 = 0)

/-- "This is the last point": the body's second branch condition. -/
abbrev last1 (i : grid1.Coords) : Prop := k1_cond2 i = 1#1
theorem last1_iff : ∀ t : Fin cfg1.N, last1 (grid1.coords t) ↔ t.val % 20 = 19 :=
  (by decide +kernel : ∀ t : Fin grid1.N, last1 (grid1.coords t) ↔ t.val % 20 = 19)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last point the two outputs are idle (the body stores nothing into them) and are not written back. -/
theorem idle1_3 : ∀ t : Fin cfg1.N, ¬last1 (grid1.coords t) → cfg1.idle 3 (grid1.coords t) = true := by decide +kernel
theorem idle1_4 : ∀ t : Fin cfg1.N, ¬last1 (grid1.coords t) → cfg1.idle 4 (grid1.coords t) = true := by decide +kernel
theorem noFlush1_3 : ∀ t : Fin cfg1.N, ¬last1 (grid1.coords t) → (cfg1.win 3).flush t = false := by decide +kernel
theorem noFlush1_4 : ∀ t : Fin cfg1.N, ¬last1 (grid1.coords t) → (cfg1.win 4).flush t = false := by decide +kernel
/-- At the last point they are live. -/
theorem liveLast1_3 : ∀ t : Fin cfg1.N, last1 (grid1.coords t) → cfg1.idle 3 (grid1.coords t) = false := by decide +kernel
theorem liveLast1_4 : ∀ t : Fin cfg1.N, last1 (grid1.coords t) → cfg1.idle 4 (grid1.coords t) = false := by decide +kernel

/-! ## The memrefs the body is called with -/

/-- One staging buffer of each output window, through which its contents are stated. -/
abbrev outView1_3 : View sig .tc .vmem S1x128 .f32 := (Memref.whole cc1_stg3_0 : Memref sig .tc .vmem S1x128 .f32).view
abbrev outView1_4 : View sig .tc .vmem S1x128 .f32 := (Memref.whole cc1_stg4_0 : Memref sig .tc .vmem S1x128 .f32).view
abbrev stage1_0 (t : Fin cfg1.N) : Memref sig .tc .vmem S5000x128 .f32 := win1_0.stage (cfg1.slots t 0)
abbrev stageWhole1_0 (t : Fin cfg1.N) : (stage1_0 t).IsWhole := hstage1_0 ((cfg1.slots t 0).cast nbuf1_0)
abbrev stage1_1 (t : Fin cfg1.N) : Memref sig .tc .vmem S5000x1 .f32 := win1_1.stage (cfg1.slots t 1)
abbrev stageWhole1_1 (t : Fin cfg1.N) : (stage1_1 t).IsWhole := hstage1_1 ((cfg1.slots t 1).cast nbuf1_1)
abbrev stage1_2 (t : Fin cfg1.N) : Memref sig .tc .vmem S1x128 .f32 := win1_2.stage (cfg1.slots t 2)
abbrev stageWhole1_2 (t : Fin cfg1.N) : (stage1_2 t).IsWhole := hstage1_2 ((cfg1.slots t 2).cast nbuf1_2)
abbrev stage1_3 (t : Fin cfg1.N) : Memref sig .tc .vmem S1x128 .f32 := win1_3.stage (cfg1.slots t 3)
abbrev stageWhole1_3 (t : Fin cfg1.N) : (stage1_3 t).IsWhole := hstage1_3 ((cfg1.slots t 3).cast nbuf1_3)
abbrev stage1_4 (t : Fin cfg1.N) : Memref sig .tc .vmem S1x128 .f32 := win1_4.stage (cfg1.slots t 4)
abbrev stageWhole1_4 (t : Fin cfg1.N) : (stage1_4 t).IsWhole := hstage1_4 ((cfg1.slots t 4).cast nbuf1_4)
/-- The two accumulators: whole scoped buffers of the kernel's own. -/
abbrev acc1_0 : Memref sig .tc .vmem S1x128 .f32 := Memref.whole cc1_scratch0
abbrev acc1_1 : Memref sig .tc .vmem S1x128 .f32 := Memref.whole cc1_scratch1
abbrev accView1_0 : View sig .tc .vmem S1x128 .f32 := acc1_0.view
abbrev accView1_1 : View sig .tc .vmem S1x128 .f32 := acc1_1.view

/-- The region's resting invariant with the two accumulators taken out of the scoped buffers no window stages:
    each owned whole at some contents, the remaining scoped buffers unopened, the generator register at some state. -/
theorem restingInv1_eq (c : Dev nD) :
    (Pipeline.ΦA spec1 c : sProp 𝕄)
      = iprop(iprop(iprop((∃ d, owns (c : Thread nD τ) acc1_0 fullShare d) ∗ (∃ d, owns (c : Thread nD τ) acc1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [acc1_0, acc1_1, owns_whole]; try rfl

end Cert.KernelIdeal.Hand

end
-- ==== Proof.KI.StatsRunFirst1.lean ====
/-
  The column-statistics kernel of region 1 at the FIRST grid point: both accumulators are stored whole with zeros
  and then with zero plus this block's column sums; the outputs are not touched. What the accumulators end
  with is found by running the body symbolically; the pieces written are the witness.
-/
import proofs.«156713_j13589276524898_2_alg».proof.Proof.KI.StatsBase1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point, on whole memrefs: the three inputs at their contents, the two outputs at contents handed
    back untouched, the accumulators at anything; it ends with each accumulator holding its pieces. -/
noncomputable def statsRun1_first (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first1 i) (hl : ¬last1 i)
    (x0 : Vec F S5000x128 .f32) (x1 : Vec F S5000x1 .f32) (x2 : Vec F S1x128 .f32) :
    Σ' (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7) K } := by
  refine ⟨?_, ?_, fun xi3 xi4 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KI.StatsRunMid1.lean ====
/-
  The column-statistics kernel of region 1 at a MIDDLE grid point: each accumulator, holding what the point before
  left, is stored whole with that plus this block's column sums; the outputs are not touched.
-/
import proofs.«156713_j13589276524898_2_alg».proof.Proof.KI.StatsRunFirst1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point, on whole memrefs: inputs at their contents, outputs handed back untouched, the
    accumulators at the contents carried in; it ends with each accumulator holding its pieces. -/
noncomputable def statsRun1_mid (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : ¬last1 i)
    (x0 : Vec F S5000x128 .f32) (x1 : Vec F S5000x1 .f32) (x2 : Vec F S1x128 .f32) (xs0 xs1 : Vec F S1x128 .f32) :
    Σ' (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7) K } := by
  refine ⟨?_, ?_, fun xi3 xi4 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs0; obtain rfl := harg7.eq_unread hfs1
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KI.StatsRunLast1.lean ====
/-
  The column-statistics kernel of region 1 at the LAST grid point: each accumulator is stored whole with what the
  point before left plus this block's column sums, and then copied whole into its output.
-/
import proofs.«156713_j13589276524898_2_alg».proof.Proof.KI.StatsRunMid1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point, on whole memrefs: inputs at their contents, outputs at anything, the accumulators at
    the contents carried in; it ends with each output and each accumulator holding its pieces. -/
noncomputable def statsRun1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) :
    Σ' (L3 : List (View.Piece (Elt F) S1x128 .f32)) (L4 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.Stats1.lean ====
/-
  The column-statistics region 1: what the accumulators and the outputs hold after each grid point, the region's
  invariant, its proof data and the body obligation.

  After point 0 each accumulator holds what the first-point run leaves (zero plus block 0's column sums); after
  point n + 1 what the middle- or last-point run leaves from the contents after point n. The outputs are written at
  the last point only (a copy of the accumulators); at every other point their windows are idle and their buffers
  are handed back as found. Between points the invariant keeps the two accumulators at these named contents beside
  the scoped buffers the region does not use and the generator register.
-/
import proofs.«156713_j13589276524898_2_alg».proof.Proof.KI.StatsRunLast1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The first point's pieces for accumulator 0 cover it (one whole-buffer store after another). -/
theorem acc0Cover1_first (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first1 i) (hl : ¬last1 i)
    (x0 : Vec F S5000x128 .f32) (x1 : Vec F S5000x1 .f32) (x2 : Vec F S1x128 .f32)  (y : S1x128.Idx) :
    ∃ pc ∈ (statsRun1_first c i arg1 harg1 arg2 harg2 arg3 harg3 arg4 harg4 arg5 harg5 arg6 harg6 arg7 harg7 hf hl x0 x1 x2 ).1, y ∈ pc.1.set :=
  View.cover_of_tiledL (statsRun1_first c i arg1 harg1 arg2 harg2 arg3 harg3 arg4 harg4 arg5 harg5 arg6 harg6 arg7 harg7 hf hl x0 x1 x2 ).1 S1x128.size (by sl_kernel_rfl) y

def acc0After1_first (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first1 i) (hl : ¬last1 i)
    (x0 : Vec F S5000x128 .f32) (x1 : Vec F S5000x1 .f32) (x2 : Vec F S1x128 .f32)  : Vec F S1x128 .f32 :=
  accView1_0.read (Elt F) (accView1_0.writes (Elt F) accView1_0.junk (statsRun1_first c i arg1 harg1 arg2 harg2 arg3 harg3 arg4 harg4 arg5 harg5 arg6 harg6 arg7 harg7 hf hl x0 x1 x2 ).1)

/-- The first point's pieces for accumulator 1 cover it. -/
theorem acc1Cover1_first (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first1 i) (hl : ¬last1 i)
    (x0 : Vec F S5000x128 .f32) (x1 : Vec F S5000x1 .f32) (x2 : Vec F S1x128 .f32)  (y : S1x128.Idx) :
    ∃ pc ∈ (statsRun1_first c i arg1 harg1 arg2 harg2 arg3 harg3 arg4 harg4 arg5 harg5 arg6 harg6 arg7 harg7 hf hl x0 x1 x2 ).2.1, y ∈ pc.1.set :=
  View.cover_of_tiledL (statsRun1_first c i arg1 harg1 arg2 harg2 arg3 harg3 arg4 harg4 arg5 harg5 arg6 harg6 arg7 harg7 hf hl x0 x1 x2 ).2.1 S1x128.size (by sl_kernel_rfl) y

def acc1After1_first (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first1 i) (hl : ¬last1 i)
    (x0 : Vec F S5000x128 .f32) (x1 : Vec F S5000x1 .f32) (x2 : Vec F S1x128 .f32)  : Vec F S1x128 .f32 :=
  accView1_1.read (Elt F) (accView1_1.writes (Elt F) accView1_1.junk (statsRun1_first c i arg1 harg1 arg2 harg2 arg3 harg3 arg4 harg4 arg5 harg5 arg6 harg6 arg7 harg7 hf hl x0 x1 x2 ).2.1)

/-- A middle point's pieces for accumulator 0 cover it. -/
theorem acc0Cover1_mid (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : ¬last1 i)
    (x0 : Vec F S5000x128 .f32) (x1 : Vec F S5000x1 .f32) (x2 : Vec F S1x128 .f32) (xs0 xs1 : Vec F S1x128 .f32) (y : S1x128.Idx) :
    ∃ pc ∈ (statsRun1_mid c i arg1 harg1 arg2 harg2 arg3 harg3 arg4 harg4 arg5 harg5 arg6 harg6 arg7 harg7 hf hl x0 x1 x2 xs0 xs1).1, y ∈ pc.1.set :=
  View.cover_of_tiledL (statsRun1_mid c i arg1 harg1 arg2 harg2 arg3 harg3 arg4 harg4 arg5 harg5 arg6 harg6 arg7 harg7 hf hl x0 x1 x2 xs0 xs1).1 S1x128.size (by sl_kernel_rfl) y

def acc0After1_mid (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : ¬last1 i)
    (x0 : Vec F S5000x128 .f32) (x1 : Vec F S5000x1 .f32) (x2 : Vec F S1x128 .f32) (xs0 xs1 : Vec F S1x128 .f32) : Vec F S1x128 .f32 :=
  accView1_0.read (Elt F) (accView1_0.writes (Elt F) accView1_0.junk (statsRun1_mid c i arg1 harg1 arg2 harg2 arg3 harg3 arg4 harg4 arg5 harg5 arg6 harg6 arg7 harg7 hf hl x0 x1 x2 xs0 xs1).1)

/-- A middle point's pieces for accumulator 1 cover it. -/
theorem acc1Cover1_mid (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : ¬last1 i)
    (x0 : Vec F S5000x128 .f32) (x1 : Vec F S5000x1 .f32) (x2 : Vec F S1x128 .f32) (xs0 xs1 : Vec F S1x128 .f32) (y : S1x128.Idx) :
    ∃ pc ∈ (statsRun1_mid c i arg1 harg1 arg2 harg2 arg3 harg3 arg4 harg4 arg5 harg5 arg6 harg6 arg7 harg7 hf hl x0 x1 x2 xs0 xs1).2.1, y ∈ pc.1.set :=
  View.cover_of_tiledL (statsRun1_mid c i arg1 harg1 arg2 harg2 arg3 harg3 arg4 harg4 arg5 harg5 arg6 harg6 arg7 harg7 hf hl x0 x1 x2 xs0 xs1).2.1 S1x128.size (by sl_kernel_rfl) y

def acc1After1_mid (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : ¬last1 i)
    (x0 : Vec F S5000x128 .f32) (x1 : Vec F S5000x1 .f32) (x2 : Vec F S1x128 .f32) (xs0 xs1 : Vec F S1x128 .f32) : Vec F S1x128 .f32 :=
  accView1_1.read (Elt F) (accView1_1.writes (Elt F) accView1_1.junk (statsRun1_mid c i arg1 harg1 arg2 harg2 arg3 harg3 arg4 harg4 arg5 harg5 arg6 harg6 arg7 harg7 hf hl x0 x1 x2 xs0 xs1).2.1)

/-- The last point's pieces for output 3 (the column sums) cover it. -/
theorem out3Cover1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) (y : S1x128.Idx) :
    ∃ pc ∈ (statsRun1_last c i arg1 harg1 arg2 harg2 arg3 harg3 arg4 harg4 arg5 harg5 arg6 harg6 arg7 harg7 hf hl x0 x1 x2 xs0 xs1).1, y ∈ pc.1.set :=
  View.cover_of_tiledL (statsRun1_last c i arg1 harg1 arg2 harg2 arg3 harg3 arg4 harg4 arg5 harg5 arg6 harg6 arg7 harg7 hf hl x0 x1 x2 xs0 xs1).1 S1x128.size (by sl_kernel_rfl) y

def out3After1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) : Vec F S1x128 .f32 :=
  outView1_3.read (Elt F) (outView1_3.writes (Elt F) outView1_3.junk (statsRun1_last c i arg1 harg1 arg2 harg2 arg3 harg3 arg4 harg4 arg5 harg5 arg6 harg6 arg7 harg7 hf hl x0 x1 x2 xs0 xs1).1)

/-- The last point's pieces for output 4 (the column sums of squares) cover it. -/
theorem out4Cover1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) (y : S1x128.Idx) :
    ∃ pc ∈ (statsRun1_last c i arg1 harg1 arg2 harg2 arg3 harg3 arg4 harg4 arg5 harg5 arg6 harg6 arg7 harg7 hf hl x0 x1 x2 xs0 xs1).2.1, y ∈ pc.1.set :=
  View.cover_of_tiledL (statsRun1_last c i arg1 harg1 arg2 harg2 arg3 harg3 arg4 harg4 arg5 harg5 arg6 harg6 arg7 harg7 hf hl x0 x1 x2 xs0 xs1).2.1 S1x128.size (by sl_kernel_rfl) y

def out4After1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) : Vec F S1x128 .f32 :=
  outView1_4.read (Elt F) (outView1_4.writes (Elt F) outView1_4.junk (statsRun1_last c i arg1 harg1 arg2 harg2 arg3 harg3 arg4 harg4 arg5 harg5 arg6 harg6 arg7 harg7 hf hl x0 x1 x2 xs0 xs1).2.1)

/-- The last point's pieces for accumulator 0 cover it. -/
theorem acc0Cover1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) (y : S1x128.Idx) :
    ∃ pc ∈ (statsRun1_last c i arg1 harg1 arg2 harg2 arg3 harg3 arg4 harg4 arg5 harg5 arg6 harg6 arg7 harg7 hf hl x0 x1 x2 xs0 xs1).2.2.1, y ∈ pc.1.set :=
  View.cover_of_tiledL (statsRun1_last c i arg1 harg1 arg2 harg2 arg3 harg3 arg4 harg4 arg5 harg5 arg6 harg6 arg7 harg7 hf hl x0 x1 x2 xs0 xs1).2.2.1 S1x128.size (by sl_kernel_rfl) y

def acc0After1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) : Vec F S1x128 .f32 :=
  accView1_0.read (Elt F) (accView1_0.writes (Elt F) accView1_0.junk (statsRun1_last c i arg1 harg1 arg2 harg2 arg3 harg3 arg4 harg4 arg5 harg5 arg6 harg6 arg7 harg7 hf hl x0 x1 x2 xs0 xs1).2.2.1)

/-- The last point's pieces for accumulator 1 cover it. -/
theorem acc1Cover1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) (y : S1x128.Idx) :
    ∃ pc ∈ (statsRun1_last c i arg1 harg1 arg2 harg2 arg3 harg3 arg4 harg4 arg5 harg5 arg6 harg6 arg7 harg7 hf hl x0 x1 x2 xs0 xs1).2.2.2.1, y ∈ pc.1.set :=
  View.cover_of_tiledL (statsRun1_last c i arg1 harg1 arg2 harg2 arg3 harg3 arg4 harg4 arg5 harg5 arg6 harg6 arg7 harg7 hf hl x0 x1 x2 xs0 xs1).2.2.2.1 S1x128.size (by sl_kernel_rfl) y

def acc1After1_last (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) : Vec F S1x128 .f32 :=
  accView1_1.read (Elt F) (accView1_1.writes (Elt F) accView1_1.junk (statsRun1_last c i arg1 harg1 arg2 harg2 arg3 harg3 arg4 harg4 arg5 harg5 arg6 harg6 arg7 harg7 hf hl x0 x1 x2 xs0 xs1).2.2.2.1)

/-- What an idle output's buffer is said to hold where nothing consults it. -/
def idleOut1_3 : Vec F S1x128 .f32 := outView1_3.read (Elt F) outView1_3.junk
def idleOut1_4 : Vec F S1x128 .f32 := outView1_4.read (Elt F) outView1_4.junk

section
variable (V : (c : Dev nD) → (b : Ref sig .tc) → Buf (Elt F) ((c : Thread nD τ).loc b))

/-! ## Point by point -/

theorem notLast1_zero (hn : 0 < cfg1.N) : ¬last1 (grid1.coords ⟨0, hn⟩) := fun h => by
  have := (last1_iff ⟨0, hn⟩).mp h; (try dsimp only at this); omega

theorem notFirst1_succ (n : ℕ) (hn : n + 1 < cfg1.N) : ¬first1 (grid1.coords ⟨n + 1, hn⟩) := fun h => by
  have h0 := (first1_iff ⟨n + 1, hn⟩).mp h
  have hN : n + 1 < 20 := lt_of_lt_of_eq hn (show cfg1.N = 20 from N_1)
  (try dsimp only at h0); omega

/-- THE ACCUMULATION: (output 3, output 4, accumulator 0, accumulator 1) after the body at point `n`. -/
def statsAt1 (c : Dev nD) : (n : ℕ) → n < cfg1.N → Vec F S1x128 .f32 × Vec F S1x128 .f32 × Vec F S1x128 .f32 × Vec F S1x128 .f32
  | 0, hn => (idleOut1_3, idleOut1_4,
      acc0After1_first c (grid1.coords ⟨0, hn⟩) (stage1_0 ⟨0, hn⟩) (stageWhole1_0 ⟨0, hn⟩) (stage1_1 ⟨0, hn⟩) (stageWhole1_1 ⟨0, hn⟩) (stage1_2 ⟨0, hn⟩) (stageWhole1_2 ⟨0, hn⟩) (stage1_3 ⟨0, hn⟩) (stageWhole1_3 ⟨0, hn⟩) (stage1_4 ⟨0, hn⟩) (stageWhole1_4 ⟨0, hn⟩) acc1_0 (Memref.isWhole_whole _) acc1_1 (Memref.isWhole_whole _) ((first1_iff ⟨0, hn⟩).mpr (Nat.zero_mod _)) (notLast1_zero hn) (blk1 V c 0 ⟨0, hn⟩) (blk1 V c 1 ⟨0, hn⟩) (blk1 V c 2 ⟨0, hn⟩),
      acc1After1_first c (grid1.coords ⟨0, hn⟩) (stage1_0 ⟨0, hn⟩) (stageWhole1_0 ⟨0, hn⟩) (stage1_1 ⟨0, hn⟩) (stageWhole1_1 ⟨0, hn⟩) (stage1_2 ⟨0, hn⟩) (stageWhole1_2 ⟨0, hn⟩) (stage1_3 ⟨0, hn⟩) (stageWhole1_3 ⟨0, hn⟩) (stage1_4 ⟨0, hn⟩) (stageWhole1_4 ⟨0, hn⟩) acc1_0 (Memref.isWhole_whole _) acc1_1 (Memref.isWhole_whole _) ((first1_iff ⟨0, hn⟩).mpr (Nat.zero_mod _)) (notLast1_zero hn) (blk1 V c 0 ⟨0, hn⟩) (blk1 V c 1 ⟨0, hn⟩) (blk1 V c 2 ⟨0, hn⟩))
  | n + 1, hn =>
    if h19 : (n + 1) % 20 = 19 then
      (out3After1_last c (grid1.coords ⟨n + 1, hn⟩) (stage1_0 ⟨n + 1, hn⟩) (stageWhole1_0 ⟨n + 1, hn⟩) (stage1_1 ⟨n + 1, hn⟩) (stageWhole1_1 ⟨n + 1, hn⟩) (stage1_2 ⟨n + 1, hn⟩) (stageWhole1_2 ⟨n + 1, hn⟩) (stage1_3 ⟨n + 1, hn⟩) (stageWhole1_3 ⟨n + 1, hn⟩) (stage1_4 ⟨n + 1, hn⟩) (stageWhole1_4 ⟨n + 1, hn⟩) acc1_0 (Memref.isWhole_whole _) acc1_1 (Memref.isWhole_whole _) (notFirst1_succ n hn) ((last1_iff ⟨n + 1, hn⟩).mpr h19) (blk1 V c 0 ⟨n + 1, hn⟩) (blk1 V c 1 ⟨n + 1, hn⟩) (blk1 V c 2 ⟨n + 1, hn⟩) (statsAt1 c n (Nat.lt_of_succ_lt hn)).2.2.1 (statsAt1 c n (Nat.lt_of_succ_lt hn)).2.2.2,
       out4After1_last c (grid1.coords ⟨n + 1, hn⟩) (stage1_0 ⟨n + 1, hn⟩) (stageWhole1_0 ⟨n + 1, hn⟩) (stage1_1 ⟨n + 1, hn⟩) (stageWhole1_1 ⟨n + 1, hn⟩) (stage1_2 ⟨n + 1, hn⟩) (stageWhole1_2 ⟨n + 1, hn⟩) (stage1_3 ⟨n + 1, hn⟩) (stageWhole1_3 ⟨n + 1, hn⟩) (stage1_4 ⟨n + 1, hn⟩) (stageWhole1_4 ⟨n + 1, hn⟩) acc1_0 (Memref.isWhole_whole _) acc1_1 (Memref.isWhole_whole _) (notFirst1_succ n hn) ((last1_iff ⟨n + 1, hn⟩).mpr h19) (blk1 V c 0 ⟨n + 1, hn⟩) (blk1 V c 1 ⟨n + 1, hn⟩) (blk1 V c 2 ⟨n + 1, hn⟩) (statsAt1 c n (Nat.lt_of_succ_lt hn)).2.2.1 (statsAt1 c n (Nat.lt_of_succ_lt hn)).2.2.2,
       acc0After1_last c (grid1.coords ⟨n + 1, hn⟩) (stage1_0 ⟨n + 1, hn⟩) (stageWhole1_0 ⟨n + 1, hn⟩) (stage1_1 ⟨n + 1, hn⟩) (stageWhole1_1 ⟨n + 1, hn⟩) (stage1_2 ⟨n + 1, hn⟩) (stageWhole1_2 ⟨n + 1, hn⟩) (stage1_3 ⟨n + 1, hn⟩) (stageWhole1_3 ⟨n + 1, hn⟩) (stage1_4 ⟨n + 1, hn⟩) (stageWhole1_4 ⟨n + 1, hn⟩) acc1_0 (Memref.isWhole_whole _) acc1_1 (Memref.isWhole_whole _) (notFirst1_succ n hn) ((last1_iff ⟨n + 1, hn⟩).mpr h19) (blk1 V c 0 ⟨n + 1, hn⟩) (blk1 V c 1 ⟨n + 1, hn⟩) (blk1 V c 2 ⟨n + 1, hn⟩) (statsAt1 c n (Nat.lt_of_succ_lt hn)).2.2.1 (statsAt1 c n (Nat.lt_of_succ_lt hn)).2.2.2,
       acc1After1_last c (grid1.coords ⟨n + 1, hn⟩) (stage1_0 ⟨n + 1, hn⟩) (stageWhole1_0 ⟨n + 1, hn⟩) (stage1_1 ⟨n + 1, hn⟩) (stageWhole1_1 ⟨n + 1, hn⟩) (stage1_2 ⟨n + 1, hn⟩) (stageWhole1_2 ⟨n + 1, hn⟩) (stage1_3 ⟨n + 1, hn⟩) (stageWhole1_3 ⟨n + 1, hn⟩) (stage1_4 ⟨n + 1, hn⟩) (stageWhole1_4 ⟨n + 1, hn⟩) acc1_0 (Memref.isWhole_whole _) acc1_1 (Memref.isWhole_whole _) (notFirst1_succ n hn) ((last1_iff ⟨n + 1, hn⟩).mpr h19) (blk1 V c 0 ⟨n + 1, hn⟩) (blk1 V c 1 ⟨n + 1, hn⟩) (blk1 V c 2 ⟨n + 1, hn⟩) (statsAt1 c n (Nat.lt_of_succ_lt hn)).2.2.1 (statsAt1 c n (Nat.lt_of_succ_lt hn)).2.2.2)
    else
      (idleOut1_3, idleOut1_4,
       acc0After1_mid c (grid1.coords ⟨n + 1, hn⟩) (stage1_0 ⟨n + 1, hn⟩) (stageWhole1_0 ⟨n + 1, hn⟩) (stage1_1 ⟨n + 1, hn⟩) (stageWhole1_1 ⟨n + 1, hn⟩) (stage1_2 ⟨n + 1, hn⟩) (stageWhole1_2 ⟨n + 1, hn⟩) (stage1_3 ⟨n + 1, hn⟩) (stageWhole1_3 ⟨n + 1, hn⟩) (stage1_4 ⟨n + 1, hn⟩) (stageWhole1_4 ⟨n + 1, hn⟩) acc1_0 (Memref.isWhole_whole _) acc1_1 (Memref.isWhole_whole _) (notFirst1_succ n hn) (fun h => h19 ((last1_iff ⟨n + 1, hn⟩).mp h)) (blk1 V c 0 ⟨n + 1, hn⟩) (blk1 V c 1 ⟨n + 1, hn⟩) (blk1 V c 2 ⟨n + 1, hn⟩) (statsAt1 c n (Nat.lt_of_succ_lt hn)).2.2.1 (statsAt1 c n (Nat.lt_of_succ_lt hn)).2.2.2,
       acc1After1_mid c (grid1.coords ⟨n + 1, hn⟩) (stage1_0 ⟨n + 1, hn⟩) (stageWhole1_0 ⟨n + 1, hn⟩) (stage1_1 ⟨n + 1, hn⟩) (stageWhole1_1 ⟨n + 1, hn⟩) (stage1_2 ⟨n + 1, hn⟩) (stageWhole1_2 ⟨n + 1, hn⟩) (stage1_3 ⟨n + 1, hn⟩) (stageWhole1_3 ⟨n + 1, hn⟩) (stage1_4 ⟨n + 1, hn⟩) (stageWhole1_4 ⟨n + 1, hn⟩) acc1_0 (Memref.isWhole_whole _) acc1_1 (Memref.isWhole_whole _) (notFirst1_succ n hn) (fun h => h19 ((last1_iff ⟨n + 1, hn⟩).mp h)) (blk1 V c 0 ⟨n + 1, hn⟩) (blk1 V c 1 ⟨n + 1, hn⟩) (blk1 V c 2 ⟨n + 1, hn⟩) (statsAt1 c n (Nat.lt_of_succ_lt hn)).2.2.1 (statsAt1 c n (Nat.lt_of_succ_lt hn)).2.2.2)

/-- At the first point: the first-point run's contents. -/
theorem statsAt1_first (c : Dev nD) (t : Fin cfg1.N) (h0 : t.val = 0) (hf : first1 (grid1.coords t)) (hl : ¬last1 (grid1.coords t)) :
    statsAt1 V c t.val t.isLt = (idleOut1_3, idleOut1_4,
      acc0After1_first c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t),
      acc1After1_first c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t)) := by
  obtain ⟨n, hn⟩ := t
  cases n with
  | zero => rfl
  | succ n => exact absurd h0 (Nat.succ_ne_zero n)

/-- At a middle point: the middle-point run's contents over what the point before left. -/
theorem statsAt1_mid (c : Dev nD) (t : Fin cfg1.N) (h0 : t.val ≠ 0) (h19 : ¬t.val % 20 = 19) (hf : ¬first1 (grid1.coords t)) (hl : ¬last1 (grid1.coords t)) :
    statsAt1 V c t.val t.isLt = (idleOut1_3, idleOut1_4,
      acc0After1_mid c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t) (statsAt1 V c (t.val - 1) (Nat.lt_of_le_of_lt (Nat.sub_le _ _) t.isLt)).2.2.1 (statsAt1 V c (t.val - 1) (Nat.lt_of_le_of_lt (Nat.sub_le _ _) t.isLt)).2.2.2,
      acc1After1_mid c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t) (statsAt1 V c (t.val - 1) (Nat.lt_of_le_of_lt (Nat.sub_le _ _) t.isLt)).2.2.1 (statsAt1 V c (t.val - 1) (Nat.lt_of_le_of_lt (Nat.sub_le _ _) t.isLt)).2.2.2) := by
  obtain ⟨n, hn⟩ := t
  cases n with
  | zero => exact absurd rfl h0
  | succ n => exact (dif_neg h19).trans rfl

/-- At the last point: the last-point run's contents over what the point before left. -/
theorem statsAt1_last (c : Dev nD) (t : Fin cfg1.N) (h0 : t.val ≠ 0) (h19 : t.val % 20 = 19) (hf : ¬first1 (grid1.coords t)) (hl : last1 (grid1.coords t)) :
    statsAt1 V c t.val t.isLt = (
      out3After1_last c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t) (statsAt1 V c (t.val - 1) (Nat.lt_of_le_of_lt (Nat.sub_le _ _) t.isLt)).2.2.1 (statsAt1 V c (t.val - 1) (Nat.lt_of_le_of_lt (Nat.sub_le _ _) t.isLt)).2.2.2,
      out4After1_last c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t) (statsAt1 V c (t.val - 1) (Nat.lt_of_le_of_lt (Nat.sub_le _ _) t.isLt)).2.2.1 (statsAt1 V c (t.val - 1) (Nat.lt_of_le_of_lt (Nat.sub_le _ _) t.isLt)).2.2.2,
      acc0After1_last c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t) (statsAt1 V c (t.val - 1) (Nat.lt_of_le_of_lt (Nat.sub_le _ _) t.isLt)).2.2.1 (statsAt1 V c (t.val - 1) (Nat.lt_of_le_of_lt (Nat.sub_le _ _) t.isLt)).2.2.2,
      acc1After1_last c (grid1.coords t) (stage1_0 t) (stageWhole1_0 t) (stage1_1 t) (stageWhole1_1 t) (stage1_2 t) (stageWhole1_2 t) (stage1_3 t) (stageWhole1_3 t) (stage1_4 t) (stageWhole1_4 t) acc1_0 (Memref.isWhole_whole _) acc1_1 (Memref.isWhole_whole _) hf hl (blk1 V c 0 t) (blk1 V c 1 t) (blk1 V c 2 t) (statsAt1 V c (t.val - 1) (Nat.lt_of_le_of_lt (Nat.sub_le _ _) t.isLt)).2.2.1 (statsAt1 V c (t.val - 1) (Nat.lt_of_le_of_lt (Nat.sub_le _ _) t.isLt)).2.2.2) := by
  obtain ⟨n, hn⟩ := t
  cases n with
  | zero => exact absurd rfl h0
  | succ n => exact (dif_pos h19).trans rfl

/-! ## The invariant between points -/

/-- Before point `n`: at the start the region's resting invariant (the accumulators at anything); afterwards the two
    accumulators at what point `n - 1` left, the other scoped buffers unopened, the generator register at some state. -/
def carriedInv1 (c : Dev nD) : (n : ℕ) → n ≤ cfg1.N → sProp 𝕄
  | 0, _ => Pipeline.ΦA spec1 c
  | n + 1, hn => iprop(iprop(iprop(owns (c : Thread nD τ) acc1_0 fullShare (statsAt1 V c n hn).2.2.1 ∗ owns (c : Thread nD τ) acc1_1 fullShare (statsAt1 V c n hn).2.2.2)
      ∗ Pipeline.scopedRestBut (Ix := Unit) (Name := ℕ) (U := UR sig nD τ) (Lvl := ℕ) (Val := Elt F) spec1 c [cc1_scratch0, cc1_scratch1]) ∗ (∃ r, prngReg c r))

theorem carriedInv1_zero (c : Dev nD) (n : ℕ) (h : n ≤ cfg1.N) (hz : n = 0) : carriedInv1 V c n h = Pipeline.ΦA spec1 c := by
  subst hz; rfl

theorem carriedInv1_succ (c : Dev nD) (n : ℕ) (hn : n < cfg1.N) :
    carriedInv1 V c (n + 1) hn = iprop(iprop(iprop(owns (c : Thread nD τ) acc1_0 fullShare (statsAt1 V c n hn).2.2.1 ∗ owns (c : Thread nD τ) acc1_1 fullShare (statsAt1 V c n hn).2.2.2)
      ∗ Pipeline.scopedRestBut (Ix := Unit) (Name := ℕ) (U := UR sig nD τ) (Lvl := ℕ) (Val := Elt F) spec1 c [cc1_scratch0, cc1_scratch1]) ∗ (∃ r, prngReg c r)) := rfl

theorem carriedInv1_pos (c : Dev nD) (n : ℕ) (h : n ≤ cfg1.N) (hz : n ≠ 0) :
    carriedInv1 V c n h = iprop(iprop(iprop(owns (c : Thread nD τ) acc1_0 fullShare (statsAt1 V c (n - 1) (by omega)).2.2.1 ∗ owns (c : Thread nD τ) acc1_1 fullShare (statsAt1 V c (n - 1) (by omega)).2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

/-- The arrays as the region finds them; after the body at point `t` each input's buffer at its block and the outputs'
    at the accumulation's components; the invariant the carried one; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (statsAt1 V c t.val t.isLt).1
    | ⟨4, _⟩ => (statsAt1 V c t.val t.isLt).2.1
  Φ t := carriedInv1 V c t.val (Nat.le_of_lt_succ t.isLt)
  q _ := fullShare
  owed _ := 0

theorem dat1_A (c : Dev nD) (w : Fin cfg1.W) : (dat1 V c).A w = V c (Pipeline.arrRef spec1 w) := by
  dsimp only [dat1]

theorem dat1_inv_castSucc (c : Dev nD) (t : Fin cfg1.N) :
    (dat1 V c).Φ t.castSucc = carriedInv1 V c t.val (Nat.le_of_lt t.isLt) := by
  dsimp only [dat1]; simp only [Fin.coe_castSucc]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = (statsAt1 V c t.val t.isLt).1 := by dsimp only [dat1]
theorem dat1_after_4 (c : Dev nD) (t : Fin cfg1.N) : (dat1 V c).after 4 t = (statsAt1 V c t.val t.isLt).2.1 := by dsimp only [dat1]

theorem before1_0 (c : Dev nD) (t : Fin cfg1.N) (d) : (dat1 V c).before 0 t d = blk1 V c 0 t :=
  before1_0_of V (dat1 V c) (dat1_A V c 0) (dat1_after_0 V c) t d
theorem before1_1 (c : Dev nD) (t : Fin cfg1.N) (d) : (dat1 V c).before 1 t d = blk1 V c 1 t :=
  before1_1_of V (dat1 V c) (dat1_A V c 1) (dat1_after_1 V c) t d
theorem before1_2 (c : Dev nD) (t : Fin cfg1.N) (d) : (dat1 V c).before 2 t d = blk1 V c 2 t :=
  before1_2_of V (dat1 V c) (dat1_A V c 2) (dat1_after_2 V c) t d

end

section
variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (stage1_0 t) fullShare ((dat1 V c).before 0 t d))
    ∗ (∃ d, owns (c : Thread nD τ) (stage1_1 t) fullShare ((dat1 V c).before 1 t d))
    ∗ (∃ d, owns (c : Thread nD τ) (stage1_2 t) fullShare ((dat1 V c).before 2 t d))
    ∗ (∃ d, owns (c : Thread nD τ) (stage1_3 t) fullShare ((dat1 V c).before 3 t d))
    ∗ (∃ d, owns (c : Thread nD τ) (stage1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

theorem leaves1_0 (c : Dev nD) (t : Fin cfg1.N) : (dat1 V c).leavesExact 0 t = owns (c : Thread nD τ) (stage1_0 t) fullShare (blk1 V c 0 t) := by
  unfold Dat.leavesExact; rw [live1_0 t, dat1_after_0]
theorem leaves1_1 (c : Dev nD) (t : Fin cfg1.N) : (dat1 V c).leavesExact 1 t = owns (c : Thread nD τ) (stage1_1 t) fullShare (blk1 V c 1 t) := by
  unfold Dat.leavesExact; rw [live1_1 t, dat1_after_1]
theorem leaves1_2 (c : Dev nD) (t : Fin cfg1.N) : (dat1 V c).leavesExact 2 t = owns (c : Thread nD τ) (stage1_2 t) fullShare (blk1 V c 2 t) := by
  unfold Dat.leavesExact; rw [live1_2 t, dat1_after_2]

set_option maxHeartbeats 8000000 in
/-- The body at any point. The inputs' memrefs hold their blocks; the two conditions' closed forms say which case the
    point is in; the invariant hands the run the accumulators (at anything at the first point, at what the point
    before left otherwise) and takes them back at this point's contents; away from the last point the outputs'
    buffers pass through untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = carriedInv1 V c (t.val + 1) t.isLt from rfl, carriedInv1_succ]
  rw [leaves1_0, leaves1_1, leaves1_2]
  have hN : t.val < 20 := lt_of_lt_of_eq t.isLt (show cfg1.N = 20 from N_1)
  by_cases h0 : t.val % 20 = 0
  · -- the first point
    have hz : t.val = 0 := by omega
    have hf : first1 (grid1.coords t) := (first1_iff t).mpr h0
    have hl : ¬last1 (grid1.coords t) := fun h => by have := (last1_iff t).mp h; omega
    rw [Dat.leavesExact_idle (dat1 V c) 3 t (idle1_3 t hl) (noFlush1_3 t hl),
      Dat.leavesExact_idle (dat1 V c) 4 t (idle1_4 t hl) (noFlush1_4 t hl)]
    rw [statsAt1_first V c t hz hf hl]
    unfold acc0After1_first acc1After1_first; (try dsimp only)
    rw [dat1_inv_castSucc V c t, carriedInv1_zero V c _ _ hz, restingInv1_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((statsRun1_first c (grid1.coords t) _ _ _ _ _ _ _ _ _ _ _ _ _ _ hf hl (blk1 V c 0 t) (blk1 V c 1 t) (blk1 V c 2 t)).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (acc0Cover1_first c _ _ _ _ _ _ _ _ _ _ _ _ _ _ _ _ _ _ _ _)
          · unfold owns; iexists _; isplitr
            swap; · iexact HS1
            ipureintro; exact View.read_writes_of_cover _ _ _ _ _ (acc1Cover1_first c _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := fun e => h0 (by rw [e])
    have hf : ¬first1 (grid1.coords t) := fun h => h0 ((first1_iff t).mp h)
    by_cases h19 : t.val % 20 = 19
    · -- the last point
      have hl : last1 (grid1.coords t) := (last1_iff t).mpr h19
      rw [show (dat1 V c).leavesExact 3 t = owns (c : Thread nD τ) (stage1_3 t) fullShare ((dat1 V c).after 3 t) from by
        unfold Dat.leavesExact; rw [liveLast1_3 t hl], dat1_after_3]
      rw [show (dat1 V c).leavesExact 4 t = owns (c : Thread nD τ) (stage1_4 t) fullShare ((dat1 V c).after 4 t) from by
        unfold Dat.leavesExact; rw [liveLast1_4 t hl], dat1_after_4]
      rw [statsAt1_last V c t hz h19 hf hl]
      unfold out3After1_last out4After1_last acc0After1_last acc1After1_last; (try dsimp only)
      rw [dat1_inv_castSucc V c t, carriedInv1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((statsRun1_last c (grid1.coords t) _ _ _ _ _ _ _ _ _ _ _ _ _ _ hf hl (blk1 V c 0 t) (blk1 V c 1 t) (blk1 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (acc0Cover1_last c _ _ _ _ _ _ _ _ _ _ _ _ _ _ _ _ _ _ _ _ _ _)
            · unfold owns; iexists _; isplitr
              swap; · iexact HS1
              ipureintro; exact View.read_writes_of_cover _ _ _ _ _ (acc1Cover1_last c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (out3Cover1_last c _ _ _ _ _ _ _ _ _ _ _ _ _ _ _ _ _ _ _ _ _ _)
      unfold owns; iexists _; isplitr
      swap; · iexact H4
      ipureintro; exact View.read_writes_of_cover _ _ _ _ _ (out4Cover1_last c _ _ _ _ _ _ _ _ _ _ _ _ _ _ _ _ _ _ _ _ _ _)
    · -- a middle point
      have hl : ¬last1 (grid1.coords t) := fun h => h19 ((last1_iff t).mp h)
      rw [Dat.leavesExact_idle (dat1 V c) 3 t (idle1_3 t hl) (noFlush1_3 t hl),
        Dat.leavesExact_idle (dat1 V c) 4 t (idle1_4 t hl) (noFlush1_4 t hl)]
      rw [statsAt1_mid V c t hz h19 hf hl]
      unfold acc0After1_mid acc1After1_mid; (try dsimp only)
      rw [dat1_inv_castSucc V c t, carriedInv1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((statsRun1_mid c (grid1.coords t) _ _ _ _ _ _ _ _ _ _ _ _ _ _ hf hl (blk1 V c 0 t) (blk1 V c 1 t) (blk1 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (acc0Cover1_mid c _ _ _ _ _ _ _ _ _ _ _ _ _ _ _ _ _ _ _ _ _ _)
            · unfold owns; iexists _; isplitr
              swap; · iexact HS1
              ipureintro; exact View.read_writes_of_cover _ _ _ _ _ (acc1Cover1_mid c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem inv1_in (c : Dev nD) : Pipeline.ΦA spec1 c ⊢ (dat1 V c).Φ 0 := by
  rw [show (dat1 V c).Φ 0 = carriedInv1 V c 0 (Nat.zero_le _) from rfl, carriedInv1_zero V c 0 _ rfl]
  try exact Idealize.SL.BI.Entails.refl _

/-- After the last point the invariant gives the resting one back: the accumulators' named contents are forgotten. -/
theorem inv1_out (c : Dev nD) : (dat1 V c).Φ (Fin.last cfg1.N) ⊢ Pipeline.ΦA spec1 c := by
  have hne : (Fin.last cfg1.N).val ≠ 0 := by rw [Fin.val_last]; have : cfg1.N = 20 := N_1; omega
  rw [show (dat1 V c).Φ (Fin.last cfg1.N) = carriedInv1 V c (Fin.last cfg1.N).val (Nat.le_of_lt_succ (Fin.last cfg1.N).isLt) from rfl,
    carriedInv1_pos V c _ _ hne, restingInv1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.KernelIdeal.Hand

end
-- ==== Proof.KI.StatsBase3.lean ====
/-
  The column-statistics kernel of region 3: what its three control cases share.

  The kernel walks the `[100000, 128]` array of aggregated features in 20 blocks of 5000 rows. At every point it forms
  `y = block · dinv + b` (each row scaled by its node's degree factor, the bias added) and adds the column sums of `y`
  and of `y · y` to two `[1, 128]` accumulators that live in scratch memory between points. The first point zeroes the
  accumulators before adding; the last point copies them to the two `[1, 128]` outputs after adding. So the grid splits
  into three cases — first point, middle points, last point — told apart by two conditions on the grid coordinate,
  which are decided here once over the twenty points.
-/
import proofs.«156713_j13589276524898_2_alg».proof.Proof.Gen.KernelIdeal.Launch
import proofs.«156713_j13589276524898_2_alg».proof.Proof.Gen.KernelIdeal.Skeleton
import proofs.«156713_j13589276524898_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not (unfetched, the block index has not moved). -/
theorem before3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Input window 1's staging buffer holds its block at every point, fetched there or not (unfetched, the block index has not moved). -/
theorem before3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- Input window 2's staging buffer holds its block at every point, fetched there or not (unfetched, the block index has not moved). -/
theorem before3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

end

/-! ## The two conditions -/

/-- "This is the first point": the body's first branch condition, from the grid coordinate. -/
abbrev first3 (i : grid3.Coords) : Prop := (Scalar.cmpi .ne (Scalar.extui (Scalar.cmpi .eq (BitVec.ofNat 32 (i 0).val) 0#32)) 0#32) = 1#1
theorem first3_iff : ∀ t : Fin cfg3.N, first3 (grid3.coords t) ↔ t.val % 20 = 0 :=
  (by decide +kernel : ∀ t : Fin grid3.N, first3 (grid3.coords t) ↔ t.val % 20 = 0)

/-- "This is the last point": the body's second branch condition. -/
abbrev last3 (i : grid3.Coords) : Prop := k3_cond2 i = 1#1
theorem last3_iff : ∀ t : Fin cfg3.N, last3 (grid3.coords t) ↔ t.val % 20 = 19 :=
  (by decide +kernel : ∀ t : Fin grid3.N, last3 (grid3.coords t) ↔ t.val % 20 = 19)

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Away from the last point the two outputs are idle (the body stores nothing into them) and are not written back. -/
theorem idle3_3 : ∀ t : Fin cfg3.N, ¬last3 (grid3.coords t) → cfg3.idle 3 (grid3.coords t) = true := by decide +kernel
theorem idle3_4 : ∀ t : Fin cfg3.N, ¬last3 (grid3.coords t) → cfg3.idle 4 (grid3.coords t) = true := by decide +kernel
theorem noFlush3_3 : ∀ t : Fin cfg3.N, ¬last3 (grid3.coords t) → (cfg3.win 3).flush t = false := by decide +kernel
theorem noFlush3_4 : ∀ t : Fin cfg3.N, ¬last3 (grid3.coords t) → (cfg3.win 4).flush t = false := by decide +kernel
/-- At the last point they are live. -/
theorem liveLast3_3 : ∀ t : Fin cfg3.N, last3 (grid3.coords t) → cfg3.idle 3 (grid3.coords t) = false := by decide +kernel
theorem liveLast3_4 : ∀ t : Fin cfg3.N, last3 (grid3.coords t) → cfg3.idle 4 (grid3.coords t) = false := by decide +kernel

/-! ## The memrefs the body is called with -/

/-- One staging buffer of each output window, through which its contents are stated. -/
abbrev outView3_3 : View sig .tc .vmem S1x128 .f32 := (Memref.whole cc3_stg3_0 : Memref sig .tc .vmem S1x128 .f32).view
abbrev outView3_4 : View sig .tc .vmem S1x128 .f32 := (Memref.whole cc3_stg4_0 : Memref sig .tc .vmem S1x128 .f32).view
abbrev stage3_0 (t : Fin cfg3.N) : Memref sig .tc .vmem S5000x128 .f32 := win3_0.stage (cfg3.slots t 0)
abbrev stageWhole3_0 (t : Fin cfg3.N) : (stage3_0 t).IsWhole := hstage3_0 ((cfg3.slots t 0).cast nbuf3_0)
abbrev stage3_1 (t : Fin cfg3.N) : Memref sig .tc .vmem S5000x1 .f32 := win3_1.stage (cfg3.slots t 1)
abbrev stageWhole3_1 (t : Fin cfg3.N) : (stage3_1 t).IsWhole := hstage3_1 ((cfg3.slots t 1).cast nbuf3_1)
abbrev stage3_2 (t : Fin cfg3.N) : Memref sig .tc .vmem S1x128 .f32 := win3_2.stage (cfg3.slots t 2)
abbrev stageWhole3_2 (t : Fin cfg3.N) : (stage3_2 t).IsWhole := hstage3_2 ((cfg3.slots t 2).cast nbuf3_2)
abbrev stage3_3 (t : Fin cfg3.N) : Memref sig .tc .vmem S1x128 .f32 := win3_3.stage (cfg3.slots t 3)
abbrev stageWhole3_3 (t : Fin cfg3.N) : (stage3_3 t).IsWhole := hstage3_3 ((cfg3.slots t 3).cast nbuf3_3)
abbrev stage3_4 (t : Fin cfg3.N) : Memref sig .tc .vmem S1x128 .f32 := win3_4.stage (cfg3.slots t 4)
abbrev stageWhole3_4 (t : Fin cfg3.N) : (stage3_4 t).IsWhole := hstage3_4 ((cfg3.slots t 4).cast nbuf3_4)
/-- The two accumulators: whole scoped buffers of the kernel's own. -/
abbrev acc3_0 : Memref sig .tc .vmem S1x128 .f32 := Memref.whole cc3_scratch0
abbrev acc3_1 : Memref sig .tc .vmem S1x128 .f32 := Memref.whole cc3_scratch1
abbrev accView3_0 : View sig .tc .vmem S1x128 .f32 := acc3_0.view
abbrev accView3_1 : View sig .tc .vmem S1x128 .f32 := acc3_1.view

/-- The region's resting invariant with the two accumulators taken out of the scoped buffers no window stages:
    each owned whole at some contents, the remaining scoped buffers unopened, the generator register at some state. -/
theorem restingInv3_eq (c : Dev nD) :
    (Pipeline.ΦA spec3 c : sProp 𝕄)
      = iprop(iprop(iprop((∃ d, owns (c : Thread nD τ) acc3_0 fullShare d) ∗ (∃ d, owns (c : Thread nD τ) acc3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [acc3_0, acc3_1, owns_whole]; try rfl

end Cert.KernelIdeal.Hand

end
-- ==== Proof.KI.StatsRunFirst3.lean ====
/-
  The column-statistics kernel of region 3 at the FIRST grid point: both accumulators are stored whole with zeros
  and then with zero plus this block's column sums; the outputs are not touched. What the accumulators end
  with is found by running the body symbolically; the pieces written are the witness.
-/
import proofs.«156713_j13589276524898_2_alg».proof.Proof.KI.StatsBase3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point, on whole memrefs: the three inputs at their contents, the two outputs at contents handed
    back untouched, the accumulators at anything; it ends with each accumulator holding its pieces. -/
noncomputable def statsRun3_first (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first3 i) (hl : ¬last3 i)
    (x0 : Vec F S5000x128 .f32) (x1 : Vec F S5000x1 .f32) (x2 : Vec F S1x128 .f32) :
    Σ' (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__stats_kernel i arg1 harg1 arg2 harg2 arg3 harg3 arg4 harg4 arg5 harg5 arg6 harg6 arg7 harg7) K } := by
  refine ⟨?_, ?_, fun xi3 xi4 E K => ?run⟩
  case run =>
    simp only [cc3__stats_kernel_eq_skeleton]; unfold cc3__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KI.StatsRunMid3.lean ====
/-
  The column-statistics kernel of region 3 at a MIDDLE grid point: each accumulator, holding what the point before
  left, is stored whole with that plus this block's column sums; the outputs are not touched.
-/
import proofs.«156713_j13589276524898_2_alg».proof.Proof.KI.StatsRunFirst3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point, on whole memrefs: inputs at their contents, outputs handed back untouched, the
    accumulators at the contents carried in; it ends with each accumulator holding its pieces. -/
noncomputable def statsRun3_mid (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : ¬last3 i)
    (x0 : Vec F S5000x128 .f32) (x1 : Vec F S5000x1 .f32) (x2 : Vec F S1x128 .f32) (xs0 xs1 : Vec F S1x128 .f32) :
    Σ' (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__stats_kernel i arg1 harg1 arg2 harg2 arg3 harg3 arg4 harg4 arg5 harg5 arg6 harg6 arg7 harg7) K } := by
  refine ⟨?_, ?_, fun xi3 xi4 E K => ?run⟩
  case run =>
    simp only [cc3__stats_kernel_eq_skeleton]; unfold cc3__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs0; obtain rfl := harg7.eq_unread hfs1
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Hand

end
-- ==== Proof.KI.StatsRunLast3.lean ====
/-
  The column-statistics kernel of region 3 at the LAST grid point: each accumulator is stored whole with what the
  point before left plus this block's column sums, and then copied whole into its output.
-/
import proofs.«156713_j13589276524898_2_alg».proof.Proof.KI.StatsRunMid3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point, on whole memrefs: inputs at their contents, outputs at anything, the accumulators at
    the contents carried in; it ends with each output and each accumulator holding its pieces. -/
noncomputable def statsRun3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) :
    Σ' (L3 : List (View.Piece (Elt F) S1x128 .f32)) (L4 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__stats_kernel i arg1 harg1 arg2 harg2 arg3 harg3 arg4 harg4 arg5 harg5 arg6 harg6 arg7 harg7) K } := by
  refine ⟨?_, ?_, ?_, ?_, fun E K => ?run⟩
  case run =>
    simp only [cc3__stats_kernel_eq_skeleton]; unfold cc3__stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.Stats3.lean ====
/-
  The column-statistics region 3: what the accumulators and the outputs hold after each grid point, the region's
  invariant, its proof data and the body obligation.

  After point 0 each accumulator holds what the first-point run leaves (zero plus block 0's column sums); after
  point n + 1 what the middle- or last-point run leaves from the contents after point n. The outputs are written at
  the last point only (a copy of the accumulators); at every other point their windows are idle and their buffers
  are handed back as found. Between points the invariant keeps the two accumulators at these named contents beside
  the scoped buffers the region does not use and the generator register.
-/
import proofs.«156713_j13589276524898_2_alg».proof.Proof.KI.StatsRunLast3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The first point's pieces for accumulator 0 cover it (one whole-buffer store after another). -/
theorem acc0Cover3_first (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first3 i) (hl : ¬last3 i)
    (x0 : Vec F S5000x128 .f32) (x1 : Vec F S5000x1 .f32) (x2 : Vec F S1x128 .f32)  (y : S1x128.Idx) :
    ∃ pc ∈ (statsRun3_first c i arg1 harg1 arg2 harg2 arg3 harg3 arg4 harg4 arg5 harg5 arg6 harg6 arg7 harg7 hf hl x0 x1 x2 ).1, y ∈ pc.1.set :=
  View.cover_of_tiledL (statsRun3_first c i arg1 harg1 arg2 harg2 arg3 harg3 arg4 harg4 arg5 harg5 arg6 harg6 arg7 harg7 hf hl x0 x1 x2 ).1 S1x128.size (by sl_kernel_rfl) y

def acc0After3_first (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first3 i) (hl : ¬last3 i)
    (x0 : Vec F S5000x128 .f32) (x1 : Vec F S5000x1 .f32) (x2 : Vec F S1x128 .f32)  : Vec F S1x128 .f32 :=
  accView3_0.read (Elt F) (accView3_0.writes (Elt F) accView3_0.junk (statsRun3_first c i arg1 harg1 arg2 harg2 arg3 harg3 arg4 harg4 arg5 harg5 arg6 harg6 arg7 harg7 hf hl x0 x1 x2 ).1)

/-- The first point's pieces for accumulator 1 cover it. -/
theorem acc1Cover3_first (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first3 i) (hl : ¬last3 i)
    (x0 : Vec F S5000x128 .f32) (x1 : Vec F S5000x1 .f32) (x2 : Vec F S1x128 .f32)  (y : S1x128.Idx) :
    ∃ pc ∈ (statsRun3_first c i arg1 harg1 arg2 harg2 arg3 harg3 arg4 harg4 arg5 harg5 arg6 harg6 arg7 harg7 hf hl x0 x1 x2 ).2.1, y ∈ pc.1.set :=
  View.cover_of_tiledL (statsRun3_first c i arg1 harg1 arg2 harg2 arg3 harg3 arg4 harg4 arg5 harg5 arg6 harg6 arg7 harg7 hf hl x0 x1 x2 ).2.1 S1x128.size (by sl_kernel_rfl) y

def acc1After3_first (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first3 i) (hl : ¬last3 i)
    (x0 : Vec F S5000x128 .f32) (x1 : Vec F S5000x1 .f32) (x2 : Vec F S1x128 .f32)  : Vec F S1x128 .f32 :=
  accView3_1.read (Elt F) (accView3_1.writes (Elt F) accView3_1.junk (statsRun3_first c i arg1 harg1 arg2 harg2 arg3 harg3 arg4 harg4 arg5 harg5 arg6 harg6 arg7 harg7 hf hl x0 x1 x2 ).2.1)

/-- A middle point's pieces for accumulator 0 cover it. -/
theorem acc0Cover3_mid (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : ¬last3 i)
    (x0 : Vec F S5000x128 .f32) (x1 : Vec F S5000x1 .f32) (x2 : Vec F S1x128 .f32) (xs0 xs1 : Vec F S1x128 .f32) (y : S1x128.Idx) :
    ∃ pc ∈ (statsRun3_mid c i arg1 harg1 arg2 harg2 arg3 harg3 arg4 harg4 arg5 harg5 arg6 harg6 arg7 harg7 hf hl x0 x1 x2 xs0 xs1).1, y ∈ pc.1.set :=
  View.cover_of_tiledL (statsRun3_mid c i arg1 harg1 arg2 harg2 arg3 harg3 arg4 harg4 arg5 harg5 arg6 harg6 arg7 harg7 hf hl x0 x1 x2 xs0 xs1).1 S1x128.size (by sl_kernel_rfl) y

def acc0After3_mid (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : ¬last3 i)
    (x0 : Vec F S5000x128 .f32) (x1 : Vec F S5000x1 .f32) (x2 : Vec F S1x128 .f32) (xs0 xs1 : Vec F S1x128 .f32) : Vec F S1x128 .f32 :=
  accView3_0.read (Elt F) (accView3_0.writes (Elt F) accView3_0.junk (statsRun3_mid c i arg1 harg1 arg2 harg2 arg3 harg3 arg4 harg4 arg5 harg5 arg6 harg6 arg7 harg7 hf hl x0 x1 x2 xs0 xs1).1)

/-- A middle point's pieces for accumulator 1 cover it. -/
theorem acc1Cover3_mid (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : ¬last3 i)
    (x0 : Vec F S5000x128 .f32) (x1 : Vec F S5000x1 .f32) (x2 : Vec F S1x128 .f32) (xs0 xs1 : Vec F S1x128 .f32) (y : S1x128.Idx) :
    ∃ pc ∈ (statsRun3_mid c i arg1 harg1 arg2 harg2 arg3 harg3 arg4 harg4 arg5 harg5 arg6 harg6 arg7 harg7 hf hl x0 x1 x2 xs0 xs1).2.1, y ∈ pc.1.set :=
  View.cover_of_tiledL (statsRun3_mid c i arg1 harg1 arg2 harg2 arg3 harg3 arg4 harg4 arg5 harg5 arg6 harg6 arg7 harg7 hf hl x0 x1 x2 xs0 xs1).2.1 S1x128.size (by sl_kernel_rfl) y

def acc1After3_mid (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : ¬last3 i)
    (x0 : Vec F S5000x128 .f32) (x1 : Vec F S5000x1 .f32) (x2 : Vec F S1x128 .f32) (xs0 xs1 : Vec F S1x128 .f32) : Vec F S1x128 .f32 :=
  accView3_1.read (Elt F) (accView3_1.writes (Elt F) accView3_1.junk (statsRun3_mid c i arg1 harg1 arg2 harg2 arg3 harg3 arg4 harg4 arg5 harg5 arg6 harg6 arg7 harg7 hf hl x0 x1 x2 xs0 xs1).2.1)

/-- The last point's pieces for output 3 (the column sums) cover it. -/
theorem out3Cover3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) (y : S1x128.Idx) :
    ∃ pc ∈ (statsRun3_last c i arg1 harg1 arg2 harg2 arg3 harg3 arg4 harg4 arg5 harg5 arg6 harg6 arg7 harg7 hf hl x0 x1 x2 xs0 xs1).1, y ∈ pc.1.set :=
  View.cover_of_tiledL (statsRun3_last c i arg1 harg1 arg2 harg2 arg3 harg3 arg4 harg4 arg5 harg5 arg6 harg6 arg7 harg7 hf hl x0 x1 x2 xs0 xs1).1 S1x128.size (by sl_kernel_rfl) y

def out3After3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) : Vec F S1x128 .f32 :=
  outView3_3.read (Elt F) (outView3_3.writes (Elt F) outView3_3.junk (statsRun3_last c i arg1 harg1 arg2 harg2 arg3 harg3 arg4 harg4 arg5 harg5 arg6 harg6 arg7 harg7 hf hl x0 x1 x2 xs0 xs1).1)

/-- The last point's pieces for output 4 (the column sums of squares) cover it. -/
theorem out4Cover3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) (y : S1x128.Idx) :
    ∃ pc ∈ (statsRun3_last c i arg1 harg1 arg2 harg2 arg3 harg3 arg4 harg4 arg5 harg5 arg6 harg6 arg7 harg7 hf hl x0 x1 x2 xs0 xs1).2.1, y ∈ pc.1.set :=
  View.cover_of_tiledL (statsRun3_last c i arg1 harg1 arg2 harg2 arg3 harg3 arg4 harg4 arg5 harg5 arg6 harg6 arg7 harg7 hf hl x0 x1 x2 xs0 xs1).2.1 S1x128.size (by sl_kernel_rfl) y

def out4After3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) : Vec F S1x128 .f32 :=
  outView3_4.read (Elt F) (outView3_4.writes (Elt F) outView3_4.junk (statsRun3_last c i arg1 harg1 arg2 harg2 arg3 harg3 arg4 harg4 arg5 harg5 arg6 harg6 arg7 harg7 hf hl x0 x1 x2 xs0 xs1).2.1)

/-- The last point's pieces for accumulator 0 cover it. -/
theorem acc0Cover3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) (y : S1x128.Idx) :
    ∃ pc ∈ (statsRun3_last c i arg1 harg1 arg2 harg2 arg3 harg3 arg4 harg4 arg5 harg5 arg6 harg6 arg7 harg7 hf hl x0 x1 x2 xs0 xs1).2.2.1, y ∈ pc.1.set :=
  View.cover_of_tiledL (statsRun3_last c i arg1 harg1 arg2 harg2 arg3 harg3 arg4 harg4 arg5 harg5 arg6 harg6 arg7 harg7 hf hl x0 x1 x2 xs0 xs1).2.2.1 S1x128.size (by sl_kernel_rfl) y

def acc0After3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) : Vec F S1x128 .f32 :=
  accView3_0.read (Elt F) (accView3_0.writes (Elt F) accView3_0.junk (statsRun3_last c i arg1 harg1 arg2 harg2 arg3 harg3 arg4 harg4 arg5 harg5 arg6 harg6 arg7 harg7 hf hl x0 x1 x2 xs0 xs1).2.2.1)

/-- The last point's pieces for accumulator 1 cover it. -/
theorem acc1Cover3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) (y : S1x128.Idx) :
    ∃ pc ∈ (statsRun3_last c i arg1 harg1 arg2 harg2 arg3 harg3 arg4 harg4 arg5 harg5 arg6 harg6 arg7 harg7 hf hl x0 x1 x2 xs0 xs1).2.2.2.1, y ∈ pc.1.set :=
  View.cover_of_tiledL (statsRun3_last c i arg1 harg1 arg2 harg2 arg3 harg3 arg4 harg4 arg5 harg5 arg6 harg6 arg7 harg7 hf hl x0 x1 x2 xs0 xs1).2.2.2.1 S1x128.size (by sl_kernel_rfl) y

def acc1After3_last (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) : Vec F S1x128 .f32 :=
  accView3_1.read (Elt F) (accView3_1.writes (Elt F) accView3_1.junk (statsRun3_last c i arg1 harg1 arg2 harg2 arg3 harg3 arg4 harg4 arg5 harg5 arg6 harg6 arg7 harg7 hf hl x0 x1 x2 xs0 xs1).2.2.2.1)

/-- What an idle output's buffer is said to hold where nothing consults it. -/
def idleOut3_3 : Vec F S1x128 .f32 := outView3_3.read (Elt F) outView3_3.junk
def idleOut3_4 : Vec F S1x128 .f32 := outView3_4.read (Elt F) outView3_4.junk

section
variable (V : (c : Dev nD) → (b : Ref sig .tc) → Buf (Elt F) ((c : Thread nD τ).loc b))

/-! ## Point by point -/

theorem notLast3_zero (hn : 0 < cfg3.N) : ¬last3 (grid3.coords ⟨0, hn⟩) := fun h => by
  have := (last3_iff ⟨0, hn⟩).mp h; (try dsimp only at this); omega

theorem notFirst3_succ (n : ℕ) (hn : n + 1 < cfg3.N) : ¬first3 (grid3.coords ⟨n + 1, hn⟩) := fun h => by
  have h0 := (first3_iff ⟨n + 1, hn⟩).mp h
  have hN : n + 1 < 20 := lt_of_lt_of_eq hn (show cfg3.N = 20 from N_3)
  (try dsimp only at h0); omega

/-- THE ACCUMULATION: (output 3, output 4, accumulator 0, accumulator 1) after the body at point `n`. -/
def statsAt3 (c : Dev nD) : (n : ℕ) → n < cfg3.N → Vec F S1x128 .f32 × Vec F S1x128 .f32 × Vec F S1x128 .f32 × Vec F S1x128 .f32
  | 0, hn => (idleOut3_3, idleOut3_4,
      acc0After3_first c (grid3.coords ⟨0, hn⟩) (stage3_0 ⟨0, hn⟩) (stageWhole3_0 ⟨0, hn⟩) (stage3_1 ⟨0, hn⟩) (stageWhole3_1 ⟨0, hn⟩) (stage3_2 ⟨0, hn⟩) (stageWhole3_2 ⟨0, hn⟩) (stage3_3 ⟨0, hn⟩) (stageWhole3_3 ⟨0, hn⟩) (stage3_4 ⟨0, hn⟩) (stageWhole3_4 ⟨0, hn⟩) acc3_0 (Memref.isWhole_whole _) acc3_1 (Memref.isWhole_whole _) ((first3_iff ⟨0, hn⟩).mpr (Nat.zero_mod _)) (notLast3_zero hn) (blk3 V c 0 ⟨0, hn⟩) (blk3 V c 1 ⟨0, hn⟩) (blk3 V c 2 ⟨0, hn⟩),
      acc1After3_first c (grid3.coords ⟨0, hn⟩) (stage3_0 ⟨0, hn⟩) (stageWhole3_0 ⟨0, hn⟩) (stage3_1 ⟨0, hn⟩) (stageWhole3_1 ⟨0, hn⟩) (stage3_2 ⟨0, hn⟩) (stageWhole3_2 ⟨0, hn⟩) (stage3_3 ⟨0, hn⟩) (stageWhole3_3 ⟨0, hn⟩) (stage3_4 ⟨0, hn⟩) (stageWhole3_4 ⟨0, hn⟩) acc3_0 (Memref.isWhole_whole _) acc3_1 (Memref.isWhole_whole _) ((first3_iff ⟨0, hn⟩).mpr (Nat.zero_mod _)) (notLast3_zero hn) (blk3 V c 0 ⟨0, hn⟩) (blk3 V c 1 ⟨0, hn⟩) (blk3 V c 2 ⟨0, hn⟩))
  | n + 1, hn =>
    if h19 : (n + 1) % 20 = 19 then
      (out3After3_last c (grid3.coords ⟨n + 1, hn⟩) (stage3_0 ⟨n + 1, hn⟩) (stageWhole3_0 ⟨n + 1, hn⟩) (stage3_1 ⟨n + 1, hn⟩) (stageWhole3_1 ⟨n + 1, hn⟩) (stage3_2 ⟨n + 1, hn⟩) (stageWhole3_2 ⟨n + 1, hn⟩) (stage3_3 ⟨n + 1, hn⟩) (stageWhole3_3 ⟨n + 1, hn⟩) (stage3_4 ⟨n + 1, hn⟩) (stageWhole3_4 ⟨n + 1, hn⟩) acc3_0 (Memref.isWhole_whole _) acc3_1 (Memref.isWhole_whole _) (notFirst3_succ n hn) ((last3_iff ⟨n + 1, hn⟩).mpr h19) (blk3 V c 0 ⟨n + 1, hn⟩) (blk3 V c 1 ⟨n + 1, hn⟩) (blk3 V c 2 ⟨n + 1, hn⟩) (statsAt3 c n (Nat.lt_of_succ_lt hn)).2.2.1 (statsAt3 c n (Nat.lt_of_succ_lt hn)).2.2.2,
       out4After3_last c (grid3.coords ⟨n + 1, hn⟩) (stage3_0 ⟨n + 1, hn⟩) (stageWhole3_0 ⟨n + 1, hn⟩) (stage3_1 ⟨n + 1, hn⟩) (stageWhole3_1 ⟨n + 1, hn⟩) (stage3_2 ⟨n + 1, hn⟩) (stageWhole3_2 ⟨n + 1, hn⟩) (stage3_3 ⟨n + 1, hn⟩) (stageWhole3_3 ⟨n + 1, hn⟩) (stage3_4 ⟨n + 1, hn⟩) (stageWhole3_4 ⟨n + 1, hn⟩) acc3_0 (Memref.isWhole_whole _) acc3_1 (Memref.isWhole_whole _) (notFirst3_succ n hn) ((last3_iff ⟨n + 1, hn⟩).mpr h19) (blk3 V c 0 ⟨n + 1, hn⟩) (blk3 V c 1 ⟨n + 1, hn⟩) (blk3 V c 2 ⟨n + 1, hn⟩) (statsAt3 c n (Nat.lt_of_succ_lt hn)).2.2.1 (statsAt3 c n (Nat.lt_of_succ_lt hn)).2.2.2,
       acc0After3_last c (grid3.coords ⟨n + 1, hn⟩) (stage3_0 ⟨n + 1, hn⟩) (stageWhole3_0 ⟨n + 1, hn⟩) (stage3_1 ⟨n + 1, hn⟩) (stageWhole3_1 ⟨n + 1, hn⟩) (stage3_2 ⟨n + 1, hn⟩) (stageWhole3_2 ⟨n + 1, hn⟩) (stage3_3 ⟨n + 1, hn⟩) (stageWhole3_3 ⟨n + 1, hn⟩) (stage3_4 ⟨n + 1, hn⟩) (stageWhole3_4 ⟨n + 1, hn⟩) acc3_0 (Memref.isWhole_whole _) acc3_1 (Memref.isWhole_whole _) (notFirst3_succ n hn) ((last3_iff ⟨n + 1, hn⟩).mpr h19) (blk3 V c 0 ⟨n + 1, hn⟩) (blk3 V c 1 ⟨n + 1, hn⟩) (blk3 V c 2 ⟨n + 1, hn⟩) (statsAt3 c n (Nat.lt_of_succ_lt hn)).2.2.1 (statsAt3 c n (Nat.lt_of_succ_lt hn)).2.2.2,
       acc1After3_last c (grid3.coords ⟨n + 1, hn⟩) (stage3_0 ⟨n + 1, hn⟩) (stageWhole3_0 ⟨n + 1, hn⟩) (stage3_1 ⟨n + 1, hn⟩) (stageWhole3_1 ⟨n + 1, hn⟩) (stage3_2 ⟨n + 1, hn⟩) (stageWhole3_2 ⟨n + 1, hn⟩) (stage3_3 ⟨n + 1, hn⟩) (stageWhole3_3 ⟨n + 1, hn⟩) (stage3_4 ⟨n + 1, hn⟩) (stageWhole3_4 ⟨n + 1, hn⟩) acc3_0 (Memref.isWhole_whole _) acc3_1 (Memref.isWhole_whole _) (notFirst3_succ n hn) ((last3_iff ⟨n + 1, hn⟩).mpr h19) (blk3 V c 0 ⟨n + 1, hn⟩) (blk3 V c 1 ⟨n + 1, hn⟩) (blk3 V c 2 ⟨n + 1, hn⟩) (statsAt3 c n (Nat.lt_of_succ_lt hn)).2.2.1 (statsAt3 c n (Nat.lt_of_succ_lt hn)).2.2.2)
    else
      (idleOut3_3, idleOut3_4,
       acc0After3_mid c (grid3.coords ⟨n + 1, hn⟩) (stage3_0 ⟨n + 1, hn⟩) (stageWhole3_0 ⟨n + 1, hn⟩) (stage3_1 ⟨n + 1, hn⟩) (stageWhole3_1 ⟨n + 1, hn⟩) (stage3_2 ⟨n + 1, hn⟩) (stageWhole3_2 ⟨n + 1, hn⟩) (stage3_3 ⟨n + 1, hn⟩) (stageWhole3_3 ⟨n + 1, hn⟩) (stage3_4 ⟨n + 1, hn⟩) (stageWhole3_4 ⟨n + 1, hn⟩) acc3_0 (Memref.isWhole_whole _) acc3_1 (Memref.isWhole_whole _) (notFirst3_succ n hn) (fun h => h19 ((last3_iff ⟨n + 1, hn⟩).mp h)) (blk3 V c 0 ⟨n + 1, hn⟩) (blk3 V c 1 ⟨n + 1, hn⟩) (blk3 V c 2 ⟨n + 1, hn⟩) (statsAt3 c n (Nat.lt_of_succ_lt hn)).2.2.1 (statsAt3 c n (Nat.lt_of_succ_lt hn)).2.2.2,
       acc1After3_mid c (grid3.coords ⟨n + 1, hn⟩) (stage3_0 ⟨n + 1, hn⟩) (stageWhole3_0 ⟨n + 1, hn⟩) (stage3_1 ⟨n + 1, hn⟩) (stageWhole3_1 ⟨n + 1, hn⟩) (stage3_2 ⟨n + 1, hn⟩) (stageWhole3_2 ⟨n + 1, hn⟩) (stage3_3 ⟨n + 1, hn⟩) (stageWhole3_3 ⟨n + 1, hn⟩) (stage3_4 ⟨n + 1, hn⟩) (stageWhole3_4 ⟨n + 1, hn⟩) acc3_0 (Memref.isWhole_whole _) acc3_1 (Memref.isWhole_whole _) (notFirst3_succ n hn) (fun h => h19 ((last3_iff ⟨n + 1, hn⟩).mp h)) (blk3 V c 0 ⟨n + 1, hn⟩) (blk3 V c 1 ⟨n + 1, hn⟩) (blk3 V c 2 ⟨n + 1, hn⟩) (statsAt3 c n (Nat.lt_of_succ_lt hn)).2.2.1 (statsAt3 c n (Nat.lt_of_succ_lt hn)).2.2.2)

/-- At the first point: the first-point run's contents. -/
theorem statsAt3_first (c : Dev nD) (t : Fin cfg3.N) (h0 : t.val = 0) (hf : first3 (grid3.coords t)) (hl : ¬last3 (grid3.coords t)) :
    statsAt3 V c t.val t.isLt = (idleOut3_3, idleOut3_4,
      acc0After3_first c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t),
      acc1After3_first c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t)) := by
  obtain ⟨n, hn⟩ := t
  cases n with
  | zero => rfl
  | succ n => exact absurd h0 (Nat.succ_ne_zero n)

/-- At a middle point: the middle-point run's contents over what the point before left. -/
theorem statsAt3_mid (c : Dev nD) (t : Fin cfg3.N) (h0 : t.val ≠ 0) (h19 : ¬t.val % 20 = 19) (hf : ¬first3 (grid3.coords t)) (hl : ¬last3 (grid3.coords t)) :
    statsAt3 V c t.val t.isLt = (idleOut3_3, idleOut3_4,
      acc0After3_mid c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t) (statsAt3 V c (t.val - 1) (Nat.lt_of_le_of_lt (Nat.sub_le _ _) t.isLt)).2.2.1 (statsAt3 V c (t.val - 1) (Nat.lt_of_le_of_lt (Nat.sub_le _ _) t.isLt)).2.2.2,
      acc1After3_mid c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t) (statsAt3 V c (t.val - 1) (Nat.lt_of_le_of_lt (Nat.sub_le _ _) t.isLt)).2.2.1 (statsAt3 V c (t.val - 1) (Nat.lt_of_le_of_lt (Nat.sub_le _ _) t.isLt)).2.2.2) := by
  obtain ⟨n, hn⟩ := t
  cases n with
  | zero => exact absurd rfl h0
  | succ n => exact (dif_neg h19).trans rfl

/-- At the last point: the last-point run's contents over what the point before left. -/
theorem statsAt3_last (c : Dev nD) (t : Fin cfg3.N) (h0 : t.val ≠ 0) (h19 : t.val % 20 = 19) (hf : ¬first3 (grid3.coords t)) (hl : last3 (grid3.coords t)) :
    statsAt3 V c t.val t.isLt = (
      out3After3_last c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t) (statsAt3 V c (t.val - 1) (Nat.lt_of_le_of_lt (Nat.sub_le _ _) t.isLt)).2.2.1 (statsAt3 V c (t.val - 1) (Nat.lt_of_le_of_lt (Nat.sub_le _ _) t.isLt)).2.2.2,
      out4After3_last c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t) (statsAt3 V c (t.val - 1) (Nat.lt_of_le_of_lt (Nat.sub_le _ _) t.isLt)).2.2.1 (statsAt3 V c (t.val - 1) (Nat.lt_of_le_of_lt (Nat.sub_le _ _) t.isLt)).2.2.2,
      acc0After3_last c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t) (statsAt3 V c (t.val - 1) (Nat.lt_of_le_of_lt (Nat.sub_le _ _) t.isLt)).2.2.1 (statsAt3 V c (t.val - 1) (Nat.lt_of_le_of_lt (Nat.sub_le _ _) t.isLt)).2.2.2,
      acc1After3_last c (grid3.coords t) (stage3_0 t) (stageWhole3_0 t) (stage3_1 t) (stageWhole3_1 t) (stage3_2 t) (stageWhole3_2 t) (stage3_3 t) (stageWhole3_3 t) (stage3_4 t) (stageWhole3_4 t) acc3_0 (Memref.isWhole_whole _) acc3_1 (Memref.isWhole_whole _) hf hl (blk3 V c 0 t) (blk3 V c 1 t) (blk3 V c 2 t) (statsAt3 V c (t.val - 1) (Nat.lt_of_le_of_lt (Nat.sub_le _ _) t.isLt)).2.2.1 (statsAt3 V c (t.val - 1) (Nat.lt_of_le_of_lt (Nat.sub_le _ _) t.isLt)).2.2.2) := by
  obtain ⟨n, hn⟩ := t
  cases n with
  | zero => exact absurd rfl h0
  | succ n => exact (dif_pos h19).trans rfl

/-! ## The invariant between points -/

/-- Before point `n`: at the start the region's resting invariant (the accumulators at anything); afterwards the two
    accumulators at what point `n - 1` left, the other scoped buffers unopened, the generator register at some state. -/
def carriedInv3 (c : Dev nD) : (n : ℕ) → n ≤ cfg3.N → sProp 𝕄
  | 0, _ => Pipeline.ΦA spec3 c
  | n + 1, hn => iprop(iprop(iprop(owns (c : Thread nD τ) acc3_0 fullShare (statsAt3 V c n hn).2.2.1 ∗ owns (c : Thread nD τ) acc3_1 fullShare (statsAt3 V c n hn).2.2.2)
      ∗ Pipeline.scopedRestBut (Ix := Unit) (Name := ℕ) (U := UR sig nD τ) (Lvl := ℕ) (Val := Elt F) spec3 c [cc3_scratch0, cc3_scratch1]) ∗ (∃ r, prngReg c r))

theorem carriedInv3_zero (c : Dev nD) (n : ℕ) (h : n ≤ cfg3.N) (hz : n = 0) : carriedInv3 V c n h = Pipeline.ΦA spec3 c := by
  subst hz; rfl

theorem carriedInv3_succ (c : Dev nD) (n : ℕ) (hn : n < cfg3.N) :
    carriedInv3 V c (n + 1) hn = iprop(iprop(iprop(owns (c : Thread nD τ) acc3_0 fullShare (statsAt3 V c n hn).2.2.1 ∗ owns (c : Thread nD τ) acc3_1 fullShare (statsAt3 V c n hn).2.2.2)
      ∗ Pipeline.scopedRestBut (Ix := Unit) (Name := ℕ) (U := UR sig nD τ) (Lvl := ℕ) (Val := Elt F) spec3 c [cc3_scratch0, cc3_scratch1]) ∗ (∃ r, prngReg c r)) := rfl

theorem carriedInv3_pos (c : Dev nD) (n : ℕ) (h : n ≤ cfg3.N) (hz : n ≠ 0) :
    carriedInv3 V c n h = iprop(iprop(iprop(owns (c : Thread nD τ) acc3_0 fullShare (statsAt3 V c (n - 1) (by omega)).2.2.1 ∗ owns (c : Thread nD τ) acc3_1 fullShare (statsAt3 V c (n - 1) (by omega)).2.2.2)
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The proof data -/

/-- The arrays as the region finds them; after the body at point `t` each input's buffer at its block and the outputs'
    at the accumulation's components; the invariant the carried one; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => (statsAt3 V c t.val t.isLt).1
    | ⟨4, _⟩ => (statsAt3 V c t.val t.isLt).2.1
  Φ t := carriedInv3 V c t.val (Nat.le_of_lt_succ t.isLt)
  q _ := fullShare
  owed _ := 0

theorem dat3_A (c : Dev nD) (w : Fin cfg3.W) : (dat3 V c).A w = V c (Pipeline.arrRef spec3 w) := by
  dsimp only [dat3]

theorem dat3_inv_castSucc (c : Dev nD) (t : Fin cfg3.N) :
    (dat3 V c).Φ t.castSucc = carriedInv3 V c t.val (Nat.le_of_lt t.isLt) := by
  dsimp only [dat3]; simp only [Fin.coe_castSucc]

theorem dat3_after_0 (c : Dev nD) (t : Fin cfg3.N) : (dat3 V c).after 0 t = blk3 V c 0 t := by dsimp only [dat3]
theorem dat3_after_1 (c : Dev nD) (t : Fin cfg3.N) : (dat3 V c).after 1 t = blk3 V c 1 t := by dsimp only [dat3]
theorem dat3_after_2 (c : Dev nD) (t : Fin cfg3.N) : (dat3 V c).after 2 t = blk3 V c 2 t := by dsimp only [dat3]
theorem dat3_after_3 (c : Dev nD) (t : Fin cfg3.N) : (dat3 V c).after 3 t = (statsAt3 V c t.val t.isLt).1 := by dsimp only [dat3]
theorem dat3_after_4 (c : Dev nD) (t : Fin cfg3.N) : (dat3 V c).after 4 t = (statsAt3 V c t.val t.isLt).2.1 := by dsimp only [dat3]

theorem before3_0 (c : Dev nD) (t : Fin cfg3.N) (d) : (dat3 V c).before 0 t d = blk3 V c 0 t :=
  before3_0_of V (dat3 V c) (dat3_A V c 0) (dat3_after_0 V c) t d
theorem before3_1 (c : Dev nD) (t : Fin cfg3.N) (d) : (dat3 V c).before 1 t d = blk3 V c 1 t :=
  before3_1_of V (dat3 V c) (dat3_A V c 1) (dat3_after_1 V c) t d
theorem before3_2 (c : Dev nD) (t : Fin cfg3.N) (d) : (dat3 V c).before 2 t d = blk3 V c 2 t :=
  before3_2_of V (dat3 V c) (dat3_A V c 2) (dat3_after_2 V c) t d

end

section
variable (V : (c : Dev nD) → (b : Ref sig .tc) → Buf (Elt F) ((c : Thread nD τ).loc b))

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (stage3_0 t) fullShare ((dat3 V c).before 0 t d))
    ∗ (∃ d, owns (c : Thread nD τ) (stage3_1 t) fullShare ((dat3 V c).before 1 t d))
    ∗ (∃ d, owns (c : Thread nD τ) (stage3_2 t) fullShare ((dat3 V c).before 2 t d))
    ∗ (∃ d, owns (c : Thread nD τ) (stage3_3 t) fullShare ((dat3 V c).before 3 t d))
    ∗ (∃ d, owns (c : Thread nD τ) (stage3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t)

theorem leaves3_0 (c : Dev nD) (t : Fin cfg3.N) : (dat3 V c).leavesExact 0 t = owns (c : Thread nD τ) (stage3_0 t) fullShare (blk3 V c 0 t) := by
  unfold Dat.leavesExact; rw [live3_0 t, dat3_after_0]
theorem leaves3_1 (c : Dev nD) (t : Fin cfg3.N) : (dat3 V c).leavesExact 1 t = owns (c : Thread nD τ) (stage3_1 t) fullShare (blk3 V c 1 t) := by
  unfold Dat.leavesExact; rw [live3_1 t, dat3_after_1]
theorem leaves3_2 (c : Dev nD) (t : Fin cfg3.N) : (dat3 V c).leavesExact 2 t = owns (c : Thread nD τ) (stage3_2 t) fullShare (blk3 V c 2 t) := by
  unfold Dat.leavesExact; rw [live3_2 t, dat3_after_2]

set_option maxHeartbeats 8000000 in
/-- The body at any point. The inputs' memrefs hold their blocks; the two conditions' closed forms say which case the
    point is in; the invariant hands the run the accumulators (at anything at the first point, at what the point
    before left otherwise) and takes them back at this point's contents; away from the last point the outputs'
    buffers pass through untouched; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = carriedInv3 V c (t.val + 1) t.isLt from rfl, carriedInv3_succ]
  rw [leaves3_0, leaves3_1, leaves3_2]
  have hN : t.val < 20 := lt_of_lt_of_eq t.isLt (show cfg3.N = 20 from N_3)
  by_cases h0 : t.val % 20 = 0
  · -- the first point
    have hz : t.val = 0 := by omega
    have hf : first3 (grid3.coords t) := (first3_iff t).mpr h0
    have hl : ¬last3 (grid3.coords t) := fun h => by have := (last3_iff t).mp h; omega
    rw [Dat.leavesExact_idle (dat3 V c) 3 t (idle3_3 t hl) (noFlush3_3 t hl),
      Dat.leavesExact_idle (dat3 V c) 4 t (idle3_4 t hl) (noFlush3_4 t hl)]
    rw [statsAt3_first V c t hz hf hl]
    unfold acc0After3_first acc1After3_first; (try dsimp only)
    rw [dat3_inv_castSucc V c t, carriedInv3_zero V c _ _ hz, restingInv3_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((statsRun3_first c (grid3.coords t) _ _ _ _ _ _ _ _ _ _ _ _ _ _ hf hl (blk3 V c 0 t) (blk3 V c 1 t) (blk3 V c 2 t)).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (acc0Cover3_first c _ _ _ _ _ _ _ _ _ _ _ _ _ _ _ _ _ _ _ _)
          · unfold owns; iexists _; isplitr
            swap; · iexact HS1
            ipureintro; exact View.read_writes_of_cover _ _ _ _ _ (acc1Cover3_first c _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := fun e => h0 (by rw [e])
    have hf : ¬first3 (grid3.coords t) := fun h => h0 ((first3_iff t).mp h)
    by_cases h19 : t.val % 20 = 19
    · -- the last point
      have hl : last3 (grid3.coords t) := (last3_iff t).mpr h19
      rw [show (dat3 V c).leavesExact 3 t = owns (c : Thread nD τ) (stage3_3 t) fullShare ((dat3 V c).after 3 t) from by
        unfold Dat.leavesExact; rw [liveLast3_3 t hl], dat3_after_3]
      rw [show (dat3 V c).leavesExact 4 t = owns (c : Thread nD τ) (stage3_4 t) fullShare ((dat3 V c).after 4 t) from by
        unfold Dat.leavesExact; rw [liveLast3_4 t hl], dat3_after_4]
      rw [statsAt3_last V c t hz h19 hf hl]
      unfold out3After3_last out4After3_last acc0After3_last acc1After3_last; (try dsimp only)
      rw [dat3_inv_castSucc V c t, carriedInv3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((statsRun3_last c (grid3.coords t) _ _ _ _ _ _ _ _ _ _ _ _ _ _ hf hl (blk3 V c 0 t) (blk3 V c 1 t) (blk3 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (acc0Cover3_last c _ _ _ _ _ _ _ _ _ _ _ _ _ _ _ _ _ _ _ _ _ _)
            · unfold owns; iexists _; isplitr
              swap; · iexact HS1
              ipureintro; exact View.read_writes_of_cover _ _ _ _ _ (acc1Cover3_last c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (out3Cover3_last c _ _ _ _ _ _ _ _ _ _ _ _ _ _ _ _ _ _ _ _ _ _)
      unfold owns; iexists _; isplitr
      swap; · iexact H4
      ipureintro; exact View.read_writes_of_cover _ _ _ _ _ (out4Cover3_last c _ _ _ _ _ _ _ _ _ _ _ _ _ _ _ _ _ _ _ _ _ _)
    · -- a middle point
      have hl : ¬last3 (grid3.coords t) := fun h => h19 ((last3_iff t).mp h)
      rw [Dat.leavesExact_idle (dat3 V c) 3 t (idle3_3 t hl) (noFlush3_3 t hl),
        Dat.leavesExact_idle (dat3 V c) 4 t (idle3_4 t hl) (noFlush3_4 t hl)]
      rw [statsAt3_mid V c t hz h19 hf hl]
      unfold acc0After3_mid acc1After3_mid; (try dsimp only)
      rw [dat3_inv_castSucc V c t, carriedInv3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((statsRun3_mid c (grid3.coords t) _ _ _ _ _ _ _ _ _ _ _ _ _ _ hf hl (blk3 V c 0 t) (blk3 V c 1 t) (blk3 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (acc0Cover3_mid c _ _ _ _ _ _ _ _ _ _ _ _ _ _ _ _ _ _ _ _ _ _)
            · unfold owns; iexists _; isplitr
              swap; · iexact HS1
              ipureintro; exact View.read_writes_of_cover _ _ _ _ _ (acc1Cover3_mid c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem inv3_in (c : Dev nD) : Pipeline.ΦA spec3 c ⊢ (dat3 V c).Φ 0 := by
  rw [show (dat3 V c).Φ 0 = carriedInv3 V c 0 (Nat.zero_le _) from rfl, carriedInv3_zero V c 0 _ rfl]
  try exact Idealize.SL.BI.Entails.refl _

/-- After the last point the invariant gives the resting one back: the accumulators' named contents are forgotten. -/
theorem inv3_out (c : Dev nD) : (dat3 V c).Φ (Fin.last cfg3.N) ⊢ Pipeline.ΦA spec3 c := by
  have hne : (Fin.last cfg3.N).val ≠ 0 := by rw [Fin.val_last]; have : cfg3.N = 20 := N_3; omega
  rw [show (dat3 V c).Φ (Fin.last cfg3.N) = carriedInv3 V c (Fin.last cfg3.N).val (Nat.le_of_lt_succ (Fin.last cfg3.N).isLt) from rfl,
    carriedInv3_pos V c _ _ hne, restingInv3_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.KernelIdeal.Hand

end
-- ==== Proof.KI.Run.lean ====
/-
  The kernel program's run: @main's twelve items — seven stretches of host operations and the five kernel regions
  between them — from the launch to the return.

  The buffers' contents at each boundary are a fold from the launch memory: a host stretch's operations applied in
  order; a region's arrays at what its pipeline leaves (an input as entered, an output its blocks' write-backs), every
  other buffer untouched. No item writes an argument array, so each ends as launched. Every weakly fair execution of
  @main terminates with every unscoped buffer at the last boundary's contents.
-/
import proofs.«156713_j13589276524898_2_alg».proof.Proof.KI.Dense0
import proofs.«156713_j13589276524898_2_alg».proof.Proof.KI.Dense2
import proofs.«156713_j13589276524898_2_alg».proof.Proof.KI.Dense4
import proofs.«156713_j13589276524898_2_alg».proof.Proof.KI.Stats1
import proofs.«156713_j13589276524898_2_alg».proof.Proof.KI.Stats3
import proofs.«156713_j13589276524898_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m ((c : Dev nD), b)
/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
theorem W1_keep (c : Dev nD) (r : Ref sig .tc) (h : r ∉ hostOps0_W) : W1 m c (Proc.devRef .tc r) = W0 m c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
theorem W2_keep (c : Dev nD) (r : Ref sig .tc) (h : r ∉ hostOps0_1_W) : W2 m c (Proc.devRef .tc r) = W1 m c (Proc.devRef .tc r) :=
  StableHlo.after_of_writes_sub hostOps0_1 _ hostOps0_1_writes h
/-- After the host stretch `hostOps0_2`. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
theorem W3_keep (c : Dev nD) (r : Ref sig .tc) (h : r ∉ hostOps0_2_W) : W3 m c (Proc.devRef .tc r) = W2 m c (Proc.devRef .tc r) :=
  StableHlo.after_of_writes_sub hostOps0_2 _ hostOps0_2_writes h
/-- At region 0's exit: its arrays at what the pipeline leaves (inputs as entered, each output's write-backs folded),
    every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem exitArr0 (c : Dev nD) (w : Fin cfg0.W) : (dat0 (V3 m) c).arrAt w cfg0.N = V4 m c (Pipeline.arrRef spec0 w) :=
  (W4_arr m c w).symm
theorem exitRest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- A buffer that is not one of region 0's outputs leaves the region as it entered: an input window's array is only read. -/
theorem W4_keep (c : Dev nD) (b : Ref sig .tc) (hb : b ∉ ([main_v25] : List (Ref sig .tc))) :
    W4 m c (Proc.devRef .tc b) = W3 m c (Proc.devRef .tc b) := by
  by_cases h : ∃ w, Pipeline.arrRef spec0 w = b
  · obtain ⟨w, rfl⟩ := h
    have hw : (cfg0.win w).isOut = false :=
      (by decide : ∀ w : Fin 4, Pipeline.arrRef spec0 w ∉ ([main_v25] : List (Ref sig .tc)) → (cfg0.win w).isOut = false) w hb
    exact (W4_arr m c w).trans (((dat0 (V3 m) c).arrAt_in w hw _).trans (dat0_A (V3 m) c w))
  · exact W4_of_ne m c b (fun w e => h ⟨w, e⟩)
/-- After the host stretch `hostOps1`. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
theorem W5_keep (c : Dev nD) (r : Ref sig .tc) (h : r ∉ hostOps1_W) : W5 m c (Proc.devRef .tc r) = W4 m c (Proc.devRef .tc r) :=
  StableHlo.after_of_writes_sub hostOps1 _ hostOps1_writes h
/-- At region 1's exit: its arrays at what the pipeline leaves (inputs as entered, each output's write-backs folded),
    every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem exitArr1 (c : Dev nD) (w : Fin cfg1.W) : (dat1 (V5 m) c).arrAt w cfg1.N = V6 m c (Pipeline.arrRef spec1 w) :=
  (W6_arr m c w).symm
theorem exitRest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- A buffer that is not one of region 1's outputs leaves the region as it entered: an input window's array is only read. -/
theorem W6_keep (c : Dev nD) (b : Ref sig .tc) (hb : b ∉ ([main_v37_0, main_v37_1] : List (Ref sig .tc))) :
    W6 m c (Proc.devRef .tc b) = W5 m c (Proc.devRef .tc b) := by
  by_cases h : ∃ w, Pipeline.arrRef spec1 w = b
  · obtain ⟨w, rfl⟩ := h
    have hw : (cfg1.win w).isOut = false :=
      (by decide : ∀ w : Fin 5, Pipeline.arrRef spec1 w ∉ ([main_v37_0, main_v37_1] : List (Ref sig .tc)) → (cfg1.win w).isOut = false) w hb
    exact (W6_arr m c w).trans (((dat1 (V5 m) c).arrAt_in w hw _).trans (dat1_A (V5 m) c w))
  · exact W6_of_ne m c b (fun w e => h ⟨w, e⟩)
/-- After the host stretch `hostOps2`. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
theorem W7_keep (c : Dev nD) (r : Ref sig .tc) (h : r ∉ hostOps2_W) : W7 m c (Proc.devRef .tc r) = W6 m c (Proc.devRef .tc r) :=
  StableHlo.after_of_writes_sub hostOps2 _ hostOps2_writes h
/-- At region 2's exit: its arrays at what the pipeline leaves (inputs as entered, each output's write-backs folded),
    every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem exitArr2 (c : Dev nD) (w : Fin cfg2.W) : (dat2 (V7 m) c).arrAt w cfg2.N = V8 m c (Pipeline.arrRef spec2 w) :=
  (W8_arr m c w).symm
theorem exitRest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- A buffer that is not one of region 2's outputs leaves the region as it entered: an input window's array is only read. -/
theorem W8_keep (c : Dev nD) (b : Ref sig .tc) (hb : b ∉ ([main_v44] : List (Ref sig .tc))) :
    W8 m c (Proc.devRef .tc b) = W7 m c (Proc.devRef .tc b) := by
  by_cases h : ∃ w, Pipeline.arrRef spec2 w = b
  · obtain ⟨w, rfl⟩ := h
    have hw : (cfg2.win w).isOut = false :=
      (by decide : ∀ w : Fin 9, Pipeline.arrRef spec2 w ∉ ([main_v44] : List (Ref sig .tc)) → (cfg2.win w).isOut = false) w hb
    exact (W8_arr m c w).trans (((dat2 (V7 m) c).arrAt_in w hw _).trans (dat2_A (V7 m) c w))
  · exact W8_of_ne m c b (fun w e => h ⟨w, e⟩)
/-- After the host stretch `hostOps3`. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b
theorem W9_keep (c : Dev nD) (r : Ref sig .tc) (h : r ∉ hostOps3_W) : W9 m c (Proc.devRef .tc r) = W8 m c (Proc.devRef .tc r) :=
  StableHlo.after_of_writes_sub hostOps3 _ hostOps3_writes h
/-- At region 3's exit: its arrays at what the pipeline leaves (inputs as entered, each output's write-backs folded),
    every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
theorem exitArr3 (c : Dev nD) (w : Fin cfg3.W) : (dat3 (V9 m) c).arrAt w cfg3.N = V10 m c (Pipeline.arrRef spec3 w) :=
  (W10_arr m c w).symm
theorem exitRest3 (c : Dev nD) : ∀ b, b ∉ Finset.univ.image (Pipeline.arrRef spec3) → V10 m c b = V9 m c b :=
  fun b hb => W10_of_ne m c b fun w e => hb (Finset.mem_image.mpr ⟨w, Finset.mem_univ _, e⟩)
/-- A buffer that is not one of region 3's outputs leaves the region as it entered: an input window's array is only read. -/
theorem W10_keep (c : Dev nD) (b : Ref sig .tc) (hb : b ∉ ([main_v56_0, main_v56_1] : List (Ref sig .tc))) :
    W10 m c (Proc.devRef .tc b) = W9 m c (Proc.devRef .tc b) := by
  by_cases h : ∃ w, Pipeline.arrRef spec3 w = b
  · obtain ⟨w, rfl⟩ := h
    have hw : (cfg3.win w).isOut = false :=
      (by decide : ∀ w : Fin 5, Pipeline.arrRef spec3 w ∉ ([main_v56_0, main_v56_1] : List (Ref sig .tc)) → (cfg3.win w).isOut = false) w hb
    exact (W10_arr m c w).trans (((dat3 (V9 m) c).arrAt_in w hw _).trans (dat3_A (V9 m) c w))
  · exact W10_of_ne m c b (fun w e => h ⟨w, e⟩)
/-- After the host stretch `hostOps4`. -/
abbrev W11 : Dev nD → Valuation τ sig (Elt F) := fun c => StableHlo.after hostOps4 (W10 m c)
abbrev V11 : (c : Dev nD) → (b : Ref sig .tc) → Buf (Elt F) ((c : Thread nD τ).loc b) := fun c b => W11 m c b
theorem W11_keep (c : Dev nD) (r : Ref sig .tc) (h : r ∉ hostOps4_W) : W11 m c (Proc.devRef .tc r) = W10 m c (Proc.devRef .tc r) :=
  StableHlo.after_of_writes_sub hostOps4 _ hostOps4_writes h
/-- At region 4's exit: its arrays at what the pipeline leaves (inputs as entered, each output's write-backs folded),
    every other buffer as entered. -/
def W12 (c : Dev nD) : Valuation τ sig (Elt F) :=
  Pipeline.withArrays spec4 c (W11 m c) fun w => (dat4 (V11 m) c).arrAt w cfg4.N
theorem W12_arr (c : Dev nD) (w : Fin cfg4.W) :
    W12 m c (Proc.devRef .tc (Pipeline.arrRef spec4 w)) = (dat4 (V11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
abbrev V12 : (c : Dev nD) → (b : Ref sig .tc) → Buf (Elt F) ((c : Thread nD τ).loc b) := fun c b => W12 m c b
theorem exitArr4 (c : Dev nD) (w : Fin cfg4.W) : (dat4 (V11 m) c).arrAt w cfg4.N = V12 m c (Pipeline.arrRef spec4 w) :=
  (W12_arr m c w).symm
theorem exitRest4 (c : Dev nD) : ∀ b, b ∉ Finset.univ.image (Pipeline.arrRef spec4) → V12 m c b = V11 m c b :=
  fun b hb => W12_of_ne m c b fun w e => hb (Finset.mem_image.mpr ⟨w, Finset.mem_univ _, e⟩)
/-- A buffer that is not one of region 4's outputs leaves the region as it entered: an input window's array is only read. -/
theorem W12_keep (c : Dev nD) (b : Ref sig .tc) (hb : b ∉ ([main_v63] : List (Ref sig .tc))) :
    W12 m c (Proc.devRef .tc b) = W11 m c (Proc.devRef .tc b) := by
  by_cases h : ∃ w, Pipeline.arrRef spec4 w = b
  · obtain ⟨w, rfl⟩ := h
    have hw : (cfg4.win w).isOut = false :=
      (by decide : ∀ w : Fin 10, Pipeline.arrRef spec4 w ∉ ([main_v63] : List (Ref sig .tc)) → (cfg4.win w).isOut = false) w hb
    exact (W12_arr m c w).trans (((dat4 (V11 m) c).arrAt_in w hw _).trans (dat4_A (V11 m) c w))
  · exact W12_of_ne m c b (fun w e => h ⟨w, e⟩)

/-! ## The arguments end as launched -/

theorem W12_main_arg0 (c : Dev nD) : W12 m c (Proc.devRef .tc main_arg0) = m ((c : Thread nD τ).loc main_arg0) :=
  (W12_keep m c main_arg0 (by decide)).trans <| (W11_keep m c main_arg0 (by decide)).trans <| (W10_keep m c main_arg0 (by decide)).trans <| (W9_keep m c main_arg0 (by decide)).trans <| (W8_keep m c main_arg0 (by decide)).trans <| (W7_keep m c main_arg0 (by decide)).trans <| (W6_keep m c main_arg0 (by decide)).trans <| (W5_keep m c main_arg0 (by decide)).trans <| (W4_keep m c main_arg0 (by decide)).trans <| (W3_keep m c main_arg0 (by decide)).trans <| (W2_keep m c main_arg0 (by decide)).trans <| (W1_keep m c main_arg0 (by decide)).trans <| rfl
theorem W12_main_arg1 (c : Dev nD) : W12 m c (Proc.devRef .tc main_arg1) = m ((c : Thread nD τ).loc main_arg1) :=
  (W12_keep m c main_arg1 (by decide)).trans <| (W11_keep m c main_arg1 (by decide)).trans <| (W10_keep m c main_arg1 (by decide)).trans <| (W9_keep m c main_arg1 (by decide)).trans <| (W8_keep m c main_arg1 (by decide)).trans <| (W7_keep m c main_arg1 (by decide)).trans <| (W6_keep m c main_arg1 (by decide)).trans <| (W5_keep m c main_arg1 (by decide)).trans <| (W4_keep m c main_arg1 (by decide)).trans <| (W3_keep m c main_arg1 (by decide)).trans <| (W2_keep m c main_arg1 (by decide)).trans <| (W1_keep m c main_arg1 (by decide)).trans <| rfl
theorem W12_main_arg2 (c : Dev nD) : W12 m c (Proc.devRef .tc main_arg2) = m ((c : Thread nD τ).loc main_arg2) :=
  (W12_keep m c main_arg2 (by decide)).trans <| (W11_keep m c main_arg2 (by decide)).trans <| (W10_keep m c main_arg2 (by decide)).trans <| (W9_keep m c main_arg2 (by decide)).trans <| (W8_keep m c main_arg2 (by decide)).trans <| (W7_keep m c main_arg2 (by decide)).trans <| (W6_keep m c main_arg2 (by decide)).trans <| (W5_keep m c main_arg2 (by decide)).trans <| (W4_keep m c main_arg2 (by decide)).trans <| (W3_keep m c main_arg2 (by decide)).trans <| (W2_keep m c main_arg2 (by decide)).trans <| (W1_keep m c main_arg2 (by decide)).trans <| rfl
theorem W12_main_arg3 (c : Dev nD) : W12 m c (Proc.devRef .tc main_arg3) = m ((c : Thread nD τ).loc main_arg3) :=
  (W12_keep m c main_arg3 (by decide)).trans <| (W11_keep m c main_arg3 (by decide)).trans <| (W10_keep m c main_arg3 (by decide)).trans <| (W9_keep m c main_arg3 (by decide)).trans <| (W8_keep m c main_arg3 (by decide)).trans <| (W7_keep m c main_arg3 (by decide)).trans <| (W6_keep m c main_arg3 (by decide)).trans <| (W5_keep m c main_arg3 (by decide)).trans <| (W4_keep m c main_arg3 (by decide)).trans <| (W3_keep m c main_arg3 (by decide)).trans <| (W2_keep m c main_arg3 (by decide)).trans <| (W1_keep m c main_arg3 (by decide)).trans <| rfl
theorem W12_main_arg4 (c : Dev nD) : W12 m c (Proc.devRef .tc main_arg4) = m ((c : Thread nD τ).loc main_arg4) :=
  (W12_keep m c main_arg4 (by decide)).trans <| (W11_keep m c main_arg4 (by decide)).trans <| (W10_keep m c main_arg4 (by decide)).trans <| (W9_keep m c main_arg4 (by decide)).trans <| (W8_keep m c main_arg4 (by decide)).trans <| (W7_keep m c main_arg4 (by decide)).trans <| (W6_keep m c main_arg4 (by decide)).trans <| (W5_keep m c main_arg4 (by decide)).trans <| (W4_keep m c main_arg4 (by decide)).trans <| (W3_keep m c main_arg4 (by decide)).trans <| (W2_keep m c main_arg4 (by decide)).trans <| (W1_keep m c main_arg4 (by decide)).trans <| rfl
theorem W12_main_arg5 (c : Dev nD) : W12 m c (Proc.devRef .tc main_arg5) = m ((c : Thread nD τ).loc main_arg5) :=
  (W12_keep m c main_arg5 (by decide)).trans <| (W11_keep m c main_arg5 (by decide)).trans <| (W10_keep m c main_arg5 (by decide)).trans <| (W9_keep m c main_arg5 (by decide)).trans <| (W8_keep m c main_arg5 (by decide)).trans <| (W7_keep m c main_arg5 (by decide)).trans <| (W6_keep m c main_arg5 (by decide)).trans <| (W5_keep m c main_arg5 (by decide)).trans <| (W4_keep m c main_arg5 (by decide)).trans <| (W3_keep m c main_arg5 (by decide)).trans <| (W2_keep m c main_arg5 (by decide)).trans <| (W1_keep m c main_arg5 (by decide)).trans <| rfl
theorem W12_main_arg6 (c : Dev nD) : W12 m c (Proc.devRef .tc main_arg6) = m ((c : Thread nD τ).loc main_arg6) :=
  (W12_keep m c main_arg6 (by decide)).trans <| (W11_keep m c main_arg6 (by decide)).trans <| (W10_keep m c main_arg6 (by decide)).trans <| (W9_keep m c main_arg6 (by decide)).trans <| (W8_keep m c main_arg6 (by decide)).trans <| (W7_keep m c main_arg6 (by decide)).trans <| (W6_keep m c main_arg6 (by decide)).trans <| (W5_keep m c main_arg6 (by decide)).trans <| (W4_keep m c main_arg6 (by decide)).trans <| (W3_keep m c main_arg6 (by decide)).trans <| (W2_keep m c main_arg6 (by decide)).trans <| (W1_keep m c main_arg6 (by decide)).trans <| rfl
theorem W12_main_arg7 (c : Dev nD) : W12 m c (Proc.devRef .tc main_arg7) = m ((c : Thread nD τ).loc main_arg7) :=
  (W12_keep m c main_arg7 (by decide)).trans <| (W11_keep m c main_arg7 (by decide)).trans <| (W10_keep m c main_arg7 (by decide)).trans <| (W9_keep m c main_arg7 (by decide)).trans <| (W8_keep m c main_arg7 (by decide)).trans <| (W7_keep m c main_arg7 (by decide)).trans <| (W6_keep m c main_arg7 (by decide)).trans <| (W5_keep m c main_arg7 (by decide)).trans <| (W4_keep m c main_arg7 (by decide)).trans <| (W3_keep m c main_arg7 (by decide)).trans <| (W2_keep m c main_arg7 (by decide)).trans <| (W1_keep m c main_arg7 (by decide)).trans <| rfl
theorem W12_main_arg8 (c : Dev nD) : W12 m c (Proc.devRef .tc main_arg8) = m ((c : Thread nD τ).loc main_arg8) :=
  (W12_keep m c main_arg8 (by decide)).trans <| (W11_keep m c main_arg8 (by decide)).trans <| (W10_keep m c main_arg8 (by decide)).trans <| (W9_keep m c main_arg8 (by decide)).trans <| (W8_keep m c main_arg8 (by decide)).trans <| (W7_keep m c main_arg8 (by decide)).trans <| (W6_keep m c main_arg8 (by decide)).trans <| (W5_keep m c main_arg8 (by decide)).trans <| (W4_keep m c main_arg8 (by decide)).trans <| (W3_keep m c main_arg8 (by decide)).trans <| (W2_keep m c main_arg8 (by decide)).trans <| (W1_keep m c main_arg8 (by decide)).trans <| rfl
theorem W12_main_arg9 (c : Dev nD) : W12 m c (Proc.devRef .tc main_arg9) = m ((c : Thread nD τ).loc main_arg9) :=
  (W12_keep m c main_arg9 (by decide)).trans <| (W11_keep m c main_arg9 (by decide)).trans <| (W10_keep m c main_arg9 (by decide)).trans <| (W9_keep m c main_arg9 (by decide)).trans <| (W8_keep m c main_arg9 (by decide)).trans <| (W7_keep m c main_arg9 (by decide)).trans <| (W6_keep m c main_arg9 (by decide)).trans <| (W5_keep m c main_arg9 (by decide)).trans <| (W4_keep m c main_arg9 (by decide)).trans <| (W3_keep m c main_arg9 (by decide)).trans <| (W2_keep m c main_arg9 (by decide)).trans <| (W1_keep m c main_arg9 (by decide)).trans <| rfl
theorem W12_main_arg10 (c : Dev nD) : W12 m c (Proc.devRef .tc main_arg10) = m ((c : Thread nD τ).loc main_arg10) :=
  (W12_keep m c main_arg10 (by decide)).trans <| (W11_keep m c main_arg10 (by decide)).trans <| (W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)).trans <| rfl
theorem W12_main_arg11 (c : Dev nD) : W12 m c (Proc.devRef .tc main_arg11) = m ((c : Thread nD τ).loc main_arg11) :=
  (W12_keep m c main_arg11 (by decide)).trans <| (W11_keep m c main_arg11 (by decide)).trans <| (W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)).trans <| rfl

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
  | ⟨4, _⟩ => fun c => dat4 (V11 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m c) ∗ ∃ r, prngReg c r)

/-! ## The regions as segments -/

set_option backward.isDefEq.respectTransparency.types false in
/-- REGION 0 over the thread state: entered from every unscoped buffer at `W3`, left at `W4`. Its arrays are split
    out of the unscoped buffers and put back at the exit contents; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. Its arrays are split
    out of the unscoped buffers and put back at the exit contents; the generator register goes into the region's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h.trans (inv1_in (V5 m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (inv1_out (V5 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W7`, left at `W8`. Its arrays are split
    out of the unscoped buffers and put back at the exit contents; the generator register goes into the region's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W9`, left at `W10`. Its arrays are split
    out of the unscoped buffers and put back at the exit contents; the generator register goes into the region's
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 3).pre c (fun _ => fullShare) (adm (F := F) 3).1 ∗ Pipeline.scopedRest spec3 c) : sProp 𝕄)
        ⊢ Pipeline.ΦA spec3 c := by
      unfold Pipeline.ΦA
      iintro ⟨Hp, -, Hr⟩
      isplitl [Hr]; · iexact Hr
      iexact Hp
    exact h.trans (inv3_in (V9 m) c)
  hout c := by
    rw [Pipeline.ownSems0_none]
    have h : (Pipeline.ΦA spec3 c : sProp 𝕄) ⊢ iprop((∃ r, prngReg c r) ∗ emp ∗ Pipeline.scopedRest spec3 c) := by
      unfold Pipeline.ΦA
      iintro ⟨Hr, Hp⟩
      isplitl [Hp]; · iexact Hp
      isplitr; · iempintro
      iexact Hr
    exact (inv3_out (V9 m) c).trans h
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W11`, left at `W12`. Its arrays are split
    out of the unscoped buffers and put back at the exit contents; the generator register goes into the region's
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (obligation4 (V11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V11 m c) (V12 m c) ((pdats m 4 c).arrAt · cfg4.N) (exitArr4 m c) (exitRest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m) ]

set_option backward.isDefEq.respectTransparency.types false in
/-- THE RUN, at any float values: from any memory with zero counters every weakly fair execution of @main on the TensorCores
    terminates, nothing faulting, and every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0, StableHlo.seq hostOps0_1, StableHlo.seq hostOps0_2,
          Prog.lift (.customCall (Pipeline.entry 0) ()), StableHlo.seq hostOps1,
          Prog.lift (.customCall (Pipeline.entry 1) ()), StableHlo.seq hostOps2,
          Prog.lift (.customCall (Pipeline.entry 2) ()), StableHlo.seq hostOps3,
          Prog.lift (.customCall (Pipeline.entry 3) ()), StableHlo.seq hostOps4,
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- THE FRAME, at any float values: @main runs to the end and its argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c),
     (h c _ (mem_uc main_arg10 (by decide))).trans (W12_main_arg10 m c),
     (h c _ (mem_uc main_arg11 (by decide))).trans (W12_main_arg11 m c)⟩)
    (run_all m ρ)

end Cert.KernelIdeal.Hand

end
-- ==== Proof.LibIndexRead.lean ====
/-
  A general lemma file: the host's gather and accumulating scatter along the LEADING axis, read at an index.

  `x[idx]` and `zeros.at[idx].add(u)` on a `[N]` or `[N, C]` operand with an `[E, 1]` array of row numbers lower to
  `stablehlo.gather` / `stablehlo.scatter` with one collapsed (inserted) axis. Read at an index: the gather is the
  operand's row at the start word read signed and clamped into `[0, N − 1]`; an update row lands on the row its word
  names when that is in range (`target`) and is dropped otherwise, so the scatter's element `(i, c)` is the operand's
  plus the sum, over the updates `e` whose word names `i`, of the update's element `(e, c)`.
-/
import Idealize.ShloMosaic.Lib.ValueIdx

noncomputable section

open scoped BigOperators

namespace Cert.LibIndexRead

open Idealize.ShloMosaic Idealize.ShloMosaic.ValueIdx

/-- The row a start word names, read signed: `none` when it is outside `[0, N)`. -/
def target (N : Nat) (w : BitVec 32) : Option (Fin N) :=
  if h : 0 ≤ w.toInt ∧ w.toInt < N then some ⟨w.toInt.toNat, by omega⟩ else none

/-! ## Scatter into `[N, C]` by `[E, 1]` row numbers of `[E, C]` updates -/

section Scatter2
variable {N E C : Nat}

/-- The dimension numbers: update window axis 1, inserted window axis 0, the index word names axis 0. -/
abbrev scatDims2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)
  (j : (⟨2, ![E, C]⟩ : Shape).Idx) (idx : IVec ⟨2, ![E, 1]⟩ 32)

theorem scat2_start0 : (scatDims2 N E C wf).start j idx 0 = (idx (ix2 (j 0 : Fin E) (0 : Fin 1))).toInt := by
  unfold ScatterDims.start
  rw [dif_pos (show (0 : Fin 2) ∈ (scatDims2 N E C wf).scatterDimsToOperandDims from List.mem_singleton.mpr rfl)]
  congr 2
  funext b; refine Fin.ext ?_
  match b with
  | ⟨0, _⟩ => rfl
  | ⟨1, _⟩ => rfl

theorem scat2_start1 : (scatDims2 N E C wf).start j idx 1 = 0 := by
  unfold ScatterDims.start
  rw [dif_neg (show (1 : Fin 2) ∉ (scatDims2 N E C wf).scatterDimsToOperandDims from
    fun h => absurd (congrArg Fin.val (List.mem_singleton.mp h)) Nat.one_ne_zero)]

theorem scat2_window0 : (scatDims2 N E C wf).window j 0 = 0 := by
  unfold ScatterDims.window
  rw [dif_neg (show (0 : Fin 2) ∉ (scatDims2 N E C wf).sKept from
    fun h => of_decide_eq_true (List.mem_filter.mp h).2 (List.mem_singleton.mpr rfl))]

theorem scat2_window1 : (scatDims2 N E C wf).window j 1 = (j 1).val := by
  unfold ScatterDims.window
  rw [dif_pos (show (1 : Fin 2) ∈ (scatDims2 N E C wf).sKept from
    List.mem_filter.mpr ⟨List.mem_finRange _, decide_eq_true
      (fun h => absurd (congrArg Fin.val (List.mem_singleton.mp h)) Nat.one_ne_zero)⟩)]
  rfl

/-- Where update `(e, c)` lands: row `target (idx[e, 0])`, column `c`. -/
theorem scat2_resultIdx : (scatDims2 N E C wf).resultIdx? j idx
    = (target N (idx (ix2 (j 0 : Fin E) (0 : Fin 1)))).map (fun i => ix2 i (j 1 : Fin C)) := by
  unfold ScatterDims.resultIdx? target
  by_cases h : 0 ≤ (idx (ix2 (j 0 : Fin E) (0 : Fin 1))).toInt ∧ (idx (ix2 (j 0 : Fin E) (0 : Fin 1))).toInt < N
  · have hall : ∀ a, 0 ≤ (scatDims2 N E C wf).start j idx a + (scatDims2 N E C wf).window j a ∧
        (scatDims2 N E C wf).start j idx a + (scatDims2 N E C wf).window j a < (⟨2, ![N, C]⟩ : Shape).size a := by
      intro a
      match a with
      | ⟨0, _⟩ =>
        show 0 ≤ (scatDims2 N E C wf).start j idx 0 + (scatDims2 N E C wf).window j 0 ∧
          (scatDims2 N E C wf).start j idx 0 + (scatDims2 N E C wf).window j 0 < (N : Int)
        rw [scat2_start0, scat2_window0]; simpa using h
      | ⟨1, _⟩ =>
        show 0 ≤ (scatDims2 N E C wf).start j idx 1 + (scatDims2 N E C wf).window j 1 ∧
          (scatDims2 N E C wf).start j idx 1 + (scatDims2 N E C wf).window j 1 < (C : Int)
        rw [scat2_start1, scat2_window1]
        have := (j 1).isLt
        constructor
        · omega
        · have h2 : ((j 1).val : Int) < (C : Int) := by exact_mod_cast this
          omega
    rw [dif_pos hall, dif_pos h, Option.map_some]
    congr 1
    funext a; refine Fin.ext ?_
    match a with
    | ⟨0, _⟩ =>
      show ((scatDims2 N E C wf).start j idx 0 + (scatDims2 N E C wf).window j 0).toNat = _
      rw [scat2_start0, scat2_window0]; simp
    | ⟨1, _⟩ =>
      show ((scatDims2 N E C wf).start j idx 1 + (scatDims2 N E C wf).window j 1).toNat = (j 1).val
      rw [scat2_start1, scat2_window1]; simp
  · have hall : ¬ ∀ a, 0 ≤ (scatDims2 N E C wf).start j idx a + (scatDims2 N E C wf).window j a ∧
        (scatDims2 N E C wf).start j idx a + (scatDims2 N E C wf).window j a < (⟨2, ![N, C]⟩ : Shape).size a := by
      intro hall
      apply h
      have h0 := hall 0
      have h0' : 0 ≤ (scatDims2 N E C wf).start j idx 0 + (scatDims2 N E C wf).window j 0 ∧
          (scatDims2 N E C wf).start j idx 0 + (scatDims2 N E C wf).window j 0 < (N : Int) := h0
      rw [scat2_start0, scat2_window0] at h0'
      simpa using h0'
    rw [dif_neg hall, dif_neg h]
    rfl

/-- THE SCATTER READ AT `(i, c)`: the operand's element plus the updates' elements `(e, c)` over the rows `e` whose
    word names row `i`. -/
theorem scat2_apply (x : (⟨2, ![N, C]⟩ : Shape).Idx → EReal) (upd : (⟨2, ![E, C]⟩ : Shape).Idx → EReal) (i : Fin N) (c : Fin C) :
    Ideal.hostScatterAdd (scatDims2 N E C wf) x idx upd (ix2 i c)
      = x (ix2 i c) + ∑ e ∈ Finset.univ.filter (fun e : Fin E => target N (idx (ix2 e (0 : Fin 1))) = some i), upd (ix2 e c) := by
  unfold Ideal.hostScatterAdd
  congr 1
  rw [Finset.sum_filter, sum_idx2, Finset.sum_filter]
  refine Finset.sum_congr rfl (fun e _ => ?_)
  have key : ∀ b : Fin C, ((scatDims2 N E C wf).resultIdx? (ix2 e b) idx = some (ix2 i c))
      ↔ (target N (idx (ix2 e (0 : Fin 1))) = some i ∧ b = c) := by
    intro b
    rw [scat2_resultIdx]
    show (target N (idx (ix2 e (0 : Fin 1)))).map (fun i' => ix2 i' b) = some (ix2 i c) ↔ _
    cases h : target N (idx (ix2 e (0 : Fin 1))) with
    | none => simp
    | some i' =>
      simp only [Option.map_some, Option.some.injEq]
      constructor
      · intro h2
        exact ⟨congrFun h2 0, congrFun h2 1⟩
      · rintro ⟨rfl, rfl⟩; rfl
  simp only [key]
  by_cases hT : target N (idx (ix2 e (0 : Fin 1))) = some i
  · simp [hT]
  · simp [hT]

end Scatter2

/-! ## Scatter into `[N]` by `[E, 1]` row numbers of `[E]` updates -/

section Scatter1
variable {N E : Nat}

/-- The dimension numbers: no update window axis, inserted window axis 0, the index word names axis 0. -/
abbrev scatDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)
  (j : (⟨1, ![E]⟩ : Shape).Idx) (idx : IVec ⟨2, ![E, 1]⟩ 32)

theorem scat1_start0 : (scatDims1 N E wf).start j idx 0 = (idx (ix2 (j 0 : Fin E) (0 : Fin 1))).toInt := by
  unfold ScatterDims.start
  rw [dif_pos (show (0 : Fin 1) ∈ (scatDims1 N E wf).scatterDimsToOperandDims from List.mem_singleton.mpr rfl)]
  congr 2
  funext b; refine Fin.ext ?_
  match b with
  | ⟨0, _⟩ => rfl
  | ⟨1, _⟩ => rfl

theorem scat1_window0 : (scatDims1 N E wf).window j 0 = 0 := by
  unfold ScatterDims.window
  rw [dif_neg (show (0 : Fin 1) ∉ (scatDims1 N E wf).sKept from
    fun h => of_decide_eq_true (List.mem_filter.mp h).2 (List.mem_singleton.mpr rfl))]

/-- Where update `e` lands: row `target (idx[e, 0])`. -/
theorem scat1_resultIdx : (scatDims1 N E wf).resultIdx? j idx
    = (target N (idx (ix2 (j 0 : Fin E) (0 : Fin 1)))).map (fun i => ix1 i) := by
  unfold ScatterDims.resultIdx? target
  by_cases h : 0 ≤ (idx (ix2 (j 0 : Fin E) (0 : Fin 1))).toInt ∧ (idx (ix2 (j 0 : Fin E) (0 : Fin 1))).toInt < N
  · have hall : ∀ a, 0 ≤ (scatDims1 N E wf).start j idx a + (scatDims1 N E wf).window j a ∧
        (scatDims1 N E wf).start j idx a + (scatDims1 N E wf).window j a < (⟨1, ![N]⟩ : Shape).size a := by
      intro a
      match a with
      | ⟨0, _⟩ =>
        show 0 ≤ (scatDims1 N E wf).start j idx 0 + (scatDims1 N E wf).window j 0 ∧
          (scatDims1 N E wf).start j idx 0 + (scatDims1 N E wf).window j 0 < (N : Int)
        rw [scat1_start0, scat1_window0]; simpa using h
    rw [dif_pos hall, dif_pos h, Option.map_some]
    congr 1
    funext a; refine Fin.ext ?_
    match a with
    | ⟨0, _⟩ =>
      show ((scatDims1 N E wf).start j idx 0 + (scatDims1 N E wf).window j 0).toNat = _
      rw [scat1_start0, scat1_window0]; simp
  · have hall : ¬ ∀ a, 0 ≤ (scatDims1 N E wf).start j idx a + (scatDims1 N E wf).window j a ∧
        (scatDims1 N E wf).start j idx a + (scatDims1 N E wf).window j a < (⟨1, ![N]⟩ : Shape).size a := by
      intro hall
      apply h
      have h0' : 0 ≤ (scatDims1 N E wf).start j idx 0 + (scatDims1 N E wf).window j 0 ∧
          (scatDims1 N E wf).start j idx 0 + (scatDims1 N E wf).window j 0 < (N : Int) := hall 0
      rw [scat1_start0, scat1_window0] at h0'
      simpa using h0'
    rw [dif_neg hall, dif_neg h]
    rfl

/-- THE SCATTER READ AT `i`: the operand's element plus the updates `e` whose word names row `i`. -/
theorem scat1_apply (x : (⟨1, ![N]⟩ : Shape).Idx → EReal) (upd : (⟨1, ![E]⟩ : Shape).Idx → EReal) (i : Fin N) :
    Ideal.hostScatterAdd (scatDims1 N E wf) x idx upd (ix1 i)
      = x (ix1 i) + ∑ e ∈ Finset.univ.filter (fun e : Fin E => target N (idx (ix2 e (0 : Fin 1))) = some i), upd (ix1 e) := by
  unfold Ideal.hostScatterAdd
  congr 1
  have key : ∀ j : (⟨1, ![E]⟩ : Shape).Idx, ((scatDims1 N E wf).resultIdx? j idx = some (ix1 i))
      ↔ (target N (idx (ix2 (j 0 : Fin E) (0 : Fin 1))) = some i) := by
    intro j
    rw [scat1_resultIdx]
    cases h : target N (idx (ix2 (j 0 : Fin E) (0 : Fin 1))) with
    | none => simp
    | some i' =>
      simp only [Option.map_some, Option.some.injEq]
      constructor
      · intro h2; exact congrFun h2 0
      · rintro rfl; rfl
  simp only [key]
  refine Finset.sum_bij (fun j _ => (j 0 : Fin E)) ?_ ?_ ?_ ?_
  · intro j hj; exact Finset.mem_filter.mpr ⟨Finset.mem_univ _, (Finset.mem_filter.mp hj).2⟩
  · intro a _ b _ hab; rw [eq_ix1 a, eq_ix1 b]; exact congrArg ix1 hab
  · intro e he; exact ⟨ix1 e, Finset.mem_filter.mpr ⟨Finset.mem_univ _, (Finset.mem_filter.mp he).2⟩, rfl⟩
  · intro j _; exact congrArg upd (eq_ix1 j)

end Scatter1

/-! ## Gather from `[N, C]` by `[E, 1]` row numbers into `[E, C]`, and from `[N]` into `[E]` -/

section Gather2
variable {α : Type} {N E C : Nat}

/-- The dimension numbers: offset axis 1, collapsed axis 0, the start word names axis 0, rows of `C`. -/
abbrev gathDims2 (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER READ AT `(e, c)`: the operand at the row the word `idx[e, 0]` names, read signed and clamped, column `c`. -/
theorem gath2_apply (hN : 0 < N) (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (c : Fin C) :
    Host.gather (gathDims2 N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (gathDims2 N E C wf).start (ix2 e c) idx 0 + (gathDims2 N E C wf).batchCoord (ix2 e c) 0
      + (gathDims2 N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathDims2 N E C wf).startIndexMap from List.mem_singleton.mpr rfl)]
    have hsi : (gathDims2 N E C wf).siIdx (ix2 e c) ⟨List.idxOf (0 : Fin 2) (gathDims2 N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gathDims2 N E C wf).start (ix2 e c) idx 1 + (gathDims2 N E C wf).batchCoord (ix2 e c) 1
      + (gathDims2 N E C wf).offCoord (ix2 e c) 1 = c.val
    rw [GatherDims.batchCoord_eq_zero _ _ _ List.not_mem_nil]
    unfold GatherDims.start
    rw [dif_neg (show (1 : Fin 2) ∉ (gathDims2 N E C wf).startIndexMap from
      fun h => absurd (congrArg Fin.val (List.mem_singleton.mp h)) Nat.one_ne_zero)]
    unfold GatherDims.offCoord
    rw [dif_pos (show (1 : Fin 2) ∈ (gathDims2 N E C wf).sKept from
      (GatherDims.mem_sKept _ _).mpr ⟨fun h => absurd (congrArg Fin.val (List.mem_singleton.mp h)) Nat.one_ne_zero, List.not_mem_nil⟩)]
    simp only [Nat.zero_add]
    rfl

end Gather2

section Gather1
variable {α : Type} {N E : Nat}

/-- The dimension numbers: no offset axis, collapsed axis 0, the start word names axis 0. -/
abbrev gathDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT `e`: the operand at the row the word `idx[e, 0]` names, read signed and clamped. -/
theorem gath1_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) :
    Host.gather (gathDims1 N E wf) x idx (ix1 e)
      = x (ix1 (⟨min (idx (ix2 e (0 : Fin 1))).toInt.toNat (N - 1), by omega⟩ : Fin N)) := by
  unfold Host.gather
  congr 1
  funext a
  refine Fin.ext ?_
  match a with
  | ⟨0, _⟩ =>
    show (gathDims1 N E wf).start (ix1 e) idx 0 + (gathDims1 N E wf).batchCoord (ix1 e) 0
      + (gathDims1 N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (gathDims1 N E wf).startIndexMap from List.mem_singleton.mpr rfl)]
    have hsi : (gathDims1 N E wf).siIdx (ix1 e) ⟨List.idxOf (0 : Fin 1) (gathDims1 N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Gather1

/-! ## Start words: wrapping a negative one, and the row a kept update names -/

section Words

/-- A negative row number wrapped by the row count `M` (`x[i]` with `i < 0` reads `x[i + M]`). -/
def wrapNeg (M w : BitVec 32) : BitVec 32 := Scalar.select (IntOp.cmpi .slt w 0#32) (IntOp.addi w M) w

/-- The row a gather reads for the start word `w` after wrapping: read signed, clamped into `[0, N − 1]`. -/
def rowOf (N : Nat) (hN : 0 < N) (M w : BitVec 32) : Fin N := ⟨min (wrapNeg M w).toInt.toNat (N - 1), by omega⟩

/-- A word that is not negative is not wrapped. -/
theorem wrapNeg_of_nonneg (M w : BitVec 32) (h : 0 ≤ w.toInt) : wrapNeg M w = w := by
  unfold wrapNeg IntOp.cmpi
  have hs : w.slt 0#32 = false := by
    simp only [BitVec.slt, BitVec.toInt_zero, decide_eq_false_iff_not, not_lt]; exact h
  simp only [hs]
  rfl

/-- Where the scatter keeps an update (its word names a row in range), the gather reads that very row. -/
theorem rowOf_of_target {N : Nat} (hN : 0 < N) (M w : BitVec 32) (i : Fin N) (h : target N w = some i) :
    rowOf N hN M w = i := by
  unfold target at h
  by_cases hw : 0 ≤ w.toInt ∧ w.toInt < N
  · rw [dif_pos hw] at h
    have hi : w.toInt.toNat = i.val := congrArg Fin.val (Option.some.inj h)
    apply Fin.ext
    show min (wrapNeg M w).toInt.toNat (N - 1) = i.val
    rw [wrapNeg_of_nonneg M w hw.1]
    omega
  · rw [dif_neg hw] at h; cases h

/-- The word of a row number names that row. -/
theorem target_ofNat {N : Nat} (hN : N ≤ 2 ^ 31) (v : Fin N) : target N (BitVec.ofNat 32 v.val) = some v := by
  have hv : (BitVec.ofNat 32 v.val).toInt = (v.val : Int) := by
    rw [BitVec.toInt_eq_toNat_cond, BitVec.toNat_ofNat]
    have hlt := v.isLt
    have h2 : v.val % 2 ^ 32 = v.val := Nat.mod_eq_of_lt (by omega)
    rw [h2]
    split <;> omega
  unfold target
  have hw : 0 ≤ (BitVec.ofNat 32 v.val).toInt ∧ (BitVec.ofNat 32 v.val).toInt < N := by
    rw [hv]; have := v.isLt; constructor <;> omega
  rw [dif_pos hw]
  congr 1
  apply Fin.ext
  show (BitVec.ofNat 32 v.val).toInt.toNat = v.val
  rw [hv]; simp

/-- … and the gather reads that row for it. -/
theorem rowOf_ofNat {N : Nat} (hN0 : 0 < N) (hN : N ≤ 2 ^ 31) (M : BitVec 32) (v : Fin N) :
    rowOf N hN0 M (BitVec.ofNat 32 v.val) = v :=
  rowOf_of_target hN0 M _ v (target_ofNat hN v)

end Words

end Cert.LibIndexRead

end
-- ==== Proof.Stages.lean ====
/-
  The two-layer graph-convolution network as plain mathematics on the extended reals, written twice: in the grouping
  the tiled kernels compute it (`finalK`) and in the grouping the array-language reference computes it (`finalR`).

  A node's degree counts the edges of the extended list (the given edges, then one self loop per node) that land on
  it; its degree factor is `deg^(-1/2)`. A graph-convolution layer multiplies the features by a weight matrix, then
  replaces each node's row by the sum over the edges landing on it of the source's row weighted by both endpoints'
  degree factors, and adds a bias. The kernels scale every row by its own factor before the edge sum and once more
  after it; the reference weights each edge's term by the product. Batch normalisation takes each column's mean and
  variance over the 100000 nodes: the kernels from running block sums of `y` and `y²` (variance `E y² − (E y)²`), the
  reference from the centred squares. The classifier is one more matrix product, a bias, and a row-wise log-softmax.
-/
import Idealize.ShloMosaic.PureOps.Ideal
import Idealize.ShloMosaic.Lib.ValueIdx
import proofs.«156713_j13589276524898_2_alg».proof.Proof.LibIndexRead

noncomputable section

namespace Cert.Stages

open Idealize.ShloMosaic Cert.LibIndexRead

abbrev nN : Nat := 100000
/-- The extended edge list: 1600000 given edges, then one self loop per node. -/
abbrev nE : Nat := 1700000
abbrev Mat (n k : Nat) : Type := Fin n → Fin k → EReal
abbrev Row (k : Nat) : Type := Fin k → EReal
theorem nN_pos : 0 < nN := by decide

/-- A 32-bit float literal read at the exact reals. -/
abbrev lit (w : BitVec 32) : EReal := Ideal.ofBits .f32 w
abbrev zero : EReal := lit 0x00000000#32
abbrev one : EReal := lit 0x3F800000#32
/-- The number of nodes, `100000.0`. -/
abbrev count : EReal := lit 0x47C35000#32
abbrev eps : EReal := lit 0x3727C5AC#32
abbrev negInf : EReal := lit 0xFF800000#32
abbrev nanWord : EReal := lit 0x7FC00000#32

/-- The extended list's endpoint words: row `r` of the edge array, then the node numbers. -/
def extend (ei : Fin 2 → Fin 1600000 → BitVec 32) (r : Fin 2) (e : Fin nE) : BitVec 32 :=
  if h : e.val < 1600000 then ei r ⟨e.val, h⟩ else BitVec.ofNat 32 (e.val - 1600000)

section
-- The endpoint words of the extended list: `g 0` the sources, `g 1` the targets.
variable (g : Fin 2 → Fin nE → BitVec 32)

/-- The edges that land on node `i`: those whose target word names a row in range, and it is `i`. -/
def into (i : Fin nN) : Finset (Fin nE) := Finset.univ.filter fun e => target nN (g 1 e) = some i
/-- The row a gather reads for an edge's source (a negative word wrapped, then clamped), and for its target. -/
def srcRow (e : Fin nE) : Fin nN := rowOf nN nN_pos 100000#32 (g 0 e)
def dstRow (e : Fin nE) : Fin nN := rowOf nN nN_pos 100000#32 (g 1 e)

def deg (i : Fin nN) : EReal := zero + ∑ _e ∈ into g i, one
/-- The degree factor: `rsqrt (max deg 1)` where the degree is positive, else zero. -/
def dinv (i : Fin nN) : EReal :=
  Scalar.select (FloatOps.cmpf (F := Ideal) (φ := .f32) .ogt (deg g i) zero) (Ideal.rsqrt (max (deg g i) one)) zero

def mm {n k p : Nat} (A : Mat n k) (B : Mat k p) : Mat n p := fun i j => ∑ t : Fin k, A i t * B t j

/-! ## A layer, the kernels' way -/

/-- The projected features, each row scaled by its node's factor. -/
def preK (H : Mat nN 128) (W : Mat 128 128) : Mat nN 128 := fun i j => mm H W i j * dinv g i
/-- The plain sum over the edges landing on `i` of the source's row. -/
def aggK (P : Mat nN 128) : Mat nN 128 := fun i j => zero + ∑ e ∈ into g i, P (srcRow g e) j
/-- Scaled once more by the target's factor, the bias added. -/
def postK (A : Mat nN 128) (b : Row 128) : Mat nN 128 := fun i j => A i j * dinv g i + b j
def layerK (H : Mat nN 128) (W : Mat 128 128) (b : Row 128) : Mat nN 128 := postK g (aggK g (preK g H W)) b

/-! ## A layer, the reference's way -/

def layerR (H : Mat nN 128) (W : Mat 128 128) (b : Row 128) : Mat nN 128 := fun i j =>
  (zero + ∑ e ∈ into g i, mm H W (srcRow g e) j * (dinv g (srcRow g e) * dinv g (dstRow g e))) + b j

end

/-! ## Column statistics, the kernels' way: twenty blocks of 5000 rows -/

def rowAt (t : Fin 20) (r : Fin 5000) : Fin nN := ⟨5000 * t.val + r.val, by have := t.isLt; have := r.isLt; show 5000 * t.val + r.val < 100000; omega⟩
def blockSum (Y : Mat nN 128) (t : Fin 20) : Row 128 := fun j => ∑ r : Fin 5000, Y (rowAt t r) j
/-- The accumulator after point `n`: zeroed at the first point, one block's column sums added per point. -/
def runSum (Y : Mat nN 128) : (n : ℕ) → n < 20 → Row 128
  | 0, h => fun j => zero + blockSum Y ⟨0, h⟩ j
  | n + 1, h => fun j => runSum Y n (Nat.lt_of_succ_lt h) j + blockSum Y ⟨n + 1, h⟩ j
def colSumK (Y : Mat nN 128) : Row 128 := runSum Y 19 (by decide)
def sq (Y : Mat nN 128) : Mat nN 128 := fun i j => Y i j * Y i j
def meanK (Y : Mat nN 128) : Row 128 := fun j => Ideal.div (colSumK Y j) count
def varK (Y : Mat nN 128) : Row 128 := fun j => Ideal.div (colSumK (sq Y) j) count - meanK Y j * meanK Y j

/-! ## Column statistics, the reference's way -/

def colSumR (Y : Mat nN 128) : Row 128 := fun j => zero + ∑ i : Fin nN, Y i j
def meanR (Y : Mat nN 128) : Row 128 := fun j => Ideal.div (colSumR Y j) count
/-- The divisor of the variance: the count less the (zero) degrees of freedom given up. -/
def divisorR : EReal := count - FloatOps.sitofp (F := Ideal) .f32 (0#32 : BitVec 32)
def varR (Y : Mat nN 128) : Row 128 := fun j =>
  Scalar.select (FloatOps.cmpf (F := Ideal) (φ := .f32) .ogt divisorR zero)
    (Ideal.div (zero + ∑ i : Fin nN, (Y i j - meanR Y j) * (Y i j - meanR Y j)) divisorR) nanWord

/-! ## Normalise, scale, shift, clip at zero (one form for both) -/

def bnrelu (Y : Mat nN 128) (mean var γ β : Row 128) : Mat nN 128 := fun i j =>
  max ((Y i j - mean j) * Ideal.rsqrt (var j + eps) * γ j + β j) zero

/-! ## The classifier and the row-wise log-softmax -/

def logits (H : Mat nN 128) (Wc : Mat 128 64) (bc : Row 64) : Mat nN 64 := fun i j => mm H Wc i j + bc j
/-- A row's maximum as the fold of `max` from minus infinity over its columns. -/
def rowMax (Z : Mat nN 64) (i : Fin nN) : EReal := (Finset.univ : Finset (Fin 64)).fold max negInf (fun t => Z i t)
def lsmK (Z : Mat nN 64) : Mat nN 64 := fun i j =>
  (Z i j - rowMax Z i) - Ideal.log (∑ t : Fin 64, Ideal.exp (Z i t - rowMax Z i))
def lsmR (Z : Mat nN 64) : Mat nN 64 := fun i j =>
  (Z i j - max negInf (rowMax Z i)) - Ideal.log (zero + ∑ t : Fin 64, Ideal.exp (Z i t - max negInf (rowMax Z i)))

/-! ## The whole network -/

section
variable (g : Fin 2 → Fin nE → BitVec 32)
variable (x : Mat nN 128) (W1 : Mat 128 128) (b1 γ1 β1 : Row 128) (W2 : Mat 128 128) (b2 γ2 β2 : Row 128) (Wc : Mat 128 64) (bc : Row 64)

def y1K : Mat nN 128 := layerK g x W1 b1
def h1K : Mat nN 128 := bnrelu (y1K g x W1 b1) (meanK (y1K g x W1 b1)) (varK (y1K g x W1 b1)) γ1 β1
def y2K : Mat nN 128 := layerK g (h1K g x W1 b1 γ1 β1) W2 b2
def h2K : Mat nN 128 := bnrelu (y2K g x W1 b1 γ1 β1 W2 b2) (meanK (y2K g x W1 b1 γ1 β1 W2 b2)) (varK (y2K g x W1 b1 γ1 β1 W2 b2)) γ2 β2
def finalK : Mat nN 64 := lsmK (logits (h2K g x W1 b1 γ1 β1 W2 b2 γ2 β2) Wc bc)

def y1R : Mat nN 128 := layerR g x W1 b1
def h1R : Mat nN 128 := bnrelu (y1R g x W1 b1) (meanR (y1R g x W1 b1)) (varR (y1R g x W1 b1)) γ1 β1
def y2R : Mat nN 128 := layerR g (h1R g x W1 b1 γ1 β1) W2 b2
def h2R : Mat nN 128 := bnrelu (y2R g x W1 b1 γ1 β1 W2 b2) (meanR (y2R g x W1 b1 γ1 β1 W2 b2)) (varR (y2R g x W1 b1 γ1 β1 W2 b2)) γ2 β2
def finalR : Mat nN 64 := lsmR (logits (h2R g x W1 b1 γ1 β1 W2 b2 γ2 β2) Wc bc)
end

end Cert.Stages

end
-- ==== Proof.KIVal.Args.lean ====
/-
  The kernel program's arguments as plain index-level functions of the launch memory: the feature matrix, the edge
  words (extended by one self loop per node), the two layers' weights, biases, scales and shifts, and the
  classifier's weight and bias.
-/
import proofs.«156713_j13589276524898_2_alg».proof.Proof.Stages
import proofs.«156713_j13589276524898_2_alg».proof.KernelIdeal
import Idealize.ShloMosaic.Lib.ValueIdx

noncomputable section

namespace Cert.KernelIdeal.HandVal

open Cert.KernelIdeal Idealize.ShloMosaic Idealize.ShloMosaic.TcCoe Idealize.ShloMosaic.ValueIdx Idealize.SL.Sem

variable (m : (ℓ : Loc nD τ sig) → Buf (Elt Ideal) ℓ) (c : Dev nD)

/-- The node features `x[i, k]`. -/
def xOf : Cert.Stages.Mat 100000 128 := fun i k => (m ((c : Thread nD τ).loc main_arg0) : S100000x128.Idx → EReal) (ix2 i k)
/-- The given edge words: row 0 the sources, row 1 the targets. -/
def eiOf : Fin 2 → Fin 1600000 → BitVec 32 := fun r e => (m ((c : Thread nD τ).loc main_arg1) : S2x1600000.Idx → BitVec 32) (ix2 r e)
/-- The extended list's endpoint words. -/
def gOf : Fin 2 → Fin Cert.Stages.nE → BitVec 32 := Cert.Stages.extend (eiOf m c)
def w1Of : Cert.Stages.Mat 128 128 := fun k j => (m ((c : Thread nD τ).loc main_arg2) : S128x128.Idx → EReal) (ix2 k j)
def b1Of : Cert.Stages.Row 128 := fun j => (m ((c : Thread nD τ).loc main_arg3) : S128.Idx → EReal) (ix1 j)
def g1Of : Cert.Stages.Row 128 := fun j => (m ((c : Thread nD τ).loc main_arg4) : S128.Idx → EReal) (ix1 j)
def be1Of : Cert.Stages.Row 128 := fun j => (m ((c : Thread nD τ).loc main_arg5) : S128.Idx → EReal) (ix1 j)
def w2Of : Cert.Stages.Mat 128 128 := fun k j => (m ((c : Thread nD τ).loc main_arg6) : S128x128.Idx → EReal) (ix2 k j)
def b2Of : Cert.Stages.Row 128 := fun j => (m ((c : Thread nD τ).loc main_arg7) : S128.Idx → EReal) (ix1 j)
def g2Of : Cert.Stages.Row 128 := fun j => (m ((c : Thread nD τ).loc main_arg8) : S128.Idx → EReal) (ix1 j)
def be2Of : Cert.Stages.Row 128 := fun j => (m ((c : Thread nD τ).loc main_arg9) : S128.Idx → EReal) (ix1 j)
def wcOf : Cert.Stages.Mat 128 64 := fun k j => (m ((c : Thread nD τ).loc main_arg10) : S128x64.Idx → EReal) (ix2 k j)
def bcOf : Cert.Stages.Row 64 := fun j => (m ((c : Thread nD τ).loc main_arg11) : S64.Idx → EReal) (ix1 j)

end Cert.KernelIdeal.HandVal

end
-- ==== Proof.KIVal.ResultBase.lean ====
import proofs.«156713_j13589276524898_2_alg».proof.Proof.KI.Run
import proofs.«156713_j13589276524898_2_alg».proof.Proof.KIVal.Args
import proofs.«156713_j13589276524898_2_alg».proof.Proof.Stages
import Idealize.ShloMosaic.Lib.ValueIdx

/-! # Reading the kernel program's run: the buffers a stage leaves alone, and an array named entry by entry

A buffer no operation of a stretch writes, and no region has as an output, holds after it what it held before; so a
buffer written once is read later at what it was written. An array of two axes is known when each of its entries is. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Cert.Stages
open scoped BigOperators

variable (m : (ℓ : Loc nD τ sig) → Buf (Elt Ideal) ℓ) (c : Dev nD)

/-! ## Arrays from their entries -/

theorem arr2_ext {α : Type} {a b : ℕ} (f g : (⟨2, ![a, b]⟩ : Shape).Idx → α) (h : ∀ i j, f (ix2 i j) = g (ix2 i j)) : f = g :=
  funext fun I => by rw [eq_ix2 I]; exact h _ _

theorem row_ext {α : Type} {b : ℕ} (f g : (⟨2, ![1, b]⟩ : Shape).Idx → α) (h : ∀ k, f (ix2 (0 : Fin 1) k) = g (ix2 (0 : Fin 1) k)) : f = g :=
  arr2_ext f g fun i j => by rw [Subsingleton.elim i (0 : Fin 1)]; exact h j

theorem col_ext {α : Type} {a : ℕ} (f g : (⟨2, ![a, 1]⟩ : Shape).Idx → α) (h : ∀ i, f (ix2 i (0 : Fin 1)) = g (ix2 i (0 : Fin 1))) : f = g :=
  arr2_ext f g fun i j => by rw [Subsingleton.elim j (0 : Fin 1)]; exact h i

/-! ## Buffers left alone between two boundaries -/

theorem keep_3_4 (r : Ref sig .tc) (h4 : r ∉ ([main_v25] : List (Ref sig .tc))) :
    W4 m c (Proc.devRef .tc r) = W3 m c (Proc.devRef .tc r) :=
  (W4_keep m c r h4)
theorem keep_3_5 (r : Ref sig .tc) (h4 : r ∉ ([main_v25] : List (Ref sig .tc))) (h5 : r ∉ hostOps1_W) :
    W5 m c (Proc.devRef .tc r) = W3 m c (Proc.devRef .tc r) :=
  ((W5_keep m c r h5)).trans (W4_keep m c r h4)
theorem keep_3_6 (r : Ref sig .tc) (h4 : r ∉ ([main_v25] : List (Ref sig .tc))) (h5 : r ∉ hostOps1_W) (h6 : r ∉ ([main_v37_0, main_v37_1] : List (Ref sig .tc))) :
    W6 m c (Proc.devRef .tc r) = W3 m c (Proc.devRef .tc r) :=
  (((W6_keep m c r h6)).trans (W5_keep m c r h5)).trans (W4_keep m c r h4)
theorem keep_3_7 (r : Ref sig .tc) (h4 : r ∉ ([main_v25] : List (Ref sig .tc))) (h5 : r ∉ hostOps1_W) (h6 : r ∉ ([main_v37_0, main_v37_1] : List (Ref sig .tc))) (h7 : r ∉ hostOps2_W) :
    W7 m c (Proc.devRef .tc r) = W3 m c (Proc.devRef .tc r) :=
  ((((W7_keep m c r h7)).trans (W6_keep m c r h6)).trans (W5_keep m c r h5)).trans (W4_keep m c r h4)
theorem keep_3_8 (r : Ref sig .tc) (h4 : r ∉ ([main_v25] : List (Ref sig .tc))) (h5 : r ∉ hostOps1_W) (h6 : r ∉ ([main_v37_0, main_v37_1] : List (Ref sig .tc))) (h7 : r ∉ hostOps2_W) (h8 : r ∉ ([main_v44] : List (Ref sig .tc))) :
    W8 m c (Proc.devRef .tc r) = W3 m c (Proc.devRef .tc r) :=
  (((((W8_keep m c r h8)).trans (W7_keep m c r h7)).trans (W6_keep m c r h6)).trans (W5_keep m c r h5)).trans (W4_keep m c r h4)
theorem keep_3_9 (r : Ref sig .tc) (h4 : r ∉ ([main_v25] : List (Ref sig .tc))) (h5 : r ∉ hostOps1_W) (h6 : r ∉ ([main_v37_0, main_v37_1] : List (Ref sig .tc))) (h7 : r ∉ hostOps2_W) (h8 : r ∉ ([main_v44] : List (Ref sig .tc))) (h9 : r ∉ hostOps3_W) :
    W9 m c (Proc.devRef .tc r) = W3 m c (Proc.devRef .tc r) :=
  ((((((W9_keep m c r h9)).trans (W8_keep m c r h8)).trans (W7_keep m c r h7)).trans (W6_keep m c r h6)).trans (W5_keep m c r h5)).trans (W4_keep m c r h4)
theorem keep_3_10 (r : Ref sig .tc) (h4 : r ∉ ([main_v25] : List (Ref sig .tc))) (h5 : r ∉ hostOps1_W) (h6 : r ∉ ([main_v37_0, main_v37_1] : List (Ref sig .tc))) (h7 : r ∉ hostOps2_W) (h8 : r ∉ ([main_v44] : List (Ref sig .tc))) (h9 : r ∉ hostOps3_W) (h10 : r ∉ ([main_v56_0, main_v56_1] : List (Ref sig .tc))) :
    W10 m c (Proc.devRef .tc r) = W3 m c (Proc.devRef .tc r) :=
  (((((((W10_keep m c r h10)).trans (W9_keep m c r h9)).trans (W8_keep m c r h8)).trans (W7_keep m c r h7)).trans (W6_keep m c r h6)).trans (W5_keep m c r h5)).trans (W4_keep m c r h4)
theorem keep_3_11 (r : Ref sig .tc) (h4 : r ∉ ([main_v25] : List (Ref sig .tc))) (h5 : r ∉ hostOps1_W) (h6 : r ∉ ([main_v37_0, main_v37_1] : List (Ref sig .tc))) (h7 : r ∉ hostOps2_W) (h8 : r ∉ ([main_v44] : List (Ref sig .tc))) (h9 : r ∉ hostOps3_W) (h10 : r ∉ ([main_v56_0, main_v56_1] : List (Ref sig .tc))) (h11 : r ∉ hostOps4_W) :
    W11 m c (Proc.devRef .tc r) = W3 m c (Proc.devRef .tc r) :=
  ((((((((W11_keep m c r h11)).trans (W10_keep m c r h10)).trans (W9_keep m c r h9)).trans (W8_keep m c r h8)).trans (W7_keep m c r h7)).trans (W6_keep m c r h6)).trans (W5_keep m c r h5)).trans (W4_keep m c r h4)
theorem keep_4_5 (r : Ref sig .tc) (h5 : r ∉ hostOps1_W) :
    W5 m c (Proc.devRef .tc r) = W4 m c (Proc.devRef .tc r) :=
  (W5_keep m c r h5)
theorem keep_4_6 (r : Ref sig .tc) (h5 : r ∉ hostOps1_W) (h6 : r ∉ ([main_v37_0, main_v37_1] : List (Ref sig .tc))) :
    W6 m c (Proc.devRef .tc r) = W4 m c (Proc.devRef .tc r) :=
  ((W6_keep m c r h6)).trans (W5_keep m c r h5)
theorem keep_4_7 (r : Ref sig .tc) (h5 : r ∉ hostOps1_W) (h6 : r ∉ ([main_v37_0, main_v37_1] : List (Ref sig .tc))) (h7 : r ∉ hostOps2_W) :
    W7 m c (Proc.devRef .tc r) = W4 m c (Proc.devRef .tc r) :=
  (((W7_keep m c r h7)).trans (W6_keep m c r h6)).trans (W5_keep m c r h5)
theorem keep_4_8 (r : Ref sig .tc) (h5 : r ∉ hostOps1_W) (h6 : r ∉ ([main_v37_0, main_v37_1] : List (Ref sig .tc))) (h7 : r ∉ hostOps2_W) (h8 : r ∉ ([main_v44] : List (Ref sig .tc))) :
    W8 m c (Proc.devRef .tc r) = W4 m c (Proc.devRef .tc r) :=
  ((((W8_keep m c r h8)).trans (W7_keep m c r h7)).trans (W6_keep m c r h6)).trans (W5_keep m c r h5)
theorem keep_4_9 (r : Ref sig .tc) (h5 : r ∉ hostOps1_W) (h6 : r ∉ ([main_v37_0, main_v37_1] : List (Ref sig .tc))) (h7 : r ∉ hostOps2_W) (h8 : r ∉ ([main_v44] : List (Ref sig .tc))) (h9 : r ∉ hostOps3_W) :
    W9 m c (Proc.devRef .tc r) = W4 m c (Proc.devRef .tc r) :=
  (((((W9_keep m c r h9)).trans (W8_keep m c r h8)).trans (W7_keep m c r h7)).trans (W6_keep m c r h6)).trans (W5_keep m c r h5)
theorem keep_4_10 (r : Ref sig .tc) (h5 : r ∉ hostOps1_W) (h6 : r ∉ ([main_v37_0, main_v37_1] : List (Ref sig .tc))) (h7 : r ∉ hostOps2_W) (h8 : r ∉ ([main_v44] : List (Ref sig .tc))) (h9 : r ∉ hostOps3_W) (h10 : r ∉ ([main_v56_0, main_v56_1] : List (Ref sig .tc))) :
    W10 m c (Proc.devRef .tc r) = W4 m c (Proc.devRef .tc r) :=
  ((((((W10_keep m c r h10)).trans (W9_keep m c r h9)).trans (W8_keep m c r h8)).trans (W7_keep m c r h7)).trans (W6_keep m c r h6)).trans (W5_keep m c r h5)
theorem keep_4_11 (r : Ref sig .tc) (h5 : r ∉ hostOps1_W) (h6 : r ∉ ([main_v37_0, main_v37_1] : List (Ref sig .tc))) (h7 : r ∉ hostOps2_W) (h8 : r ∉ ([main_v44] : List (Ref sig .tc))) (h9 : r ∉ hostOps3_W) (h10 : r ∉ ([main_v56_0, main_v56_1] : List (Ref sig .tc))) (h11 : r ∉ hostOps4_W) :
    W11 m c (Proc.devRef .tc r) = W4 m c (Proc.devRef .tc r) :=
  (((((((W11_keep m c r h11)).trans (W10_keep m c r h10)).trans (W9_keep m c r h9)).trans (W8_keep m c r h8)).trans (W7_keep m c r h7)).trans (W6_keep m c r h6)).trans (W5_keep m c r h5)
theorem keep_5_6 (r : Ref sig .tc) (h6 : r ∉ ([main_v37_0, main_v37_1] : List (Ref sig .tc))) :
    W6 m c (Proc.devRef .tc r) = W5 m c (Proc.devRef .tc r) :=
  (W6_keep m c r h6)
theorem keep_5_7 (r : Ref sig .tc) (h6 : r ∉ ([main_v37_0, main_v37_1] : List (Ref sig .tc))) (h7 : r ∉ hostOps2_W) :
    W7 m c (Proc.devRef .tc r) = W5 m c (Proc.devRef .tc r) :=
  ((W7_keep m c r h7)).trans (W6_keep m c r h6)
theorem keep_5_8 (r : Ref sig .tc) (h6 : r ∉ ([main_v37_0, main_v37_1] : List (Ref sig .tc))) (h7 : r ∉ hostOps2_W) (h8 : r ∉ ([main_v44] : List (Ref sig .tc))) :
    W8 m c (Proc.devRef .tc r) = W5 m c (Proc.devRef .tc r) :=
  (((W8_keep m c r h8)).trans (W7_keep m c r h7)).trans (W6_keep m c r h6)
theorem keep_5_9 (r : Ref sig .tc) (h6 : r ∉ ([main_v37_0, main_v37_1] : List (Ref sig .tc))) (h7 : r ∉ hostOps2_W) (h8 : r ∉ ([main_v44] : List (Ref sig .tc))) (h9 : r ∉ hostOps3_W) :
    W9 m c (Proc.devRef .tc r) = W5 m c (Proc.devRef .tc r) :=
  ((((W9_keep m c r h9)).trans (W8_keep m c r h8)).trans (W7_keep m c r h7)).trans (W6_keep m c r h6)
theorem keep_5_10 (r : Ref sig .tc) (h6 : r ∉ ([main_v37_0, main_v37_1] : List (Ref sig .tc))) (h7 : r ∉ hostOps2_W) (h8 : r ∉ ([main_v44] : List (Ref sig .tc))) (h9 : r ∉ hostOps3_W) (h10 : r ∉ ([main_v56_0, main_v56_1] : List (Ref sig .tc))) :
    W10 m c (Proc.devRef .tc r) = W5 m c (Proc.devRef .tc r) :=
  (((((W10_keep m c r h10)).trans (W9_keep m c r h9)).trans (W8_keep m c r h8)).trans (W7_keep m c r h7)).trans (W6_keep m c r h6)
theorem keep_5_11 (r : Ref sig .tc) (h6 : r ∉ ([main_v37_0, main_v37_1] : List (Ref sig .tc))) (h7 : r ∉ hostOps2_W) (h8 : r ∉ ([main_v44] : List (Ref sig .tc))) (h9 : r ∉ hostOps3_W) (h10 : r ∉ ([main_v56_0, main_v56_1] : List (Ref sig .tc))) (h11 : r ∉ hostOps4_W) :
    W11 m c (Proc.devRef .tc r) = W5 m c (Proc.devRef .tc r) :=
  ((((((W11_keep m c r h11)).trans (W10_keep m c r h10)).trans (W9_keep m c r h9)).trans (W8_keep m c r h8)).trans (W7_keep m c r h7)).trans (W6_keep m c r h6)
theorem keep_6_7 (r : Ref sig .tc) (h7 : r ∉ hostOps2_W) :
    W7 m c (Proc.devRef .tc r) = W6 m c (Proc.devRef .tc r) :=
  (W7_keep m c r h7)
theorem keep_6_8 (r : Ref sig .tc) (h7 : r ∉ hostOps2_W) (h8 : r ∉ ([main_v44] : List (Ref sig .tc))) :
    W8 m c (Proc.devRef .tc r) = W6 m c (Proc.devRef .tc r) :=
  ((W8_keep m c r h8)).trans (W7_keep m c r h7)
theorem keep_6_9 (r : Ref sig .tc) (h7 : r ∉ hostOps2_W) (h8 : r ∉ ([main_v44] : List (Ref sig .tc))) (h9 : r ∉ hostOps3_W) :
    W9 m c (Proc.devRef .tc r) = W6 m c (Proc.devRef .tc r) :=
  (((W9_keep m c r h9)).trans (W8_keep m c r h8)).trans (W7_keep m c r h7)
theorem keep_6_10 (r : Ref sig .tc) (h7 : r ∉ hostOps2_W) (h8 : r ∉ ([main_v44] : List (Ref sig .tc))) (h9 : r ∉ hostOps3_W) (h10 : r ∉ ([main_v56_0, main_v56_1] : List (Ref sig .tc))) :
    W10 m c (Proc.devRef .tc r) = W6 m c (Proc.devRef .tc r) :=
  ((((W10_keep m c r h10)).trans (W9_keep m c r h9)).trans (W8_keep m c r h8)).trans (W7_keep m c r h7)
theorem keep_6_11 (r : Ref sig .tc) (h7 : r ∉ hostOps2_W) (h8 : r ∉ ([main_v44] : List (Ref sig .tc))) (h9 : r ∉ hostOps3_W) (h10 : r ∉ ([main_v56_0, main_v56_1] : List (Ref sig .tc))) (h11 : r ∉ hostOps4_W) :
    W11 m c (Proc.devRef .tc r) = W6 m c (Proc.devRef .tc r) :=
  (((((W11_keep m c r h11)).trans (W10_keep m c r h10)).trans (W9_keep m c r h9)).trans (W8_keep m c r h8)).trans (W7_keep m c r h7)
theorem keep_7_8 (r : Ref sig .tc) (h8 : r ∉ ([main_v44] : List (Ref sig .tc))) :
    W8 m c (Proc.devRef .tc r) = W7 m c (Proc.devRef .tc r) :=
  (W8_keep m c r h8)
theorem keep_7_9 (r : Ref sig .tc) (h8 : r ∉ ([main_v44] : List (Ref sig .tc))) (h9 : r ∉ hostOps3_W) :
    W9 m c (Proc.devRef .tc r) = W7 m c (Proc.devRef .tc r) :=
  ((W9_keep m c r h9)).trans (W8_keep m c r h8)
theorem keep_7_10 (r : Ref sig .tc) (h8 : r ∉ ([main_v44] : List (Ref sig .tc))) (h9 : r ∉ hostOps3_W) (h10 : r ∉ ([main_v56_0, main_v56_1] : List (Ref sig .tc))) :
    W10 m c (Proc.devRef .tc r) = W7 m c (Proc.devRef .tc r) :=
  (((W10_keep m c r h10)).trans (W9_keep m c r h9)).trans (W8_keep m c r h8)
theorem keep_7_11 (r : Ref sig .tc) (h8 : r ∉ ([main_v44] : List (Ref sig .tc))) (h9 : r ∉ hostOps3_W) (h10 : r ∉ ([main_v56_0, main_v56_1] : List (Ref sig .tc))) (h11 : r ∉ hostOps4_W) :
    W11 m c (Proc.devRef .tc r) = W7 m c (Proc.devRef .tc r) :=
  ((((W11_keep m c r h11)).trans (W10_keep m c r h10)).trans (W9_keep m c r h9)).trans (W8_keep m c r h8)
theorem keep_8_9 (r : Ref sig .tc) (h9 : r ∉ hostOps3_W) :
    W9 m c (Proc.devRef .tc r) = W8 m c (Proc.devRef .tc r) :=
  (W9_keep m c r h9)
theorem keep_8_10 (r : Ref sig .tc) (h9 : r ∉ hostOps3_W) (h10 : r ∉ ([main_v56_0, main_v56_1] : List (Ref sig .tc))) :
    W10 m c (Proc.devRef .tc r) = W8 m c (Proc.devRef .tc r) :=
  ((W10_keep m c r h10)).trans (W9_keep m c r h9)
theorem keep_8_11 (r : Ref sig .tc) (h9 : r ∉ hostOps3_W) (h10 : r ∉ ([main_v56_0, main_v56_1] : List (Ref sig .tc))) (h11 : r ∉ hostOps4_W) :
    W11 m c (Proc.devRef .tc r) = W8 m c (Proc.devRef .tc r) :=
  (((W11_keep m c r h11)).trans (W10_keep m c r h10)).trans (W9_keep m c r h9)
theorem keep_9_10 (r : Ref sig .tc) (h10 : r ∉ ([main_v56_0, main_v56_1] : List (Ref sig .tc))) :
    W10 m c (Proc.devRef .tc r) = W9 m c (Proc.devRef .tc r) :=
  (W10_keep m c r h10)
theorem keep_9_11 (r : Ref sig .tc) (h10 : r ∉ ([main_v56_0, main_v56_1] : List (Ref sig .tc))) (h11 : r ∉ hostOps4_W) :
    W11 m c (Proc.devRef .tc r) = W9 m c (Proc.devRef .tc r) :=
  ((W11_keep m c r h11)).trans (W10_keep m c r h10)
theorem keep_10_11 (r : Ref sig .tc) (h11 : r ∉ hostOps4_W) :
    W11 m c (Proc.devRef .tc r) = W10 m c (Proc.devRef .tc r) :=
  (W11_keep m c r h11)

/-- An argument array at the third boundary is as launched: the first three host stretches write none. -/
theorem arg_3 (r : Ref sig .tc) (h1 : r ∉ hostOps0_W) (h2 : r ∉ hostOps0_1_W) (h3 : r ∉ hostOps0_2_W) :
    W3 m c (Proc.devRef .tc r) = m ((c : Thread nD τ).loc r) :=
  ((W3_keep m c r h3).trans (W2_keep m c r h2)).trans (W1_keep m c r h1)

end Cert.KernelIdeal.HandVal

end
-- ==== Proof.LibPlainDot.lean ====
/-
  A matrix product whose dimension numbers are the plain ones — rows by one contracted axis times that axis by
  columns, no batch axis — read at an output index (r, c): the sum over the contracted coordinate k of
  left (r, k) times right (k, c). Stated for any dimension record with those axis lists, so that a kernel's
  tile product and a host's whole product are both this one sum over `Fin K`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The contraction sum of a plain product is the sum over the one contracted coordinate. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have h1 : d.lhsContracting = [1] := by rw [← hd]
  have h2 : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ =>
      subst hd
      unfold DotDims.lhsIdx
      rw [dif_neg (by exact List.not_mem_nil), dif_pos (by exact List.mem_singleton.mpr rfl)]
      rfl
    | ⟨1, _⟩ => exact (d.lhsIdx_val_of_single h1 j _).trans hk)
  have er : d.rhsIdx j ((contrEquiv1 d K hr hs).symm k) = ix2 k (j 1) := funext fun a => Fin.ext (by
    match a with
    | ⟨0, _⟩ => exact (d.rhsIdx_val_of_single h2 j _).trans hk
    | ⟨1, _⟩ =>
      subst hd
      unfold DotDims.rhsIdx
      rw [dif_neg (by exact List.not_mem_nil), dif_pos (by exact List.mem_singleton.mpr rfl)]
      rfl)
  exact congrArg₂ (· * ·) (congrArg l el) (congrArg r er)

/-- A host product with plain dimension numbers, at the exact reals, read at an index. -/
theorem dotGeneral_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (contr_sum d h1 h2 h3 h4 h5 h6 l r j)

/-- A tile product into the zero accumulator with plain dimension numbers, at the exact reals, read at an index. -/
theorem matmul_zero_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (contr_sum d h1 h2 h3 h4 h5 h6 l r j)

end Idealize.ShloMosaic.PlainDot

end
-- ==== Proof.KIVal.Pay0.lean ====
import proofs.«156713_j13589276524898_2_alg».proof.Proof.Gen.KernelIdeal.Skeleton
import proofs.«156713_j13589276524898_2_alg».proof.Proof.LibPlainDot
import Idealize.ShloMosaic.Lib.Pipeline.Value
import Idealize.ShloMosaic.Lib.ValueIdx
import Idealize.ShloMosaic.PureOps.Ideal.Laws

/-! # The first dense layer's body at an index, over the exact reals

Rounding to bf16 is the identity at the exact reals, and a tile product into a zero accumulator is the plain sum
over the contracted coordinate; so entry `(p, q)` of what the body stores is row `p` of the row block times column
`q` of the weights, times the `p`-th entry of the scale column. -/

set_option maxRecDepth 16384

noncomputable section

namespace Cert.KernelIdeal.HandVal

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- A column broadcast along the rows reads the column. -/
theorem bcast_col_5000x128 (x : Vec Ideal S5000x1 .f32) (p : Fin 5000) (q : Fin 128) :
    broadcastTo S5000x128 x broadcasts_S5000x1_S5000x128 (ix2 p q) = x (ix2 p (0 : Fin 1)) :=
  broadcastTo_apply x broadcasts_S5000x1_S5000x128 (ix2 p q) (ix2 p (0 : Fin 1)) (by
    intro a
    match a with
    | ⟨0, _⟩ => rfl
    | ⟨1, _⟩ => rfl)

/-- The body's stored value at `(p, q)`. -/
theorem pay0_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  show (FloatOps.matmul dot_S5000x128_S128x128_S5000x128_1_0_0_1_n_n none (truncf .bf16 x0 bitsLt_bf16_f32) (truncf .bf16 x1 bitsLt_bf16_f32) (constant (F := Ideal) S5000x128 .f32 0x00000000#32) (ix2 p q))
      * (broadcastTo S5000x128 (shapeCast S5000x1 x2 shapeCasts_S5000x1_S5000x1) broadcasts_S5000x1_S5000x128 (ix2 p q)) = _
  rw [PlainDot.matmul_zero_plain dot_S5000x128_S128x128_S5000x128_1_0_0_1_n_n rfl rfl rfl rfl rfl rfl none _ _ (ix2 p q)]
  rw [shapeCast_self, bcast_col_5000x128]
  rfl

end Cert.KernelIdeal.HandVal

end
-- ==== Proof.KIVal.Dense0Val.lean ====
import proofs.«156713_j13589276524898_2_alg».proof.Proof.KI.Dense0
import proofs.«156713_j13589276524898_2_alg».proof.Proof.KIVal.Pay0
import Idealize.ShloMosaic.Lib.Pipeline.Value
import Idealize.ShloMosaic.Lib.ValueIdx

/-! # The first dense layer's output array, whatever its input arrays hold

Each grid point writes one block of 5000 rows; block `t` of the output is computed from block `t` of the rows, the
whole weight matrix and block `t` of the scale column, so the blocks are the restrictions of one function of the
three arrays (`dense0`), and the twenty blocks cover the output array. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The first dense layer's output as one function of its three input arrays: entry `(i, j)` is the `i`-th row of
    `xA` times the `j`-th column of `wA`, scaled by the `i`-th entry of the column `dA`. -/
def dense0 (xA : S100000x128.Idx → EReal) (wA : S128x128.Idx → EReal) (dA : S100000x1.Idx → EReal) : S100000x128.Idx → EReal :=
  fun I => (∑ k : Fin 128, xA (ix2 (I 0) k) * wA (ix2 k (I 1))) * dA (ix2 (I 0) (0 : Fin 1))

/-- The body's payload on blocks whose entries are the arrays' entries of row `r`: the output's entry `(r, q)`. -/
theorem dense0_block (xA : S100000x128.Idx → EReal) (wA : S128x128.Idx → EReal) (dA : S100000x1.Idx → EReal)
    (b0 : Vec Ideal S5000x128 .f32) (b1 : Vec Ideal S128x128 .f32) (b2 : Vec Ideal S5000x1 .f32)
    (r : Fin 100000) (p : Fin 5000) (q : Fin 128)
    (h0 : ∀ k : Fin 128, b0 (ix2 p k) = xA (ix2 r k)) (h1 : ∀ k : Fin 128, b1 (ix2 k q) = wA (ix2 k q))
    (h2 : b2 (ix2 p (0 : Fin 1)) = dA (ix2 r (0 : Fin 1))) :
    k0_pay1 b0 b1 b2 (ix2 p q) = dense0 xA wA dA (ix2 r q) := by
  rw [pay0_apply, h2]
  simp only [h0, h1]
  rfl

/-- Where the blocks sit: at point `t` the row block, the scale column and the output block are the `t`-th of their
    arrays, and the weight matrix is the whole of its array. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 20 :=
  (by decide +kernel : ∀ t : Fin grid0.N, _)

/-- Every block of rows is some point's. -/
theorem idx_onto0 : ∀ q0 : Fin 20, ∃ t : Fin cfg0.N, t.val = q0.val :=
  (by decide +kernel : ∀ q0 : Fin 20, ∃ t : Fin grid0.N, t.val = q0.val)

/-- What point `t` writes back is block `t` of `dense0` of the arrays as the pipeline finds them: row `r` of the
    block is row `5000 t + r` of the arrays. -/
theorem flushed0_eq (c : Dev nD) (t : Fin cfg0.N) :
    (dat0 V c).flushed 3 t = ((cfg0.win 3).blk t).view.read (Elt Ideal) (dense0 (V c main_arg0) (V c main_arg2) (V c main_v17)) := by
  show (cfg0.win 3).cut (grid0.coords t) ((dat0 V c).after 3 t) = _
  rw [dat0_after_3]
  unfold res0
  rw [View.canon_unit_zero hz]
  simp only [View.ld_unit_zero (S := S5000x128) hz, View.ld_unit_zero (S := S128x128) hz, View.ld_unit_zero (S := S5000x1) hz]
  funext j
  obtain ⟨e00, e01, e10, e11, e20, e21, e30, e31, ht⟩ := idx0 t
  obtain ⟨p, q, rfl⟩ : ∃ (p : Fin 5000) (q : Fin 128), j = ix2 p q := ⟨j 0, j 1, eq_ix2 j⟩
  have hp : p.val < 5000 := p.isLt
  have hE : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  have h0 : ∀ k : Fin 128, ((cfg0.win 0).blk t).view.emb (ix2 p k) = ix2 (⟨t.val * 5000 + p.val, by omega⟩ : Fin 100000) k := by
    intro k; funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, ((cfg0.win 1).blk t).view.emb (ix2 k q) = ix2 k q := by
    intro k; funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h2 : ((cfg0.win 2).blk t).view.emb (ix2 p (0 : Fin 1)) = ix2 (⟨t.val * 5000 + p.val, by omega⟩ : Fin 100000) (0 : Fin 1) := by
    funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega
  show k0_pay1 (blk0 V c 0 t) (blk0 V c 1 t) (blk0 V c 2 t) (ix2 p q)
      = dense0 (V c main_arg0) (V c main_arg2) (V c main_v17) (((cfg0.win 3).blk t).view.emb (ix2 p q))
  rw [hE]
  exact dense0_block (V c main_arg0) (V c main_arg2) (V c main_v17) (blk0 V c 0 t) (blk0 V c 1 t) (blk0 V c 2 t)
    ⟨t.val * 5000 + p.val, by omega⟩ p q (fun k => congrArg (V c main_arg0) (h0 k)) (fun k => congrArg (V c main_arg2) (h1 k))
    (congrArg (V c main_v17) h2)

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v25).slice (win0_3.rect t)).set ↔ _
  rw [View.set_slice_whole, Rect.mem_set_unit]
  exact Iff.rfl

/-- Every index of the output array is in some point's block: row `r` is in block `r / 5000`. -/
theorem covered0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 5000, by omega⟩
  have ht' : t.val = (i 0).val / 5000 := ht
  obtain ⟨-, -, -, -, -, -, e30, e31, -⟩ := idx0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the pipeline, whatever the arrays held when it started. -/
theorem dense0_arr (c : Dev nD) :
    (dat0 V c).arrAt 3 cfg0.N = dense0 (V c main_arg0) (V c main_arg2) (V c main_v17) :=
  (dat0 V c).arrAt_eq_of_cover 3 _ (fun t _ => flushed0_eq V c t) covered0

/-- The same, read at an index; the three input arrays are named through equations, so that a caller may hand the
    contents it knows them to have. -/
theorem dense0_apply (c : Dev nD) (xA : S100000x128.Idx → EReal) (wA : S128x128.Idx → EReal) (dA : S100000x1.Idx → EReal)
    (hx : V c main_arg0 = xA) (hw : V c main_arg2 = wA) (hd : V c main_v17 = dA) (i : Fin 100000) (j : Fin 128) :
    (dat0 V c).arrAt 3 cfg0.N (ix2 i j) = (∑ k : Fin 128, xA (ix2 i k) * wA (ix2 k j)) * dA (ix2 i (0 : Fin 1)) := by
  subst hx hw hd
  rw [dense0_arr]; rfl

end Cert.KernelIdeal.HandVal

end
-- ==== Proof.LibAxisFolds.lean ====
/-
  Sums and maxima of a two-axis array of extended reals along one of its axes, read at an index, and the one entry
  of a one-by-one array. Every float operation is the exact one; the extents are variables, only the ranks and the
  axis lists are literal.

  * `colSum_apply`: the sum of an a-by-b array along its first axis, read at column c, is the sum over k < a of
    the entries (k, c); the accumulator word is the sum's neutral element and contributes nothing.
  * `rowMax_apply`: the maximum of an a-by-b array along its second axis, read at row r, is the fold of max, from
    the value the accumulator word denotes, over the entries (r, k), k < b.
  * `colMax_apply`: the maximum along the first axis, read at column c, is the same fold over the entries (k, c),
    k < a.
  * `extractAt_00`: the element extracted at position (0, 0) of a one-by-one array is its entry (0, 0).
-/
import Idealize.ShloMosaic.Lib.ValueIdx
import Idealize.ShloMosaic.PureOps.Ideal.Laws

noncomputable section

open scoped BigOperators

namespace Cert.LibAxisFolds

open Idealize.ShloMosaic Idealize.ShloMosaic.ValueIdx

/-- The sum of an `[a, b]` array along its first axis, read at column `c`: the sum over that column. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src ?_
  funext ax; apply Fin.ext
  match ax with
  | ⟨0, _⟩ => rfl
  | ⟨1, _⟩ => rfl

/-- The maximum of an `[a, b]` array along its second axis, read at row `r`: the maximum over that row, from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine Finset.fold_congr fun k _ => congrArg src ?_
  funext ax; apply Fin.ext
  match ax with
  | ⟨0, _⟩ => rfl
  | ⟨1, _⟩ => rfl

/-- The maximum of an `[a, b]` array along its first axis, read at column `c`. -/
theorem colMax_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine Finset.fold_congr fun k _ => congrArg src ?_
  funext ax; apply Fin.ext
  match ax with
  | ⟨0, _⟩ => rfl
  | ⟨1, _⟩ => rfl

/-- The one entry of a `[1, 1]` array, extracted at position (0, 0). -/
theorem extractAt_00 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) :=
  congrArg v (funext fun a => Fin.ext (by match a with | ⟨0, _⟩ => rfl | ⟨1, _⟩ => rfl))

end Cert.LibAxisFolds

end
-- ==== Proof.LibDenseRows.lean ====
/-
  General lemmas for a kernel that pushes tokens (rows) through dense layers and a row normalisation, all read at the
  exact (extended) reals, where every float operation is the textbook one:

  * the keepdims column forms: an `[a]` vector viewed as a column `[a, 1]`, and a column `[a, 1]` broadcast along
    the rows of an `[a, b]` array;
  * the sum of an `[a, b]` array along its second axis, read at a row, is the sum over that row;
  * a matrix product of an `[M, K]` array with an `[N, K]` array contracting BOTH second axes (the weight stored
    output-major, as a linear layer keeps it), accumulated into zero, read at `(r, c)`, is `Σ_k lhs (r, k) · rhs (c, k)`;
  * one dense layer: that product plus a bias row `[1, N]` broadcast over the rows.

  Nothing here mentions a particular program: the extents are variables, only ranks and axis lists are literal.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDenseRows

open Idealize.ShloMosaic Idealize.ShloMosaic.ValueIdx

/-! ## The keepdims column forms -/

section Layout
variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's sum -/

/-- The sum of an `[a, b]` array along its second axis, at the exact reals, read at row `r`: the sum over that row
    (the accumulator word is the sum's neutral element, so it contributes nothing). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax; apply Fin.ext
  match ax with
  | ⟨0, _⟩ => rfl
  | ⟨1, _⟩ => rfl

/-! ## A product against an output-major weight -/

section Dense
variable {M K N : ℕ} {φ₁ φ₂ : FTy}

/-- The dimension numbers of `[M, K] · [N, K]ᵀ`: both second axes contracted, no batch axis. -/
abbrev dimsNT (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ :=
  ⟨[1], [1], [0], [0], [], [], wf⟩

variable (wf : DotDims.WF (⟨2, ![M, K]⟩ : Shape) ⟨2, ![N, K]⟩ ⟨2, ![M, N]⟩ [1] [1] [0] [0] [] [])

theorem dimsNT_lhs0 (j : (⟨2, ![M, N]⟩ : Shape).Idx) (q : (dimsNT wf).contr.Idx) :
    ((dimsNT wf).lhsIdx j q 0).val = (j 0).val := by
  unfold DotDims.lhsIdx
  rw [dif_neg (show ¬(0 : Fin (⟨2, ![M, K]⟩ : Shape).rank) ∈ (dimsNT wf).lhsBatch from List.not_mem_nil),
    dif_pos (show (0 : Fin (⟨2, ![M, K]⟩ : Shape).rank) ∈ (dimsNT wf).lhsNonContracting from List.mem_singleton.mpr rfl)]
  rfl
theorem dimsNT_lhs1 (j : (⟨2, ![M, N]⟩ : Shape).Idx) (q : (dimsNT wf).contr.Idx) :
    ((dimsNT wf).lhsIdx j q 1).val = (q ⟨0, Nat.one_pos⟩).val :=
  (dimsNT wf).lhsIdx_val_of_single rfl j q
theorem dimsNT_rhs0 (j : (⟨2, ![M, N]⟩ : Shape).Idx) (q : (dimsNT wf).contr.Idx) :
    ((dimsNT wf).rhsIdx j q 0).val = (j 1).val := by
  unfold DotDims.rhsIdx
  rw [dif_neg (show ¬(0 : Fin (⟨2, ![N, K]⟩ : Shape).rank) ∈ (dimsNT wf).rhsBatch from List.not_mem_nil),
    dif_pos (show (0 : Fin (⟨2, ![N, K]⟩ : Shape).rank) ∈ (dimsNT wf).rhsNonContracting from List.mem_singleton.mpr rfl)]
  rfl
theorem dimsNT_rhs1 (j : (⟨2, ![M, N]⟩ : Shape).Idx) (q : (dimsNT wf).contr.Idx) :
    ((dimsNT wf).rhsIdx j q 1).val = (q ⟨0, Nat.one_pos⟩).val :=
  (dimsNT wf).rhsIdx_val_of_single rfl j q

/-- THE PRODUCT READ AT `(r, c)`: accumulated into the zero splat it is `Σ_k lhs (r, k) · rhs (c, k)` — a sum over a
    `Fin K` in which no order of accumulation is left. -/
theorem matmulNT_zero_apply (prec : Option ContractPrecision) (lhs : FVec Ideal ⟨2, ![M, K]⟩ φ₁)
    (rhs : FVec Ideal ⟨2, ![N, K]⟩ φ₂) (r : Fin M) (c : Fin N) :
    FloatOps.matmul (dimsNT wf) prec lhs rhs (constant ⟨2, ![M, N]⟩ .f32 0x00000000#32) (ix2 r c)
      = ∑ k : Fin K, lhs (ix2 r k) * rhs (ix2 c k) := by
  rw [Ideal.matmul_constant_zero_apply, ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 r c) ((contrEquiv1 (dimsNT wf) K rfl rfl).symm k) = ix2 r k :=
    funext fun a => Fin.ext (by
      match a with
      | ⟨0, _⟩ => exact dimsNT_lhs0 wf _ _
      | ⟨1, _⟩ => exact (dimsNT_lhs1 wf _ _).trans hk)
  have er : (dimsNT wf).rhsIdx (ix2 r c) ((contrEquiv1 (dimsNT wf) K rfl rfl).symm k) = ix2 c k :=
    funext fun a => Fin.ext (by
      match a with
      | ⟨0, _⟩ => exact dimsNT_rhs0 wf _ _
      | ⟨1, _⟩ => exact (dimsNT_rhs1 wf _ _).trans hk)
  rw [el, er]

/-- ONE DENSE LAYER on a tile of `M` tokens: the product into zero plus a bias row `[1, N]` broadcast over the rows,
    read at token `r` and output unit `c`, is `Σ_k lhs (r, k) · rhs (c, k) + bias (0, c)`. -/
theorem denseNT_apply (prec : Option ContractPrecision) (lhs : FVec Ideal ⟨2, ![M, K]⟩ φ₁)
    (rhs : FVec Ideal ⟨2, ![N, K]⟩ φ₂) (bias : FVec Ideal ⟨2, ![1, N]⟩ .f32)
    (hb : (⟨2, ![1, N]⟩ : Shape).Broadcasts ⟨2, ![M, N]⟩) (r : Fin M) (c : Fin N) :
    addf (matmul (dimsNT wf) prec lhs rhs (constant ⟨2, ![M, N]⟩ .f32 0x00000000#32)) (broadcastTo ⟨2, ![M, N]⟩ bias hb) (ix2 r c)
      = ∑ k : Fin K, lhs (ix2 r k) * rhs (ix2 c k) + bias (ix2 (0 : Fin 1) c) := by
  rw [addf_apply, broadcastTo_1b_ab_apply]
  exact congrArg (· + bias (ix2 (0 : Fin 1) c)) (matmulNT_zero_apply wf prec lhs rhs r c)

end Dense

end Cert.LibDenseRows

end
-- ==== Proof.KI.StatsVal1.lean ====
/-
  The column-statistics region 1, read as values.

  What each control case leaves in the accumulators and the outputs is the body's own arithmetic: the accumulator
  carried in (zero at the first point) plus the column sums of this block's `y = block · dinv + b`, or of `y · y`;
  at the last point the outputs are copies of the accumulators. Read at a column `k` on the exact reals the column
  sum is a sum over the block's 5000 rows.
-/
import proofs.«156713_j13589276524898_2_alg».proof.Proof.KI.Stats1
import Idealize.ShloMosaic.Lib.Pipeline.Value
import Idealize.ShloMosaic.Lib.ValueLayout
import proofs.«156713_j13589276524898_2_alg».proof.Proof.LibAxisFolds
import proofs.«156713_j13589276524898_2_alg».proof.Proof.LibDenseRows
import proofs.«156713_j13589276524898_2_alg».proof.Proof.Stages

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem zeroOff1 : (![0, 0] : Fin 2 → Nat) = fun _ => 0 := funext fun a => by fin_cases a <;> rfl

/-! ## What each case leaves, as the body's arithmetic -/

/-- After the first point accumulator 0 holds the zeros just stored plus block 0's column sums. -/
theorem acc0After1_first_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first1 i) (hl : ¬last1 i)
    (x0 : Vec F S5000x128 .f32) (x1 : Vec F S5000x1 .f32) (x2 : Vec F S1x128 .f32)  :
    acc0After1_first c i arg1 harg1 arg2 harg2 arg3 harg3 arg4 harg4 arg5 harg5 arg6 harg6 arg7 harg7 hf hl x0 x1 x2  = k1_pay4 x0 x1 x2 (k1_pay1 (F := F)) := by
  unfold acc0After1_first
  rw [View.read_writes_eq_canon _ _ _ (acc0Cover1_first c i arg1 harg1 arg2 harg2 arg3 harg3 arg4 harg4 arg5 harg5 arg6 harg6 arg7 harg7 hf hl x0 x1 x2 )]
  unfold statsRun1_first
  dsimp only
  try sl_unfold_words
  rw [View.canon_cons_unit_zero zeroOff1]
  simp only [View.readAt_eq_ld, harg1.read_unread, harg2.read_unread, harg3.read_unread, View.ld_unit_zero (S := S5000x128) zeroOff1,
    View.ld_unit_zero (S := S5000x1) zeroOff1, View.ld_unit_zero (S := S1x128) zeroOff1, View.readCov_unit_zero (S := S1x128) _ zeroOff1]

/-- After the first point accumulator 1 holds the zeros just stored plus block 0's column sums of squares. -/
theorem acc1After1_first_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first1 i) (hl : ¬last1 i)
    (x0 : Vec F S5000x128 .f32) (x1 : Vec F S5000x1 .f32) (x2 : Vec F S1x128 .f32)  :
    acc1After1_first c i arg1 harg1 arg2 harg2 arg3 harg3 arg4 harg4 arg5 harg5 arg6 harg6 arg7 harg7 hf hl x0 x1 x2  = k1_pay5 x0 x1 x2 (k1_pay2 (F := F)) := by
  unfold acc1After1_first
  rw [View.read_writes_eq_canon _ _ _ (acc1Cover1_first c i arg1 harg1 arg2 harg2 arg3 harg3 arg4 harg4 arg5 harg5 arg6 harg6 arg7 harg7 hf hl x0 x1 x2 )]
  unfold statsRun1_first
  dsimp only
  try sl_unfold_words
  rw [View.canon_cons_unit_zero zeroOff1]
  simp only [View.readAt_eq_ld, harg1.read_unread, harg2.read_unread, harg3.read_unread, View.ld_unit_zero (S := S5000x128) zeroOff1,
    View.ld_unit_zero (S := S5000x1) zeroOff1, View.ld_unit_zero (S := S1x128) zeroOff1, View.readCov_unit_zero (S := S1x128) _ zeroOff1]

/-- A middle point adds its block's column sums onto what accumulator 0 held. -/
theorem acc0After1_mid_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : ¬last1 i)
    (x0 : Vec F S5000x128 .f32) (x1 : Vec F S5000x1 .f32) (x2 : Vec F S1x128 .f32) (xs0 xs1 : Vec F S1x128 .f32) :
    acc0After1_mid c i arg1 harg1 arg2 harg2 arg3 harg3 arg4 harg4 arg5 harg5 arg6 harg6 arg7 harg7 hf hl x0 x1 x2 xs0 xs1 = k1_pay4 x0 x1 x2 xs0 := by
  unfold acc0After1_mid
  rw [View.read_writes_eq_canon _ _ _ (acc0Cover1_mid c i arg1 harg1 arg2 harg2 arg3 harg3 arg4 harg4 arg5 harg5 arg6 harg6 arg7 harg7 hf hl x0 x1 x2 xs0 xs1)]
  unfold statsRun1_mid
  dsimp only
  try sl_unfold_words
  rw [View.canon_cons_unit_zero zeroOff1]
  simp only [View.readAt_eq_ld, harg1.read_unread, harg2.read_unread, harg3.read_unread, harg6.read_unread, harg7.read_unread, View.ld_unit_zero (S := S5000x128) zeroOff1,
    View.ld_unit_zero (S := S5000x1) zeroOff1, View.ld_unit_zero (S := S1x128) zeroOff1, View.readCov_unit_zero (S := S1x128) _ zeroOff1]

/-- A middle point adds its block's column sums of squares onto what accumulator 1 held. -/
theorem acc1After1_mid_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : ¬last1 i)
    (x0 : Vec F S5000x128 .f32) (x1 : Vec F S5000x1 .f32) (x2 : Vec F S1x128 .f32) (xs0 xs1 : Vec F S1x128 .f32) :
    acc1After1_mid c i arg1 harg1 arg2 harg2 arg3 harg3 arg4 harg4 arg5 harg5 arg6 harg6 arg7 harg7 hf hl x0 x1 x2 xs0 xs1 = k1_pay5 x0 x1 x2 xs1 := by
  unfold acc1After1_mid
  rw [View.read_writes_eq_canon _ _ _ (acc1Cover1_mid c i arg1 harg1 arg2 harg2 arg3 harg3 arg4 harg4 arg5 harg5 arg6 harg6 arg7 harg7 hf hl x0 x1 x2 xs0 xs1)]
  unfold statsRun1_mid
  dsimp only
  try sl_unfold_words
  rw [View.canon_cons_unit_zero zeroOff1]
  simp only [View.readAt_eq_ld, harg1.read_unread, harg2.read_unread, harg3.read_unread, harg6.read_unread, harg7.read_unread, View.ld_unit_zero (S := S5000x128) zeroOff1,
    View.ld_unit_zero (S := S5000x1) zeroOff1, View.ld_unit_zero (S := S1x128) zeroOff1, View.readCov_unit_zero (S := S1x128) _ zeroOff1]

/-- The last point adds its block's column sums onto what accumulator 0 held, -/
theorem acc0After1_last_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) :
    acc0After1_last c i arg1 harg1 arg2 harg2 arg3 harg3 arg4 harg4 arg5 harg5 arg6 harg6 arg7 harg7 hf hl x0 x1 x2 xs0 xs1 = k1_pay4 x0 x1 x2 xs0 := by
  unfold acc0After1_last
  rw [View.read_writes_eq_canon _ _ _ (acc0Cover1_last c i arg1 harg1 arg2 harg2 arg3 harg3 arg4 harg4 arg5 harg5 arg6 harg6 arg7 harg7 hf hl x0 x1 x2 xs0 xs1)]
  unfold statsRun1_last
  dsimp only
  try sl_unfold_words
  rw [View.canon_cons_unit_zero zeroOff1]
  simp only [View.readAt_eq_ld, harg1.read_unread, harg2.read_unread, harg3.read_unread, harg6.read_unread, harg7.read_unread, View.ld_unit_zero (S := S5000x128) zeroOff1,
    View.ld_unit_zero (S := S5000x1) zeroOff1, View.ld_unit_zero (S := S1x128) zeroOff1, View.readCov_unit_zero (S := S1x128) _ zeroOff1]

/-- and its column sums of squares onto accumulator 1, -/
theorem acc1After1_last_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) :
    acc1After1_last c i arg1 harg1 arg2 harg2 arg3 harg3 arg4 harg4 arg5 harg5 arg6 harg6 arg7 harg7 hf hl x0 x1 x2 xs0 xs1 = k1_pay5 x0 x1 x2 xs1 := by
  unfold acc1After1_last
  rw [View.read_writes_eq_canon _ _ _ (acc1Cover1_last c i arg1 harg1 arg2 harg2 arg3 harg3 arg4 harg4 arg5 harg5 arg6 harg6 arg7 harg7 hf hl x0 x1 x2 xs0 xs1)]
  unfold statsRun1_last
  dsimp only
  try sl_unfold_words
  rw [View.canon_cons_unit_zero zeroOff1]
  simp only [View.readAt_eq_ld, harg1.read_unread, harg2.read_unread, harg3.read_unread, harg6.read_unread, harg7.read_unread, View.ld_unit_zero (S := S5000x128) zeroOff1,
    View.ld_unit_zero (S := S5000x1) zeroOff1, View.ld_unit_zero (S := S1x128) zeroOff1, View.readCov_unit_zero (S := S1x128) _ zeroOff1]

/-- and copies accumulator 0 into output 3 -/
theorem out3After1_last_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) :
    out3After1_last c i arg1 harg1 arg2 harg2 arg3 harg3 arg4 harg4 arg5 harg5 arg6 harg6 arg7 harg7 hf hl x0 x1 x2 xs0 xs1 = k1_pay4 x0 x1 x2 xs0 := by
  unfold out3After1_last
  rw [View.read_writes_eq_canon _ _ _ (out3Cover1_last c i arg1 harg1 arg2 harg2 arg3 harg3 arg4 harg4 arg5 harg5 arg6 harg6 arg7 harg7 hf hl x0 x1 x2 xs0 xs1)]
  unfold statsRun1_last
  dsimp only
  try sl_unfold_words
  rw [View.canon_cons_unit_zero zeroOff1]
  simp only [View.readAt_eq_ld, harg1.read_unread, harg2.read_unread, harg3.read_unread, harg6.read_unread, harg7.read_unread, View.ld_unit_zero (S := S5000x128) zeroOff1,
    View.ld_unit_zero (S := S5000x1) zeroOff1, View.ld_unit_zero (S := S1x128) zeroOff1, View.readCov_unit_zero (S := S1x128) _ zeroOff1]

/-- and accumulator 1 into output 4. -/
theorem out4After1_last_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first1 i) (hl : last1 i)
    (x0 : Vec F S5000x128 .f32) (x1 : Vec F S5000x1 .f32) (x2 : Vec F S1x128 .f32) (xs0 xs1 : Vec F S1x128 .f32) :
    out4After1_last c i arg1 harg1 arg2 harg2 arg3 harg3 arg4 harg4 arg5 harg5 arg6 harg6 arg7 harg7 hf hl x0 x1 x2 xs0 xs1 = k1_pay5 x0 x1 x2 xs1 := by
  unfold out4After1_last
  rw [View.read_writes_eq_canon _ _ _ (out4Cover1_last c i arg1 harg1 arg2 harg2 arg3 harg3 arg4 harg4 arg5 harg5 arg6 harg6 arg7 harg7 hf hl x0 x1 x2 xs0 xs1)]
  unfold statsRun1_last
  dsimp only
  try sl_unfold_words
  rw [View.canon_cons_unit_zero zeroOff1]
  simp only [View.readAt_eq_ld, harg1.read_unread, harg2.read_unread, harg3.read_unread, harg6.read_unread, harg7.read_unread, View.ld_unit_zero (S := S5000x128) zeroOff1,
    View.ld_unit_zero (S := S5000x1) zeroOff1, View.ld_unit_zero (S := S1x128) zeroOff1, View.readCov_unit_zero (S := S1x128) _ zeroOff1]

/-! ## The arithmetic at a column, on the exact reals -/

/-- `y = block · dinv + b` at row `r`, column `k`. -/
theorem yBlock1_apply (x0 : FVec Ideal S5000x128 .f32) (x1 : FVec Ideal S5000x1 .f32) (x2 : FVec Ideal S1x128 .f32) (r : Fin 5000) (k : Fin 128) :
    k1_pay3 (F := Ideal) x0 x1 x2 (ix2 r k) = x0 (ix2 r k) * x1 (ix2 r (0 : Fin 1)) + x2 (ix2 (0 : Fin 1) k) := by
  unfold k1_pay3
  simp only [shapeCast_self]
  rw [addf_apply, mulf_apply, Cert.LibDenseRows.broadcastTo_a1_ab_apply, broadcastTo_1b_ab_apply]

/-- The freshly zeroed accumulators read zero. -/
theorem zeros1_0_apply (k : Fin 128) : k1_pay1 (F := Ideal) (ix2 (0 : Fin 1) k) = Cert.Stages.zero := by
  unfold k1_pay1; simp only [shapeCast_self]; rfl
theorem zeros1_1_apply (k : Fin 128) : k1_pay2 (F := Ideal) (ix2 (0 : Fin 1) k) = Cert.Stages.zero := by
  unfold k1_pay2; simp only [shapeCast_self]; rfl

/-- One point's update of accumulator 0 at column `k`: what it held plus the block's column sum of `y`. -/
theorem accStep1_0_apply (x0 : FVec Ideal S5000x128 .f32) (x1 : FVec Ideal S5000x1 .f32) (x2 : FVec Ideal S1x128 .f32) (acc : FVec Ideal S1x128 .f32) (k : Fin 128) :
    k1_pay4 (F := Ideal) x0 x1 x2 acc (ix2 (0 : Fin 1) k)
      = acc (ix2 (0 : Fin 1) k) + ∑ r : Fin 5000, (x0 (ix2 r k) * x1 (ix2 r (0 : Fin 1)) + x2 (ix2 (0 : Fin 1) k)) := by
  unfold k1_pay4
  simp only [shapeCast_self]
  rw [addf_apply]
  congr 1
  refine (shapeCast_a_1a_apply _ _ _ _).trans ?_
  refine (Cert.LibAxisFolds.colSum_apply _ _ _ _ _ k).trans ?_
  exact Finset.sum_congr rfl fun r _ => yBlock1_apply x0 x1 x2 r k

/-- One point's update of accumulator 1 at column `k`: what it held plus the block's column sum of `y · y`. -/
theorem accStep1_1_apply (x0 : FVec Ideal S5000x128 .f32) (x1 : FVec Ideal S5000x1 .f32) (x2 : FVec Ideal S1x128 .f32) (acc : FVec Ideal S1x128 .f32) (k : Fin 128) :
    k1_pay5 (F := Ideal) x0 x1 x2 acc (ix2 (0 : Fin 1) k)
      = acc (ix2 (0 : Fin 1) k) + ∑ r : Fin 5000, ((x0 (ix2 r k) * x1 (ix2 r (0 : Fin 1)) + x2 (ix2 (0 : Fin 1) k)) * (x0 (ix2 r k) * x1 (ix2 r (0 : Fin 1)) + x2 (ix2 (0 : Fin 1) k))) := by
  unfold k1_pay5
  simp only [shapeCast_self]
  rw [addf_apply]
  congr 1
  refine (shapeCast_a_1a_apply _ _ _ _).trans ?_
  refine (Cert.LibAxisFolds.colSum_apply _ _ _ _ _ k).trans ?_
  exact Finset.sum_congr rfl fun r _ => by rw [mulf_apply, yBlock1_apply]

section
variable (V : (c : Dev nD) → (b : Ref sig .tc) → Buf (Elt Ideal) ((c : Thread nD τ).loc b))

/-! ## The blocks as rows of the region's arrays -/

/-- A grid point as one of the twenty blocks. -/
def pt1 (t : Fin cfg1.N) : Fin 20 := ⟨t.val, lt_of_lt_of_eq t.isLt (show cfg1.N = 20 from N_1)⟩

theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)

/-- The region's three input arrays as it finds them: the aggregated features, the degree factors as a column, the bias as a row. -/
abbrev aggA1 (c : Dev nD) : S100000x128.Idx → EReal := V c (Pipeline.arrRef spec1 0)
abbrev dinvA1 (c : Dev nD) : S100000x1.Idx → EReal := V c (Pipeline.arrRef spec1 1)
abbrev biasA1 (c : Dev nD) : S1x128.Idx → EReal := V c (Pipeline.arrRef spec1 2)

/-- Block `t` of the features is rows `5000 t … 5000 t + 4999`. -/
theorem blk1_0_apply (c : Dev nD) (t : Fin cfg1.N) (r : Fin 5000) (k : Fin 128) :
    (blk1 V c 0 t : FVec Ideal S5000x128 .f32) (ix2 r k) = aggA1 V c (ix2 (Cert.Stages.rowAt (pt1 t) r) k) := by
  have hi := idx1_0 t
  unfold blk1
  rw [View.read_apply]
  show V c (Pipeline.arrRef spec1 0) _ = V c (Pipeline.arrRef spec1 0) _
  congr 1
  funext a
  apply Fin.ext
  match a with
  | ⟨0, _⟩ => show win1_0.index t 0 * 5000 + 1 * r.val = 5000 * t.val + r.val; rw [hi.1]; omega
  | ⟨1, _⟩ => show win1_0.index t 1 * 128 + 1 * k.val = k.val; rw [hi.2]; omega

/-- Block `t` of the factor column likewise. -/
theorem blk1_1_apply (c : Dev nD) (t : Fin cfg1.N) (r : Fin 5000) :
    (blk1 V c 1 t : FVec Ideal S5000x1 .f32) (ix2 r (0 : Fin 1)) = dinvA1 V c (ix2 (Cert.Stages.rowAt (pt1 t) r) (0 : Fin 1)) := by
  have hi := idx1_1 t
  unfold blk1
  rw [View.read_apply]
  show V c (Pipeline.arrRef spec1 1) _ = V c (Pipeline.arrRef spec1 1) _
  congr 1
  funext a
  apply Fin.ext
  match a with
  | ⟨0, _⟩ => show win1_1.index t 0 * 5000 + 1 * r.val = 5000 * t.val + r.val; rw [hi.1]; omega
  | ⟨1, _⟩ => show win1_1.index t 1 * 1 + 1 * 0 = 0; rw [hi.2]

/-- The bias row is its one block at every point. -/
theorem blk1_2_apply (c : Dev nD) (t : Fin cfg1.N) (k : Fin 128) :
    (blk1 V c 2 t : FVec Ideal S1x128 .f32) (ix2 (0 : Fin 1) k) = biasA1 V c (ix2 (0 : Fin 1) k) := by
  have hi := idx1_2 t
  unfold blk1
  rw [View.read_apply]
  show V c (Pipeline.arrRef spec1 2) _ = V c (Pipeline.arrRef spec1 2) _
  congr 1
  funext a
  apply Fin.ext
  match a with
  | ⟨0, _⟩ => show win1_2.index t 0 * 1 + 1 * 0 = 0; rw [hi.1]
  | ⟨1, _⟩ => show win1_2.index t 1 * 128 + 1 * k.val = k.val; rw [hi.2]; omega

/-- `y = agg · dinv + b` over the whole array, as the region's input arrays give it. -/
def yOf1 (c : Dev nD) : Cert.Stages.Mat Cert.Stages.nN 128 := fun i k =>
  aggA1 V c (ix2 i k) * dinvA1 V c (ix2 i (0 : Fin 1)) + biasA1 V c (ix2 (0 : Fin 1) k)

/-- One point's column sums are the block sums of `y` and of `y · y`. -/
theorem blockSum1_y (c : Dev nD) (t : Fin cfg1.N) (k : Fin 128)
    (x0 : FVec Ideal S5000x128 .f32) (x1 : FVec Ideal S5000x1 .f32) (x2 : FVec Ideal S1x128 .f32)
    (h0 : x0 = blk1 V c 0 t) (h1 : x1 = blk1 V c 1 t) (h2 : x2 = blk1 V c 2 t) :
    (∑ r : Fin 5000, (x0 (ix2 r k) * x1 (ix2 r (0 : Fin 1)) + x2 (ix2 (0 : Fin 1) k)))
      = Cert.Stages.blockSum (yOf1 V c) (pt1 t) k := by
  subst h0 h1 h2
  exact Finset.sum_congr rfl fun r _ => by rw [blk1_0_apply, blk1_1_apply, blk1_2_apply]; rfl
theorem blockSum1_ysq (c : Dev nD) (t : Fin cfg1.N) (k : Fin 128)
    (x0 : FVec Ideal S5000x128 .f32) (x1 : FVec Ideal S5000x1 .f32) (x2 : FVec Ideal S1x128 .f32)
    (h0 : x0 = blk1 V c 0 t) (h1 : x1 = blk1 V c 1 t) (h2 : x2 = blk1 V c 2 t) :
    (∑ r : Fin 5000, ((x0 (ix2 r k) * x1 (ix2 r (0 : Fin 1)) + x2 (ix2 (0 : Fin 1) k)) * (x0 (ix2 r k) * x1 (ix2 r (0 : Fin 1)) + x2 (ix2 (0 : Fin 1) k))))
      = Cert.Stages.blockSum (Cert.Stages.sq (yOf1 V c)) (pt1 t) k := by
  subst h0 h1 h2
  exact Finset.sum_congr rfl fun r _ => by rw [blk1_0_apply, blk1_1_apply, blk1_2_apply]; rfl

/-! ## Point by point: the accumulators are the running block sums -/

theorem lt20_1 {n : ℕ} (hn : n < cfg1.N) : n < 20 := lt_of_lt_of_eq hn (show cfg1.N = 20 from N_1)

/-- After point `n` accumulator 0 holds the running sum of `y`'s block sums and accumulator 1 that of `y · y`'s. -/
theorem accs1_eq (c : Dev nD) : ∀ (n : ℕ) (hn : n < cfg1.N) (k : Fin 128),
    (statsAt1 V c n hn).2.2.1 (ix2 (0 : Fin 1) k) = Cert.Stages.runSum (yOf1 V c) n (lt20_1 hn) k
    ∧ (statsAt1 V c n hn).2.2.2 (ix2 (0 : Fin 1) k) = Cert.Stages.runSum (Cert.Stages.sq (yOf1 V c)) n (lt20_1 hn) k := by
  intro n
  induction n with
  | zero =>
    intro hn k
    have hf : first1 (grid1.coords ⟨0, hn⟩) := (first1_iff ⟨0, hn⟩).mpr (Nat.zero_mod _)
    have hl : ¬last1 (grid1.coords ⟨0, hn⟩) := notLast1_zero hn
    have e := statsAt1_first V c ⟨0, hn⟩ rfl hf hl
    have e' : statsAt1 V c 0 hn = _ := e
    rw [e']
    constructor
    · dsimp only
      rw [acc0After1_first_eq, accStep1_0_apply, zeros1_0_apply, blockSum1_y V c _ k _ _ _ rfl rfl rfl]
      rfl
    · dsimp only
      rw [acc1After1_first_eq, accStep1_1_apply, zeros1_1_apply, blockSum1_ysq V c _ k _ _ _ rfl rfl rfl]
      rfl
  | succ n ih =>
    intro hn k
    have hz : (⟨n + 1, hn⟩ : Fin cfg1.N).val ≠ 0 := Nat.succ_ne_zero n
    have hf : ¬first1 (grid1.coords ⟨n + 1, hn⟩) := notFirst1_succ n hn
    obtain ⟨ih0, ih1⟩ := ih (Nat.lt_of_succ_lt hn) k
    by_cases h19 : (n + 1) % 20 = 19
    · have hl : last1 (grid1.coords ⟨n + 1, hn⟩) := (last1_iff ⟨n + 1, hn⟩).mpr h19
      have e : statsAt1 V c (n + 1) hn = _ := statsAt1_last V c ⟨n + 1, hn⟩ hz h19 hf hl
      rw [e]
      constructor
      · dsimp only
        rw [acc0After1_last_eq, accStep1_0_apply, blockSum1_y V c _ k _ _ _ rfl rfl rfl]
        show (statsAt1 V c n _).2.2.1 (ix2 (0 : Fin 1) k) + _ = _
        rw [ih0]; rfl
      · dsimp only
        rw [acc1After1_last_eq, accStep1_1_apply, blockSum1_ysq V c _ k _ _ _ rfl rfl rfl]
        show (statsAt1 V c n _).2.2.2 (ix2 (0 : Fin 1) k) + _ = _
        rw [ih1]; rfl
    · have hl : ¬last1 (grid1.coords ⟨n + 1, hn⟩) := fun h => h19 ((last1_iff ⟨n + 1, hn⟩).mp h)
      have e : statsAt1 V c (n + 1) hn = _ := statsAt1_mid V c ⟨n + 1, hn⟩ hz h19 hf hl
      rw [e]
      constructor
      · dsimp only
        rw [acc0After1_mid_eq, accStep1_0_apply, blockSum1_y V c _ k _ _ _ rfl rfl rfl]
        show (statsAt1 V c n _).2.2.1 (ix2 (0 : Fin 1) k) + _ = _
        rw [ih0]; rfl
      · dsimp only
        rw [acc1After1_mid_eq, accStep1_1_apply, blockSum1_ysq V c _ k _ _ _ rfl rfl rfl]
        show (statsAt1 V c n _).2.2.2 (ix2 (0 : Fin 1) k) + _ = _
        rw [ih1]; rfl

/-! ## The last point's copy, and the one write-back -/

/-- The last grid point. -/
def lastPt1 : Fin cfg1.N := ⟨19, by rw [show cfg1.N = 20 from N_1]; decide⟩

/-- At the last point the outputs are the accumulators just updated: the whole column sums. -/
theorem outs1_eq (c : Dev nD) (k : Fin 128) :
    (statsAt1 V c (lastPt1).val (lastPt1).isLt).1 (ix2 (0 : Fin 1) k) = Cert.Stages.colSumK (yOf1 V c) k
    ∧ (statsAt1 V c (lastPt1).val (lastPt1).isLt).2.1 (ix2 (0 : Fin 1) k) = Cert.Stages.colSumK (Cert.Stages.sq (yOf1 V c)) k := by
  have hz : (lastPt1).val ≠ 0 := by decide
  have h19 : (lastPt1).val % 20 = 19 := by decide
  have hf : ¬first1 (grid1.coords lastPt1) := fun h => by have := (first1_iff lastPt1).mp h; omega
  have hl : last1 (grid1.coords lastPt1) := (last1_iff lastPt1).mpr h19
  obtain ⟨ih0, ih1⟩ := accs1_eq V c 18 (by rw [show cfg1.N = 20 from N_1]; decide) k
  rw [statsAt1_last V c lastPt1 hz h19 hf hl]
  constructor
  · dsimp only
    rw [out3After1_last_eq, accStep1_0_apply, blockSum1_y V c _ k _ _ _ rfl rfl rfl]
    show (statsAt1 V c 18 _).2.2.1 (ix2 (0 : Fin 1) k) + _ = _
    rw [ih0]; rfl
  · dsimp only
    rw [out4After1_last_eq, accStep1_1_apply, blockSum1_ysq V c _ k _ _ _ rfl rfl rfl]
    show (statsAt1 V c 18 _).2.2.2 (ix2 (0 : Fin 1) k) + _ = _
    rw [ih1]; rfl

end

section
variable (V : (c : Dev nD) → (b : Ref sig .tc) → Buf (Elt Ideal) ((c : Thread nD τ).loc b))

/-! ## The one write-back of each output, and the arrays at the region's exit -/

theorem lastPt1_val : (lastPt1).val = 19 := rfl

/-- What the last point leaves in output 3's buffer, as the array it is written back to. -/
abbrev sumArr1 (c : Dev nD) : Buf (Elt Ideal) ((c : Thread nD τ).loc main_v37_0) := (statsAt1 V c (lastPt1).val (lastPt1).isLt).1
abbrev sumsqArr1 (c : Dev nD) : Buf (Elt Ideal) ((c : Thread nD τ).loc main_v37_1) := (statsAt1 V c (lastPt1).val (lastPt1).isLt).2.1

/-- Output 3 is written back once, at the last point: its one block is the whole `[1, 128]` array. -/
theorem flushed1_3 (c : Dev nD) (t : Fin cfg1.N) (hf : (cfg1.win 3).flush t = true) :
    (dat1 V c).flushed 3 t = ((cfg1.win 3).blk t).view.read (Elt Ideal) (sumArr1 V c) := by
  have h1 : t.val = 19 := by have := (flush1_3 t).mp hf; have := lt20_1 t.isLt; omega
  obtain rfl : t = lastPt1 := Fin.ext h1
  show (cfg1.win 3).cut (grid1.coords lastPt1) ((dat1 V c).after 3 lastPt1) = _
  rw [dat1_after_3]
  have hz' : (fun a => win1_3.index lastPt1 a * main_v37_0.ty.shape.size a) = fun _ => 0 := funext fun a => by fin_cases a <;> decide +kernel
  exact (Memref.read_access_unit_zero (Elt Ideal) main_v37_0 hz' (fun a => by rw [congrFun hz' a]; simp) (sumArr1 V c)).symm

/-- So at the region's exit the array holds what the last point left. -/
theorem final1_3 (c : Dev nD) : (dat1 V c).arrAt 3 cfg1.N = sumArr1 V c :=
  (dat1 V c).arrAt_eq_of_cover 3 (sumArr1 V c) (flushed1_3 V c) fun i =>
    ⟨lastPt1, (flush1_3 lastPt1).mpr (by rw [lastPt1_val]), by
      show i ∈ ((View.whole main_v37_0).slice (win1_3.rect lastPt1)).set
      rw [View.set_slice_whole, Rect.mem_set_unit]
      intro a
      have h0 : (i 0 : Nat) < 1 := (i 0).isLt
      have h1 : (i 1 : Nat) < 128 := (i 1).isLt
      match a with
      | ⟨0, _⟩ =>
        show win1_3.index lastPt1 0 * win1_3.size 0 ≤ (i 0 : Nat) ∧ (i 0 : Nat) < win1_3.index lastPt1 0 * win1_3.size 0 + win1_3.xsize (grid1.coords lastPt1) 0
        rw [show win1_3.index lastPt1 0 * win1_3.size 0 = 0 from by decide +kernel, show win1_3.xsize (grid1.coords lastPt1) 0 = 1 from by decide +kernel]; omega
      | ⟨1, _⟩ =>
        show win1_3.index lastPt1 1 * win1_3.size 1 ≤ (i 1 : Nat) ∧ (i 1 : Nat) < win1_3.index lastPt1 1 * win1_3.size 1 + win1_3.xsize (grid1.coords lastPt1) 1
        rw [show win1_3.index lastPt1 1 * win1_3.size 1 = 0 from by decide +kernel, show win1_3.xsize (grid1.coords lastPt1) 1 = 128 from by decide +kernel]; omega⟩

/-- Output 4 is written back once, at the last point: its one block is the whole `[1, 128]` array. -/
theorem flushed1_4 (c : Dev nD) (t : Fin cfg1.N) (hf : (cfg1.win 4).flush t = true) :
    (dat1 V c).flushed 4 t = ((cfg1.win 4).blk t).view.read (Elt Ideal) (sumsqArr1 V c) := by
  have h1 : t.val = 19 := by have := (flush1_4 t).mp hf; have := lt20_1 t.isLt; omega
  obtain rfl : t = lastPt1 := Fin.ext h1
  show (cfg1.win 4).cut (grid1.coords lastPt1) ((dat1 V c).after 4 lastPt1) = _
  rw [dat1_after_4]
  have hz' : (fun a => win1_4.index lastPt1 a * main_v37_1.ty.shape.size a) = fun _ => 0 := funext fun a => by fin_cases a <;> decide +kernel
  exact (Memref.read_access_unit_zero (Elt Ideal) main_v37_1 hz' (fun a => by rw [congrFun hz' a]; simp) (sumsqArr1 V c)).symm

/-- So at the region's exit the array holds what the last point left. -/
theorem final1_4 (c : Dev nD) : (dat1 V c).arrAt 4 cfg1.N = sumsqArr1 V c :=
  (dat1 V c).arrAt_eq_of_cover 4 (sumsqArr1 V c) (flushed1_4 V c) fun i =>
    ⟨lastPt1, (flush1_4 lastPt1).mpr (by rw [lastPt1_val]), by
      show i ∈ ((View.whole main_v37_1).slice (win1_4.rect lastPt1)).set
      rw [View.set_slice_whole, Rect.mem_set_unit]
      intro a
      have h0 : (i 0 : Nat) < 1 := (i 0).isLt
      have h1 : (i 1 : Nat) < 128 := (i 1).isLt
      match a with
      | ⟨0, _⟩ =>
        show win1_4.index lastPt1 0 * win1_4.size 0 ≤ (i 0 : Nat) ∧ (i 0 : Nat) < win1_4.index lastPt1 0 * win1_4.size 0 + win1_4.xsize (grid1.coords lastPt1) 0
        rw [show win1_4.index lastPt1 0 * win1_4.size 0 = 0 from by decide +kernel, show win1_4.xsize (grid1.coords lastPt1) 0 = 1 from by decide +kernel]; omega
      | ⟨1, _⟩ =>
        show win1_4.index lastPt1 1 * win1_4.size 1 ≤ (i 1 : Nat) ∧ (i 1 : Nat) < win1_4.index lastPt1 1 * win1_4.size 1 + win1_4.xsize (grid1.coords lastPt1) 1
        rw [show win1_4.index lastPt1 1 * win1_4.size 1 = 0 from by decide +kernel, show win1_4.xsize (grid1.coords lastPt1) 1 = 128 from by decide +kernel]; omega⟩

/-- THE REGION'S VALUE: at its exit the first output holds the column sums of `y = agg · dinv + b` over all 100000 rows
    (as the twenty running block sums), the second those of `y · y`. -/
theorem stats1_sum (c : Dev nD) (j : Fin 128) :
    ((dat1 V c).arrAt 3 cfg1.N : S1x128.Idx → EReal) (ix2 (0 : Fin 1) j) = Cert.Stages.colSumK (yOf1 V c) j := by
  rw [final1_3]; exact (outs1_eq V c j).1
theorem stats1_sumsq (c : Dev nD) (j : Fin 128) :
    ((dat1 V c).arrAt 4 cfg1.N : S1x128.Idx → EReal) (ix2 (0 : Fin 1) j) = Cert.Stages.colSumK (Cert.Stages.sq (yOf1 V c)) j := by
  rw [final1_4]; exact (outs1_eq V c j).2

end

end Cert.KernelIdeal.Hand

end
-- ==== Proof.KIVal.ResultL1.lean ====
import proofs.«156713_j13589276524898_2_alg».proof.Proof.KIVal.ResultBase
import proofs.«156713_j13589276524898_2_alg».proof.Proof.KIVal.Dense0Val
import proofs.«156713_j13589276524898_2_alg».proof.Proof.KI.StatsVal1

/-! # The first layer of the kernel program's run, read as values

What the host stretches contribute is gathered in `HostFacts`: the extended edge words, the degree factor as a
column, the bias, gain and offset rows, the edge aggregation of a stretch for any aggregated array, and the mean and
variance rows from any two rows of column sums. From these and the regions' values: the first dense region leaves
the projected, scaled features; the stretch after it their edge sums; the statistics region the column sums of
`y1 = agg · dinv + b1` and of its square; the next stretch the mean and variance of `y1`. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Cert.Stages
open scoped BigOperators

variable (m : (ℓ : Loc nD τ sig) → Buf (Elt Ideal) ℓ) (c : Dev nD)

/-- What the host stretches compute, each read at an index. -/
structure HostFacts : Prop where
  src : ∀ e : Fin 1700000, (W3 m c (Proc.devRef .tc main_v3) : S1700000.Idx → BitVec 32) (ix1 e) = gOf m c 0 e
  dst : ∀ e : Fin 1700000, (W3 m c (Proc.devRef .tc main_v6) : S1700000.Idx → BitVec 32) (ix1 e) = gOf m c 1 e
  dinv : ∀ i : Fin 100000, (W3 m c (Proc.devRef .tc main_v17) : S100000x1.Idx → EReal) (ix2 i (0 : Fin 1)) = Cert.Stages.dinv (gOf m c) i
  b1 : ∀ k : Fin 128, (W3 m c (Proc.devRef .tc main_v18) : S1x128.Idx → EReal) (ix2 (0 : Fin 1) k) = b1Of m c k
  g1 : ∀ k : Fin 128, (W3 m c (Proc.devRef .tc main_v19) : S1x128.Idx → EReal) (ix2 (0 : Fin 1) k) = g1Of m c k
  be1 : ∀ k : Fin 128, (W3 m c (Proc.devRef .tc main_v20) : S1x128.Idx → EReal) (ix2 (0 : Fin 1) k) = be1Of m c k
  b2 : ∀ k : Fin 128, (W3 m c (Proc.devRef .tc main_v21) : S1x128.Idx → EReal) (ix2 (0 : Fin 1) k) = b2Of m c k
  g2 : ∀ k : Fin 128, (W3 m c (Proc.devRef .tc main_v22) : S1x128.Idx → EReal) (ix2 (0 : Fin 1) k) = g2Of m c k
  be2 : ∀ k : Fin 128, (W3 m c (Proc.devRef .tc main_v23) : S1x128.Idx → EReal) (ix2 (0 : Fin 1) k) = be2Of m c k
  bc : ∀ k : Fin 64, (W3 m c (Proc.devRef .tc main_v24) : S1x64.Idx → EReal) (ix2 (0 : Fin 1) k) = bcOf m c k
  agg1 : ∀ (Wb : Valuation τ sig (Elt Ideal)) (g : Fin 2 → Fin nE → BitVec 32) (P : Mat nN 128),
      (∀ e : Fin 1700000, (Wb (Proc.devRef .tc main_v3) : S1700000.Idx → BitVec 32) (ix1 e) = g 0 e) →
      (∀ e : Fin 1700000, (Wb (Proc.devRef .tc main_v6) : S1700000.Idx → BitVec 32) (ix1 e) = g 1 e) →
      (∀ (i : Fin 100000) (k : Fin 128), (Wb (Proc.devRef .tc main_v25) : S100000x128.Idx → EReal) (ix2 i k) = P i k) →
      ∀ (i : Fin 100000) (j : Fin 128),
        (StableHlo.after (hostOps1 (F := Ideal)) Wb (Proc.devRef .tc main_v36) : S100000x128.Idx → EReal) (ix2 i j) = aggK g P i j
  agg3 : ∀ (Wb : Valuation τ sig (Elt Ideal)) (g : Fin 2 → Fin nE → BitVec 32) (P : Mat nN 128),
      (∀ e : Fin 1700000, (Wb (Proc.devRef .tc main_v3) : S1700000.Idx → BitVec 32) (ix1 e) = g 0 e) →
      (∀ e : Fin 1700000, (Wb (Proc.devRef .tc main_v6) : S1700000.Idx → BitVec 32) (ix1 e) = g 1 e) →
      (∀ (i : Fin 100000) (k : Fin 128), (Wb (Proc.devRef .tc main_v44) : S100000x128.Idx → EReal) (ix2 i k) = P i k) →
      ∀ (i : Fin 100000) (j : Fin 128),
        (StableHlo.after (hostOps3 (F := Ideal)) Wb (Proc.devRef .tc main_v55) : S100000x128.Idx → EReal) (ix2 i j) = aggK g P i j
  stat2 : ∀ (Wb : Valuation τ sig (Elt Ideal)) (Y : Mat nN 128),
      (∀ j : Fin 128, (Wb (Proc.devRef .tc main_v37_0) : S1x128.Idx → EReal) (ix2 (0 : Fin 1) j) = colSumK Y j) →
      (∀ j : Fin 128, (Wb (Proc.devRef .tc main_v37_1) : S1x128.Idx → EReal) (ix2 (0 : Fin 1) j) = colSumK (sq Y) j) →
      ∀ j : Fin 128,
        (StableHlo.after (hostOps2 (F := Ideal)) Wb (Proc.devRef .tc main_v39) : S1x128.Idx → EReal) (ix2 (0 : Fin 1) j) = meanK Y j
        ∧ (StableHlo.after (hostOps2 (F := Ideal)) Wb (Proc.devRef .tc main_v43) : S1x128.Idx → EReal) (ix2 (0 : Fin 1) j) = varK Y j
  stat4 : ∀ (Wb : Valuation τ sig (Elt Ideal)) (Y : Mat nN 128),
      (∀ j : Fin 128, (Wb (Proc.devRef .tc main_v56_0) : S1x128.Idx → EReal) (ix2 (0 : Fin 1) j) = colSumK Y j) →
      (∀ j : Fin 128, (Wb (Proc.devRef .tc main_v56_1) : S1x128.Idx → EReal) (ix2 (0 : Fin 1) j) = colSumK (sq Y) j) →
      ∀ j : Fin 128,
        (StableHlo.after (hostOps4 (F := Ideal)) Wb (Proc.devRef .tc main_v58) : S1x128.Idx → EReal) (ix2 (0 : Fin 1) j) = meanK Y j
        ∧ (StableHlo.after (hostOps4 (F := Ideal)) Wb (Proc.devRef .tc main_v62) : S1x128.Idx → EReal) (ix2 (0 : Fin 1) j) = varK Y j

/-- The degree factor's column at any later boundary, as an array. -/
def dinvCol : S100000x1.Idx → EReal := fun I => Cert.Stages.dinv (gOf m c) (I 0)

variable (hf : HostFacts m c)
include hf

/-- The first dense region's output: the features times the first weights, each row scaled by its node's factor. -/
theorem reg0_out (i : Fin 100000) (j : Fin 128) :
    (W4 m c (Proc.devRef .tc main_v25) : S100000x128.Idx → EReal) (ix2 i j) = preK (gOf m c) (xOf m c) (w1Of m c) i j :=
  (congrFun (W4_arr m c 3) (ix2 i j)).trans
    (dense0_apply (V3 m) c (m ((c : Thread nD τ).loc main_arg0)) (m ((c : Thread nD τ).loc main_arg2)) (dinvCol m c)
      (arg_3 m c main_arg0 (by decide) (by decide) (by decide)) (arg_3 m c main_arg2 (by decide) (by decide) (by decide))
      (col_ext _ _ fun i => hf.dinv i) i j)

/-- The stretch after it: the edge sums of those rows. -/
theorem agg1_out (i : Fin 100000) (j : Fin 128) :
    (W5 m c (Proc.devRef .tc main_v36) : S100000x128.Idx → EReal) (ix2 i j) = aggK (gOf m c) (preK (gOf m c) (xOf m c) (w1Of m c)) i j :=
  hf.agg1 (W4 m c) (gOf m c) (preK (gOf m c) (xOf m c) (w1Of m c))
    (fun e => (congrFun (keep_3_4 m c main_v3 (by decide)) (ix1 e)).trans (hf.src e))
    (fun e => (congrFun (keep_3_4 m c main_v6 (by decide)) (ix1 e)).trans (hf.dst e))
    (fun i k => reg0_out m c hf i k) i j

/-- The statistics region's `y` is the first layer's output `y1`. -/
theorem y1_eq : yOf1 (V5 m) c = y1K (gOf m c) (xOf m c) (w1Of m c) (b1Of m c) := by
  funext i k
  have e1 : aggA1 (V5 m) c (ix2 i k) = aggK (gOf m c) (preK (gOf m c) (xOf m c) (w1Of m c)) i k := agg1_out m c hf i k
  have e2 : dinvA1 (V5 m) c (ix2 i (0 : Fin 1)) = Cert.Stages.dinv (gOf m c) i :=
    (congrFun (keep_3_5 m c main_v17 (by decide) (by decide)) (ix2 i (0 : Fin 1))).trans (hf.dinv i)
  have e3 : biasA1 (V5 m) c (ix2 (0 : Fin 1) k) = b1Of m c k :=
    (congrFun (keep_3_5 m c main_v18 (by decide) (by decide)) (ix2 (0 : Fin 1) k)).trans (hf.b1 k)
  show aggA1 (V5 m) c (ix2 i k) * dinvA1 (V5 m) c (ix2 i (0 : Fin 1)) + biasA1 (V5 m) c (ix2 (0 : Fin 1) k) = _
  rw [e1, e2, e3]
  rfl

/-- The statistics region's two outputs: the column sums of `y1` and of its square. -/
theorem sum1_out (j : Fin 128) :
    (W6 m c (Proc.devRef .tc main_v37_0) : S1x128.Idx → EReal) (ix2 (0 : Fin 1) j) = colSumK (y1K (gOf m c) (xOf m c) (w1Of m c) (b1Of m c)) j :=
  (congrFun (W6_arr m c 3) (ix2 (0 : Fin 1) j)).trans ((stats1_sum (V5 m) c j).trans (by rw [y1_eq m c hf]))
theorem sumsq1_out (j : Fin 128) :
    (W6 m c (Proc.devRef .tc main_v37_1) : S1x128.Idx → EReal) (ix2 (0 : Fin 1) j) = colSumK (sq (y1K (gOf m c) (xOf m c) (w1Of m c) (b1Of m c))) j :=
  (congrFun (W6_arr m c 4) (ix2 (0 : Fin 1) j)).trans ((stats1_sumsq (V5 m) c j).trans (by rw [y1_eq m c hf]))

/-- The stretch after it: the mean and the variance of `y1`, column by column. -/
theorem mean1_out (j : Fin 128) :
    (W7 m c (Proc.devRef .tc main_v39) : S1x128.Idx → EReal) (ix2 (0 : Fin 1) j) = meanK (y1K (gOf m c) (xOf m c) (w1Of m c) (b1Of m c)) j :=
  (hf.stat2 (W6 m c) (y1K (gOf m c) (xOf m c) (w1Of m c) (b1Of m c)) (sum1_out m c hf) (sumsq1_out m c hf) j).1
theorem var1_out (j : Fin 128) :
    (W7 m c (Proc.devRef .tc main_v43) : S1x128.Idx → EReal) (ix2 (0 : Fin 1) j) = varK (y1K (gOf m c) (xOf m c) (w1Of m c) (b1Of m c)) j :=
  (hf.stat2 (W6 m c) (y1K (gOf m c) (xOf m c) (w1Of m c) (b1Of m c)) (sum1_out m c hf) (sumsq1_out m c hf) j).2

end Cert.KernelIdeal.HandVal

end
-- ==== Proof.KIVal.Pay2.lean ====
import proofs.«156713_j13589276524898_2_alg».proof.Proof.Gen.KernelIdeal.Skeleton
import proofs.«156713_j13589276524898_2_alg».proof.Proof.LibPlainDot
import proofs.«156713_j13589276524898_2_alg».proof.Proof.LibDenseRows
import Idealize.ShloMosaic.Lib.Pipeline.Value
import Idealize.ShloMosaic.Lib.ValueIdx
import Idealize.ShloMosaic.Lib.ValueLayout
import Idealize.ShloMosaic.PureOps.Ideal.Laws

/-! # The second dense layer's body at an index, over the exact reals

The body normalises and rectifies each entry of its row block (`act1`), multiplies the result by the weights
(rounding to bf16 is the identity at the exact reals; a tile product into a zero accumulator is the plain sum over the
contracted coordinate) and scales row `p` of the product by the `p`-th entry of the scale column. -/

set_option maxRecDepth 16384

noncomputable section

namespace Cert.KernelIdeal.HandVal

open Cert.KernelIdeal Cert.KernelIdeal.Gen Cert.LibDenseRows
open Idealize.ShloMosaic Idealize.ShloMosaic.TcCoe Idealize.ShloMosaic.ValueIdx Idealize.SL.Sem
open Idealize.ShloMosaic.Pipeline (Dat)
open scoped BigOperators

/-- One entry of a normalised, rectified layer: with `y = a * d + b` (the aggregated entry scaled by its row's
    factor, plus the bias), `max ((((y - μ) * rsqrt (v + ε)) * g) + o) 0`. -/
def act1 (a d b μ v g o : EReal) : EReal :=
  max ((((a * d + b) - μ) * Ideal.rsqrt (v + Ideal.ofBits .f32 0x3727C5AC#32)) * g + o) (Ideal.ofBits .f32 0x00000000#32)

/-- The body's stored value at `(p, q)`: the payload takes the variance row before the mean row. -/
theorem pay2_apply (x0 : Vec Ideal S5000x128 .f32) (x1 : Vec Ideal S5000x1 .f32) (bias mean var gain offs : Vec Ideal S1x128 .f32)
    (w : Vec Ideal S128x128 .f32) (p : Fin 5000) (q : Fin 128) :
    k2_pay1 (k2_pay2 x0 x1 bias var mean gain offs w) (k2_pay3 x1) (ix2 p q)
      = (∑ k : Fin 128, act1 (x0 (ix2 p k)) (x1 (ix2 p (0 : Fin 1))) (bias (ix2 (0 : Fin 1) k)) (mean (ix2 (0 : Fin 1) k))
            (var (ix2 (0 : Fin 1) k)) (gain (ix2 (0 : Fin 1) k)) (offs (ix2 (0 : Fin 1) k)) * w (ix2 k q))
          * x1 (ix2 p (0 : Fin 1)) := by
  unfold k2_pay1 k2_pay2 k2_pay3 act1
  show (FloatOps.matmul dot_S5000x128_S128x128_S5000x128_1_0_0_1_n_n none (truncf .bf16 _ bitsLt_bf16_f32) (truncf .bf16 w bitsLt_bf16_f32) (constant (F := Ideal) S5000x128 .f32 0x00000000#32) (ix2 p q))
      * (broadcastTo S5000x128 (shapeCast S5000x1 x1 shapeCasts_S5000x1_S5000x1) broadcasts_S5000x1_S5000x128 (ix2 p q)) = _
  rw [PlainDot.matmul_zero_plain dot_S5000x128_S128x128_S5000x128_1_0_0_1_n_n rfl rfl rfl rfl rfl rfl none _ _ (ix2 p q)]
  simp only [shapeCast_self, broadcastTo_a1_ab_apply, broadcastTo_1b_ab_apply, truncf_apply, maximumf_apply, addf_apply, mulf_apply, subf_apply, broadcast_apply]
  rfl

end Cert.KernelIdeal.HandVal

end
-- ==== Proof.KIVal.Dense2Val.lean ====
import proofs.«156713_j13589276524898_2_alg».proof.Proof.KI.Dense2
import proofs.«156713_j13589276524898_2_alg».proof.Proof.KIVal.Pay2
import Idealize.ShloMosaic.Lib.Pipeline.Value
import Idealize.ShloMosaic.Lib.ValueIdx

/-! # The second dense layer's output array, whatever its input arrays hold

Each grid point writes one block of 5000 rows; block `t` of the output is computed from block `t` of the aggregated
rows and of the scale column, and from six arrays read whole (the bias, mean, variance, gain and offset rows and the
weight matrix), so the blocks are the restrictions of one function of the eight arrays (`dense2`), and the twenty
blocks cover the output array. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-- The second dense layer's output as one function of its eight input arrays: entry `(i, j)` is the normalised,
    rectified `i`-th row (`act1` of the aggregated row `aA`, its scale `dA`, and the bias, mean, variance, gain and
    offset rows) times the `j`-th column of `wA`, scaled by the `i`-th entry of `dA`. -/
def dense2 (aA : S100000x128.Idx → EReal) (dA : S100000x1.Idx → EReal) (bA muA vA gA oA : S1x128.Idx → EReal)
    (wA : S128x128.Idx → EReal) : S100000x128.Idx → EReal :=
  fun I => (∑ k : Fin 128, act1 (aA (ix2 (I 0) k)) (dA (ix2 (I 0) (0 : Fin 1))) (bA (ix2 (0 : Fin 1) k)) (muA (ix2 (0 : Fin 1) k))
      (vA (ix2 (0 : Fin 1) k)) (gA (ix2 (0 : Fin 1) k)) (oA (ix2 (0 : Fin 1) k)) * wA (ix2 k (I 1))) * dA (ix2 (I 0) (0 : Fin 1))

/-- The body's payload on blocks whose entries are the arrays' entries of row `r`: the output's entry `(r, q)`. -/
theorem dense2_block (aA : S100000x128.Idx → EReal) (dA : S100000x1.Idx → EReal) (bA muA vA gA oA : S1x128.Idx → EReal)
    (wA : S128x128.Idx → EReal)
    (b0 : Vec Ideal S5000x128 .f32) (b1 : Vec Ideal S5000x1 .f32) (b2 b3 b4 b5 b6 : Vec Ideal S1x128 .f32) (b7 : Vec Ideal S128x128 .f32)
    (r : Fin 100000) (p : Fin 5000) (q : Fin 128)
    (h0 : ∀ k : Fin 128, b0 (ix2 p k) = aA (ix2 r k)) (h1 : b1 (ix2 p (0 : Fin 1)) = dA (ix2 r (0 : Fin 1)))
    (h2 : ∀ k : Fin 128, b2 (ix2 (0 : Fin 1) k) = bA (ix2 (0 : Fin 1) k)) (h3 : ∀ k : Fin 128, b3 (ix2 (0 : Fin 1) k) = muA (ix2 (0 : Fin 1) k))
    (h4 : ∀ k : Fin 128, b4 (ix2 (0 : Fin 1) k) = vA (ix2 (0 : Fin 1) k)) (h5 : ∀ k : Fin 128, b5 (ix2 (0 : Fin 1) k) = gA (ix2 (0 : Fin 1) k))
    (h6 : ∀ k : Fin 128, b6 (ix2 (0 : Fin 1) k) = oA (ix2 (0 : Fin 1) k)) (h7 : ∀ k : Fin 128, b7 (ix2 k q) = wA (ix2 k q)) :
    k2_pay1 (k2_pay2 b0 b1 b2 b4 b3 b5 b6 b7) (k2_pay3 b1) (ix2 p q) = dense2 aA dA bA muA vA gA oA wA (ix2 r q) := by
  rw [pay2_apply, h1]
  simp only [h0, h2, h3, h4, h5, h6, h7]
  rfl

/-- Where the blocks sit: at point `t` the row block, the scale column and the output block are the `t`-th of their
    arrays; every other window is the whole of its array. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_8.index t (0 : Fin 2) = t.val ∧ win2_8.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ t.val < 20 :=
  (by decide +kernel : ∀ t : Fin grid2.N, _)

/-- Every block of rows is some point's. -/
theorem idx_onto2 : ∀ q0 : Fin 20, ∃ t : Fin cfg2.N, t.val = q0.val :=
  (by decide +kernel : ∀ q0 : Fin 20, ∃ t : Fin grid2.N, t.val = q0.val)

set_option maxHeartbeats 4000000 in
/-- What point `t` writes back is block `t` of `dense2` of the arrays as the pipeline finds them: row `r` of the
    block is row `5000 t + r` of the arrays. -/
theorem flushed2_eq (c : Dev nD) (t : Fin cfg2.N) :
    (dat2 V c).flushed 8 t = ((cfg2.win 8).blk t).view.read (Elt Ideal)
      (dense2 (V c main_v36) (V c main_v17) (V c main_v18) (V c main_v39) (V c main_v43) (V c main_v19) (V c main_v20) (V c main_arg6)) := by
  show (cfg2.win 8).cut (grid2.coords t) ((dat2 V c).after 8 t) = _
  rw [dat2_after_8]
  unfold res2
  rw [View.canon_unit_zero hz2]
  simp only [View.ld_unit_zero (S := S5000x128) hz2, View.ld_unit_zero (S := S128x128) hz2, View.ld_unit_zero (S := S5000x1) hz2,
    View.ld_unit_zero (S := S1x128) hz2]
  funext j
  obtain ⟨e00, e01, e10, e11, e80, e81, e20, e21, e30, e31, e40, e41, e50, e51, e60, e61, e70, e71, ht⟩ := idx2 t
  obtain ⟨p, q, rfl⟩ : ∃ (p : Fin 5000) (q : Fin 128), j = ix2 p q := ⟨j 0, j 1, eq_ix2 j⟩
  have hp : p.val < 5000 := p.isLt
  have hE : ((cfg2.win 8).blk t).view.emb (ix2 p q) = ix2 (⟨t.val * 5000 + p.val, by omega⟩ : Fin 100000) q := by
    funext a; apply Fin.ext
    match a with
    | ⟨0, _⟩ => show win2_8.index t (0 : Fin 2) * 5000 + 1 * p.val = t.val * 5000 + p.val; omega
    | ⟨1, _⟩ => show win2_8.index t (1 : Fin 2) * 128 + 1 * q.val = q.val; omega
  have h0 : ∀ k : Fin 128, ((cfg2.win 0).blk t).view.emb (ix2 p k) = ix2 (⟨t.val * 5000 + p.val, by omega⟩ : Fin 100000) k := by
    intro k; funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ((cfg2.win 1).blk t).view.emb (ix2 p (0 : Fin 1)) = ix2 (⟨t.val * 5000 + p.val, by omega⟩ : Fin 100000) (0 : Fin 1) := by
    funext a; apply Fin.ext
    match a with
    | ⟨0, _⟩ => show win2_1.index t (0 : Fin 2) * 5000 + 1 * p.val = t.val * 5000 + p.val; omega
    | ⟨1, _⟩ => show win2_1.index t (1 : Fin 2) * 1 + 1 * 0 = 0; omega
  have h2 : ∀ k : Fin 128, ((cfg2.win 2).blk t).view.emb (ix2 (0 : Fin 1) k) = ix2 (0 : Fin 1) k := by
    intro k; funext a; apply Fin.ext
    match a with
    | ⟨0, _⟩ => show win2_2.index t (0 : Fin 2) * 1 + 1 * 0 = 0; omega
    | ⟨1, _⟩ => show win2_2.index t (1 : Fin 2) * 128 + 1 * k.val = k.val; omega
  have h3 : ∀ k : Fin 128, ((cfg2.win 3).blk t).view.emb (ix2 (0 : Fin 1) k) = ix2 (0 : Fin 1) k := by
    intro k; funext a; apply Fin.ext
    match a with
    | ⟨0, _⟩ => show win2_3.index t (0 : Fin 2) * 1 + 1 * 0 = 0; omega
    | ⟨1, _⟩ => show win2_3.index t (1 : Fin 2) * 128 + 1 * k.val = k.val; omega
  have h4 : ∀ k : Fin 128, ((cfg2.win 4).blk t).view.emb (ix2 (0 : Fin 1) k) = ix2 (0 : Fin 1) k := by
    intro k; funext a; apply Fin.ext
    match a with
    | ⟨0, _⟩ => show win2_4.index t (0 : Fin 2) * 1 + 1 * 0 = 0; omega
    | ⟨1, _⟩ => show win2_4.index t (1 : Fin 2) * 128 + 1 * k.val = k.val; omega
  have h5 : ∀ k : Fin 128, ((cfg2.win 5).blk t).view.emb (ix2 (0 : Fin 1) k) = ix2 (0 : Fin 1) k := by
    intro k; funext a; apply Fin.ext
    match a with
    | ⟨0, _⟩ => show win2_5.index t (0 : Fin 2) * 1 + 1 * 0 = 0; omega
    | ⟨1, _⟩ => show win2_5.index t (1 : Fin 2) * 128 + 1 * k.val = k.val; omega
  have h6 : ∀ k : Fin 128, ((cfg2.win 6).blk t).view.emb (ix2 (0 : Fin 1) k) = ix2 (0 : Fin 1) k := by
    intro k; funext a; apply Fin.ext
    match a with
    | ⟨0, _⟩ => show win2_6.index t (0 : Fin 2) * 1 + 1 * 0 = 0; omega
    | ⟨1, _⟩ => show win2_6.index t (1 : Fin 2) * 128 + 1 * k.val = k.val; omega
  have h7 : ∀ k : Fin 128, ((cfg2.win 7).blk t).view.emb (ix2 k q) = ix2 k q := by
    intro k; funext a; apply Fin.ext
    match a with
    | ⟨0, _⟩ => show win2_7.index t (0 : Fin 2) * 128 + 1 * k.val = k.val; omega
    | ⟨1, _⟩ => show win2_7.index t (1 : Fin 2) * 128 + 1 * q.val = q.val; omega
  show k2_pay1 (k2_pay2 (blk2 V c 0 t) (blk2 V c 1 t) (blk2 V c 2 t) (blk2 V c 4 t) (blk2 V c 3 t) (blk2 V c 5 t) (blk2 V c 6 t) (blk2 V c 7 t))
        (k2_pay3 (blk2 V c 1 t)) (ix2 p q)
      = dense2 (V c main_v36) (V c main_v17) (V c main_v18) (V c main_v39) (V c main_v43) (V c main_v19) (V c main_v20) (V c main_arg6)
          (((cfg2.win 8).blk t).view.emb (ix2 p q))
  rw [hE]
  exact dense2_block (V c main_v36) (V c main_v17) (V c main_v18) (V c main_v39) (V c main_v43) (V c main_v19) (V c main_v20) (V c main_arg6)
    (blk2 V c 0 t) (blk2 V c 1 t) (blk2 V c 2 t) (blk2 V c 3 t) (blk2 V c 4 t) (blk2 V c 5 t) (blk2 V c 6 t) (blk2 V c 7 t)
    ⟨t.val * 5000 + p.val, by omega⟩ p q (fun k => congrArg (V c main_v36) (h0 k)) (congrArg (V c main_v17) h1)
    (fun k => congrArg (V c main_v18) (h2 k)) (fun k => congrArg (V c main_v39) (h3 k)) (fun k => congrArg (V c main_v43) (h4 k))
    (fun k => congrArg (V c main_v19) (h5 k)) (fun k => congrArg (V c main_v20) (h6 k)) (fun k => congrArg (V c main_arg6) (h7 k))

/-- An index of the output array is in point `t`'s block iff each coordinate is in the block's range on its axis. -/
theorem mem_blk2 (t : Fin cfg2.N) (i : S100000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v44).slice (win2_8.rect t)).set ↔ _
  rw [View.set_slice_whole, Rect.mem_set_unit]
  exact Iff.rfl

/-- Every index of the output array is in some point's block: row `r` is in block `r / 5000`. -/
theorem covered2 (i : S100000x128.Idx) : ∃ t : Fin cfg2.N, (cfg2.win 8).flush t = true ∧ i ∈ ((cfg2.win 8).blk t).view.set := by
  have hi0 : (i 0).val < 100000 := (i 0).isLt
  have hi1 : (i 1).val < 128 := (i 1).isLt
  obtain ⟨t, ht⟩ := idx_onto2 ⟨(i 0).val / 5000, by omega⟩
  have ht' : t.val = (i 0).val / 5000 := ht
  obtain ⟨-, -, -, -, e80, e81, -⟩ := idx2 t
  refine ⟨t, flush2_8 t, ?_⟩
  rw [mem_blk2]
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 128 ≤ (i 1).val ∧ (i 1).val < win2_8.index t (1 : Fin 2) * 128 + 128; omega

/-- The output array after the pipeline, whatever the arrays held when it started. -/
theorem dense2_arr (c : Dev nD) :
    (dat2 V c).arrAt 8 cfg2.N
      = dense2 (V c main_v36) (V c main_v17) (V c main_v18) (V c main_v39) (V c main_v43) (V c main_v19) (V c main_v20) (V c main_arg6) :=
  (dat2 V c).arrAt_eq_of_cover 8 _ (fun t _ => flushed2_eq V c t) covered2

/-- The same, read at an index; the input arrays are named through equations, so that a caller may hand the
    contents it knows them to have. -/
theorem dense2_apply (c : Dev nD) (aA : S100000x128.Idx → EReal) (dA : S100000x1.Idx → EReal) (bA muA vA gA oA : S1x128.Idx → EReal)
    (wA : S128x128.Idx → EReal)
    (ha : V c main_v36 = aA) (hd : V c main_v17 = dA) (hb : V c main_v18 = bA) (hmu : V c main_v39 = muA) (hv : V c main_v43 = vA)
    (hg : V c main_v19 = gA) (ho : V c main_v20 = oA) (hw : V c main_arg6 = wA) (i : Fin 100000) (j : Fin 128) :
    (dat2 V c).arrAt 8 cfg2.N (ix2 i j)
      = (∑ k : Fin 128, act1 (aA (ix2 i k)) (dA (ix2 i (0 : Fin 1))) (bA (ix2 (0 : Fin 1) k)) (muA (ix2 (0 : Fin 1) k))
          (vA (ix2 (0 : Fin 1) k)) (gA (ix2 (0 : Fin 1) k)) (oA (ix2 (0 : Fin 1) k)) * wA (ix2 k j)) * dA (ix2 i (0 : Fin 1)) := by
  subst ha hd hb hmu hv hg ho hw
  rw [dense2_arr]; rfl

end Cert.KernelIdeal.HandVal

end
-- ==== Proof.KI.StatsVal3.lean ====
/-
  The column-statistics region 3, read as values.

  What each control case leaves in the accumulators and the outputs is the body's own arithmetic: the accumulator
  carried in (zero at the first point) plus the column sums of this block's `y = block · dinv + b`, or of `y · y`;
  at the last point the outputs are copies of the accumulators. Read at a column `k` on the exact reals the column
  sum is a sum over the block's 5000 rows.
-/
import proofs.«156713_j13589276524898_2_alg».proof.Proof.KI.Stats3
import Idealize.ShloMosaic.Lib.Pipeline.Value
import Idealize.ShloMosaic.Lib.ValueLayout
import proofs.«156713_j13589276524898_2_alg».proof.Proof.LibAxisFolds
import proofs.«156713_j13589276524898_2_alg».proof.Proof.LibDenseRows
import proofs.«156713_j13589276524898_2_alg».proof.Proof.Stages

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem zeroOff3 : (![0, 0] : Fin 2 → Nat) = fun _ => 0 := funext fun a => by fin_cases a <;> rfl

/-! ## What each case leaves, as the body's arithmetic -/

/-- After the first point accumulator 0 holds the zeros just stored plus block 0's column sums. -/
theorem acc0After3_first_eq (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first3 i) (hl : ¬last3 i)
    (x0 : Vec F S5000x128 .f32) (x1 : Vec F S5000x1 .f32) (x2 : Vec F S1x128 .f32)  :
    acc0After3_first c i arg1 harg1 arg2 harg2 arg3 harg3 arg4 harg4 arg5 harg5 arg6 harg6 arg7 harg7 hf hl x0 x1 x2  = k3_pay4 x0 x1 x2 (k3_pay1 (F := F)) := by
  unfold acc0After3_first
  rw [View.read_writes_eq_canon _ _ _ (acc0Cover3_first c i arg1 harg1 arg2 harg2 arg3 harg3 arg4 harg4 arg5 harg5 arg6 harg6 arg7 harg7 hf hl x0 x1 x2 )]
  unfold statsRun3_first
  dsimp only
  try sl_unfold_words
  rw [View.canon_cons_unit_zero zeroOff3]
  simp only [View.readAt_eq_ld, harg1.read_unread, harg2.read_unread, harg3.read_unread, View.ld_unit_zero (S := S5000x128) zeroOff3,
    View.ld_unit_zero (S := S5000x1) zeroOff3, View.ld_unit_zero (S := S1x128) zeroOff3, View.readCov_unit_zero (S := S1x128) _ zeroOff3]

/-- After the first point accumulator 1 holds the zeros just stored plus block 0's column sums of squares. -/
theorem acc1After3_first_eq (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : first3 i) (hl : ¬last3 i)
    (x0 : Vec F S5000x128 .f32) (x1 : Vec F S5000x1 .f32) (x2 : Vec F S1x128 .f32)  :
    acc1After3_first c i arg1 harg1 arg2 harg2 arg3 harg3 arg4 harg4 arg5 harg5 arg6 harg6 arg7 harg7 hf hl x0 x1 x2  = k3_pay5 x0 x1 x2 (k3_pay2 (F := F)) := by
  unfold acc1After3_first
  rw [View.read_writes_eq_canon _ _ _ (acc1Cover3_first c i arg1 harg1 arg2 harg2 arg3 harg3 arg4 harg4 arg5 harg5 arg6 harg6 arg7 harg7 hf hl x0 x1 x2 )]
  unfold statsRun3_first
  dsimp only
  try sl_unfold_words
  rw [View.canon_cons_unit_zero zeroOff3]
  simp only [View.readAt_eq_ld, harg1.read_unread, harg2.read_unread, harg3.read_unread, View.ld_unit_zero (S := S5000x128) zeroOff3,
    View.ld_unit_zero (S := S5000x1) zeroOff3, View.ld_unit_zero (S := S1x128) zeroOff3, View.readCov_unit_zero (S := S1x128) _ zeroOff3]

/-- A middle point adds its block's column sums onto what accumulator 0 held. -/
theorem acc0After3_mid_eq (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : ¬last3 i)
    (x0 : Vec F S5000x128 .f32) (x1 : Vec F S5000x1 .f32) (x2 : Vec F S1x128 .f32) (xs0 xs1 : Vec F S1x128 .f32) :
    acc0After3_mid c i arg1 harg1 arg2 harg2 arg3 harg3 arg4 harg4 arg5 harg5 arg6 harg6 arg7 harg7 hf hl x0 x1 x2 xs0 xs1 = k3_pay4 x0 x1 x2 xs0 := by
  unfold acc0After3_mid
  rw [View.read_writes_eq_canon _ _ _ (acc0Cover3_mid c i arg1 harg1 arg2 harg2 arg3 harg3 arg4 harg4 arg5 harg5 arg6 harg6 arg7 harg7 hf hl x0 x1 x2 xs0 xs1)]
  unfold statsRun3_mid
  dsimp only
  try sl_unfold_words
  rw [View.canon_cons_unit_zero zeroOff3]
  simp only [View.readAt_eq_ld, harg1.read_unread, harg2.read_unread, harg3.read_unread, harg6.read_unread, harg7.read_unread, View.ld_unit_zero (S := S5000x128) zeroOff3,
    View.ld_unit_zero (S := S5000x1) zeroOff3, View.ld_unit_zero (S := S1x128) zeroOff3, View.readCov_unit_zero (S := S1x128) _ zeroOff3]

/-- A middle point adds its block's column sums of squares onto what accumulator 1 held. -/
theorem acc1After3_mid_eq (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : ¬last3 i)
    (x0 : Vec F S5000x128 .f32) (x1 : Vec F S5000x1 .f32) (x2 : Vec F S1x128 .f32) (xs0 xs1 : Vec F S1x128 .f32) :
    acc1After3_mid c i arg1 harg1 arg2 harg2 arg3 harg3 arg4 harg4 arg5 harg5 arg6 harg6 arg7 harg7 hf hl x0 x1 x2 xs0 xs1 = k3_pay5 x0 x1 x2 xs1 := by
  unfold acc1After3_mid
  rw [View.read_writes_eq_canon _ _ _ (acc1Cover3_mid c i arg1 harg1 arg2 harg2 arg3 harg3 arg4 harg4 arg5 harg5 arg6 harg6 arg7 harg7 hf hl x0 x1 x2 xs0 xs1)]
  unfold statsRun3_mid
  dsimp only
  try sl_unfold_words
  rw [View.canon_cons_unit_zero zeroOff3]
  simp only [View.readAt_eq_ld, harg1.read_unread, harg2.read_unread, harg3.read_unread, harg6.read_unread, harg7.read_unread, View.ld_unit_zero (S := S5000x128) zeroOff3,
    View.ld_unit_zero (S := S5000x1) zeroOff3, View.ld_unit_zero (S := S1x128) zeroOff3, View.readCov_unit_zero (S := S1x128) _ zeroOff3]

/-- The last point adds its block's column sums onto what accumulator 0 held, -/
theorem acc0After3_last_eq (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) :
    acc0After3_last c i arg1 harg1 arg2 harg2 arg3 harg3 arg4 harg4 arg5 harg5 arg6 harg6 arg7 harg7 hf hl x0 x1 x2 xs0 xs1 = k3_pay4 x0 x1 x2 xs0 := by
  unfold acc0After3_last
  rw [View.read_writes_eq_canon _ _ _ (acc0Cover3_last c i arg1 harg1 arg2 harg2 arg3 harg3 arg4 harg4 arg5 harg5 arg6 harg6 arg7 harg7 hf hl x0 x1 x2 xs0 xs1)]
  unfold statsRun3_last
  dsimp only
  try sl_unfold_words
  rw [View.canon_cons_unit_zero zeroOff3]
  simp only [View.readAt_eq_ld, harg1.read_unread, harg2.read_unread, harg3.read_unread, harg6.read_unread, harg7.read_unread, View.ld_unit_zero (S := S5000x128) zeroOff3,
    View.ld_unit_zero (S := S5000x1) zeroOff3, View.ld_unit_zero (S := S1x128) zeroOff3, View.readCov_unit_zero (S := S1x128) _ zeroOff3]

/-- and its column sums of squares onto accumulator 1, -/
theorem acc1After3_last_eq (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) :
    acc1After3_last c i arg1 harg1 arg2 harg2 arg3 harg3 arg4 harg4 arg5 harg5 arg6 harg6 arg7 harg7 hf hl x0 x1 x2 xs0 xs1 = k3_pay5 x0 x1 x2 xs1 := by
  unfold acc1After3_last
  rw [View.read_writes_eq_canon _ _ _ (acc1Cover3_last c i arg1 harg1 arg2 harg2 arg3 harg3 arg4 harg4 arg5 harg5 arg6 harg6 arg7 harg7 hf hl x0 x1 x2 xs0 xs1)]
  unfold statsRun3_last
  dsimp only
  try sl_unfold_words
  rw [View.canon_cons_unit_zero zeroOff3]
  simp only [View.readAt_eq_ld, harg1.read_unread, harg2.read_unread, harg3.read_unread, harg6.read_unread, harg7.read_unread, View.ld_unit_zero (S := S5000x128) zeroOff3,
    View.ld_unit_zero (S := S5000x1) zeroOff3, View.ld_unit_zero (S := S1x128) zeroOff3, View.readCov_unit_zero (S := S1x128) _ zeroOff3]

/-- and copies accumulator 0 into output 3 -/
theorem out3After3_last_eq (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) :
    out3After3_last c i arg1 harg1 arg2 harg2 arg3 harg3 arg4 harg4 arg5 harg5 arg6 harg6 arg7 harg7 hf hl x0 x1 x2 xs0 xs1 = k3_pay4 x0 x1 x2 xs0 := by
  unfold out3After3_last
  rw [View.read_writes_eq_canon _ _ _ (out3Cover3_last c i arg1 harg1 arg2 harg2 arg3 harg3 arg4 harg4 arg5 harg5 arg6 harg6 arg7 harg7 hf hl x0 x1 x2 xs0 xs1)]
  unfold statsRun3_last
  dsimp only
  try sl_unfold_words
  rw [View.canon_cons_unit_zero zeroOff3]
  simp only [View.readAt_eq_ld, harg1.read_unread, harg2.read_unread, harg3.read_unread, harg6.read_unread, harg7.read_unread, View.ld_unit_zero (S := S5000x128) zeroOff3,
    View.ld_unit_zero (S := S5000x1) zeroOff3, View.ld_unit_zero (S := S1x128) zeroOff3, View.readCov_unit_zero (S := S1x128) _ zeroOff3]

/-- and accumulator 1 into output 4. -/
theorem out4After3_last_eq (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hf : ¬first3 i) (hl : last3 i)
    (x0 : Vec F S5000x128 .f32) (x1 : Vec F S5000x1 .f32) (x2 : Vec F S1x128 .f32) (xs0 xs1 : Vec F S1x128 .f32) :
    out4After3_last c i arg1 harg1 arg2 harg2 arg3 harg3 arg4 harg4 arg5 harg5 arg6 harg6 arg7 harg7 hf hl x0 x1 x2 xs0 xs1 = k3_pay5 x0 x1 x2 xs1 := by
  unfold out4After3_last
  rw [View.read_writes_eq_canon _ _ _ (out4Cover3_last c i arg1 harg1 arg2 harg2 arg3 harg3 arg4 harg4 arg5 harg5 arg6 harg6 arg7 harg7 hf hl x0 x1 x2 xs0 xs1)]
  unfold statsRun3_last
  dsimp only
  try sl_unfold_words
  rw [View.canon_cons_unit_zero zeroOff3]
  simp only [View.readAt_eq_ld, harg1.read_unread, harg2.read_unread, harg3.read_unread, harg6.read_unread, harg7.read_unread, View.ld_unit_zero (S := S5000x128) zeroOff3,
    View.ld_unit_zero (S := S5000x1) zeroOff3, View.ld_unit_zero (S := S1x128) zeroOff3, View.readCov_unit_zero (S := S1x128) _ zeroOff3]

/-! ## The arithmetic at a column, on the exact reals -/

/-- `y = block · dinv + b` at row `r`, column `k`. -/
theorem yBlock3_apply (x0 : FVec Ideal S5000x128 .f32) (x1 : FVec Ideal S5000x1 .f32) (x2 : FVec Ideal S1x128 .f32) (r : Fin 5000) (k : Fin 128) :
    k3_pay3 (F := Ideal) x0 x1 x2 (ix2 r k) = x0 (ix2 r k) * x1 (ix2 r (0 : Fin 1)) + x2 (ix2 (0 : Fin 1) k) := by
  unfold k3_pay3
  simp only [shapeCast_self]
  rw [addf_apply, mulf_apply, Cert.LibDenseRows.broadcastTo_a1_ab_apply, broadcastTo_1b_ab_apply]

/-- The freshly zeroed accumulators read zero. -/
theorem zeros3_0_apply (k : Fin 128) : k3_pay1 (F := Ideal) (ix2 (0 : Fin 1) k) = Cert.Stages.zero := by
  unfold k3_pay1; simp only [shapeCast_self]; rfl
theorem zeros3_1_apply (k : Fin 128) : k3_pay2 (F := Ideal) (ix2 (0 : Fin 1) k) = Cert.Stages.zero := by
  unfold k3_pay2; simp only [shapeCast_self]; rfl

/-- One point's update of accumulator 0 at column `k`: what it held plus the block's column sum of `y`. -/
theorem accStep3_0_apply (x0 : FVec Ideal S5000x128 .f32) (x1 : FVec Ideal S5000x1 .f32) (x2 : FVec Ideal S1x128 .f32) (acc : FVec Ideal S1x128 .f32) (k : Fin 128) :
    k3_pay4 (F := Ideal) x0 x1 x2 acc (ix2 (0 : Fin 1) k)
      = acc (ix2 (0 : Fin 1) k) + ∑ r : Fin 5000, (x0 (ix2 r k) * x1 (ix2 r (0 : Fin 1)) + x2 (ix2 (0 : Fin 1) k)) := by
  unfold k3_pay4
  simp only [shapeCast_self]
  rw [addf_apply]
  congr 1
  refine (shapeCast_a_1a_apply _ _ _ _).trans ?_
  refine (Cert.LibAxisFolds.colSum_apply _ _ _ _ _ k).trans ?_
  exact Finset.sum_congr rfl fun r _ => yBlock3_apply x0 x1 x2 r k

/-- One point's update of accumulator 1 at column `k`: what it held plus the block's column sum of `y · y`. -/
theorem accStep3_1_apply (x0 : FVec Ideal S5000x128 .f32) (x1 : FVec Ideal S5000x1 .f32) (x2 : FVec Ideal S1x128 .f32) (acc : FVec Ideal S1x128 .f32) (k : Fin 128) :
    k3_pay5 (F := Ideal) x0 x1 x2 acc (ix2 (0 : Fin 1) k)
      = acc (ix2 (0 : Fin 1) k) + ∑ r : Fin 5000, ((x0 (ix2 r k) * x1 (ix2 r (0 : Fin 1)) + x2 (ix2 (0 : Fin 1) k)) * (x0 (ix2 r k) * x1 (ix2 r (0 : Fin 1)) + x2 (ix2 (0 : Fin 1) k))) := by
  unfold k3_pay5
  simp only [shapeCast_self]
  rw [addf_apply]
  congr 1
  refine (shapeCast_a_1a_apply _ _ _ _).trans ?_
  refine (Cert.LibAxisFolds.colSum_apply _ _ _ _ _ k).trans ?_
  exact Finset.sum_congr rfl fun r _ => by rw [mulf_apply, yBlock3_apply]

section
variable (V : (c : Dev nD) → (b : Ref sig .tc) → Buf (Elt Ideal) ((c : Thread nD τ).loc b))

/-! ## The blocks as rows of the region's arrays -/

/-- A grid point as one of the twenty blocks. -/
def pt3 (t : Fin cfg3.N) : Fin 20 := ⟨t.val, lt_of_lt_of_eq t.isLt (show cfg3.N = 20 from N_3)⟩

theorem idx3_0 : ∀ t : Fin cfg3.N, win3_0.index t 0 = t.val ∧ win3_0.index t 1 = 0 :=
  (by decide +kernel : ∀ t : Fin grid3.N, win3_0.index t 0 = t.val ∧ win3_0.index t 1 = 0)
theorem idx3_1 : ∀ t : Fin cfg3.N, win3_1.index t 0 = t.val ∧ win3_1.index t 1 = 0 :=
  (by decide +kernel : ∀ t : Fin grid3.N, win3_1.index t 0 = t.val ∧ win3_1.index t 1 = 0)
theorem idx3_2 : ∀ t : Fin cfg3.N, win3_2.index t 0 = 0 ∧ win3_2.index t 1 = 0 :=
  (by decide +kernel : ∀ t : Fin grid3.N, win3_2.index t 0 = 0 ∧ win3_2.index t 1 = 0)

/-- The region's three input arrays as it finds them: the aggregated features, the degree factors as a column, the bias as a row. -/
abbrev aggA3 (c : Dev nD) : S100000x128.Idx → EReal := V c (Pipeline.arrRef spec3 0)
abbrev dinvA3 (c : Dev nD) : S100000x1.Idx → EReal := V c (Pipeline.arrRef spec3 1)
abbrev biasA3 (c : Dev nD) : S1x128.Idx → EReal := V c (Pipeline.arrRef spec3 2)

/-- Block `t` of the features is rows `5000 t … 5000 t + 4999`. -/
theorem blk3_0_apply (c : Dev nD) (t : Fin cfg3.N) (r : Fin 5000) (k : Fin 128) :
    (blk3 V c 0 t : FVec Ideal S5000x128 .f32) (ix2 r k) = aggA3 V c (ix2 (Cert.Stages.rowAt (pt3 t) r) k) := by
  have hi := idx3_0 t
  unfold blk3
  rw [View.read_apply]
  show V c (Pipeline.arrRef spec3 0) _ = V c (Pipeline.arrRef spec3 0) _
  congr 1
  funext a
  apply Fin.ext
  match a with
  | ⟨0, _⟩ => show win3_0.index t 0 * 5000 + 1 * r.val = 5000 * t.val + r.val; rw [hi.1]; omega
  | ⟨1, _⟩ => show win3_0.index t 1 * 128 + 1 * k.val = k.val; rw [hi.2]; omega

/-- Block `t` of the factor column likewise. -/
theorem blk3_1_apply (c : Dev nD) (t : Fin cfg3.N) (r : Fin 5000) :
    (blk3 V c 1 t : FVec Ideal S5000x1 .f32) (ix2 r (0 : Fin 1)) = dinvA3 V c (ix2 (Cert.Stages.rowAt (pt3 t) r) (0 : Fin 1)) := by
  have hi := idx3_1 t
  unfold blk3
  rw [View.read_apply]
  show V c (Pipeline.arrRef spec3 1) _ = V c (Pipeline.arrRef spec3 1) _
  congr 1
  funext a
  apply Fin.ext
  match a with
  | ⟨0, _⟩ => show win3_1.index t 0 * 5000 + 1 * r.val = 5000 * t.val + r.val; rw [hi.1]; omega
  | ⟨1, _⟩ => show win3_1.index t 1 * 1 + 1 * 0 = 0; rw [hi.2]

/-- The bias row is its one block at every point. -/
theorem blk3_2_apply (c : Dev nD) (t : Fin cfg3.N) (k : Fin 128) :
    (blk3 V c 2 t : FVec Ideal S1x128 .f32) (ix2 (0 : Fin 1) k) = biasA3 V c (ix2 (0 : Fin 1) k) := by
  have hi := idx3_2 t
  unfold blk3
  rw [View.read_apply]
  show V c (Pipeline.arrRef spec3 2) _ = V c (Pipeline.arrRef spec3 2) _
  congr 1
  funext a
  apply Fin.ext
  match a with
  | ⟨0, _⟩ => show win3_2.index t 0 * 1 + 1 * 0 = 0; rw [hi.1]
  | ⟨1, _⟩ => show win3_2.index t 1 * 128 + 1 * k.val = k.val; rw [hi.2]; omega

/-- `y = agg · dinv + b` over the whole array, as the region's input arrays give it. -/
def yOf3 (c : Dev nD) : Cert.Stages.Mat Cert.Stages.nN 128 := fun i k =>
  aggA3 V c (ix2 i k) * dinvA3 V c (ix2 i (0 : Fin 1)) + biasA3 V c (ix2 (0 : Fin 1) k)

/-- One point's column sums are the block sums of `y` and of `y · y`. -/
theorem blockSum3_y (c : Dev nD) (t : Fin cfg3.N) (k : Fin 128)
    (x0 : FVec Ideal S5000x128 .f32) (x1 : FVec Ideal S5000x1 .f32) (x2 : FVec Ideal S1x128 .f32)
    (h0 : x0 = blk3 V c 0 t) (h1 : x1 = blk3 V c 1 t) (h2 : x2 = blk3 V c 2 t) :
    (∑ r : Fin 5000, (x0 (ix2 r k) * x1 (ix2 r (0 : Fin 1)) + x2 (ix2 (0 : Fin 1) k)))
      = Cert.Stages.blockSum (yOf3 V c) (pt3 t) k := by
  subst h0 h1 h2
  exact Finset.sum_congr rfl fun r _ => by rw [blk3_0_apply, blk3_1_apply, blk3_2_apply]; rfl
theorem blockSum3_ysq (c : Dev nD) (t : Fin cfg3.N) (k : Fin 128)
    (x0 : FVec Ideal S5000x128 .f32) (x1 : FVec Ideal S5000x1 .f32) (x2 : FVec Ideal S1x128 .f32)
    (h0 : x0 = blk3 V c 0 t) (h1 : x1 = blk3 V c 1 t) (h2 : x2 = blk3 V c 2 t) :
    (∑ r : Fin 5000, ((x0 (ix2 r k) * x1 (ix2 r (0 : Fin 1)) + x2 (ix2 (0 : Fin 1) k)) * (x0 (ix2 r k) * x1 (ix2 r (0 : Fin 1)) + x2 (ix2 (0 : Fin 1) k))))
      = Cert.Stages.blockSum (Cert.Stages.sq (yOf3 V c)) (pt3 t) k := by
  subst h0 h1 h2
  exact Finset.sum_congr rfl fun r _ => by rw [blk3_0_apply, blk3_1_apply, blk3_2_apply]; rfl

/-! ## Point by point: the accumulators are the running block sums -/

theorem lt20_3 {n : ℕ} (hn : n < cfg3.N) : n < 20 := lt_of_lt_of_eq hn (show cfg3.N = 20 from N_3)

/-- After point `n` accumulator 0 holds the running sum of `y`'s block sums and accumulator 1 that of `y · y`'s. -/
theorem accs3_eq (c : Dev nD) : ∀ (n : ℕ) (hn : n < cfg3.N) (k : Fin 128),
    (statsAt3 V c n hn).2.2.1 (ix2 (0 : Fin 1) k) = Cert.Stages.runSum (yOf3 V c) n (lt20_3 hn) k
    ∧ (statsAt3 V c n hn).2.2.2 (ix2 (0 : Fin 1) k) = Cert.Stages.runSum (Cert.Stages.sq (yOf3 V c)) n (lt20_3 hn) k := by
  intro n
  induction n with
  | zero =>
    intro hn k
    have hf : first3 (grid3.coords ⟨0, hn⟩) := (first3_iff ⟨0, hn⟩).mpr (Nat.zero_mod _)
    have hl : ¬last3 (grid3.coords ⟨0, hn⟩) := notLast3_zero hn
    have e := statsAt3_first V c ⟨0, hn⟩ rfl hf hl
    have e' : statsAt3 V c 0 hn = _ := e
    rw [e']
    constructor
    · dsimp only
      rw [acc0After3_first_eq, accStep3_0_apply, zeros3_0_apply, blockSum3_y V c _ k _ _ _ rfl rfl rfl]
      rfl
    · dsimp only
      rw [acc1After3_first_eq, accStep3_1_apply, zeros3_1_apply, blockSum3_ysq V c _ k _ _ _ rfl rfl rfl]
      rfl
  | succ n ih =>
    intro hn k
    have hz : (⟨n + 1, hn⟩ : Fin cfg3.N).val ≠ 0 := Nat.succ_ne_zero n
    have hf : ¬first3 (grid3.coords ⟨n + 1, hn⟩) := notFirst3_succ n hn
    obtain ⟨ih0, ih1⟩ := ih (Nat.lt_of_succ_lt hn) k
    by_cases h19 : (n + 1) % 20 = 19
    · have hl : last3 (grid3.coords ⟨n + 1, hn⟩) := (last3_iff ⟨n + 1, hn⟩).mpr h19
      have e : statsAt3 V c (n + 1) hn = _ := statsAt3_last V c ⟨n + 1, hn⟩ hz h19 hf hl
      rw [e]
      constructor
      · dsimp only
        rw [acc0After3_last_eq, accStep3_0_apply, blockSum3_y V c _ k _ _ _ rfl rfl rfl]
        show (statsAt3 V c n _).2.2.1 (ix2 (0 : Fin 1) k) + _ = _
        rw [ih0]; rfl
      · dsimp only
        rw [acc1After3_last_eq, accStep3_1_apply, blockSum3_ysq V c _ k _ _ _ rfl rfl rfl]
        show (statsAt3 V c n _).2.2.2 (ix2 (0 : Fin 1) k) + _ = _
        rw [ih1]; rfl
    · have hl : ¬last3 (grid3.coords ⟨n + 1, hn⟩) := fun h => h19 ((last3_iff ⟨n + 1, hn⟩).mp h)
      have e : statsAt3 V c (n + 1) hn = _ := statsAt3_mid V c ⟨n + 1, hn⟩ hz h19 hf hl
      rw [e]
      constructor
      · dsimp only
        rw [acc0After3_mid_eq, accStep3_0_apply, blockSum3_y V c _ k _ _ _ rfl rfl rfl]
        show (statsAt3 V c n _).2.2.1 (ix2 (0 : Fin 1) k) + _ = _
        rw [ih0]; rfl
      · dsimp only
        rw [acc1After3_mid_eq, accStep3_1_apply, blockSum3_ysq V c _ k _ _ _ rfl rfl rfl]
        show (statsAt3 V c n _).2.2.2 (ix2 (0 : Fin 1) k) + _ = _
        rw [ih1]; rfl

/-! ## The last point's copy, and the one write-back -/

/-- The last grid point. -/
def lastPt3 : Fin cfg3.N := ⟨19, by rw [show cfg3.N = 20 from N_3]; decide⟩

/-- At the last point the outputs are the accumulators just updated: the whole column sums. -/
theorem outs3_eq (c : Dev nD) (k : Fin 128) :
    (statsAt3 V c (lastPt3).val (lastPt3).isLt).1 (ix2 (0 : Fin 1) k) = Cert.Stages.colSumK (yOf3 V c) k
    ∧ (statsAt3 V c (lastPt3).val (lastPt3).isLt).2.1 (ix2 (0 : Fin 1) k) = Cert.Stages.colSumK (Cert.Stages.sq (yOf3 V c)) k := by
  have hz : (lastPt3).val ≠ 0 := by decide
  have h19 : (lastPt3).val % 20 = 19 := by decide
  have hf : ¬first3 (grid3.coords lastPt3) := fun h => by have := (first3_iff lastPt3).mp h; omega
  have hl : last3 (grid3.coords lastPt3) := (last3_iff lastPt3).mpr h19
  obtain ⟨ih0, ih1⟩ := accs3_eq V c 18 (by rw [show cfg3.N = 20 from N_3]; decide) k
  rw [statsAt3_last V c lastPt3 hz h19 hf hl]
  constructor
  · dsimp only
    rw [out3After3_last_eq, accStep3_0_apply, blockSum3_y V c _ k _ _ _ rfl rfl rfl]
    show (statsAt3 V c 18 _).2.2.1 (ix2 (0 : Fin 1) k) + _ = _
    rw [ih0]; rfl
  · dsimp only
    rw [out4After3_last_eq, accStep3_1_apply, blockSum3_ysq V c _ k _ _ _ rfl rfl rfl]
    show (statsAt3 V c 18 _).2.2.2 (ix2 (0 : Fin 1) k) + _ = _
    rw [ih1]; rfl

end

section
variable (V : (c : Dev nD) → (b : Ref sig .tc) → Buf (Elt Ideal) ((c : Thread nD τ).loc b))

/-! ## The one write-back of each output, and the arrays at the region's exit -/

theorem lastPt3_val : (lastPt3).val = 19 := rfl

/-- What the last point leaves in output 3's buffer, as the array it is written back to. -/
abbrev sumArr3 (c : Dev nD) : Buf (Elt Ideal) ((c : Thread nD τ).loc main_v56_0) := (statsAt3 V c (lastPt3).val (lastPt3).isLt).1
abbrev sumsqArr3 (c : Dev nD) : Buf (Elt Ideal) ((c : Thread nD τ).loc main_v56_1) := (statsAt3 V c (lastPt3).val (lastPt3).isLt).2.1

/-- Output 3 is written back once, at the last point: its one block is the whole `[1, 128]` array. -/
theorem flushed3_3 (c : Dev nD) (t : Fin cfg3.N) (hf : (cfg3.win 3).flush t = true) :
    (dat3 V c).flushed 3 t = ((cfg3.win 3).blk t).view.read (Elt Ideal) (sumArr3 V c) := by
  have h1 : t.val = 19 := by have := (flush3_3 t).mp hf; have := lt20_3 t.isLt; omega
  obtain rfl : t = lastPt3 := Fin.ext h1
  show (cfg3.win 3).cut (grid3.coords lastPt3) ((dat3 V c).after 3 lastPt3) = _
  rw [dat3_after_3]
  have hz' : (fun a => win3_3.index lastPt3 a * main_v56_0.ty.shape.size a) = fun _ => 0 := funext fun a => by fin_cases a <;> decide +kernel
  exact (Memref.read_access_unit_zero (Elt Ideal) main_v56_0 hz' (fun a => by rw [congrFun hz' a]; simp) (sumArr3 V c)).symm

/-- So at the region's exit the array holds what the last point left. -/
theorem final3_3 (c : Dev nD) : (dat3 V c).arrAt 3 cfg3.N = sumArr3 V c :=
  (dat3 V c).arrAt_eq_of_cover 3 (sumArr3 V c) (flushed3_3 V c) fun i =>
    ⟨lastPt3, (flush3_3 lastPt3).mpr (by rw [lastPt3_val]), by
      show i ∈ ((View.whole main_v56_0).slice (win3_3.rect lastPt3)).set
      rw [View.set_slice_whole, Rect.mem_set_unit]
      intro a
      have h0 : (i 0 : Nat) < 1 := (i 0).isLt
      have h1 : (i 1 : Nat) < 128 := (i 1).isLt
      match a with
      | ⟨0, _⟩ =>
        show win3_3.index lastPt3 0 * win3_3.size 0 ≤ (i 0 : Nat) ∧ (i 0 : Nat) < win3_3.index lastPt3 0 * win3_3.size 0 + win3_3.xsize (grid3.coords lastPt3) 0
        rw [show win3_3.index lastPt3 0 * win3_3.size 0 = 0 from by decide +kernel, show win3_3.xsize (grid3.coords lastPt3) 0 = 1 from by decide +kernel]; omega
      | ⟨1, _⟩ =>
        show win3_3.index lastPt3 1 * win3_3.size 1 ≤ (i 1 : Nat) ∧ (i 1 : Nat) < win3_3.index lastPt3 1 * win3_3.size 1 + win3_3.xsize (grid3.coords lastPt3) 1
        rw [show win3_3.index lastPt3 1 * win3_3.size 1 = 0 from by decide +kernel, show win3_3.xsize (grid3.coords lastPt3) 1 = 128 from by decide +kernel]; omega⟩

/-- Output 4 is written back once, at the last point: its one block is the whole `[1, 128]` array. -/
theorem flushed3_4 (c : Dev nD) (t : Fin cfg3.N) (hf : (cfg3.win 4).flush t = true) :
    (dat3 V c).flushed 4 t = ((cfg3.win 4).blk t).view.read (Elt Ideal) (sumsqArr3 V c) := by
  have h1 : t.val = 19 := by have := (flush3_4 t).mp hf; have := lt20_3 t.isLt; omega
  obtain rfl : t = lastPt3 := Fin.ext h1
  show (cfg3.win 4).cut (grid3.coords lastPt3) ((dat3 V c).after 4 lastPt3) = _
  rw [dat3_after_4]
  have hz' : (fun a => win3_4.index lastPt3 a * main_v56_1.ty.shape.size a) = fun _ => 0 := funext fun a => by fin_cases a <;> decide +kernel
  exact (Memref.read_access_unit_zero (Elt Ideal) main_v56_1 hz' (fun a => by rw [congrFun hz' a]; simp) (sumsqArr3 V c)).symm

/-- So at the region's exit the array holds what the last point left. -/
theorem final3_4 (c : Dev nD) : (dat3 V c).arrAt 4 cfg3.N = sumsqArr3 V c :=
  (dat3 V c).arrAt_eq_of_cover 4 (sumsqArr3 V c) (flushed3_4 V c) fun i =>
    ⟨lastPt3, (flush3_4 lastPt3).mpr (by rw [lastPt3_val]), by
      show i ∈ ((View.whole main_v56_1).slice (win3_4.rect lastPt3)).set
      rw [View.set_slice_whole, Rect.mem_set_unit]
      intro a
      have h0 : (i 0 : Nat) < 1 := (i 0).isLt
      have h1 : (i 1 : Nat) < 128 := (i 1).isLt
      match a with
      | ⟨0, _⟩ =>
        show win3_4.index lastPt3 0 * win3_4.size 0 ≤ (i 0 : Nat) ∧ (i 0 : Nat) < win3_4.index lastPt3 0 * win3_4.size 0 + win3_4.xsize (grid3.coords lastPt3) 0
        rw [show win3_4.index lastPt3 0 * win3_4.size 0 = 0 from by decide +kernel, show win3_4.xsize (grid3.coords lastPt3) 0 = 1 from by decide +kernel]; omega
      | ⟨1, _⟩ =>
        show win3_4.index lastPt3 1 * win3_4.size 1 ≤ (i 1 : Nat) ∧ (i 1 : Nat) < win3_4.index lastPt3 1 * win3_4.size 1 + win3_4.xsize (grid3.coords lastPt3) 1
        rw [show win3_4.index lastPt3 1 * win3_4.size 1 = 0 from by decide +kernel, show win3_4.xsize (grid3.coords lastPt3) 1 = 128 from by decide +kernel]; omega⟩

/-- THE REGION'S VALUE: at its exit the first output holds the column sums of `y = agg · dinv + b` over all 100000 rows
    (as the twenty running block sums), the second those of `y · y`. -/
theorem stats3_sum (c : Dev nD) (j : Fin 128) :
    ((dat3 V c).arrAt 3 cfg3.N : S1x128.Idx → EReal) (ix2 (0 : Fin 1) j) = Cert.Stages.colSumK (yOf3 V c) j := by
  rw [final3_3]; exact (outs3_eq V c j).1
theorem stats3_sumsq (c : Dev nD) (j : Fin 128) :
    ((dat3 V c).arrAt 4 cfg3.N : S1x128.Idx → EReal) (ix2 (0 : Fin 1) j) = Cert.Stages.colSumK (Cert.Stages.sq (yOf3 V c)) j := by
  rw [final3_4]; exact (outs3_eq V c j).2

end

end Cert.KernelIdeal.Hand

end
-- ==== Proof.KIVal.ResultL2.lean ====
import proofs.«156713_j13589276524898_2_alg».proof.Proof.KIVal.ResultL1
import proofs.«156713_j13589276524898_2_alg».proof.Proof.KIVal.Dense2Val
import proofs.«156713_j13589276524898_2_alg».proof.Proof.KI.StatsVal3

/-! # The second layer of the kernel program's run, read as values

The second dense region normalises and rectifies `y1` with its mean and variance, multiplies by the second weights
and scales each row by its node's factor; the stretch after it takes the edge sums; the statistics region the column
sums of `y2 = agg · dinv + b2` and of its square; the next stretch the mean and variance of `y2`. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Cert.Stages
open scoped BigOperators

variable (m : (ℓ : Loc nD τ sig) → Buf (Elt Ideal) ℓ) (c : Dev nD)

/-! ## The second dense region's input arrays, named entry by entry -/

/-- The first layer's edge sums as an array. -/
def agg1Arr : S100000x128.Idx → EReal := fun I => aggK (gOf m c) (preK (gOf m c) (xOf m c) (w1Of m c)) (I 0) (I 1)
/-- The first bias as a row. -/
def b1Row : S1x128.Idx → EReal := fun I => b1Of m c (I 1)
/-- The first gain as a row. -/
def g1Row : S1x128.Idx → EReal := fun I => g1Of m c (I 1)
/-- The first offset as a row. -/
def be1Row : S1x128.Idx → EReal := fun I => be1Of m c (I 1)
/-- The mean and the variance of `y1` as rows. -/
def mean1Row : S1x128.Idx → EReal := fun I => meanK (y1K (gOf m c) (xOf m c) (w1Of m c) (b1Of m c)) (I 1)
def var1Row : S1x128.Idx → EReal := fun I => varK (y1K (gOf m c) (xOf m c) (w1Of m c) (b1Of m c)) (I 1)

variable (hf : HostFacts m c)
include hf

/-- The second dense region's output: the normalised, rectified first layer times the second weights, each row scaled
    by its node's factor. -/
theorem reg2_out (i : Fin 100000) (j : Fin 128) :
    (W8 m c (Proc.devRef .tc main_v44) : S100000x128.Idx → EReal) (ix2 i j) = preK (gOf m c) (h1K (gOf m c) (xOf m c) (w1Of m c) (b1Of m c) (g1Of m c) (be1Of m c)) (w2Of m c) i j :=
  (congrFun (W8_arr m c 8) (ix2 i j)).trans
    (dense2_apply (V7 m) c (agg1Arr m c) (dinvCol m c) (b1Row m c) (mean1Row m c) (var1Row m c) (g1Row m c) (be1Row m c)
      (m ((c : Thread nD τ).loc main_arg6))
      (arr2_ext _ _ fun i k => (congrFun (keep_5_7 m c main_v36 (by decide) (by decide)) (ix2 i k)).trans (agg1_out m c hf i k))
      (col_ext _ _ fun i => (congrFun (keep_3_7 m c main_v17 (by decide) (by decide) (by decide) (by decide)) (ix2 i (0 : Fin 1))).trans (hf.dinv i))
      (row_ext _ _ fun k => (congrFun (keep_3_7 m c main_v18 (by decide) (by decide) (by decide) (by decide)) (ix2 (0 : Fin 1) k)).trans (hf.b1 k))
      (row_ext _ _ fun k => mean1_out m c hf k)
      (row_ext _ _ fun k => var1_out m c hf k)
      (row_ext _ _ fun k => (congrFun (keep_3_7 m c main_v19 (by decide) (by decide) (by decide) (by decide)) (ix2 (0 : Fin 1) k)).trans (hf.g1 k))
      (row_ext _ _ fun k => (congrFun (keep_3_7 m c main_v20 (by decide) (by decide) (by decide) (by decide)) (ix2 (0 : Fin 1) k)).trans (hf.be1 k))
      ((keep_3_7 m c main_arg6 (by decide) (by decide) (by decide) (by decide)).trans (arg_3 m c main_arg6 (by decide) (by decide) (by decide))) i j)

/-- The stretch after it: the edge sums of those rows. -/
theorem agg2_out (i : Fin 100000) (j : Fin 128) :
    (W9 m c (Proc.devRef .tc main_v55) : S100000x128.Idx → EReal) (ix2 i j) = aggK (gOf m c) (preK (gOf m c) (h1K (gOf m c) (xOf m c) (w1Of m c) (b1Of m c) (g1Of m c) (be1Of m c)) (w2Of m c)) i j :=
  hf.agg3 (W8 m c) (gOf m c) (preK (gOf m c) (h1K (gOf m c) (xOf m c) (w1Of m c) (b1Of m c) (g1Of m c) (be1Of m c)) (w2Of m c))
    (fun e => (congrFun (keep_3_8 m c main_v3 (by decide) (by decide) (by decide) (by decide) (by decide)) (ix1 e)).trans (hf.src e))
    (fun e => (congrFun (keep_3_8 m c main_v6 (by decide) (by decide) (by decide) (by decide) (by decide)) (ix1 e)).trans (hf.dst e))
    (fun i k => reg2_out m c hf i k) i j

/-- The second statistics region's `y` is the second layer's output `y2`. -/
theorem y2_eq : yOf3 (V9 m) c = y2K (gOf m c) (xOf m c) (w1Of m c) (b1Of m c) (g1Of m c) (be1Of m c) (w2Of m c) (b2Of m c) := by
  funext i k
  have e1 : aggA3 (V9 m) c (ix2 i k) = aggK (gOf m c) (preK (gOf m c) (h1K (gOf m c) (xOf m c) (w1Of m c) (b1Of m c) (g1Of m c) (be1Of m c)) (w2Of m c)) i k := agg2_out m c hf i k
  have e2 : dinvA3 (V9 m) c (ix2 i (0 : Fin 1)) = Cert.Stages.dinv (gOf m c) i :=
    (congrFun (keep_3_9 m c main_v17 (by decide) (by decide) (by decide) (by decide) (by decide) (by decide)) (ix2 i (0 : Fin 1))).trans (hf.dinv i)
  have e3 : biasA3 (V9 m) c (ix2 (0 : Fin 1) k) = b2Of m c k :=
    (congrFun (keep_3_9 m c main_v21 (by decide) (by decide) (by decide) (by decide) (by decide) (by decide)) (ix2 (0 : Fin 1) k)).trans (hf.b2 k)
  show aggA3 (V9 m) c (ix2 i k) * dinvA3 (V9 m) c (ix2 i (0 : Fin 1)) + biasA3 (V9 m) c (ix2 (0 : Fin 1) k) = _
  rw [e1, e2, e3]
  rfl

/-- The second statistics region's two outputs: the column sums of `y2` and of its square. -/
theorem sum2_out (j : Fin 128) :
    (W10 m c (Proc.devRef .tc main_v56_0) : S1x128.Idx → EReal) (ix2 (0 : Fin 1) j) = colSumK (y2K (gOf m c) (xOf m c) (w1Of m c) (b1Of m c) (g1Of m c) (be1Of m c) (w2Of m c) (b2Of m c)) j :=
  (congrFun (W10_arr m c 3) (ix2 (0 : Fin 1) j)).trans ((stats3_sum (V9 m) c j).trans (by rw [y2_eq m c hf]))
theorem sumsq2_out (j : Fin 128) :
    (W10 m c (Proc.devRef .tc main_v56_1) : S1x128.Idx → EReal) (ix2 (0 : Fin 1) j) = colSumK (sq (y2K (gOf m c) (xOf m c) (w1Of m c) (b1Of m c) (g1Of m c) (be1Of m c) (w2Of m c) (b2Of m c))) j :=
  (congrFun (W10_arr m c 4) (ix2 (0 : Fin 1) j)).trans ((stats3_sumsq (V9 m) c j).trans (by rw [y2_eq m c hf]))

/-- The stretch after it: the mean and the variance of `y2`, column by column. -/
theorem mean2_out (j : Fin 128) :
    (W11 m c (Proc.devRef .tc main_v58) : S1x128.Idx → EReal) (ix2 (0 : Fin 1) j) = meanK (y2K (gOf m c) (xOf m c) (w1Of m c) (b1Of m c) (g1Of m c) (be1Of m c) (w2Of m c) (b2Of m c)) j :=
  (hf.stat4 (W10 m c) (y2K (gOf m c) (xOf m c) (w1Of m c) (b1Of m c) (g1Of m c) (be1Of m c) (w2Of m c) (b2Of m c)) (sum2_out m c hf) (sumsq2_out m c hf) j).1
theorem var2_out (j : Fin 128) :
    (W11 m c (Proc.devRef .tc main_v62) : S1x128.Idx → EReal) (ix2 (0 : Fin 1) j) = varK (y2K (gOf m c) (xOf m c) (w1Of m c) (b1Of m c) (g1Of m c) (be1Of m c) (w2Of m c) (b2Of m c)) j :=
  (hf.stat4 (W10 m c) (y2K (gOf m c) (xOf m c) (w1Of m c) (b1Of m c) (g1Of m c) (be1Of m c) (w2Of m c) (b2Of m c)) (sum2_out m c hf) (sumsq2_out m c hf) j).2

end Cert.KernelIdeal.HandVal

end
-- ==== Proof.KIVal.Pay4.lean ====
import proofs.«156713_j13589276524898_2_alg».proof.Proof.KIVal.Pay2
import proofs.«156713_j13589276524898_2_alg».proof.Proof.LibAxisFolds

/-! # The classifier's body at an index, over the exact reals

The body normalises and rectifies each entry of its row block (`act1`), multiplies by the classifier weights and adds
the bias row, giving the logits `z`; then, row by row, it subtracts the row's maximum `M` and the logarithm of the
row's sum of `exp (z - M)`. -/

set_option maxRecDepth 16384

noncomputable section

namespace Cert.KernelIdeal.HandVal

open Cert.KernelIdeal Cert.KernelIdeal.Gen Cert.LibDenseRows Cert.LibAxisFolds
open Idealize.ShloMosaic Idealize.ShloMosaic.TcCoe Idealize.ShloMosaic.ValueIdx Idealize.SL.Sem
open Idealize.ShloMosaic.Pipeline (Dat)
open scoped BigOperators

/-- The logits of row `p` at column `t`: the rectified row times column `t` of the weights, plus the bias. -/
theorem logits4_apply (x0 : Vec Ideal S5000x128 .f32) (x1 : Vec Ideal S5000x1 .f32) (bias mean var gain offs : Vec Ideal S1x128 .f32)
    (wc : Vec Ideal S128x64 .f32) (bc : Vec Ideal S1x64 .f32) (p : Fin 5000) (t : Fin 64) :
    k4_pay2 x0 x1 bias var mean gain offs wc (ix2 p t) + k4_pay3 bc (ix2 p t)
      = (∑ k : Fin 128, act1 (x0 (ix2 p k)) (x1 (ix2 p (0 : Fin 1))) (bias (ix2 (0 : Fin 1) k)) (mean (ix2 (0 : Fin 1) k))
            (var (ix2 (0 : Fin 1) k)) (gain (ix2 (0 : Fin 1) k)) (offs (ix2 (0 : Fin 1) k)) * wc (ix2 k t))
          + bc (ix2 (0 : Fin 1) t) := by
  unfold k4_pay2 k4_pay3 act1
  show (FloatOps.matmul dot_S5000x128_S128x64_S5000x64_1_0_0_1_n_n none (truncf .bf16 _ bitsLt_bf16_f32) (truncf .bf16 wc bitsLt_bf16_f32) (constant (F := Ideal) S5000x64 .f32 0x00000000#32) (ix2 p t))
      + (broadcastTo S5000x64 (shapeCast S1x64 bc shapeCasts_S1x64_S1x64) broadcasts_S1x64_S5000x64 (ix2 p t)) = _
  rw [PlainDot.matmul_zero_plain dot_S5000x128_S128x64_S5000x64_1_0_0_1_n_n rfl rfl rfl rfl rfl rfl none _ _ (ix2 p t)]
  simp only [shapeCast_self, broadcastTo_a1_ab_apply, broadcastTo_1b_ab_apply, truncf_apply, maximumf_apply, addf_apply, mulf_apply, subf_apply, broadcast_apply]
  rfl

theorem vlog_apply {s : Shape} {φ : FTy} (x : FVec Ideal s φ) (i : s.Idx) : log x i = Ideal.log (x i) := rfl
theorem vexp_apply {s : Shape} {φ : FTy} (x : FVec Ideal s φ) (i : s.Idx) : exp x i = Ideal.exp (x i) := rfl

/-- The row-wise log-softmax the body ends with, over any two summands `u`, `v` of the logits: with
    `z t = u (p, t) + v (p, t)` and `M` the maximum of `z` over the row (a fold of `max` from minus infinity),
    entry `(p, q)` is `(z q - M) - log (Σ t, exp (z t - M))`. -/
theorem lsm4_apply (u v : FVec Ideal S5000x64 .f32) (p : Fin 5000) (q : Fin 64) :
    k4_pay1 u v (ix2 p q)
      = ((u (ix2 p q) + v (ix2 p q))
            - (Finset.univ : Finset (Fin 64)).fold max (Ideal.ofBits .f32 0xFF800000#32) (fun t => u (ix2 p t) + v (ix2 p t)))
          - Ideal.log (∑ t : Fin 64, Ideal.exp ((u (ix2 p t) + v (ix2 p t))
              - (Finset.univ : Finset (Fin 64)).fold max (Ideal.ofBits .f32 0xFF800000#32) (fun t => u (ix2 p t) + v (ix2 p t)))) := by
  unfold k4_pay1
  have hM : multiReduction .maximumf [1] S5000 (addf u v) 0xFF800000#32 reduces_S5000x64_S5000 (.inl rfl) rfl (ix1 p)
      = (Finset.univ : Finset (Fin 64)).fold max (Ideal.ofBits .f32 0xFF800000#32) (fun t => addf u v (ix2 p t)) :=
    rowMax_apply (addf u v) 0xFF800000#32 reduces_S5000x64_S5000 (.inl rfl) rfl p
  have hS : ∀ w : FVec Ideal S5000x64 .f32, multiReduction .add [1] S5000 w 0x00000000#32 reduces_S5000x64_S5000 (.inl rfl) rfl (ix1 p)
      = ∑ t : Fin 64, w (ix2 p t) :=
    fun w => rowSum_apply w 0x00000000#32 reduces_S5000x64_S5000 (.inl rfl) rfl p
  simp only [subf_apply, addf_apply, vlog_apply, vexp_apply, broadcastTo_a1_ab_apply, shapeCast_a_a1_apply]
  rw [hS, hM]
  simp only [subf_apply, addf_apply, vexp_apply, broadcastTo_a1_ab_apply, shapeCast_a_a1_apply, hM]

end Cert.KernelIdeal.HandVal

end
-- ==== Proof.KIVal.Dense4Val.lean ====
import proofs.«156713_j13589276524898_2_alg».proof.Proof.KI.Dense4
import proofs.«156713_j13589276524898_2_alg».proof.Proof.KIVal.Pay4
import Idealize.ShloMosaic.Lib.Pipeline.Value
import Idealize.ShloMosaic.Lib.ValueIdx

/-! # The classifier's output array, whatever its input arrays hold

Each grid point writes one block of 5000 rows; block `t` of the output is computed from block `t` of the aggregated
rows and of the scale column, and from seven arrays read whole (the bias, mean, variance, gain and offset rows, the
classifier weights and their bias), so the blocks are the restrictions of one function of the nine arrays
(`dense4`: the row-wise log-softmax of the logits), and the twenty blocks cover the output array. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz4 : (![0, 0] : Fin 2 → Nat) = fun _ => 0 := funext fun a => by fin_cases a <;> rfl

/-- The logits of node `i`: its normalised, rectified row times the classifier weights, plus the bias. -/
def logit4 (aA : S100000x128.Idx → EReal) (dA : S100000x1.Idx → EReal) (bA muA vA gA oA : S1x128.Idx → EReal)
    (wcA : S128x64.Idx → EReal) (bcA : S1x64.Idx → EReal) (i : Fin 100000) (t : Fin 64) : EReal :=
  (∑ k : Fin 128, act1 (aA (ix2 i k)) (dA (ix2 i (0 : Fin 1))) (bA (ix2 (0 : Fin 1) k)) (muA (ix2 (0 : Fin 1) k))
      (vA (ix2 (0 : Fin 1) k)) (gA (ix2 (0 : Fin 1) k)) (oA (ix2 (0 : Fin 1) k)) * wcA (ix2 k t)) + bcA (ix2 (0 : Fin 1) t)

/-- The log-softmax of one row `z`, the kernels' way: with `M` the fold of `max` from minus infinity over the row,
    `(z q - M) - log (Σ t, exp (z t - M))`. -/
def lsmRow (z : Fin 64 → EReal) (q : Fin 64) : EReal :=
  (z q - (Finset.univ : Finset (Fin 64)).fold max (Ideal.ofBits .f32 0xFF800000#32) z)
    - Ideal.log (∑ t : Fin 64, Ideal.exp (z t - (Finset.univ : Finset (Fin 64)).fold max (Ideal.ofBits .f32 0xFF800000#32) z))

/-- The classifier's output as one function of its nine input arrays. -/
def dense4 (aA : S100000x128.Idx → EReal) (dA : S100000x1.Idx → EReal) (bA muA vA gA oA : S1x128.Idx → EReal)
    (wcA : S128x64.Idx → EReal) (bcA : S1x64.Idx → EReal) : S100000x64.Idx → EReal :=
  fun I => lsmRow (logit4 aA dA bA muA vA gA oA wcA bcA (I 0)) (I 1)

/-- The body's payload on blocks whose entries are the arrays' entries of row `r`: the output's entry `(r, q)`. -/
theorem dense4_block (aA : S100000x128.Idx → EReal) (dA : S100000x1.Idx → EReal) (bA muA vA gA oA : S1x128.Idx → EReal)
    (wcA : S128x64.Idx → EReal) (bcA : S1x64.Idx → EReal)
    (b0 : Vec Ideal S5000x128 .f32) (b1 : Vec Ideal S5000x1 .f32) (b2 b3 b4 b5 b6 : Vec Ideal S1x128 .f32) (b7 : Vec Ideal S128x64 .f32)
    (b8 : Vec Ideal S1x64 .f32) (r : Fin 100000) (p : Fin 5000) (q : Fin 64)
    (h0 : ∀ k : Fin 128, b0 (ix2 p k) = aA (ix2 r k)) (h1 : b1 (ix2 p (0 : Fin 1)) = dA (ix2 r (0 : Fin 1)))
    (h2 : ∀ k : Fin 128, b2 (ix2 (0 : Fin 1) k) = bA (ix2 (0 : Fin 1) k)) (h3 : ∀ k : Fin 128, b3 (ix2 (0 : Fin 1) k) = muA (ix2 (0 : Fin 1) k))
    (h4 : ∀ k : Fin 128, b4 (ix2 (0 : Fin 1) k) = vA (ix2 (0 : Fin 1) k)) (h5 : ∀ k : Fin 128, b5 (ix2 (0 : Fin 1) k) = gA (ix2 (0 : Fin 1) k))
    (h6 : ∀ k : Fin 128, b6 (ix2 (0 : Fin 1) k) = oA (ix2 (0 : Fin 1) k)) (h7 : ∀ (k : Fin 128) (t : Fin 64), b7 (ix2 k t) = wcA (ix2 k t))
    (h8 : ∀ t : Fin 64, b8 (ix2 (0 : Fin 1) t) = bcA (ix2 (0 : Fin 1) t)) :
    k4_pay1 (k4_pay2 b0 b1 b2 b4 b3 b5 b6 b7) (k4_pay3 b8) (ix2 p q) = dense4 aA dA bA muA vA gA oA wcA bcA (ix2 r q) := by
  rw [lsm4_apply]
  simp only [logits4_apply]
  rw [h1]
  simp only [h0, h2, h3, h4, h5, h6, h7, h8]
  rfl

/-- Where the blocks sit: at point `t` the row block, the scale column and the output block are the `t`-th of their
    arrays; every other window is the whole of its array. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_9.index t (0 : Fin 2) = t.val ∧ win4_9.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ t.val < 20 :=
  (by decide +kernel : ∀ t : Fin grid4.N, _)

/-- Every block of rows is some point's. -/
theorem idx_onto4 : ∀ q0 : Fin 20, ∃ t : Fin cfg4.N, t.val = q0.val :=
  (by decide +kernel : ∀ q0 : Fin 20, ∃ t : Fin grid4.N, t.val = q0.val)

set_option maxHeartbeats 4000000 in
/-- What point `t` writes back is block `t` of `dense4` of the arrays as the pipeline finds them: row `r` of the
    block is row `5000 t + r` of the arrays. -/
theorem flushed4_eq (c : Dev nD) (t : Fin cfg4.N) :
    (dat4 V c).flushed 9 t = ((cfg4.win 9).blk t).view.read (Elt Ideal)
      (dense4 (V c main_v55) (V c main_v17) (V c main_v21) (V c main_v58) (V c main_v62) (V c main_v22) (V c main_v23) (V c main_arg10) (V c main_v24)) := by
  show (cfg4.win 9).cut (grid4.coords t) ((dat4 V c).after 9 t) = _
  rw [dat4_after_9]
  unfold res4
  rw [View.canon_unit_zero hz4]
  simp only [View.ld_unit_zero (S := S5000x128) hz4, View.ld_unit_zero (S := S128x64) hz4, View.ld_unit_zero (S := S5000x1) hz4,
    View.ld_unit_zero (S := S1x128) hz4, View.ld_unit_zero (S := S1x64) hz4]
  funext j
  obtain ⟨e00, e01, e10, e11, e90, e91, e20, e21, e30, e31, e40, e41, e50, e51, e60, e61, e70, e71, e80, e81, ht⟩ := idx4 t
  obtain ⟨p, q, rfl⟩ : ∃ (p : Fin 5000) (q : Fin 64), j = ix2 p q := ⟨j 0, j 1, eq_ix2 j⟩
  have hp : p.val < 5000 := p.isLt
  have hE : ((cfg4.win 9).blk t).view.emb (ix2 p q) = ix2 (⟨t.val * 5000 + p.val, by omega⟩ : Fin 100000) q := by
    funext a; apply Fin.ext
    match a with
    | ⟨0, _⟩ => show win4_9.index t (0 : Fin 2) * 5000 + 1 * p.val = t.val * 5000 + p.val; omega
    | ⟨1, _⟩ => show win4_9.index t (1 : Fin 2) * 64 + 1 * q.val = q.val; omega
  have h0 : ∀ k : Fin 128, ((cfg4.win 0).blk t).view.emb (ix2 p k) = ix2 (⟨t.val * 5000 + p.val, by omega⟩ : Fin 100000) k := by
    intro k; funext a; apply Fin.ext
    match a with
    | ⟨0, _⟩ => show win4_0.index t (0 : Fin 2) * 5000 + 1 * p.val = t.val * 5000 + p.val; omega
    | ⟨1, _⟩ => show win4_0.index t (1 : Fin 2) * 128 + 1 * k.val = k.val; omega
  have h1 : ((cfg4.win 1).blk t).view.emb (ix2 p (0 : Fin 1)) = ix2 (⟨t.val * 5000 + p.val, by omega⟩ : Fin 100000) (0 : Fin 1) := by
    funext a; apply Fin.ext
    match a with
    | ⟨0, _⟩ => show win4_1.index t (0 : Fin 2) * 5000 + 1 * p.val = t.val * 5000 + p.val; omega
    | ⟨1, _⟩ => show win4_1.index t (1 : Fin 2) * 1 + 1 * 0 = 0; omega
  have h2 : ∀ k : Fin 128, ((cfg4.win 2).blk t).view.emb (ix2 (0 : Fin 1) k) = ix2 (0 : Fin 1) k := by
    intro k; funext a; apply Fin.ext
    match a with
    | ⟨0, _⟩ => show win4_2.index t (0 : Fin 2) * 1 + 1 * 0 = 0; omega
    | ⟨1, _⟩ => show win4_2.index t (1 : Fin 2) * 128 + 1 * k.val = k.val; omega
  have h3 : ∀ k : Fin 128, ((cfg4.win 3).blk t).view.emb (ix2 (0 : Fin 1) k) = ix2 (0 : Fin 1) k := by
    intro k; funext a; apply Fin.ext
    match a with
    | ⟨0, _⟩ => show win4_3.index t (0 : Fin 2) * 1 + 1 * 0 = 0; omega
    | ⟨1, _⟩ => show win4_3.index t (1 : Fin 2) * 128 + 1 * k.val = k.val; omega
  have h4 : ∀ k : Fin 128, ((cfg4.win 4).blk t).view.emb (ix2 (0 : Fin 1) k) = ix2 (0 : Fin 1) k := by
    intro k; funext a; apply Fin.ext
    match a with
    | ⟨0, _⟩ => show win4_4.index t (0 : Fin 2) * 1 + 1 * 0 = 0; omega
    | ⟨1, _⟩ => show win4_4.index t (1 : Fin 2) * 128 + 1 * k.val = k.val; omega
  have h5 : ∀ k : Fin 128, ((cfg4.win 5).blk t).view.emb (ix2 (0 : Fin 1) k) = ix2 (0 : Fin 1) k := by
    intro k; funext a; apply Fin.ext
    match a with
    | ⟨0, _⟩ => show win4_5.index t (0 : Fin 2) * 1 + 1 * 0 = 0; omega
    | ⟨1, _⟩ => show win4_5.index t (1 : Fin 2) * 128 + 1 * k.val = k.val; omega
  have h6 : ∀ k : Fin 128, ((cfg4.win 6).blk t).view.emb (ix2 (0 : Fin 1) k) = ix2 (0 : Fin 1) k := by
    intro k; funext a; apply Fin.ext
    match a with
    | ⟨0, _⟩ => show win4_6.index t (0 : Fin 2) * 1 + 1 * 0 = 0; omega
    | ⟨1, _⟩ => show win4_6.index t (1 : Fin 2) * 128 + 1 * k.val = k.val; omega
  have h7 : ∀ (k : Fin 128) (s : Fin 64), ((cfg4.win 7).blk t).view.emb (ix2 k s) = ix2 k s := by
    intro k s; funext a; apply Fin.ext
    match a with
    | ⟨0, _⟩ => show win4_7.index t (0 : Fin 2) * 128 + 1 * k.val = k.val; omega
    | ⟨1, _⟩ => show win4_7.index t (1 : Fin 2) * 64 + 1 * s.val = s.val; omega
  have h8 : ∀ s : Fin 64, ((cfg4.win 8).blk t).view.emb (ix2 (0 : Fin 1) s) = ix2 (0 : Fin 1) s := by
    intro s; funext a; apply Fin.ext
    match a with
    | ⟨0, _⟩ => show win4_8.index t (0 : Fin 2) * 1 + 1 * 0 = 0; omega
    | ⟨1, _⟩ => show win4_8.index t (1 : Fin 2) * 64 + 1 * s.val = s.val; omega
  show k4_pay1 (k4_pay2 (blk4 V c 0 t) (blk4 V c 1 t) (blk4 V c 2 t) (blk4 V c 4 t) (blk4 V c 3 t) (blk4 V c 5 t) (blk4 V c 6 t) (blk4 V c 7 t))
        (k4_pay3 (blk4 V c 8 t)) (ix2 p q)
      = dense4 (V c main_v55) (V c main_v17) (V c main_v21) (V c main_v58) (V c main_v62) (V c main_v22) (V c main_v23) (V c main_arg10) (V c main_v24)
          (((cfg4.win 9).blk t).view.emb (ix2 p q))
  rw [hE]
  exact dense4_block (V c main_v55) (V c main_v17) (V c main_v21) (V c main_v58) (V c main_v62) (V c main_v22) (V c main_v23) (V c main_arg10) (V c main_v24)
    (blk4 V c 0 t) (blk4 V c 1 t) (blk4 V c 2 t) (blk4 V c 3 t) (blk4 V c 4 t) (blk4 V c 5 t) (blk4 V c 6 t) (blk4 V c 7 t) (blk4 V c 8 t)
    ⟨t.val * 5000 + p.val, by omega⟩ p q (fun k => congrArg (V c main_v55) (h0 k)) (congrArg (V c main_v17) h1)
    (fun k => congrArg (V c main_v21) (h2 k)) (fun k => congrArg (V c main_v58) (h3 k)) (fun k => congrArg (V c main_v62) (h4 k))
    (fun k => congrArg (V c main_v22) (h5 k)) (fun k => congrArg (V c main_v23) (h6 k)) (fun k s => congrArg (V c main_arg10) (h7 k s))
    (fun s => congrArg (V c main_v24) (h8 s))

/-- An index of the output array is in point `t`'s block iff each coordinate is in the block's range on its axis. -/
theorem mem_blk4 (t : Fin cfg4.N) (i : S100000x64.Idx) :
    i ∈ ((cfg4.win 9).blk t).view.set ↔ ∀ a : Fin 2, win4_9.index t a * S5000x64.size a ≤ (i a).val ∧ (i a).val < win4_9.index t a * S5000x64.size a + S5000x64.size a := by
  show i ∈ ((View.whole main_v63).slice (win4_9.rect t)).set ↔ _
  rw [View.set_slice_whole, Rect.mem_set_unit]
  exact Iff.rfl

/-- Every index of the output array is in some point's block: row `r` is in block `r / 5000`. -/
theorem covered4 (i : S100000x64.Idx) : ∃ t : Fin cfg4.N, (cfg4.win 9).flush t = true ∧ i ∈ ((cfg4.win 9).blk t).view.set := by
  have hi0 : (i 0).val < 100000 := (i 0).isLt
  have hi1 : (i 1).val < 64 := (i 1).isLt
  obtain ⟨t, ht⟩ := idx_onto4 ⟨(i 0).val / 5000, by omega⟩
  have ht' : t.val = (i 0).val / 5000 := ht
  obtain ⟨-, -, -, -, e90, e91, -⟩ := idx4 t
  refine ⟨t, flush4_9 t, ?_⟩
  rw [mem_blk4]
  intro a
  match a with
  | ⟨0, _⟩ => show win4_9.index t (0 : Fin 2) * 5000 ≤ (i 0).val ∧ (i 0).val < win4_9.index t (0 : Fin 2) * 5000 + 5000; omega
  | ⟨1, _⟩ => show win4_9.index t (1 : Fin 2) * 64 ≤ (i 1).val ∧ (i 1).val < win4_9.index t (1 : Fin 2) * 64 + 64; omega

/-- The output array after the pipeline, whatever the arrays held when it started. -/
theorem dense4_arr (c : Dev nD) :
    (dat4 V c).arrAt 9 cfg4.N = dense4 (V c main_v55) (V c main_v17) (V c main_v21) (V c main_v58) (V c main_v62) (V c main_v22) (V c main_v23) (V c main_arg10) (V c main_v24) :=
  (dat4 V c).arrAt_eq_of_cover 9 _ (fun t _ => flushed4_eq V c t) covered4

/-- The same, read at an index; the input arrays are named through equations, so that a caller may hand the
    contents it knows them to have. -/
theorem dense4_apply (c : Dev nD) (aA : S100000x128.Idx → EReal) (dA : S100000x1.Idx → EReal) (bA muA vA gA oA : S1x128.Idx → EReal)
    (wcA : S128x64.Idx → EReal) (bcA : S1x64.Idx → EReal)
    (ha : V c main_v55 = aA) (hd : V c main_v17 = dA) (hb : V c main_v21 = bA) (hmu : V c main_v58 = muA) (hv : V c main_v62 = vA)
    (hg : V c main_v22 = gA) (ho : V c main_v23 = oA) (hw : V c main_arg10 = wcA) (hbc : V c main_v24 = bcA) (i : Fin 100000) (j : Fin 64) :
    (dat4 V c).arrAt 9 cfg4.N (ix2 i j) = lsmRow (logit4 aA dA bA muA vA gA oA wcA bcA i) j := by
  subst ha hd hb hmu hv hg ho hw hbc
  rw [dense4_arr]; rfl

end Cert.KernelIdeal.HandVal

end
-- ==== Proof.KIVal.ResultL3.lean ====
import proofs.«156713_j13589276524898_2_alg».proof.Proof.KIVal.ResultL2
import proofs.«156713_j13589276524898_2_alg».proof.Proof.KIVal.Dense4Val

/-! # The kernel program's result, from the host stretches' values

The classifier region normalises and rectifies `y2` with its mean and variance, multiplies by the classifier weights,
adds their bias and takes the row-wise log-softmax: the network's output, in the kernels' grouping. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Cert.Stages
open scoped BigOperators

variable (m : (ℓ : Loc nD τ sig) → Buf (Elt Ideal) ℓ) (c : Dev nD)

/-! ## The classifier region's input arrays, named entry by entry -/

/-- The second layer's edge sums as an array. -/
def agg2Arr : S100000x128.Idx → EReal := fun I => aggK (gOf m c) (preK (gOf m c) (h1K (gOf m c) (xOf m c) (w1Of m c) (b1Of m c) (g1Of m c) (be1Of m c)) (w2Of m c)) (I 0) (I 1)
/-- The second bias as a row. -/
def b2Row : S1x128.Idx → EReal := fun I => b2Of m c (I 1)
/-- The second gain as a row. -/
def g2Row : S1x128.Idx → EReal := fun I => g2Of m c (I 1)
/-- The second offset as a row. -/
def be2Row : S1x128.Idx → EReal := fun I => be2Of m c (I 1)
/-- The classifier's bias as a row. -/
def bcRow : S1x64.Idx → EReal := fun I => bcOf m c (I 1)
/-- The mean and the variance of `y2` as rows. -/
def mean2Row : S1x128.Idx → EReal := fun I => meanK (y2K (gOf m c) (xOf m c) (w1Of m c) (b1Of m c) (g1Of m c) (be1Of m c) (w2Of m c) (b2Of m c)) (I 1)
def var2Row : S1x128.Idx → EReal := fun I => varK (y2K (gOf m c) (xOf m c) (w1Of m c) (b1Of m c) (g1Of m c) (be1Of m c) (w2Of m c) (b2Of m c)) (I 1)

variable (hf : HostFacts m c)
include hf

/-- The classifier region's output: the network's output in the kernels' grouping. -/
theorem result_of (i : Fin 100000) (j : Fin 64) :
    (W12 m c (Proc.devRef .tc main_v63) : S100000x64.Idx → EReal) (ix2 i j)
      = finalK (gOf m c) (xOf m c) (w1Of m c) (b1Of m c) (g1Of m c) (be1Of m c) (w2Of m c) (b2Of m c) (g2Of m c) (be2Of m c) (wcOf m c) (bcOf m c) i j :=
  (congrFun (W12_arr m c 9) (ix2 i j)).trans
    (dense4_apply (V11 m) c (agg2Arr m c) (dinvCol m c) (b2Row m c) (mean2Row m c) (var2Row m c) (g2Row m c) (be2Row m c)
      (m ((c : Thread nD τ).loc main_arg10)) (bcRow m c)
      (arr2_ext _ _ fun i k => (congrFun (keep_9_11 m c main_v55 (by decide) (by decide)) (ix2 i k)).trans (agg2_out m c hf i k))
      (col_ext _ _ fun i => (congrFun (keep_3_11 m c main_v17 (by decide) (by decide) (by decide) (by decide) (by decide) (by decide) (by decide) (by decide)) (ix2 i (0 : Fin 1))).trans (hf.dinv i))
      (row_ext _ _ fun k => (congrFun (keep_3_11 m c main_v21 (by decide) (by decide) (by decide) (by decide) (by decide) (by decide) (by decide) (by decide)) (ix2 (0 : Fin 1) k)).trans (hf.b2 k))
      (row_ext _ _ fun k => mean2_out m c hf k)
      (row_ext _ _ fun k => var2_out m c hf k)
      (row_ext _ _ fun k => (congrFun (keep_3_11 m c main_v22 (by decide) (by decide) (by decide) (by decide) (by decide) (by decide) (by decide) (by decide)) (ix2 (0 : Fin 1) k)).trans (hf.g2 k))
      (row_ext _ _ fun k => (congrFun (keep_3_11 m c main_v23 (by decide) (by decide) (by decide) (by decide) (by decide) (by decide) (by decide) (by decide)) (ix2 (0 : Fin 1) k)).trans (hf.be2 k))
      ((keep_3_11 m c main_arg10 (by decide) (by decide) (by decide) (by decide) (by decide) (by decide) (by decide) (by decide)).trans (arg_3 m c main_arg10 (by decide) (by decide) (by decide)))
      (row_ext _ _ fun k => (congrFun (keep_3_11 m c main_v24 (by decide) (by decide) (by decide) (by decide) (by decide) (by decide) (by decide) (by decide)) (ix2 (0 : Fin 1) k)).trans (hf.bc k)) i j)

end Cert.KernelIdeal.HandVal

end
-- ==== Proof.KIVal.Host2.lean ====
/-
  The two short host stretches after the statistics regions, read at an index for any contents of the buffers they
  start from: the column mean is the running sum's row divided by the count, and the variance is the running sum of
  squares' row divided by the count, less the square of the mean.
-/
import proofs.«156713_j13589276524898_2_alg».proof.Proof.Gen.KernelIdeal.Launch
import proofs.«156713_j13589276524898_2_alg».proof.Proof.Stages
import Idealize.ShloMosaic.Lib.StableHlo.Run
import Idealize.ShloMosaic.Lib.ValueIdx
import Idealize.ShloMosaic.Lib.Pipeline.Value

set_option maxRecDepth 16384

noncomputable section

open scoped BigOperators

namespace Cert.KernelIdeal.HandVal

open Cert.KernelIdeal Cert.KernelIdeal.Gen
open Idealize.ShloMosaic Idealize.ShloMosaic.TcCoe Idealize.ShloMosaic.ValueIdx Idealize.SL.Sem Idealize.ShloMosaic.StableHlo

/-- A scalar broadcast to any shape reads the scalar everywhere. -/
theorem bcastK {α : Type} {t : Shape} (h : S_.BroadcastsInDim t (![] : Fin 0 → Fin t.rank)) (c : S_.Idx → α) (j : t.Idx) :
    broadcastInDim t ![] h c j = c ix0 :=
  broadcastInDim_apply _ h c j ix0 (fun a => a.elim0)

variable (Wb : Valuation τ sig (Elt Ideal))

/-- The first stretch's mean row as the operations' term. -/
theorem mean2_term :
    (after (hostOps2 (F := Ideal)) Wb (Proc.devRef .tc main_v39) : S1x128.Idx → EReal)
      = Host.divf (F := Ideal) (Wb (Proc.devRef .tc main_v37_0) : S1x128.Idx → EReal)
          (broadcastInDim S1x128 ![] bcast_S_S1x128 (constant (F := Ideal) S_ .f32 0x47C35000#32)) := by
  dsimp only [hostOps2]; after_results

/-- The first stretch's variance row as the operations' term. -/
theorem var2_term :
    (after (hostOps2 (F := Ideal)) Wb (Proc.devRef .tc main_v43) : S1x128.Idx → EReal)
      = subf (F := Ideal)
          (Host.divf (F := Ideal) (Wb (Proc.devRef .tc main_v37_1) : S1x128.Idx → EReal)
            (broadcastInDim S1x128 ![] bcast_S_S1x128 (constant (F := Ideal) S_ .f32 0x47C35000#32)))
          (mulf (F := Ideal)
            (Host.divf (F := Ideal) (Wb (Proc.devRef .tc main_v37_0) : S1x128.Idx → EReal)
              (broadcastInDim S1x128 ![] bcast_S_S1x128 (constant (F := Ideal) S_ .f32 0x47C35000#32)))
            (Host.divf (F := Ideal) (Wb (Proc.devRef .tc main_v37_0) : S1x128.Idx → EReal)
              (broadcastInDim S1x128 ![] bcast_S_S1x128 (constant (F := Ideal) S_ .f32 0x47C35000#32)))) := by
  dsimp only [hostOps2]; after_results

/-- A row divided by the broadcast count, read at a column. -/
theorem div_count_apply (x : S1x128.Idx → EReal) (j : Fin 128) :
    Host.divf (F := Ideal) (φ := .f32) x (broadcastInDim S1x128 ![] bcast_S_S1x128 (constant (F := Ideal) S_ .f32 0x47C35000#32))
        (ix2 (0 : Fin 1) j) = Ideal.div (x (ix2 (0 : Fin 1) j)) Cert.Stages.count := by
  show Ideal.div (x (ix2 (0 : Fin 1) j)) (broadcastInDim (s := S_) S1x128 ![] bcast_S_S1x128 _ (ix2 (0 : Fin 1) j)) = _
  rw [bcastK]; rfl

/-- After the first statistics stretch the mean row holds the kernels' column means. -/
theorem host2_mean (Y : Cert.Stages.Mat 100000 128)
    (hsum : ∀ j, (Wb (Proc.devRef .tc main_v37_0) : S1x128.Idx → EReal) (ix2 (0 : Fin 1) j) = Cert.Stages.colSumK Y j)
    (j : Fin 128) :
    (after (hostOps2 (F := Ideal)) Wb (Proc.devRef .tc main_v39) : S1x128.Idx → EReal) (ix2 (0 : Fin 1) j)
      = Cert.Stages.meanK Y j := by
  rw [mean2_term, div_count_apply, hsum]; rfl

/-- After the first statistics stretch the variance row holds the kernels' column variances. -/
theorem host2_var (Y : Cert.Stages.Mat 100000 128)
    (hsum : ∀ j, (Wb (Proc.devRef .tc main_v37_0) : S1x128.Idx → EReal) (ix2 (0 : Fin 1) j) = Cert.Stages.colSumK Y j)
    (hsq : ∀ j, (Wb (Proc.devRef .tc main_v37_1) : S1x128.Idx → EReal) (ix2 (0 : Fin 1) j)
      = Cert.Stages.colSumK (Cert.Stages.sq Y) j) (j : Fin 128) :
    (after (hostOps2 (F := Ideal)) Wb (Proc.devRef .tc main_v43) : S1x128.Idx → EReal) (ix2 (0 : Fin 1) j)
      = Cert.Stages.varK Y j := by
  rw [var2_term]
  refine (subf_apply _ _ _).trans ?_
  refine congrArg₂ (· - ·) ?_ ?_
  · rw [div_count_apply, hsq]
  · refine (mulf_apply _ _ _).trans ?_
    rw [div_count_apply, hsum]; rfl

/-! ## The twin stretch after the second statistics region -/

theorem mean4_term :
    (after (hostOps4 (F := Ideal)) Wb (Proc.devRef .tc main_v58) : S1x128.Idx → EReal)
      = Host.divf (F := Ideal) (Wb (Proc.devRef .tc main_v56_0) : S1x128.Idx → EReal)
          (broadcastInDim S1x128 ![] bcast_S_S1x128 (constant (F := Ideal) S_ .f32 0x47C35000#32)) := by
  dsimp only [hostOps4]; after_results

theorem var4_term :
    (after (hostOps4 (F := Ideal)) Wb (Proc.devRef .tc main_v62) : S1x128.Idx → EReal)
      = subf (F := Ideal)
          (Host.divf (F := Ideal) (Wb (Proc.devRef .tc main_v56_1) : S1x128.Idx → EReal)
            (broadcastInDim S1x128 ![] bcast_S_S1x128 (constant (F := Ideal) S_ .f32 0x47C35000#32)))
          (mulf (F := Ideal)
            (Host.divf (F := Ideal) (Wb (Proc.devRef .tc main_v56_0) : S1x128.Idx → EReal)
              (broadcastInDim S1x128 ![] bcast_S_S1x128 (constant (F := Ideal) S_ .f32 0x47C35000#32)))
            (Host.divf (F := Ideal) (Wb (Proc.devRef .tc main_v56_0) : S1x128.Idx → EReal)
              (broadcastInDim S1x128 ![] bcast_S_S1x128 (constant (F := Ideal) S_ .f32 0x47C35000#32)))) := by
  dsimp only [hostOps4]; after_results

theorem host4_mean (Y : Cert.Stages.Mat 100000 128)
    (hsum : ∀ j, (Wb (Proc.devRef .tc main_v56_0) : S1x128.Idx → EReal) (ix2 (0 : Fin 1) j) = Cert.Stages.colSumK Y j)
    (j : Fin 128) :
    (after (hostOps4 (F := Ideal)) Wb (Proc.devRef .tc main_v58) : S1x128.Idx → EReal) (ix2 (0 : Fin 1) j)
      = Cert.Stages.meanK Y j := by
  rw [mean4_term, div_count_apply, hsum]; rfl

theorem host4_var (Y : Cert.Stages.Mat 100000 128)
    (hsum : ∀ j, (Wb (Proc.devRef .tc main_v56_0) : S1x128.Idx → EReal) (ix2 (0 : Fin 1) j) = Cert.Stages.colSumK Y j)
    (hsq : ∀ j, (Wb (Proc.devRef .tc main_v56_1) : S1x128.Idx → EReal) (ix2 (0 : Fin 1) j)
      = Cert.Stages.colSumK (Cert.Stages.sq Y) j) (j : Fin 128) :
    (after (hostOps4 (F := Ideal)) Wb (Proc.devRef .tc main_v62) : S1x128.Idx → EReal) (ix2 (0 : Fin 1) j)
      = Cert.Stages.varK Y j := by
  rw [var4_term]
  refine (subf_apply _ _ _).trans ?_
  refine congrArg₂ (· - ·) ?_ ?_
  · rw [div_count_apply, hsq]
  · refine (mulf_apply _ _ _).trans ?_
    rw [div_count_apply, hsum]; rfl

end Cert.KernelIdeal.HandVal

end
-- ==== Proof.LibGcnNorm.lean ====
/-
  A general lemma file: the symmetric normalisation of a graph convolution, factored.

  Nodes `ι`, edges `ε`; an edge `e` reads node `s e` and adds into node `t e` when that is `some` node, and is
  dropped when it is `none` (a target out of range). With a real scale `d` per node, real features `h` and a real
  bias `b`, scaling the features by `d` before the edge sum and by `d i` after it,

      d i · (Σ_{e : t e = i} h (s e) · d (s e)  +  h i · d i) + b,

  is the sum over the edge list EXTENDED BY ONE SELF LOOP PER NODE of `h s · (d s · d t)`, plus `b`. On the extended
  reals the step needs every value finite (distributivity fails at infinities), so the statement is over coerced reals.
  The same splitting of the extended list gives the degree: the count of edges into `i`, plus one, is the count over the
  extended list. A weight read at the target by a clamped index `g e` agrees with the target wherever the edge is kept.
-/
import Idealize.ShloMosaic.PureOps.Ideal

open scoped BigOperators

namespace Cert.LibGcnNorm

/-- A finite sum of coerced reals is the coerced sum. -/
theorem coe_sum {α : Type*} (A : Finset α) (f : α → ℝ) : (∑ a ∈ A, (f a : EReal)) = ((∑ a ∈ A, f a : ℝ) : EReal) := by
  classical
  induction A using Finset.induction_on with
  | empty => simp
  | insert a A ha ih => rw [Finset.sum_insert ha, Finset.sum_insert ha, ih, EReal.coe_add]

variable {ι ε : Type*} [Fintype ι] [Fintype ε] [DecidableEq ι]

/-- A sum over the edges of the extended list that land on `i`: those of the original list that do, and `i`'s self loop. -/
theorem sum_extended {M : Type*} [AddCommMonoid M] (t : ε → Option ι) (i : ι) (F : ε ⊕ ι → M) :
    ∑ e' ∈ Finset.univ.filter (fun e' : ε ⊕ ι => Sum.elim t some e' = some i), F e'
      = ∑ e ∈ Finset.univ.filter (fun e : ε => t e = some i), F (Sum.inl e) + F (Sum.inr i) := by
  rw [Finset.sum_filter, Fintype.sum_sum_type, Finset.sum_filter]
  simp only [Sum.elim_inl, Sum.elim_inr, Option.some.injEq, Finset.sum_ite_eq', Finset.mem_univ, if_true]
  congr 1

/-- The degree: the count into `i` (a sum of a constant `c` from `z`) plus one more `c` is the count over the extended list. -/
theorem degree_extended {M : Type*} [AddCommMonoid M] (t : ε → Option ι) (i : ι) (z c : M) :
    (z + ∑ _e ∈ Finset.univ.filter (fun e : ε => t e = some i), c) + c
      = z + ∑ _e' ∈ Finset.univ.filter (fun e' : ε ⊕ ι => Sum.elim t some e' = some i), c := by
  rw [sum_extended t i (fun _ => c), add_assoc]

/-- The factoring over a set `A` of kept edges all landing on `i` (`g`: the index the target's weight is read at). -/
theorem factor_on (A : Finset ε) (s g : ε → ι) (i : ι) (d h : ι → ℝ) (b : ℝ) (hg : ∀ e ∈ A, g e = i) :
    (d i : EReal) * ((0 + ∑ e ∈ A, (h (s e) : EReal) * (d (s e) : EReal)) + (h i : EReal) * (d i : EReal)) + (b : EReal)
      = (0 + (∑ e ∈ A, (h (s e) : EReal) * ((d (s e) : EReal) * (d (g e) : EReal))
          + (h i : EReal) * ((d i : EReal) * (d i : EReal)))) + (b : EReal) := by
  simp only [← EReal.coe_mul, coe_sum, ← EReal.coe_add, ← EReal.coe_zero]
  congr 1
  rw [zero_add, zero_add, mul_add, Finset.mul_sum]
  congr 1; congr 1
  · exact Finset.sum_congr rfl (fun e he => by rw [hg e he]; ring)
  · ring

/-- THE LAW: scale, sum over the edges into `i`, add the self term, scale again, add the bias — is the sum over the
    extended list of the doubly weighted features, plus the bias. -/
theorem conv_extended (s : ε → ι) (t : ε → Option ι) (g : ε → ι) (hg : ∀ e i, t e = some i → g e = i)
    (d h : ι → ℝ) (b : ℝ) (i : ι) :
    (d i : EReal) * ((0 + ∑ e ∈ Finset.univ.filter (fun e : ε => t e = some i), (h (s e) : EReal) * (d (s e) : EReal))
        + (h i : EReal) * (d i : EReal)) + (b : EReal)
      = (0 + ∑ e' ∈ Finset.univ.filter (fun e' : ε ⊕ ι => Sum.elim t some e' = some i),
          (h (Sum.elim s id e') : EReal) * ((d (Sum.elim s id e') : EReal) * (d (Sum.elim g id e') : EReal))) + (b : EReal) := by
  rw [sum_extended t i (fun e' => (h (Sum.elim s id e') : EReal) * ((d (Sum.elim s id e') : EReal) * (d (Sum.elim g id e') : EReal)))]
  simp only [Sum.elim_inl, Sum.elim_inr, id]
  exact factor_on _ s g i d h b (fun e he => hg e i (Finset.mem_filter.mp he).2)

end Cert.LibGcnNorm
-- ==== Proof.LibGcnStage.lean ====
/-
  A general lemma file: the stages of a two-sided graph convolution, generic in the node count `N`, the edge counts
  `E` (the bare list) and `E'` (the list extended by one self loop per node, through an equivalence
  `Fin E ⊕ Fin N ≃ Fin E'`) and the feature count `C`.

  One side scales the features by the degree factor, gathers rows by source, scatter-adds by target, adds the self
  term, scales again, adds the bias and clamps at zero. The other gathers the unscaled rows over the extended list,
  weights each by the product of the two end nodes' factors, scatter-adds, adds the bias and clamps. Both read at an
  index are sums over the edges whose target word names the node; the factoring law of the normalisation makes them
  equal when every value is a real. The degree counts differ by the self loop in the same way.
-/
import proofs.«156713_j13589276524898_2_alg».proof.Proof.LibIndexRead
import proofs.«156713_j13589276524898_2_alg».proof.Proof.LibGcnNorm
import Idealize.ShloMosaic.Lib.Pipeline.Value

noncomputable section

open scoped BigOperators

namespace Cert.LibGcnStage

open Idealize.ShloMosaic Idealize.ShloMosaic.ValueIdx Cert.LibIndexRead Cert.LibGcnNorm

/-! ## Layout operations at an index -/

section Layout
variable {α : Type}

/-- A vector broadcast to a one-column array reads the vector. -/
theorem bcast_col {E : Nat} (hE : E ≠ 1) (h : (⟨1, ![E]⟩ : Shape).BroadcastsInDim ⟨2, ![E, 1]⟩ ![0])
    (w : (⟨1, ![E]⟩ : Shape).Idx → α) (e : Fin E) (z : Fin 1) :
    broadcastInDim ⟨2, ![E, 1]⟩ ![0] h w (ix2 e z) = w (ix1 e) :=
  broadcastInDim_apply _ h w _ (ix1 e) (fun a => match a with
    | ⟨0, _⟩ => by show e.val = if E = 1 then 0 else e.val; rw [if_neg hE])

/-- A one-column array broadcast along its columns reads the column. -/
theorem bcast_cols {E C : Nat} (hE : E ≠ 1) (h : (⟨2, ![E, 1]⟩ : Shape).BroadcastsInDim ⟨2, ![E, C]⟩ ![0, 1])
    (w : (⟨2, ![E, 1]⟩ : Shape).Idx → α) (e : Fin E) (c : Fin C) :
    broadcastInDim ⟨2, ![E, C]⟩ ![0, 1] h w (ix2 e c) = w (ix2 e (0 : Fin 1)) :=
  broadcastInDim_apply _ h w _ (ix2 e (0 : Fin 1)) (fun a => match a with
    | ⟨0, _⟩ => by show e.val = if E = 1 then 0 else e.val; rw [if_neg hE]
    | ⟨1, _⟩ => by show (0 : Nat) = if (1 : Nat) = 1 then 0 else c.val; rw [if_pos rfl])

/-- A one-row array broadcast along its rows reads the row. -/
theorem bcast_rows {N C : Nat} (hC : C ≠ 1) (h : (⟨2, ![1, C]⟩ : Shape).BroadcastsInDim ⟨2, ![N, C]⟩ ![0, 1])
    (w : (⟨2, ![1, C]⟩ : Shape).Idx → α) (i : Fin N) (c : Fin C) :
    broadcastInDim ⟨2, ![N, C]⟩ ![0, 1] h w (ix2 i c) = w (ix2 (0 : Fin 1) c) :=
  broadcastInDim_apply _ h w _ (ix2 (0 : Fin 1) c) (fun a => match a with
    | ⟨0, _⟩ => by show (0 : Nat) = if (1 : Nat) = 1 then 0 else i.val; rw [if_pos rfl]
    | ⟨1, _⟩ => by show c.val = if C = 1 then 0 else c.val; rw [if_neg hC])

/-- A vector broadcast to a one-row array reads the vector. -/
theorem bcast_row1 {C : Nat} (hC : C ≠ 1) (h : (⟨1, ![C]⟩ : Shape).BroadcastsInDim ⟨2, ![1, C]⟩ ![1])
    (w : (⟨1, ![C]⟩ : Shape).Idx → α) (z : Fin 1) (c : Fin C) :
    broadcastInDim ⟨2, ![1, C]⟩ ![1] h w (ix2 z c) = w (ix1 c) :=
  broadcastInDim_apply _ h w _ (ix1 c) (fun a => match a with
    | ⟨0, _⟩ => by show c.val = if C = 1 then 0 else c.val; rw [if_neg hC])

/-- A vector reshaped to a one-column array reads the vector. -/
theorem reshape_col {N : Nat} (h : (⟨1, ![N]⟩ : Shape).ShapeCasts ⟨2, ![N, 1]⟩)
    (v : (⟨1, ![N]⟩ : Shape).Idx → α) (i : Fin N) (z : Fin 1) :
    shapeCast ⟨2, ![N, 1]⟩ v h (ix2 i z) = v (ix1 i) :=
  shapeCast_apply v h (ix2 i z) (ix1 i) (by
    rw [Shape.rowMajor_val_two, Shape.rowMajor_val_one]
    have hz : z.val = 0 := by omega
    show i.val = i.val * 1 + z.val
    omega)

/-- A vector reshaped to a one-row array reads the vector. -/
theorem reshape_row {C : Nat} (h : (⟨1, ![C]⟩ : Shape).ShapeCasts ⟨2, ![1, C]⟩)
    (v : (⟨1, ![C]⟩ : Shape).Idx → α) (z : Fin 1) (c : Fin C) :
    shapeCast ⟨2, ![1, C]⟩ v h (ix2 z c) = v (ix1 c) :=
  shapeCast_apply v h (ix2 z c) (ix1 c) (by
    rw [Shape.rowMajor_val_two, Shape.rowMajor_val_one]
    have hz : z.val = 0 := by omega
    show c.val = z.val * C + c.val
    rw [hz]; omega)

end Layout

/-- The scalar shape. -/
abbrev S0 : Shape := ⟨0, ![]⟩

/-- The row a start word names after clamping (no wrapping): read signed, clamped into `[0, N − 1]`. -/
def clampRow (N : Nat) (hN : 0 < N) (w : BitVec 32) : Fin N := ⟨min w.toInt.toNat (N - 1), by omega⟩

theorem clampRow_wrap (N : Nat) (hN : 0 < N) (M w : BitVec 32) : clampRow N hN (wrapNeg M w) = rowOf N hN M w := rfl

/-! ## The building blocks with the index vector a broadcast column -/

section Blocks
variable {N E C : Nat}

theorem hscat1 (wf : ScatterDims.WF ⟨1, ![N]⟩ ⟨2, ![E, 1]⟩ ⟨1, ![E]⟩ [] [0] [0] 1) (hE : E ≠ 1)
    (hbi : (⟨1, ![E]⟩ : Shape).BroadcastsInDim ⟨2, ![E, 1]⟩ ![0])
    (x : FVec Ideal ⟨1, ![N]⟩ .f32) (w : IVec ⟨1, ![E]⟩ 32) (upd : FVec Ideal ⟨1, ![E]⟩ .f32) (i : Fin N) :
    Host.scatterAdd (F := Ideal) (scatDims1 N E wf) x (broadcastInDim ⟨2, ![E, 1]⟩ ![0] hbi w) upd (ix1 i)
      = x (ix1 i) + ∑ e ∈ Finset.univ.filter (fun e : Fin E => target N (w (ix1 e)) = some i), upd (ix1 e) := by
  show Ideal.hostScatterAdd (scatDims1 N E wf) x _ upd (ix1 i) = _
  rw [scat1_apply]
  simp only [bcast_col hE]

theorem hscat2 (wf : ScatterDims.WF ⟨2, ![N, C]⟩ ⟨2, ![E, 1]⟩ ⟨2, ![E, C]⟩ [1] [0] [0] 1) (hE : E ≠ 1)
    (hbi : (⟨1, ![E]⟩ : Shape).BroadcastsInDim ⟨2, ![E, 1]⟩ ![0])
    (x : FVec Ideal ⟨2, ![N, C]⟩ .f32) (w : IVec ⟨1, ![E]⟩ 32) (upd : FVec Ideal ⟨2, ![E, C]⟩ .f32) (i : Fin N) (c : Fin C) :
    Host.scatterAdd (F := Ideal) (scatDims2 N E C wf) x (broadcastInDim ⟨2, ![E, 1]⟩ ![0] hbi w) upd (ix2 i c)
      = x (ix2 i c) + ∑ e ∈ Finset.univ.filter (fun e : Fin E => target N (w (ix1 e)) = some i), upd (ix2 e c) := by
  show Ideal.hostScatterAdd (scatDims2 N E C wf) x _ upd (ix2 i c) = _
  rw [scat2_apply]
  simp only [bcast_col hE]

theorem hgath2 {α : Type} (hN : 0 < N) (wf : GatherDims.WF ⟨2, ![N, C]⟩ ⟨2, ![E, 1]⟩ ⟨2, ![E, C]⟩ [1] [0] [] [0] [] 1 ![1, C])
    (hE : E ≠ 1) (hbi : (⟨1, ![E]⟩ : Shape).BroadcastsInDim ⟨2, ![E, 1]⟩ ![0])
    (x : (⟨2, ![N, C]⟩ : Shape).Idx → α) (w : IVec ⟨1, ![E]⟩ 32) (e : Fin E) (c : Fin C) :
    Host.gather (gathDims2 N E C wf) x (broadcastInDim ⟨2, ![E, 1]⟩ ![0] hbi w) (ix2 e c)
      = x (ix2 (clampRow N hN (w (ix1 e))) c) := by
  rw [gath2_apply hN]
  refine congrArg (fun r => x (ix2 r c)) (Fin.ext ?_)
  show min _ (N - 1) = min _ (N - 1)
  rw [bcast_col hE]

theorem hgath1 {α : Type} (hN : 0 < N) (wf : GatherDims.WF ⟨1, ![N]⟩ ⟨2, ![E, 1]⟩ ⟨1, ![E]⟩ [] [0] [] [0] [] 1 ![1])
    (hE : E ≠ 1) (hbi : (⟨1, ![E]⟩ : Shape).BroadcastsInDim ⟨2, ![E, 1]⟩ ![0])
    (x : (⟨1, ![N]⟩ : Shape).Idx → α) (w : IVec ⟨1, ![E]⟩ 32) (e : Fin E) :
    Host.gather (gathDims1 N E wf) x (broadcastInDim ⟨2, ![E, 1]⟩ ![0] hbi w) (ix1 e)
      = x (ix1 (clampRow N hN (w (ix1 e)))) := by
  rw [gath1_apply hN]
  refine congrArg (fun r => x (ix1 r)) (Fin.ext ?_)
  show min _ (N - 1) = min _ (N - 1)
  rw [bcast_col hE]

end Blocks

/-! ## The composite stages, kept as the operations' own composition -/

section Stages
variable {N E C : Nat}

/-- Ones (the word `o`) scattered by target into zeros (the word `z`): the degree count. -/
def degG (wf : ScatterDims.WF ⟨1, ![N]⟩ ⟨2, ![E, 1]⟩ ⟨1, ![E]⟩ [] [0] [0] 1)
    (hbN : S0.BroadcastsInDim ⟨1, ![N]⟩ ![]) (hbi : (⟨1, ![E]⟩ : Shape).BroadcastsInDim ⟨2, ![E, 1]⟩ ![0])
    (hbE : S0.BroadcastsInDim ⟨1, ![E]⟩ ![]) (z o : BitVec 32) (dst : IVec ⟨1, ![E]⟩ 32) : FVec Ideal ⟨1, ![N]⟩ .f32 :=
  Host.scatterAdd (scatDims1 N E wf) (broadcastInDim ⟨1, ![N]⟩ ![] hbN (constant (F := Ideal) S0 .f32 z))
    (broadcastInDim ⟨2, ![E, 1]⟩ ![0] hbi dst) (broadcastInDim ⟨1, ![E]⟩ ![] hbE (constant (F := Ideal) S0 .f32 o))

theorem degG_apply (wf : ScatterDims.WF ⟨1, ![N]⟩ ⟨2, ![E, 1]⟩ ⟨1, ![E]⟩ [] [0] [0] 1) (hE : E ≠ 1)
    (hbN : S0.BroadcastsInDim ⟨1, ![N]⟩ ![]) (hbi : (⟨1, ![E]⟩ : Shape).BroadcastsInDim ⟨2, ![E, 1]⟩ ![0])
    (hbE : S0.BroadcastsInDim ⟨1, ![E]⟩ ![]) (z o : BitVec 32) (dst : IVec ⟨1, ![E]⟩ 32) (i : Fin N) :
    degG wf hbN hbi hbE z o dst (ix1 i) = Ideal.ofBits .f32 z
      + ∑ _e ∈ Finset.univ.filter (fun e : Fin E => target N (dst (ix1 e)) = some i), Ideal.ofBits .f32 o := by
  unfold degG
  rw [hscat1 wf hE]
  rfl

/-- Rows of `hp` gathered by the (already wrapped) source words and summed by target into zeros. -/
def aggG (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hbz : S0.BroadcastsInDim ⟨2, ![N, C]⟩ ![]) (hbi : (⟨1, ![E]⟩ : Shape).BroadcastsInDim ⟨2, ![E, 1]⟩ ![0])
    (z : BitVec 32) (srcw dst : IVec ⟨1, ![E]⟩ 32) (hp : FVec Ideal ⟨2, ![N, C]⟩ .f32) : FVec Ideal ⟨2, ![N, C]⟩ .f32 :=
  Host.scatterAdd (scatDims2 N E C wfs) (broadcastInDim ⟨2, ![N, C]⟩ ![] hbz (constant (F := Ideal) S0 .f32 z))
    (broadcastInDim ⟨2, ![E, 1]⟩ ![0] hbi dst)
    (Host.gather (gathDims2 N E C wfg) hp (broadcastInDim ⟨2, ![E, 1]⟩ ![0] hbi srcw))

theorem aggG_apply (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C]) (hE : E ≠ 1) (hN : 0 < N)
    (hbz : S0.BroadcastsInDim ⟨2, ![N, C]⟩ ![]) (hbi : (⟨1, ![E]⟩ : Shape).BroadcastsInDim ⟨2, ![E, 1]⟩ ![0])
    (z : BitVec 32) (srcw dst : IVec ⟨1, ![E]⟩ 32) (hp : FVec Ideal ⟨2, ![N, C]⟩ .f32) (i : Fin N) (c : Fin C) :
    aggG wfs wfg hbz hbi z srcw dst hp (ix2 i c) = Ideal.ofBits .f32 z
      + ∑ e ∈ Finset.univ.filter (fun e : Fin E => target N (dst (ix1 e)) = some i),
          hp (ix2 (clampRow N hN (srcw (ix1 e))) c) := by
  unfold aggG
  rw [hscat2 wfs hE]
  simp only [hgath2 hN wfg hE]
  rfl

/-- The other side's aggregate: rows of `H` gathered over the extended list, each weighted by the product of the
    factor `D` gathered at its two ends, summed by target into zeros. -/
def refAggG (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (wfg1 : GatherDims.WF ⟨1, ![N]⟩ ⟨2, ![E, 1]⟩ ⟨1, ![E]⟩ [] [0] [] [0] [] 1 ![1])
    (hbz : S0.BroadcastsInDim ⟨2, ![N, C]⟩ ![]) (hbi : (⟨1, ![E]⟩ : Shape).BroadcastsInDim ⟨2, ![E, 1]⟩ ![0])
    (hbc : (⟨2, ![E, 1]⟩ : Shape).BroadcastsInDim ⟨2, ![E, C]⟩ ![0, 1])
    (z : BitVec 32) (sw1 sw2 dw dst : IVec ⟨1, ![E]⟩ 32) (D : FVec Ideal ⟨1, ![N]⟩ .f32) (H : FVec Ideal ⟨2, ![N, C]⟩ .f32) :
    FVec Ideal ⟨2, ![N, C]⟩ .f32 :=
  Host.scatterAdd (scatDims2 N E C wfs) (broadcastInDim ⟨2, ![N, C]⟩ ![] hbz (constant (F := Ideal) S0 .f32 z))
    (broadcastInDim ⟨2, ![E, 1]⟩ ![0] hbi dst)
    (mulf (Host.gather (gathDims2 N E C wfg) H (broadcastInDim ⟨2, ![E, 1]⟩ ![0] hbi sw1))
      (broadcastInDim ⟨2, ![E, C]⟩ ![0, 1] hbc (broadcastInDim ⟨2, ![E, 1]⟩ ![0] hbi
        (mulf (Host.gather (gathDims1 N E wfg1) D (broadcastInDim ⟨2, ![E, 1]⟩ ![0] hbi sw2))
          (Host.gather (gathDims1 N E wfg1) D (broadcastInDim ⟨2, ![E, 1]⟩ ![0] hbi dw))))))

theorem refAggG_apply (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (wfg1 : GatherDims.WF ⟨1, ![N]⟩ ⟨2, ![E, 1]⟩ ⟨1, ![E]⟩ [] [0] [] [0] [] 1 ![1]) (hE : E ≠ 1) (hN : 0 < N)
    (hbz : S0.BroadcastsInDim ⟨2, ![N, C]⟩ ![]) (hbi : (⟨1, ![E]⟩ : Shape).BroadcastsInDim ⟨2, ![E, 1]⟩ ![0])
    (hbc : (⟨2, ![E, 1]⟩ : Shape).BroadcastsInDim ⟨2, ![E, C]⟩ ![0, 1])
    (z : BitVec 32) (sw1 sw2 dw dst : IVec ⟨1, ![E]⟩ 32) (D : FVec Ideal ⟨1, ![N]⟩ .f32) (H : FVec Ideal ⟨2, ![N, C]⟩ .f32)
    (i : Fin N) (c : Fin C) :
    refAggG wfs wfg wfg1 hbz hbi hbc z sw1 sw2 dw dst D H (ix2 i c) = Ideal.ofBits .f32 z
      + ∑ e ∈ Finset.univ.filter (fun e : Fin E => target N (dst (ix1 e)) = some i),
          H (ix2 (clampRow N hN (sw1 (ix1 e))) c)
            * (D (ix1 (clampRow N hN (sw2 (ix1 e)))) * D (ix1 (clampRow N hN (dw (ix1 e))))) := by
  unfold refAggG
  rw [hscat2 wfs hE]
  simp only [mulf_apply, hgath2 hN wfg hE, bcast_cols hE, bcast_col hE, hgath1 hN wfg1 hE]
  rfl

/-- The degree factor as a column: the reciprocal square root of (count + `o`) clamped below at `o`. -/
def disG (hsc : (⟨1, ![N]⟩ : Shape).ShapeCasts ⟨2, ![N, 1]⟩) (hbN : S0.BroadcastsInDim ⟨1, ![N]⟩ ![]) (o : BitVec 32)
    (deg : FVec Ideal ⟨1, ![N]⟩ .f32) : FVec Ideal ⟨2, ![N, 1]⟩ .f32 :=
  shapeCast _ (Host.rsqrt (maximumf (addf deg (broadcastInDim ⟨1, ![N]⟩ ![] hbN (constant (F := Ideal) S0 .f32 o)))
    (broadcastInDim ⟨1, ![N]⟩ ![] hbN (constant (F := Ideal) S0 .f32 o)))) hsc

theorem disG_apply (hsc : (⟨1, ![N]⟩ : Shape).ShapeCasts ⟨2, ![N, 1]⟩) (hbN : S0.BroadcastsInDim ⟨1, ![N]⟩ ![]) (o : BitVec 32)
    (deg : FVec Ideal ⟨1, ![N]⟩ .f32) (i : Fin N) (z : Fin 1) :
    disG hsc hbN o deg (ix2 i z) = Ideal.rsqrt (max (deg (ix1 i) + Ideal.ofBits .f32 o) (Ideal.ofBits .f32 o)) := by
  unfold disG
  rw [reshape_col]
  rfl

/-- The other side's factor as a vector: no added one (the self loop is in its count). -/
def disRG (hbN : S0.BroadcastsInDim ⟨1, ![N]⟩ ![]) (o : BitVec 32) (deg : FVec Ideal ⟨1, ![N]⟩ .f32) : FVec Ideal ⟨1, ![N]⟩ .f32 :=
  Host.rsqrt (maximumf deg (broadcastInDim ⟨1, ![N]⟩ ![] hbN (constant (F := Ideal) S0 .f32 o)))

theorem disRG_apply (hbN : S0.BroadcastsInDim ⟨1, ![N]⟩ ![]) (o : BitVec 32) (deg : FVec Ideal ⟨1, ![N]⟩ .f32) (i : Fin N) :
    disRG hbN o deg (ix1 i) = Ideal.rsqrt (max (deg (ix1 i)) (Ideal.ofBits .f32 o)) := rfl

end Stages

/-! ## The laws -/

section Laws
variable {N E E' C : Nat}

/-- A filtered sum re-indexed through an equivalence. -/
theorem sum_filter_equiv {α β M : Type*} [Fintype α] [Fintype β] [AddCommMonoid M] (eqv : α ≃ β)
    (P : β → Prop) [DecidablePred P] (F : β → M) :
    ∑ b ∈ Finset.univ.filter P, F b = ∑ a ∈ Finset.univ.filter (fun a => P (eqv a)), F (eqv a) := by
  rw [Finset.sum_filter, Finset.sum_filter, ← Equiv.sum_comp eqv]

/-- A filtered sum with the predicate and the summand replaced by equal ones. -/
theorem sum_filter_congr' {α M : Type*} [AddCommMonoid M] (s : Finset α) (P Q : α → Prop) [DecidablePred P] [DecidablePred Q]
    (h : ∀ a, P a ↔ Q a) (F G : α → M) (hF : ∀ a, F a = G a) :
    ∑ a ∈ s.filter P, F a = ∑ a ∈ s.filter Q, G a := by
  rw [Finset.filter_congr (fun a _ => h a)]
  exact Finset.sum_congr rfl (fun a _ => hF a)

/-- The word list `w'` is `w` extended by the words of the node numbers (one self loop per node). -/
structure Extends (eqv : Fin E ⊕ Fin N ≃ Fin E') (w : IVec ⟨1, ![E]⟩ 32) (w' : IVec ⟨1, ![E']⟩ 32) : Prop where
  inl : ∀ e : Fin E, w' (ix1 (eqv (Sum.inl e))) = w (ix1 e)
  inr : ∀ v : Fin N, w' (ix1 (eqv (Sum.inr v))) = BitVec.ofNat 32 v.val

theorem target_extended (eqv : Fin E ⊕ Fin N ≃ Fin E') (dst : IVec ⟨1, ![E]⟩ 32) (dst' : IVec ⟨1, ![E']⟩ 32)
    (hd : Extends eqv dst dst') (hN31 : N ≤ 2 ^ 31) (s : Fin E ⊕ Fin N) :
    target N (dst' (ix1 (eqv s))) = Sum.elim (fun e => target N (dst (ix1 e))) some s := by
  cases s with
  | inl e => rw [hd.inl]; rfl
  | inr v => rw [hd.inr, target_ofNat hN31]; rfl

theorem rowOf_extended (eqv : Fin E ⊕ Fin N ≃ Fin E') (w : IVec ⟨1, ![E]⟩ 32) (w' : IVec ⟨1, ![E']⟩ 32)
    (hw : Extends eqv w w') (hN : 0 < N) (hN31 : N ≤ 2 ^ 31) (M : BitVec 32) (s : Fin E ⊕ Fin N) :
    rowOf N hN M (w' (ix1 (eqv s))) = Sum.elim (fun e => rowOf N hN M (w (ix1 e))) id s := by
  cases s with
  | inl e => rw [hw.inl]; rfl
  | inr v => rw [hw.inr, rowOf_ofNat hN hN31]; rfl

/-- THE DEGREE: the count over the bare list plus one more is the count over the extended list. -/
theorem degree_law (eqv : Fin E ⊕ Fin N ≃ Fin E') (dst : IVec ⟨1, ![E]⟩ 32) (dst' : IVec ⟨1, ![E']⟩ 32)
    (hd : Extends eqv dst dst') (hN31 : N ≤ 2 ^ 31) (z o : EReal) (i : Fin N) :
    (z + ∑ _e ∈ Finset.univ.filter (fun e : Fin E => target N (dst (ix1 e)) = some i), o) + o
      = z + ∑ _e' ∈ Finset.univ.filter (fun e' : Fin E' => target N (dst' (ix1 e')) = some i), o := by
  rw [sum_filter_equiv eqv]
  rw [sum_filter_congr' _ _ (fun s => Sum.elim (fun e => target N (dst (ix1 e))) some s = some i)
    (fun s => by rw [target_extended eqv dst dst' hd hN31 s]) _ (fun _ => o) (fun _ => rfl)]
  exact degree_extended (fun e => target N (dst (ix1 e))) i z o

/-- THE LAYER at one node and one feature, over reals `d` (the factor) and `h` (the feature column). -/
theorem layer_law (eqv : Fin E ⊕ Fin N ≃ Fin E') (src dst : IVec ⟨1, ![E]⟩ 32) (src' dst' : IVec ⟨1, ![E']⟩ 32)
    (hs : Extends eqv src src') (hd : Extends eqv dst dst') (hN : 0 < N) (hN31 : N ≤ 2 ^ 31) (M : BitVec 32)
    (d h : Fin N → ℝ) (b : ℝ) (i : Fin N) :
    (d i : EReal) * ((0 + ∑ e ∈ Finset.univ.filter (fun e : Fin E => target N (dst (ix1 e)) = some i),
          (h (rowOf N hN M (src (ix1 e))) : EReal) * (d (rowOf N hN M (src (ix1 e))) : EReal))
        + (h i : EReal) * (d i : EReal)) + (b : EReal)
      = (0 + ∑ e' ∈ Finset.univ.filter (fun e' : Fin E' => target N (dst' (ix1 e')) = some i),
          (h (rowOf N hN M (src' (ix1 e'))) : EReal)
            * ((d (rowOf N hN M (src' (ix1 e'))) : EReal) * (d (rowOf N hN M (dst' (ix1 e'))) : EReal))) + (b : EReal) := by
  rw [sum_filter_equiv eqv]
  rw [sum_filter_congr' _ _ (fun s => Sum.elim (fun e => target N (dst (ix1 e))) some s = some i)
    (fun s => by rw [target_extended eqv dst dst' hd hN31 s]) _
    (fun s => (h (Sum.elim (fun e => rowOf N hN M (src (ix1 e))) id s) : EReal)
      * ((d (Sum.elim (fun e => rowOf N hN M (src (ix1 e))) id s) : EReal)
        * (d (Sum.elim (fun e => rowOf N hN M (dst (ix1 e))) id s) : EReal)))
    (fun s => by rw [rowOf_extended eqv src src' hs hN hN31 M s, rowOf_extended eqv dst dst' hd hN hN31 M s])]
  exact conv_extended (fun e => rowOf N hN M (src (ix1 e))) (fun e => target N (dst (ix1 e)))
    (fun e => rowOf N hN M (dst (ix1 e))) (fun e i ht => rowOf_of_target hN M _ i ht) d h b i

/-- The reciprocal square root of a count plus one, clamped below at one, is a real. -/
theorem rsqrt_count {α : Type*} (A : Finset α) :
    ∃ r : ℝ, Ideal.rsqrt (max ((0 : EReal) + ∑ _e ∈ A, (1 : EReal) + 1) 1) = (r : EReal) := by
  have h1 : (∑ _e ∈ A, (1 : EReal)) = ((∑ _e ∈ A, (1 : ℝ) : ℝ) : EReal) := by
    rw [← coe_sum]; simp
  have hn : (0 : ℝ) ≤ ∑ _e ∈ A, (1 : ℝ) := Finset.sum_nonneg (fun _ _ => zero_le_one)
  generalize (∑ _e ∈ A, (1 : ℝ)) = n at h1 hn
  have h2 : ((0 : EReal) + ∑ _e ∈ A, (1 : EReal) + 1) = ((n + 1 : ℝ) : EReal) := by
    rw [h1, zero_add, EReal.coe_add, EReal.coe_one]
  have h3 : max ((n + 1 : ℝ) : EReal) 1 = ((max (n + 1) 1 : ℝ) : EReal) := by
    rw [← EReal.coe_one]; exact (EReal.coe_strictMono.monotone.map_max).symm
  have h4 : (1 : ℝ) ≤ max (n + 1) 1 := le_max_right _ _
  rw [h2, h3, Ideal.rsqrt_coe, if_neg (by linarith), if_neg (by linarith)]
  exact ⟨_, rfl⟩

/-- The two sides' degree factors at a node are one and the same real. -/
theorem dis_law (eqv : Fin E ⊕ Fin N ≃ Fin E') (dst : IVec ⟨1, ![E]⟩ 32) (dst' : IVec ⟨1, ![E']⟩ 32)
    (hd : Extends eqv dst dst') (hN31 : N ≤ 2 ^ 31) (z o : BitVec 32)
    (hz : Ideal.ofBits .f32 z = 0) (ho : Ideal.ofBits .f32 o = 1)
    (degK degR : FVec Ideal ⟨1, ![N]⟩ .f32)
    (hK : ∀ i : Fin N, degK (ix1 i) = Ideal.ofBits .f32 z
      + ∑ _e ∈ Finset.univ.filter (fun e : Fin E => target N (dst (ix1 e)) = some i), Ideal.ofBits .f32 o)
    (hR : ∀ i : Fin N, degR (ix1 i) = Ideal.ofBits .f32 z
      + ∑ _e ∈ Finset.univ.filter (fun e : Fin E' => target N (dst' (ix1 e)) = some i), Ideal.ofBits .f32 o)
    (i : Fin N) :
    ∃ r : ℝ, Ideal.rsqrt (max (degK (ix1 i) + Ideal.ofBits .f32 o) (Ideal.ofBits .f32 o)) = (r : EReal)
      ∧ Ideal.rsqrt (max (degR (ix1 i)) (Ideal.ofBits .f32 o)) = (r : EReal) := by
  have hsum : degR (ix1 i) = degK (ix1 i) + Ideal.ofBits .f32 o := by
    rw [hK, hR]; exact (degree_law eqv dst dst' hd hN31 _ _ i).symm
  rw [hsum, hK, hz, ho]
  obtain ⟨r, hr⟩ := rsqrt_count (Finset.univ.filter (fun e : Fin E => target N (dst (ix1 e)) = some i))
  exact ⟨r, hr, hr⟩

/-- The fused finishing step: the factor times (aggregate + self term), plus the bias row, clamped below at `z`. -/
def regFinG (z : BitVec 32) (agg hp : FVec Ideal ⟨2, ![N, C]⟩ .f32) (dis : FVec Ideal ⟨2, ![N, 1]⟩ .f32)
    (b : FVec Ideal ⟨2, ![1, C]⟩ .f32) : FVec Ideal ⟨2, ![N, C]⟩ .f32 :=
  fun j => max (dis (ix2 (j 0 : Fin N) (0 : Fin 1)) * (agg j + hp j) + b (ix2 (0 : Fin 1) (j 1 : Fin C)))
    (Ideal.ofBits .f32 z)

/-- Features scaled row by row by the factor column. -/
def scaleG (H : FVec Ideal ⟨2, ![N, C]⟩ .f32) (dis : FVec Ideal ⟨2, ![N, 1]⟩ .f32) : FVec Ideal ⟨2, ![N, C]⟩ .f32 :=
  fun j => H j * dis (ix2 (j 0 : Fin N) (0 : Fin 1))

/-- THE LAYER, as arrays: the fused side over the bare edge list is the plain side over the extended list. -/
theorem layerG (eqv : Fin E ⊕ Fin N ≃ Fin E') (hN : 0 < N) (hN31 : N ≤ 2 ^ 31) (hE : E ≠ 1) (hE' : E' ≠ 1) (M : BitVec 32)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hbz : S0.BroadcastsInDim ⟨2, ![N, C]⟩ ![]) (hbi : (⟨1, ![E]⟩ : Shape).BroadcastsInDim ⟨2, ![E, 1]⟩ ![0])
    (wfs' : ScatterDims.WF ⟨2, ![N, C]⟩ ⟨2, ![E', 1]⟩ ⟨2, ![E', C]⟩ [1] [0] [0] 1)
    (wfg' : GatherDims.WF ⟨2, ![N, C]⟩ ⟨2, ![E', 1]⟩ ⟨2, ![E', C]⟩ [1] [0] [] [0] [] 1 ![1, C])
    (wfg1' : GatherDims.WF ⟨1, ![N]⟩ ⟨2, ![E', 1]⟩ ⟨1, ![E']⟩ [] [0] [] [0] [] 1 ![1])
    (hbz' : S0.BroadcastsInDim ⟨2, ![N, C]⟩ ![]) (hbi' : (⟨1, ![E']⟩ : Shape).BroadcastsInDim ⟨2, ![E', 1]⟩ ![0])
    (hbc' : (⟨2, ![E', 1]⟩ : Shape).BroadcastsInDim ⟨2, ![E', C]⟩ ![0, 1])
    (z : BitVec 32) (hz : Ideal.ofBits .f32 z = 0)
    (src dst srcw : IVec ⟨1, ![E]⟩ 32) (src' dst' sw1 sw2 dw : IVec ⟨1, ![E']⟩ 32)
    (hs : Extends eqv src src') (hd : Extends eqv dst dst')
    (hsrcw : ∀ e : Fin E, srcw (ix1 e) = wrapNeg M (src (ix1 e)))
    (hsw1 : ∀ e : Fin E', sw1 (ix1 e) = wrapNeg M (src' (ix1 e)))
    (hsw2 : ∀ e : Fin E', sw2 (ix1 e) = wrapNeg M (src' (ix1 e)))
    (hdw : ∀ e : Fin E', dw (ix1 e) = wrapNeg M (dst' (ix1 e)))
    (Dk : FVec Ideal ⟨2, ![N, 1]⟩ .f32) (Dr : FVec Ideal ⟨1, ![N]⟩ .f32)
    (hD : ∀ i : Fin N, ∃ r : ℝ, Dk (ix2 i (0 : Fin 1)) = (r : EReal) ∧ Dr (ix1 i) = (r : EReal))
    (H : FVec Ideal ⟨2, ![N, C]⟩ .f32) (hH : ∀ j, ∃ r : ℝ, H j = (r : EReal))
    (brow : FVec Ideal ⟨2, ![1, C]⟩ .f32) (hb : ∀ c : Fin C, ∃ r : ℝ, brow (ix2 (0 : Fin 1) c) = (r : EReal))
    (bfull zfull : FVec Ideal ⟨2, ![N, C]⟩ .f32)
    (hbfull : ∀ (i : Fin N) (c : Fin C), bfull (ix2 i c) = brow (ix2 (0 : Fin 1) c))
    (hzfull : ∀ j, zfull j = Ideal.ofBits .f32 z) :
    regFinG z (aggG wfs wfg hbz hbi z srcw dst (scaleG H Dk)) (scaleG H Dk) Dk brow
      = maximumf (addf (refAggG wfs' wfg' wfg1' hbz' hbi' hbc' z sw1 sw2 dw dst' Dr H) bfull) zfull := by
  choose d hdk hdr using hD
  choose h hh using hH
  choose b hbb using hb
  funext j
  obtain ⟨i, c, rfl⟩ : ∃ (i : Fin N) (c : Fin C), j = ix2 i c := ⟨j 0, j 1, eq_ix2 j⟩
  rw [maximumf_apply, addf_apply, refAggG_apply wfs' wfg' wfg1' hE' hN, hbfull, hzfull]
  show max (Dk (ix2 i (0 : Fin 1)) * (aggG wfs wfg hbz hbi z srcw dst (scaleG H Dk) (ix2 i c) + scaleG H Dk (ix2 i c))
      + brow (ix2 (0 : Fin 1) c)) (Ideal.ofBits .f32 z) = _
  rw [aggG_apply wfs wfg hE hN]
  have hsc : ∀ (r : Fin N) (c : Fin C), scaleG H Dk (ix2 r c) = (h (ix2 r c) : EReal) * (d r : EReal) := fun r c => by
    show H (ix2 r c) * Dk (ix2 r (0 : Fin 1)) = _
    rw [hh, hdk]
  simp only [hsrcw, hsw1, hsw2, hdw, clampRow_wrap, hsc, hh, hdk, hdr, hbb, hz]
  congr 1
  exact layer_law eqv src dst src' dst' hs hd hN hN31 M d (fun v => h (ix2 v c)) (b c) i

/-- The fused side's output is a real everywhere (a maximum of reals). -/
theorem layerG_real (hN : 0 < N) (hE : E ≠ 1) (M : BitVec 32)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hbz : S0.BroadcastsInDim ⟨2, ![N, C]⟩ ![]) (hbi : (⟨1, ![E]⟩ : Shape).BroadcastsInDim ⟨2, ![E, 1]⟩ ![0])
    (z : BitVec 32) (hz : Ideal.ofBits .f32 z = 0) (srcw dst : IVec ⟨1, ![E]⟩ 32)
    (Dk : FVec Ideal ⟨2, ![N, 1]⟩ .f32) (hD : ∀ i : Fin N, ∃ r : ℝ, Dk (ix2 i (0 : Fin 1)) = (r : EReal))
    (H : FVec Ideal ⟨2, ![N, C]⟩ .f32) (hH : ∀ j, ∃ r : ℝ, H j = (r : EReal))
    (brow : FVec Ideal ⟨2, ![1, C]⟩ .f32) (hb : ∀ c : Fin C, ∃ r : ℝ, brow (ix2 (0 : Fin 1) c) = (r : EReal)) (j) :
    ∃ r : ℝ, regFinG z (aggG wfs wfg hbz hbi z srcw dst (scaleG H Dk)) (scaleG H Dk) Dk brow j = (r : EReal) := by
  choose d hdk using hD
  choose h hh using hH
  choose b hbb using hb
  obtain ⟨i, c, rfl⟩ : ∃ (i : Fin N) (c : Fin C), j = ix2 i c := ⟨j 0, j 1, eq_ix2 j⟩
  show ∃ r : ℝ, max (Dk (ix2 i (0 : Fin 1)) * (aggG wfs wfg hbz hbi z srcw dst (scaleG H Dk) (ix2 i c) + scaleG H Dk (ix2 i c))
      + brow (ix2 (0 : Fin 1) c)) (Ideal.ofBits .f32 z) = (r : EReal)
  rw [aggG_apply wfs wfg hE hN]
  have hsc : ∀ (r : Fin N) (c : Fin C), scaleG H Dk (ix2 r c) = (h (ix2 r c) : EReal) * (d r : EReal) := fun r c => by
    show H (ix2 r c) * Dk (ix2 r (0 : Fin 1)) = _
    rw [hh, hdk]
  simp only [hsc, hdk, hbb, hz, ← EReal.coe_mul, coe_sum, ← EReal.coe_add, ← EReal.coe_zero]
  exact ⟨_, (EReal.coe_strictMono.monotone.map_max).symm⟩

end Laws

end Cert.LibGcnStage

end
-- ==== Proof.KIVal.HostWords.lean ====
import proofs.«156713_j13589276524898_2_alg».proof.Proof.Gen.KernelIdeal.Launch
import proofs.«156713_j13589276524898_2_alg».proof.Proof.Stages
import proofs.«156713_j13589276524898_2_alg».proof.Proof.LibGcnStage
import Idealize.ShloMosaic.Lib.StableHlo.Run
import Idealize.ShloMosaic.Lib.Pipeline.Value
import Idealize.ShloMosaic.Lib.ValueIdx
import Idealize.ShloMosaic.Lib.ValueLayout

/-! # The extended edge list, as the first host stretch computes it

The stretch slices each row of the 2x1600000 edge array out, flattens it, and appends the node numbers
0, …, 99999: one self loop per node. Read at position `e` that is the given word for `e < 1600000` and the word of
the number `e - 1600000` after. Stated for any contents `W` of the buffers when the stretch starts. -/

set_option maxRecDepth 16384

noncomputable section

namespace Cert.KernelIdeal.HandVal

open Cert.KernelIdeal Cert.KernelIdeal.Gen
open Idealize.ShloMosaic Idealize.ShloMosaic.TcCoe Idealize.ShloMosaic.ValueIdx Idealize.SL.Sem Idealize.ShloMosaic.StableHlo
open Cert.LibIndexRead Cert.LibGcnStage
open scoped BigOperators

variable (W : Valuation τ sig (Elt Ideal))

/-- The extended list's source words as the host stretch leaves them: row 0 of the edge array, then the node numbers. -/
theorem words0_apply (e : Fin 1700000) :
    (StableHlo.after (hostOps0 (F := Ideal)) W (Proc.devRef .tc main_v3) : S1700000.Idx → BitVec 32) (ix1 e)
      = Cert.Stages.extend (fun r e' => (W (Proc.devRef .tc main_arg1) : S2x1600000.Idx → BitVec 32) (ix2 r e')) 0 e := by
  after_results
  unfold Cert.Stages.extend
  by_cases h : e.val < 1600000
  · rw [dif_pos h]
    rw [concatenate_pair_apply_left (t := S1700000) (s₁ := S1600000) (s₂ := S100000) (0 : Fin 1) _ _ concatenates_S1600000_S100000_S1700000_d0 (ix1 e) rfl (ix1 (⟨e.val, h⟩ : Fin 1600000))
      (by intro b; match b with | ⟨0, _⟩ => rfl)]
    show shapeCast S1600000 (extractStridedSlice S1x1600000 ![0, 0] (W (Proc.devRef .tc main_arg1)) slices_S2x1600000_S1x1600000_0_0)
        shapeCasts_S1x1600000_S1600000 (ix1 (⟨e.val, h⟩ : Fin 1600000)) = _
    rw [shapeCast_1a_a_apply, slice2_axis0_apply 0 _ _ (0 : Fin 1) (⟨e.val, h⟩ : Fin 1600000) (0 : Fin 2) rfl]
  · rw [dif_neg h]
    have he : e.val < 1700000 := e.isLt
    rw [concatenate_pair_apply_right (t := S1700000) (s₁ := S1600000) (s₂ := S100000) (0 : Fin 1) _ _ concatenates_S1600000_S100000_S1700000_d0 (ix1 e) rfl rfl
      (ix1 (⟨e.val - 1600000, by omega⟩ : Fin 100000))
      (by intro b hb; match b with | ⟨0, _⟩ => exact absurd rfl hb)
      (by show e.val - 1600000 + 1600000 = e.val; omega)]
    rfl

/-- The extended list's target words as the host stretch leaves them: row 1 of the edge array, then the node numbers. -/
theorem words1_apply (e : Fin 1700000) :
    (StableHlo.after (hostOps0 (F := Ideal)) W (Proc.devRef .tc main_v6) : S1700000.Idx → BitVec 32) (ix1 e)
      = Cert.Stages.extend (fun r e' => (W (Proc.devRef .tc main_arg1) : S2x1600000.Idx → BitVec 32) (ix2 r e')) 1 e := by
  after_results
  unfold Cert.Stages.extend
  by_cases h : e.val < 1600000
  · rw [dif_pos h]
    rw [concatenate_pair_apply_left (t := S1700000) (s₁ := S1600000) (s₂ := S100000) (0 : Fin 1) _ _ concatenates_S1600000_S100000_S1700000_d0 (ix1 e) rfl (ix1 (⟨e.val, h⟩ : Fin 1600000))
      (by intro b; match b with | ⟨0, _⟩ => rfl)]
    show shapeCast S1600000 (extractStridedSlice S1x1600000 ![1, 0] (W (Proc.devRef .tc main_arg1)) slices_S2x1600000_S1x1600000_1_0)
        shapeCasts_S1x1600000_S1600000 (ix1 (⟨e.val, h⟩ : Fin 1600000)) = _
    rw [shapeCast_1a_a_apply, slice2_axis0_apply 1 _ _ (0 : Fin 1) (⟨e.val, h⟩ : Fin 1600000) (1 : Fin 2) rfl]
  · rw [dif_neg h]
    have he : e.val < 1700000 := e.isLt
    rw [concatenate_pair_apply_right (t := S1700000) (s₁ := S1600000) (s₂ := S100000) (0 : Fin 1) _ _ concatenates_S1600000_S100000_S1700000_d0 (ix1 e) rfl rfl
      (ix1 (⟨e.val - 1600000, by omega⟩ : Fin 100000))
      (by intro b hb; match b with | ⟨0, _⟩ => exact absurd rfl hb)
      (by show e.val - 1600000 + 1600000 = e.val; omega)]
    rfl

end Cert.KernelIdeal.HandVal

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.KIVal.Host0.lean ====
/-
  The first three host stretches read at an index, for any contents of the buffers each starts from. The first
  builds the extended edge list and counts, per node, the edges landing on it (ones summed by target into zeros),
  compares the count with zero, and takes the reciprocal square root of the larger of the count and one; the
  second selects that root where the count is positive and zero elsewhere; the third reshapes the factor to a
  column and the bias, scale and shift vectors to rows.
-/
import proofs.«156713_j13589276524898_2_alg».proof.Proof.KIVal.Host2
import proofs.«156713_j13589276524898_2_alg».proof.Proof.KIVal.HostWords
import proofs.«156713_j13589276524898_2_alg».proof.Proof.LibGcnStage
import proofs.«156713_j13589276524898_2_alg».proof.Proof.LibAfterAssign

set_option maxRecDepth 16384

noncomputable section

open scoped BigOperators

namespace Cert.KernelIdeal.HandVal

open Cert.KernelIdeal Cert.KernelIdeal.Gen
open Idealize.ShloMosaic Idealize.ShloMosaic.TcCoe Idealize.ShloMosaic.ValueIdx Idealize.SL.Sem Idealize.ShloMosaic.StableHlo

open Cert.LibIndexRead Cert.LibGcnStage

/-- The extended list's endpoint words read off the edge array the contents `W` hold. -/
def gW (W : Valuation τ sig (Elt Ideal)) : Fin 2 → Fin Cert.Stages.nE → BitVec 32 :=
  Cert.Stages.extend (fun r e' => (W (Proc.devRef .tc main_arg1) : S2x1600000.Idx → BitVec 32) (ix2 r e'))

open Cert.Lib.AfterAssign

/-- The buffers the first stretch writes, in order: its `k`-th operation writes the `k`-th of them. -/
abbrev ws0 : List (Ref sig .tc) :=
  [main_v0, main_v1, main_v2, main_v3, main_v4, main_v5, main_v6, main_cst, main_v7, main_cst_0, main_v8, main_v9, main_v10,
   main_cst_1, main_v11, main_v12, main_cst_2, main_v13, main_v14, main_v15, main_cst_3]

theorem writes0 : WritesAre (hostOps0 (F := Ideal)) ws0 := by
  simp only [WritesAre]; repeat' constructor

/-- The host's elementwise reciprocal square root read at an index. -/
theorem hostRsqrt_apply {s : Shape} (x : FVec Ideal s .f32) (i : s.Idx) :
    Host.rsqrt (F := Ideal) x i = Ideal.rsqrt (x i) := rfl

section First
variable (W : Valuation τ sig (Elt Ideal))

/-! The stretch's own equations, one per operation used: each result buffer holds, after the stretch, its
operation's function of what the operand buffers hold after the stretch. -/

theorem eq_cst : (after (hostOps0 (F := Ideal)) W (Proc.devRef .tc main_cst) : S_.Idx → EReal) = constant (F := Ideal) S_ .f32 0x3F800000#32 :=
  after_nullary writes0 7 rfl W (by decide)
theorem eq_v7 : (after (hostOps0 (F := Ideal)) W (Proc.devRef .tc main_v7) : S1700000.Idx → EReal)
    = broadcastInDim S1700000 ![] bcast_S_S1700000 (after (hostOps0 (F := Ideal)) W (Proc.devRef .tc main_cst) : S_.Idx → EReal) :=
  after_unary writes0 8 rfl W (by decide) (by decide)
theorem eq_cst_0 : (after (hostOps0 (F := Ideal)) W (Proc.devRef .tc main_cst_0) : S_.Idx → EReal) = constant (F := Ideal) S_ .f32 0x00000000#32 :=
  after_nullary writes0 9 rfl W (by decide)
theorem eq_v8 : (after (hostOps0 (F := Ideal)) W (Proc.devRef .tc main_v8) : S100000.Idx → EReal)
    = broadcastInDim S100000 ![] bcast_S_S100000 (after (hostOps0 (F := Ideal)) W (Proc.devRef .tc main_cst_0) : S_.Idx → EReal) :=
  after_unary writes0 10 rfl W (by decide) (by decide)
theorem eq_v9 : (after (hostOps0 (F := Ideal)) W (Proc.devRef .tc main_v9) : S1700000x1.Idx → BitVec 32)
    = broadcastInDim S1700000x1 ![0] bcast_S1700000_S1700000x1_0 (after (hostOps0 (F := Ideal)) W (Proc.devRef .tc main_v6) : S1700000.Idx → BitVec 32) :=
  after_unary writes0 11 rfl W (by decide) (by decide)
theorem eq_v10 : (after (hostOps0 (F := Ideal)) W (Proc.devRef .tc main_v10) : S100000.Idx → EReal)
    = Host.scatterAdd (F := Ideal) (φ := .f32) scatter_S100000_S1700000x1_S1700000_n_0_0_1 (after (hostOps0 (F := Ideal)) W (Proc.devRef .tc main_v8) : S100000.Idx → EReal)
        (after (hostOps0 (F := Ideal)) W (Proc.devRef .tc main_v9) : S1700000x1.Idx → BitVec 32) (after (hostOps0 (F := Ideal)) W (Proc.devRef .tc main_v7) : S1700000.Idx → EReal) :=
  after_ternary writes0 12 rfl W (by decide) (by decide) (by decide) (by decide)
theorem eq_cst_1 : (after (hostOps0 (F := Ideal)) W (Proc.devRef .tc main_cst_1) : S_.Idx → EReal) = constant (F := Ideal) S_ .f32 0x00000000#32 :=
  after_nullary writes0 13 rfl W (by decide)
theorem eq_v11 : (after (hostOps0 (F := Ideal)) W (Proc.devRef .tc main_v11) : S100000.Idx → EReal)
    = broadcastInDim S100000 ![] bcast_S_S100000 (after (hostOps0 (F := Ideal)) W (Proc.devRef .tc main_cst_1) : S_.Idx → EReal) :=
  after_unary writes0 14 rfl W (by decide) (by decide)
theorem eq_v12 : (after (hostOps0 (F := Ideal)) W (Proc.devRef .tc main_v12) : S100000.Idx → BitVec 1)
    = cmpf (F := Ideal) (s := S100000) (φ := .f32) .ogt (after (hostOps0 (F := Ideal)) W (Proc.devRef .tc main_v10) : S100000.Idx → EReal) (after (hostOps0 (F := Ideal)) W (Proc.devRef .tc main_v11) : S100000.Idx → EReal) :=
  after_binary writes0 15 rfl W (by decide) (by decide) (by decide)
theorem eq_cst_2 : (after (hostOps0 (F := Ideal)) W (Proc.devRef .tc main_cst_2) : S_.Idx → EReal) = constant (F := Ideal) S_ .f32 0x3F800000#32 :=
  after_nullary writes0 16 rfl W (by decide)
theorem eq_v13 : (after (hostOps0 (F := Ideal)) W (Proc.devRef .tc main_v13) : S100000.Idx → EReal)
    = broadcastInDim S100000 ![] bcast_S_S100000 (after (hostOps0 (F := Ideal)) W (Proc.devRef .tc main_cst_2) : S_.Idx → EReal) :=
  after_unary writes0 17 rfl W (by decide) (by decide)
theorem eq_v14 : (after (hostOps0 (F := Ideal)) W (Proc.devRef .tc main_v14) : S100000.Idx → EReal)
    = maximumf (F := Ideal) (s := S100000) (φ := .f32) (after (hostOps0 (F := Ideal)) W (Proc.devRef .tc main_v10) : S100000.Idx → EReal) (after (hostOps0 (F := Ideal)) W (Proc.devRef .tc main_v13) : S100000.Idx → EReal) :=
  after_binary writes0 18 rfl W (by decide) (by decide) (by decide)
theorem eq_v15 : (after (hostOps0 (F := Ideal)) W (Proc.devRef .tc main_v15) : S100000.Idx → EReal)
    = Host.rsqrt (F := Ideal) (φ := .f32) (after (hostOps0 (F := Ideal)) W (Proc.devRef .tc main_v14) : S100000.Idx → EReal) :=
  after_unary writes0 19 rfl W (by decide) (by decide)
theorem eq_cst_3 : (after (hostOps0 (F := Ideal)) W (Proc.devRef .tc main_cst_3) : S_.Idx → EReal) = constant (F := Ideal) S_ .f32 0x00000000#32 :=
  after_nullary writes0 20 rfl W (by decide)

/-- The degree: zero plus one per edge of the extended list landing on the node. -/
theorem host0_deg (i : Fin 100000) :
    (after (hostOps0 (F := Ideal)) W (Proc.devRef .tc main_v10) : S100000.Idx → EReal) (ix1 i) = Cert.Stages.deg (gW W) i := by
  rw [eq_v10, eq_v9, eq_v8, eq_cst_0, eq_v7, eq_cst]
  refine (hscat1 scatter_S100000_S1700000x1_S1700000_n_0_0_1_wf (by decide) bcast_S1700000_S1700000x1_0 _ _ _ i).trans ?_
  unfold Cert.Stages.deg Cert.Stages.into
  refine congrArg₂ (· + ·) ((bcastK _ _ _).trans rfl) ?_
  refine sum_filter_congr' _ _ _ (fun e => by rw [words1_apply W e]; rfl) _ _ (fun e => (bcastK _ _ _).trans rfl)

/-- Whether the degree is positive. -/
theorem host0_pos (i : Fin 100000) :
    (after (hostOps0 (F := Ideal)) W (Proc.devRef .tc main_v12) : S100000.Idx → BitVec 1) (ix1 i)
      = FloatOps.cmpf (F := Ideal) (φ := .f32) .ogt (Cert.Stages.deg (gW W) i) Cert.Stages.zero := by
  rw [eq_v12]
  refine (cmpf_apply _ _ _ _).trans ?_
  rw [host0_deg, eq_v11, eq_cst_1, bcastK]
  rfl

/-- The reciprocal square root of the larger of the degree and one. -/
theorem host0_rs (i : Fin 100000) :
    (after (hostOps0 (F := Ideal)) W (Proc.devRef .tc main_v15) : S100000.Idx → EReal) (ix1 i)
      = Ideal.rsqrt (max (Cert.Stages.deg (gW W) i) Cert.Stages.one) := by
  rw [eq_v15]
  refine (hostRsqrt_apply _ _).trans ?_
  rw [eq_v14]
  refine congrArg Ideal.rsqrt ((maximumf_apply _ _ _).trans ?_)
  rw [host0_deg, eq_v13, eq_cst_2, bcastK]
  rfl

/-- The zero the select falls back to. -/
theorem host0_cst3 :
    (after (hostOps0 (F := Ideal)) W (Proc.devRef .tc main_cst_3) : S_.Idx → EReal) ix0 = Cert.Stages.zero := by
  rw [eq_cst_3]; rfl

end First

section Second
variable (W1 : Valuation τ sig (Elt Ideal))

/-- The select of the second stretch as the operations' term. -/
theorem where_term :
    (after (hostOps0_1 (F := Ideal)) W1 (Proc.devRef .tc main_v16) : S100000.Idx → EReal)
      = select (W1 (Proc.devRef .tc main_v12) : S100000.Idx → BitVec 1) (W1 (Proc.devRef .tc main_v15) : S100000.Idx → EReal)
          (broadcastInDim S100000 ![] bcast_S_S100000 (id (W1 (Proc.devRef .tc main_cst_3) : S_.Idx → EReal))) := by
  dsimp only [hostOps0_1]; after_results; rfl

theorem host01_where (i : Fin 100000) :
    (after (hostOps0_1 (F := Ideal)) W1 (Proc.devRef .tc main_v16) : S100000.Idx → EReal) (ix1 i)
      = Scalar.select ((W1 (Proc.devRef .tc main_v12) : S100000.Idx → BitVec 1) (ix1 i))
          ((W1 (Proc.devRef .tc main_v15) : S100000.Idx → EReal) (ix1 i))
          ((W1 (Proc.devRef .tc main_cst_3) : S_.Idx → EReal) ix0) := by
  rw [where_term]
  refine (select_apply _ _ _ _).trans ?_
  rw [bcastK]; rfl

end Second

section Third
variable (W2 : Valuation τ sig (Elt Ideal))

/-- The factor reshaped to a column reads the factor. -/
theorem host02_col (i : Fin 100000) :
    (after (hostOps0_2 (F := Ideal)) W2 (Proc.devRef .tc main_v17) : S100000x1.Idx → EReal) (ix2 i (0 : Fin 1))
      = (W2 (Proc.devRef .tc main_v16) : S100000.Idx → EReal) (ix1 i) := by
  after_results
  exact reshape_col shapeCasts_S100000_S100000x1 _ i 0

/-- A 128-vector reshaped to a row reads the vector: the first layer's bias, scale and shift and the second's. -/
theorem host02_row18 (k : Fin 128) :
    (after (hostOps0_2 (F := Ideal)) W2 (Proc.devRef .tc main_v18) : S1x128.Idx → EReal) (ix2 (0 : Fin 1) k)
      = (W2 (Proc.devRef .tc main_arg3) : S128.Idx → EReal) (ix1 k) := by
  after_results
  exact reshape_row shapeCasts_S128_S1x128 _ 0 k

theorem host02_row19 (k : Fin 128) :
    (after (hostOps0_2 (F := Ideal)) W2 (Proc.devRef .tc main_v19) : S1x128.Idx → EReal) (ix2 (0 : Fin 1) k)
      = (W2 (Proc.devRef .tc main_arg4) : S128.Idx → EReal) (ix1 k) := by
  after_results
  exact reshape_row shapeCasts_S128_S1x128 _ 0 k

theorem host02_row20 (k : Fin 128) :
    (after (hostOps0_2 (F := Ideal)) W2 (Proc.devRef .tc main_v20) : S1x128.Idx → EReal) (ix2 (0 : Fin 1) k)
      = (W2 (Proc.devRef .tc main_arg5) : S128.Idx → EReal) (ix1 k) := by
  after_results
  exact reshape_row shapeCasts_S128_S1x128 _ 0 k

theorem host02_row21 (k : Fin 128) :
    (after (hostOps0_2 (F := Ideal)) W2 (Proc.devRef .tc main_v21) : S1x128.Idx → EReal) (ix2 (0 : Fin 1) k)
      = (W2 (Proc.devRef .tc main_arg7) : S128.Idx → EReal) (ix1 k) := by
  after_results
  exact reshape_row shapeCasts_S128_S1x128 _ 0 k

theorem host02_row22 (k : Fin 128) :
    (after (hostOps0_2 (F := Ideal)) W2 (Proc.devRef .tc main_v22) : S1x128.Idx → EReal) (ix2 (0 : Fin 1) k)
      = (W2 (Proc.devRef .tc main_arg8) : S128.Idx → EReal) (ix1 k) := by
  after_results
  exact reshape_row shapeCasts_S128_S1x128 _ 0 k

theorem host02_row23 (k : Fin 128) :
    (after (hostOps0_2 (F := Ideal)) W2 (Proc.devRef .tc main_v23) : S1x128.Idx → EReal) (ix2 (0 : Fin 1) k)
      = (W2 (Proc.devRef .tc main_arg9) : S128.Idx → EReal) (ix1 k) := by
  after_results
  exact reshape_row shapeCasts_S128_S1x128 _ 0 k

/-- The classifier's bias reshaped to a row reads the bias. -/
theorem host02_row24 (k : Fin 64) :
    (after (hostOps0_2 (F := Ideal)) W2 (Proc.devRef .tc main_v24) : S1x64.Idx → EReal) (ix2 (0 : Fin 1) k)
      = (W2 (Proc.devRef .tc main_arg11) : S64.Idx → EReal) (ix1 k) := by
  after_results
  exact reshape_row shapeCasts_S64_S1x64 _ 0 k

end Third

/-- The three stretches in a row: the factor column holds the degree factor of the extended list. -/
theorem host0_dinv (W : Valuation τ sig (Elt Ideal)) (i : Fin 100000) :
    (after (hostOps0_2 (F := Ideal)) (after (hostOps0_1 (F := Ideal)) (after (hostOps0 (F := Ideal)) W))
        (Proc.devRef .tc main_v17) : S100000x1.Idx → EReal) (ix2 i (0 : Fin 1))
      = Cert.Stages.dinv (gW W) i := by
  rw [host02_col, host01_where, host0_pos, host0_rs, host0_cst3]
  rfl

end Cert.KernelIdeal.HandVal

end
-- ==== Proof.KIVal.Host0W.lean ====
/-
  The buffers the first dense region starts from, after the first three host stretches, in terms of the launch
  memory: the extended endpoint words, the degree factor as a column, and the bias, scale and shift rows.
-/
import proofs.«156713_j13589276524898_2_alg».proof.Proof.KIVal.Host0
import proofs.«156713_j13589276524898_2_alg».proof.Proof.KIVal.Args
import proofs.«156713_j13589276524898_2_alg».proof.Proof.KI.Run

set_option maxRecDepth 16384

noncomputable section

open scoped BigOperators

namespace Cert.KernelIdeal.HandVal

open Cert.KernelIdeal Cert.KernelIdeal.Gen
open Idealize.ShloMosaic Idealize.ShloMosaic.TcCoe Idealize.ShloMosaic.ValueIdx Idealize.SL.Sem Idealize.ShloMosaic.StableHlo

open Cert.LibIndexRead Cert.LibGcnStage Cert.KernelIdeal.Hand

variable (m : (ℓ : Loc nD τ sig) → Buf (Elt Ideal) ℓ) (c : Dev nD)

/-- The extended list read off the launch contents is the one the arguments name. -/
theorem gW_W0 : gW (W0 (F := Ideal) m c) = gOf m c := rfl

theorem W3_v3 (e : Fin 1700000) :
    (W3 (F := Ideal) m c (Proc.devRef .tc main_v3) : S1700000.Idx → BitVec 32) (ix1 e) = gOf m c 0 e := by
  have h3 := W3_keep (F := Ideal) m c main_v3 (by decide)
  have h2 := W2_keep (F := Ideal) m c main_v3 (by decide)
  rw [h3, h2]
  exact words0_apply (W0 (F := Ideal) m c) e

theorem W3_v6 (e : Fin 1700000) :
    (W3 (F := Ideal) m c (Proc.devRef .tc main_v6) : S1700000.Idx → BitVec 32) (ix1 e) = gOf m c 1 e := by
  have h3 := W3_keep (F := Ideal) m c main_v6 (by decide)
  have h2 := W2_keep (F := Ideal) m c main_v6 (by decide)
  rw [h3, h2]
  exact words1_apply (W0 (F := Ideal) m c) e

theorem W3_v17 (i : Fin 100000) :
    (W3 (F := Ideal) m c (Proc.devRef .tc main_v17) : S100000x1.Idx → EReal) (ix2 i (0 : Fin 1))
      = Cert.Stages.dinv (gOf m c) i :=
  host0_dinv (W0 (F := Ideal) m c) i

theorem W3_v18 (k : Fin 128) :
    (W3 (F := Ideal) m c (Proc.devRef .tc main_v18) : S1x128.Idx → EReal) (ix2 (0 : Fin 1) k) = b1Of m c k := by
  refine (host02_row18 (W2 (F := Ideal) m c) k).trans ?_
  rw [W2_keep (F := Ideal) m c main_arg3 (by decide), W1_keep (F := Ideal) m c main_arg3 (by decide)]
  rfl

theorem W3_v19 (k : Fin 128) :
    (W3 (F := Ideal) m c (Proc.devRef .tc main_v19) : S1x128.Idx → EReal) (ix2 (0 : Fin 1) k) = g1Of m c k := by
  refine (host02_row19 (W2 (F := Ideal) m c) k).trans ?_
  rw [W2_keep (F := Ideal) m c main_arg4 (by decide), W1_keep (F := Ideal) m c main_arg4 (by decide)]
  rfl

theorem W3_v20 (k : Fin 128) :
    (W3 (F := Ideal) m c (Proc.devRef .tc main_v20) : S1x128.Idx → EReal) (ix2 (0 : Fin 1) k) = be1Of m c k := by
  refine (host02_row20 (W2 (F := Ideal) m c) k).trans ?_
  rw [W2_keep (F := Ideal) m c main_arg5 (by decide), W1_keep (F := Ideal) m c main_arg5 (by decide)]
  rfl

theorem W3_v21 (k : Fin 128) :
    (W3 (F := Ideal) m c (Proc.devRef .tc main_v21) : S1x128.Idx → EReal) (ix2 (0 : Fin 1) k) = b2Of m c k := by
  refine (host02_row21 (W2 (F := Ideal) m c) k).trans ?_
  rw [W2_keep (F := Ideal) m c main_arg7 (by decide), W1_keep (F := Ideal) m c main_arg7 (by decide)]
  rfl

theorem W3_v22 (k : Fin 128) :
    (W3 (F := Ideal) m c (Proc.devRef .tc main_v22) : S1x128.Idx → EReal) (ix2 (0 : Fin 1) k) = g2Of m c k := by
  refine (host02_row22 (W2 (F := Ideal) m c) k).trans ?_
  rw [W2_keep (F := Ideal) m c main_arg8 (by decide), W1_keep (F := Ideal) m c main_arg8 (by decide)]
  rfl

theorem W3_v23 (k : Fin 128) :
    (W3 (F := Ideal) m c (Proc.devRef .tc main_v23) : S1x128.Idx → EReal) (ix2 (0 : Fin 1) k) = be2Of m c k := by
  refine (host02_row23 (W2 (F := Ideal) m c) k).trans ?_
  rw [W2_keep (F := Ideal) m c main_arg9 (by decide), W1_keep (F := Ideal) m c main_arg9 (by decide)]
  rfl

theorem W3_v24 (k : Fin 64) :
    (W3 (F := Ideal) m c (Proc.devRef .tc main_v24) : S1x64.Idx → EReal) (ix2 (0 : Fin 1) k) = bcOf m c k := by
  refine (host02_row24 (W2 (F := Ideal) m c) k).trans ?_
  rw [W2_keep (F := Ideal) m c main_arg11 (by decide), W1_keep (F := Ideal) m c main_arg11 (by decide)]
  rfl

end Cert.KernelIdeal.HandVal

end
-- ==== Proof.KIVal.Host1.lean ====
/-
  The two host stretches between a dense region and the statistics region that follows it, read at an index for
  any contents of the buffers they start from: the source words wrapped when negative, the rows of the dense
  region's output gathered by source, widened (the identity on exact values), and summed by target into zeros —
  the plain sum over the edges landing on a node of the source's row.
-/
import proofs.«156713_j13589276524898_2_alg».proof.Proof.KIVal.Host2
import proofs.«156713_j13589276524898_2_alg».proof.Proof.LibGcnStage

set_option maxRecDepth 16384

noncomputable section

open scoped BigOperators

namespace Cert.KernelIdeal.HandVal

open Cert.KernelIdeal Cert.KernelIdeal.Gen
open Idealize.ShloMosaic Idealize.ShloMosaic.TcCoe Idealize.ShloMosaic.ValueIdx Idealize.SL.Sem Idealize.ShloMosaic.StableHlo

open Cert.LibIndexRead Cert.LibGcnStage

variable (Wb : Valuation τ sig (Elt Ideal))

/-- The first aggregation stretch's result as the operations' term. -/
theorem agg1_term :
    (after (hostOps1 (F := Ideal)) Wb (Proc.devRef .tc main_v36) : S100000x128.Idx → EReal)
      = Host.scatterAdd (F := Ideal) scatter_S100000x128_S1700000x1_S1700000x128_1_0_0_1
          (broadcastInDim S100000x128 ![] bcast_S_S100000x128 (constant (F := Ideal) S_ .f32 0x00000000#32))
          (broadcastInDim S1700000x1 ![0] bcast_S1700000_S1700000x1_0 (Wb (Proc.devRef .tc main_v6) : S1700000.Idx → BitVec 32))
          (extf (F := Ideal) .f32
            (Host.gather gather_S100000x128_S1700000x1_S1700000x128_1_0_n_n_0_1_1128
              (Wb (Proc.devRef .tc main_v25) : S100000x128.Idx → Ideal .bf16)
              (broadcastInDim S1700000x1 ![0] bcast_S1700000_S1700000x1_0
                (select
                  (cmpi .slt (Wb (Proc.devRef .tc main_v3) : S1700000.Idx → BitVec 32)
                    (broadcastInDim S1700000 ![] bcast_S_S1700000 (constantI S_ 32 0#32)))
                  (addi (Wb (Proc.devRef .tc main_v3) : S1700000.Idx → BitVec 32)
                    (broadcastInDim S1700000 ![] bcast_S_S1700000 (constantI S_ 32 100000#32)))
                  (Wb (Proc.devRef .tc main_v3) : S1700000.Idx → BitVec 32))))
            bitsLt_bf16_f32) := by
  after_results_simp

/-- A word list wrapped when negative, read at an edge. -/
theorem wrapK_apply (M : BitVec 32) (w : IVec S1700000 32) (e : Fin 1700000) :
    select (cmpi .slt w (broadcastInDim S1700000 ![] bcast_S_S1700000 (constantI S_ 32 0#32)))
        (addi w (broadcastInDim S1700000 ![] bcast_S_S1700000 (constantI S_ 32 M))) w (ix1 e)
      = wrapNeg M (w (ix1 e)) := rfl

/-- The generic reading: rows of `X` gathered by the wrapped words `sw`, widened, summed by the words `dw` into zeros. -/
theorem aggTerm_apply (g : Fin 2 → Fin Cert.Stages.nE → BitVec 32) (P : Cert.Stages.Mat 100000 128)
    (sw dw : IVec S1700000 32) (X : S100000x128.Idx → Ideal .bf16)
    (hs : ∀ e : Fin 1700000, sw (ix1 e) = g 0 e) (hd : ∀ e : Fin 1700000, dw (ix1 e) = g 1 e)
    (hP : ∀ i k, X (ix2 i k) = P i k) (i : Fin 100000) (j : Fin 128) :
    Host.scatterAdd (F := Ideal) scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 dw)
        (extf (F := Ideal) .f32
          (Host.gather gather_S100000x128_S1700000x1_S1700000x128_1_0_n_n_0_1_1128 X
            (broadcastInDim S1700000x1 ![0] bcast_S1700000_S1700000x1_0
              (select (cmpi .slt sw (broadcastInDim S1700000 ![] bcast_S_S1700000 (constantI S_ 32 0#32)))
                (addi sw (broadcastInDim S1700000 ![] bcast_S_S1700000 (constantI S_ 32 100000#32))) sw)))
          bitsLt_bf16_f32) (ix2 i j)
      = Cert.Stages.aggK g P i j := by
  refine (hscat2 scatter_S100000x128_S1700000x1_S1700000x128_1_0_0_1_wf (by decide) bcast_S1700000_S1700000x1_0 _ _ _ i j).trans ?_
  unfold Cert.Stages.aggK Cert.Stages.into
  refine congrArg₂ (· + ·) ((bcastK _ _ _).trans rfl) ?_
  refine sum_filter_congr' _ _ _ (fun e => by rw [hd e]) _ _ (fun e => ?_)
  refine (extf_apply (φ := .bf16) (ψ := .f32) _ bitsLt_bf16_f32 _).trans ?_
  refine (hgath2 Cert.Stages.nN_pos gather_S100000x128_S1700000x1_S1700000x128_1_0_n_n_0_1_1128_wf (by decide)
    bcast_S1700000_S1700000x1_0 X _ e j).trans ?_
  rw [hP, wrapK_apply, hs]
  rfl

/-- After the first aggregation stretch the result holds the plain edge sums of the dense region's output. -/
theorem host1_agg (g : Fin 2 → Fin Cert.Stages.nE → BitVec 32) (P : Cert.Stages.Mat 100000 128)
    (hs : ∀ e : Fin 1700000, (Wb (Proc.devRef .tc main_v3) : S1700000.Idx → BitVec 32) (ix1 e) = g 0 e)
    (hd : ∀ e : Fin 1700000, (Wb (Proc.devRef .tc main_v6) : S1700000.Idx → BitVec 32) (ix1 e) = g 1 e)
    (hP : ∀ i k, (Wb (Proc.devRef .tc main_v25) : S100000x128.Idx → EReal) (ix2 i k) = P i k)
    (i : Fin 100000) (j : Fin 128) :
    (after (hostOps1 (F := Ideal)) Wb (Proc.devRef .tc main_v36) : S100000x128.Idx → EReal) (ix2 i j)
      = Cert.Stages.aggK g P i j := by
  rw [agg1_term]
  exact aggTerm_apply g P _ _ _ hs hd hP i j

/-! ## The twin stretch after the second dense region -/

theorem agg3_term :
    (after (hostOps3 (F := Ideal)) Wb (Proc.devRef .tc main_v55) : S100000x128.Idx → EReal)
      = Host.scatterAdd (F := Ideal) scatter_S100000x128_S1700000x1_S1700000x128_1_0_0_1
          (broadcastInDim S100000x128 ![] bcast_S_S100000x128 (constant (F := Ideal) S_ .f32 0x00000000#32))
          (broadcastInDim S1700000x1 ![0] bcast_S1700000_S1700000x1_0 (Wb (Proc.devRef .tc main_v6) : S1700000.Idx → BitVec 32))
          (extf (F := Ideal) .f32
            (Host.gather gather_S100000x128_S1700000x1_S1700000x128_1_0_n_n_0_1_1128
              (Wb (Proc.devRef .tc main_v44) : S100000x128.Idx → Ideal .bf16)
              (broadcastInDim S1700000x1 ![0] bcast_S1700000_S1700000x1_0
                (select
                  (cmpi .slt (Wb (Proc.devRef .tc main_v3) : S1700000.Idx → BitVec 32)
                    (broadcastInDim S1700000 ![] bcast_S_S1700000 (constantI S_ 32 0#32)))
                  (addi (Wb (Proc.devRef .tc main_v3) : S1700000.Idx → BitVec 32)
                    (broadcastInDim S1700000 ![] bcast_S_S1700000 (constantI S_ 32 100000#32)))
                  (Wb (Proc.devRef .tc main_v3) : S1700000.Idx → BitVec 32))))
            bitsLt_bf16_f32) := by
  after_results_simp

theorem host3_agg (g : Fin 2 → Fin Cert.Stages.nE → BitVec 32) (P : Cert.Stages.Mat 100000 128)
    (hs : ∀ e : Fin 1700000, (Wb (Proc.devRef .tc main_v3) : S1700000.Idx → BitVec 32) (ix1 e) = g 0 e)
    (hd : ∀ e : Fin 1700000, (Wb (Proc.devRef .tc main_v6) : S1700000.Idx → BitVec 32) (ix1 e) = g 1 e)
    (hP : ∀ i k, (Wb (Proc.devRef .tc main_v44) : S100000x128.Idx → EReal) (ix2 i k) = P i k)
    (i : Fin 100000) (j : Fin 128) :
    (after (hostOps3 (F := Ideal)) Wb (Proc.devRef .tc main_v55) : S100000x128.Idx → EReal) (ix2 i j)
      = Cert.Stages.aggK g P i j := by
  rw [agg3_term]
  exact aggTerm_apply g P _ _ _ hs hd hP i j

end Cert.KernelIdeal.HandVal

end
-- ==== Proof.KIVal.HostFacts.lean ====
/-
  What the kernel program's host stretches compute, each read at an index, gathered into one record: the extended
  endpoint words, the degree factor column, the bias, scale and shift rows, the two plain edge sums, and the two
  pairs of column mean and variance.
-/
import proofs.«156713_j13589276524898_2_alg».proof.Proof.KIVal.ResultL1
import proofs.«156713_j13589276524898_2_alg».proof.Proof.KIVal.Host0W
import proofs.«156713_j13589276524898_2_alg».proof.Proof.KIVal.Host1

set_option maxRecDepth 16384

noncomputable section

open scoped BigOperators

namespace Cert.KernelIdeal.HandVal

open Cert.KernelIdeal Cert.KernelIdeal.Gen
open Idealize.ShloMosaic Idealize.ShloMosaic.TcCoe Idealize.ShloMosaic.ValueIdx Idealize.SL.Sem Idealize.ShloMosaic.StableHlo

open Cert.KernelIdeal.Hand

theorem hostFacts (m : (ℓ : Loc nD τ sig) → Buf (Elt Ideal) ℓ) (c : Dev nD) : HostFacts m c where
  src := W3_v3 m c
  dst := W3_v6 m c
  dinv := W3_v17 m c
  b1 := W3_v18 m c
  g1 := W3_v19 m c
  be1 := W3_v20 m c
  b2 := W3_v21 m c
  g2 := W3_v22 m c
  be2 := W3_v23 m c
  bc := W3_v24 m c
  agg1 := fun Wb g P hs hd hP i j => host1_agg Wb g P hs hd hP i j
  agg3 := fun Wb g P hs hd hP i j => host3_agg Wb g P hs hd hP i j
  stat2 := fun Wb Y hsum hsq j => ⟨host2_mean Wb Y hsum j, host2_var Wb Y hsum hsq j⟩
  stat4 := fun Wb Y hsum hsq j => ⟨host4_mean Wb Y hsum j, host4_var Wb Y hsum hsq j⟩

end Cert.KernelIdeal.HandVal

end
-- ==== Proof.KIVal.Result.lean ====
import proofs.«156713_j13589276524898_2_alg».proof.Proof.KIVal.ResultL3
import proofs.«156713_j13589276524898_2_alg».proof.Proof.KIVal.HostFacts

/-! # The kernel program's result

At the last boundary of the run the output buffer holds, entry by entry, the two-layer graph-convolution network of
the launch arguments in the kernels' grouping (`Cert.Stages.finalK`): the host stretches' values (`hostFacts`) put
into the composition of the regions' values (`result_of`). -/

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Cert.Stages

theorem result_eq (m : (ℓ : Loc nD τ sig) → Buf (Elt Ideal) ℓ) (c : Dev nD) (i : Fin 100000) (j : Fin 64) :
    (Cert.KernelIdeal.Hand.W12 m c (Proc.devRef .tc main_v63) : S100000x64.Idx → EReal) (ix2 i j)
      = Cert.Stages.finalK (gOf m c) (xOf m c) (w1Of m c) (b1Of m c) (g1Of m c) (be1Of m c) (w2Of m c) (b2Of m c) (g2Of m c)
          (be2Of m c) (wcOf m c) (bcOf m c) i j :=
  result_of m c (hostFacts m c) i j

end Cert.KernelIdeal.HandVal

end
-- ==== Proof.RefVal.Val.lean ====
/-
  The reference program read back one operation at a time.

  Every operation of @main writes a buffer of its own, so after the whole run each result buffer holds its
  operation's function of what the operand buffers hold after the whole run. This module fixes the name `val V r`
  for the contents of buffer `r` at the end of the run from the contents `V`, shows the run's operations and the
  buffers they write line up one to one, and gives the generic step that turns a line of the run into its equation.
-/
import proofs.«156713_j13589276524898_2_alg».proof.Proof.RefRun
import proofs.«156713_j13589276524898_2_alg».proof.Proof.LibAfterAssign
import Idealize.ShloMosaic.PureOps.Ideal

noncomputable section

namespace Cert.ReferenceIdeal.RefVal

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo
open Cert.Lib.AfterAssign

/-- The contents of every buffer, at the exact reals. -/
abbrev Vl : Type := Valuation τ sig (Elt Ideal)

/-- What buffer `r` holds after all of @main, from the contents `V`. -/
def val (V : Vl) (r : Ref sig .tc) : r.ty.Contents (Elt Ideal) :=
  after (ops (F := Ideal)) V (Proc.devRef .tc r)

theorem val_def (V : Vl) (r : Ref sig .tc) : val V r = after (ops (F := Ideal)) V (Proc.devRef .tc r) := rfl

/-- The buffers the run writes, in order. -/
abbrev written : List (Ref sig .tc) := written0 ++ (written1 ++ written2)

/-- Lists that line up one to one still do when put one after the other. -/
theorem writesAre_append {Val : EltTy → Type} {l₁ l₂ : List (HloOp τ sig Val)} {w₁ w₂ : List (Ref sig .tc)}
    (h₁ : WritesAre l₁ w₁) (h₂ : WritesAre l₂ w₂) : WritesAre (l₁ ++ l₂) (w₁ ++ w₂) := by
  induction l₁ generalizing w₁ with
  | nil =>
    cases w₁ with
    | nil => exact h₂
    | cons _ _ => exact False.elim h₁
  | cons op l ih =>
    cases w₁ with
    | nil => exact False.elim h₁
    | cons w ws => exact And.intro h₁.1 (ih h₁.2)

theorem writes0 : WritesAre (ops0 (F := Ideal)) written0 := by
  simp only [WritesAre]; repeat' constructor
theorem writes1 : WritesAre (ops1 (F := Ideal)) written1 := by
  simp only [WritesAre]; repeat' constructor
theorem writes2 : WritesAre (ops2 (F := Ideal)) written2 := by
  simp only [WritesAre]; repeat' constructor

/-- The run is in single-assignment form: its `k`-th operation writes the `k`-th buffer of `written`. -/
theorem writesAll : WritesAre (ops (F := Ideal)) written :=
  writesAre_append writes0 (writesAre_append writes1 writes2)

/-! ## The buffers' numbers: the run writes buffer number 12 + k at position k -/

/-- Every buffer of the list is numbered from `n` on, in order. -/
def numberedFrom : Nat → List (Ref sig .tc) → Bool
  | _, [] => true
  | n, r :: rs => r.idx.val == n && numberedFrom (n + 1) rs

theorem numbered_written : numberedFrom 12 written = true := by decide

theorem numbered_ge : ∀ {n : Nat} {l : List (Ref sig .tc)}, numberedFrom n l = true → ∀ r ∈ l, n ≤ r.idx.val
  | _, [], _, _, hr => absurd hr List.not_mem_nil
  | n, r :: rs, h, a, ha => by
    simp only [numberedFrom, Bool.and_eq_true, beq_iff_eq] at h
    rcases List.mem_cons.mp ha with rfl | ha
    · exact Nat.le_of_eq h.1.symm
    · exact Nat.le_of_succ_le (numbered_ge h.2 a ha)

theorem numbered_drop_ge : ∀ (k : Nat) {n : Nat} {l : List (Ref sig .tc)}, numberedFrom n l = true →
    ∀ r ∈ l.drop k, n + k ≤ r.idx.val
  | 0, _, _, h, r, hr => numbered_ge h r hr
  | _ + 1, _, [], _, _, hr => absurd hr List.not_mem_nil
  | k + 1, n, _ :: rs, h, r, hr => by
    simp only [numberedFrom, Bool.and_eq_true, beq_iff_eq] at h
    have := numbered_drop_ge k h.2 r hr
    omega

/-- A buffer whose number is below 12 + k is not written from position `k` on. -/
theorem not_written_from (k : Nat) {a : Ref sig .tc} (ha : a.idx.val < 12 + k) : a ∉ written.drop k :=
  fun hm => absurd (numbered_drop_ge k numbered_written a hm) (Nat.not_le.mpr ha)

/-! ## The generic step: a line of the run as an equation between final contents -/

section Step
variable {post : List (HloOp τ sig (Elt Ideal))} (V : Vl)

/-- A constant's buffer holds the constant. -/
theorem eqN (k : Nat) {y : Ref sig .tc} {v : y.ty.Contents (Elt Ideal)} {hy}
    (hk : (ops (F := Ideal)).drop k = nullary (τ := τ) y v hy :: post) (hyw : y.idx.val < 12 + (k + 1)) :
    val V y = v :=
  after_nullary writesAll k hk V (not_written_from _ hyw)

/-- A one-operand operation's result buffer holds its function of what the operand buffer holds. -/
theorem eqU (k : Nat) {x y : Ref sig .tc} {f : x.ty.Contents (Elt Ideal) → y.ty.Contents (Elt Ideal)} {hx hy}
    (hk : (ops (F := Ideal)).drop k = unary (τ := τ) x y f hx hy :: post)
    (hyw : y.idx.val < 12 + (k + 1)) (hxw : x.idx.val < 12 + k) :
    val V y = f (val V x) :=
  after_unary writesAll k hk V (not_written_from _ hyw) (not_written_from _ hxw)

/-- A two-operand operation, likewise. -/
theorem eqB (k : Nat) {a b y : Ref sig .tc}
    {f : a.ty.Contents (Elt Ideal) → b.ty.Contents (Elt Ideal) → y.ty.Contents (Elt Ideal)} {ha hb hy}
    (hk : (ops (F := Ideal)).drop k = binary (τ := τ) a b y f ha hb hy :: post)
    (hyw : y.idx.val < 12 + (k + 1)) (haw : a.idx.val < 12 + k) (hbw : b.idx.val < 12 + k) :
    val V y = f (val V a) (val V b) :=
  after_binary writesAll k hk V (not_written_from _ hyw) (not_written_from _ haw) (not_written_from _ hbw)

/-- A three-operand operation, likewise. -/
theorem eqT (k : Nat) {c a b y : Ref sig .tc}
    {f : c.ty.Contents (Elt Ideal) → a.ty.Contents (Elt Ideal) → b.ty.Contents (Elt Ideal) → y.ty.Contents (Elt Ideal)}
    {hc ha hb hy} (hk : (ops (F := Ideal)).drop k = ternary (τ := τ) c a b y f hc ha hb hy :: post)
    (hyw : y.idx.val < 12 + (k + 1)) (hcw : c.idx.val < 12 + k) (haw : a.idx.val < 12 + k) (hbw : b.idx.val < 12 + k) :
    val V y = f (val V c) (val V a) (val V b) :=
  after_ternary writesAll k hk V (not_written_from _ hyw) (not_written_from _ hcw) (not_written_from _ haw)
    (not_written_from _ hbw)

/-- A reshape's result buffer holds the operand buffer's contents in row-major order at the result's shape. -/
theorem eqR (k : Nat) {x y : Ref sig .tc} {he : x.ty.elt = y.ty.elt} {hn : x.ty.shape.ShapeCasts y.ty.shape} {hx hy}
    (hk : (ops (F := Ideal)).drop k = reshape (τ := τ) (Val := Elt Ideal) x y he hn hx hy :: post)
    (hyw : y.idx.val < 12 + (k + 1)) (hxw : x.idx.val < 12 + k) :
    val V y = fun i => he ▸ shapeCast y.ty.shape (val V x) hn i :=
  after_reshape writesAll k hk V (not_written_from _ hyw) (not_written_from _ hxw)

end Step

/-- A buffer the run never writes holds at the end what it held at the start. -/
theorem val_kept (V : Vl) {r : Ref sig .tc} (hr : r.idx.val < 12) : val V r = V (Proc.devRef .tc r) :=
  after_of_not_written writesAll V (not_written_from 0 hr)

end Cert.ReferenceIdeal.RefVal

end
-- ==== Proof.RefVal.Eqs0.lean ====
/- TABLE written by a script (scratch/gen_refeqs.js; invocation, from the unit directory: bun scratch/gen_refeqs.js $KIT/certs/proofs/156713_j13589276524898_2_alg proof/Proof/RefVal): window 0 of the reference run,
   one equation per operation in the order of RefOps.ops0: after the whole run the operation's result buffer holds the operation's function of
   what its operand buffers hold after the whole run. Each is the generic step of RefVal/Val.lean at the operation's position in the run;
   nothing else is argued here. -/
import proofs.«156713_j13589276524898_2_alg».proof.Proof.RefVal.Val

noncomputable section

namespace Cert.ReferenceIdeal.RefVal

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo

theorem e_v0 (V : Vl) : val V main_v0 = ((fun l r => Host.dotGeneral (F := Ideal) (φ₁ := .f32) (φ₂ := .f32) dot_S100000x128_S128x128_S100000x128_1_0_0_1_n_n none l r) : (⟨S100000x128, .f32⟩ : BufTy).Contents (Elt Ideal) → (⟨S128x128, .f32⟩ : BufTy).Contents (Elt Ideal) → (⟨S100000x128, .f32⟩ : BufTy).Contents (Elt Ideal)) (val V main_arg0) (val V main_arg2) :=
  eqB V 0 rfl (by decide) (by decide) (by decide)
theorem e_v1 (V : Vl) : val V main_v1 = iotaInDim S100000 32 0 :=
  eqN V 1 rfl (by decide)
theorem e_v2 (V : Vl) : val V main_v2 = ((fun u => extractStridedSlice S1x1600000 ![0, 0] u slices_S2x1600000_S1x1600000_0_0) : (⟨S2x1600000, .i32⟩ : BufTy).Contents (Elt Ideal) → (⟨S1x1600000, .i32⟩ : BufTy).Contents (Elt Ideal)) (val V main_arg1) :=
  eqU V 2 rfl (by decide) (by decide)
theorem e_v3 (V : Vl) : val V main_v3 = shapeCast S1600000 (val V main_v2 : (⟨S1x1600000, .i32⟩ : BufTy).Contents (Elt Ideal)) shapeCasts_S1x1600000_S1600000 :=
  eqR V 3 rfl (by decide) (by decide)
theorem e_v4 (V : Vl) : val V main_v4 = ((fun a b => concatenate S1700000 0 [⟨S1600000, a⟩, ⟨S100000, b⟩] concatenates_S1600000_S100000_S1700000_d0) : (⟨S1600000, .i32⟩ : BufTy).Contents (Elt Ideal) → (⟨S100000, .i32⟩ : BufTy).Contents (Elt Ideal) → (⟨S1700000, .i32⟩ : BufTy).Contents (Elt Ideal)) (val V main_v3) (val V main_v1) :=
  eqB V 4 rfl (by decide) (by decide) (by decide)
theorem e_v5 (V : Vl) : val V main_v5 = ((fun u => extractStridedSlice S1x1600000 ![1, 0] u slices_S2x1600000_S1x1600000_1_0) : (⟨S2x1600000, .i32⟩ : BufTy).Contents (Elt Ideal) → (⟨S1x1600000, .i32⟩ : BufTy).Contents (Elt Ideal)) (val V main_arg1) :=
  eqU V 5 rfl (by decide) (by decide)
theorem e_v6 (V : Vl) : val V main_v6 = shapeCast S1600000 (val V main_v5 : (⟨S1x1600000, .i32⟩ : BufTy).Contents (Elt Ideal)) shapeCasts_S1x1600000_S1600000 :=
  eqR V 6 rfl (by decide) (by decide)
theorem e_v7 (V : Vl) : val V main_v7 = ((fun a b => concatenate S1700000 0 [⟨S1600000, a⟩, ⟨S100000, b⟩] concatenates_S1600000_S100000_S1700000_d0) : (⟨S1600000, .i32⟩ : BufTy).Contents (Elt Ideal) → (⟨S100000, .i32⟩ : BufTy).Contents (Elt Ideal) → (⟨S1700000, .i32⟩ : BufTy).Contents (Elt Ideal)) (val V main_v6) (val V main_v1) :=
  eqB V 7 rfl (by decide) (by decide) (by decide)
theorem e_cst (V : Vl) : val V main_cst = constant (F := Ideal) S_ .f32 0x3F800000#32 :=
  eqN V 8 rfl (by decide)
theorem e_v8 (V : Vl) : val V main_v8 = ((broadcastInDim S1700000 ![] bcast_S_S1700000) : (⟨S_, .f32⟩ : BufTy).Contents (Elt Ideal) → (⟨S1700000, .f32⟩ : BufTy).Contents (Elt Ideal)) (val V main_cst) :=
  eqU V 9 rfl (by decide) (by decide)
theorem e_cst_0 (V : Vl) : val V main_cst_0 = constant (F := Ideal) S_ .f32 0x00000000#32 :=
  eqN V 10 rfl (by decide)
theorem e_v9 (V : Vl) : val V main_v9 = ((broadcastInDim S100000 ![] bcast_S_S100000) : (⟨S_, .f32⟩ : BufTy).Contents (Elt Ideal) → (⟨S100000, .f32⟩ : BufTy).Contents (Elt Ideal)) (val V main_cst_0) :=
  eqU V 11 rfl (by decide) (by decide)
theorem e_v10 (V : Vl) : val V main_v10 = ((broadcastInDim S1700000x1 ![0] bcast_S1700000_S1700000x1_0) : (⟨S1700000, .i32⟩ : BufTy).Contents (Elt Ideal) → (⟨S1700000x1, .i32⟩ : BufTy).Contents (Elt Ideal)) (val V main_v7) :=
  eqU V 12 rfl (by decide) (by decide)
theorem e_v11 (V : Vl) : val V main_v11 = ((fun x i u => Host.scatterAdd (F := Ideal) (φ := .f32) scatter_S100000_S1700000x1_S1700000_n_0_0_1 x i u) : (⟨S100000, .f32⟩ : BufTy).Contents (Elt Ideal) → (⟨S1700000x1, .i32⟩ : BufTy).Contents (Elt Ideal) → (⟨S1700000, .f32⟩ : BufTy).Contents (Elt Ideal) → (⟨S100000, .f32⟩ : BufTy).Contents (Elt Ideal)) (val V main_v9) (val V main_v10) (val V main_v8) :=
  eqT V 13 rfl (by decide) (by decide) (by decide) (by decide)
theorem e_cst_1 (V : Vl) : val V main_cst_1 = constant (F := Ideal) S_ .f32 0x00000000#32 :=
  eqN V 14 rfl (by decide)
theorem e_v12 (V : Vl) : val V main_v12 = ((broadcastInDim S100000 ![] bcast_S_S100000) : (⟨S_, .f32⟩ : BufTy).Contents (Elt Ideal) → (⟨S100000, .f32⟩ : BufTy).Contents (Elt Ideal)) (val V main_cst_1) :=
  eqU V 15 rfl (by decide) (by decide)
theorem e_v13 (V : Vl) : val V main_v13 = ((cmpf (F := Ideal) (φ := .f32) .ogt) : (⟨S100000, .f32⟩ : BufTy).Contents (Elt Ideal) → (⟨S100000, .f32⟩ : BufTy).Contents (Elt Ideal) → (⟨S100000, .i1⟩ : BufTy).Contents (Elt Ideal)) (val V main_v11) (val V main_v12) :=
  eqB V 16 rfl (by decide) (by decide) (by decide)
theorem e_cst_2 (V : Vl) : val V main_cst_2 = constant (F := Ideal) S_ .f32 0x3F800000#32 :=
  eqN V 17 rfl (by decide)
theorem e_v14 (V : Vl) : val V main_v14 = ((broadcastInDim S100000 ![] bcast_S_S100000) : (⟨S_, .f32⟩ : BufTy).Contents (Elt Ideal) → (⟨S100000, .f32⟩ : BufTy).Contents (Elt Ideal)) (val V main_cst_2) :=
  eqU V 18 rfl (by decide) (by decide)
theorem e_v15 (V : Vl) : val V main_v15 = ((maximumf (F := Ideal) (φ := .f32)) : (⟨S100000, .f32⟩ : BufTy).Contents (Elt Ideal) → (⟨S100000, .f32⟩ : BufTy).Contents (Elt Ideal) → (⟨S100000, .f32⟩ : BufTy).Contents (Elt Ideal)) (val V main_v11) (val V main_v14) :=
  eqB V 19 rfl (by decide) (by decide) (by decide)
theorem e_v16 (V : Vl) : val V main_v16 = ((Host.rsqrt (F := Ideal) (φ := .f32)) : (⟨S100000, .f32⟩ : BufTy).Contents (Elt Ideal) → (⟨S100000, .f32⟩ : BufTy).Contents (Elt Ideal)) (val V main_v15) :=
  eqU V 20 rfl (by decide) (by decide)
theorem e_cst_3 (V : Vl) : val V main_cst_3 = constant (F := Ideal) S_ .f32 0x00000000#32 :=
  eqN V 21 rfl (by decide)
theorem e_call0_v0 (V : Vl) : val V main_call0_v0 = ((id) : (⟨S_, .f32⟩ : BufTy).Contents (Elt Ideal) → (⟨S_, .f32⟩ : BufTy).Contents (Elt Ideal)) (val V main_cst_3) :=
  eqU V 22 rfl (by decide) (by decide)
theorem e_call0_v1 (V : Vl) : val V main_call0_v1 = ((broadcastInDim S100000 ![] bcast_S_S100000) : (⟨S_, .f32⟩ : BufTy).Contents (Elt Ideal) → (⟨S100000, .f32⟩ : BufTy).Contents (Elt Ideal)) (val V main_call0_v0) :=
  eqU V 23 rfl (by decide) (by decide)
theorem e_v17 (V : Vl) : val V main_v17 = ((select) : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) (val V main_v13) (val V main_v16) (val V main_call0_v1) :=
  eqT V 24 rfl (by decide) (by decide) (by decide) (by decide)
theorem e_c (V : Vl) : val V main_c = constantI S_ 32 0#32 :=
  eqN V 25 rfl (by decide)
theorem e_v18 (V : Vl) : val V main_v18 = ((broadcastInDim S1700000 ![] bcast_S_S1700000) : (⟨S_, .i32⟩ : BufTy).Contents (Elt Ideal) → (⟨S1700000, .i32⟩ : BufTy).Contents (Elt Ideal)) (val V main_c) :=
  eqU V 26 rfl (by decide) (by decide)
theorem e_v19 (V : Vl) : val V main_v19 = ((cmpi .slt) : (⟨S1700000, .i32⟩ : BufTy).Contents (Elt Ideal) → (⟨S1700000, .i32⟩ : BufTy).Contents (Elt Ideal) → (⟨S1700000, .i1⟩ : BufTy).Contents (Elt Ideal)) (val V main_v4) (val V main_v18) :=
  eqB V 27 rfl (by decide) (by decide) (by decide)
theorem e_c_4 (V : Vl) : val V main_c_4 = constantI S_ 32 100000#32 :=
  eqN V 28 rfl (by decide)
theorem e_v20 (V : Vl) : val V main_v20 = ((broadcastInDim S1700000 ![] bcast_S_S1700000) : (⟨S_, .i32⟩ : BufTy).Contents (Elt Ideal) → (⟨S1700000, .i32⟩ : BufTy).Contents (Elt Ideal)) (val V main_c_4) :=
  eqU V 29 rfl (by decide) (by decide)
theorem e_v21 (V : Vl) : val V main_v21 = ((addi) : (⟨S1700000, .i32⟩ : BufTy).Contents (Elt Ideal) → (⟨S1700000, .i32⟩ : BufTy).Contents (Elt Ideal) → (⟨S1700000, .i32⟩ : BufTy).Contents (Elt Ideal)) (val V main_v4) (val V main_v20) :=
  eqB V 30 rfl (by decide) (by decide) (by decide)
theorem e_v22 (V : Vl) : val V main_v22 = ((select) : (⟨S1700000, .i1⟩ : BufTy).Contents (Elt Ideal) → (⟨S1700000, .i32⟩ : BufTy).Contents (Elt Ideal) → (⟨S1700000, .i32⟩ : BufTy).Contents (Elt Ideal) → (⟨S1700000, .i32⟩ : BufTy).Contents (Elt Ideal)) (val V main_v19) (val V main_v21) (val V main_v4) :=
  eqT V 31 rfl (by decide) (by decide) (by decide) (by decide)
theorem e_v23 (V : Vl) : val V main_v23 = ((broadcastInDim S1700000x1 ![0] bcast_S1700000_S1700000x1_0) : (⟨S1700000, .i32⟩ : BufTy).Contents (Elt Ideal) → (⟨S1700000x1, .i32⟩ : BufTy).Contents (Elt Ideal)) (val V main_v22) :=
  eqU V 32 rfl (by decide) (by decide)
theorem e_v24 (V : Vl) : val V main_v24 = ((fun x i => Host.gather gather_S100000_S1700000x1_S1700000_n_0_n_n_0_1_1 x i) : (⟨S100000, .f32⟩ : BufTy).Contents (Elt Ideal) → (⟨S1700000x1, .i32⟩ : BufTy).Contents (Elt Ideal) → (⟨S1700000, .f32⟩ : BufTy).Contents (Elt Ideal)) (val V main_v17) (val V main_v23) :=
  eqB V 33 rfl (by decide) (by decide) (by decide)
theorem e_c_5 (V : Vl) : val V main_c_5 = constantI S_ 32 0#32 :=
  eqN V 34 rfl (by decide)
theorem e_v25 (V : Vl) : val V main_v25 = ((broadcastInDim S1700000 ![] bcast_S_S1700000) : (⟨S_, .i32⟩ : BufTy).Contents (Elt Ideal) → (⟨S1700000, .i32⟩ : BufTy).Contents (Elt Ideal)) (val V main_c_5) :=
  eqU V 35 rfl (by decide) (by decide)
theorem e_v26 (V : Vl) : val V main_v26 = ((cmpi .slt) : (⟨S1700000, .i32⟩ : BufTy).Contents (Elt Ideal) → (⟨S1700000, .i32⟩ : BufTy).Contents (Elt Ideal) → (⟨S1700000, .i1⟩ : BufTy).Contents (Elt Ideal)) (val V main_v7) (val V main_v25) :=
  eqB V 36 rfl (by decide) (by decide) (by decide)
theorem e_c_6 (V : Vl) : val V main_c_6 = constantI S_ 32 100000#32 :=
  eqN V 37 rfl (by decide)
theorem e_v27 (V : Vl) : val V main_v27 = ((broadcastInDim S1700000 ![] bcast_S_S1700000) : (⟨S_, .i32⟩ : BufTy).Contents (Elt Ideal) → (⟨S1700000, .i32⟩ : BufTy).Contents (Elt Ideal)) (val V main_c_6) :=
  eqU V 38 rfl (by decide) (by decide)
theorem e_v28 (V : Vl) : val V main_v28 = ((addi) : (⟨S1700000, .i32⟩ : BufTy).Contents (Elt Ideal) → (⟨S1700000, .i32⟩ : BufTy).Contents (Elt Ideal) → (⟨S1700000, .i32⟩ : BufTy).Contents (Elt Ideal)) (val V main_v7) (val V main_v27) :=
  eqB V 39 rfl (by decide) (by decide) (by decide)
theorem e_v29 (V : Vl) : val V main_v29 = ((select) : (⟨S1700000, .i1⟩ : BufTy).Contents (Elt Ideal) → (⟨S1700000, .i32⟩ : BufTy).Contents (Elt Ideal) → (⟨S1700000, .i32⟩ : BufTy).Contents (Elt Ideal) → (⟨S1700000, .i32⟩ : BufTy).Contents (Elt Ideal)) (val V main_v26) (val V main_v28) (val V main_v7) :=
  eqT V 40 rfl (by decide) (by decide) (by decide) (by decide)
theorem e_v30 (V : Vl) : val V main_v30 = ((broadcastInDim S1700000x1 ![0] bcast_S1700000_S1700000x1_0) : (⟨S1700000, .i32⟩ : BufTy).Contents (Elt Ideal) → (⟨S1700000x1, .i32⟩ : BufTy).Contents (Elt Ideal)) (val V main_v29) :=
  eqU V 41 rfl (by decide) (by decide)
theorem e_v31 (V : Vl) : val V main_v31 = ((fun x i => Host.gather gather_S100000_S1700000x1_S1700000_n_0_n_n_0_1_1 x i) : (⟨S100000, .f32⟩ : BufTy).Contents (Elt Ideal) → (⟨S1700000x1, .i32⟩ : BufTy).Contents (Elt Ideal) → (⟨S1700000, .f32⟩ : BufTy).Contents (Elt Ideal)) (val V main_v17) (val V main_v30) :=
  eqB V 42 rfl (by decide) (by decide) (by decide)
theorem e_v32 (V : Vl) : val V main_v32 = ((mulf (F := Ideal) (φ := .f32)) : (⟨S1700000, .f32⟩ : BufTy).Contents (Elt Ideal) → (⟨S1700000, .f32⟩ : BufTy).Contents (Elt Ideal) → (⟨S1700000, .f32⟩ : BufTy).Contents (Elt Ideal)) (val V main_v24) (val V main_v31) :=
  eqB V 43 rfl (by decide) (by decide) (by decide)
theorem e_c_7 (V : Vl) : val V main_c_7 = constantI S_ 32 0#32 :=
  eqN V 44 rfl (by decide)
theorem e_v33 (V : Vl) : val V main_v33 = ((broadcastInDim S1700000 ![] bcast_S_S1700000) : (⟨S_, .i32⟩ : BufTy).Contents (Elt Ideal) → (⟨S1700000, .i32⟩ : BufTy).Contents (Elt Ideal)) (val V main_c_7) :=
  eqU V 45 rfl (by decide) (by decide)
theorem e_v34 (V : Vl) : val V main_v34 = ((cmpi .slt) : (⟨S1700000, .i32⟩ : BufTy).Contents (Elt Ideal) → (⟨S1700000, .i32⟩ : BufTy).Contents (Elt Ideal) → (⟨S1700000, .i1⟩ : BufTy).Contents (Elt Ideal)) (val V main_v4) (val V main_v33) :=
  eqB V 46 rfl (by decide) (by decide) (by decide)
theorem e_c_8 (V : Vl) : val V main_c_8 = constantI S_ 32 100000#32 :=
  eqN V 47 rfl (by decide)
theorem e_v35 (V : Vl) : val V main_v35 = ((broadcastInDim S1700000 ![] bcast_S_S1700000) : (⟨S_, .i32⟩ : BufTy).Contents (Elt Ideal) → (⟨S1700000, .i32⟩ : BufTy).Contents (Elt Ideal)) (val V main_c_8) :=
  eqU V 48 rfl (by decide) (by decide)
theorem e_v36 (V : Vl) : val V main_v36 = ((addi) : (⟨S1700000, .i32⟩ : BufTy).Contents (Elt Ideal) → (⟨S1700000, .i32⟩ : BufTy).Contents (Elt Ideal) → (⟨S1700000, .i32⟩ : BufTy).Contents (Elt Ideal)) (val V main_v4) (val V main_v35) :=
  eqB V 49 rfl (by decide) (by decide) (by decide)
theorem e_v37 (V : Vl) : val V main_v37 = ((select) : (⟨S1700000, .i1⟩ : BufTy).Contents (Elt Ideal) → (⟨S1700000, .i32⟩ : BufTy).Contents (Elt Ideal) → (⟨S1700000, .i32⟩ : BufTy).Contents (Elt Ideal) → (⟨S1700000, .i32⟩ : BufTy).Contents (Elt Ideal)) (val V main_v34) (val V main_v36) (val V main_v4) :=
  eqT V 50 rfl (by decide) (by decide) (by decide) (by decide)
theorem e_v38 (V : Vl) : val V main_v38 = ((broadcastInDim S1700000x1 ![0] bcast_S1700000_S1700000x1_0) : (⟨S1700000, .i32⟩ : BufTy).Contents (Elt Ideal) → (⟨S1700000x1, .i32⟩ : BufTy).Contents (Elt Ideal)) (val V main_v37) :=
  eqU V 51 rfl (by decide) (by decide)
theorem e_v39 (V : Vl) : val V main_v39 = ((fun x i => Host.gather gather_S100000x128_S1700000x1_S1700000x128_1_0_n_n_0_1_1128 x i) : (⟨S100000x128, .f32⟩ : BufTy).Contents (Elt Ideal) → (⟨S1700000x1, .i32⟩ : BufTy).Contents (Elt Ideal) → (⟨S1700000x128, .f32⟩ : BufTy).Contents (Elt Ideal)) (val V main_v0) (val V main_v38) :=
  eqB V 52 rfl (by decide) (by decide) (by decide)
theorem e_v40 (V : Vl) : val V main_v40 = ((broadcastInDim S1700000x1 ![0] bcast_S1700000_S1700000x1_0) : (⟨S1700000, .f32⟩ : BufTy).Contents (Elt Ideal) → (⟨S1700000x1, .f32⟩ : BufTy).Contents (Elt Ideal)) (val V main_v32) :=
  eqU V 53 rfl (by decide) (by decide)
theorem e_v41 (V : Vl) : val V main_v41 = ((broadcastInDim S1700000x128 ![0, 1] bcast_S1700000x1_S1700000x128_0_1) : (⟨S1700000x1, .f32⟩ : BufTy).Contents (Elt Ideal) → (⟨S1700000x128, .f32⟩ : BufTy).Contents (Elt Ideal)) (val V main_v40) :=
  eqU V 54 rfl (by decide) (by decide)
theorem e_v42 (V : Vl) : val V main_v42 = ((mulf (F := Ideal) (φ := .f32)) : (⟨S1700000x128, .f32⟩ : BufTy).Contents (Elt Ideal) → (⟨S1700000x128, .f32⟩ : BufTy).Contents (Elt Ideal) → (⟨S1700000x128, .f32⟩ : BufTy).Contents (Elt Ideal)) (val V main_v39) (val V main_v41) :=
  eqB V 55 rfl (by decide) (by decide) (by decide)
theorem e_cst_9 (V : Vl) : val V main_cst_9 = constant (F := Ideal) S_ .f32 0x00000000#32 :=
  eqN V 56 rfl (by decide)
theorem e_v43 (V : Vl) : val V main_v43 = ((broadcastInDim S100000x128 ![] bcast_S_S100000x128) : (⟨S_, .f32⟩ : BufTy).Contents (Elt Ideal) → (⟨S100000x128, .f32⟩ : BufTy).Contents (Elt Ideal)) (val V main_cst_9) :=
  eqU V 57 rfl (by decide) (by decide)
theorem e_v44 (V : Vl) : val V main_v44 = ((broadcastInDim S1700000x1 ![0] bcast_S1700000_S1700000x1_0) : (⟨S1700000, .i32⟩ : BufTy).Contents (Elt Ideal) → (⟨S1700000x1, .i32⟩ : BufTy).Contents (Elt Ideal)) (val V main_v7) :=
  eqU V 58 rfl (by decide) (by decide)
theorem e_v45 (V : Vl) : val V main_v45 = ((fun x i u => Host.scatterAdd (F := Ideal) (φ := .f32) scatter_S100000x128_S1700000x1_S1700000x128_1_0_0_1 x i u) : (⟨S100000x128, .f32⟩ : BufTy).Contents (Elt Ideal) → (⟨S1700000x1, .i32⟩ : BufTy).Contents (Elt Ideal) → (⟨S1700000x128, .f32⟩ : BufTy).Contents (Elt Ideal) → (⟨S100000x128, .f32⟩ : BufTy).Contents (Elt Ideal)) (val V main_v43) (val V main_v44) (val V main_v42) :=
  eqT V 59 rfl (by decide) (by decide) (by decide) (by decide)
theorem e_v46 (V : Vl) : val V main_v46 = ((broadcastInDim S1x128 ![1] bcast_S128_S1x128_1) : (⟨S128, .f32⟩ : BufTy).Contents (Elt Ideal) → (⟨S1x128, .f32⟩ : BufTy).Contents (Elt Ideal)) (val V main_arg3) :=
  eqU V 60 rfl (by decide) (by decide)
theorem e_v47 (V : Vl) : val V main_v47 = ((broadcastInDim S100000x128 ![0, 1] bcast_S1x128_S100000x128_0_1) : (⟨S1x128, .f32⟩ : BufTy).Contents (Elt Ideal) → (⟨S100000x128, .f32⟩ : BufTy).Contents (Elt Ideal)) (val V main_v46) :=
  eqU V 61 rfl (by decide) (by decide)

end Cert.ReferenceIdeal.RefVal

end
-- ==== Proof.RefVal.Eqs1.lean ====
/- TABLE written by a script (scratch/gen_refeqs.js; invocation, from the unit directory: bun scratch/gen_refeqs.js $KIT/certs/proofs/156713_j13589276524898_2_alg proof/Proof/RefVal): window 1 of the reference run,
   one equation per operation in the order of RefOps.ops1: after the whole run the operation's result buffer holds the operation's function of
   what its operand buffers hold after the whole run. Each is the generic step of RefVal/Val.lean at the operation's position in the run;
   nothing else is argued here. -/
import proofs.«156713_j13589276524898_2_alg».proof.Proof.RefVal.Val

noncomputable section

namespace Cert.ReferenceIdeal.RefVal

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo

theorem e_v48 (V : Vl) : val V main_v48 = ((addf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_v45) (val V main_v47) :=
  eqB V 62 rfl (by decide) (by decide) (by decide)
theorem e_cst_10 (V : Vl) : val V main_cst_10 = constant (F := Ideal) S_ .f32 0x00000000#32 :=
  eqN V 63 rfl (by decide)
theorem e_v49 (V : Vl) : val V main_v49 = ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal)) (val V main_v48) (val V main_cst_10) :=
  eqB V 64 rfl (by decide) (by decide) (by decide)
theorem e_cst_11 (V : Vl) : val V main_cst_11 = constant (F := Ideal) S_ .f32 0x47C35000#32 :=
  eqN V 65 rfl (by decide)
theorem e_v50 (V : Vl) : val V main_v50 = ((broadcastInDim S128 ![] bcast_S_S128) : (⟨S_, .f32⟩ : BufTy).Contents (Elt Ideal) → (⟨S128, .f32⟩ : BufTy).Contents (Elt Ideal)) (val V main_cst_11) :=
  eqU V 66 rfl (by decide) (by decide)
theorem e_v51 (V : Vl) : val V main_v51 = ((Host.divf (F := Ideal) (φ := .f32)) : (⟨S128, .f32⟩ : BufTy).Contents (Elt Ideal) → (⟨S128, .f32⟩ : BufTy).Contents (Elt Ideal) → (⟨S128, .f32⟩ : BufTy).Contents (Elt Ideal)) (val V main_v49) (val V main_v50) :=
  eqB V 67 rfl (by decide) (by decide) (by decide)
theorem e_c_12 (V : Vl) : val V main_c_12 = constantI S_ 32 0#32 :=
  eqN V 68 rfl (by decide)
theorem e_call1_cst (V : Vl) : val V main_call1_cst = constant (F := Ideal) S_ .f32 0x00000000#32 :=
  eqN V 69 rfl (by decide)
theorem e_call1_v0 (V : Vl) : val V main_call1_v0 = ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal)) (val V main_v48) (val V main_call1_cst) :=
  eqB V 70 rfl (by decide) (by decide) (by decide)
theorem e_call1_v1 (V : Vl) : val V main_call1_v1 = ((broadcastInDim S1x128 ![1] bcast_S128_S1x128_1) : (⟨S128, .f32⟩ : BufTy).Contents (Elt Ideal) → (⟨S1x128, .f32⟩ : BufTy).Contents (Elt Ideal)) (val V main_call1_v0) :=
  eqU V 71 rfl (by decide) (by decide)
theorem e_call1_cst_0 (V : Vl) : val V main_call1_cst_0 = constant (F := Ideal) S_ .f32 0x47C35000#32 :=
  eqN V 72 rfl (by decide)
theorem e_call1_v2 (V : Vl) : val V main_call1_v2 = ((broadcastInDim S1x128 ![] bcast_S_S1x128) : (⟨S_, .f32⟩ : BufTy).Contents (Elt Ideal) → (⟨S1x128, .f32⟩ : BufTy).Contents (Elt Ideal)) (val V main_call1_cst_0) :=
  eqU V 73 rfl (by decide) (by decide)
theorem e_call1_v3 (V : Vl) : val V main_call1_v3 = ((Host.divf (F := Ideal) (φ := .f32)) : (⟨S1x128, .f32⟩ : BufTy).Contents (Elt Ideal) → (⟨S1x128, .f32⟩ : BufTy).Contents (Elt Ideal) → (⟨S1x128, .f32⟩ : BufTy).Contents (Elt Ideal)) (val V main_call1_v1) (val V main_call1_v2) :=
  eqB V 74 rfl (by decide) (by decide) (by decide)
theorem e_call1_v4 (V : Vl) : val V main_call1_v4 = ((broadcastInDim S100000x128 ![0, 1] bcast_S1x128_S100000x128_0_1) : (⟨S1x128, .f32⟩ : BufTy).Contents (Elt Ideal) → (⟨S100000x128, .f32⟩ : BufTy).Contents (Elt Ideal)) (val V main_call1_v3) :=
  eqU V 75 rfl (by decide) (by decide)
theorem e_call1_v5 (V : Vl) : val V main_call1_v5 = ((subf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_v48) (val V main_call1_v4) :=
  eqB V 76 rfl (by decide) (by decide) (by decide)
theorem e_call1_v6 (V : Vl) : val V main_call1_v6 = ((mulf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_call1_v5) (val V main_call1_v5) :=
  eqB V 77 rfl (by decide) (by decide) (by decide)
theorem e_call1_v7 (V : Vl) : val V main_call1_v7 = ((sitofp (F := Ideal) .f32) : (⟨S_, .i32⟩ : BufTy).Contents (Elt Ideal) → (⟨S_, .f32⟩ : BufTy).Contents (Elt Ideal)) (val V main_c_12) :=
  eqU V 78 rfl (by decide) (by decide)
theorem e_call1_cst_1 (V : Vl) : val V main_call1_cst_1 = constant (F := Ideal) S_ .f32 0x47C35000#32 :=
  eqN V 79 rfl (by decide)
theorem e_call1_v8 (V : Vl) : val V main_call1_v8 = ((subf (F := Ideal) (φ := .f32)) : (⟨S_, .f32⟩ : BufTy).Contents (Elt Ideal) → (⟨S_, .f32⟩ : BufTy).Contents (Elt Ideal) → (⟨S_, .f32⟩ : BufTy).Contents (Elt Ideal)) (val V main_call1_cst_1) (val V main_call1_v7) :=
  eqB V 80 rfl (by decide) (by decide) (by decide)
theorem e_call1_cst_2 (V : Vl) : val V main_call1_cst_2 = constant (F := Ideal) S_ .f32 0x00000000#32 :=
  eqN V 81 rfl (by decide)
theorem e_call1_v9 (V : Vl) : val V main_call1_v9 = ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal)) (val V main_call1_v6) (val V main_call1_cst_2) :=
  eqB V 82 rfl (by decide) (by decide) (by decide)
theorem e_call1_v10 (V : Vl) : val V main_call1_v10 = ((broadcastInDim S128 ![] bcast_S_S128) : (⟨S_, .f32⟩ : BufTy).Contents (Elt Ideal) → (⟨S128, .f32⟩ : BufTy).Contents (Elt Ideal)) (val V main_call1_v8) :=
  eqU V 83 rfl (by decide) (by decide)
theorem e_call1_v11 (V : Vl) : val V main_call1_v11 = ((Host.divf (F := Ideal) (φ := .f32)) : (⟨S128, .f32⟩ : BufTy).Contents (Elt Ideal) → (⟨S128, .f32⟩ : BufTy).Contents (Elt Ideal) → (⟨S128, .f32⟩ : BufTy).Contents (Elt Ideal)) (val V main_call1_v9) (val V main_call1_v10) :=
  eqB V 84 rfl (by decide) (by decide) (by decide)
theorem e_call1_cst_3 (V : Vl) : val V main_call1_cst_3 = constant (F := Ideal) S_ .f32 0x00000000#32 :=
  eqN V 85 rfl (by decide)
theorem e_call1_v12 (V : Vl) : val V main_call1_v12 = ((cmpf (F := Ideal) (φ := .f32) .ogt) : (⟨S_, .f32⟩ : BufTy).Contents (Elt Ideal) → (⟨S_, .f32⟩ : BufTy).Contents (Elt Ideal) → (⟨S_, .i1⟩ : BufTy).Contents (Elt Ideal)) (val V main_call1_v8) (val V main_call1_cst_3) :=
  eqB V 86 rfl (by decide) (by decide) (by decide)
theorem e_call1_cst_4 (V : Vl) : val V main_call1_cst_4 = constant (F := Ideal) S_ .f32 0x7FC00000#32 :=
  eqN V 87 rfl (by decide)
theorem e_call1_call0_v0 (V : Vl) : val V main_call1_call0_v0 = ((id) : (⟨S_, .f32⟩ : BufTy).Contents (Elt Ideal) → (⟨S_, .f32⟩ : BufTy).Contents (Elt Ideal)) (val V main_call1_cst_4) :=
  eqU V 88 rfl (by decide) (by decide)
theorem e_call1_call0_v1 (V : Vl) : val V main_call1_call0_v1 = ((broadcastInDim S128 ![] bcast_S_S128) : (⟨S_, .f32⟩ : BufTy).Contents (Elt Ideal) → (⟨S128, .f32⟩ : BufTy).Contents (Elt Ideal)) (val V main_call1_call0_v0) :=
  eqU V 89 rfl (by decide) (by decide)
theorem e_v52 (V : Vl) : val V main_v52 = ((fun p a b => select (broadcastInDim S128 ![] bcast_S_S128 p) a b) : (⟨S_, .i1⟩ : BufTy).Contents (Elt Ideal) → (⟨S128, .f32⟩ : BufTy).Contents (Elt Ideal) → (⟨S128, .f32⟩ : BufTy).Contents (Elt Ideal) → (⟨S128, .f32⟩ : BufTy).Contents (Elt Ideal)) (val V main_call1_v12) (val V main_call1_v11) (val V main_call1_call0_v1) :=
  eqT V 90 rfl (by decide) (by decide) (by decide) (by decide)
theorem e_v53 (V : Vl) : val V main_v53 = ((broadcastInDim S1x128 ![1] bcast_S128_S1x128_1) : (⟨S128, .f32⟩ : BufTy).Contents (Elt Ideal) → (⟨S1x128, .f32⟩ : BufTy).Contents (Elt Ideal)) (val V main_v51) :=
  eqU V 91 rfl (by decide) (by decide)
theorem e_v54 (V : Vl) : val V main_v54 = ((broadcastInDim S100000x128 ![0, 1] bcast_S1x128_S100000x128_0_1) : (⟨S1x128, .f32⟩ : BufTy).Contents (Elt Ideal) → (⟨S100000x128, .f32⟩ : BufTy).Contents (Elt Ideal)) (val V main_v53) :=
  eqU V 92 rfl (by decide) (by decide)
theorem e_v55 (V : Vl) : val V main_v55 = ((subf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_v48) (val V main_v54) :=
  eqB V 93 rfl (by decide) (by decide) (by decide)
theorem e_cst_13 (V : Vl) : val V main_cst_13 = constant (F := Ideal) S_ .f32 0x3727C5AC#32 :=
  eqN V 94 rfl (by decide)
theorem e_v56 (V : Vl) : val V main_v56 = ((broadcastInDim S128 ![] bcast_S_S128) : (⟨S_, .f32⟩ : BufTy).Contents (Elt Ideal) → (⟨S128, .f32⟩ : BufTy).Contents (Elt Ideal)) (val V main_cst_13) :=
  eqU V 95 rfl (by decide) (by decide)
theorem e_v57 (V : Vl) : val V main_v57 = ((addf (F := Ideal) (φ := .f32)) : (⟨S128, .f32⟩ : BufTy).Contents (Elt Ideal) → (⟨S128, .f32⟩ : BufTy).Contents (Elt Ideal) → (⟨S128, .f32⟩ : BufTy).Contents (Elt Ideal)) (val V main_v52) (val V main_v56) :=
  eqB V 96 rfl (by decide) (by decide) (by decide)
theorem e_v58 (V : Vl) : val V main_v58 = ((Host.rsqrt (F := Ideal) (φ := .f32)) : (⟨S128, .f32⟩ : BufTy).Contents (Elt Ideal) → (⟨S128, .f32⟩ : BufTy).Contents (Elt Ideal)) (val V main_v57) :=
  eqU V 97 rfl (by decide) (by decide)
theorem e_v59 (V : Vl) : val V main_v59 = ((broadcastInDim S1x128 ![1] bcast_S128_S1x128_1) : (⟨S128, .f32⟩ : BufTy).Contents (Elt Ideal) → (⟨S1x128, .f32⟩ : BufTy).Contents (Elt Ideal)) (val V main_v58) :=
  eqU V 98 rfl (by decide) (by decide)
theorem e_v60 (V : Vl) : val V main_v60 = ((broadcastInDim S100000x128 ![0, 1] bcast_S1x128_S100000x128_0_1) : (⟨S1x128, .f32⟩ : BufTy).Contents (Elt Ideal) → (⟨S100000x128, .f32⟩ : BufTy).Contents (Elt Ideal)) (val V main_v59) :=
  eqU V 99 rfl (by decide) (by decide)
theorem e_v61 (V : Vl) : val V main_v61 = ((mulf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_v55) (val V main_v60) :=
  eqB V 100 rfl (by decide) (by decide) (by decide)
theorem e_v62 (V : Vl) : val V main_v62 = ((broadcastInDim S1x128 ![1] bcast_S128_S1x128_1) : (⟨S128, .f32⟩ : BufTy).Contents (Elt Ideal) → (⟨S1x128, .f32⟩ : BufTy).Contents (Elt Ideal)) (val V main_arg4) :=
  eqU V 101 rfl (by decide) (by decide)
theorem e_v63 (V : Vl) : val V main_v63 = ((broadcastInDim S100000x128 ![0, 1] bcast_S1x128_S100000x128_0_1) : (⟨S1x128, .f32⟩ : BufTy).Contents (Elt Ideal) → (⟨S100000x128, .f32⟩ : BufTy).Contents (Elt Ideal)) (val V main_v62) :=
  eqU V 102 rfl (by decide) (by decide)
theorem e_v64 (V : Vl) : val V main_v64 = ((mulf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_v61) (val V main_v63) :=
  eqB V 103 rfl (by decide) (by decide) (by decide)
theorem e_v65 (V : Vl) : val V main_v65 = ((broadcastInDim S1x128 ![1] bcast_S128_S1x128_1) : (⟨S128, .f32⟩ : BufTy).Contents (Elt Ideal) → (⟨S1x128, .f32⟩ : BufTy).Contents (Elt Ideal)) (val V main_arg5) :=
  eqU V 104 rfl (by decide) (by decide)
theorem e_v66 (V : Vl) : val V main_v66 = ((broadcastInDim S100000x128 ![0, 1] bcast_S1x128_S100000x128_0_1) : (⟨S1x128, .f32⟩ : BufTy).Contents (Elt Ideal) → (⟨S100000x128, .f32⟩ : BufTy).Contents (Elt Ideal)) (val V main_v65) :=
  eqU V 105 rfl (by decide) (by decide)
theorem e_v67 (V : Vl) : val V main_v67 = ((addf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_v64) (val V main_v66) :=
  eqB V 106 rfl (by decide) (by decide) (by decide)
theorem e_call2_cst (V : Vl) : val V main_call2_cst = constant (F := Ideal) S_ .f32 0x00000000#32 :=
  eqN V 107 rfl (by decide)
theorem e_call2_v0 (V : Vl) : val V main_call2_v0 = ((broadcastInDim S100000x128 ![] bcast_S_S100000x128) : (⟨S_, .f32⟩ : BufTy).Contents (Elt Ideal) → (⟨S100000x128, .f32⟩ : BufTy).Contents (Elt Ideal)) (val V main_call2_cst) :=
  eqU V 108 rfl (by decide) (by decide)
theorem e_v68 (V : Vl) : val V main_v68 = ((maximumf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_v67) (val V main_call2_v0) :=
  eqB V 109 rfl (by decide) (by decide) (by decide)
theorem e_v69 (V : Vl) : val V main_v69 = ((fun l r => Host.dotGeneral (F := Ideal) (φ₁ := .f32) (φ₂ := .f32) dot_S100000x128_S128x128_S100000x128_1_0_0_1_n_n none l r) : (⟨S100000x128, .f32⟩ : BufTy).Contents (Elt Ideal) → (⟨S128x128, .f32⟩ : BufTy).Contents (Elt Ideal) → (⟨S100000x128, .f32⟩ : BufTy).Contents (Elt Ideal)) (val V main_v68) (val V main_arg6) :=
  eqB V 110 rfl (by decide) (by decide) (by decide)
theorem e_v70 (V : Vl) : val V main_v70 = iotaInDim S100000 32 0 :=
  eqN V 111 rfl (by decide)
theorem e_v71 (V : Vl) : val V main_v71 = ((fun u => extractStridedSlice S1x1600000 ![0, 0] u slices_S2x1600000_S1x1600000_0_0) : (⟨S2x1600000, .i32⟩ : BufTy).Contents (Elt Ideal) → (⟨S1x1600000, .i32⟩ : BufTy).Contents (Elt Ideal)) (val V main_arg1) :=
  eqU V 112 rfl (by decide) (by decide)
theorem e_v72 (V : Vl) : val V main_v72 = shapeCast S1600000 (val V main_v71 : (⟨S1x1600000, .i32⟩ : BufTy).Contents (Elt Ideal)) shapeCasts_S1x1600000_S1600000 :=
  eqR V 113 rfl (by decide) (by decide)
theorem e_v73 (V : Vl) : val V main_v73 = ((fun a b => concatenate S1700000 0 [⟨S1600000, a⟩, ⟨S100000, b⟩] concatenates_S1600000_S100000_S1700000_d0) : (⟨S1600000, .i32⟩ : BufTy).Contents (Elt Ideal) → (⟨S100000, .i32⟩ : BufTy).Contents (Elt Ideal) → (⟨S1700000, .i32⟩ : BufTy).Contents (Elt Ideal)) (val V main_v72) (val V main_v70) :=
  eqB V 114 rfl (by decide) (by decide) (by decide)
theorem e_v74 (V : Vl) : val V main_v74 = ((fun u => extractStridedSlice S1x1600000 ![1, 0] u slices_S2x1600000_S1x1600000_1_0) : (⟨S2x1600000, .i32⟩ : BufTy).Contents (Elt Ideal) → (⟨S1x1600000, .i32⟩ : BufTy).Contents (Elt Ideal)) (val V main_arg1) :=
  eqU V 115 rfl (by decide) (by decide)
theorem e_v75 (V : Vl) : val V main_v75 = shapeCast S1600000 (val V main_v74 : (⟨S1x1600000, .i32⟩ : BufTy).Contents (Elt Ideal)) shapeCasts_S1x1600000_S1600000 :=
  eqR V 116 rfl (by decide) (by decide)
theorem e_v76 (V : Vl) : val V main_v76 = ((fun a b => concatenate S1700000 0 [⟨S1600000, a⟩, ⟨S100000, b⟩] concatenates_S1600000_S100000_S1700000_d0) : (⟨S1600000, .i32⟩ : BufTy).Contents (Elt Ideal) → (⟨S100000, .i32⟩ : BufTy).Contents (Elt Ideal) → (⟨S1700000, .i32⟩ : BufTy).Contents (Elt Ideal)) (val V main_v75) (val V main_v70) :=
  eqB V 117 rfl (by decide) (by decide) (by decide)
theorem e_cst_14 (V : Vl) : val V main_cst_14 = constant (F := Ideal) S_ .f32 0x3F800000#32 :=
  eqN V 118 rfl (by decide)
theorem e_v77 (V : Vl) : val V main_v77 = ((broadcastInDim S1700000 ![] bcast_S_S1700000) : (⟨S_, .f32⟩ : BufTy).Contents (Elt Ideal) → (⟨S1700000, .f32⟩ : BufTy).Contents (Elt Ideal)) (val V main_cst_14) :=
  eqU V 119 rfl (by decide) (by decide)
theorem e_cst_15 (V : Vl) : val V main_cst_15 = constant (F := Ideal) S_ .f32 0x00000000#32 :=
  eqN V 120 rfl (by decide)
theorem e_v78 (V : Vl) : val V main_v78 = ((broadcastInDim S100000 ![] bcast_S_S100000) : (⟨S_, .f32⟩ : BufTy).Contents (Elt Ideal) → (⟨S100000, .f32⟩ : BufTy).Contents (Elt Ideal)) (val V main_cst_15) :=
  eqU V 121 rfl (by decide) (by decide)
theorem e_v79 (V : Vl) : val V main_v79 = ((broadcastInDim S1700000x1 ![0] bcast_S1700000_S1700000x1_0) : (⟨S1700000, .i32⟩ : BufTy).Contents (Elt Ideal) → (⟨S1700000x1, .i32⟩ : BufTy).Contents (Elt Ideal)) (val V main_v76) :=
  eqU V 122 rfl (by decide) (by decide)
theorem e_v80 (V : Vl) : val V main_v80 = ((fun x i u => Host.scatterAdd (F := Ideal) (φ := .f32) scatter_S100000_S1700000x1_S1700000_n_0_0_1 x i u) : (⟨S100000, .f32⟩ : BufTy).Contents (Elt Ideal) → (⟨S1700000x1, .i32⟩ : BufTy).Contents (Elt Ideal) → (⟨S1700000, .f32⟩ : BufTy).Contents (Elt Ideal) → (⟨S100000, .f32⟩ : BufTy).Contents (Elt Ideal)) (val V main_v78) (val V main_v79) (val V main_v77) :=
  eqT V 123 rfl (by decide) (by decide) (by decide) (by decide)
theorem e_cst_16 (V : Vl) : val V main_cst_16 = constant (F := Ideal) S_ .f32 0x00000000#32 :=
  eqN V 124 rfl (by decide)
theorem e_v81 (V : Vl) : val V main_v81 = ((broadcastInDim S100000 ![] bcast_S_S100000) : (⟨S_, .f32⟩ : BufTy).Contents (Elt Ideal) → (⟨S100000, .f32⟩ : BufTy).Contents (Elt Ideal)) (val V main_cst_16) :=
  eqU V 125 rfl (by decide) (by decide)
theorem e_v82 (V : Vl) : val V main_v82 = ((cmpf (F := Ideal) (φ := .f32) .ogt) : (⟨S100000, .f32⟩ : BufTy).Contents (Elt Ideal) → (⟨S100000, .f32⟩ : BufTy).Contents (Elt Ideal) → (⟨S100000, .i1⟩ : BufTy).Contents (Elt Ideal)) (val V main_v80) (val V main_v81) :=
  eqB V 126 rfl (by decide) (by decide) (by decide)
theorem e_cst_17 (V : Vl) : val V main_cst_17 = constant (F := Ideal) S_ .f32 0x3F800000#32 :=
  eqN V 127 rfl (by decide)
theorem e_v83 (V : Vl) : val V main_v83 = ((broadcastInDim S100000 ![] bcast_S_S100000) : (⟨S_, .f32⟩ : BufTy).Contents (Elt Ideal) → (⟨S100000, .f32⟩ : BufTy).Contents (Elt Ideal)) (val V main_cst_17) :=
  eqU V 128 rfl (by decide) (by decide)
theorem e_v84 (V : Vl) : val V main_v84 = ((maximumf (F := Ideal) (φ := .f32)) : (⟨S100000, .f32⟩ : BufTy).Contents (Elt Ideal) → (⟨S100000, .f32⟩ : BufTy).Contents (Elt Ideal) → (⟨S100000, .f32⟩ : BufTy).Contents (Elt Ideal)) (val V main_v80) (val V main_v83) :=
  eqB V 129 rfl (by decide) (by decide) (by decide)
theorem e_v85 (V : Vl) : val V main_v85 = ((Host.rsqrt (F := Ideal) (φ := .f32)) : (⟨S100000, .f32⟩ : BufTy).Contents (Elt Ideal) → (⟨S100000, .f32⟩ : BufTy).Contents (Elt Ideal)) (val V main_v84) :=
  eqU V 130 rfl (by decide) (by decide)
theorem e_cst_18 (V : Vl) : val V main_cst_18 = constant (F := Ideal) S_ .f32 0x00000000#32 :=
  eqN V 131 rfl (by decide)
theorem e_call3_v0 (V : Vl) : val V main_call3_v0 = ((id) : (⟨S_, .f32⟩ : BufTy).Contents (Elt Ideal) → (⟨S_, .f32⟩ : BufTy).Contents (Elt Ideal)) (val V main_cst_18) :=
  eqU V 132 rfl (by decide) (by decide)
theorem e_call3_v1 (V : Vl) : val V main_call3_v1 = ((broadcastInDim S100000 ![] bcast_S_S100000) : (⟨S_, .f32⟩ : BufTy).Contents (Elt Ideal) → (⟨S100000, .f32⟩ : BufTy).Contents (Elt Ideal)) (val V main_call3_v0) :=
  eqU V 133 rfl (by decide) (by decide)
theorem e_v86 (V : Vl) : val V main_v86 = ((select) : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) (val V main_v82) (val V main_v85) (val V main_call3_v1) :=
  eqT V 134 rfl (by decide) (by decide) (by decide) (by decide)
theorem e_c_19 (V : Vl) : val V main_c_19 = constantI S_ 32 0#32 :=
  eqN V 135 rfl (by decide)
theorem e_v87 (V : Vl) : val V main_v87 = ((broadcastInDim S1700000 ![] bcast_S_S1700000) : (⟨S_, .i32⟩ : BufTy).Contents (Elt Ideal) → (⟨S1700000, .i32⟩ : BufTy).Contents (Elt Ideal)) (val V main_c_19) :=
  eqU V 136 rfl (by decide) (by decide)
theorem e_v88 (V : Vl) : val V main_v88 = ((cmpi .slt) : (⟨S1700000, .i32⟩ : BufTy).Contents (Elt Ideal) → (⟨S1700000, .i32⟩ : BufTy).Contents (Elt Ideal) → (⟨S1700000, .i1⟩ : BufTy).Contents (Elt Ideal)) (val V main_v73) (val V main_v87) :=
  eqB V 137 rfl (by decide) (by decide) (by decide)
theorem e_c_20 (V : Vl) : val V main_c_20 = constantI S_ 32 100000#32 :=
  eqN V 138 rfl (by decide)
theorem e_v89 (V : Vl) : val V main_v89 = ((broadcastInDim S1700000 ![] bcast_S_S1700000) : (⟨S_, .i32⟩ : BufTy).Contents (Elt Ideal) → (⟨S1700000, .i32⟩ : BufTy).Contents (Elt Ideal)) (val V main_c_20) :=
  eqU V 139 rfl (by decide) (by decide)
theorem e_v90 (V : Vl) : val V main_v90 = ((addi) : (⟨S1700000, .i32⟩ : BufTy).Contents (Elt Ideal) → (⟨S1700000, .i32⟩ : BufTy).Contents (Elt Ideal) → (⟨S1700000, .i32⟩ : BufTy).Contents (Elt Ideal)) (val V main_v73) (val V main_v89) :=
  eqB V 140 rfl (by decide) (by decide) (by decide)
theorem e_v91 (V : Vl) : val V main_v91 = ((select) : (⟨S1700000, .i1⟩ : BufTy).Contents (Elt Ideal) → (⟨S1700000, .i32⟩ : BufTy).Contents (Elt Ideal) → (⟨S1700000, .i32⟩ : BufTy).Contents (Elt Ideal) → (⟨S1700000, .i32⟩ : BufTy).Contents (Elt Ideal)) (val V main_v88) (val V main_v90) (val V main_v73) :=
  eqT V 141 rfl (by decide) (by decide) (by decide) (by decide)
theorem e_v92 (V : Vl) : val V main_v92 = ((broadcastInDim S1700000x1 ![0] bcast_S1700000_S1700000x1_0) : (⟨S1700000, .i32⟩ : BufTy).Contents (Elt Ideal) → (⟨S1700000x1, .i32⟩ : BufTy).Contents (Elt Ideal)) (val V main_v91) :=
  eqU V 142 rfl (by decide) (by decide)
theorem e_v93 (V : Vl) : val V main_v93 = ((fun x i => Host.gather gather_S100000_S1700000x1_S1700000_n_0_n_n_0_1_1 x i) : (⟨S100000, .f32⟩ : BufTy).Contents (Elt Ideal) → (⟨S1700000x1, .i32⟩ : BufTy).Contents (Elt Ideal) → (⟨S1700000, .f32⟩ : BufTy).Contents (Elt Ideal)) (val V main_v86) (val V main_v92) :=
  eqB V 143 rfl (by decide) (by decide) (by decide)
theorem e_c_21 (V : Vl) : val V main_c_21 = constantI S_ 32 0#32 :=
  eqN V 144 rfl (by decide)
theorem e_v94 (V : Vl) : val V main_v94 = ((broadcastInDim S1700000 ![] bcast_S_S1700000) : (⟨S_, .i32⟩ : BufTy).Contents (Elt Ideal) → (⟨S1700000, .i32⟩ : BufTy).Contents (Elt Ideal)) (val V main_c_21) :=
  eqU V 145 rfl (by decide) (by decide)
theorem e_v95 (V : Vl) : val V main_v95 = ((cmpi .slt) : (⟨S1700000, .i32⟩ : BufTy).Contents (Elt Ideal) → (⟨S1700000, .i32⟩ : BufTy).Contents (Elt Ideal) → (⟨S1700000, .i1⟩ : BufTy).Contents (Elt Ideal)) (val V main_v76) (val V main_v94) :=
  eqB V 146 rfl (by decide) (by decide) (by decide)

end Cert.ReferenceIdeal.RefVal

end
-- ==== Proof.RefVal.Args.lean ====
/-
  The reference's arguments as plain index-level functions of the launch contents: the feature matrix, the edge
  words (extended by one self loop per node), the two layers' weights, biases, scales and shifts, and the
  classifier's weight and bias.
-/
import proofs.«156713_j13589276524898_2_alg».proof.Proof.Stages
import proofs.«156713_j13589276524898_2_alg».proof.Proof.RefVal.Val

noncomputable section

namespace Cert.ReferenceIdeal.RefVal

open Cert.ReferenceIdeal Idealize.ShloMosaic Idealize.ShloMosaic.ValueIdx Idealize.SL.Sem

/-- The node features `x[i, k]`. -/
def xOf (V : Vl) : Cert.Stages.Mat 100000 128 := fun i k =>
  (V (Proc.devRef .tc main_arg0) : S100000x128.Idx → EReal) (ix2 i k)
/-- The given edge words: row 0 the sources, row 1 the targets. -/
def eiOf (V : Vl) : Fin 2 → Fin 1600000 → BitVec 32 := fun r e =>
  (V (Proc.devRef .tc main_arg1) : S2x1600000.Idx → BitVec 32) (ix2 r e)
/-- The extended list's endpoint words. -/
def gOf (V : Vl) : Fin 2 → Fin Cert.Stages.nE → BitVec 32 := Cert.Stages.extend (eiOf V)
def w1Of (V : Vl) : Cert.Stages.Mat 128 128 := fun k j =>
  (V (Proc.devRef .tc main_arg2) : S128x128.Idx → EReal) (ix2 k j)
def b1Of (V : Vl) : Cert.Stages.Row 128 := fun j => (V (Proc.devRef .tc main_arg3) : S128.Idx → EReal) (ix1 j)
def g1Of (V : Vl) : Cert.Stages.Row 128 := fun j => (V (Proc.devRef .tc main_arg4) : S128.Idx → EReal) (ix1 j)
def be1Of (V : Vl) : Cert.Stages.Row 128 := fun j => (V (Proc.devRef .tc main_arg5) : S128.Idx → EReal) (ix1 j)
def w2Of (V : Vl) : Cert.Stages.Mat 128 128 := fun k j =>
  (V (Proc.devRef .tc main_arg6) : S128x128.Idx → EReal) (ix2 k j)
def b2Of (V : Vl) : Cert.Stages.Row 128 := fun j => (V (Proc.devRef .tc main_arg7) : S128.Idx → EReal) (ix1 j)
def g2Of (V : Vl) : Cert.Stages.Row 128 := fun j => (V (Proc.devRef .tc main_arg8) : S128.Idx → EReal) (ix1 j)
def be2Of (V : Vl) : Cert.Stages.Row 128 := fun j => (V (Proc.devRef .tc main_arg9) : S128.Idx → EReal) (ix1 j)
def wcOf (V : Vl) : Cert.Stages.Mat 128 64 := fun k j =>
  (V (Proc.devRef .tc main_arg10) : S128x64.Idx → EReal) (ix2 k j)
def bcOf (V : Vl) : Cert.Stages.Row 64 := fun j => (V (Proc.devRef .tc main_arg11) : S64.Idx → EReal) (ix1 j)

/-! The run writes no argument array: each holds at the end what it held at the launch. -/

theorem val_arg0 (V : Vl) : val V main_arg0 = V (Proc.devRef .tc main_arg0) := val_kept V (by decide)
theorem val_arg1 (V : Vl) : val V main_arg1 = V (Proc.devRef .tc main_arg1) := val_kept V (by decide)
theorem val_arg2 (V : Vl) : val V main_arg2 = V (Proc.devRef .tc main_arg2) := val_kept V (by decide)
theorem val_arg3 (V : Vl) : val V main_arg3 = V (Proc.devRef .tc main_arg3) := val_kept V (by decide)
theorem val_arg4 (V : Vl) : val V main_arg4 = V (Proc.devRef .tc main_arg4) := val_kept V (by decide)
theorem val_arg5 (V : Vl) : val V main_arg5 = V (Proc.devRef .tc main_arg5) := val_kept V (by decide)
theorem val_arg6 (V : Vl) : val V main_arg6 = V (Proc.devRef .tc main_arg6) := val_kept V (by decide)
theorem val_arg7 (V : Vl) : val V main_arg7 = V (Proc.devRef .tc main_arg7) := val_kept V (by decide)
theorem val_arg8 (V : Vl) : val V main_arg8 = V (Proc.devRef .tc main_arg8) := val_kept V (by decide)
theorem val_arg9 (V : Vl) : val V main_arg9 = V (Proc.devRef .tc main_arg9) := val_kept V (by decide)
theorem val_arg10 (V : Vl) : val V main_arg10 = V (Proc.devRef .tc main_arg10) := val_kept V (by decide)
theorem val_arg11 (V : Vl) : val V main_arg11 = V (Proc.devRef .tc main_arg11) := val_kept V (by decide)

end Cert.ReferenceIdeal.RefVal

end
-- ==== Proof.RefVal.GraphOps.lean ====
/-
  The reference's graph prefix read at an index, for any contents of the buffers it starts from: the extended
  endpoint words, a start word wrapped when negative, the degree count and the degree factor.
-/
import Idealize.ShloMosaic.Lib.Pipeline.Value
import Idealize.ShloMosaic.Lib.ValueIdx
import Idealize.ShloMosaic.PureOps.Ideal.Laws
import proofs.«156713_j13589276524898_2_alg».proof.Proof.Stages
import proofs.«156713_j13589276524898_2_alg».proof.Proof.LibGcnStage
import proofs.«156713_j13589276524898_2_alg».proof.Proof.Gen.ReferenceIdeal

noncomputable section

open scoped BigOperators

namespace Cert.ReferenceIdeal.RefVal

open Cert.ReferenceIdeal Cert.ReferenceIdeal.Gen
open Idealize.ShloMosaic Idealize.ShloMosaic.ValueIdx Cert.LibIndexRead Cert.LibGcnStage

/-- A scalar broadcast to any shape reads the scalar everywhere. -/
theorem bcast0 {α : Type} {t : Shape} (h : S_.BroadcastsInDim t (![] : Fin 0 → Fin t.rank)) (c : S_.Idx → α) (j : t.Idx) :
    broadcastInDim t ![] h c j = c ix0 :=
  broadcastInDim_apply _ h c j ix0 (fun a => a.elim0)

/-! ## The extended endpoint words -/

/-- Row `o` of the edge array as a flat list, then the node numbers. -/
def extC (ei : IVec S2x1600000 32) (o : Nat) (hs : S2x1600000.Slices ![o, 0] S1x1600000) : IVec S1700000 32 :=
  concatenate S1700000 0
    [⟨S1600000, shapeCast S1600000 (extractStridedSlice S1x1600000 ![o, 0] ei hs) shapeCasts_S1x1600000_S1600000⟩,
     ⟨S100000, iotaInDim S100000 32 0⟩] concatenates_S1600000_S100000_S1700000_d0

theorem extC_apply (ei : IVec S2x1600000 32) (o : Nat) (hs : S2x1600000.Slices ![o, 0] S1x1600000) (r : Fin 2)
    (ho : o = r.val) (e : Fin 1700000) :
    extC ei o hs (ix1 e) = Cert.Stages.extend (fun r e => ei (ix2 r e)) r e := by
  unfold extC Cert.Stages.extend
  by_cases h : e.val < 1600000
  · rw [dif_pos h]
    refine (concatenate_pair_apply_left (t := S1700000) (s₁ := S1600000) (s₂ := S100000) (0 : Fin 1) _ _ _ (ix1 e) rfl (ix1 (⟨e.val, h⟩ : Fin 1600000)) ?_).trans ?_
    · intro b; fin_cases b; rfl
    · refine (shapeCast_apply _ _ (ix1 (⟨e.val, h⟩ : Fin 1600000)) (ix2 (0 : Fin 1) (⟨e.val, h⟩ : Fin 1600000)) ?_).trans ?_
      · rw [Shape.rowMajor_val_two, Shape.rowMajor_val_one]; simp
      · refine extractStridedSlice_apply _ ei hs _ (ix2 r (⟨e.val, h⟩ : Fin 1600000)) ?_
        intro a; fin_cases a
        · simp [ho]
        · simp
  · rw [dif_neg h]
    have he := e.isLt
    refine (concatenate_pair_apply_right (t := S1700000) (s₁ := S1600000) (s₂ := S100000) (0 : Fin 1) _ _ _ (ix1 e) rfl rfl
      (ix1 (⟨e.val - 1600000, by omega⟩ : Fin 100000)) ?_ ?_).trans rfl
    · intro b hb; fin_cases b; exact absurd rfl hb
    · show e.val - 1600000 + 1600000 = e.val; omega

/-! ## A start word wrapped when negative -/

theorem wrap_apply (M : BitVec 32) (w : IVec S1700000 32) (e : Fin 1700000) :
    select (cmpi .slt w (broadcastInDim S1700000 ![] bcast_S_S1700000 (constantI S_ 32 0#32)))
        (addi w (broadcastInDim S1700000 ![] bcast_S_S1700000 (constantI S_ 32 M))) w (ix1 e)
      = wrapNeg M (w (ix1 e)) := rfl

/-! ## The degree count and the degree factor -/

theorem deg_apply (g : Fin 2 → Fin Cert.Stages.nE → BitVec 32) (dstW : IVec S1700000 32)
    (hd : ∀ e : Fin 1700000, dstW (ix1 e) = g 1 e) (i : Fin 100000) :
    Host.scatterAdd (F := Ideal) scatter_S100000_S1700000x1_S1700000_n_0_0_1
        (broadcastInDim S100000 ![] bcast_S_S100000 (constant (F := Ideal) S_ .f32 0x00000000#32))
        (broadcastInDim S1700000x1 ![0] bcast_S1700000_S1700000x1_0 dstW)
        (broadcastInDim S1700000 ![] bcast_S_S1700000 (constant (F := Ideal) S_ .f32 0x3F800000#32)) (ix1 i)
      = Cert.Stages.deg g i := by
  refine (degG_apply scatter_S100000_S1700000x1_S1700000_n_0_0_1_wf (by decide) bcast_S_S100000
    bcast_S1700000_S1700000x1_0 bcast_S_S1700000 0x00000000#32 0x3F800000#32 dstW i).trans ?_
  unfold Cert.Stages.deg Cert.Stages.into
  simp only [hd]

theorem dinv_apply (g : Fin 2 → Fin Cert.Stages.nE → BitVec 32) (degv : FVec Ideal S100000 .f32)
    (hdeg : ∀ i : Fin 100000, degv (ix1 i) = Cert.Stages.deg g i) (i : Fin 100000) :
    select (cmpf .ogt degv (broadcastInDim S100000 ![] bcast_S_S100000 (constant (F := Ideal) S_ .f32 0x00000000#32)))
        (Host.rsqrt (maximumf degv (broadcastInDim S100000 ![] bcast_S_S100000 (constant (F := Ideal) S_ .f32 0x3F800000#32))))
        (broadcastInDim S100000 ![] bcast_S_S100000 (id (constant (F := Ideal) S_ .f32 0x00000000#32))) (ix1 i)
      = Cert.Stages.dinv g i := by
  unfold Cert.Stages.dinv
  rw [← hdeg i]
  rfl

end Cert.ReferenceIdeal.RefVal

end
-- ==== Proof.RefVal.LayerOps.lean ====
/-
  One graph-convolution layer of the reference read at an index, for any contents of the buffers it starts from: the
  matrix product, and the sum over the extended edge list of the source's projected row weighted by the product of
  the two endpoints' degree factors, plus the bias.
-/
import proofs.«156713_j13589276524898_2_alg».proof.Proof.RefVal.GraphOps
import proofs.«156713_j13589276524898_2_alg».proof.Proof.LibPlainDot

noncomputable section

open scoped BigOperators

namespace Cert.ReferenceIdeal.RefVal

open Cert.ReferenceIdeal Cert.ReferenceIdeal.Gen
open Idealize.ShloMosaic Idealize.ShloMosaic.ValueIdx Cert.LibIndexRead Cert.LibGcnStage

/-- The features times a 128-by-128 weight, read at (i, j). -/
theorem dot128_apply (l : FVec Ideal S100000x128 .f32) (r : FVec Ideal S128x128 .f32) (i : Fin 100000) (j : Fin 128) :
    Host.dotGeneral (F := Ideal) dot_S100000x128_S128x128_S100000x128_1_0_0_1_n_n none l r (ix2 i j)
      = ∑ k : Fin 128, l (ix2 i k) * r (ix2 k j) :=
  PlainDot.dotGeneral_plain dot_S100000x128_S128x128_S100000x128_1_0_0_1_n_n rfl rfl rfl rfl rfl rfl none .single l r (ix2 i j)

/-- The features times the 128-by-64 classifier weight, read at (i, j). -/
theorem dot64_apply (l : FVec Ideal S100000x128 .f32) (r : FVec Ideal S128x64 .f32) (i : Fin 100000) (j : Fin 64) :
    Host.dotGeneral (F := Ideal) dot_S100000x128_S128x64_S100000x64_1_0_0_1_n_n none l r (ix2 i j)
      = ∑ k : Fin 128, l (ix2 i k) * r (ix2 k j) :=
  PlainDot.dotGeneral_plain dot_S100000x128_S128x64_S100000x64_1_0_0_1_n_n rfl rfl rfl rfl rfl rfl none .single l r (ix2 i j)

/-- The layer's aggregate: the projected rows gathered by source over the extended list, each weighted by the
    product of the factor gathered at its two ends, summed by target into zeros; then the bias row added. -/
def layerC (sw1 sw2 dw dstW : IVec S1700000 32) (D : FVec Ideal S100000 .f32) (Hm : FVec Ideal S100000x128 .f32)
    (b : FVec Ideal S128 .f32) : FVec Ideal S100000x128 .f32 :=
  addf (F := Ideal)
    (refAggG scatter_S100000x128_S1700000x1_S1700000x128_1_0_0_1_wf
      gather_S100000x128_S1700000x1_S1700000x128_1_0_n_n_0_1_1128_wf gather_S100000_S1700000x1_S1700000_n_0_n_n_0_1_1_wf
      bcast_S_S100000x128 bcast_S1700000_S1700000x1_0 bcast_S1700000x1_S1700000x128_0_1 0x00000000#32 sw1 sw2 dw dstW D Hm)
    (broadcastInDim S100000x128 ![0, 1] bcast_S1x128_S100000x128_0_1 (broadcastInDim S1x128 ![1] bcast_S128_S1x128_1 b))

theorem layerC_apply (g : Fin 2 → Fin Cert.Stages.nE → BitVec 32) (srcW dstW sw1 sw2 dw : IVec S1700000 32)
    (hs : ∀ e : Fin 1700000, srcW (ix1 e) = g 0 e) (hd : ∀ e : Fin 1700000, dstW (ix1 e) = g 1 e)
    (h1 : ∀ e : Fin 1700000, sw1 (ix1 e) = wrapNeg 100000#32 (srcW (ix1 e)))
    (h2 : ∀ e : Fin 1700000, sw2 (ix1 e) = wrapNeg 100000#32 (srcW (ix1 e)))
    (h3 : ∀ e : Fin 1700000, dw (ix1 e) = wrapNeg 100000#32 (dstW (ix1 e)))
    (D : FVec Ideal S100000 .f32) (hD : ∀ i : Fin 100000, D (ix1 i) = Cert.Stages.dinv g i)
    (Hm : FVec Ideal S100000x128 .f32) (HM : Cert.Stages.Mat 100000 128) (hH : ∀ i j, Hm (ix2 i j) = HM i j)
    (b : FVec Ideal S128 .f32) (bR : Cert.Stages.Row 128) (hb : ∀ j, b (ix1 j) = bR j) (i : Fin 100000) (j : Fin 128) :
    layerC sw1 sw2 dw dstW D Hm b (ix2 i j)
      = (Cert.Stages.zero + ∑ e ∈ Cert.Stages.into g i,
          HM (Cert.Stages.srcRow g e) j * (Cert.Stages.dinv g (Cert.Stages.srcRow g e) * Cert.Stages.dinv g (Cert.Stages.dstRow g e)))
        + bR j := by
  unfold layerC
  refine (addf_apply _ _ _).trans ?_
  refine congrArg₂ (· + ·) ?_ ?_
  · refine (refAggG_apply _ _ _ (by decide) Cert.Stages.nN_pos _ _ _ _ sw1 sw2 dw dstW D Hm i j).trans ?_
    refine congrArg (Cert.Stages.zero + ·) ?_
    unfold Cert.Stages.into
    refine sum_filter_congr' _ _ _ (fun e => by rw [hd e]) _ _ (fun e => ?_)
    rw [hH, hD, hD, h1, h2, h3, hs, hd]
    rfl
  · exact (bcast_rows (by decide) _ _ i j).trans ((bcast_row1 (by decide) _ _ 0 j).trans (hb j))

end Cert.ReferenceIdeal.RefVal

end
-- ==== Proof.RefVal.Layer1.lean ====
/-
  Layer 1 of the reference read back: the extended endpoint words, the degree and its factor, the wrapped start
  words, the projected features and the layer's output, each at an index, from the run's equations.
-/
import proofs.«156713_j13589276524898_2_alg».proof.Proof.RefVal.Eqs0
import proofs.«156713_j13589276524898_2_alg».proof.Proof.RefVal.Eqs1
import proofs.«156713_j13589276524898_2_alg».proof.Proof.RefVal.Args
import proofs.«156713_j13589276524898_2_alg».proof.Proof.RefVal.LayerOps

noncomputable section

open scoped BigOperators

namespace Cert.ReferenceIdeal.RefVal

open Cert.ReferenceIdeal Cert.ReferenceIdeal.Gen
open Idealize.ShloMosaic Idealize.ShloMosaic.ValueIdx Idealize.SL.Sem Cert.LibIndexRead Cert.LibGcnStage

/-! ## The extended endpoint words -/

theorem src1_eq (V : Vl) : val V main_v4 = extC (V (Proc.devRef .tc main_arg1)) 0 slices_S2x1600000_S1x1600000_0_0 := by
  rw [e_v4, e_v3, e_v2, e_v1, val_arg1]; rfl
theorem dst1_eq (V : Vl) : val V main_v7 = extC (V (Proc.devRef .tc main_arg1)) 1 slices_S2x1600000_S1x1600000_1_0 := by
  rw [e_v7, e_v6, e_v5, e_v1, val_arg1]; rfl

theorem src1_read (V : Vl) (e : Fin 1700000) : val V main_v4 (ix1 e) = gOf V 0 e := by
  rw [src1_eq]; exact extC_apply _ 0 _ 0 rfl e
theorem dst1_read (V : Vl) (e : Fin 1700000) : val V main_v7 (ix1 e) = gOf V 1 e := by
  rw [dst1_eq]; exact extC_apply _ 1 _ 1 rfl e

/-! ## The degree and its factor -/

theorem deg1_read (V : Vl) (i : Fin 100000) : val V main_v11 (ix1 i) = Cert.Stages.deg (gOf V) i := by
  rw [e_v11, e_v9, e_cst_0, e_v10, e_v8, e_cst]
  exact deg_apply (gOf V) (val V main_v7) (dst1_read V) i

theorem dinv1_read (V : Vl) (i : Fin 100000) : val V main_v17 (ix1 i) = Cert.Stages.dinv (gOf V) i := by
  rw [e_v17, e_v13, e_v12, e_cst_1, e_v16, e_v15, e_v14, e_cst_2, e_call0_v1, e_call0_v0, e_cst_3]
  exact dinv_apply (gOf V) (val V main_v11) (deg1_read V) i

/-! ## The wrapped start words -/

theorem wsD1_read (V : Vl) (e : Fin 1700000) : val V main_v22 (ix1 e) = wrapNeg 100000#32 (val V main_v4 (ix1 e)) := by
  rw [e_v22, e_v19, e_v18, e_c, e_v21, e_v20, e_c_4]
  exact wrap_apply 100000#32 (val V main_v4) e
theorem wdD1_read (V : Vl) (e : Fin 1700000) : val V main_v29 (ix1 e) = wrapNeg 100000#32 (val V main_v7 (ix1 e)) := by
  rw [e_v29, e_v26, e_v25, e_c_5, e_v28, e_v27, e_c_6]
  exact wrap_apply 100000#32 (val V main_v7) e
theorem wsH1_read (V : Vl) (e : Fin 1700000) : val V main_v37 (ix1 e) = wrapNeg 100000#32 (val V main_v4 (ix1 e)) := by
  rw [e_v37, e_v34, e_v33, e_c_7, e_v36, e_v35, e_c_8]
  exact wrap_apply 100000#32 (val V main_v4) e

/-! ## The layer -/

theorem out1_eq (V : Vl) : val V main_v48 = layerC (val V main_v37) (val V main_v22) (val V main_v29) (val V main_v7)
    (val V main_v17) (val V main_v0) (val V main_arg3) := by
  rw [e_v48, e_v45, e_v47, e_v46, e_v43, e_cst_9, e_v44, e_v42, e_v41, e_v40, e_v39, e_v38, e_v32, e_v24, e_v23, e_v31, e_v30]
  rfl

/-- The layer's output at (i, j), for any index-level reading `HM` of the projected features. -/
theorem out1_read (V : Vl) (HM : Cert.Stages.Mat 100000 128) (hH : ∀ i j, val V main_v0 (ix2 i j) = HM i j)
    (bR : Cert.Stages.Row 128) (hb : ∀ j, val V main_arg3 (ix1 j) = bR j) (i : Fin 100000) (j : Fin 128) :
    val V main_v48 (ix2 i j)
      = (Cert.Stages.zero + ∑ e ∈ Cert.Stages.into (gOf V) i,
          HM (Cert.Stages.srcRow (gOf V) e) j
            * (Cert.Stages.dinv (gOf V) (Cert.Stages.srcRow (gOf V) e) * Cert.Stages.dinv (gOf V) (Cert.Stages.dstRow (gOf V) e)))
        + bR j := by
  rw [out1_eq]
  exact layerC_apply (gOf V) (val V main_v4) (val V main_v7) _ _ _ (src1_read V) (dst1_read V)
    (wsH1_read V) (wsD1_read V) (wdD1_read V) _ (dinv1_read V) _ HM hH _ bR hb i j

end Cert.ReferenceIdeal.RefVal

end
-- ==== Proof.RefVal.Eqs2.lean ====
/- TABLE written by a script (scratch/gen_refeqs.js; invocation, from the unit directory: bun scratch/gen_refeqs.js $KIT/certs/proofs/156713_j13589276524898_2_alg proof/Proof/RefVal): window 2 of the reference run,
   one equation per operation in the order of RefOps.ops2: after the whole run the operation's result buffer holds the operation's function of
   what its operand buffers hold after the whole run. Each is the generic step of RefVal/Val.lean at the operation's position in the run;
   nothing else is argued here. -/
import proofs.«156713_j13589276524898_2_alg».proof.Proof.RefVal.Val

noncomputable section

namespace Cert.ReferenceIdeal.RefVal

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo

-- a maximum-reduction is compared as a term, never run
attribute [local irreducible] Host.reduce

theorem e_c_22 (V : Vl) : val V main_c_22 = constantI S_ 32 100000#32 :=
  eqN V 147 rfl (by decide)
theorem e_v96 (V : Vl) : val V main_v96 = ((broadcastInDim S1700000 ![] bcast_S_S1700000) : (⟨S_, .i32⟩ : BufTy).Contents (Elt Ideal) → (⟨S1700000, .i32⟩ : BufTy).Contents (Elt Ideal)) (val V main_c_22) :=
  eqU V 148 rfl (by decide) (by decide)
theorem e_v97 (V : Vl) : val V main_v97 = ((addi) : (⟨S1700000, .i32⟩ : BufTy).Contents (Elt Ideal) → (⟨S1700000, .i32⟩ : BufTy).Contents (Elt Ideal) → (⟨S1700000, .i32⟩ : BufTy).Contents (Elt Ideal)) (val V main_v76) (val V main_v96) :=
  eqB V 149 rfl (by decide) (by decide) (by decide)
theorem e_v98 (V : Vl) : val V main_v98 = ((select) : (⟨S1700000, .i1⟩ : BufTy).Contents (Elt Ideal) → (⟨S1700000, .i32⟩ : BufTy).Contents (Elt Ideal) → (⟨S1700000, .i32⟩ : BufTy).Contents (Elt Ideal) → (⟨S1700000, .i32⟩ : BufTy).Contents (Elt Ideal)) (val V main_v95) (val V main_v97) (val V main_v76) :=
  eqT V 150 rfl (by decide) (by decide) (by decide) (by decide)
theorem e_v99 (V : Vl) : val V main_v99 = ((broadcastInDim S1700000x1 ![0] bcast_S1700000_S1700000x1_0) : (⟨S1700000, .i32⟩ : BufTy).Contents (Elt Ideal) → (⟨S1700000x1, .i32⟩ : BufTy).Contents (Elt Ideal)) (val V main_v98) :=
  eqU V 151 rfl (by decide) (by decide)
theorem e_v100 (V : Vl) : val V main_v100 = ((fun x i => Host.gather gather_S100000_S1700000x1_S1700000_n_0_n_n_0_1_1 x i) : (⟨S100000, .f32⟩ : BufTy).Contents (Elt Ideal) → (⟨S1700000x1, .i32⟩ : BufTy).Contents (Elt Ideal) → (⟨S1700000, .f32⟩ : BufTy).Contents (Elt Ideal)) (val V main_v86) (val V main_v99) :=
  eqB V 152 rfl (by decide) (by decide) (by decide)
theorem e_v101 (V : Vl) : val V main_v101 = ((mulf (F := Ideal) (φ := .f32)) : (⟨S1700000, .f32⟩ : BufTy).Contents (Elt Ideal) → (⟨S1700000, .f32⟩ : BufTy).Contents (Elt Ideal) → (⟨S1700000, .f32⟩ : BufTy).Contents (Elt Ideal)) (val V main_v93) (val V main_v100) :=
  eqB V 153 rfl (by decide) (by decide) (by decide)
theorem e_c_23 (V : Vl) : val V main_c_23 = constantI S_ 32 0#32 :=
  eqN V 154 rfl (by decide)
theorem e_v102 (V : Vl) : val V main_v102 = ((broadcastInDim S1700000 ![] bcast_S_S1700000) : (⟨S_, .i32⟩ : BufTy).Contents (Elt Ideal) → (⟨S1700000, .i32⟩ : BufTy).Contents (Elt Ideal)) (val V main_c_23) :=
  eqU V 155 rfl (by decide) (by decide)
theorem e_v103 (V : Vl) : val V main_v103 = ((cmpi .slt) : (⟨S1700000, .i32⟩ : BufTy).Contents (Elt Ideal) → (⟨S1700000, .i32⟩ : BufTy).Contents (Elt Ideal) → (⟨S1700000, .i1⟩ : BufTy).Contents (Elt Ideal)) (val V main_v73) (val V main_v102) :=
  eqB V 156 rfl (by decide) (by decide) (by decide)
theorem e_c_24 (V : Vl) : val V main_c_24 = constantI S_ 32 100000#32 :=
  eqN V 157 rfl (by decide)
theorem e_v104 (V : Vl) : val V main_v104 = ((broadcastInDim S1700000 ![] bcast_S_S1700000) : (⟨S_, .i32⟩ : BufTy).Contents (Elt Ideal) → (⟨S1700000, .i32⟩ : BufTy).Contents (Elt Ideal)) (val V main_c_24) :=
  eqU V 158 rfl (by decide) (by decide)
theorem e_v105 (V : Vl) : val V main_v105 = ((addi) : (⟨S1700000, .i32⟩ : BufTy).Contents (Elt Ideal) → (⟨S1700000, .i32⟩ : BufTy).Contents (Elt Ideal) → (⟨S1700000, .i32⟩ : BufTy).Contents (Elt Ideal)) (val V main_v73) (val V main_v104) :=
  eqB V 159 rfl (by decide) (by decide) (by decide)
theorem e_v106 (V : Vl) : val V main_v106 = ((select) : (⟨S1700000, .i1⟩ : BufTy).Contents (Elt Ideal) → (⟨S1700000, .i32⟩ : BufTy).Contents (Elt Ideal) → (⟨S1700000, .i32⟩ : BufTy).Contents (Elt Ideal) → (⟨S1700000, .i32⟩ : BufTy).Contents (Elt Ideal)) (val V main_v103) (val V main_v105) (val V main_v73) :=
  eqT V 160 rfl (by decide) (by decide) (by decide) (by decide)
theorem e_v107 (V : Vl) : val V main_v107 = ((broadcastInDim S1700000x1 ![0] bcast_S1700000_S1700000x1_0) : (⟨S1700000, .i32⟩ : BufTy).Contents (Elt Ideal) → (⟨S1700000x1, .i32⟩ : BufTy).Contents (Elt Ideal)) (val V main_v106) :=
  eqU V 161 rfl (by decide) (by decide)
theorem e_v108 (V : Vl) : val V main_v108 = ((fun x i => Host.gather gather_S100000x128_S1700000x1_S1700000x128_1_0_n_n_0_1_1128 x i) : (⟨S100000x128, .f32⟩ : BufTy).Contents (Elt Ideal) → (⟨S1700000x1, .i32⟩ : BufTy).Contents (Elt Ideal) → (⟨S1700000x128, .f32⟩ : BufTy).Contents (Elt Ideal)) (val V main_v69) (val V main_v107) :=
  eqB V 162 rfl (by decide) (by decide) (by decide)
theorem e_v109 (V : Vl) : val V main_v109 = ((broadcastInDim S1700000x1 ![0] bcast_S1700000_S1700000x1_0) : (⟨S1700000, .f32⟩ : BufTy).Contents (Elt Ideal) → (⟨S1700000x1, .f32⟩ : BufTy).Contents (Elt Ideal)) (val V main_v101) :=
  eqU V 163 rfl (by decide) (by decide)
theorem e_v110 (V : Vl) : val V main_v110 = ((broadcastInDim S1700000x128 ![0, 1] bcast_S1700000x1_S1700000x128_0_1) : (⟨S1700000x1, .f32⟩ : BufTy).Contents (Elt Ideal) → (⟨S1700000x128, .f32⟩ : BufTy).Contents (Elt Ideal)) (val V main_v109) :=
  eqU V 164 rfl (by decide) (by decide)
theorem e_v111 (V : Vl) : val V main_v111 = ((mulf (F := Ideal) (φ := .f32)) : (⟨S1700000x128, .f32⟩ : BufTy).Contents (Elt Ideal) → (⟨S1700000x128, .f32⟩ : BufTy).Contents (Elt Ideal) → (⟨S1700000x128, .f32⟩ : BufTy).Contents (Elt Ideal)) (val V main_v108) (val V main_v110) :=
  eqB V 165 rfl (by decide) (by decide) (by decide)
theorem e_cst_25 (V : Vl) : val V main_cst_25 = constant (F := Ideal) S_ .f32 0x00000000#32 :=
  eqN V 166 rfl (by decide)
theorem e_v112 (V : Vl) : val V main_v112 = ((broadcastInDim S100000x128 ![] bcast_S_S100000x128) : (⟨S_, .f32⟩ : BufTy).Contents (Elt Ideal) → (⟨S100000x128, .f32⟩ : BufTy).Contents (Elt Ideal)) (val V main_cst_25) :=
  eqU V 167 rfl (by decide) (by decide)
theorem e_v113 (V : Vl) : val V main_v113 = ((broadcastInDim S1700000x1 ![0] bcast_S1700000_S1700000x1_0) : (⟨S1700000, .i32⟩ : BufTy).Contents (Elt Ideal) → (⟨S1700000x1, .i32⟩ : BufTy).Contents (Elt Ideal)) (val V main_v76) :=
  eqU V 168 rfl (by decide) (by decide)
theorem e_v114 (V : Vl) : val V main_v114 = ((fun x i u => Host.scatterAdd (F := Ideal) (φ := .f32) scatter_S100000x128_S1700000x1_S1700000x128_1_0_0_1 x i u) : (⟨S100000x128, .f32⟩ : BufTy).Contents (Elt Ideal) → (⟨S1700000x1, .i32⟩ : BufTy).Contents (Elt Ideal) → (⟨S1700000x128, .f32⟩ : BufTy).Contents (Elt Ideal) → (⟨S100000x128, .f32⟩ : BufTy).Contents (Elt Ideal)) (val V main_v112) (val V main_v113) (val V main_v111) :=
  eqT V 169 rfl (by decide) (by decide) (by decide) (by decide)
theorem e_v115 (V : Vl) : val V main_v115 = ((broadcastInDim S1x128 ![1] bcast_S128_S1x128_1) : (⟨S128, .f32⟩ : BufTy).Contents (Elt Ideal) → (⟨S1x128, .f32⟩ : BufTy).Contents (Elt Ideal)) (val V main_arg7) :=
  eqU V 170 rfl (by decide) (by decide)
theorem e_v116 (V : Vl) : val V main_v116 = ((broadcastInDim S100000x128 ![0, 1] bcast_S1x128_S100000x128_0_1) : (⟨S1x128, .f32⟩ : BufTy).Contents (Elt Ideal) → (⟨S100000x128, .f32⟩ : BufTy).Contents (Elt Ideal)) (val V main_v115) :=
  eqU V 171 rfl (by decide) (by decide)
theorem e_v117 (V : Vl) : val V main_v117 = ((addf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_v114) (val V main_v116) :=
  eqB V 172 rfl (by decide) (by decide) (by decide)
theorem e_cst_26 (V : Vl) : val V main_cst_26 = constant (F := Ideal) S_ .f32 0x00000000#32 :=
  eqN V 173 rfl (by decide)
theorem e_v118 (V : Vl) : val V main_v118 = ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal)) (val V main_v117) (val V main_cst_26) :=
  eqB V 174 rfl (by decide) (by decide) (by decide)
theorem e_cst_27 (V : Vl) : val V main_cst_27 = constant (F := Ideal) S_ .f32 0x47C35000#32 :=
  eqN V 175 rfl (by decide)
theorem e_v119 (V : Vl) : val V main_v119 = ((broadcastInDim S128 ![] bcast_S_S128) : (⟨S_, .f32⟩ : BufTy).Contents (Elt Ideal) → (⟨S128, .f32⟩ : BufTy).Contents (Elt Ideal)) (val V main_cst_27) :=
  eqU V 176 rfl (by decide) (by decide)
theorem e_v120 (V : Vl) : val V main_v120 = ((Host.divf (F := Ideal) (φ := .f32)) : (⟨S128, .f32⟩ : BufTy).Contents (Elt Ideal) → (⟨S128, .f32⟩ : BufTy).Contents (Elt Ideal) → (⟨S128, .f32⟩ : BufTy).Contents (Elt Ideal)) (val V main_v118) (val V main_v119) :=
  eqB V 177 rfl (by decide) (by decide) (by decide)
theorem e_c_28 (V : Vl) : val V main_c_28 = constantI S_ 32 0#32 :=
  eqN V 178 rfl (by decide)
theorem e_call4_cst (V : Vl) : val V main_call4_cst = constant (F := Ideal) S_ .f32 0x00000000#32 :=
  eqN V 179 rfl (by decide)
theorem e_call4_v0 (V : Vl) : val V main_call4_v0 = ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal)) (val V main_v117) (val V main_call4_cst) :=
  eqB V 180 rfl (by decide) (by decide) (by decide)
theorem e_call4_v1 (V : Vl) : val V main_call4_v1 = ((broadcastInDim S1x128 ![1] bcast_S128_S1x128_1) : (⟨S128, .f32⟩ : BufTy).Contents (Elt Ideal) → (⟨S1x128, .f32⟩ : BufTy).Contents (Elt Ideal)) (val V main_call4_v0) :=
  eqU V 181 rfl (by decide) (by decide)
theorem e_call4_cst_0 (V : Vl) : val V main_call4_cst_0 = constant (F := Ideal) S_ .f32 0x47C35000#32 :=
  eqN V 182 rfl (by decide)
theorem e_call4_v2 (V : Vl) : val V main_call4_v2 = ((broadcastInDim S1x128 ![] bcast_S_S1x128) : (⟨S_, .f32⟩ : BufTy).Contents (Elt Ideal) → (⟨S1x128, .f32⟩ : BufTy).Contents (Elt Ideal)) (val V main_call4_cst_0) :=
  eqU V 183 rfl (by decide) (by decide)
theorem e_call4_v3 (V : Vl) : val V main_call4_v3 = ((Host.divf (F := Ideal) (φ := .f32)) : (⟨S1x128, .f32⟩ : BufTy).Contents (Elt Ideal) → (⟨S1x128, .f32⟩ : BufTy).Contents (Elt Ideal) → (⟨S1x128, .f32⟩ : BufTy).Contents (Elt Ideal)) (val V main_call4_v1) (val V main_call4_v2) :=
  eqB V 184 rfl (by decide) (by decide) (by decide)
theorem e_call4_v4 (V : Vl) : val V main_call4_v4 = ((broadcastInDim S100000x128 ![0, 1] bcast_S1x128_S100000x128_0_1) : (⟨S1x128, .f32⟩ : BufTy).Contents (Elt Ideal) → (⟨S100000x128, .f32⟩ : BufTy).Contents (Elt Ideal)) (val V main_call4_v3) :=
  eqU V 185 rfl (by decide) (by decide)
theorem e_call4_v5 (V : Vl) : val V main_call4_v5 = ((subf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_v117) (val V main_call4_v4) :=
  eqB V 186 rfl (by decide) (by decide) (by decide)
theorem e_call4_v6 (V : Vl) : val V main_call4_v6 = ((mulf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_call4_v5) (val V main_call4_v5) :=
  eqB V 187 rfl (by decide) (by decide) (by decide)
theorem e_call4_v7 (V : Vl) : val V main_call4_v7 = ((sitofp (F := Ideal) .f32) : (⟨S_, .i32⟩ : BufTy).Contents (Elt Ideal) → (⟨S_, .f32⟩ : BufTy).Contents (Elt Ideal)) (val V main_c_28) :=
  eqU V 188 rfl (by decide) (by decide)
theorem e_call4_cst_1 (V : Vl) : val V main_call4_cst_1 = constant (F := Ideal) S_ .f32 0x47C35000#32 :=
  eqN V 189 rfl (by decide)
theorem e_call4_v8 (V : Vl) : val V main_call4_v8 = ((subf (F := Ideal) (φ := .f32)) : (⟨S_, .f32⟩ : BufTy).Contents (Elt Ideal) → (⟨S_, .f32⟩ : BufTy).Contents (Elt Ideal) → (⟨S_, .f32⟩ : BufTy).Contents (Elt Ideal)) (val V main_call4_cst_1) (val V main_call4_v7) :=
  eqB V 190 rfl (by decide) (by decide) (by decide)
theorem e_call4_cst_2 (V : Vl) : val V main_call4_cst_2 = constant (F := Ideal) S_ .f32 0x00000000#32 :=
  eqN V 191 rfl (by decide)
theorem e_call4_v9 (V : Vl) : val V main_call4_v9 = ((fun x v => Host.reduceAdd (F := Ideal) (φ := .f32) x v reducesTo_S100000x128_S128_d0 h_S_) : (⟨S100000x128, .f32⟩ : BufTy).Contents (Elt Ideal) → (⟨S_, .f32⟩ : BufTy).Contents (Elt Ideal) → (⟨S128, .f32⟩ : BufTy).Contents (Elt Ideal)) (val V main_call4_v6) (val V main_call4_cst_2) :=
  eqB V 192 rfl (by decide) (by decide) (by decide)
theorem e_call4_v10 (V : Vl) : val V main_call4_v10 = ((broadcastInDim S128 ![] bcast_S_S128) : (⟨S_, .f32⟩ : BufTy).Contents (Elt Ideal) → (⟨S128, .f32⟩ : BufTy).Contents (Elt Ideal)) (val V main_call4_v8) :=
  eqU V 193 rfl (by decide) (by decide)
theorem e_call4_v11 (V : Vl) : val V main_call4_v11 = ((Host.divf (F := Ideal) (φ := .f32)) : (⟨S128, .f32⟩ : BufTy).Contents (Elt Ideal) → (⟨S128, .f32⟩ : BufTy).Contents (Elt Ideal) → (⟨S128, .f32⟩ : BufTy).Contents (Elt Ideal)) (val V main_call4_v9) (val V main_call4_v10) :=
  eqB V 194 rfl (by decide) (by decide) (by decide)
theorem e_call4_cst_3 (V : Vl) : val V main_call4_cst_3 = constant (F := Ideal) S_ .f32 0x00000000#32 :=
  eqN V 195 rfl (by decide)
theorem e_call4_v12 (V : Vl) : val V main_call4_v12 = ((cmpf (F := Ideal) (φ := .f32) .ogt) : (⟨S_, .f32⟩ : BufTy).Contents (Elt Ideal) → (⟨S_, .f32⟩ : BufTy).Contents (Elt Ideal) → (⟨S_, .i1⟩ : BufTy).Contents (Elt Ideal)) (val V main_call4_v8) (val V main_call4_cst_3) :=
  eqB V 196 rfl (by decide) (by decide) (by decide)
theorem e_call4_cst_4 (V : Vl) : val V main_call4_cst_4 = constant (F := Ideal) S_ .f32 0x7FC00000#32 :=
  eqN V 197 rfl (by decide)
theorem e_call4_call0_v0 (V : Vl) : val V main_call4_call0_v0 = ((id) : (⟨S_, .f32⟩ : BufTy).Contents (Elt Ideal) → (⟨S_, .f32⟩ : BufTy).Contents (Elt Ideal)) (val V main_call4_cst_4) :=
  eqU V 198 rfl (by decide) (by decide)
theorem e_call4_call0_v1 (V : Vl) : val V main_call4_call0_v1 = ((broadcastInDim S128 ![] bcast_S_S128) : (⟨S_, .f32⟩ : BufTy).Contents (Elt Ideal) → (⟨S128, .f32⟩ : BufTy).Contents (Elt Ideal)) (val V main_call4_call0_v0) :=
  eqU V 199 rfl (by decide) (by decide)
theorem e_v121 (V : Vl) : val V main_v121 = ((fun p a b => select (broadcastInDim S128 ![] bcast_S_S128 p) a b) : (⟨S_, .i1⟩ : BufTy).Contents (Elt Ideal) → (⟨S128, .f32⟩ : BufTy).Contents (Elt Ideal) → (⟨S128, .f32⟩ : BufTy).Contents (Elt Ideal) → (⟨S128, .f32⟩ : BufTy).Contents (Elt Ideal)) (val V main_call4_v12) (val V main_call4_v11) (val V main_call4_call0_v1) :=
  eqT V 200 rfl (by decide) (by decide) (by decide) (by decide)
theorem e_v122 (V : Vl) : val V main_v122 = ((broadcastInDim S1x128 ![1] bcast_S128_S1x128_1) : (⟨S128, .f32⟩ : BufTy).Contents (Elt Ideal) → (⟨S1x128, .f32⟩ : BufTy).Contents (Elt Ideal)) (val V main_v120) :=
  eqU V 201 rfl (by decide) (by decide)
theorem e_v123 (V : Vl) : val V main_v123 = ((broadcastInDim S100000x128 ![0, 1] bcast_S1x128_S100000x128_0_1) : (⟨S1x128, .f32⟩ : BufTy).Contents (Elt Ideal) → (⟨S100000x128, .f32⟩ : BufTy).Contents (Elt Ideal)) (val V main_v122) :=
  eqU V 202 rfl (by decide) (by decide)
theorem e_v124 (V : Vl) : val V main_v124 = ((subf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_v117) (val V main_v123) :=
  eqB V 203 rfl (by decide) (by decide) (by decide)
theorem e_cst_29 (V : Vl) : val V main_cst_29 = constant (F := Ideal) S_ .f32 0x3727C5AC#32 :=
  eqN V 204 rfl (by decide)
theorem e_v125 (V : Vl) : val V main_v125 = ((broadcastInDim S128 ![] bcast_S_S128) : (⟨S_, .f32⟩ : BufTy).Contents (Elt Ideal) → (⟨S128, .f32⟩ : BufTy).Contents (Elt Ideal)) (val V main_cst_29) :=
  eqU V 205 rfl (by decide) (by decide)
theorem e_v126 (V : Vl) : val V main_v126 = ((addf (F := Ideal) (φ := .f32)) : (⟨S128, .f32⟩ : BufTy).Contents (Elt Ideal) → (⟨S128, .f32⟩ : BufTy).Contents (Elt Ideal) → (⟨S128, .f32⟩ : BufTy).Contents (Elt Ideal)) (val V main_v121) (val V main_v125) :=
  eqB V 206 rfl (by decide) (by decide) (by decide)
theorem e_v127 (V : Vl) : val V main_v127 = ((Host.rsqrt (F := Ideal) (φ := .f32)) : (⟨S128, .f32⟩ : BufTy).Contents (Elt Ideal) → (⟨S128, .f32⟩ : BufTy).Contents (Elt Ideal)) (val V main_v126) :=
  eqU V 207 rfl (by decide) (by decide)
theorem e_v128 (V : Vl) : val V main_v128 = ((broadcastInDim S1x128 ![1] bcast_S128_S1x128_1) : (⟨S128, .f32⟩ : BufTy).Contents (Elt Ideal) → (⟨S1x128, .f32⟩ : BufTy).Contents (Elt Ideal)) (val V main_v127) :=
  eqU V 208 rfl (by decide) (by decide)
theorem e_v129 (V : Vl) : val V main_v129 = ((broadcastInDim S100000x128 ![0, 1] bcast_S1x128_S100000x128_0_1) : (⟨S1x128, .f32⟩ : BufTy).Contents (Elt Ideal) → (⟨S100000x128, .f32⟩ : BufTy).Contents (Elt Ideal)) (val V main_v128) :=
  eqU V 209 rfl (by decide) (by decide)
theorem e_v130 (V : Vl) : val V main_v130 = ((mulf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_v124) (val V main_v129) :=
  eqB V 210 rfl (by decide) (by decide) (by decide)
theorem e_v131 (V : Vl) : val V main_v131 = ((broadcastInDim S1x128 ![1] bcast_S128_S1x128_1) : (⟨S128, .f32⟩ : BufTy).Contents (Elt Ideal) → (⟨S1x128, .f32⟩ : BufTy).Contents (Elt Ideal)) (val V main_arg8) :=
  eqU V 211 rfl (by decide) (by decide)
theorem e_v132 (V : Vl) : val V main_v132 = ((broadcastInDim S100000x128 ![0, 1] bcast_S1x128_S100000x128_0_1) : (⟨S1x128, .f32⟩ : BufTy).Contents (Elt Ideal) → (⟨S100000x128, .f32⟩ : BufTy).Contents (Elt Ideal)) (val V main_v131) :=
  eqU V 212 rfl (by decide) (by decide)
theorem e_v133 (V : Vl) : val V main_v133 = ((mulf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_v130) (val V main_v132) :=
  eqB V 213 rfl (by decide) (by decide) (by decide)
theorem e_v134 (V : Vl) : val V main_v134 = ((broadcastInDim S1x128 ![1] bcast_S128_S1x128_1) : (⟨S128, .f32⟩ : BufTy).Contents (Elt Ideal) → (⟨S1x128, .f32⟩ : BufTy).Contents (Elt Ideal)) (val V main_arg9) :=
  eqU V 214 rfl (by decide) (by decide)
theorem e_v135 (V : Vl) : val V main_v135 = ((broadcastInDim S100000x128 ![0, 1] bcast_S1x128_S100000x128_0_1) : (⟨S1x128, .f32⟩ : BufTy).Contents (Elt Ideal) → (⟨S100000x128, .f32⟩ : BufTy).Contents (Elt Ideal)) (val V main_v134) :=
  eqU V 215 rfl (by decide) (by decide)
theorem e_v136 (V : Vl) : val V main_v136 = ((addf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_v133) (val V main_v135) :=
  eqB V 216 rfl (by decide) (by decide) (by decide)
theorem e_call5_cst (V : Vl) : val V main_call5_cst = constant (F := Ideal) S_ .f32 0x00000000#32 :=
  eqN V 217 rfl (by decide)
theorem e_call5_v0 (V : Vl) : val V main_call5_v0 = ((broadcastInDim S100000x128 ![] bcast_S_S100000x128) : (⟨S_, .f32⟩ : BufTy).Contents (Elt Ideal) → (⟨S100000x128, .f32⟩ : BufTy).Contents (Elt Ideal)) (val V main_call5_cst) :=
  eqU V 218 rfl (by decide) (by decide)
theorem e_v137 (V : Vl) : val V main_v137 = ((maximumf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) (val V main_v136) (val V main_call5_v0) :=
  eqB V 219 rfl (by decide) (by decide) (by decide)
theorem e_v138 (V : Vl) : val V main_v138 = ((fun l r => Host.dotGeneral (F := Ideal) (φ₁ := .f32) (φ₂ := .f32) dot_S100000x128_S128x64_S100000x64_1_0_0_1_n_n none l r) : (⟨S100000x128, .f32⟩ : BufTy).Contents (Elt Ideal) → (⟨S128x64, .f32⟩ : BufTy).Contents (Elt Ideal) → (⟨S100000x64, .f32⟩ : BufTy).Contents (Elt Ideal)) (val V main_v137) (val V main_arg10) :=
  eqB V 220 rfl (by decide) (by decide) (by decide)
theorem e_v139 (V : Vl) : val V main_v139 = ((broadcastInDim S1x64 ![1] bcast_S64_S1x64_1) : (⟨S64, .f32⟩ : BufTy).Contents (Elt Ideal) → (⟨S1x64, .f32⟩ : BufTy).Contents (Elt Ideal)) (val V main_arg11) :=
  eqU V 221 rfl (by decide) (by decide)
theorem e_v140 (V : Vl) : val V main_v140 = ((broadcastInDim S100000x64 ![0, 1] bcast_S1x64_S100000x64_0_1) : (⟨S1x64, .f32⟩ : BufTy).Contents (Elt Ideal) → (⟨S100000x64, .f32⟩ : BufTy).Contents (Elt Ideal)) (val V main_v139) :=
  eqU V 222 rfl (by decide) (by decide)
theorem e_v141 (V : Vl) : val V main_v141 = ((addf (F := Ideal) (φ := .f32)) : (⟨S100000x64, .f32⟩ : BufTy).Contents (Elt Ideal) → (⟨S100000x64, .f32⟩ : BufTy).Contents (Elt Ideal) → (⟨S100000x64, .f32⟩ : BufTy).Contents (Elt Ideal)) (val V main_v138) (val V main_v140) :=
  eqB V 223 rfl (by decide) (by decide) (by decide)
theorem e_call6_cst (V : Vl) : val V main_call6_cst = constant (F := Ideal) S_ .f32 0xFF800000#32 :=
  eqN V 224 rfl (by decide)
theorem e_call6_v0 (V : Vl) : val V main_call6_v0 = ((fun x v => Host.reduce (FloatOps.maximumf (F := Ideal) (φ := .f32)) x v reducesTo_S100000x64_S100000_d1 h_S_) : (⟨S100000x64, .f32⟩ : BufTy).Contents (Elt Ideal) → (⟨S_, .f32⟩ : BufTy).Contents (Elt Ideal) → (⟨S100000, .f32⟩ : BufTy).Contents (Elt Ideal)) (val V main_v141) (val V main_call6_cst) :=
  eqB V 225 rfl (by decide) (by decide) (by decide)
theorem e_call6_cst_0 (V : Vl) : val V main_call6_cst_0 = constant (F := Ideal) S_ .f32 0xFF800000#32 :=
  eqN V 226 rfl (by decide)
theorem e_call6_v1 (V : Vl) : val V main_call6_v1 = ((broadcastInDim S100000 ![] bcast_S_S100000) : (⟨S_, .f32⟩ : BufTy).Contents (Elt Ideal) → (⟨S100000, .f32⟩ : BufTy).Contents (Elt Ideal)) (val V main_call6_cst_0) :=
  eqU V 227 rfl (by decide) (by decide)
theorem e_call6_v2 (V : Vl) : val V main_call6_v2 = ((maximumf (F := Ideal) (φ := .f32)) : (⟨S100000, .f32⟩ : BufTy).Contents (Elt Ideal) → (⟨S100000, .f32⟩ : BufTy).Contents (Elt Ideal) → (⟨S100000, .f32⟩ : BufTy).Contents (Elt Ideal)) (val V main_call6_v1) (val V main_call6_v0) :=
  eqB V 228 rfl (by decide) (by decide) (by decide)
theorem e_call6_v3 (V : Vl) : val V main_call6_v3 = ((broadcastInDim S100000x1 ![0] bcast_S100000_S100000x1_0) : (⟨S100000, .f32⟩ : BufTy).Contents (Elt Ideal) → (⟨S100000x1, .f32⟩ : BufTy).Contents (Elt Ideal)) (val V main_call6_v2) :=
  eqU V 229 rfl (by decide) (by decide)
theorem e_call6_v4 (V : Vl) : val V main_call6_v4 = ((broadcastInDim S100000x64 ![0, 1] bcast_S100000x1_S100000x64_0_1) : (⟨S100000x1, .f32⟩ : BufTy).Contents (Elt Ideal) → (⟨S100000x64, .f32⟩ : BufTy).Contents (Elt Ideal)) (val V main_call6_v3) :=
  eqU V 230 rfl (by decide) (by decide)
theorem e_call6_v5 (V : Vl) : val V main_call6_v5 = ((subf (F := Ideal) (φ := .f32)) : (⟨S100000x64, .f32⟩ : BufTy).Contents (Elt Ideal) → (⟨S100000x64, .f32⟩ : BufTy).Contents (Elt Ideal) → (⟨S100000x64, .f32⟩ : BufTy).Contents (Elt Ideal)) (val V main_v141) (val V main_call6_v4) :=
  eqB V 231 rfl (by decide) (by decide) (by decide)
theorem e_call6_v6 (V : Vl) : val V main_call6_v6 = ((Host.exp (F := Ideal) (φ := .f32)) : (⟨S100000x64, .f32⟩ : BufTy).Contents (Elt Ideal) → (⟨S100000x64, .f32⟩ : BufTy).Contents (Elt Ideal)) (val V main_call6_v5) :=
  eqU V 232 rfl (by decide) (by decide)
theorem e_call6_cst_1 (V : Vl) : val V main_call6_cst_1 = constant (F := Ideal) S_ .f32 0x00000000#32 :=
  eqN V 233 rfl (by decide)
theorem e_call6_v7 (V : Vl) : val V main_call6_v7 = ((fun x v => Host.reduceAdd (F := Ideal) (φ := .f32) x v reducesTo_S100000x64_S100000_d1 h_S_) : (⟨S100000x64, .f32⟩ : BufTy).Contents (Elt Ideal) → (⟨S_, .f32⟩ : BufTy).Contents (Elt Ideal) → (⟨S100000, .f32⟩ : BufTy).Contents (Elt Ideal)) (val V main_call6_v6) (val V main_call6_cst_1) :=
  eqB V 234 rfl (by decide) (by decide) (by decide)
theorem e_call6_v8 (V : Vl) : val V main_call6_v8 = ((broadcastInDim S100000x1 ![0] bcast_S100000_S100000x1_0) : (⟨S100000, .f32⟩ : BufTy).Contents (Elt Ideal) → (⟨S100000x1, .f32⟩ : BufTy).Contents (Elt Ideal)) (val V main_call6_v7) :=
  eqU V 235 rfl (by decide) (by decide)
theorem e_call6_v9 (V : Vl) : val V main_call6_v9 = ((Host.log (F := Ideal) (φ := .f32)) : (⟨S100000x1, .f32⟩ : BufTy).Contents (Elt Ideal) → (⟨S100000x1, .f32⟩ : BufTy).Contents (Elt Ideal)) (val V main_call6_v8) :=
  eqU V 236 rfl (by decide) (by decide)
theorem e_call6_v10 (V : Vl) : val V main_call6_v10 = ((broadcastInDim S100000x64 ![0, 1] bcast_S100000x1_S100000x64_0_1) : (⟨S100000x1, .f32⟩ : BufTy).Contents (Elt Ideal) → (⟨S100000x64, .f32⟩ : BufTy).Contents (Elt Ideal)) (val V main_call6_v9) :=
  eqU V 237 rfl (by decide) (by decide)
theorem e_v142 (V : Vl) : val V main_v142 = ((subf (F := Ideal) (φ := .f32)) : (⟨S100000x64, .f32⟩ : BufTy).Contents (Elt Ideal) → (⟨S100000x64, .f32⟩ : BufTy).Contents (Elt Ideal) → (⟨S100000x64, .f32⟩ : BufTy).Contents (Elt Ideal)) (val V main_call6_v5) (val V main_call6_v10) :=
  eqB V 238 rfl (by decide) (by decide) (by decide)

end Cert.ReferenceIdeal.RefVal

end
-- ==== Proof.RefVal.Layer2.lean ====
/-
  Layer 2 of the reference read back: the extended endpoint words, the degree and its factor, the wrapped start
  words, the projected features and the layer's output, each at an index, from the run's equations.
-/
import proofs.«156713_j13589276524898_2_alg».proof.Proof.RefVal.Eqs1
import proofs.«156713_j13589276524898_2_alg».proof.Proof.RefVal.Eqs2
import proofs.«156713_j13589276524898_2_alg».proof.Proof.RefVal.Args
import proofs.«156713_j13589276524898_2_alg».proof.Proof.RefVal.LayerOps

noncomputable section

open scoped BigOperators

namespace Cert.ReferenceIdeal.RefVal

open Cert.ReferenceIdeal Cert.ReferenceIdeal.Gen
open Idealize.ShloMosaic Idealize.ShloMosaic.ValueIdx Idealize.SL.Sem Cert.LibIndexRead Cert.LibGcnStage

/-! ## The extended endpoint words -/

theorem src2_eq (V : Vl) : val V main_v73 = extC (V (Proc.devRef .tc main_arg1)) 0 slices_S2x1600000_S1x1600000_0_0 := by
  rw [e_v73, e_v72, e_v71, e_v70, val_arg1]; rfl
theorem dst2_eq (V : Vl) : val V main_v76 = extC (V (Proc.devRef .tc main_arg1)) 1 slices_S2x1600000_S1x1600000_1_0 := by
  rw [e_v76, e_v75, e_v74, e_v70, val_arg1]; rfl

theorem src2_read (V : Vl) (e : Fin 1700000) : val V main_v73 (ix1 e) = gOf V 0 e := by
  rw [src2_eq]; exact extC_apply _ 0 _ 0 rfl e
theorem dst2_read (V : Vl) (e : Fin 1700000) : val V main_v76 (ix1 e) = gOf V 1 e := by
  rw [dst2_eq]; exact extC_apply _ 1 _ 1 rfl e

/-! ## The degree and its factor -/

theorem deg2_read (V : Vl) (i : Fin 100000) : val V main_v80 (ix1 i) = Cert.Stages.deg (gOf V) i := by
  rw [e_v80, e_v78, e_cst_15, e_v79, e_v77, e_cst_14]
  exact deg_apply (gOf V) (val V main_v76) (dst2_read V) i

theorem dinv2_read (V : Vl) (i : Fin 100000) : val V main_v86 (ix1 i) = Cert.Stages.dinv (gOf V) i := by
  rw [e_v86, e_v82, e_v81, e_cst_16, e_v85, e_v84, e_v83, e_cst_17, e_call3_v1, e_call3_v0, e_cst_18]
  exact dinv_apply (gOf V) (val V main_v80) (deg2_read V) i

/-! ## The wrapped start words -/

theorem wsD2_read (V : Vl) (e : Fin 1700000) : val V main_v91 (ix1 e) = wrapNeg 100000#32 (val V main_v73 (ix1 e)) := by
  rw [e_v91, e_v88, e_v87, e_c_19, e_v90, e_v89, e_c_20]
  exact wrap_apply 100000#32 (val V main_v73) e
theorem wdD2_read (V : Vl) (e : Fin 1700000) : val V main_v98 (ix1 e) = wrapNeg 100000#32 (val V main_v76 (ix1 e)) := by
  rw [e_v98, e_v95, e_v94, e_c_21, e_v97, e_v96, e_c_22]
  exact wrap_apply 100000#32 (val V main_v76) e
theorem wsH2_read (V : Vl) (e : Fin 1700000) : val V main_v106 (ix1 e) = wrapNeg 100000#32 (val V main_v73 (ix1 e)) := by
  rw [e_v106, e_v103, e_v102, e_c_23, e_v105, e_v104, e_c_24]
  exact wrap_apply 100000#32 (val V main_v73) e

/-! ## The layer -/

theorem out2_eq (V : Vl) : val V main_v117 = layerC (val V main_v106) (val V main_v91) (val V main_v98) (val V main_v76)
    (val V main_v86) (val V main_v69) (val V main_arg7) := by
  rw [e_v117, e_v114, e_v116, e_v115, e_v112, e_cst_25, e_v113, e_v111, e_v110, e_v109, e_v108, e_v107, e_v101, e_v93, e_v92, e_v100, e_v99]
  rfl

/-- The layer's output at (i, j), for any index-level reading `HM` of the projected features. -/
theorem out2_read (V : Vl) (HM : Cert.Stages.Mat 100000 128) (hH : ∀ i j, val V main_v69 (ix2 i j) = HM i j)
    (bR : Cert.Stages.Row 128) (hb : ∀ j, val V main_arg7 (ix1 j) = bR j) (i : Fin 100000) (j : Fin 128) :
    val V main_v117 (ix2 i j)
      = (Cert.Stages.zero + ∑ e ∈ Cert.Stages.into (gOf V) i,
          HM (Cert.Stages.srcRow (gOf V) e) j
            * (Cert.Stages.dinv (gOf V) (Cert.Stages.srcRow (gOf V) e) * Cert.Stages.dinv (gOf V) (Cert.Stages.dstRow (gOf V) e)))
        + bR j := by
  rw [out2_eq]
  exact layerC_apply (gOf V) (val V main_v73) (val V main_v76) _ _ _ (src2_read V) (dst2_read V)
    (wsH2_read V) (wsD2_read V) (wdD2_read V) _ (dinv2_read V) _ HM hH _ bR hb i j

end Cert.ReferenceIdeal.RefVal

end
-- ==== Proof.RefVal.ScalarBcast.lean ====
/-
  A rank-zero array broadcast to any shape reads its one entry everywhere.
-/
import Idealize.ShloMosaic.Lib.Pipeline.Value
import Idealize.ShloMosaic.Lib.ValueIdx
import Idealize.ShloMosaic.PureOps.Ideal.Laws
import proofs.«156713_j13589276524898_2_alg».proof.Proof.Stages
import proofs.«156713_j13589276524898_2_alg».proof.Proof.LibGcnStage
import proofs.«156713_j13589276524898_2_alg».proof.Proof.Gen.ReferenceIdeal

noncomputable section

namespace Cert.ReferenceIdeal.RefVal

open Cert.ReferenceIdeal Cert.ReferenceIdeal.Gen
open Idealize.ShloMosaic Idealize.ShloMosaic.ValueIdx

/-- A scalar broadcast to any shape reads the scalar everywhere. -/
theorem bcastS {α : Type} {t : Shape} (h : S_.BroadcastsInDim t (![] : Fin 0 → Fin t.rank)) (c : S_.Idx → α) (j : t.Idx) :
    broadcastInDim t ![] h c j = c ix0 :=
  broadcastInDim_apply _ h c j ix0 (fun a => a.elim0)

end Cert.ReferenceIdeal.RefVal

end
-- ==== Proof.RefVal.BnOps.lean ====
/-
  The reference's batch normalisation read at an index, for any contents of the array it normalises: a column's
  sum, mean and (outlined) variance over the 100000 rows, then normalise, scale, shift and clip at zero.
-/
import proofs.«156713_j13589276524898_2_alg».proof.Proof.RefVal.ScalarBcast

noncomputable section

open scoped BigOperators

namespace Cert.ReferenceIdeal.RefVal

open Cert.ReferenceIdeal Cert.ReferenceIdeal.Gen
open Idealize.ShloMosaic Idealize.ShloMosaic.ValueIdx Cert.LibGcnStage

/-- A host sum of a 100000-by-128 array down its columns, read at column `j`: the initial value plus the column's sum. -/
theorem colsum_apply (x : FVec Ideal S100000x128 .f32) (v : FVec Ideal S_ .f32) (j : Fin 128) :
    Host.reduceAdd (F := Ideal) x v reducesTo_S100000x128_S128_d0 h_S_ (ix1 j) = v ix0 + ∑ k : Fin 100000, x (ix2 k j) := by
  have h : S100000x128.Reduces [0] S128 := by decide
  refine (Ideal.hostReduceAdd_single reducesTo_S100000x128_S128_d0 h x _ (ix1 j)).trans ?_
  refine congrArg₂ (· + ·) (congrArg v (eq_ix0 _)) ?_
  refine Finset.sum_congr rfl (fun k _ => congrArg x ?_)
  funext c; apply Fin.ext; fin_cases c <;> rfl

/-- A 128-vector as a row repeated over the 100000 rows. -/
def rowsC {α : Type} (v : S128.Idx → α) : S100000x128.Idx → α :=
  broadcastInDim S100000x128 ![0, 1] bcast_S1x128_S100000x128_0_1 (broadcastInDim S1x128 ![1] bcast_S128_S1x128_1 v)

theorem rowsC_apply {α : Type} (v : S128.Idx → α) (i : Fin 100000) (j : Fin 128) : rowsC v (ix2 i j) = v (ix1 j) :=
  (bcast_rows (by decide) _ _ i j).trans (bcast_row1 (by decide) _ _ 0 j)

/-- The column means. -/
def meanC (Y : FVec Ideal S100000x128 .f32) : FVec Ideal S128 .f32 :=
  Host.divf (F := Ideal) (Host.reduceAdd (F := Ideal) Y (constant (F := Ideal) S_ .f32 0x00000000#32) reducesTo_S100000x128_S128_d0 h_S_)
    (broadcastInDim S128 ![] bcast_S_S128 (constant (F := Ideal) S_ .f32 0x47C35000#32))

theorem meanC_apply (Y : FVec Ideal S100000x128 .f32) (YM : Cert.Stages.Mat 100000 128) (hY : ∀ i j, Y (ix2 i j) = YM i j)
    (j : Fin 128) : meanC Y (ix1 j) = Cert.Stages.meanR YM j := by
  unfold meanC Cert.Stages.meanR Cert.Stages.colSumR
  show Ideal.div (Host.reduceAdd (F := Ideal) Y _ reducesTo_S100000x128_S128_d0 h_S_ (ix1 j)) (broadcastInDim (s := S_) S128 ![] bcast_S_S128 _ (ix1 j)) = _
  rw [colsum_apply, bcastS]
  simp only [hY]
  rfl

/-- The outlined variance: the divisor is the count less the converted degrees-of-freedom word. -/
def varC (Y : FVec Ideal S100000x128 .f32) : FVec Ideal S128 .f32 :=
  select
    (broadcastInDim S128 ![] bcast_S_S128
      (cmpf (F := Ideal) .ogt
        (subf (F := Ideal) (constant (F := Ideal) S_ .f32 0x47C35000#32) (sitofp (F := Ideal) .f32 (constantI S_ 32 0#32)))
        (constant (F := Ideal) S_ .f32 0x00000000#32)))
    (Host.divf (F := Ideal)
      (Host.reduceAdd (F := Ideal)
        (mulf (F := Ideal)
          (subf (F := Ideal) Y (broadcastInDim S100000x128 ![0, 1] bcast_S1x128_S100000x128_0_1
            (Host.divf (F := Ideal)
              (broadcastInDim S1x128 ![1] bcast_S128_S1x128_1
                (Host.reduceAdd (F := Ideal) Y (constant (F := Ideal) S_ .f32 0x00000000#32) reducesTo_S100000x128_S128_d0 h_S_))
              (broadcastInDim S1x128 ![] bcast_S_S1x128 (constant (F := Ideal) S_ .f32 0x47C35000#32)))))
          (subf (F := Ideal) Y (broadcastInDim S100000x128 ![0, 1] bcast_S1x128_S100000x128_0_1
            (Host.divf (F := Ideal)
              (broadcastInDim S1x128 ![1] bcast_S128_S1x128_1
                (Host.reduceAdd (F := Ideal) Y (constant (F := Ideal) S_ .f32 0x00000000#32) reducesTo_S100000x128_S128_d0 h_S_))
              (broadcastInDim S1x128 ![] bcast_S_S1x128 (constant (F := Ideal) S_ .f32 0x47C35000#32))))))
        (constant (F := Ideal) S_ .f32 0x00000000#32) reducesTo_S100000x128_S128_d0 h_S_)
      (broadcastInDim S128 ![] bcast_S_S128
        (subf (F := Ideal) (constant (F := Ideal) S_ .f32 0x47C35000#32) (sitofp (F := Ideal) .f32 (constantI S_ 32 0#32)))))
    (broadcastInDim S128 ![] bcast_S_S128 (id (constant (F := Ideal) S_ .f32 0x7FC00000#32)))

/-- The centred entry the variance squares: the entry less its column's mean. -/
theorem centred_apply (Y : FVec Ideal S100000x128 .f32) (YM : Cert.Stages.Mat 100000 128) (hY : ∀ i j, Y (ix2 i j) = YM i j)
    (k : Fin 100000) (j : Fin 128) :
    subf (F := Ideal) Y (broadcastInDim S100000x128 ![0, 1] bcast_S1x128_S100000x128_0_1
      (Host.divf (F := Ideal)
        (broadcastInDim S1x128 ![1] bcast_S128_S1x128_1
          (Host.reduceAdd (F := Ideal) Y (constant (F := Ideal) S_ .f32 0x00000000#32) reducesTo_S100000x128_S128_d0 h_S_))
        (broadcastInDim S1x128 ![] bcast_S_S1x128 (constant (F := Ideal) S_ .f32 0x47C35000#32)))) (ix2 k j)
      = YM k j - Cert.Stages.meanR YM j := by
  refine (subf_apply _ _ _).trans ?_
  refine congrArg₂ (· - ·) (hY k j) ?_
  refine (bcast_rows (by decide) _ _ k j).trans ?_
  show Ideal.div (broadcastInDim (s := S128) S1x128 ![1] bcast_S128_S1x128_1 _ (ix2 (0 : Fin 1) j)) (broadcastInDim (s := S_) S1x128 ![] bcast_S_S1x128 _ (ix2 (0 : Fin 1) j)) = _
  rw [bcast_row1 (by decide), colsum_apply, bcastS]
  unfold Cert.Stages.meanR Cert.Stages.colSumR
  simp only [hY]
  rfl

theorem varC_apply (Y : FVec Ideal S100000x128 .f32) (YM : Cert.Stages.Mat 100000 128) (hY : ∀ i j, Y (ix2 i j) = YM i j)
    (j : Fin 128) : varC Y (ix1 j) = Cert.Stages.varR YM j := by
  unfold varC Cert.Stages.varR
  refine (select_apply _ _ _ _).trans ?_
  refine congr (congr (congrArg Scalar.select ?_) ?_) ?_
  · exact bcastS _ _ _
  · show Ideal.div (Host.reduceAdd (F := Ideal) _ _ reducesTo_S100000x128_S128_d0 h_S_ (ix1 j)) (broadcastInDim (s := S_) S128 ![] bcast_S_S128 _ (ix1 j)) = _
    rw [colsum_apply, bcastS]
    refine congrArg₂ Ideal.div (congrArg₂ (· + ·) rfl (Finset.sum_congr rfl fun k _ => ?_)) rfl
    refine (mulf_apply _ _ _).trans ?_
    rw [centred_apply Y YM hY k j]
  · exact bcastS _ _ _

/-- Normalise by the mean and the variance, scale, shift, clip at zero. -/
def bnreluC (Y : FVec Ideal S100000x128 .f32) (mean var gam bet : FVec Ideal S128 .f32) : FVec Ideal S100000x128 .f32 :=
  maximumf (F := Ideal)
    (addf (F := Ideal)
      (mulf (F := Ideal)
        (mulf (F := Ideal) (subf (F := Ideal) Y (rowsC mean))
          (rowsC (Host.rsqrt (F := Ideal) (addf (F := Ideal) var (broadcastInDim S128 ![] bcast_S_S128 (constant (F := Ideal) S_ .f32 0x3727C5AC#32))))))
        (rowsC gam))
      (rowsC bet))
    (broadcastInDim S100000x128 ![] bcast_S_S100000x128 (constant (F := Ideal) S_ .f32 0x00000000#32))

theorem bnreluC_apply (Y : FVec Ideal S100000x128 .f32) (mean var gam bet : FVec Ideal S128 .f32)
    (YM : Cert.Stages.Mat 100000 128) (mR vR gR bR : Cert.Stages.Row 128) (hY : ∀ i j, Y (ix2 i j) = YM i j)
    (hm : ∀ j, mean (ix1 j) = mR j) (hv : ∀ j, var (ix1 j) = vR j) (hg : ∀ j, gam (ix1 j) = gR j)
    (hb : ∀ j, bet (ix1 j) = bR j) (i : Fin 100000) (j : Fin 128) :
    bnreluC Y mean var gam bet (ix2 i j) = Cert.Stages.bnrelu YM mR vR gR bR i j := by
  unfold bnreluC Cert.Stages.bnrelu
  show max ((Y (ix2 i j) - rowsC mean (ix2 i j)) * rowsC _ (ix2 i j) * rowsC gam (ix2 i j) + rowsC bet (ix2 i j))
    (broadcastInDim (s := S_) S100000x128 ![] bcast_S_S100000x128 _ (ix2 i j)) = _
  rw [rowsC_apply, rowsC_apply, rowsC_apply, rowsC_apply, bcastS, hY, hm, hg, hb]
  show max ((YM i j - mR j) * Ideal.rsqrt (var (ix1 j) + broadcastInDim (s := S_) S128 ![] bcast_S_S128 _ (ix1 j)) * gR j + bR j) _ = _
  rw [hv, bcastS]
  rfl

end Cert.ReferenceIdeal.RefVal

end
-- ==== Proof.RefVal.Bn1.lean ====
/-
  Layer 1's batch normalisation and clip read back: the column means, the outlined variance and the normalised,
  scaled, shifted and clipped features, each at an index, from the run's equations.
-/
import proofs.«156713_j13589276524898_2_alg».proof.Proof.RefVal.Eqs1
import proofs.«156713_j13589276524898_2_alg».proof.Proof.RefVal.Args
import proofs.«156713_j13589276524898_2_alg».proof.Proof.RefVal.BnOps

noncomputable section

namespace Cert.ReferenceIdeal.RefVal

open Cert.ReferenceIdeal Cert.ReferenceIdeal.Gen
open Idealize.ShloMosaic Idealize.ShloMosaic.ValueIdx Idealize.SL.Sem

theorem mean1_eq (V : Vl) : val V main_v51 = meanC (val V main_v48) := by
  rw [e_v51, e_v50, e_cst_11, e_v49, e_cst_10]; rfl

theorem var1_eq (V : Vl) : val V main_v52 = varC (val V main_v48) := by
  rw [e_v52, e_call1_call0_v1, e_call1_call0_v0, e_call1_cst_4, e_call1_v12, e_call1_cst_3, e_call1_v11,
    e_call1_v10, e_call1_v9, e_call1_cst_2, e_call1_v8, e_call1_cst_1, e_call1_v7, e_call1_v6, e_call1_v5,
    e_call1_v4, e_call1_v3, e_call1_v2, e_call1_cst_0, e_call1_v1, e_call1_v0, e_call1_cst, e_c_12]
  rfl

theorem h1_eq (V : Vl) : val V main_v68 = bnreluC (val V main_v48) (val V main_v51) (val V main_v52)
    (val V main_arg4) (val V main_arg5) := by
  rw [e_v68, e_call2_v0, e_call2_cst, e_v67, e_v66, e_v65, e_v64, e_v63, e_v62,
    e_v61, e_v60, e_v59, e_v58, e_v57, e_v56, e_cst_13, e_v55, e_v54, e_v53]
  rfl

/-- The normalised and clipped features at (i, j), for any index-level reading `YM` of the layer's output. -/
theorem h1_read' (V : Vl) (YM : Cert.Stages.Mat 100000 128) (hY : ∀ i j, val V main_v48 (ix2 i j) = YM i j)
    (gR bR : Cert.Stages.Row 128) (hg : ∀ j, val V main_arg4 (ix1 j) = gR j) (hb : ∀ j, val V main_arg5 (ix1 j) = bR j)
    (i : Fin 100000) (j : Fin 128) :
    val V main_v68 (ix2 i j) = Cert.Stages.bnrelu YM (Cert.Stages.meanR YM) (Cert.Stages.varR YM) gR bR i j := by
  rw [h1_eq]
  exact bnreluC_apply _ _ _ _ _ YM _ _ gR bR hY
    (fun j => by rw [mean1_eq]; exact meanC_apply _ YM hY j)
    (fun j => by rw [var1_eq]; exact varC_apply _ YM hY j) hg hb i j

end Cert.ReferenceIdeal.RefVal

end
-- ==== Proof.RefVal.Bn2.lean ====
/-
  Layer 2's batch normalisation and clip read back: the column means, the outlined variance and the normalised,
  scaled, shifted and clipped features, each at an index, from the run's equations.
-/
import proofs.«156713_j13589276524898_2_alg».proof.Proof.RefVal.Eqs2
import proofs.«156713_j13589276524898_2_alg».proof.Proof.RefVal.Args
import proofs.«156713_j13589276524898_2_alg».proof.Proof.RefVal.BnOps

noncomputable section

namespace Cert.ReferenceIdeal.RefVal

open Cert.ReferenceIdeal Cert.ReferenceIdeal.Gen
open Idealize.ShloMosaic Idealize.ShloMosaic.ValueIdx Idealize.SL.Sem

theorem mean2_eq (V : Vl) : val V main_v120 = meanC (val V main_v117) := by
  rw [e_v120, e_v119, e_cst_27, e_v118, e_cst_26]; rfl

theorem var2_eq (V : Vl) : val V main_v121 = varC (val V main_v117) := by
  rw [e_v121, e_call4_call0_v1, e_call4_call0_v0, e_call4_cst_4, e_call4_v12, e_call4_cst_3, e_call4_v11,
    e_call4_v10, e_call4_v9, e_call4_cst_2, e_call4_v8, e_call4_cst_1, e_call4_v7, e_call4_v6, e_call4_v5,
    e_call4_v4, e_call4_v3, e_call4_v2, e_call4_cst_0, e_call4_v1, e_call4_v0, e_call4_cst, e_c_28]
  rfl

theorem h2_eq (V : Vl) : val V main_v137 = bnreluC (val V main_v117) (val V main_v120) (val V main_v121)
    (val V main_arg8) (val V main_arg9) := by
  rw [e_v137, e_call5_v0, e_call5_cst, e_v136, e_v135, e_v134, e_v133, e_v132, e_v131,
    e_v130, e_v129, e_v128, e_v127, e_v126, e_v125, e_cst_29, e_v124, e_v123, e_v122]
  rfl

/-- The normalised and clipped features at (i, j), for any index-level reading `YM` of the layer's output. -/
theorem h2_read' (V : Vl) (YM : Cert.Stages.Mat 100000 128) (hY : ∀ i j, val V main_v117 (ix2 i j) = YM i j)
    (gR bR : Cert.Stages.Row 128) (hg : ∀ j, val V main_arg8 (ix1 j) = gR j) (hb : ∀ j, val V main_arg9 (ix1 j) = bR j)
    (i : Fin 100000) (j : Fin 128) :
    val V main_v137 (ix2 i j) = Cert.Stages.bnrelu YM (Cert.Stages.meanR YM) (Cert.Stages.varR YM) gR bR i j := by
  rw [h2_eq]
  exact bnreluC_apply _ _ _ _ _ YM _ _ gR bR hY
    (fun j => by rw [mean2_eq]; exact meanC_apply _ YM hY j)
    (fun j => by rw [var2_eq]; exact varC_apply _ YM hY j) hg hb i j

end Cert.ReferenceIdeal.RefVal

end
-- ==== Proof.RefVal.LsmOps.lean ====
/-
  The reference's classifier and row-wise log-softmax read at an index, for any contents of the arrays they start
  from: the matrix product with the bias row added, then a row's maximum from minus infinity, the larger of minus
  infinity and that maximum, the shifted entries, the sum of their exponentials from zero, its logarithm, and the
  shifted entry less that logarithm.
-/
import proofs.«156713_j13589276524898_2_alg».proof.Proof.RefVal.ScalarBcast
import proofs.«156713_j13589276524898_2_alg».proof.Proof.LibPlainDot

noncomputable section

open scoped BigOperators

namespace Cert.ReferenceIdeal.RefVal

open Cert.ReferenceIdeal Cert.ReferenceIdeal.Gen
open Idealize.ShloMosaic Idealize.ShloMosaic.ValueIdx Cert.LibGcnStage

/-! ## The classifier -/

/-- The features times the classifier weight, plus the bias row repeated over the 100000 rows. -/
def logitsC (H : FVec Ideal S100000x128 .f32) (Wc : FVec Ideal S128x64 .f32) (bc : FVec Ideal S64 .f32) :
    FVec Ideal S100000x64 .f32 :=
  addf (F := Ideal) (Host.dotGeneral (F := Ideal) dot_S100000x128_S128x64_S100000x64_1_0_0_1_n_n none H Wc)
    (broadcastInDim S100000x64 ![0, 1] bcast_S1x64_S100000x64_0_1 (broadcastInDim S1x64 ![1] bcast_S64_S1x64_1 bc))

theorem logitsC_apply (H : FVec Ideal S100000x128 .f32) (Wc : FVec Ideal S128x64 .f32) (bc : FVec Ideal S64 .f32)
    (HM : Cert.Stages.Mat 100000 128) (WM : Cert.Stages.Mat 128 64) (bR : Cert.Stages.Row 64)
    (hH : ∀ i k, H (ix2 i k) = HM i k) (hW : ∀ k j, Wc (ix2 k j) = WM k j) (hb : ∀ j, bc (ix1 j) = bR j)
    (i : Fin 100000) (j : Fin 64) : logitsC H Wc bc (ix2 i j) = Cert.Stages.logits HM WM bR i j := by
  unfold logitsC Cert.Stages.logits Cert.Stages.mm
  refine (addf_apply _ _ _).trans ?_
  refine congrArg₂ (· + ·) ?_ ?_
  · refine (PlainDot.dotGeneral_plain dot_S100000x128_S128x64_S100000x64_1_0_0_1_n_n rfl rfl rfl rfl rfl rfl none .single
      H Wc (ix2 i j)).trans ?_
    exact Finset.sum_congr rfl fun k _ => congrArg₂ (· * ·) (hH i k) (hW k j)
  · exact (bcast_rows (by decide) _ _ i j).trans ((bcast_row1 (by decide) _ _ 0 j).trans (hb j))

/-! ## The log-softmax -/

/-- A host maximum of a 100000-by-64 array along its rows from the minus-infinity word, read at row `i`: the fold
    of max from that word's value over the row. -/
theorem rowmax_apply (Z : FVec Ideal S100000x64 .f32) (i : Fin 100000) :
    Host.reduce (FloatOps.maximumf (F := Ideal) (φ := .f32)) Z (constant (F := Ideal) S_ .f32 0xFF800000#32)
        reducesTo_S100000x64_S100000_d1 h_S_ (ix1 i)
      = (Finset.univ : Finset (Fin 64)).fold max (Ideal.ofBits .f32 0xFF800000#32) (fun t => Z (ix2 i t)) := by
  have h : S100000x64.Reduces [1] S100000 := by decide
  rw [Host.reduce_eq_fold_single FloatOps.maximumf Z _ reducesTo_S100000x64_S100000_d1 h h_S_]
  have hf : (Z ∘ h.lift (ix1 i)) = fun k : Fin 64 => Z (ix2 i k) :=
    funext fun k => congrArg Z (by funext c; apply Fin.ext; fin_cases c <;> rfl)
  exact congrArg (fun f => Finset.fold max (Ideal.ofBits .f32 0xFF800000#32) f (Finset.univ : Finset (Fin 64))) hf

/-- A host sum of a 100000-by-64 array along its rows, read at row `i`: the initial value plus the row's sum. -/
theorem rowsum_apply (x : FVec Ideal S100000x64 .f32) (v : FVec Ideal S_ .f32) (i : Fin 100000) :
    Host.reduceAdd (F := Ideal) x v reducesTo_S100000x64_S100000_d1 h_S_ (ix1 i) = v ix0 + ∑ t : Fin 64, x (ix2 i t) := by
  have h : S100000x64.Reduces [1] S100000 := by decide
  refine (Ideal.hostReduceAdd_single reducesTo_S100000x64_S100000_d1 h x _ (ix1 i)).trans ?_
  refine congrArg₂ (· + ·) (congrArg v (eq_ix0 _)) ?_
  refine Finset.sum_congr rfl (fun k _ => congrArg x ?_)
  funext c; apply Fin.ext; fin_cases c <;> rfl

/-- The larger of minus infinity (repeated over the rows) and each row's maximum. -/
def lsmMaxC (Z : FVec Ideal S100000x64 .f32) : FVec Ideal S100000 .f32 :=
  maximumf (F := Ideal) (broadcastInDim S100000 ![] bcast_S_S100000 (constant (F := Ideal) S_ .f32 0xFF800000#32))
    (Host.reduce (FloatOps.maximumf (F := Ideal) (φ := .f32)) Z (constant (F := Ideal) S_ .f32 0xFF800000#32)
      reducesTo_S100000x64_S100000_d1 h_S_)

theorem lsmMaxC_apply (Z : FVec Ideal S100000x64 .f32) (ZM : Cert.Stages.Mat 100000 64) (hZ : ∀ i j, Z (ix2 i j) = ZM i j)
    (i : Fin 100000) : lsmMaxC Z (ix1 i) = max Cert.Stages.negInf (Cert.Stages.rowMax ZM i) := by
  unfold lsmMaxC Cert.Stages.rowMax
  refine (maximumf_apply _ _ _).trans ?_
  refine congrArg₂ max (bcastS _ _ _) ?_
  refine (rowmax_apply Z i).trans ?_
  exact congrArg (fun f => Finset.fold max (Ideal.ofBits .f32 0xFF800000#32) f (Finset.univ : Finset (Fin 64)))
    (funext fun t => hZ i t)

/-- Each entry less its row's (guarded) maximum, the maximum repeated along the row. -/
def lsmShiftC (Z : FVec Ideal S100000x64 .f32) : FVec Ideal S100000x64 .f32 :=
  subf (F := Ideal) Z
    (broadcastInDim S100000x64 ![0, 1] bcast_S100000x1_S100000x64_0_1
      (broadcastInDim S100000x1 ![0] bcast_S100000_S100000x1_0 (lsmMaxC Z)))

theorem lsmShiftC_apply (Z : FVec Ideal S100000x64 .f32) (ZM : Cert.Stages.Mat 100000 64) (hZ : ∀ i j, Z (ix2 i j) = ZM i j)
    (i : Fin 100000) (j : Fin 64) :
    lsmShiftC Z (ix2 i j) = ZM i j - max Cert.Stages.negInf (Cert.Stages.rowMax ZM i) := by
  unfold lsmShiftC
  refine (subf_apply _ _ _).trans ?_
  refine congrArg₂ (· - ·) (hZ i j) ?_
  exact (bcast_cols (by decide) _ _ i j).trans ((bcast_col (by decide) _ _ i 0).trans (lsmMaxC_apply Z ZM hZ i))

/-- The host's elementwise logarithm and exponential read at an index. -/
theorem hostLog_apply {s : Shape} (x : FVec Ideal s .f32) (i : s.Idx) : Host.log (F := Ideal) x i = Ideal.log (x i) := rfl

theorem hostExp_apply {s : Shape} (x : FVec Ideal s .f32) (i : s.Idx) : Host.exp (F := Ideal) x i = Ideal.exp (x i) := rfl

/-- The outlined log-softmax: the shifted entries less the logarithm of the row's sum of their exponentials. -/
def lsmC (Z : FVec Ideal S100000x64 .f32) : FVec Ideal S100000x64 .f32 :=
  subf (F := Ideal) (lsmShiftC Z)
    (broadcastInDim S100000x64 ![0, 1] bcast_S100000x1_S100000x64_0_1
      (Host.log (F := Ideal)
        (broadcastInDim S100000x1 ![0] bcast_S100000_S100000x1_0
          (Host.reduceAdd (F := Ideal) (Host.exp (F := Ideal) (lsmShiftC Z)) (constant (F := Ideal) S_ .f32 0x00000000#32)
            reducesTo_S100000x64_S100000_d1 h_S_))))

theorem lsmC_apply (Z : FVec Ideal S100000x64 .f32) (ZM : Cert.Stages.Mat 100000 64) (hZ : ∀ i j, Z (ix2 i j) = ZM i j)
    (i : Fin 100000) (j : Fin 64) : lsmC Z (ix2 i j) = Cert.Stages.lsmR ZM i j := by
  unfold lsmC Cert.Stages.lsmR
  refine (subf_apply _ _ _).trans ?_
  refine congrArg₂ (· - ·) (lsmShiftC_apply Z ZM hZ i j) ?_
  refine (bcast_cols (by decide) _ _ i j).trans ?_
  refine (hostLog_apply _ _).trans ?_
  refine congrArg Ideal.log ?_
  refine (bcast_col (by decide) _ _ i 0).trans ?_
  refine (rowsum_apply _ _ i).trans ?_
  refine congrArg₂ (· + ·) rfl (Finset.sum_congr rfl fun t _ => ?_)
  refine (hostExp_apply _ _).trans ?_
  rw [lsmShiftC_apply Z ZM hZ i t]

end Cert.ReferenceIdeal.RefVal

end
-- ==== Proof.RefVal.Result.lean ====
/-
  The reference's value: after the whole run, the result buffer read at (i, j) is the network of Stages.lean in the
  reference's grouping, over the arguments read off the launch contents. The two layers and their normalisations
  are composed in program order, each stage's reading feeding the next.
-/
import proofs.«156713_j13589276524898_2_alg».proof.Proof.RefVal.Layer1
import proofs.«156713_j13589276524898_2_alg».proof.Proof.RefVal.Layer2
import proofs.«156713_j13589276524898_2_alg».proof.Proof.RefVal.Bn1
import proofs.«156713_j13589276524898_2_alg».proof.Proof.RefVal.Bn2
import proofs.«156713_j13589276524898_2_alg».proof.Proof.RefVal.LsmOps

noncomputable section

open scoped BigOperators

namespace Cert.ReferenceIdeal.RefVal

open Cert.ReferenceIdeal Cert.ReferenceIdeal.Gen
open Idealize.ShloMosaic Idealize.ShloMosaic.ValueIdx Idealize.SL.Sem Idealize.ShloMosaic.StableHlo

section
variable (V : Vl)

/-! ## The argument vectors at an index -/

theorem b1_read (j : Fin 128) : val V main_arg3 (ix1 j) = b1Of V j := by rw [val_arg3]; rfl
theorem g1_read (j : Fin 128) : val V main_arg4 (ix1 j) = g1Of V j := by rw [val_arg4]; rfl
theorem be1_read (j : Fin 128) : val V main_arg5 (ix1 j) = be1Of V j := by rw [val_arg5]; rfl
theorem b2_read (j : Fin 128) : val V main_arg7 (ix1 j) = b2Of V j := by rw [val_arg7]; rfl
theorem g2_read (j : Fin 128) : val V main_arg8 (ix1 j) = g2Of V j := by rw [val_arg8]; rfl
theorem be2_read (j : Fin 128) : val V main_arg9 (ix1 j) = be2Of V j := by rw [val_arg9]; rfl
theorem wc_read (k : Fin 128) (j : Fin 64) : val V main_arg10 (ix2 k j) = wcOf V k j := by rw [val_arg10]; rfl
theorem bc_read (j : Fin 64) : val V main_arg11 (ix1 j) = bcOf V j := by rw [val_arg11]; rfl

/-! ## Layer 1 -/

theorem proj1_read (i : Fin 100000) (j : Fin 128) : val V main_v0 (ix2 i j) = Cert.Stages.mm (xOf V) (w1Of V) i j := by
  rw [e_v0, val_arg0, val_arg2]
  exact dot128_apply _ _ i j

theorem y1_read (i : Fin 100000) (j : Fin 128) :
    val V main_v48 (ix2 i j) = Cert.Stages.y1R (gOf V) (xOf V) (w1Of V) (b1Of V) i j :=
  out1_read V _ (proj1_read V) _ (b1_read V) i j

theorem h1_read (i : Fin 100000) (j : Fin 128) :
    val V main_v68 (ix2 i j) = Cert.Stages.h1R (gOf V) (xOf V) (w1Of V) (b1Of V) (g1Of V) (be1Of V) i j :=
  h1_read' V _ (y1_read V) _ _ (g1_read V) (be1_read V) i j

/-! ## Layer 2 -/

theorem proj2_read (i : Fin 100000) (j : Fin 128) :
    val V main_v69 (ix2 i j) = Cert.Stages.mm (Cert.Stages.h1R (gOf V) (xOf V) (w1Of V) (b1Of V) (g1Of V) (be1Of V)) (w2Of V) i j := by
  rw [e_v69, val_arg6]
  refine (dot128_apply _ _ i j).trans ?_
  unfold Cert.Stages.mm
  exact Finset.sum_congr rfl fun k _ => congrArg₂ (· * ·) (h1_read V i k) rfl

theorem y2_read (i : Fin 100000) (j : Fin 128) :
    val V main_v117 (ix2 i j)
      = Cert.Stages.y2R (gOf V) (xOf V) (w1Of V) (b1Of V) (g1Of V) (be1Of V) (w2Of V) (b2Of V) i j :=
  out2_read V _ (proj2_read V) _ (b2_read V) i j

theorem h2_read (i : Fin 100000) (j : Fin 128) :
    val V main_v137 (ix2 i j)
      = Cert.Stages.h2R (gOf V) (xOf V) (w1Of V) (b1Of V) (g1Of V) (be1Of V) (w2Of V) (b2Of V) (g2Of V) (be2Of V) i j :=
  h2_read' V _ (y2_read V) _ _ (g2_read V) (be2_read V) i j

/-! ## The classifier and the log-softmax -/

theorem logits_eq : val V main_v141 = logitsC (val V main_v137) (val V main_arg10) (val V main_arg11) := by
  rw [e_v141, e_v140, e_v139, e_v138]; rfl

theorem logits_read (i : Fin 100000) (j : Fin 64) :
    val V main_v141 (ix2 i j)
      = Cert.Stages.logits (Cert.Stages.h2R (gOf V) (xOf V) (w1Of V) (b1Of V) (g1Of V) (be1Of V) (w2Of V) (b2Of V) (g2Of V) (be2Of V))
          (wcOf V) (bcOf V) i j := by
  rw [logits_eq]
  exact logitsC_apply _ _ _ _ _ _ (h2_read V) (wc_read V) (bc_read V) i j

theorem out_eq : val V main_v142 = lsmC (val V main_v141) := by
  rw [e_v142, e_call6_v10, e_call6_v9, e_call6_v8, e_call6_v7, e_call6_cst_1, e_call6_v6, e_call6_v5, e_call6_v4, e_call6_v3,
    e_call6_v2, e_call6_v1, e_call6_cst_0, e_call6_v0, e_call6_cst]
  rfl

end

/-- THE REFERENCE'S VALUE: the result buffer after all of @main, read at (i, j). -/
theorem result_eq (V : Valuation τ sig (Elt Ideal)) (i : Fin 100000) (j : Fin 64) :
    (StableHlo.after (RefRun.ops (F := Ideal)) V (Proc.devRef .tc main_v142) : S100000x64.Idx → EReal) (ix2 i j)
      = Cert.Stages.finalR (gOf V) (xOf V) (w1Of V) (b1Of V) (g1Of V) (be1Of V) (w2Of V) (b2Of V) (g2Of V) (be2Of V)
          (wcOf V) (bcOf V) i j := by
  show val V main_v142 (ix2 i j) = _
  rw [out_eq]
  exact lsmC_apply _ _ (logits_read V) i j

end Cert.ReferenceIdeal.RefVal

end
-- ==== Proof.Math.Lits.lean ====
/-
  The float literals of the network read at the exact reals: zero, one, the node count 100000, a positive epsilon,
  minus infinity; the signed integer zero converted to a float; and the strict comparison of two reals.
-/
import proofs.«156713_j13589276524898_2_alg».proof.Proof.Stages
import Idealize.ShloMosaic.PureOps.Ideal.Laws
import Idealize.ShloMosaic.Lib.IdealHost

noncomputable section

namespace Cert.Stages

open Idealize.ShloMosaic

theorem zero_eq : zero = 0 := Ideal.ofBits_zero_f32

theorem one_eq : one = 1 := Ideal.ofBits_one_f32

/-- The word `0x47C35000` is `12800000 · 2⁻⁷ = 100000`. -/
theorem count_eq : count = ((100000 : ℝ) : EReal) := by
  simp [Ideal.ofBits, Ideal.ieee, -EReal.coe_mul]; norm_num

/-- The word `0x3727C5AC` is a positive real (a normal number with a clear sign bit). -/
theorem eps_pos : ∃ r : ℝ, 0 < r ∧ eps = (r : EReal) := by
  refine ⟨(2 ^ 23 + 2606508 : ℕ) * (2 : ℝ) ^ ((110 : ℤ) - 127 - 23), by positivity, ?_⟩
  simp [Ideal.ofBits, Ideal.ieee, -EReal.coe_mul]

/-- The word `0xFF800000` is minus infinity. -/
theorem negInf_eq : negInf = ⊥ := by simp [Ideal.ofBits, Ideal.ieee]

theorem sitofp_zero : FloatOps.sitofp (F := Ideal) .f32 (0#32 : BitVec 32) = (0 : EReal) := by
  show ((((0#32 : BitVec 32).toInt : ℝ)) : EReal) = 0
  simp

theorem divisorR_eq : divisorR = ((100000 : ℝ) : EReal) := by
  unfold divisorR
  rw [sitofp_zero, sub_zero, count_eq]

/-- The strict comparison "greater than" of two extended reals, as a one-bit word. -/
theorem cmpf_ogt (x y : EReal) : FloatOps.cmpf (F := Ideal) (φ := .f32) .ogt x y = BitVec.ofBool (decide (y < x)) := rfl

theorem select_cmpf_ogt_pos {α : Type} (x y : EReal) (h : y < x) (a b : α) :
    Scalar.select (FloatOps.cmpf (F := Ideal) (φ := .f32) .ogt x y) a b = a := by
  rw [cmpf_ogt, decide_eq_true h]; rfl

theorem select_cmpf_ogt_neg {α : Type} (x y : EReal) (h : ¬ y < x) (a b : α) :
    Scalar.select (FloatOps.cmpf (F := Ideal) (φ := .f32) .ogt x y) a b = b := by
  rw [cmpf_ogt, decide_eq_false h]; rfl

end Cert.Stages

end
-- ==== Proof.LibBatchNorm.lean ====
/-
  Batch normalisation over the extended reals, for arrays all of whose entries are real numbers.

  The one-pass statistics  mean = (Σ h)/n,  var = (Σ h²)/n − mean²  and the two-pass statistics
  mean = (0 + Σ h)/n,  var = (0 + Σ (h − mean)²)/n  of a column h : R → EReal agree when n = |R| ≠ 0 and every
  entry of h is a real number: on ℝ this is  Σ (h − m)² = Σ h² − 2 m Σ h + |R| m²  with  m = (Σ h)/|R|.
  On the extended reals the identity needs the entries real (an infinite entry makes one side −∞ and the other +∞),
  so the module also carries the closure of "is a real number" under the operations a normalised two-layer
  perceptron is made of: sums, products, differences, finite sums, a quotient by a nonzero real, a maximum, and
  the reciprocal square root of a positive real.
-/
import Idealize.ShloMosaic.PureOps.Ideal
import Idealize.ShloMosaic.PureOps.Ideal.Laws

noncomputable section

namespace Cert.LibBatchNorm

open Idealize.ShloMosaic

/-! ## Real entries -/

/-- An extended real that is an ordinary real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

/-- A finite sum of real numbers is a real number. -/
theorem IsReal.sum {ι : Type*} (s : Finset ι) {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h _ (Finset.mem_insert_self _ _)).add (ih fun i hi => h i (Finset.mem_insert_of_mem hi))

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real number by a nonzero real is a real number. -/
theorem IsReal.div_coe {x : EReal} (hx : IsReal x) {n : ℝ} (hn : n ≠ 0) : IsReal (Ideal.div x (n : EReal)) := by
  rw [Ideal.div_coe hn]; exact hx.mul (isReal_coe _)

/-- The reciprocal square root of a positive real is a real number. -/
theorem isReal_rsqrt_pos {r : ℝ} (hr : 0 < r) : IsReal (Ideal.rsqrt (r : EReal)) := by
  have : Ideal.rsqrt (r : EReal) = (((Real.sqrt r)⁻¹ : ℝ) : EReal) := by
    rw [Ideal.rsqrt_coe, if_neg (not_lt.mpr hr.le), if_neg hr.ne']
  rw [this]; exact isReal_coe _

/-! ## The two ways to a variance -/

/-- On ℝ: the mean of the squares minus the square of the mean is the mean of the squared deviations, for a
    family indexed by a type of `n` elements. -/
theorem var_identity {R : Type*} [Fintype R] (f : R → ℝ) (n : ℝ) (hn : n ≠ 0) (hc : (Fintype.card R : ℝ) = n) :
    (∑ r, f r * f r) * (1 / n) - ((∑ r, f r) * (1 / n)) * ((∑ r, f r) * (1 / n))
      = (∑ r, (f r - (∑ r, f r) * (1 / n)) * (f r - (∑ r, f r) * (1 / n))) * (1 / n) := by
  have h1 : ∀ m : ℝ, ∑ r, (f r - m) * (f r - m) = (∑ r, f r * f r) - 2 * m * (∑ r, f r) + n * (m * m) := by
    intro m
    have e : ∀ r, (f r - m) * (f r - m) = f r * f r - 2 * m * f r + m * m := fun r => by ring
    simp only [e, Finset.sum_add_distrib, Finset.sum_sub_distrib, ← Finset.mul_sum, Finset.sum_const,
      Finset.card_univ, nsmul_eq_mul, hc]
    ring
  rw [h1]
  field_simp
  ring

variable {R : Type*} [Fintype R]

/-- On the extended reals, for a column of real numbers: the one-pass variance is the two-pass variance. -/
theorem var_eq (h : R → EReal) (hh : ∀ r, IsReal (h r)) (n : ℝ) (hn : n ≠ 0) (hc : (Fintype.card R : ℝ) = n) :
    Ideal.div (∑ r, h r * h r) (n : EReal) - Ideal.div (∑ r, h r) (n : EReal) * Ideal.div (∑ r, h r) (n : EReal)
      = Ideal.div (0 + ∑ r, (h r - Ideal.div (0 + ∑ r, h r) (n : EReal)) * (h r - Ideal.div (0 + ∑ r, h r) (n : EReal)))
          (n : EReal) := by
  choose f hf using hh
  obtain rfl : h = fun r => (f r : EReal) := funext hf
  simp only [zero_add, Ideal.div_coe hn, ← EReal.coe_mul, ← coe_sum, ← EReal.coe_sub]
  exact congrArg _ (var_identity f n hn hc)

/-- The two-pass variance of a column of real numbers is a nonnegative real number. -/
theorem var_real_nonneg (h : R → EReal) (hh : ∀ r, IsReal (h r)) (n : ℝ) (hn : 0 < n) :
    ∃ v : ℝ, 0 ≤ v ∧ Ideal.div (0 + ∑ r, (h r - Ideal.div (0 + ∑ r, h r) (n : EReal)) * (h r - Ideal.div (0 + ∑ r, h r) (n : EReal)))
          (n : EReal) = (v : EReal) := by
  choose f hf using hh
  obtain rfl : h = fun r => (f r : EReal) := funext hf
  simp only [zero_add, Ideal.div_coe hn.ne', ← EReal.coe_mul, ← coe_sum, ← EReal.coe_sub]
  exact ⟨_, mul_nonneg (Finset.sum_nonneg fun r _ => mul_self_nonneg _) (by positivity), rfl⟩

end Cert.LibBatchNorm

end
-- ==== Proof.Math.Dinv.lean ====
/-
  The degree of a node is a nonnegative real (a finite count), so its degree factor — the reciprocal square root of
  the larger of the degree and one where the degree is positive, zero elsewhere — is a real number.
-/
import proofs.«156713_j13589276524898_2_alg».proof.Proof.Math.Lits
import proofs.«156713_j13589276524898_2_alg».proof.Proof.LibGcnNorm
import proofs.«156713_j13589276524898_2_alg».proof.Proof.LibBatchNorm

noncomputable section

open scoped BigOperators

namespace Cert.Stages

open Idealize.ShloMosaic Cert.LibIndexRead Cert.LibBatchNorm

variable (g : Fin 2 → Fin nE → BitVec 32)

/-- The degree is the number of edges landing on the node. -/
theorem deg_eq (i : Fin nN) : deg g i = ((((into g i).card : ℕ) : ℝ) : EReal) := by
  unfold deg
  rw [zero_eq, one_eq, zero_add]
  have h1 : (∑ _e ∈ into g i, (1 : EReal)) = ∑ _e ∈ into g i, (((1 : ℝ)) : EReal) := by
    refine Finset.sum_congr rfl (fun _ _ => ?_); norm_cast
  rw [h1, Cert.LibGcnNorm.coe_sum]
  refine congrArg Real.toEReal ?_
  rw [Finset.sum_const, nsmul_eq_mul, mul_one]

/-- The degree factor is a real number. -/
theorem dinv_real (i : Fin nN) : IsReal (dinv g i) := by
  unfold dinv
  rw [deg_eq, zero_eq, one_eq]
  by_cases h : (0 : EReal) < ((((into g i).card : ℕ) : ℝ) : EReal)
  · rw [select_cmpf_ogt_pos _ _ h]
    have hm : max (((((into g i).card : ℕ) : ℝ)) : EReal) 1 = ((max (((into g i).card : ℕ) : ℝ) 1 : ℝ) : EReal) := by
      rw [← EReal.coe_one]; exact (EReal.coe_strictMono.monotone.map_max).symm
    rw [hm]
    exact isReal_rsqrt_pos (lt_of_lt_of_le one_pos (le_max_right _ _))
  · rw [select_cmpf_ogt_neg _ _ h]
    exact isReal_zero

end Cert.Stages

end
-- ==== Proof.Math.Layer.lean ====
/-
  One graph-convolution layer, the two groupings. Scaling each projected row by its node's factor before the edge
  sum and the summed row by the target's factor after it is, on real entries, the edge sum of the rows weighted by
  the product of both endpoints' factors: the target's factor is the same real number for every edge landing on
  the node, and a real factor distributes over a finite sum of reals.
-/
import proofs.«156713_j13589276524898_2_alg».proof.Proof.Math.Dinv

noncomputable section

open scoped BigOperators

namespace Cert.Stages

open Idealize.ShloMosaic Cert.LibIndexRead Cert.LibBatchNorm

/-- A matrix product of real matrices has real entries. -/
theorem mm_real {n k p : Nat} (A : Mat n k) (B : Mat k p) (hA : ∀ i t, IsReal (A i t)) (hB : ∀ t j, IsReal (B t j))
    (i : Fin n) (j : Fin p) : IsReal (mm A B i j) :=
  IsReal.sum _ fun t _ => (hA i t).mul (hB t j)

/-- The factoring over a set of edges whose target index is always `i`. -/
theorem layer_core {ε ι : Type*} (A : Finset ε) (s t : ε → ι) (i : ι) (m d : ι → ℝ) (b : EReal) (ht : ∀ e ∈ A, t e = i) :
    (0 + ∑ e ∈ A, (m (s e) : EReal) * (d (s e) : EReal)) * (d i : EReal) + b
      = (0 + ∑ e ∈ A, (m (s e) : EReal) * ((d (s e) : EReal) * (d (t e) : EReal))) + b := by
  rw [zero_add, zero_add]
  simp only [← EReal.coe_mul, Cert.LibGcnNorm.coe_sum]
  congr 2
  rw [Finset.sum_mul]
  exact Finset.sum_congr rfl (fun e he => by rw [ht e he]; ring)

variable (g : Fin 2 → Fin nE → BitVec 32)

/-- Every edge landing on `i` reads the target's factor at row `i`. -/
theorem dstRow_of_mem (i : Fin nN) (e : Fin nE) (he : e ∈ into g i) : dstRow g e = i :=
  rowOf_of_target nN_pos _ (g 1 e) i (Finset.mem_filter.mp he).2

/-- THE LAYER LAW: on a real projected matrix the two groupings agree. -/
theorem layerK_eq_layerR (H : Mat nN 128) (W : Mat 128 128) (b : Row 128)
    (hM : ∀ i j, IsReal (mm H W i j)) : layerK g H W b = layerR g H W b := by
  funext i j
  choose m hm using hM
  choose d hd using dinv_real g
  show (zero + ∑ e ∈ into g i, mm H W (srcRow g e) j * dinv g (srcRow g e)) * dinv g i + b j
      = (zero + ∑ e ∈ into g i, mm H W (srcRow g e) j * (dinv g (srcRow g e) * dinv g (dstRow g e))) + b j
  simp only [hm, hd, zero_eq]
  exact layer_core (into g i) (srcRow g) (dstRow g) i (fun r => m r j) d (b j) (fun e he => dstRow_of_mem g i e he)

/-- The layer's entries are real when the projected matrix and the bias are. -/
theorem layerK_real (H : Mat nN 128) (W : Mat 128 128) (b : Row 128)
    (hM : ∀ i j, IsReal (mm H W i j)) (hb : ∀ j, IsReal (b j)) (i : Fin nN) (j : Fin 128) : IsReal (layerK g H W b i j) := by
  show IsReal ((zero + ∑ e ∈ into g i, mm H W (srcRow g e) j * dinv g (srcRow g e)) * dinv g i + b j)
  rw [zero_eq]
  exact (((isReal_zero).add (IsReal.sum _ fun e _ => (hM _ j).mul (dinv_real g _))).mul (dinv_real g i)).add (hb j)

end Cert.Stages

end
-- ==== Proof.Math.ColSum.lean ====
/-
  Column sums, the two groupings. Addition on the extended reals is commutative and associative, so the running
  accumulator after twenty blocks of 5000 rows — zero, then one block's column sums added per step — is zero plus the
  sum over all 100000 rows: the pairs (block, row in block) are in bijection with the rows by (t, r) ↦ 5000 t + r.
-/
import proofs.«156713_j13589276524898_2_alg».proof.Proof.Math.Lits
import proofs.«156713_j13589276524898_2_alg».proof.Proof.LibBatchNorm

noncomputable section

open scoped BigOperators

namespace Cert.Stages

open Idealize.ShloMosaic Cert.LibIndexRead Cert.LibBatchNorm

/-- The pairs (block, row within the block) are the rows. -/
def rowEquiv : Fin 20 × Fin 5000 ≃ Fin nN := finProdFinEquiv.trans (finCongr (by norm_num))

theorem rowEquiv_apply (t : Fin 20) (r : Fin 5000) : rowEquiv (t, r) = rowAt t r := by
  apply Fin.ext
  unfold rowEquiv rowAt
  rw [Equiv.trans_apply, finCongr_apply_coe, finProdFinEquiv_apply_val]
  show r.val + 5000 * t.val = 5000 * t.val + r.val
  omega

/-- Summing block by block is summing over all rows. -/
theorem sum_blocks {M : Type*} [AddCommMonoid M] (f : Fin nN → M) :
    ∑ t : Fin 20, ∑ r : Fin 5000, f (rowAt t r) = ∑ i : Fin nN, f i := by
  rw [← Equiv.sum_comp rowEquiv f, Fintype.sum_prod_type]
  exact Finset.sum_congr rfl fun t _ => Finset.sum_congr rfl fun r _ => by rw [rowEquiv_apply]

/-- The accumulator after point `n` is zero plus the first `n + 1` blocks' sums. -/
theorem runSum_eq (Y : Mat nN 128) (j : Fin 128) : ∀ (n : ℕ) (h : n < 20),
    runSum Y n h j = zero + ∑ t ∈ Finset.range (n + 1), if ht : t < 20 then blockSum Y ⟨t, ht⟩ j else 0
  | 0, h => by
    show zero + blockSum Y ⟨0, h⟩ j = _
    rw [Finset.sum_range_one, dif_pos h]
  | n + 1, h => by
    show runSum Y n (Nat.lt_of_succ_lt h) j + blockSum Y ⟨n + 1, h⟩ j = _
    rw [runSum_eq Y j n (Nat.lt_of_succ_lt h), Finset.sum_range_succ _ (n + 1), dif_pos h, add_assoc]

/-- The kernels' column sum is the reference's. -/
theorem colSumK_eq_colSumR (Y : Mat nN 128) : colSumK Y = colSumR Y := by
  funext j
  unfold colSumK colSumR
  rw [runSum_eq Y j 19 (by decide)]
  refine congrArg (zero + ·) ?_
  rw [← sum_blocks (fun i => Y i j)]
  rw [← Fin.sum_univ_eq_sum_range (fun t => if ht : t < 20 then blockSum Y ⟨t, ht⟩ j else 0) 20]
  exact Finset.sum_congr rfl fun t _ => by rw [dif_pos t.isLt]; rfl

theorem meanK_eq_meanR (Y : Mat nN 128) : meanK Y = meanR Y := by
  funext j
  unfold meanK meanR
  rw [colSumK_eq_colSumR]

end Cert.Stages

end
-- ==== Proof.Math.Var.lean ====
/-
  The variance of a real column, the two groupings: the mean of the squares less the square of the mean is the mean
  of the squared deviations from the mean (both over the 100000 rows), and it is a nonnegative real number; so the
  normalised, scaled, shifted and clipped matrix has real entries.
-/
import proofs.«156713_j13589276524898_2_alg».proof.Proof.Math.ColSum
import proofs.«156713_j13589276524898_2_alg».proof.Proof.LibBatchNorm

noncomputable section

open scoped BigOperators

namespace Cert.Stages

open Idealize.ShloMosaic Cert.LibIndexRead Cert.LibBatchNorm

theorem card_rows : (Fintype.card (Fin nN) : ℝ) = 100000 := by
  rw [Fintype.card_fin]; norm_num

/-- The reference's variance is the quotient (its divisor, the count, is positive). -/
theorem varR_eq (Y : Mat nN 128) (j : Fin 128) :
    varR Y j = Ideal.div (0 + ∑ i : Fin nN, (Y i j - Ideal.div (0 + ∑ i : Fin nN, Y i j) ((100000 : ℝ) : EReal))
        * (Y i j - Ideal.div (0 + ∑ i : Fin nN, Y i j) ((100000 : ℝ) : EReal))) ((100000 : ℝ) : EReal) := by
  unfold varR
  rw [select_cmpf_ogt_pos _ _ (by rw [divisorR_eq, zero_eq]; exact EReal.coe_pos.mpr (by norm_num))]
  unfold meanR colSumR
  rw [divisorR_eq, zero_eq, count_eq]

/-- The kernels' variance as sums over all rows. -/
theorem varK_eq (Y : Mat nN 128) (j : Fin 128) :
    varK Y j = Ideal.div (∑ i : Fin nN, Y i j * Y i j) ((100000 : ℝ) : EReal)
        - Ideal.div (∑ i : Fin nN, Y i j) ((100000 : ℝ) : EReal) * Ideal.div (∑ i : Fin nN, Y i j) ((100000 : ℝ) : EReal) := by
  unfold varK
  rw [meanK_eq_meanR, colSumK_eq_colSumR]
  unfold meanR colSumR sq
  rw [zero_eq, count_eq, zero_add, zero_add]

/-- THE VARIANCE LAW on a real matrix. -/
theorem varK_eq_varR (Y : Mat nN 128) (hY : ∀ i j, IsReal (Y i j)) : varK Y = varR Y := by
  funext j
  rw [varK_eq, varR_eq]
  exact var_eq (fun i => Y i j) (fun i => hY i j) 100000 (by norm_num) card_rows

/-- The variance of a real column is a nonnegative real. -/
theorem varR_real_nonneg (Y : Mat nN 128) (hY : ∀ i j, IsReal (Y i j)) (j : Fin 128) :
    ∃ v : ℝ, 0 ≤ v ∧ varR Y j = (v : EReal) := by
  rw [varR_eq]
  exact var_real_nonneg (fun i => Y i j) (fun i => hY i j) 100000 (by norm_num)

/-- The mean of a real column is a real. -/
theorem meanR_real (Y : Mat nN 128) (hY : ∀ i j, IsReal (Y i j)) (j : Fin 128) : IsReal (meanR Y j) := by
  unfold meanR colSumR
  rw [zero_eq, count_eq]
  exact ((isReal_zero).add (IsReal.sum _ fun i _ => hY i j)).div_coe (by norm_num)

/-- Normalising a real matrix by its own statistics, with real scale and shift, gives a real matrix. -/
theorem bnrelu_real (Y : Mat nN 128) (γ β : Row 128) (hY : ∀ i j, IsReal (Y i j)) (hγ : ∀ j, IsReal (γ j))
    (hβ : ∀ j, IsReal (β j)) (i : Fin nN) (j : Fin 128) : IsReal (bnrelu Y (meanR Y) (varR Y) γ β i j) := by
  unfold bnrelu
  obtain ⟨v, hv0, hv⟩ := varR_real_nonneg Y hY j
  obtain ⟨e, he0, he⟩ := eps_pos
  have hr : IsReal (Ideal.rsqrt (varR Y j + eps)) := by
    rw [hv, he, ← EReal.coe_add]
    exact isReal_rsqrt_pos (by linarith)
  rw [zero_eq]
  exact (((((hY i j).sub (meanR_real Y hY j)).mul hr).mul (hγ j)).add (hβ j)).max isReal_zero

end Cert.Stages

end
-- ==== Proof.Math.Lsm.lean ====
/-
  The row-wise log-softmax, the two groupings: the reference takes the larger of minus infinity and the row's
  maximum, which is the maximum, and starts its sum of exponentials from zero, which adds nothing.
-/
import proofs.«156713_j13589276524898_2_alg».proof.Proof.Math.Lits
import proofs.«156713_j13589276524898_2_alg».proof.Proof.LibBatchNorm

noncomputable section

open scoped BigOperators

namespace Cert.Stages

open Idealize.ShloMosaic Cert.LibIndexRead Cert.LibBatchNorm

theorem lsmK_eq_lsmR (Z : Mat nN 64) : lsmK Z = lsmR Z := by
  funext i j
  unfold lsmK lsmR
  have hmax : max negInf (rowMax Z i) = rowMax Z i := by rw [negInf_eq]; exact max_eq_right bot_le
  rw [hmax, zero_eq, zero_add]

end Cert.Stages

end
-- ==== Proof.Math.Final.lean ====
/-
  The whole network: the kernels' grouping and the reference's are one function of real inputs. Each stage's two
  forms agree on real entries and each stage keeps the entries real, so the agreement carries from the features
  through both layers, both normalisations and the classifier to the log-softmax.
-/
import proofs.«156713_j13589276524898_2_alg».proof.Proof.Math.Layer
import proofs.«156713_j13589276524898_2_alg».proof.Proof.Math.Var
import proofs.«156713_j13589276524898_2_alg».proof.Proof.Math.Lsm

noncomputable section

open scoped BigOperators

namespace Cert.Stages

open Idealize.ShloMosaic Cert.LibIndexRead Cert.LibBatchNorm

section
variable (g : Fin 2 → Fin nE → BitVec 32)

/-- A layer followed by its normalisation: the two groupings agree and the result is real. -/
theorem block_eq (H : Mat nN 128) (W : Mat 128 128) (b γ β : Row 128)
    (hH : ∀ i k, IsReal (H i k)) (hW : ∀ a c, IsReal (W a c)) (hb : ∀ k, IsReal (b k))
    (hγ : ∀ k, IsReal (γ k)) (hβ : ∀ k, IsReal (β k)) :
    bnrelu (layerK g H W b) (meanK (layerK g H W b)) (varK (layerK g H W b)) γ β
        = bnrelu (layerR g H W b) (meanR (layerR g H W b)) (varR (layerR g H W b)) γ β
      ∧ ∀ i j, IsReal (bnrelu (layerR g H W b) (meanR (layerR g H W b)) (varR (layerR g H W b)) γ β i j) := by
  have hM : ∀ i j, IsReal (mm H W i j) := fun i j => mm_real H W hH hW i j
  have hY : ∀ i j, IsReal (layerK g H W b i j) := fun i j => layerK_real g H W b hM hb i j
  have hL : layerK g H W b = layerR g H W b := layerK_eq_layerR g H W b hM
  rw [hL] at hY
  rw [hL, meanK_eq_meanR, varK_eq_varR _ hY]
  exact ⟨rfl, fun i j => bnrelu_real _ γ β hY hγ hβ i j⟩

end

theorem finalK_eq_finalR (g : Fin 2 → Fin nE → BitVec 32) (x : Mat nN 128) (W1 : Mat 128 128) (b1 γ1 β1 : Row 128)
    (W2 : Mat 128 128) (b2 γ2 β2 : Row 128) (Wc : Mat 128 64) (bc : Row 64)
    (hx : ∀ i k, ∃ r : ℝ, x i k = r) (hW1 : ∀ a b, ∃ r : ℝ, W1 a b = r) (hb1 : ∀ k, ∃ r : ℝ, b1 k = r)
    (hγ1 : ∀ k, ∃ r : ℝ, γ1 k = r) (hβ1 : ∀ k, ∃ r : ℝ, β1 k = r)
    (hW2 : ∀ a b, ∃ r : ℝ, W2 a b = r) (hb2 : ∀ k, ∃ r : ℝ, b2 k = r)
    (hγ2 : ∀ k, ∃ r : ℝ, γ2 k = r) (hβ2 : ∀ k, ∃ r : ℝ, β2 k = r)
    (hWc : ∀ a b, ∃ r : ℝ, Wc a b = r) (hbc : ∀ k, ∃ r : ℝ, bc k = r) :
    finalK g x W1 b1 γ1 β1 W2 b2 γ2 β2 Wc bc = finalR g x W1 b1 γ1 β1 W2 b2 γ2 β2 Wc bc := by
  obtain ⟨h1, r1⟩ := block_eq g x W1 b1 γ1 β1 hx hW1 hb1 hγ1 hβ1
  have e1 : h1K g x W1 b1 γ1 β1 = h1R g x W1 b1 γ1 β1 := h1
  have r1' : ∀ i j, IsReal (h1R g x W1 b1 γ1 β1 i j) := r1
  obtain ⟨h2, -⟩ := block_eq g (h1R g x W1 b1 γ1 β1) W2 b2 γ2 β2 r1' hW2 hb2 hγ2 hβ2
  have e2 : h2K g x W1 b1 γ1 β1 W2 b2 γ2 β2 = h2R g x W1 b1 γ1 β1 W2 b2 γ2 β2 := by
    show bnrelu (layerK g (h1K g x W1 b1 γ1 β1) W2 b2) (meanK (layerK g (h1K g x W1 b1 γ1 β1) W2 b2))
        (varK (layerK g (h1K g x W1 b1 γ1 β1) W2 b2)) γ2 β2 = _
    rw [e1]; exact h2
  unfold finalK finalR
  rw [e2, lsmK_eq_lsmR]

end Cert.Stages

end
-- ==== Proof.Finite.lean ====
/-
  From the precondition to real numbers.

  The precondition says of each float argument that every element's magnitude is below plus infinity (one
  all-elements conjunction per argument, the eleven of them joined by "and"). On the extended reals an element whose
  magnitude `max x (-x)` is below the top element is neither infinity: it is a real number.
-/
import proofs.«156713_j13589276524898_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

instance : Subsingleton S_.Idx := ⟨fun a b => funext fun d => d.elim0⟩

/-- An extended real whose magnitude is below plus infinity is a real number. -/
theorem real_of_abs_lt_top (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = (⊤ : EReal) := by simp [Ideal.ofBits, Ideal.ieee]
  simp only [Ideal.cmpf_def, Ideal.hostAbsf_def, Ideal.absf_def, Ideal.ofBits_def, htop, Ideal.cmp] at h
  induction x using EReal.rec with
  | bot => simp at h
  | coe r => exact ⟨r, rfl⟩
  | top => simp at h

/-- One argument's conjunct read at an element. -/
theorem elem_real {s : Shape} (a : FVec Ideal s .f32) (hb : S_.BroadcastsInDim s ![]) {axes : List (Fin s.rank)} (hr : s.ReducesTo axes S_) (hu : 0 < S_.numel)
    (h : Host.reduce IntOp.andi (cmpf .olt (Host.absf a) (broadcastInDim s ![] hb (constant (F := Ideal) S_ .f32 0x7F800000#32))) (constantI S_ 1 1#1) hr hu ValueIdx.ix0 = 1#1)
    (i : s.Idx) : ∃ r : ℝ, a i = (r : EReal) :=
  real_of_abs_lt_top (a i) (Host.reduce_andi_all _ _ hr hu ValueIdx.ix0 h i)

/-- THE PRECONDITION READ: every element of every float argument is a real number. -/
theorem all_real [Facts] (a0 : FVec Ideal S100000x128 .f32) (a1 : IVec S2x1600000 32) (a2 : FVec Ideal S128x128 .f32) (a3 : FVec Ideal S128 .f32) (a4 : FVec Ideal S128 .f32) (a5 : FVec Ideal S128 .f32) (a6 : FVec Ideal S128x128 .f32) (a7 : FVec Ideal S128 .f32) (a8 : FVec Ideal S128 .f32) (a9 : FVec Ideal S128 .f32) (a10 : FVec Ideal S128x64 .f32) (a11 : FVec Ideal S64 .f32)
    (h : fn (F := Ideal) a0 a1 a2 a3 a4 a5 a6 a7 a8 a9 a10 a11 = fun _ => 1#1) :
    (∀ i, ∃ r : ℝ, a0 i = (r : EReal))
    ∧ (∀ i, ∃ r : ℝ, a2 i = (r : EReal))
    ∧ (∀ i, ∃ r : ℝ, a3 i = (r : EReal))
    ∧ (∀ i, ∃ r : ℝ, a4 i = (r : EReal))
    ∧ (∀ i, ∃ r : ℝ, a5 i = (r : EReal))
    ∧ (∀ i, ∃ r : ℝ, a6 i = (r : EReal))
    ∧ (∀ i, ∃ r : ℝ, a7 i = (r : EReal))
    ∧ (∀ i, ∃ r : ℝ, a8 i = (r : EReal))
    ∧ (∀ i, ∃ r : ℝ, a9 i = (r : EReal))
    ∧ (∀ i, ∃ r : ℝ, a10 i = (r : EReal))
    ∧ (∀ i, ∃ r : ℝ, a11 i = (r : EReal)) := by
  have h0 := congrFun h ValueIdx.ix0
  dsimp only [fn, fn_part1, fn_part2, fn_part3] at h0
  have split : ∀ (x y : IVec S_ 1), andi x y ValueIdx.ix0 = 1#1 → x ValueIdx.ix0 = 1#1 ∧ y ValueIdx.ix0 = 1#1 :=
    fun x y e => IntOp.andi_eq_one.1 e
  obtain ⟨h0, e11⟩ := split _ _ h0
  obtain ⟨h0, e10⟩ := split _ _ h0
  obtain ⟨h0, e9⟩ := split _ _ h0
  obtain ⟨h0, e8⟩ := split _ _ h0
  obtain ⟨h0, e7⟩ := split _ _ h0
  obtain ⟨h0, e6⟩ := split _ _ h0
  obtain ⟨h0, e5⟩ := split _ _ h0
  obtain ⟨h0, e4⟩ := split _ _ h0
  obtain ⟨h0, e3⟩ := split _ _ h0
  obtain ⟨e0, e2⟩ := split _ _ h0
  exact ⟨elem_real a0 _ _ _ e0, elem_real a2 _ _ _ e2, elem_real a3 _ _ _ e3, elem_real a4 _ _ _ e4, elem_real a5 _ _ _ e5, elem_real a6 _ _ _ e6, elem_real a7 _ _ _ e7, elem_real a8 _ _ _ e8, elem_real a9 _ _ _ e9, elem_real a10 _ _ _ e10, elem_real a11 _ _ _ e11⟩

end Cert.Finite

end
-- ==== Proof.Algebraic.lean ====
/-
  The fifth conjunct: read at the exact reals, the kernel program and the reference compute one array.

  The kernel program's run ends with its result array at the last boundary's contents, which read index by index are
  the network in the kernels' grouping; the reference's run ends with its result at the fold of its operations, which
  read index by index are the network in the reference's grouping. The precondition makes every float argument a real
  number, and on real inputs the two groupings are one function; the arguments of the two runs agree by hypothesis.
-/
import proofs.«156713_j13589276524898_2_alg».proof.Defs
import proofs.«156713_j13589276524898_2_alg».proof.Proof.KI.Run
import proofs.«156713_j13589276524898_2_alg».proof.Proof.KIVal.Result
import proofs.«156713_j13589276524898_2_alg».proof.Proof.RefRun
import proofs.«156713_j13589276524898_2_alg».proof.Proof.RefVal.Result
import proofs.«156713_j13589276524898_2_alg».proof.Proof.Math.Final
import proofs.«156713_j13589276524898_2_alg».proof.Proof.Finite

set_option maxRecDepth 16384

noncomputable section

namespace Cert.Proof

open Idealize.ShloMosaic Idealize.ShloMosaic.TcCoe Idealize.ShloMosaic.ValueIdx Idealize.SL.Sem
open Cert.KernelIdeal.HandVal

section
variable [Cert.KernelIdeal.Facts] [Cert.ReferenceIdeal.Facts] [Cert.Pre_finite_inputs.Facts]

/-- Under the precondition every entry of every float argument of the kernel program is a real number. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i k, ∃ r : ℝ, xOf m c i k = r) ∧ (∀ a b, ∃ r : ℝ, w1Of m c a b = r) ∧ (∀ k, ∃ r : ℝ, b1Of m c k = r)
    ∧ (∀ k, ∃ r : ℝ, g1Of m c k = r) ∧ (∀ k, ∃ r : ℝ, be1Of m c k = r)
    ∧ (∀ a b, ∃ r : ℝ, w2Of m c a b = r) ∧ (∀ k, ∃ r : ℝ, b2Of m c k = r)
    ∧ (∀ k, ∃ r : ℝ, g2Of m c k = r) ∧ (∀ k, ∃ r : ℝ, be2Of m c k = r)
    ∧ (∀ a b, ∃ r : ℝ, wcOf m c a b = r) ∧ (∀ k, ∃ r : ℝ, bcOf m c k = r) := by
  obtain ⟨h0, h2, h3, h4, h5, h6, h7, h8, h9, h10, h11⟩ := Cert.Finite.all_real _ _ _ _ _ _ _ _ _ _ _ _ (hpre c)
  exact ⟨fun i k => h0 (ix2 i k), fun a b => h2 (ix2 a b), fun k => h3 (ix1 k), fun k => h4 (ix1 k), fun k => h5 (ix1 k),
    fun a b => h6 (ix2 a b), fun k => h7 (ix1 k), fun k => h8 (ix1 k), fun k => h9 (ix1 k), fun a b => h10 (ix2 a b), fun k => h11 (ix1 k)⟩

/-- The arguments of the two runs agree, so the reference's argument functions are the kernel program's. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.RefVal.gOf (StableHlo.launchContents m' c) = gOf m c
    ∧ Cert.ReferenceIdeal.RefVal.xOf (StableHlo.launchContents m' c) = xOf m c
    ∧ Cert.ReferenceIdeal.RefVal.w1Of (StableHlo.launchContents m' c) = w1Of m c
    ∧ Cert.ReferenceIdeal.RefVal.b1Of (StableHlo.launchContents m' c) = b1Of m c
    ∧ Cert.ReferenceIdeal.RefVal.g1Of (StableHlo.launchContents m' c) = g1Of m c
    ∧ Cert.ReferenceIdeal.RefVal.be1Of (StableHlo.launchContents m' c) = be1Of m c
    ∧ Cert.ReferenceIdeal.RefVal.w2Of (StableHlo.launchContents m' c) = w2Of m c
    ∧ Cert.ReferenceIdeal.RefVal.b2Of (StableHlo.launchContents m' c) = b2Of m c
    ∧ Cert.ReferenceIdeal.RefVal.g2Of (StableHlo.launchContents m' c) = g2Of m c
    ∧ Cert.ReferenceIdeal.RefVal.be2Of (StableHlo.launchContents m' c) = be2Of m c
    ∧ Cert.ReferenceIdeal.RefVal.wcOf (StableHlo.launchContents m' c) = wcOf m c
    ∧ Cert.ReferenceIdeal.RefVal.bcOf (StableHlo.launchContents m' c) = bcOf m c := by
  refine ⟨?_, ?_, ?_, ?_, ?_, ?_, ?_, ?_, ?_, ?_, ?_, ?_⟩
  · show Cert.Stages.extend (Cert.ReferenceIdeal.RefVal.eiOf (StableHlo.launchContents m' c)) = Cert.Stages.extend (eiOf m c)
    congr 1
    funext r e
    exact congrFun h.2.1 (ix2 r e)
  · funext i k; exact congrFun h.1 (ix2 i k)
  · funext i k; exact congrFun h.2.2.1 (ix2 i k)
  · funext k; exact congrFun h.2.2.2.1 (ix1 k)
  · funext k; exact congrFun h.2.2.2.2.1 (ix1 k)
  · funext k; exact congrFun h.2.2.2.2.2.1 (ix1 k)
  · funext i k; exact congrFun h.2.2.2.2.2.2.1 (ix2 i k)
  · funext k; exact congrFun h.2.2.2.2.2.2.2.1 (ix1 k)
  · funext k; exact congrFun h.2.2.2.2.2.2.2.2.1 (ix1 k)
  · funext k; exact congrFun h.2.2.2.2.2.2.2.2.2.1 (ix1 k)
  · funext i k; exact congrFun h.2.2.2.2.2.2.2.2.2.2.1 (ix2 i k)
  · funext k; exact congrFun h.2.2.2.2.2.2.2.2.2.2.2 (ix1 k)

/-- THE FIFTH CONJUNCT. -/
theorem algebraic : Cert.algebraic_KernelIdeal_ReferenceIdeal := by
  intro m ρ m' ρ' hpre hagree
  refine ⟨fun c => Cert.KernelIdeal.Hand.W12 m c (Proc.devRef .tc Cert.KernelIdeal.main_v63), ?_, ?_⟩
  · -- the kernel program's run: the result array at the last boundary's contents, the arguments as launched
    exact (θ_run Cert.KernelIdeal.defs _ _).mono (fun _ h c =>
      ⟨h c _ (Cert.KernelIdeal.Hand.mem_uc Cert.KernelIdeal.main_v63 (by decide)),
       (h c _ (Cert.KernelIdeal.Hand.mem_uc Cert.KernelIdeal.main_arg0 (by decide))).trans (Cert.KernelIdeal.Hand.W12_main_arg0 m c),
       (h c _ (Cert.KernelIdeal.Hand.mem_uc Cert.KernelIdeal.main_arg1 (by decide))).trans (Cert.KernelIdeal.Hand.W12_main_arg1 m c),
       (h c _ (Cert.KernelIdeal.Hand.mem_uc Cert.KernelIdeal.main_arg2 (by decide))).trans (Cert.KernelIdeal.Hand.W12_main_arg2 m c),
       (h c _ (Cert.KernelIdeal.Hand.mem_uc Cert.KernelIdeal.main_arg3 (by decide))).trans (Cert.KernelIdeal.Hand.W12_main_arg3 m c),
       (h c _ (Cert.KernelIdeal.Hand.mem_uc Cert.KernelIdeal.main_arg4 (by decide))).trans (Cert.KernelIdeal.Hand.W12_main_arg4 m c),
       (h c _ (Cert.KernelIdeal.Hand.mem_uc Cert.KernelIdeal.main_arg5 (by decide))).trans (Cert.KernelIdeal.Hand.W12_main_arg5 m c),
       (h c _ (Cert.KernelIdeal.Hand.mem_uc Cert.KernelIdeal.main_arg6 (by decide))).trans (Cert.KernelIdeal.Hand.W12_main_arg6 m c),
       (h c _ (Cert.KernelIdeal.Hand.mem_uc Cert.KernelIdeal.main_arg7 (by decide))).trans (Cert.KernelIdeal.Hand.W12_main_arg7 m c),
       (h c _ (Cert.KernelIdeal.Hand.mem_uc Cert.KernelIdeal.main_arg8 (by decide))).trans (Cert.KernelIdeal.Hand.W12_main_arg8 m c),
       (h c _ (Cert.KernelIdeal.Hand.mem_uc Cert.KernelIdeal.main_arg9 (by decide))).trans (Cert.KernelIdeal.Hand.W12_main_arg9 m c),
       (h c _ (Cert.KernelIdeal.Hand.mem_uc Cert.KernelIdeal.main_arg10 (by decide))).trans (Cert.KernelIdeal.Hand.W12_main_arg10 m c),
       (h c _ (Cert.KernelIdeal.Hand.mem_uc Cert.KernelIdeal.main_arg11 (by decide))).trans (Cert.KernelIdeal.Hand.W12_main_arg11 m c)⟩)
      (Cert.KernelIdeal.Hand.run_all (F := Ideal) m ρ)
  · -- the reference's run: the same array, its arguments as launched
    refine (θ_run Cert.ReferenceIdeal.defs _ _).mono (fun _ h c => ⟨(h c Cert.ReferenceIdeal.main_v142).trans ?_,
       (h c Cert.ReferenceIdeal.main_arg0).trans (Cert.ReferenceIdeal.RefRun.kept _ (by decide) (by decide) (by decide)),
       (h c Cert.ReferenceIdeal.main_arg1).trans (Cert.ReferenceIdeal.RefRun.kept _ (by decide) (by decide) (by decide)),
       (h c Cert.ReferenceIdeal.main_arg2).trans (Cert.ReferenceIdeal.RefRun.kept _ (by decide) (by decide) (by decide)),
       (h c Cert.ReferenceIdeal.main_arg3).trans (Cert.ReferenceIdeal.RefRun.kept _ (by decide) (by decide) (by decide)),
       (h c Cert.ReferenceIdeal.main_arg4).trans (Cert.ReferenceIdeal.RefRun.kept _ (by decide) (by decide) (by decide)),
       (h c Cert.ReferenceIdeal.main_arg5).trans (Cert.ReferenceIdeal.RefRun.kept _ (by decide) (by decide) (by decide)),
       (h c Cert.ReferenceIdeal.main_arg6).trans (Cert.ReferenceIdeal.RefRun.kept _ (by decide) (by decide) (by decide)),
       (h c Cert.ReferenceIdeal.main_arg7).trans (Cert.ReferenceIdeal.RefRun.kept _ (by decide) (by decide) (by decide)),
       (h c Cert.ReferenceIdeal.main_arg8).trans (Cert.ReferenceIdeal.RefRun.kept _ (by decide) (by decide) (by decide)),
       (h c Cert.ReferenceIdeal.main_arg9).trans (Cert.ReferenceIdeal.RefRun.kept _ (by decide) (by decide) (by decide)),
       (h c Cert.ReferenceIdeal.main_arg10).trans (Cert.ReferenceIdeal.RefRun.kept _ (by decide) (by decide) (by decide)),
       (h c Cert.ReferenceIdeal.main_arg11).trans (Cert.ReferenceIdeal.RefRun.kept _ (by decide) (by decide) (by decide))⟩)
      (Cert.ReferenceIdeal.RefRun.run (F := Ideal) m' ρ')
    -- the two arrays are one function, index by index
    obtain ⟨hg, hx, hw1, hb1, hg1, hbe1, hw2, hb2, hg2, hbe2, hwc, hbc⟩ := args_agree m m' c (hagree c)
    obtain ⟨rx, rw1, rb1, rg1, rbe1, rw2, rb2, rg2, rbe2, rwc, rbc⟩ := args_real m hpre c
    funext idx
    obtain ⟨i, j, rfl⟩ : ∃ (i : Fin 100000) (j : Fin 64), idx = ix2 i j := ⟨idx 0, idx 1, eq_ix2 idx⟩
    refine (Cert.ReferenceIdeal.RefVal.result_eq (StableHlo.launchContents m' c) i j).trans ?_
    rw [hg, hx, hw1, hb1, hg1, hbe1, hw2, hb2, hg2, hbe2, hwc, hbc]
    rw [← Cert.Stages.finalK_eq_finalR _ _ _ _ _ _ _ _ _ _ _ _ rx rw1 rb1 rg1 rbe1 rw2 rb2 rg2 rbe2 rwc rbc]
    exact (Cert.KernelIdeal.HandVal.result_eq m c i j).symm

end

end Cert.Proof

end
-- ==== Proof.lean ====
/-
  The proof of `Cert.Claim`: a two-layer graph-convolution network (degree normalisation, neighbourhood sums, batch
  normalisation, ReLU, a classifier and a row-wise log-softmax) computed by five tiled kernels around host
  gathers and scatter-adds, against its plain array-language reference.

  The five conjuncts: the three programs run to the end and leave their argument arrays as launched; the kernel's
  idealisation rewrote no operation, so the fourth conjunct is `True`; and, read at the exact extended reals, both
  programs compute one array of log-probabilities from arguments that agree.

  The reference is a straight line of host operations: its run is read back in Proof/RefRun.lean, and its frame
  is that run with the buffers' values dropped. The kernel program is twelve items — seven stretches of host
  operations and five kernel regions — run in Proof/KI/Run.lean (and, word for word, Proof/K/Run.lean for the
  program read at machine words): three regions store one pointwise-and-matmul block per grid point; two carry
  running column sums in scratch memory across the twenty points and write their outputs at the last.

  For the fifth conjunct (Proof/Algebraic.lean) both result arrays are read index by index as the network written
  over plain sums (Proof/Stages.lean): the kernel program's in the kernels' grouping, the reference's in its own.
  The precondition makes every float argument a real number (Proof/Finite.lean), and on real inputs the two
  groupings are one function (Proof/Math): a real degree factor moves in and out of a finite sum, twenty running
  block sums regroup into the sum over all rows, `E y² − (E y)²` is the mean of the centred squares, and the
  maximum against minus infinity and the sum from zero change nothing.
-/
import proofs.«156713_j13589276524898_2_alg».proof.Defs
import proofs.«156713_j13589276524898_2_alg».proof.Proof.Gen.Kernel
import proofs.«156713_j13589276524898_2_alg».proof.Proof.Gen.Kernel.Skeleton
import proofs.«156713_j13589276524898_2_alg».proof.Proof.Gen.Kernel.Launch
import proofs.«156713_j13589276524898_2_alg».proof.Proof.Gen.Kernel.Regions
import proofs.«156713_j13589276524898_2_alg».proof.Proof.Gen.Kernel.Points
import proofs.«156713_j13589276524898_2_alg».proof.Proof.Gen.KernelIdeal
import proofs.«156713_j13589276524898_2_alg».proof.Proof.Gen.KernelIdeal.Skeleton
import proofs.«156713_j13589276524898_2_alg».proof.Proof.Gen.KernelIdeal.Launch
import proofs.«156713_j13589276524898_2_alg».proof.Proof.Gen.KernelIdeal.Regions
import proofs.«156713_j13589276524898_2_alg».proof.Proof.Gen.KernelIdeal.Points
import proofs.«156713_j13589276524898_2_alg».proof.Proof.Gen.ReferenceIdeal
import proofs.«156713_j13589276524898_2_alg».proof.Proof.Gen.Pre_finite_inputs
import proofs.«156713_j13589276524898_2_alg».proof.Proof.RefRun
import proofs.«156713_j13589276524898_2_alg».proof.Proof.K.Run
import proofs.«156713_j13589276524898_2_alg».proof.Proof.KI.Run
import proofs.«156713_j13589276524898_2_alg».proof.Proof.Algebraic
import Idealize.ShloMosaic.Adequacy
import Idealize.ShloMosaic.Init

noncomputable section

namespace Cert.Proof

open Idealize.ShloMosaic Idealize.SL.Sem

/-- The kernel program, read at machine words, runs to the end and its argument arrays end as launched. -/
theorem frame_k [Cert.Kernel.Facts] [Cert.Pre_finite_inputs.Facts] : Cert.frame_Kernel :=
  fun m ρ _ => Cert.Kernel.Hand.frame (F := Bits) m ρ

/-- The same of the kernel program read at the exact reals. -/
theorem frame_ki [Cert.KernelIdeal.Facts] [Cert.Pre_finite_inputs.Facts] : Cert.frame_KernelIdeal :=
  fun m ρ _ => Cert.KernelIdeal.Hand.frame (F := Ideal) m ρ

/-- The reference runs to the end and its argument arrays end as launched: its run read back, the values dropped. -/
theorem frame_ri [Cert.ReferenceIdeal.Facts] [Cert.Pre_finite_inputs.Facts] : Cert.frame_ReferenceIdeal :=
  fun m ρ _ => Cert.ReferenceIdeal.RefRun.frame (F := Ideal) m ρ

/-- The idealisation rewrote nothing: the kernel's idealised text is its own text read at the exact reals. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts, by
  exact ⟨frame_k, frame_ki, frame_ri, preserves, algebraic⟩⟩

end Cert.Proof

end
